-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v419)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v419) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v445) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S2x320000 : Shape := ⟨2, ![2, 320000]⟩
abbrev S320000x7 : Shape := ⟨2, ![320000, 7]⟩
abbrev S119x300 : Shape := ⟨2, ![119, 300]⟩
abbrev S7x300 : Shape := ⟨2, ![7, 300]⟩
abbrev S300 : Shape := ⟨1, ![300]⟩
abbrev S5 : Shape := ⟨1, ![5]⟩
abbrev S5x300x300 : Shape := ⟨3, ![5, 300, 300]⟩
abbrev S5x300 : Shape := ⟨2, ![5, 300]⟩
abbrev S300x150 : Shape := ⟨2, ![300, 150]⟩
abbrev S150 : Shape := ⟨1, ![150]⟩
abbrev S150x6 : Shape := ⟨2, ![150, 6]⟩
abbrev S6 : Shape := ⟨1, ![6]⟩
abbrev S_ : Shape := ⟨0, ![]⟩

class Facts : Prop where
  bcast_S_S320000x7 : S_.BroadcastsInDim S320000x7 (![] : Fin 0 → Fin S320000x7.rank)
  reducesTo_S320000x7_S_d0_1 : S320000x7.ReducesTo [0, 1] S_
  h_S_ : 0 < S_.numel
  bcast_S_S119x300 : S_.BroadcastsInDim S119x300 (![] : Fin 0 → Fin S119x300.rank)
  reducesTo_S119x300_S_d0_1 : S119x300.ReducesTo [0, 1] S_
  bcast_S_S7x300 : S_.BroadcastsInDim S7x300 (![] : Fin 0 → Fin S7x300.rank)
  reducesTo_S7x300_S_d0_1 : S7x300.ReducesTo [0, 1] S_
  bcast_S_S300 : S_.BroadcastsInDim S300 (![] : Fin 0 → Fin S300.rank)
  reducesTo_S300_S_d0 : S300.ReducesTo [0] S_
  bcast_S_S5 : S_.BroadcastsInDim S5 (![] : Fin 0 → Fin S5.rank)
  reducesTo_S5_S_d0 : S5.ReducesTo [0] S_
  bcast_S_S5x300x300 : S_.BroadcastsInDim S5x300x300 (![] : Fin 0 → Fin S5x300x300.rank)
  reducesTo_S5x300x300_S_d0_1_2 : S5x300x300.ReducesTo [0, 1, 2] S_
  bcast_S_S5x300 : S_.BroadcastsInDim S5x300 (![] : Fin 0 → Fin S5x300.rank)
  reducesTo_S5x300_S_d0_1 : S5x300.ReducesTo [0, 1] S_
  bcast_S_S300x150 : S_.BroadcastsInDim S300x150 (![] : Fin 0 → Fin S300x150.rank)
  reducesTo_S300x150_S_d0_1 : S300x150.ReducesTo [0, 1] S_
  bcast_S_S150 : S_.BroadcastsInDim S150 (![] : Fin 0 → Fin S150.rank)
  reducesTo_S150_S_d0 : S150.ReducesTo [0] S_
  bcast_S_S150x6 : S_.BroadcastsInDim S150x6 (![] : Fin 0 → Fin S150x6.rank)
  reducesTo_S150x6_S_d0_1 : S150x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg17 : FVec F S150 .f32) (main_arg18 : FVec F S150x6 .f32) (main_arg19 : FVec F S6 .f32) (main_v63 : IVec S_ 1) (main_v67 : IVec S_ 1) : IVec S_ 1 :=
  let main_v68 : IVec S_ 1 := andi main_v63 main_v67
  let main_v69 : FVec F S150 .f32 := Host.absf main_arg17
  let main_cst_26 : FVec F S_ .f32 := constant S_ .f32 0x7F800000#32
  let main_v70 : FVec F S150 .f32 := broadcastInDim S150 ![] bcast_S_S150 main_cst_26
  let main_v71 : IVec S150 1 := cmpf .olt main_v69 main_v70
  let main_c_27 : IVec S_ 1 := constantI S_ 1 1#1
  let main_v72 : IVec S_ 1 := (fun x v => Host.reduce IntOp.andi x v reducesTo_S150_S_d0 h_S_) main_v71 main_c_27
  let main_v73 : IVec S_ 1 := andi main_v68 main_v72
  let main_v74 : FVec F S150x6 .f32 := Host.absf main_arg18
  let main_cst_28 : FVec F S_ .f32 := constant S_ .f32 0x7F800000#32
  let main_v75 : FVec F S150x6 .f32 := broadcastInDim S150x6 ![] bcast_S_S150x6 main_cst_28
  let main_v76 : IVec S150x6 1 := cmpf .olt main_v74 main_v75
  let main_c_29 : IVec S_ 1 := constantI S_ 1 1#1
  let main_v77 : IVec S_ 1 := (fun x v => Host.reduce IntOp.andi x v reducesTo_S150x6_S_d0_1 h_S_) main_v76 main_c_29
  let main_v78 : IVec S_ 1 := andi main_v73 main_v77
  let main_v79 : FVec F S6 .f32 := Host.absf main_arg19
  let main_cst_30 : FVec F S_ .f32 := constant S_ .f32 0x7F800000#32
  let main_v80 : FVec F S6 .f32 := broadcastInDim S6 ![] bcast_S_S6 main_cst_30
  let main_v81 : IVec S6 1 := cmpf .olt main_v79 main_v80
  let main_c_31 : IVec S_ 1 := constantI S_ 1 1#1
  let main_v82 : IVec S_ 1 := (fun x v => Host.reduce IntOp.andi x v reducesTo_S6_S_d0 h_S_) main_v81 main_c_31
  let main_v83 : IVec S_ 1 := andi main_v78 main_v82
  main_v83

def fn_part3 {F : FTy → Type} [FloatOps F] (main_arg14 : FVec F S5x300 .f32) (main_arg15 : FVec F S5x300 .f32) (main_arg16 : FVec F S300x150 .f32) (main_arg17 : FVec F S150 .f32) (main_arg18 : FVec F S150x6 .f32) (main_arg19 : FVec F S6 .f32) (main_v48 : IVec S_ 1) (main_v49 : FVec F S5x300 .f32) (main_v50 : FVec F S5x300 .f32) : IVec S_ 1 :=
  let main_v51 : IVec S5x300 1 := cmpf .olt main_v49 main_v50
  let main_c_19 : IVec S_ 1 := constantI S_ 1 1#1
  let main_v52 : IVec S_ 1 := (fun x v => Host.reduce IntOp.andi x v reducesTo_S5x300_S_d0_1 h_S_) main_v51 main_c_19
  let main_v53 : IVec S_ 1 := andi main_v48 main_v52
  let main_v54 : FVec F S5x300 .f32 := Host.absf main_arg14
  let main_cst_20 : FVec F S_ .f32 := constant S_ .f32 0x7F800000#32
  let main_v55 : FVec F S5x300 .f32 := broadcastInDim S5x300 ![] bcast_S_S5x300 main_cst_20
  let main_v56 : IVec S5x300 1 := cmpf .olt main_v54 main_v55
  let main_c_21 : IVec S_ 1 := constantI S_ 1 1#1
  let main_v57 : IVec S_ 1 := (fun x v => Host.reduce IntOp.andi x v reducesTo_S5x300_S_d0_1 h_S_) main_v56 main_c_21
  let main_v58 : IVec S_ 1 := andi main_v53 main_v57
  let main_v59 : FVec F S5x300 .f32 := Host.absf main_arg15
  let main_cst_22 : FVec F S_ .f32 := constant S_ .f32 0x7F800000#32
  let main_v60 : FVec F S5x300 .f32 := broadcastInDim S5x300 ![] bcast_S_S5x300 main_cst_22
  let main_v61 : IVec S5x300 1 := cmpf .olt main_v59 main_v60
  let main_c_23 : IVec S_ 1 := constantI S_ 1 1#1
  let main_v62 : IVec S_ 1 := (fun x v => Host.reduce IntOp.andi x v reducesTo_S5x300_S_d0_1 h_S_) main_v61 main_c_23
  let main_v63 : IVec S_ 1 := andi main_v58 main_v62
  let main_v64 : FVec F S300x150 .f32 := Host.absf main_arg16
  let main_cst_24 : FVec F S_ .f32 := constant S_ .f32 0x7F800000#32
  let main_v65 : FVec F S300x150 .f32 := broadcastInDim S300x150 ![] bcast_S_S300x150 main_cst_24
  let main_v66 : IVec S300x150 1 := cmpf .olt main_v64 main_v65
  let main_c_25 : IVec S_ 1 := constantI S_ 1 1#1
  let main_v67 : IVec S_ 1 := (fun x v => Host.reduce IntOp.andi x v reducesTo_S300x150_S_d0_1 h_S_) main_v66 main_c_25
  fn_part4 (F := F) main_arg17 main_arg18 main_arg19 main_v63 main_v67

def fn_part2 {F : FTy → Type} [FloatOps F] (main_arg10 : FVec F S5x300 .f32) (main_arg11 : FVec F S5x300 .f32) (main_arg12 : FVec F S5x300x300 .f32) (main_arg13 : FVec F S5x300 .f32) (main_arg14 : FVec F S5x300 .f32) (main_arg15 : FVec F S5x300 .f32) (main_arg16 : FVec F S300x150 .f32) (main_arg17 : FVec F S150 .f32) (main_arg18 : FVec F S150x6 .f32) (main_arg19 : FVec F S6 .f32) (main_v33 : IVec S_ 1) : IVec S_ 1 :=
  let main_v34 : FVec F S5x300 .f32 := Host.absf main_arg10
  let main_cst_12 : FVec F S_ .f32 := constant S_ .f32 0x7F800000#32
  let main_v35 : FVec F S5x300 .f32 := broadcastInDim S5x300 ![] bcast_S_S5x300 main_cst_12
  let main_v36 : IVec S5x300 1 := cmpf .olt main_v34 main_v35
  let main_c_13 : IVec S_ 1 := constantI S_ 1 1#1
  let main_v37 : IVec S_ 1 := (fun x v => Host.reduce IntOp.andi x v reducesTo_S5x300_S_d0_1 h_S_) main_v36 main_c_13
  let main_v38 : IVec S_ 1 := andi main_v33 main_v37
  let main_v39 : FVec F S5x300 .f32 := Host.absf main_arg11
  let main_cst_14 : FVec F S_ .f32 := constant S_ .f32 0x7F800000#32
  let main_v40 : FVec F S5x300 .f32 := broadcastInDim S5x300 ![] bcast_S_S5x300 main_cst_14
  let main_v41 : IVec S5x300 1 := cmpf .olt main_v39 main_v40
  let main_c_15 : IVec S_ 1 := constantI S_ 1 1#1
  let main_v42 : IVec S_ 1 := (fun x v => Host.reduce IntOp.andi x v reducesTo_S5x300_S_d0_1 h_S_) main_v41 main_c_15
  let main_v43 : IVec S_ 1 := andi main_v38 main_v42
  let main_v44 : FVec F S5x300x300 .f32 := Host.absf main_arg12
  let main_cst_16 : FVec F S_ .f32 := constant S_ .f32 0x7F800000#32
  let main_v45 : FVec F S5x300x300 .f32 := broadcastInDim S5x300x300 ![] bcast_S_S5x300x300 main_cst_16
  let main_v46 : IVec S5x300x300 1 := cmpf .olt main_v44 main_v45
  let main_c_17 : IVec S_ 1 := constantI S_ 1 1#1
  let main_v47 : IVec S_ 1 := (fun x v => Host.reduce IntOp.andi x v reducesTo_S5x300x300_S_d0_1_2 h_S_) main_v46 main_c_17
  let main_v48 : IVec S_ 1 := andi main_v43 main_v47
  let main_v49 : FVec F S5x300 .f32 := Host.absf main_arg13
  let main_cst_18 : FVec F S_ .f32 := constant S_ .f32 0x7F800000#32
  let main_v50 : FVec F S5x300 .f32 := broadcastInDim S5x300 ![] bcast_S_S5x300 main_cst_18
  fn_part3 (F := F) main_arg14 main_arg15 main_arg16 main_arg17 main_arg18 main_arg19 main_v48 main_v49 main_v50

def fn_part1 {F : FTy → Type} [FloatOps F] (main_arg7 : FVec F S5 .f32) (main_arg8 : FVec F S5x300x300 .f32) (main_arg9 : FVec F S5x300 .f32) (main_arg10 : FVec F S5x300 .f32) (main_arg11 : FVec F S5x300 .f32) (main_arg12 : FVec F S5x300x300 .f32) (main_arg13 : FVec F S5x300 .f32) (main_arg14 : FVec F S5x300 .f32) (main_arg15 : FVec F S5x300 .f32) (main_arg16 : FVec F S300x150 .f32) (main_arg17 : FVec F S150 .f32) (main_arg18 : FVec F S150x6 .f32) (main_arg19 : FVec F S6 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S5 .f32 := Host.absf main_arg7
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x300x300 .f32 := Host.absf main_arg8
  let main_cst_8 : FVec F S_ .f32 := constant S_ .f32 0x7F800000#32
  let main_v25 : FVec F S5x300x300 .f32 := broadcastInDim S5x300x300 ![] bcast_S_S5x300x300 main_cst_8
  let main_v26 : IVec S5x300x300 1 := cmpf .olt main_v24 main_v25
  let main_c_9 : IVec S_ 1 := constantI S_ 1 1#1
  let main_v27 : IVec S_ 1 := (fun x v => Host.reduce IntOp.andi x v reducesTo_S5x300x300_S_d0_1_2 h_S_) main_v26 main_c_9
  let main_v28 : IVec S_ 1 := andi main_v23 main_v27
  let main_v29 : FVec F S5x300 .f32 := Host.absf main_arg9
  let main_cst_10 : FVec F S_ .f32 := constant S_ .f32 0x7F800000#32
  let main_v30 : FVec F S5x300 .f32 := broadcastInDim S5x300 ![] bcast_S_S5x300 main_cst_10
  let main_v31 : IVec S5x300 1 := cmpf .olt main_v29 main_v30
  let main_c_11 : IVec S_ 1 := constantI S_ 1 1#1
  let main_v32 : IVec S_ 1 := (fun x v => Host.reduce IntOp.andi x v reducesTo_S5x300_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : IVec S20000 32) (main_arg1 : IVec S2x320000 32) (main_arg2 : IVec S20000 32) (main_arg3 : FVec F S320000x7 .f32) (main_arg4 : FVec F S119x300 .f32) (main_arg5 : FVec F S7x300 .f32) (main_arg6 : FVec F S300 .f32) (main_arg7 : FVec F S5 .f32) (main_arg8 : FVec F S5x300x300 .f32) (main_arg9 : FVec F S5x300 .f32) (main_arg10 : FVec F S5x300 .f32) (main_arg11 : FVec F S5x300 .f32) (main_arg12 : FVec F S5x300x300 .f32) (main_arg13 : FVec F S5x300 .f32) (main_arg14 : FVec F S5x300 .f32) (main_arg15 : FVec F S5x300 .f32) (main_arg16 : FVec F S300x150 .f32) (main_arg17 : FVec F S150 .f32) (main_arg18 : FVec F S150x6 .f32) (main_arg19 : FVec F S6 .f32) : IVec S_ 1 :=
  let main_v0 : FVec F S320000x7 .f32 := Host.absf main_arg3
  let main_cst : FVec F S_ .f32 := constant S_ .f32 0x7F800000#32
  let main_v1 : FVec F S320000x7 .f32 := broadcastInDim S320000x7 ![] bcast_S_S320000x7 main_cst
  let main_v2 : IVec S320000x7 1 := cmpf .olt main_v0 main_v1
  let main_c : IVec S_ 1 := constantI S_ 1 1#1
  let main_v3 : IVec S_ 1 := (fun x v => Host.reduce IntOp.andi x v reducesTo_S320000x7_S_d0_1 h_S_) main_v2 main_c
  let main_v4 : FVec F S119x300 .f32 := Host.absf main_arg4
  let main_cst_0 : FVec F S_ .f32 := constant S_ .f32 0x7F800000#32
  let main_v5 : FVec F S119x300 .f32 := broadcastInDim S119x300 ![] bcast_S_S119x300 main_cst_0
  let main_v6 : IVec S119x300 1 := cmpf .olt main_v4 main_v5
  let main_c_1 : IVec S_ 1 := constantI S_ 1 1#1
  let main_v7 : IVec S_ 1 := (fun x v => Host.reduce IntOp.andi x v reducesTo_S119x300_S_d0_1 h_S_) main_v6 main_c_1
  let main_v8 : IVec S_ 1 := andi main_v3 main_v7
  let main_v9 : FVec F S7x300 .f32 := Host.absf main_arg5
  let main_cst_2 : FVec F S_ .f32 := constant S_ .f32 0x7F800000#32
  let main_v10 : FVec F S7x300 .f32 := broadcastInDim S7x300 ![] bcast_S_S7x300 main_cst_2
  let main_v11 : IVec S7x300 1 := cmpf .olt main_v9 main_v10
  let main_c_3 : IVec S_ 1 := constantI S_ 1 1#1
  let main_v12 : IVec S_ 1 := (fun x v => Host.reduce IntOp.andi x v reducesTo_S7x300_S_d0_1 h_S_) main_v11 main_c_3
  let main_v13 : IVec S_ 1 := andi main_v8 main_v12
  let main_v14 : FVec F S300 .f32 := Host.absf main_arg6
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S20000 : Shape := ⟨1, ![20000]⟩
abbrev S2x320000 : Shape := ⟨2, ![2, 320000]⟩
abbrev S320000x7 : Shape := ⟨2, ![320000, 7]⟩
abbrev S119x300 : Shape := ⟨2, ![119, 300]⟩
abbrev S7x300 : Shape := ⟨2, ![7, 300]⟩
abbrev S300 : Shape := ⟨1, ![300]⟩
abbrev S5 : Shape := ⟨1, ![5]⟩
abbrev S5x300x300 : Shape := ⟨3, ![5, 300, 300]⟩
abbrev S5x300 : Shape := ⟨2, ![5, 300]⟩
abbrev S300x150 : Shape := ⟨2, ![300, 150]⟩
abbrev S150 : Shape := ⟨1, ![150]⟩
abbrev S150x6 : Shape := ⟨2, ![150, 6]⟩
abbrev S6 : Shape := ⟨1, ![6]⟩
abbrev S1x320000 : Shape := ⟨2, ![1, 320000]⟩
abbrev S320000 : Shape := ⟨1, ![320000]⟩
abbrev S_ : Shape := ⟨0, ![]⟩
abbrev S20000x1 : Shape := ⟨2, ![20000, 1]⟩
abbrev S20000x300 : Shape := ⟨2, ![20000, 300]⟩
abbrev S1x300 : Shape := ⟨2, ![1, 300]⟩
abbrev S320000x300 : Shape := ⟨2, ![320000, 300]⟩
abbrev S4000x7 : Shape := ⟨2, ![4000, 7]⟩
abbrev S4000x300 : Shape := ⟨2, ![4000, 300]⟩
abbrev S320000x1 : Shape := ⟨2, ![320000, 1]⟩
abbrev S1 : Shape := ⟨1, ![1]⟩
abbrev S1x1 : Shape := ⟨2, ![1, 1]⟩
abbrev S1x300x300 : Shape := ⟨3, ![1, 300, 300]⟩
abbrev S300x300 : Shape := ⟨2, ![300, 300]⟩
abbrev S10x2x300 : Shape := ⟨3, ![10, 2, 300]⟩
abbrev S2000x300 : Shape := ⟨2, ![2000, 300]⟩
abbrev S1x2x300 : Shape := ⟨3, ![1, 2, 300]⟩
abbrev S1x1x300 : Shape := ⟨3, ![1, 1, 300]⟩
abbrev S10x1x300 : Shape := ⟨3, ![10, 1, 300]⟩
abbrev S10x300 : Shape := ⟨2, ![10, 300]⟩
abbrev S128 : Shape := ⟨1, ![128]⟩
abbrev S128x300 : Shape := ⟨2, ![128, 300]⟩
abbrev S128x1 : Shape := ⟨2, ![128, 1]⟩
abbrev S128x150 : Shape := ⟨2, ![128, 150]⟩
abbrev S1x150 : Shape := ⟨2, ![1, 150]⟩
abbrev S128x6 : Shape := ⟨2, ![128, 6]⟩
abbrev S1x6 : Shape := ⟨2, ![1, 6]⟩

abbrev nBuf : Space → Nat
  | .hbm => 538
  | .vmem => 171
  | .smem => 0
  | _ => 0

abbrev hbmTy0_0 (i : Nat) : BufTy := match i % 128 with
  | 0 => ⟨S20000, .i32⟩
  | 1 => ⟨S2x320000, .i32⟩
  | 2 => ⟨S20000, .i32⟩
  | 3 => ⟨S320000x7, .f32⟩
  | 4 => ⟨S119x300, .f32⟩
  | 5 => ⟨S7x300, .f32⟩
  | 6 => ⟨S300, .f32⟩
  | 7 => ⟨S5, .f32⟩
  | 8 => ⟨S5x300x300, .f32⟩
  | 9 => ⟨S5x300, .f32⟩
  | 10 => ⟨S5x300, .f32⟩
  | 11 => ⟨S5x300, .f32⟩
  | 12 => ⟨S5x300x300, .f32⟩
  | 13 => ⟨S5x300, .f32⟩
  | 14 => ⟨S5x300, .f32⟩
  | 15 => ⟨S5x300, .f32⟩
  | 16 => ⟨S300x150, .f32⟩
  | 17 => ⟨S150, .f32⟩
  | 18 => ⟨S150x6, .f32⟩
  | 19 => ⟨S6, .f32⟩
  | 20 => ⟨S1x320000, .i32⟩
  | 21 => ⟨S320000, .i32⟩
  | 22 => ⟨S1x320000, .i32⟩
  | 23 => ⟨S320000, .i32⟩
  | 24 => ⟨S_, .i32⟩
  | 25 => ⟨S20000, .i32⟩
  | 26 => ⟨S20000, .i1⟩
  | 27 => ⟨S_, .i32⟩
  | 28 => ⟨S20000, .i32⟩
  | 29 => ⟨S20000, .i32⟩
  | 30 => ⟨S20000, .i32⟩
  | 31 => ⟨S20000x1, .i32⟩
  | 32 => ⟨S20000x300, .f32⟩
  | 33 => ⟨S20000x300, .bf16⟩
  | 34 => ⟨S1x300, .f32⟩
  | 35 => ⟨S320000x300, .bf16⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x300, .bf16⟩
  | 45 => ⟨S320000x300, .f32⟩
  | 46 => ⟨S320000x300, .f32⟩
  | 47 => ⟨S320000x300, .f32⟩
  | 48 => ⟨S_, .f32⟩
  | 49 => ⟨S320000x300, .f32⟩
  | 50 => ⟨S320000x300, .f32⟩
  | 51 => ⟨S_, .f32⟩
  | 52 => ⟨S20000x300, .f32⟩
  | 53 => ⟨S320000x1, .i32⟩
  | 54 => ⟨S20000x300, .f32⟩
  | 55 => ⟨S1, .f32⟩
  | 56 => ⟨S_, .f32⟩
  | 57 => ⟨S_, .f32⟩
  | 58 => ⟨S_, .f32⟩
  | 59 => ⟨S1x1, .f32⟩
  | 60 => ⟨S1x300, .f32⟩
  | 61 => ⟨S1x300x300, .f32⟩
  | 62 => ⟨S300x300, .f32⟩
  | 63 => ⟨S1x300, .f32⟩
  | 64 => ⟨S300, .f32⟩
  | 65 => ⟨S1x300, .f32⟩
  | 66 => ⟨S20000x300, .f32⟩
  | 67 => ⟨S10x2x300, .f32⟩
  | 68 => ⟨S10x1x300, .f32⟩
  | 69 => ⟨S10x300, .f32⟩
  | 70 => ⟨S_, .f32⟩
  | 71 => ⟨S300, .f32⟩
  | 72 => ⟨S10x1x300, .f32⟩
  | 73 => ⟨S10x300, .f32⟩
  | 74 => ⟨S_, .f32⟩
  | 75 => ⟨S300, .f32⟩
  | 76 => ⟨S_, .f32⟩
  | 77 => ⟨S300, .f32⟩
  | 78 => ⟨S300, .f32⟩
  | 79 => ⟨S_, .f32⟩
  | 80 => ⟨S300, .f32⟩
  | 81 => ⟨S300, .f32⟩
  | 82 => ⟨S300, .f32⟩
  | 83 => ⟨S300, .f32⟩
  | 84 => ⟨S_, .f32⟩
  | 85 => ⟨S300, .f32⟩
  | 86 => ⟨S300, .f32⟩
  | 87 => ⟨S1x300, .f32⟩
  | 88 => ⟨S300, .f32⟩
  | 89 => ⟨S1x300, .f32⟩
  | 90 => ⟨S300, .f32⟩
  | 91 => ⟨S1x300x300, .f32⟩
  | 92 => ⟨S300x300, .f32⟩
  | 93 => ⟨S1x300, .f32⟩
  | 94 => ⟨S300, .f32⟩
  | 95 => ⟨S1x300, .f32⟩
  | 96 => ⟨S1x300, .f32⟩
  | 97 => ⟨S1x300, .f32⟩
  | 98 => ⟨S1x300, .f32⟩
  | 99 => ⟨S1x300, .f32⟩
  | 100 => ⟨S20000x300, .f32⟩
  | 101 => ⟨S10x2x300, .f32⟩
  | 102 => ⟨S10x1x300, .f32⟩
  | 103 => ⟨S10x300, .f32⟩
  | 104 => ⟨S_, .f32⟩
  | 105 => ⟨S300, .f32⟩
  | 106 => ⟨S10x1x300, .f32⟩
  | 107 => ⟨S10x300, .f32⟩
  | 108 => ⟨S_, .f32⟩
  | 109 => ⟨S300, .f32⟩
  | 110 => ⟨S_, .f32⟩
  | 111 => ⟨S300, .f32⟩
  | 112 => ⟨S300, .f32⟩
  | 113 => ⟨S_, .f32⟩
  | 114 => ⟨S300, .f32⟩
  | 115 => ⟨S300, .f32⟩
  | 116 => ⟨S300, .f32⟩
  | 117 => ⟨S300, .f32⟩
  | 118 => ⟨S_, .f32⟩
  | 119 => ⟨S300, .f32⟩
  | 120 => ⟨S300, .f32⟩
  | 121 => ⟨S1x300, .f32⟩
  | 122 => ⟨S300, .f32⟩
  | 123 => ⟨S1x300, .f32⟩
  | 124 => ⟨S300, .f32⟩
  | 125 => ⟨S1x300, .f32⟩
  | 126 => ⟨S1x300, .f32⟩
  | 127 => ⟨S1x300, .f32⟩
  | _ => ⟨S20000, .i32⟩

abbrev hbmTy0_1 (i : Nat) : BufTy := match i % 128 with
  | 0 => ⟨S1x300, .f32⟩
  | 1 => ⟨S20000x300, .f32⟩
  | 2 => ⟨S20000x300, .bf16⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x300, .bf16⟩
  | 12 => ⟨S320000x300, .f32⟩
  | 13 => ⟨S320000x300, .f32⟩
  | 14 => ⟨S320000x300, .f32⟩
  | 15 => ⟨S_, .f32⟩
  | 16 => ⟨S320000x300, .f32⟩
  | 17 => ⟨S320000x300, .f32⟩
  | 18 => ⟨S_, .f32⟩
  | 19 => ⟨S20000x300, .f32⟩
  | 20 => ⟨S320000x1, .i32⟩
  | 21 => ⟨S20000x300, .f32⟩
  | 22 => ⟨S1, .f32⟩
  | 23 => ⟨S_, .f32⟩
  | 24 => ⟨S_, .f32⟩
  | 25 => ⟨S_, .f32⟩
  | 26 => ⟨S1x1, .f32⟩
  | 27 => ⟨S1x300, .f32⟩
  | 28 => ⟨S1x300x300, .f32⟩
  | 29 => ⟨S300x300, .f32⟩
  | 30 => ⟨S1x300, .f32⟩
  | 31 => ⟨S300, .f32⟩
  | 32 => ⟨S1x300, .f32⟩
  | 33 => ⟨S20000x300, .f32⟩
  | 34 => ⟨S10x2x300, .f32⟩
  | 35 => ⟨S10x1x300, .f32⟩
  | 36 => ⟨S10x300, .f32⟩
  | 37 => ⟨S_, .f32⟩
  | 38 => ⟨S300, .f32⟩
  | 39 => ⟨S10x1x300, .f32⟩
  | 40 => ⟨S10x300, .f32⟩
  | 41 => ⟨S_, .f32⟩
  | 42 => ⟨S300, .f32⟩
  | 43 => ⟨S_, .f32⟩
  | 44 => ⟨S300, .f32⟩
  | 45 => ⟨S300, .f32⟩
  | 46 => ⟨S_, .f32⟩
  | 47 => ⟨S300, .f32⟩
  | 48 => ⟨S300, .f32⟩
  | 49 => ⟨S300, .f32⟩
  | 50 => ⟨S300, .f32⟩
  | 51 => ⟨S_, .f32⟩
  | 52 => ⟨S300, .f32⟩
  | 53 => ⟨S300, .f32⟩
  | 54 => ⟨S1x300, .f32⟩
  | 55 => ⟨S300, .f32⟩
  | 56 => ⟨S1x300, .f32⟩
  | 57 => ⟨S300, .f32⟩
  | 58 => ⟨S1x300x300, .f32⟩
  | 59 => ⟨S300x300, .f32⟩
  | 60 => ⟨S1x300, .f32⟩
  | 61 => ⟨S300, .f32⟩
  | 62 => ⟨S1x300, .f32⟩
  | 63 => ⟨S1x300, .f32⟩
  | 64 => ⟨S1x300, .f32⟩
  | 65 => ⟨S1x300, .f32⟩
  | 66 => ⟨S1x300, .f32⟩
  | 67 => ⟨S20000x300, .f32⟩
  | 68 => ⟨S10x2x300, .f32⟩
  | 69 => ⟨S10x1x300, .f32⟩
  | 70 => ⟨S10x300, .f32⟩
  | 71 => ⟨S_, .f32⟩
  | 72 => ⟨S300, .f32⟩
  | 73 => ⟨S10x1x300, .f32⟩
  | 74 => ⟨S10x300, .f32⟩
  | 75 => ⟨S_, .f32⟩
  | 76 => ⟨S300, .f32⟩
  | 77 => ⟨S_, .f32⟩
  | 78 => ⟨S300, .f32⟩
  | 79 => ⟨S300, .f32⟩
  | 80 => ⟨S_, .f32⟩
  | 81 => ⟨S300, .f32⟩
  | 82 => ⟨S300, .f32⟩
  | 83 => ⟨S300, .f32⟩
  | 84 => ⟨S300, .f32⟩
  | 85 => ⟨S_, .f32⟩
  | 86 => ⟨S300, .f32⟩
  | 87 => ⟨S300, .f32⟩
  | 88 => ⟨S1x300, .f32⟩
  | 89 => ⟨S300, .f32⟩
  | 90 => ⟨S1x300, .f32⟩
  | 91 => ⟨S300, .f32⟩
  | 92 => ⟨S1x300, .f32⟩
  | 93 => ⟨S1x300, .f32⟩
  | 94 => ⟨S1x300, .f32⟩
  | 95 => ⟨S1x300, .f32⟩
  | 96 => ⟨S20000x300, .f32⟩
  | 97 => ⟨S20000x300, .bf16⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x300, .bf16⟩
  | 107 => ⟨S320000x300, .f32⟩
  | 108 => ⟨S320000x300, .f32⟩
  | 109 => ⟨S320000x300, .f32⟩
  | 110 => ⟨S_, .f32⟩
  | 111 => ⟨S320000x300, .f32⟩
  | 112 => ⟨S320000x300, .f32⟩
  | 113 => ⟨S_, .f32⟩
  | 114 => ⟨S20000x300, .f32⟩
  | 115 => ⟨S320000x1, .i32⟩
  | 116 => ⟨S20000x300, .f32⟩
  | 117 => ⟨S1, .f32⟩
  | 118 => ⟨S_, .f32⟩
  | 119 => ⟨S_, .f32⟩
  | 120 => ⟨S_, .f32⟩
  | 121 => ⟨S1x1, .f32⟩
  | 122 => ⟨S1x300, .f32⟩
  | 123 => ⟨S1x300x300, .f32⟩
  | 124 => ⟨S300x300, .f32⟩
  | 125 => ⟨S1x300, .f32⟩
  | 126 => ⟨S300, .f32⟩
  | 127 => ⟨S1x300, .f32⟩
  | _ => ⟨S20000, .i32⟩

abbrev hbmTy0_2 (i : Nat) : BufTy := match i % 128 with
  | 0 => ⟨S20000x300, .f32⟩
  | 1 => ⟨S10x2x300, .f32⟩
  | 2 => ⟨S10x1x300, .f32⟩
  | 3 => ⟨S10x300, .f32⟩
  | 4 => ⟨S_, .f32⟩
  | 5 => ⟨S300, .f32⟩
  | 6 => ⟨S10x1x300, .f32⟩
  | 7 => ⟨S10x300, .f32⟩
  | 8 => ⟨S_, .f32⟩
  | 9 => ⟨S300, .f32⟩
  | 10 => ⟨S_, .f32⟩
  | 11 => ⟨S300, .f32⟩
  | 12 => ⟨S300, .f32⟩
  | 13 => ⟨S_, .f32⟩
  | 14 => ⟨S300, .f32⟩
  | 15 => ⟨S300, .f32⟩
  | 16 => ⟨S300, .f32⟩
  | 17 => ⟨S300, .f32⟩
  | 18 => ⟨S_, .f32⟩
  | 19 => ⟨S300, .f32⟩
  | 20 => ⟨S300, .f32⟩
  | 21 => ⟨S1x300, .f32⟩
  | 22 => ⟨S300, .f32⟩
  | 23 => ⟨S1x300, .f32⟩
  | 24 => ⟨S300, .f32⟩
  | 25 => ⟨S1x300x300, .f32⟩
  | 26 => ⟨S300x300, .f32⟩
  | 27 => ⟨S1x300, .f32⟩
  | 28 => ⟨S300, .f32⟩
  | 29 => ⟨S1x300, .f32⟩
  | 30 => ⟨S1x300, .f32⟩
  | 31 => ⟨S1x300, .f32⟩
  | 32 => ⟨S1x300, .f32⟩
  | 33 => ⟨S1x300, .f32⟩
  | 34 => ⟨S20000x300, .f32⟩
  | 35 => ⟨S10x2x300, .f32⟩
  | 36 => ⟨S10x1x300, .f32⟩
  | 37 => ⟨S10x300, .f32⟩
  | 38 => ⟨S_, .f32⟩
  | 39 => ⟨S300, .f32⟩
  | 40 => ⟨S10x1x300, .f32⟩
  | 41 => ⟨S10x300, .f32⟩
  | 42 => ⟨S_, .f32⟩
  | 43 => ⟨S300, .f32⟩
  | 44 => ⟨S_, .f32⟩
  | 45 => ⟨S300, .f32⟩
  | 46 => ⟨S300, .f32⟩
  | 47 => ⟨S_, .f32⟩
  | 48 => ⟨S300, .f32⟩
  | 49 => ⟨S300, .f32⟩
  | 50 => ⟨S300, .f32⟩
  | 51 => ⟨S300, .f32⟩
  | 52 => ⟨S_, .f32⟩
  | 53 => ⟨S300, .f32⟩
  | 54 => ⟨S300, .f32⟩
  | 55 => ⟨S1x300, .f32⟩
  | 56 => ⟨S300, .f32⟩
  | 57 => ⟨S1x300, .f32⟩
  | 58 => ⟨S300, .f32⟩
  | 59 => ⟨S1x300, .f32⟩
  | 60 => ⟨S1x300, .f32⟩
  | 61 => ⟨S1x300, .f32⟩
  | 62 => ⟨S1x300, .f32⟩
  | 63 => ⟨S20000x300, .f32⟩
  | 64 => ⟨S20000x300, .bf16⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x300, .bf16⟩
  | 74 => ⟨S320000x300, .f32⟩
  | 75 => ⟨S320000x300, .f32⟩
  | 76 => ⟨S320000x300, .f32⟩
  | 77 => ⟨S_, .f32⟩
  | 78 => ⟨S320000x300, .f32⟩
  | 79 => ⟨S320000x300, .f32⟩
  | 80 => ⟨S_, .f32⟩
  | 81 => ⟨S20000x300, .f32⟩
  | 82 => ⟨S320000x1, .i32⟩
  | 83 => ⟨S20000x300, .f32⟩
  | 84 => ⟨S1, .f32⟩
  | 85 => ⟨S_, .f32⟩
  | 86 => ⟨S_, .f32⟩
  | 87 => ⟨S_, .f32⟩
  | 88 => ⟨S1x1, .f32⟩
  | 89 => ⟨S1x300, .f32⟩
  | 90 => ⟨S1x300x300, .f32⟩
  | 91 => ⟨S300x300, .f32⟩
  | 92 => ⟨S1x300, .f32⟩
  | 93 => ⟨S300, .f32⟩
  | 94 => ⟨S1x300, .f32⟩
  | 95 => ⟨S20000x300, .f32⟩
  | 96 => ⟨S10x2x300, .f32⟩
  | 97 => ⟨S10x1x300, .f32⟩
  | 98 => ⟨S10x300, .f32⟩
  | 99 => ⟨S_, .f32⟩
  | 100 => ⟨S300, .f32⟩
  | 101 => ⟨S10x1x300, .f32⟩
  | 102 => ⟨S10x300, .f32⟩
  | 103 => ⟨S_, .f32⟩
  | 104 => ⟨S300, .f32⟩
  | 105 => ⟨S_, .f32⟩
  | 106 => ⟨S300, .f32⟩
  | 107 => ⟨S300, .f32⟩
  | 108 => ⟨S_, .f32⟩
  | 109 => ⟨S300, .f32⟩
  | 110 => ⟨S300, .f32⟩
  | 111 => ⟨S300, .f32⟩
  | 112 => ⟨S300, .f32⟩
  | 113 => ⟨S_, .f32⟩
  | 114 => ⟨S300, .f32⟩
  | 115 => ⟨S300, .f32⟩
  | 116 => ⟨S1x300, .f32⟩
  | 117 => ⟨S300, .f32⟩
  | 118 => ⟨S1x300, .f32⟩
  | 119 => ⟨S300, .f32⟩
  | 120 => ⟨S1x300x300, .f32⟩
  | 121 => ⟨S300x300, .f32⟩
  | 122 => ⟨S1x300, .f32⟩
  | 123 => ⟨S300, .f32⟩
  | 124 => ⟨S1x300, .f32⟩
  | 125 => ⟨S1x300, .f32⟩
  | 126 => ⟨S1x300, .f32⟩
  | 127 => ⟨S1x300, .f32⟩
  | _ => ⟨S20000, .i32⟩

abbrev hbmTy0_3 (i : Nat) : BufTy := match i % 128 with
  | 0 => ⟨S1x300, .f32⟩
  | 1 => ⟨S20000x300, .f32⟩
  | 2 => ⟨S10x2x300, .f32⟩
  | 3 => ⟨S10x1x300, .f32⟩
  | 4 => ⟨S10x300, .f32⟩
  | 5 => ⟨S_, .f32⟩
  | 6 => ⟨S300, .f32⟩
  | 7 => ⟨S10x1x300, .f32⟩
  | 8 => ⟨S10x300, .f32⟩
  | 9 => ⟨S_, .f32⟩
  | 10 => ⟨S300, .f32⟩
  | 11 => ⟨S_, .f32⟩
  | 12 => ⟨S300, .f32⟩
  | 13 => ⟨S300, .f32⟩
  | 14 => ⟨S_, .f32⟩
  | 15 => ⟨S300, .f32⟩
  | 16 => ⟨S300, .f32⟩
  | 17 => ⟨S300, .f32⟩
  | 18 => ⟨S300, .f32⟩
  | 19 => ⟨S_, .f32⟩
  | 20 => ⟨S300, .f32⟩
  | 21 => ⟨S300, .f32⟩
  | 22 => ⟨S1x300, .f32⟩
  | 23 => ⟨S300, .f32⟩
  | 24 => ⟨S1x300, .f32⟩
  | 25 => ⟨S300, .f32⟩
  | 26 => ⟨S1x300, .f32⟩
  | 27 => ⟨S1x300, .f32⟩
  | 28 => ⟨S1x300, .f32⟩
  | 29 => ⟨S1x300, .f32⟩
  | 30 => ⟨S20000x300, .f32⟩
  | 31 => ⟨S20000x300, .bf16⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x300, .bf16⟩
  | 41 => ⟨S320000x300, .f32⟩
  | 42 => ⟨S320000x300, .f32⟩
  | 43 => ⟨S320000x300, .f32⟩
  | 44 => ⟨S_, .f32⟩
  | 45 => ⟨S320000x300, .f32⟩
  | 46 => ⟨S320000x300, .f32⟩
  | 47 => ⟨S_, .f32⟩
  | 48 => ⟨S20000x300, .f32⟩
  | 49 => ⟨S320000x1, .i32⟩
  | 50 => ⟨S20000x300, .f32⟩
  | 51 => ⟨S1, .f32⟩
  | 52 => ⟨S_, .f32⟩
  | 53 => ⟨S_, .f32⟩
  | 54 => ⟨S_, .f32⟩
  | 55 => ⟨S1x1, .f32⟩
  | 56 => ⟨S1x300, .f32⟩
  | 57 => ⟨S1x300x300, .f32⟩
  | 58 => ⟨S300x300, .f32⟩
  | 59 => ⟨S1x300, .f32⟩
  | 60 => ⟨S300, .f32⟩
  | 61 => ⟨S1x300, .f32⟩
  | 62 => ⟨S20000x300, .f32⟩
  | 63 => ⟨S10x2x300, .f32⟩
  | 64 => ⟨S10x1x300, .f32⟩
  | 65 => ⟨S10x300, .f32⟩
  | 66 => ⟨S_, .f32⟩
  | 67 => ⟨S300, .f32⟩
  | 68 => ⟨S10x1x300, .f32⟩
  | 69 => ⟨S10x300, .f32⟩
  | 70 => ⟨S_, .f32⟩
  | 71 => ⟨S300, .f32⟩
  | 72 => ⟨S_, .f32⟩
  | 73 => ⟨S300, .f32⟩
  | 74 => ⟨S300, .f32⟩
  | 75 => ⟨S_, .f32⟩
  | 76 => ⟨S300, .f32⟩
  | 77 => ⟨S300, .f32⟩
  | 78 => ⟨S300, .f32⟩
  | 79 => ⟨S300, .f32⟩
  | 80 => ⟨S_, .f32⟩
  | 81 => ⟨S300, .f32⟩
  | 82 => ⟨S300, .f32⟩
  | 83 => ⟨S1x300, .f32⟩
  | 84 => ⟨S300, .f32⟩
  | 85 => ⟨S1x300, .f32⟩
  | 86 => ⟨S300, .f32⟩
  | 87 => ⟨S1x300x300, .f32⟩
  | 88 => ⟨S300x300, .f32⟩
  | 89 => ⟨S1x300, .f32⟩
  | 90 => ⟨S300, .f32⟩
  | 91 => ⟨S1x300, .f32⟩
  | 92 => ⟨S1x300, .f32⟩
  | 93 => ⟨S1x300, .f32⟩
  | 94 => ⟨S1x300, .f32⟩
  | 95 => ⟨S1x300, .f32⟩
  | 96 => ⟨S20000x300, .f32⟩
  | 97 => ⟨S10x2x300, .f32⟩
  | 98 => ⟨S10x1x300, .f32⟩
  | 99 => ⟨S10x300, .f32⟩
  | 100 => ⟨S_, .f32⟩
  | 101 => ⟨S300, .f32⟩
  | 102 => ⟨S10x1x300, .f32⟩
  | 103 => ⟨S10x300, .f32⟩
  | 104 => ⟨S_, .f32⟩
  | 105 => ⟨S300, .f32⟩
  | 106 => ⟨S_, .f32⟩
  | 107 => ⟨S300, .f32⟩
  | 108 => ⟨S300, .f32⟩
  | 109 => ⟨S_, .f32⟩
  | 110 => ⟨S300, .f32⟩
  | 111 => ⟨S300, .f32⟩
  | 112 => ⟨S300, .f32⟩
  | 113 => ⟨S300, .f32⟩
  | 114 => ⟨S_, .f32⟩
  | 115 => ⟨S300, .f32⟩
  | 116 => ⟨S300, .f32⟩
  | 117 => ⟨S1x300, .f32⟩
  | 118 => ⟨S300, .f32⟩
  | 119 => ⟨S1x300, .f32⟩
  | 120 => ⟨S300, .f32⟩
  | 121 => ⟨S1x300, .f32⟩
  | 122 => ⟨S1x300, .f32⟩
  | 123 => ⟨S1x300, .f32⟩
  | 124 => ⟨S1x300, .f32⟩
  | 125 => ⟨S20000x300, .f32⟩
  | 126 => ⟨S20000x300, .bf16⟩
  | 127 => ⟨S_, .f32⟩
  | _ => ⟨S20000, .i32⟩

abbrev hbmTy0_4 (i : Nat) : BufTy := match i % 128 with
  | 0 => ⟨S20000, .f32⟩
  | 1 => ⟨S_, .f32⟩
  | 2 => ⟨S128, .f32⟩
  | 3 => ⟨S20000x1, .i32⟩
  | 4 => ⟨S128, .f32⟩
  | 5 => ⟨S_, .f32⟩
  | 6 => ⟨S128x300, .f32⟩
  | 7 => ⟨S20000x1, .i32⟩
  | 8 => ⟨S128x300, .f32⟩
  | 9 => ⟨S_, .f32⟩
  | 10 => ⟨S128, .f32⟩
  | 11 => ⟨S128, .f32⟩
  | 12 => ⟨S128x1, .f32⟩
  | 13 => ⟨S128x300, .f32⟩
  | 14 => ⟨S128x300, .f32⟩
  | 15 => ⟨S128x150, .f32⟩
  | 16 => ⟨S1x150, .f32⟩
  | 17 => ⟨S128x150, .f32⟩
  | 18 => ⟨S128x150, .f32⟩
  | 19 => ⟨S_, .f32⟩
  | 20 => ⟨S128x150, .f32⟩
  | 21 => ⟨S128x150, .f32⟩
  | 22 => ⟨S128x6, .f32⟩
  | 23 => ⟨S1x6, .f32⟩
  | 24 => ⟨S128x6, .f32⟩
  | 25 => ⟨S128x6, .f32⟩
  | _ => ⟨S20000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000, .i32⟩

abbrev vmemTy0_0 (i : Nat) : BufTy := match i % 128 with
  | 0 => ⟨S4000x7, .f32⟩
  | 1 => ⟨S4000x7, .f32⟩
  | 2 => ⟨S7x300, .f32⟩
  | 3 => ⟨S1x300, .f32⟩
  | 4 => ⟨S4000x300, .bf16⟩
  | 5 => ⟨S4000x300, .bf16⟩
  | 6 => ⟨S2000x300, .f32⟩
  | 7 => ⟨S2000x300, .f32⟩
  | 8 => ⟨S2000x300, .f32⟩
  | 9 => ⟨S2000x300, .f32⟩
  | 10 => ⟨S1x300, .f32⟩
  | 11 => ⟨S300x300, .f32⟩
  | 12 => ⟨S1x300, .f32⟩
  | 13 => ⟨S2000x300, .f32⟩
  | 14 => ⟨S2000x300, .f32⟩
  | 15 => ⟨S1x2x300, .f32⟩
  | 16 => ⟨S1x2x300, .f32⟩
  | 17 => ⟨S2000x300, .f32⟩
  | 18 => ⟨S2000x300, .f32⟩
  | 19 => ⟨S1x300, .f32⟩
  | 20 => ⟨S1x300, .f32⟩
  | 21 => ⟨S1x300, .f32⟩
  | 22 => ⟨S1x300, .f32⟩
  | 23 => ⟨S300x300, .f32⟩
  | 24 => ⟨S1x300, .f32⟩
  | 25 => ⟨S2000x300, .f32⟩
  | 26 => ⟨S2000x300, .f32⟩
  | 27 => ⟨S1x2x300, .f32⟩
  | 28 => ⟨S1x2x300, .f32⟩
  | 29 => ⟨S2000x300, .f32⟩
  | 30 => ⟨S2000x300, .f32⟩
  | 31 => ⟨S1x300, .f32⟩
  | 32 => ⟨S1x300, .f32⟩
  | 33 => ⟨S1x300, .f32⟩
  | 34 => ⟨S1x300, .f32⟩
  | 35 => ⟨S2000x300, .f32⟩
  | 36 => ⟨S2000x300, .f32⟩
  | 37 => ⟨S2000x300, .bf16⟩
  | 38 => ⟨S2000x300, .bf16⟩
  | 39 => ⟨S2000x300, .f32⟩
  | 40 => ⟨S2000x300, .f32⟩
  | 41 => ⟨S2000x300, .f32⟩
  | 42 => ⟨S2000x300, .f32⟩
  | 43 => ⟨S1x300, .f32⟩
  | 44 => ⟨S300x300, .f32⟩
  | 45 => ⟨S1x300, .f32⟩
  | 46 => ⟨S2000x300, .f32⟩
  | 47 => ⟨S2000x300, .f32⟩
  | 48 => ⟨S1x2x300, .f32⟩
  | 49 => ⟨S1x2x300, .f32⟩
  | 50 => ⟨S2000x300, .f32⟩
  | 51 => ⟨S2000x300, .f32⟩
  | 52 => ⟨S1x300, .f32⟩
  | 53 => ⟨S1x300, .f32⟩
  | 54 => ⟨S1x300, .f32⟩
  | 55 => ⟨S1x300, .f32⟩
  | 56 => ⟨S300x300, .f32⟩
  | 57 => ⟨S1x300, .f32⟩
  | 58 => ⟨S2000x300, .f32⟩
  | 59 => ⟨S2000x300, .f32⟩
  | 60 => ⟨S1x2x300, .f32⟩
  | 61 => ⟨S1x2x300, .f32⟩
  | 62 => ⟨S2000x300, .f32⟩
  | 63 => ⟨S2000x300, .f32⟩
  | 64 => ⟨S1x300, .f32⟩
  | 65 => ⟨S1x300, .f32⟩
  | 66 => ⟨S1x300, .f32⟩
  | 67 => ⟨S1x300, .f32⟩
  | 68 => ⟨S2000x300, .f32⟩
  | 69 => ⟨S2000x300, .f32⟩
  | 70 => ⟨S2000x300, .bf16⟩
  | 71 => ⟨S2000x300, .bf16⟩
  | 72 => ⟨S2000x300, .f32⟩
  | 73 => ⟨S2000x300, .f32⟩
  | 74 => ⟨S2000x300, .f32⟩
  | 75 => ⟨S2000x300, .f32⟩
  | 76 => ⟨S1x300, .f32⟩
  | 77 => ⟨S300x300, .f32⟩
  | 78 => ⟨S1x300, .f32⟩
  | 79 => ⟨S2000x300, .f32⟩
  | 80 => ⟨S2000x300, .f32⟩
  | 81 => ⟨S1x2x300, .f32⟩
  | 82 => ⟨S1x2x300, .f32⟩
  | 83 => ⟨S2000x300, .f32⟩
  | 84 => ⟨S2000x300, .f32⟩
  | 85 => ⟨S1x300, .f32⟩
  | 86 => ⟨S1x300, .f32⟩
  | 87 => ⟨S1x300, .f32⟩
  | 88 => ⟨S1x300, .f32⟩
  | 89 => ⟨S300x300, .f32⟩
  | 90 => ⟨S1x300, .f32⟩
  | 91 => ⟨S2000x300, .f32⟩
  | 92 => ⟨S2000x300, .f32⟩
  | 93 => ⟨S1x2x300, .f32⟩
  | 94 => ⟨S1x2x300, .f32⟩
  | 95 => ⟨S2000x300, .f32⟩
  | 96 => ⟨S2000x300, .f32⟩
  | 97 => ⟨S1x300, .f32⟩
  | 98 => ⟨S1x300, .f32⟩
  | 99 => ⟨S1x300, .f32⟩
  | 100 => ⟨S1x300, .f32⟩
  | 101 => ⟨S2000x300, .f32⟩
  | 102 => ⟨S2000x300, .f32⟩
  | 103 => ⟨S2000x300, .bf16⟩
  | 104 => ⟨S2000x300, .bf16⟩
  | 105 => ⟨S2000x300, .f32⟩
  | 106 => ⟨S2000x300, .f32⟩
  | 107 => ⟨S2000x300, .f32⟩
  | 108 => ⟨S2000x300, .f32⟩
  | 109 => ⟨S1x300, .f32⟩
  | 110 => ⟨S300x300, .f32⟩
  | 111 => ⟨S1x300, .f32⟩
  | 112 => ⟨S2000x300, .f32⟩
  | 113 => ⟨S2000x300, .f32⟩
  | 114 => ⟨S1x2x300, .f32⟩
  | 115 => ⟨S1x2x300, .f32⟩
  | 116 => ⟨S2000x300, .f32⟩
  | 117 => ⟨S2000x300, .f32⟩
  | 118 => ⟨S1x300, .f32⟩
  | 119 => ⟨S1x300, .f32⟩
  | 120 => ⟨S1x300, .f32⟩
  | 121 => ⟨S1x300, .f32⟩
  | 122 => ⟨S300x300, .f32⟩
  | 123 => ⟨S1x300, .f32⟩
  | 124 => ⟨S2000x300, .f32⟩
  | 125 => ⟨S2000x300, .f32⟩
  | 126 => ⟨S1x2x300, .f32⟩
  | 127 => ⟨S1x2x300, .f32⟩
  | _ => ⟨S20000, .i32⟩

abbrev vmemTy0_1 (i : Nat) : BufTy := match i % 128 with
  | 0 => ⟨S2000x300, .f32⟩
  | 1 => ⟨S2000x300, .f32⟩
  | 2 => ⟨S1x300, .f32⟩
  | 3 => ⟨S1x300, .f32⟩
  | 4 => ⟨S1x300, .f32⟩
  | 5 => ⟨S1x300, .f32⟩
  | 6 => ⟨S2000x300, .f32⟩
  | 7 => ⟨S2000x300, .f32⟩
  | 8 => ⟨S2000x300, .bf16⟩
  | 9 => ⟨S2000x300, .bf16⟩
  | 10 => ⟨S2000x300, .f32⟩
  | 11 => ⟨S2000x300, .f32⟩
  | 12 => ⟨S2000x300, .f32⟩
  | 13 => ⟨S2000x300, .f32⟩
  | 14 => ⟨S1x300, .f32⟩
  | 15 => ⟨S300x300, .f32⟩
  | 16 => ⟨S1x300, .f32⟩
  | 17 => ⟨S2000x300, .f32⟩
  | 18 => ⟨S2000x300, .f32⟩
  | 19 => ⟨S1x2x300, .f32⟩
  | 20 => ⟨S1x2x300, .f32⟩
  | 21 => ⟨S2000x300, .f32⟩
  | 22 => ⟨S2000x300, .f32⟩
  | 23 => ⟨S1x300, .f32⟩
  | 24 => ⟨S1x300, .f32⟩
  | 25 => ⟨S1x300, .f32⟩
  | 26 => ⟨S1x300, .f32⟩
  | 27 => ⟨S300x300, .f32⟩
  | 28 => ⟨S1x300, .f32⟩
  | 29 => ⟨S2000x300, .f32⟩
  | 30 => ⟨S2000x300, .f32⟩
  | 31 => ⟨S1x2x300, .f32⟩
  | 32 => ⟨S1x2x300, .f32⟩
  | 33 => ⟨S2000x300, .f32⟩
  | 34 => ⟨S2000x300, .f32⟩
  | 35 => ⟨S1x300, .f32⟩
  | 36 => ⟨S1x300, .f32⟩
  | 37 => ⟨S1x300, .f32⟩
  | 38 => ⟨S1x300, .f32⟩
  | 39 => ⟨S2000x300, .f32⟩
  | 40 => ⟨S2000x300, .f32⟩
  | 41 => ⟨S2000x300, .bf16⟩
  | 42 => ⟨S2000x300, .bf16⟩
  | _ => ⟨S20000, .i32⟩

abbrev vmemTy (i : Nat) : BufTy := match i / 128 with
  | 0 => vmemTy0_0 i
  | 1 => vmemTy0_1 i
  | _ => ⟨S20000, .i32⟩

abbrev bufTy : (tb : Table) → Fin (tcTables nBuf tb) → BufTy
  | .hbm, ⟨i, _⟩ => hbmTy i
  | .local _ .vmem, ⟨i, _⟩ => vmemTy i
  | _, _ => ⟨S20000, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 171 → Bool
  | ⟨i, _⟩ => dmaSemScopedAt i

abbrev sig : RefSig :=
  ofTc nBuf bufTy 0 171 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39_0 : Ref sig .tc := ⟨.hbm, 66, rfl⟩
abbrev main_v39_1 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67_0 : Ref sig .tc := ⟨.hbm, 100, rfl⟩
abbrev main_v67_1 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_cst_13 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90_0 : Ref sig .tc := ⟨.hbm, 129, rfl⟩
abbrev main_v90_1 : Ref sig .tc := ⟨.hbm, 130, rfl⟩
abbrev main_c_15 : Ref sig .tc := ⟨.hbm, 131, rfl⟩
abbrev main_v91 : Ref sig .tc := ⟨.hbm, 132, rfl⟩
abbrev main_v92 : Ref sig .tc := ⟨.hbm, 133, rfl⟩
abbrev main_c_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_17 : Ref sig .tc := ⟨.hbm, 143, rfl⟩
abbrev main_v101 : Ref sig .tc := ⟨.hbm, 144, rfl⟩
abbrev main_v102 : Ref sig .tc := ⟨.hbm, 145, rfl⟩
abbrev main_cst_18 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_19 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116_0 : Ref sig .tc := ⟨.hbm, 161, rfl⟩
abbrev main_v116_1 : Ref sig .tc := ⟨.hbm, 162, rfl⟩
abbrev main_v117 : Ref sig .tc := ⟨.hbm, 163, rfl⟩
abbrev main_v118 : Ref sig .tc := ⟨.hbm, 164, rfl⟩
abbrev main_cst_20 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_21 : Ref sig .tc := ⟨.hbm, 169, rfl⟩
abbrev main_v122 : Ref sig .tc := ⟨.hbm, 170, rfl⟩
abbrev main_cst_22 : Ref sig .tc := ⟨.hbm, 171, rfl⟩
abbrev main_v123 : Ref sig .tc := ⟨.hbm, 172, rfl⟩
abbrev main_v124 : Ref sig .tc := ⟨.hbm, 173, rfl⟩
abbrev main_cst_23 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_24 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144_0 : Ref sig .tc := ⟨.hbm, 195, rfl⟩
abbrev main_v144_1 : Ref sig .tc := ⟨.hbm, 196, rfl⟩
abbrev main_v145 : Ref sig .tc := ⟨.hbm, 197, rfl⟩
abbrev main_v146 : Ref sig .tc := ⟨.hbm, 198, rfl⟩
abbrev main_cst_25 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_26 : Ref sig .tc := ⟨.hbm, 203, rfl⟩
abbrev main_v150 : Ref sig .tc := ⟨.hbm, 204, rfl⟩
abbrev main_cst_27 : Ref sig .tc := ⟨.hbm, 205, rfl⟩
abbrev main_v151 : Ref sig .tc := ⟨.hbm, 206, rfl⟩
abbrev main_v152 : Ref sig .tc := ⟨.hbm, 207, rfl⟩
abbrev main_cst_28 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_29 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167_0 : Ref sig .tc := ⟨.hbm, 224, rfl⟩
abbrev main_v167_1 : Ref sig .tc := ⟨.hbm, 225, rfl⟩
abbrev main_c_30 : Ref sig .tc := ⟨.hbm, 226, rfl⟩
abbrev main_v168 : Ref sig .tc := ⟨.hbm, 227, rfl⟩
abbrev main_v169 : Ref sig .tc := ⟨.hbm, 228, rfl⟩
abbrev main_c_31 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_32 : Ref sig .tc := ⟨.hbm, 238, rfl⟩
abbrev main_v178 : Ref sig .tc := ⟨.hbm, 239, rfl⟩
abbrev main_v179 : Ref sig .tc := ⟨.hbm, 240, rfl⟩
abbrev main_cst_33 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_cst_34 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193_0 : Ref sig .tc := ⟨.hbm, 256, rfl⟩
abbrev main_v193_1 : Ref sig .tc := ⟨.hbm, 257, rfl⟩
abbrev main_v194 : Ref sig .tc := ⟨.hbm, 258, rfl⟩
abbrev main_v195 : Ref sig .tc := ⟨.hbm, 259, rfl⟩
abbrev main_cst_35 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_36 : Ref sig .tc := ⟨.hbm, 264, rfl⟩
abbrev main_v199 : Ref sig .tc := ⟨.hbm, 265, rfl⟩
abbrev main_cst_37 : Ref sig .tc := ⟨.hbm, 266, rfl⟩
abbrev main_v200 : Ref sig .tc := ⟨.hbm, 267, rfl⟩
abbrev main_v201 : Ref sig .tc := ⟨.hbm, 268, rfl⟩
abbrev main_cst_38 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_cst_39 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221_0 : Ref sig .tc := ⟨.hbm, 290, rfl⟩
abbrev main_v221_1 : Ref sig .tc := ⟨.hbm, 291, rfl⟩
abbrev main_v222 : Ref sig .tc := ⟨.hbm, 292, rfl⟩
abbrev main_v223 : Ref sig .tc := ⟨.hbm, 293, rfl⟩
abbrev main_cst_40 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_cst_41 : Ref sig .tc := ⟨.hbm, 298, rfl⟩
abbrev main_v227 : Ref sig .tc := ⟨.hbm, 299, rfl⟩
abbrev main_cst_42 : Ref sig .tc := ⟨.hbm, 300, rfl⟩
abbrev main_v228 : Ref sig .tc := ⟨.hbm, 301, rfl⟩
abbrev main_v229 : Ref sig .tc := ⟨.hbm, 302, rfl⟩
abbrev main_cst_43 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_cst_44 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244_0 : Ref sig .tc := ⟨.hbm, 319, rfl⟩
abbrev main_v244_1 : Ref sig .tc := ⟨.hbm, 320, rfl⟩
abbrev main_c_45 : Ref sig .tc := ⟨.hbm, 321, rfl⟩
abbrev main_v245 : Ref sig .tc := ⟨.hbm, 322, rfl⟩
abbrev main_v246 : Ref sig .tc := ⟨.hbm, 323, rfl⟩
abbrev main_c_46 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_cst_47 : Ref sig .tc := ⟨.hbm, 333, rfl⟩
abbrev main_v255 : Ref sig .tc := ⟨.hbm, 334, rfl⟩
abbrev main_v256 : Ref sig .tc := ⟨.hbm, 335, rfl⟩
abbrev main_cst_48 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_cst_49 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_v268 : Ref sig .tc := ⟨.hbm, 349, rfl⟩
abbrev main_v269 : Ref sig .tc := ⟨.hbm, 350, rfl⟩
abbrev main_v270_0 : Ref sig .tc := ⟨.hbm, 351, rfl⟩
abbrev main_v270_1 : Ref sig .tc := ⟨.hbm, 352, rfl⟩
abbrev main_v271 : Ref sig .tc := ⟨.hbm, 353, rfl⟩
abbrev main_v272 : Ref sig .tc := ⟨.hbm, 354, rfl⟩
abbrev main_cst_50 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_cst_51 : Ref sig .tc := ⟨.hbm, 359, rfl⟩
abbrev main_v276 : Ref sig .tc := ⟨.hbm, 360, rfl⟩
abbrev main_cst_52 : Ref sig .tc := ⟨.hbm, 361, rfl⟩
abbrev main_v277 : Ref sig .tc := ⟨.hbm, 362, rfl⟩
abbrev main_v278 : Ref sig .tc := ⟨.hbm, 363, rfl⟩
abbrev main_cst_53 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_cst_54 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298_0 : Ref sig .tc := ⟨.hbm, 385, rfl⟩
abbrev main_v298_1 : Ref sig .tc := ⟨.hbm, 386, rfl⟩
abbrev main_v299 : Ref sig .tc := ⟨.hbm, 387, rfl⟩
abbrev main_v300 : Ref sig .tc := ⟨.hbm, 388, rfl⟩
abbrev main_cst_55 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_cst_56 : Ref sig .tc := ⟨.hbm, 393, rfl⟩
abbrev main_v304 : Ref sig .tc := ⟨.hbm, 394, rfl⟩
abbrev main_cst_57 : Ref sig .tc := ⟨.hbm, 395, rfl⟩
abbrev main_v305 : Ref sig .tc := ⟨.hbm, 396, rfl⟩
abbrev main_v306 : Ref sig .tc := ⟨.hbm, 397, rfl⟩
abbrev main_cst_58 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_cst_59 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321_0 : Ref sig .tc := ⟨.hbm, 414, rfl⟩
abbrev main_v321_1 : Ref sig .tc := ⟨.hbm, 415, rfl⟩
abbrev main_c_60 : Ref sig .tc := ⟨.hbm, 416, rfl⟩
abbrev main_v322 : Ref sig .tc := ⟨.hbm, 417, rfl⟩
abbrev main_v323 : Ref sig .tc := ⟨.hbm, 418, rfl⟩
abbrev main_c_61 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_v327 : Ref sig .tc := ⟨.hbm, 423, rfl⟩
abbrev main_v328 : Ref sig .tc := ⟨.hbm, 424, rfl⟩
abbrev main_v329 : Ref sig .tc := ⟨.hbm, 425, rfl⟩
abbrev main_v330 : Ref sig .tc := ⟨.hbm, 426, rfl⟩
abbrev main_v331 : Ref sig .tc := ⟨.hbm, 427, rfl⟩
abbrev main_cst_62 : Ref sig .tc := ⟨.hbm, 428, rfl⟩
abbrev main_v332 : Ref sig .tc := ⟨.hbm, 429, rfl⟩
abbrev main_v333 : Ref sig .tc := ⟨.hbm, 430, rfl⟩
abbrev main_cst_63 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_cst_64 : Ref sig .tc := ⟨.hbm, 437, rfl⟩
abbrev main_v339 : Ref sig .tc := ⟨.hbm, 438, rfl⟩
abbrev main_v340 : Ref sig .tc := ⟨.hbm, 439, rfl⟩
abbrev main_v341 : Ref sig .tc := ⟨.hbm, 440, rfl⟩
abbrev main_v342 : Ref sig .tc := ⟨.hbm, 441, rfl⟩
abbrev main_v343 : Ref sig .tc := ⟨.hbm, 442, rfl⟩
abbrev main_v344 : Ref sig .tc := ⟨.hbm, 443, rfl⟩
abbrev main_v345 : Ref sig .tc := ⟨.hbm, 444, rfl⟩
abbrev main_v346 : Ref sig .tc := ⟨.hbm, 445, rfl⟩
abbrev main_v347_0 : Ref sig .tc := ⟨.hbm, 446, rfl⟩
abbrev main_v347_1 : Ref sig .tc := ⟨.hbm, 447, rfl⟩
abbrev main_v348 : Ref sig .tc := ⟨.hbm, 448, rfl⟩
abbrev main_v349 : Ref sig .tc := ⟨.hbm, 449, rfl⟩
abbrev main_cst_65 : Ref sig .tc := ⟨.hbm, 450, rfl⟩
abbrev main_v350 : Ref sig .tc := ⟨.hbm, 451, rfl⟩
abbrev main_v351 : Ref sig .tc := ⟨.hbm, 452, rfl⟩
abbrev main_v352 : Ref sig .tc := ⟨.hbm, 453, rfl⟩
abbrev main_cst_66 : Ref sig .tc := ⟨.hbm, 454, rfl⟩
abbrev main_v353 : Ref sig .tc := ⟨.hbm, 455, rfl⟩
abbrev main_cst_67 : Ref sig .tc := ⟨.hbm, 456, rfl⟩
abbrev main_v354 : Ref sig .tc := ⟨.hbm, 457, rfl⟩
abbrev main_v355 : Ref sig .tc := ⟨.hbm, 458, rfl⟩
abbrev main_cst_68 : Ref sig .tc := ⟨.hbm, 459, rfl⟩
abbrev main_v356 : Ref sig .tc := ⟨.hbm, 460, rfl⟩
abbrev main_v357 : Ref sig .tc := ⟨.hbm, 461, rfl⟩
abbrev main_v358 : Ref sig .tc := ⟨.hbm, 462, rfl⟩
abbrev main_v359 : Ref sig .tc := ⟨.hbm, 463, rfl⟩
abbrev main_cst_69 : Ref sig .tc := ⟨.hbm, 464, rfl⟩
abbrev main_v360 : Ref sig .tc := ⟨.hbm, 465, rfl⟩
abbrev main_v361 : Ref sig .tc := ⟨.hbm, 466, rfl⟩
abbrev main_v362 : Ref sig .tc := ⟨.hbm, 467, rfl⟩
abbrev main_v363 : Ref sig .tc := ⟨.hbm, 468, rfl⟩
abbrev main_v364 : Ref sig .tc := ⟨.hbm, 469, rfl⟩
abbrev main_v365 : Ref sig .tc := ⟨.hbm, 470, rfl⟩
abbrev main_v366 : Ref sig .tc := ⟨.hbm, 471, rfl⟩
abbrev main_v367 : Ref sig .tc := ⟨.hbm, 472, rfl⟩
abbrev main_v368 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_v374 : Ref sig .tc := ⟨.hbm, 479, rfl⟩
abbrev main_v375_0 : Ref sig .tc := ⟨.hbm, 480, rfl⟩
abbrev main_v375_1 : Ref sig .tc := ⟨.hbm, 481, rfl⟩
abbrev main_v376 : Ref sig .tc := ⟨.hbm, 482, rfl⟩
abbrev main_v377 : Ref sig .tc := ⟨.hbm, 483, rfl⟩
abbrev main_cst_70 : Ref sig .tc := ⟨.hbm, 484, rfl⟩
abbrev main_v378 : Ref sig .tc := ⟨.hbm, 485, rfl⟩
abbrev main_v379 : Ref sig .tc := ⟨.hbm, 486, rfl⟩
abbrev main_v380 : Ref sig .tc := ⟨.hbm, 487, rfl⟩
abbrev main_cst_71 : Ref sig .tc := ⟨.hbm, 488, rfl⟩
abbrev main_v381 : Ref sig .tc := ⟨.hbm, 489, rfl⟩
abbrev main_cst_72 : Ref sig .tc := ⟨.hbm, 490, rfl⟩
abbrev main_v382 : Ref sig .tc := ⟨.hbm, 491, rfl⟩
abbrev main_v383 : Ref sig .tc := ⟨.hbm, 492, rfl⟩
abbrev main_cst_73 : Ref sig .tc := ⟨.hbm, 493, rfl⟩
abbrev main_v384 : Ref sig .tc := ⟨.hbm, 494, rfl⟩
abbrev main_v385 : Ref sig .tc := ⟨.hbm, 495, rfl⟩
abbrev main_v386 : Ref sig .tc := ⟨.hbm, 496, rfl⟩
abbrev main_v387 : Ref sig .tc := ⟨.hbm, 497, rfl⟩
abbrev main_cst_74 : Ref sig .tc := ⟨.hbm, 498, rfl⟩
abbrev main_v388 : Ref sig .tc := ⟨.hbm, 499, rfl⟩
abbrev main_v389 : Ref sig .tc := ⟨.hbm, 500, rfl⟩
abbrev main_v390 : Ref sig .tc := ⟨.hbm, 501, rfl⟩
abbrev main_v391 : Ref sig .tc := ⟨.hbm, 502, rfl⟩
abbrev main_v392 : Ref sig .tc := ⟨.hbm, 503, rfl⟩
abbrev main_v393 : Ref sig .tc := ⟨.hbm, 504, rfl⟩
abbrev main_v394 : Ref sig .tc := ⟨.hbm, 505, rfl⟩
abbrev main_v395 : Ref sig .tc := ⟨.hbm, 506, rfl⟩
abbrev main_v396 : Ref sig .tc := ⟨.hbm, 507, rfl⟩
abbrev main_v397 : Ref sig .tc := ⟨.hbm, 508, rfl⟩
abbrev main_v398_0 : Ref sig .tc := ⟨.hbm, 509, rfl⟩
abbrev main_v398_1 : Ref sig .tc := ⟨.hbm, 510, rfl⟩
abbrev main_cst_75 : Ref sig .tc := ⟨.hbm, 511, rfl⟩
abbrev main_v399 : Ref sig .tc := ⟨.hbm, 512, rfl⟩
abbrev main_cst_76 : Ref sig .tc := ⟨.hbm, 513, rfl⟩
abbrev main_v400 : Ref sig .tc := ⟨.hbm, 514, rfl⟩
abbrev main_v401 : Ref sig .tc := ⟨.hbm, 515, rfl⟩
abbrev main_v402 : Ref sig .tc := ⟨.hbm, 516, rfl⟩
abbrev main_cst_77 : Ref sig .tc := ⟨.hbm, 517, rfl⟩
abbrev main_v403 : Ref sig .tc := ⟨.hbm, 518, rfl⟩
abbrev main_v404 : Ref sig .tc := ⟨.hbm, 519, rfl⟩
abbrev main_v405 : Ref sig .tc := ⟨.hbm, 520, rfl⟩
abbrev main_cst_78 : Ref sig .tc := ⟨.hbm, 521, rfl⟩
abbrev main_v406 : Ref sig .tc := ⟨.hbm, 522, rfl⟩
abbrev main_v407 : Ref sig .tc := ⟨.hbm, 523, rfl⟩
abbrev main_v408 : Ref sig .tc := ⟨.hbm, 524, rfl⟩
abbrev main_v409 : Ref sig .tc := ⟨.hbm, 525, rfl⟩
abbrev main_v410 : Ref sig .tc := ⟨.hbm, 526, rfl⟩
abbrev main_v411 : Ref sig .tc := ⟨.hbm, 527, rfl⟩
abbrev main_v412 : Ref sig .tc := ⟨.hbm, 528, rfl⟩
abbrev main_v413 : Ref sig .tc := ⟨.hbm, 529, rfl⟩
abbrev main_v414 : Ref sig .tc := ⟨.hbm, 530, rfl⟩
abbrev main_call0_cst : Ref sig .tc := ⟨.hbm, 531, rfl⟩
abbrev main_call0_v0 : Ref sig .tc := ⟨.hbm, 532, rfl⟩
abbrev main_v415 : Ref sig .tc := ⟨.hbm, 533, rfl⟩
abbrev main_v416 : Ref sig .tc := ⟨.hbm, 534, rfl⟩
abbrev main_v417 : Ref sig .tc := ⟨.hbm, 535, rfl⟩
abbrev main_v418 : Ref sig .tc := ⟨.hbm, 536, rfl⟩
abbrev main_v419 : Ref sig .tc := ⟨.hbm, 537, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc5_stg8_0 : Ref sig .tc := ⟨.vmem, 60, rfl⟩
abbrev cc5_stg8_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg5_1 : Ref sig .tc := ⟨.vmem, 69, rfl⟩
abbrev cc6_stg6_0 : Ref sig .tc := ⟨.vmem, 70, rfl⟩
abbrev cc6_stg6_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg1_1 : Ref sig .tc := ⟨.vmem, 75, rfl⟩
abbrev cc7_stg2_0 : Ref sig .tc := ⟨.vmem, 76, rfl⟩
abbrev cc7_stg3_0 : Ref sig .tc := ⟨.vmem, 77, rfl⟩
abbrev cc7_stg4_0 : Ref sig .tc := ⟨.vmem, 78, rfl⟩
abbrev cc7_stg5_0 : Ref sig .tc := ⟨.vmem, 79, rfl⟩
abbrev cc7_stg5_1 : Ref sig .tc := ⟨.vmem, 80, rfl⟩
abbrev cc7_stg6_0 : Ref sig .tc := ⟨.vmem, 81, rfl⟩
abbrev cc7_stg6_1 : Ref sig .tc := ⟨.vmem, 82, rfl⟩
abbrev cc8_stg0_0 : Ref sig .tc := ⟨.vmem, 83, rfl⟩
abbrev cc8_stg0_1 : Ref sig .tc := ⟨.vmem, 84, rfl⟩
abbrev cc8_stg1_0 : Ref sig .tc := ⟨.vmem, 85, rfl⟩
abbrev cc8_stg2_0 : Ref sig .tc := ⟨.vmem, 86, rfl⟩
abbrev cc8_stg3_0 : Ref sig .tc := ⟨.vmem, 87, rfl⟩
abbrev cc8_stg4_0 : Ref sig .tc := ⟨.vmem, 88, rfl⟩
abbrev cc8_stg5_0 : Ref sig .tc := ⟨.vmem, 89, rfl⟩
abbrev cc8_stg6_0 : Ref sig .tc := ⟨.vmem, 90, rfl⟩
abbrev cc8_stg7_0 : Ref sig .tc := ⟨.vmem, 91, rfl⟩
abbrev cc8_stg7_1 : Ref sig .tc := ⟨.vmem, 92, rfl⟩
abbrev cc8_stg8_0 : Ref sig .tc := ⟨.vmem, 93, rfl⟩
abbrev cc8_stg8_1 : Ref sig .tc := ⟨.vmem, 94, rfl⟩
abbrev cc9_stg0_0 : Ref sig .tc := ⟨.vmem, 95, rfl⟩
abbrev cc9_stg0_1 : Ref sig .tc := ⟨.vmem, 96, rfl⟩
abbrev cc9_stg1_0 : Ref sig .tc := ⟨.vmem, 97, rfl⟩
abbrev cc9_stg2_0 : Ref sig .tc := ⟨.vmem, 98, rfl⟩
abbrev cc9_stg3_0 : Ref sig .tc := ⟨.vmem, 99, rfl⟩
abbrev cc9_stg4_0 : Ref sig .tc := ⟨.vmem, 100, rfl⟩
abbrev cc9_stg5_0 : Ref sig .tc := ⟨.vmem, 101, rfl⟩
abbrev cc9_stg5_1 : Ref sig .tc := ⟨.vmem, 102, rfl⟩
abbrev cc9_stg6_0 : Ref sig .tc := ⟨.vmem, 103, rfl⟩
abbrev cc9_stg6_1 : Ref sig .tc := ⟨.vmem, 104, rfl⟩
abbrev cc10_stg0_0 : Ref sig .tc := ⟨.vmem, 105, rfl⟩
abbrev cc10_stg0_1 : Ref sig .tc := ⟨.vmem, 106, rfl⟩
abbrev cc10_stg1_0 : Ref sig .tc := ⟨.vmem, 107, rfl⟩
abbrev cc10_stg1_1 : Ref sig .tc := ⟨.vmem, 108, rfl⟩
abbrev cc10_stg2_0 : Ref sig .tc := ⟨.vmem, 109, rfl⟩
abbrev cc10_stg3_0 : Ref sig .tc := ⟨.vmem, 110, rfl⟩
abbrev cc10_stg4_0 : Ref sig .tc := ⟨.vmem, 111, rfl⟩
abbrev cc10_stg5_0 : Ref sig .tc := ⟨.vmem, 112, rfl⟩
abbrev cc10_stg5_1 : Ref sig .tc := ⟨.vmem, 113, rfl⟩
abbrev cc10_stg6_0 : Ref sig .tc := ⟨.vmem, 114, rfl⟩
abbrev cc10_stg6_1 : Ref sig .tc := ⟨.vmem, 115, rfl⟩
abbrev cc11_stg0_0 : Ref sig .tc := ⟨.vmem, 116, rfl⟩
abbrev cc11_stg0_1 : Ref sig .tc := ⟨.vmem, 117, rfl⟩
abbrev cc11_stg1_0 : Ref sig .tc := ⟨.vmem, 118, rfl⟩
abbrev cc11_stg2_0 : Ref sig .tc := ⟨.vmem, 119, rfl⟩
abbrev cc11_stg3_0 : Ref sig .tc := ⟨.vmem, 120, rfl⟩
abbrev cc11_stg4_0 : Ref sig .tc := ⟨.vmem, 121, rfl⟩
abbrev cc11_stg5_0 : Ref sig .tc := ⟨.vmem, 122, rfl⟩
abbrev cc11_stg6_0 : Ref sig .tc := ⟨.vmem, 123, rfl⟩
abbrev cc11_stg7_0 : Ref sig .tc := ⟨.vmem, 124, rfl⟩
abbrev cc11_stg7_1 : Ref sig .tc := ⟨.vmem, 125, rfl⟩
abbrev cc11_stg8_0 : Ref sig .tc := ⟨.vmem, 126, rfl⟩
abbrev cc11_stg8_1 : Ref sig .tc := ⟨.vmem, 127, rfl⟩
abbrev cc12_stg0_0 : Ref sig .tc := ⟨.vmem, 128, rfl⟩
abbrev cc12_stg0_1 : Ref sig .tc := ⟨.vmem, 129, rfl⟩
abbrev cc12_stg1_0 : Ref sig .tc := ⟨.vmem, 130, rfl⟩
abbrev cc12_stg2_0 : Ref sig .tc := ⟨.vmem, 131, rfl⟩
abbrev cc12_stg3_0 : Ref sig .tc := ⟨.vmem, 132, rfl⟩
abbrev cc12_stg4_0 : Ref sig .tc := ⟨.vmem, 133, rfl⟩
abbrev cc12_stg5_0 : Ref sig .tc := ⟨.vmem, 134, rfl⟩
abbrev cc12_stg5_1 : Ref sig .tc := ⟨.vmem, 135, rfl⟩
abbrev cc12_stg6_0 : Ref sig .tc := ⟨.vmem, 136, rfl⟩
abbrev cc12_stg6_1 : Ref sig .tc := ⟨.vmem, 137, rfl⟩
abbrev cc13_stg0_0 : Ref sig .tc := ⟨.vmem, 138, rfl⟩
abbrev cc13_stg0_1 : Ref sig .tc := ⟨.vmem, 139, rfl⟩
abbrev cc13_stg1_0 : Ref sig .tc := ⟨.vmem, 140, rfl⟩
abbrev cc13_stg1_1 : Ref sig .tc := ⟨.vmem, 141, rfl⟩
abbrev cc13_stg2_0 : Ref sig .tc := ⟨.vmem, 142, rfl⟩
abbrev cc13_stg3_0 : Ref sig .tc := ⟨.vmem, 143, rfl⟩
abbrev cc13_stg4_0 : Ref sig .tc := ⟨.vmem, 144, rfl⟩
abbrev cc13_stg5_0 : Ref sig .tc := ⟨.vmem, 145, rfl⟩
abbrev cc13_stg5_1 : Ref sig .tc := ⟨.vmem, 146, rfl⟩
abbrev cc13_stg6_0 : Ref sig .tc := ⟨.vmem, 147, rfl⟩
abbrev cc13_stg6_1 : Ref sig .tc := ⟨.vmem, 148, rfl⟩
abbrev cc14_stg0_0 : Ref sig .tc := ⟨.vmem, 149, rfl⟩
abbrev cc14_stg0_1 : Ref sig .tc := ⟨.vmem, 150, rfl⟩
abbrev cc14_stg1_0 : Ref sig .tc := ⟨.vmem, 151, rfl⟩
abbrev cc14_stg2_0 : Ref sig .tc := ⟨.vmem, 152, rfl⟩
abbrev cc14_stg3_0 : Ref sig .tc := ⟨.vmem, 153, rfl⟩
abbrev cc14_stg4_0 : Ref sig .tc := ⟨.vmem, 154, rfl⟩
abbrev cc14_stg5_0 : Ref sig .tc := ⟨.vmem, 155, rfl⟩
abbrev cc14_stg6_0 : Ref sig .tc := ⟨.vmem, 156, rfl⟩
abbrev cc14_stg7_0 : Ref sig .tc := ⟨.vmem, 157, rfl⟩
abbrev cc14_stg7_1 : Ref sig .tc := ⟨.vmem, 158, rfl⟩
abbrev cc14_stg8_0 : Ref sig .tc := ⟨.vmem, 159, rfl⟩
abbrev cc14_stg8_1 : Ref sig .tc := ⟨.vmem, 160, rfl⟩
abbrev cc15_stg0_0 : Ref sig .tc := ⟨.vmem, 161, rfl⟩
abbrev cc15_stg0_1 : Ref sig .tc := ⟨.vmem, 162, rfl⟩
abbrev cc15_stg1_0 : Ref sig .tc := ⟨.vmem, 163, rfl⟩
abbrev cc15_stg2_0 : Ref sig .tc := ⟨.vmem, 164, rfl⟩
abbrev cc15_stg3_0 : Ref sig .tc := ⟨.vmem, 165, rfl⟩
abbrev cc15_stg4_0 : Ref sig .tc := ⟨.vmem, 166, rfl⟩
abbrev cc15_stg5_0 : Ref sig .tc := ⟨.vmem, 167, rfl⟩
abbrev cc15_stg5_1 : Ref sig .tc := ⟨.vmem, 168, rfl⟩
abbrev cc15_stg6_0 : Ref sig .tc := ⟨.vmem, 169, rfl⟩
abbrev cc15_stg6_1 : Ref sig .tc := ⟨.vmem, 170, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc2_sem8_0 : DmaSem sig := 27
abbrev cc2_sem8_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc5_sem8_0 : DmaSem sig := 60
abbrev cc5_sem8_1 : DmaSem sig := 61
abbrev cc6_sem0_0 : DmaSem sig := 62
abbrev cc6_sem0_1 : DmaSem sig := 63
abbrev cc6_sem1_0 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem5_1 : DmaSem sig := 69
abbrev cc6_sem6_0 : DmaSem sig := 70
abbrev cc6_sem6_1 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem3_0 : DmaSem sig := 77
abbrev cc7_sem4_0 : DmaSem sig := 78
abbrev cc7_sem5_0 : DmaSem sig := 79
abbrev cc7_sem5_1 : DmaSem sig := 80
abbrev cc7_sem6_0 : DmaSem sig := 81
abbrev cc7_sem6_1 : DmaSem sig := 82
abbrev cc8_sem0_0 : DmaSem sig := 83
abbrev cc8_sem0_1 : DmaSem sig := 84
abbrev cc8_sem1_0 : DmaSem sig := 85
abbrev cc8_sem2_0 : DmaSem sig := 86
abbrev cc8_sem3_0 : DmaSem sig := 87
abbrev cc8_sem4_0 : DmaSem sig := 88
abbrev cc8_sem5_0 : DmaSem sig := 89
abbrev cc8_sem6_0 : DmaSem sig := 90
abbrev cc8_sem7_0 : DmaSem sig := 91
abbrev cc8_sem7_1 : DmaSem sig := 92
abbrev cc8_sem8_0 : DmaSem sig := 93
abbrev cc8_sem8_1 : DmaSem sig := 94
abbrev cc9_sem0_0 : DmaSem sig := 95
abbrev cc9_sem0_1 : DmaSem sig := 96
abbrev cc9_sem1_0 : DmaSem sig := 97
abbrev cc9_sem2_0 : DmaSem sig := 98
abbrev cc9_sem3_0 : DmaSem sig := 99
abbrev cc9_sem4_0 : DmaSem sig := 100
abbrev cc9_sem5_0 : DmaSem sig := 101
abbrev cc9_sem5_1 : DmaSem sig := 102
abbrev cc9_sem6_0 : DmaSem sig := 103
abbrev cc9_sem6_1 : DmaSem sig := 104
abbrev cc10_sem0_0 : DmaSem sig := 105
abbrev cc10_sem0_1 : DmaSem sig := 106
abbrev cc10_sem1_0 : DmaSem sig := 107
abbrev cc10_sem1_1 : DmaSem sig := 108
abbrev cc10_sem2_0 : DmaSem sig := 109
abbrev cc10_sem3_0 : DmaSem sig := 110
abbrev cc10_sem4_0 : DmaSem sig := 111
abbrev cc10_sem5_0 : DmaSem sig := 112
abbrev cc10_sem5_1 : DmaSem sig := 113
abbrev cc10_sem6_0 : DmaSem sig := 114
abbrev cc10_sem6_1 : DmaSem sig := 115
abbrev cc11_sem0_0 : DmaSem sig := 116
abbrev cc11_sem0_1 : DmaSem sig := 117
abbrev cc11_sem1_0 : DmaSem sig := 118
abbrev cc11_sem2_0 : DmaSem sig := 119
abbrev cc11_sem3_0 : DmaSem sig := 120
abbrev cc11_sem4_0 : DmaSem sig := 121
abbrev cc11_sem5_0 : DmaSem sig := 122
abbrev cc11_sem6_0 : DmaSem sig := 123
abbrev cc11_sem7_0 : DmaSem sig := 124
abbrev cc11_sem7_1 : DmaSem sig := 125
abbrev cc11_sem8_0 : DmaSem sig := 126
abbrev cc11_sem8_1 : DmaSem sig := 127
abbrev cc12_sem0_0 : DmaSem sig := 128
abbrev cc12_sem0_1 : DmaSem sig := 129
abbrev cc12_sem1_0 : DmaSem sig := 130
abbrev cc12_sem2_0 : DmaSem sig := 131
abbrev cc12_sem3_0 : DmaSem sig := 132
abbrev cc12_sem4_0 : DmaSem sig := 133
abbrev cc12_sem5_0 : DmaSem sig := 134
abbrev cc12_sem5_1 : DmaSem sig := 135
abbrev cc12_sem6_0 : DmaSem sig := 136
abbrev cc12_sem6_1 : DmaSem sig := 137
abbrev cc13_sem0_0 : DmaSem sig := 138
abbrev cc13_sem0_1 : DmaSem sig := 139
abbrev cc13_sem1_0 : DmaSem sig := 140
abbrev cc13_sem1_1 : DmaSem sig := 141
abbrev cc13_sem2_0 : DmaSem sig := 142
abbrev cc13_sem3_0 : DmaSem sig := 143
abbrev cc13_sem4_0 : DmaSem sig := 144
abbrev cc13_sem5_0 : DmaSem sig := 145
abbrev cc13_sem5_1 : DmaSem sig := 146
abbrev cc13_sem6_0 : DmaSem sig := 147
abbrev cc13_sem6_1 : DmaSem sig := 148
abbrev cc14_sem0_0 : DmaSem sig := 149
abbrev cc14_sem0_1 : DmaSem sig := 150
abbrev cc14_sem1_0 : DmaSem sig := 151
abbrev cc14_sem2_0 : DmaSem sig := 152
abbrev cc14_sem3_0 : DmaSem sig := 153
abbrev cc14_sem4_0 : DmaSem sig := 154
abbrev cc14_sem5_0 : DmaSem sig := 155
abbrev cc14_sem6_0 : DmaSem sig := 156
abbrev cc14_sem7_0 : DmaSem sig := 157
abbrev cc14_sem7_1 : DmaSem sig := 158
abbrev cc14_sem8_0 : DmaSem sig := 159
abbrev cc14_sem8_1 : DmaSem sig := 160
abbrev cc15_sem0_0 : DmaSem sig := 161
abbrev cc15_sem0_1 : DmaSem sig := 162
abbrev cc15_sem1_0 : DmaSem sig := 163
abbrev cc15_sem2_0 : DmaSem sig := 164
abbrev cc15_sem3_0 : DmaSem sig := 165
abbrev cc15_sem4_0 : DmaSem sig := 166
abbrev cc15_sem5_0 : DmaSem sig := 167
abbrev cc15_sem5_1 : DmaSem sig := 168
abbrev cc15_sem6_0 : DmaSem sig := 169
abbrev cc15_sem6_1 : DmaSem sig := 170

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x300 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x300 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S300x300 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x300 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x300 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x2x300 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x300 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x300 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2000x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S300x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x300 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x300 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x2x300 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2000x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x300 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x300 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x300 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x300 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S300x300 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x300 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x300 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x2x300 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x300 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x300 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x300 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x300 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x300 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2000x300 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S2000x300 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x300 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x300 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S300x300 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x300 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x300 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x2x300 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S2000x300 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x300 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x300 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x300 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x300 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S300x300 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x300 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S2000x300 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S1x2x300 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x300 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x300 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x300 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x300 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x300 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x300 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S2000x300 .bf16 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S2000x300 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x300 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x300 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S300x300 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x300 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x300 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S1x2x300 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S2000x300 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x300 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x300 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x300 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x300 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S300x300 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x300 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S2000x300 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S1x2x300 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x300 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x300 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x300 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x300 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x300 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x300 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S2000x300 .bf16 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S2000x300 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x300 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x300 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S300x300 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x300 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S2000x300 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S1x2x300 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_8 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S2000x300 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x300 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x300 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x300 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x300 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S300x300 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x300 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S2000x300 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev stage14_8 : Fin 2 → Memref sig .tc .vmem S1x2x300 .f32 := fun | 0 => Memref.whole cc14_stg8_0 | 1 => Memref.whole cc14_stg8_1 | ⟨_ + 2, h⟩ => absurd h (Nat.not_lt.2 (Nat.le_add_left _ _))
abbrev sem14_8 : Fin 2 → DmaSem sig := fun | 0 => cc14_sem8_0 | 1 => cc14_sem8_1 | ⟨_ + 2, h⟩ => absurd h (Nat.not_lt.2 (Nat.le_add_left _ _))
abbrev reads14_8 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x300 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x300 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x300 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x300 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x300 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S2000x300 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev stage15_6 : Fin 2 → Memref sig .tc .vmem S2000x300 .bf16 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S20000_S20000x1_0 : S20000.BroadcastsInDim S20000x1 (![0] : Fin 1 → Fin S20000x1.rank)
  bitsLt_bf16_f32 : FTy.bits .bf16 < FTy.bits .f32
  shapeCasts_S300_S1x300 : S300.ShapeCasts S1x300
  inb_S4000x7_S4000x7_0_0 : ∀ a, (![0, 0] : Fin 2 → Nat) a + S4000x7.size a ≤ S4000x7.size a
  h_S4000x7 : 0 < S4000x7.numel
  inb_S7x300_S7x300_0_0 : ∀ a, (![0, 0] : Fin 2 → Nat) a + S7x300.size a ≤ S7x300.size a
  h_S7x300 : 0 < S7x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4000x300 : S1x300.Broadcasts S4000x300
  inb_S4000x300_S4000x300_0_0 : ∀ a, (![0, 0] : Fin 2 → Nat) a + S4000x300.size a ≤ S4000x300.size a
  h_S4000x300 : 0 < S4000x300.numel
  packedbf16_S4000x300_S4000x300_0_0 : (Rect.unit (s := S4000x300) ![0, 0] S4000x300.size inb_S4000x300_S4000x300_0_0).PackedRows (EltTy.packing .bf16)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x300 : S_.BroadcastsInDim S320000x300 (![] : Fin 0 → Fin S320000x300.rank)
  bcast_S_S20000x300 : S_.BroadcastsInDim S20000x300 (![] : Fin 0 → Fin S20000x300.rank)
  slices_S5_S1_0 : S5.Slices ![0] S1
  shapeCasts_S1_S_ : S1.ShapeCasts S_
  bcast_S_S1x1 : S_.BroadcastsInDim S1x1 (![] : Fin 0 → Fin S1x1.rank)
  bcast_S1x1_S1x300_0_1 : S1x1.BroadcastsInDim S1x300 (![0, 1] : Fin 2 → Fin S1x300.rank)
  slices_S5x300x300_S1x300x300_0_0_0 : S5x300x300.Slices ![0, 0, 0] S1x300x300
  shapeCasts_S1x300x300_S300x300 : S1x300x300.ShapeCasts S300x300
  slices_S5x300_S1x300_0_0 : S5x300.Slices ![0, 0] S1x300
  shapeCasts_S1x300_S300 : S1x300.ShapeCasts S300
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  broadcasts_S1x300_S2000x300 : S1x300.Broadcasts S2000x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  reduces_S2000x300_S300 : S2000x300.Reduces [0] S300
  inb_S1x2x300_S1x1x300_0_0_0 : ∀ a, (![0, 0, 0] : Fin 3 → Nat) a + S1x1x300.size a ≤ S1x2x300.size a
  h_S1x1x300 : 0 < S1x1x300.numel
  shapeCasts_S1x1x300_S1x300 : S1x1x300.ShapeCasts S1x300
  shapeCasts_S1x300_S1x1x300 : S1x300.ShapeCasts S1x1x300
  inb_S1x2x300_S1x1x300_0_1_0 : ∀ a, (![0, 1, 0] : Fin 3 → Nat) a + S1x1x300.size a ≤ S1x2x300.size a
  slices_S10x2x300_S10x1x300_0_0_0 : S10x2x300.Slices ![0, 0, 0] S10x1x300
  shapeCasts_S10x1x300_S10x300 : S10x1x300.ShapeCasts S10x300
  reducesTo_S10x300_S300_d0 : S10x300.ReducesTo [0] S300
  h_S_ : 0 < S_.numel
  slices_S10x2x300_S10x1x300_0_1_0 : S10x2x300.Slices ![0, 1, 0] S10x1x300
  bcast_S_S300 : S_.BroadcastsInDim S300 (![] : Fin 0 → Fin S300.rank)
  packedbf16_S2000x300_S2000x300_0_0 : (Rect.unit (s := S2000x300) ![0, 0] S2000x300.size inb_S2000x300_S2000x300_0_0).PackedRows (EltTy.packing .bf16)
  slices_S5_S1_1 : S5.Slices ![1] S1
  slices_S5x300x300_S1x300x300_1_0_0 : S5x300x300.Slices ![1, 0, 0] S1x300x300
  slices_S5x300_S1x300_1_0 : S5x300.Slices ![1, 0] S1x300
  slices_S5_S1_2 : S5.Slices ![2] S1
  slices_S5x300x300_S1x300x300_2_0_0 : S5x300x300.Slices ![2, 0, 0] S1x300x300
  slices_S5x300_S1x300_2_0 : S5x300.Slices ![2, 0] S1x300
  slices_S5_S1_3 : S5.Slices ![3] S1
  slices_S5x300x300_S1x300x300_3_0_0 : S5x300x300.Slices ![3, 0, 0] S1x300x300
  slices_S5x300_S1x300_3_0 : S5x300.Slices ![3, 0] S1x300
  slices_S5_S1_4 : S5.Slices ![4] S1
  slices_S5x300x300_S1x300x300_4_0_0 : S5x300x300.Slices ![4, 0, 0] S1x300x300
  slices_S5x300_S1x300_4_0 : S5x300.Slices ![4, 0] S1x300
  bcast_S_S128 : S_.BroadcastsInDim S128 (![] : Fin 0 → Fin S128.rank)
  bcast_S_S128x300 : S_.BroadcastsInDim S128x300 (![] : Fin 0 → Fin S128x300.rank)
  bcast_S128_S128x1_0 : S128.BroadcastsInDim S128x1 (![0] : Fin 1 → Fin S128x1.rank)
  bcast_S128x1_S128x300_0_1 : S128x1.BroadcastsInDim S128x300 (![0, 1] : Fin 2 → Fin S128x300.rank)
  bcast_S150_S1x150_1 : S150.BroadcastsInDim S1x150 (![1] : Fin 1 → Fin S1x150.rank)
  bcast_S1x150_S128x150_0_1 : S1x150.BroadcastsInDim S128x150 (![0, 1] : Fin 2 → Fin S128x150.rank)
  bcast_S_S128x150 : S_.BroadcastsInDim S128x150 (![] : Fin 0 → Fin S128x150.rank)
  bcast_S6_S1x6_1 : S6.BroadcastsInDim S1x6 (![1] : Fin 1 → Fin S1x6.rank)
  bcast_S1x6_S128x6_0_1 : S1x6.BroadcastsInDim S128x6 (![0, 1] : Fin 2 → Fin S128x6.rank)
  gather_S119x300_S20000x1_S20000x300_1_0_n_n_0_1_1300_wf : GatherDims.WF S119x300 S20000x1 S20000x300 [1] [0] [] [0] [] 1 ![1, 300]
  dot_S4000x7_S7x300_S4000x300_1_0_0_1_n_n_wf : DotDims.WF S4000x7 S7x300 S4000x300 [1] [0] [0] [1] [] []
  gather_S20000x300_S320000x1_S320000x300_1_0_n_n_0_1_1300_wf : GatherDims.WF S20000x300 S320000x1 S320000x300 [1] [0] [] [0] [] 1 ![1, 300]
  scatter_S20000x300_S320000x1_S320000x300_1_0_0_1_wf : ScatterDims.WF S20000x300 S320000x1 S320000x300 [1] [0] [0] 1
  dot_S2000x300_S300x300_S2000x300_1_0_0_1_n_n_wf : DotDims.WF S2000x300 S300x300 S2000x300 [1] [0] [0] [1] [] []
  scatter_S128_S20000x1_S20000_n_0_0_1_wf : ScatterDims.WF S128 S20000x1 S20000 [] [0] [0] 1
  scatter_S128x300_S20000x1_S20000x300_1_0_0_1_wf : ScatterDims.WF S128x300 S20000x1 S20000x300 [1] [0] [0] 1
  dot_S128x300_S300x150_S128x150_1_0_0_1_n_n_wf : DotDims.WF S128x300 S300x150 S128x150 [1] [0] [0] [1] [] []
  dot_S128x150_S150x6_S128x6_1_0_0_1_n_n_wf : DotDims.WF S128x150 S150x6 S128x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x7.size a ≤ S320000x7.size a
  hwx0_0 : ∀ i : grid0.Coords, EltTy.bits .f32 = 32 ∨ (Rect.block (s := S320000x7) S4000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x300.size a ≤ S7x300.size a
  hwx0_1 : ∀ i : grid0.Coords, EltTy.bits .f32 = 32 ∨ (Rect.block (s := S7x300) S7x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x300.size a ≤ S320000x300.size a
  hwx0_3 : ∀ i : grid0.Coords, EltTy.bits .bf16 = 32 ∨ (Rect.block (s := S320000x300) S4000x300.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S20000x300.size a
  hwx1_0 : ∀ i : grid1.Coords, EltTy.bits .f32 = 32 ∨ (Rect.block (s := S20000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S20000x300.size a
  hwx1_1 : ∀ i : grid1.Coords, EltTy.bits .f32 = 32 ∨ (Rect.block (s := S20000x300) S2000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x300.size a ≤ S300x300.size a
  hwx1_3 : ∀ i : grid1.Coords, EltTy.bits .f32 = 32 ∨ (Rect.block (s := S300x300) S300x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x300.size a ≤ S20000x300.size a
  hwx1_5 : ∀ i : grid1.Coords, EltTy.bits .f32 = 32 ∨ (Rect.block (s := S20000x300) S2000x300.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x300.size a ≤ S10x2x300.size a
  hwx1_6 : ∀ i : grid1.Coords, EltTy.bits .f32 = 32 ∨ (Rect.block (s := S10x2x300) S1x2x300.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S20000x300.size a
  hwx2_0 : ∀ i : grid2.Coords, EltTy.bits .f32 = 32 ∨ (Rect.block (s := S20000x300) S2000x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x300.size a ≤ S1x300.size a
  hwx2_1 : ∀ i : grid2.Coords, EltTy.bits .f32 = 32 ∨ (Rect.block (s := S1x300) S1x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x300.size a ≤ S1x300.size a
  hwx2_2 : ∀ i : grid2.Coords, EltTy.bits .f32 = 32 ∨ (Rect.block (s := S1x300) S1x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x300.size a ≤ S1x300.size a
  hwx2_3 : ∀ i : grid2.Coords, EltTy.bits .f32 = 32 ∨ (Rect.block (s := S1x300) S1x300.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x300.size a ≤ S1x300.size a
  hwx2_4 : ∀ i : grid2.Coords, EltTy.bits .f32 = 32 ∨ (Rect.block (s := S1x300) S1x300.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S300x300.size a ≤ S300x300.size a
  hwx2_5 : ∀ i : grid2.Coords, EltTy.bits .f32 = 32 ∨ (Rect.block (s := S300x300) S300x300.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x300.size a ≤ S1x300.size a
  hwx2_6 : ∀ i : grid2.Coords, EltTy.bits .f32 = 32 ∨ (Rect.block (s := S1x300) S1x300.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x300.size a ≤ S20000x300.size a
  hwx2_7 : ∀ i : grid2.Coords, EltTy.bits .f32 = 32 ∨ (Rect.block (s := S20000x300) S2000x300.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x2x300.size a ≤ S10x2x300.size a
  hwx2_8 : ∀ i : grid2.Coords, EltTy.bits .f32 = 32 ∨ (Rect.block (s := S10x2x300) S1x2x300.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x300.size a ≤ S20000x300.size a
  hwx3_0 : ∀ i : grid3.Coords, EltTy.bits .f32 = 32 ∨ (Rect.block (s := S20000x300) S2000x300.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x300.size a ≤ S1x300.size a
  hwx3_1 : ∀ i : grid3.Coords, EltTy.bits .f32 = 32 ∨ (Rect.block (s := S1x300) S1x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x300.size a ≤ S1x300.size a
  hwx3_2 : ∀ i : grid3.Coords, EltTy.bits .f32 = 32 ∨ (Rect.block (s := S1x300) S1x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x300.size a ≤ S1x300.size a
  hwx3_3 : ∀ i : grid3.Coords, EltTy.bits .f32 = 32 ∨ (Rect.block (s := S1x300) S1x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x300.size a ≤ S20000x300.size a
  hwx3_5 : ∀ i : grid3.Coords, EltTy.bits .f32 = 32 ∨ (Rect.block (s := S20000x300) S2000x300.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x300.size a ≤ S20000x300.size a
  hwx3_6 : ∀ i : grid3.Coords, EltTy.bits .bf16 = 32 ∨ (Rect.block (s := S20000x300) S2000x300.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x300.size a ≤ S20000x300.size a
  hwx4_0 : ∀ i : grid4.Coords, EltTy.bits .f32 = 32 ∨ (Rect.block (s := S20000x300) S2000x300.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x300.size a ≤ S20000x300.size a
  hwx4_1 : ∀ i : grid4.Coords, EltTy.bits .f32 = 32 ∨ (Rect.block (s := S20000x300) S2000x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x300.size a ≤ S1x300.size a
  hwx4_2 : ∀ i : grid4.Coords, EltTy.bits .f32 = 32 ∨ (Rect.block (s := S1x300) S1x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S300x300.size a ≤ S300x300.size a
  hwx4_3 : ∀ i : grid4.Coords, EltTy.bits .f32 = 32 ∨ (Rect.block (s := S300x300) S300x300.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x300.size a ≤ S1x300.size a
  hwx4_4 : ∀ i : grid4.Coords, EltTy.bits .f32 = 32 ∨ (Rect.block (s := S1x300) S1x300.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x300.size a ≤ S20000x300.size a
  hwx4_5 : ∀ i : grid4.Coords, EltTy.bits .f32 = 32 ∨ (Rect.block (s := S20000x300) S2000x300.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x2x300.size a ≤ S10x2x300.size a
  hwx4_6 : ∀ i : grid4.Coords, EltTy.bits .f32 = 32 ∨ (Rect.block (s := S10x2x300) S1x2x300.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x300.size a ≤ S20000x300.size a
  hwx5_0 : ∀ i : grid5.Coords, EltTy.bits .f32 = 32 ∨ (Rect.block (s := S20000x300) S2000x300.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x300.size a ≤ S1x300.size a
  hwx5_1 : ∀ i : grid5.Coords, EltTy.bits .f32 = 32 ∨ (Rect.block (s := S1x300) S1x300.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x300.size a ≤ S1x300.size a
  hwx5_2 : ∀ i : grid5.Coords, EltTy.bits .f32 = 32 ∨ (Rect.block (s := S1x300) S1x300.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x300.size a ≤ S1x300.size a
  hwx5_3 : ∀ i : grid5.Coords, EltTy.bits .f32 = 32 ∨ (Rect.block (s := S1x300) S1x300.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x300.size a ≤ S1x300.size a
  hwx5_4 : ∀ i : grid5.Coords, EltTy.bits .f32 = 32 ∨ (Rect.block (s := S1x300) S1x300.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S300x300.size a ≤ S300x300.size a
  hwx5_5 : ∀ i : grid5.Coords, EltTy.bits .f32 = 32 ∨ (Rect.block (s := S300x300) S300x300.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x300.size a ≤ S1x300.size a
  hwx5_6 : ∀ i : grid5.Coords, EltTy.bits .f32 = 32 ∨ (Rect.block (s := S1x300) S1x300.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x300.size a ≤ S20000x300.size a
  hwx5_7 : ∀ i : grid5.Coords, EltTy.bits .f32 = 32 ∨ (Rect.block (s := S20000x300) S2000x300.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1x2x300.size a ≤ S10x2x300.size a
  hwx5_8 : ∀ i : grid5.Coords, EltTy.bits .f32 = 32 ∨ (Rect.block (s := S10x2x300) S1x2x300.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x300.size a ≤ S20000x300.size a
  hwx6_0 : ∀ i : grid6.Coords, EltTy.bits .f32 = 32 ∨ (Rect.block (s := S20000x300) S2000x300.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x300.size a ≤ S1x300.size a
  hwx6_1 : ∀ i : grid6.Coords, EltTy.bits .f32 = 32 ∨ (Rect.block (s := S1x300) S1x300.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x300.size a ≤ S1x300.size a
  hwx6_2 : ∀ i : grid6.Coords, EltTy.bits .f32 = 32 ∨ (Rect.block (s := S1x300) S1x300.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x300.size a ≤ S1x300.size a
  hwx6_3 : ∀ i : grid6.Coords, EltTy.bits .f32 = 32 ∨ (Rect.block (s := S1x300) S1x300.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x300.size a ≤ S1x300.size a
  hwx6_4 : ∀ i : grid6.Coords, EltTy.bits .f32 = 32 ∨ (Rect.block (s := S1x300) S1x300.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x300.size a ≤ S20000x300.size a
  hwx6_5 : ∀ i : grid6.Coords, EltTy.bits .f32 = 32 ∨ (Rect.block (s := S20000x300) S2000x300.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x300.size a ≤ S20000x300.size a
  hwx6_6 : ∀ i : grid6.Coords, EltTy.bits .bf16 = 32 ∨ (Rect.block (s := S20000x300) S2000x300.size (cc6_transform_6 i) (hinb6_6 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x300.size a ≤ S20000x300.size a
  hwx7_0 : ∀ i : grid7.Coords, EltTy.bits .f32 = 32 ∨ (Rect.block (s := S20000x300) S2000x300.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x300.size a ≤ S20000x300.size a
  hwx7_1 : ∀ i : grid7.Coords, EltTy.bits .f32 = 32 ∨ (Rect.block (s := S20000x300) S2000x300.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x300.size a ≤ S1x300.size a
  hwx7_2 : ∀ i : grid7.Coords, EltTy.bits .f32 = 32 ∨ (Rect.block (s := S1x300) S1x300.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S300x300.size a ≤ S300x300.size a
  hwx7_3 : ∀ i : grid7.Coords, EltTy.bits .f32 = 32 ∨ (Rect.block (s := S300x300) S300x300.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x300.size a ≤ S1x300.size a
  hwx7_4 : ∀ i : grid7.Coords, EltTy.bits .f32 = 32 ∨ (Rect.block (s := S1x300) S1x300.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x300.size a ≤ S20000x300.size a
  hwx7_5 : ∀ i : grid7.Coords, EltTy.bits .f32 = 32 ∨ (Rect.block (s := S20000x300) S2000x300.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1x2x300.size a ≤ S10x2x300.size a
  hwx7_6 : ∀ i : grid7.Coords, EltTy.bits .f32 = 32 ∨ (Rect.block (s := S10x2x300) S1x2x300.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x300.size a ≤ S20000x300.size a
  hwx8_0 : ∀ i : grid8.Coords, EltTy.bits .f32 = 32 ∨ (Rect.block (s := S20000x300) S2000x300.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x300.size a ≤ S1x300.size a
  hwx8_1 : ∀ i : grid8.Coords, EltTy.bits .f32 = 32 ∨ (Rect.block (s := S1x300) S1x300.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x300.size a ≤ S1x300.size a
  hwx8_2 : ∀ i : grid8.Coords, EltTy.bits .f32 = 32 ∨ (Rect.block (s := S1x300) S1x300.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x300.size a ≤ S1x300.size a
  hwx8_3 : ∀ i : grid8.Coords, EltTy.bits .f32 = 32 ∨ (Rect.block (s := S1x300) S1x300.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x300.size a ≤ S1x300.size a
  hwx8_4 : ∀ i : grid8.Coords, EltTy.bits .f32 = 32 ∨ (Rect.block (s := S1x300) S1x300.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S300x300.size a ≤ S300x300.size a
  hwx8_5 : ∀ i : grid8.Coords, EltTy.bits .f32 = 32 ∨ (Rect.block (s := S300x300) S300x300.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x300.size a ≤ S1x300.size a
  hwx8_6 : ∀ i : grid8.Coords, EltTy.bits .f32 = 32 ∨ (Rect.block (s := S1x300) S1x300.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2000x300.size a ≤ S20000x300.size a
  hwx8_7 : ∀ i : grid8.Coords, EltTy.bits .f32 = 32 ∨ (Rect.block (s := S20000x300) S2000x300.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S1x2x300.size a ≤ S10x2x300.size a
  hwx8_8 : ∀ i : grid8.Coords, EltTy.bits .f32 = 32 ∨ (Rect.block (s := S10x2x300) S1x2x300.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x300.size a ≤ S20000x300.size a
  hwx9_0 : ∀ i : grid9.Coords, EltTy.bits .f32 = 32 ∨ (Rect.block (s := S20000x300) S2000x300.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x300.size a ≤ S1x300.size a
  hwx9_1 : ∀ i : grid9.Coords, EltTy.bits .f32 = 32 ∨ (Rect.block (s := S1x300) S1x300.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x300.size a ≤ S1x300.size a
  hwx9_2 : ∀ i : grid9.Coords, EltTy.bits .f32 = 32 ∨ (Rect.block (s := S1x300) S1x300.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x300.size a ≤ S1x300.size a
  hwx9_3 : ∀ i : grid9.Coords, EltTy.bits .f32 = 32 ∨ (Rect.block (s := S1x300) S1x300.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x300.size a ≤ S1x300.size a
  hwx9_4 : ∀ i : grid9.Coords, EltTy.bits .f32 = 32 ∨ (Rect.block (s := S1x300) S1x300.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x300.size a ≤ S20000x300.size a
  hwx9_5 : ∀ i : grid9.Coords, EltTy.bits .f32 = 32 ∨ (Rect.block (s := S20000x300) S2000x300.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x300.size a ≤ S20000x300.size a
  hwx9_6 : ∀ i : grid9.Coords, EltTy.bits .bf16 = 32 ∨ (Rect.block (s := S20000x300) S2000x300.size (cc9_transform_6 i) (hinb9_6 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x300.size a ≤ S20000x300.size a
  hwx10_0 : ∀ i : grid10.Coords, EltTy.bits .f32 = 32 ∨ (Rect.block (s := S20000x300) S2000x300.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x300.size a ≤ S20000x300.size a
  hwx10_1 : ∀ i : grid10.Coords, EltTy.bits .f32 = 32 ∨ (Rect.block (s := S20000x300) S2000x300.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x300.size a ≤ S1x300.size a
  hwx10_2 : ∀ i : grid10.Coords, EltTy.bits .f32 = 32 ∨ (Rect.block (s := S1x300) S1x300.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S300x300.size a ≤ S300x300.size a
  hwx10_3 : ∀ i : grid10.Coords, EltTy.bits .f32 = 32 ∨ (Rect.block (s := S300x300) S300x300.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x300.size a ≤ S1x300.size a
  hwx10_4 : ∀ i : grid10.Coords, EltTy.bits .f32 = 32 ∨ (Rect.block (s := S1x300) S1x300.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x300.size a ≤ S20000x300.size a
  hwx10_5 : ∀ i : grid10.Coords, EltTy.bits .f32 = 32 ∨ (Rect.block (s := S20000x300) S2000x300.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S1x2x300.size a ≤ S10x2x300.size a
  hwx10_6 : ∀ i : grid10.Coords, EltTy.bits .f32 = 32 ∨ (Rect.block (s := S10x2x300) S1x2x300.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x300.size a ≤ S20000x300.size a
  hwx11_0 : ∀ i : grid11.Coords, EltTy.bits .f32 = 32 ∨ (Rect.block (s := S20000x300) S2000x300.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x300.size a ≤ S1x300.size a
  hwx11_1 : ∀ i : grid11.Coords, EltTy.bits .f32 = 32 ∨ (Rect.block (s := S1x300) S1x300.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x300.size a ≤ S1x300.size a
  hwx11_2 : ∀ i : grid11.Coords, EltTy.bits .f32 = 32 ∨ (Rect.block (s := S1x300) S1x300.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x300.size a ≤ S1x300.size a
  hwx11_3 : ∀ i : grid11.Coords, EltTy.bits .f32 = 32 ∨ (Rect.block (s := S1x300) S1x300.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x300.size a ≤ S1x300.size a
  hwx11_4 : ∀ i : grid11.Coords, EltTy.bits .f32 = 32 ∨ (Rect.block (s := S1x300) S1x300.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S300x300.size a ≤ S300x300.size a
  hwx11_5 : ∀ i : grid11.Coords, EltTy.bits .f32 = 32 ∨ (Rect.block (s := S300x300) S300x300.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x300.size a ≤ S1x300.size a
  hwx11_6 : ∀ i : grid11.Coords, EltTy.bits .f32 = 32 ∨ (Rect.block (s := S1x300) S1x300.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S2000x300.size a ≤ S20000x300.size a
  hwx11_7 : ∀ i : grid11.Coords, EltTy.bits .f32 = 32 ∨ (Rect.block (s := S20000x300) S2000x300.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S1x2x300.size a ≤ S10x2x300.size a
  hwx11_8 : ∀ i : grid11.Coords, EltTy.bits .f32 = 32 ∨ (Rect.block (s := S10x2x300) S1x2x300.size (cc11_transform_8 i) (hinb11_8 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x300.size a ≤ S20000x300.size a
  hwx12_0 : ∀ i : grid12.Coords, EltTy.bits .f32 = 32 ∨ (Rect.block (s := S20000x300) S2000x300.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x300.size a ≤ S1x300.size a
  hwx12_1 : ∀ i : grid12.Coords, EltTy.bits .f32 = 32 ∨ (Rect.block (s := S1x300) S1x300.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x300.size a ≤ S1x300.size a
  hwx12_2 : ∀ i : grid12.Coords, EltTy.bits .f32 = 32 ∨ (Rect.block (s := S1x300) S1x300.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x300.size a ≤ S1x300.size a
  hwx12_3 : ∀ i : grid12.Coords, EltTy.bits .f32 = 32 ∨ (Rect.block (s := S1x300) S1x300.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x300.size a ≤ S1x300.size a
  hwx12_4 : ∀ i : grid12.Coords, EltTy.bits .f32 = 32 ∨ (Rect.block (s := S1x300) S1x300.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x300.size a ≤ S20000x300.size a
  hwx12_5 : ∀ i : grid12.Coords, EltTy.bits .f32 = 32 ∨ (Rect.block (s := S20000x300) S2000x300.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S2000x300.size a ≤ S20000x300.size a
  hwx12_6 : ∀ i : grid12.Coords, EltTy.bits .bf16 = 32 ∨ (Rect.block (s := S20000x300) S2000x300.size (cc12_transform_6 i) (hinb12_6 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x300.size a ≤ S20000x300.size a
  hwx13_0 : ∀ i : grid13.Coords, EltTy.bits .f32 = 32 ∨ (Rect.block (s := S20000x300) S2000x300.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x300.size a ≤ S20000x300.size a
  hwx13_1 : ∀ i : grid13.Coords, EltTy.bits .f32 = 32 ∨ (Rect.block (s := S20000x300) S2000x300.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x300.size a ≤ S1x300.size a
  hwx13_2 : ∀ i : grid13.Coords, EltTy.bits .f32 = 32 ∨ (Rect.block (s := S1x300) S1x300.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S300x300.size a ≤ S300x300.size a
  hwx13_3 : ∀ i : grid13.Coords, EltTy.bits .f32 = 32 ∨ (Rect.block (s := S300x300) S300x300.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x300.size a ≤ S1x300.size a
  hwx13_4 : ∀ i : grid13.Coords, EltTy.bits .f32 = 32 ∨ (Rect.block (s := S1x300) S1x300.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x300.size a ≤ S20000x300.size a
  hwx13_5 : ∀ i : grid13.Coords, EltTy.bits .f32 = 32 ∨ (Rect.block (s := S20000x300) S2000x300.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S1x2x300.size a ≤ S10x2x300.size a
  hwx13_6 : ∀ i : grid13.Coords, EltTy.bits .f32 = 32 ∨ (Rect.block (s := S10x2x300) S1x2x300.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x300.size a ≤ S20000x300.size a
  hwx14_0 : ∀ i : grid14.Coords, EltTy.bits .f32 = 32 ∨ (Rect.block (s := S20000x300) S2000x300.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x300.size a ≤ S1x300.size a
  hwx14_1 : ∀ i : grid14.Coords, EltTy.bits .f32 = 32 ∨ (Rect.block (s := S1x300) S1x300.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x300.size a ≤ S1x300.size a
  hwx14_2 : ∀ i : grid14.Coords, EltTy.bits .f32 = 32 ∨ (Rect.block (s := S1x300) S1x300.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x300.size a ≤ S1x300.size a
  hwx14_3 : ∀ i : grid14.Coords, EltTy.bits .f32 = 32 ∨ (Rect.block (s := S1x300) S1x300.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x300.size a ≤ S1x300.size a
  hwx14_4 : ∀ i : grid14.Coords, EltTy.bits .f32 = 32 ∨ (Rect.block (s := S1x300) S1x300.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S300x300.size a ≤ S300x300.size a
  hwx14_5 : ∀ i : grid14.Coords, EltTy.bits .f32 = 32 ∨ (Rect.block (s := S300x300) S300x300.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x300.size a ≤ S1x300.size a
  hwx14_6 : ∀ i : grid14.Coords, EltTy.bits .f32 = 32 ∨ (Rect.block (s := S1x300) S1x300.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S2000x300.size a ≤ S20000x300.size a
  hwx14_7 : ∀ i : grid14.Coords, EltTy.bits .f32 = 32 ∨ (Rect.block (s := S20000x300) S2000x300.size (cc14_transform_7 i) (hinb14_7 i)).WholeWords (EltTy.packing .f32)
  hstage14_8 : ∀ j, (stage14_8 j).IsWhole
  nbuf14_8 : grid14.bufCount reads14_8 false = 2
  hreads14_8 : ∀ i i' : grid14.Coords, (∀ a, reads14_8 a = true → i a = i' a) → cc14_transform_8 i = cc14_transform_8 i'
  hinb14_8 : ∀ (i : grid14.Coords) a, (cc14_transform_8 i a + 1) * S1x2x300.size a ≤ S10x2x300.size a
  hwx14_8 : ∀ i : grid14.Coords, EltTy.bits .f32 = 32 ∨ (Rect.block (s := S10x2x300) S1x2x300.size (cc14_transform_8 i) (hinb14_8 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x300.size a ≤ S20000x300.size a
  hwx15_0 : ∀ i : grid15.Coords, EltTy.bits .f32 = 32 ∨ (Rect.block (s := S20000x300) S2000x300.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x300.size a ≤ S1x300.size a
  hwx15_1 : ∀ i : grid15.Coords, EltTy.bits .f32 = 32 ∨ (Rect.block (s := S1x300) S1x300.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x300.size a ≤ S1x300.size a
  hwx15_2 : ∀ i : grid15.Coords, EltTy.bits .f32 = 32 ∨ (Rect.block (s := S1x300) S1x300.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x300.size a ≤ S1x300.size a
  hwx15_3 : ∀ i : grid15.Coords, EltTy.bits .f32 = 32 ∨ (Rect.block (s := S1x300) S1x300.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x300.size a ≤ S1x300.size a
  hwx15_4 : ∀ i : grid15.Coords, EltTy.bits .f32 = 32 ∨ (Rect.block (s := S1x300) S1x300.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S2000x300.size a ≤ S20000x300.size a
  hwx15_5 : ∀ i : grid15.Coords, EltTy.bits .f32 = 32 ∨ (Rect.block (s := S20000x300) S2000x300.size (cc15_transform_5 i) (hinb15_5 i)).WholeWords (EltTy.packing .f32)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S2000x300.size a ≤ S20000x300.size a
  hwx15_6 : ∀ i : grid15.Coords, EltTy.bits .bf16 = 32 ∨ (Rect.block (s := S20000x300) S2000x300.size (cc15_transform_6 i) (hinb15_6 i)).WholeWords (EltTy.packing .bf16)

variable [Facts₀]

def gather_S119x300_S20000x1_S20000x300_1_0_n_n_0_1_1300 : GatherDims S119x300 S20000x1 S20000x300 where
  offsetDims := [1]
  collapsedSliceDims := [0]
  operandBatchingDims := []
  startIndicesBatchingDims := []
  startIndexMap := [0]
  indexVectorDim := 1
  sliceSizes := ![1, 300]
  wf := gather_S119x300_S20000x1_S20000x300_1_0_n_n_0_1_1300_wf
def dot_S4000x7_S7x300_S4000x300_1_0_0_1_n_n : DotDims S4000x7 S7x300 S4000x300 where
  lhsContracting := [1]
  rhsContracting := [0]
  lhsNonContracting := [0]
  rhsNonContracting := [1]
  lhsBatch := []
  rhsBatch := []
  wf := dot_S4000x7_S7x300_S4000x300_1_0_0_1_n_n_wf
def gather_S20000x300_S320000x1_S320000x300_1_0_n_n_0_1_1300 : GatherDims S20000x300 S320000x1 S320000x300 where
  offsetDims := [1]
  collapsedSliceDims := [0]
  operandBatchingDims := []
  startIndicesBatchingDims := []
  startIndexMap := [0]
  indexVectorDim := 1
  sliceSizes := ![1, 300]
  wf := gather_S20000x300_S320000x1_S320000x300_1_0_n_n_0_1_1300_wf
def scatter_S20000x300_S320000x1_S320000x300_1_0_0_1 : ScatterDims S20000x300 S320000x1 S320000x300 where
  updateWindowDims := [1]
  insertedWindowDims := [0]
  scatterDimsToOperandDims := [0]
  indexVectorDim := 1
  wf := scatter_S20000x300_S320000x1_S320000x300_1_0_0_1_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def scatter_S128_S20000x1_S20000_n_0_0_1 : ScatterDims S128 S20000x1 S20000 where
  updateWindowDims := []
  insertedWindowDims := [0]
  scatterDimsToOperandDims := [0]
  indexVectorDim := 1
  wf := scatter_S128_S20000x1_S20000_n_0_0_1_wf
def scatter_S128x300_S20000x1_S20000x300_1_0_0_1 : ScatterDims S128x300 S20000x1 S20000x300 where
  updateWindowDims := [1]
  insertedWindowDims := [0]
  scatterDimsToOperandDims := [0]
  indexVectorDim := 1
  wf := scatter_S128x300_S20000x1_S20000x300_1_0_0_1_wf
def dot_S128x300_S300x150_S128x150_1_0_0_1_n_n : DotDims S128x300 S300x150 S128x150 where
  lhsContracting := [1]
  rhsContracting := [0]
  lhsNonContracting := [0]
  rhsNonContracting := [1]
  lhsBatch := []
  rhsBatch := []
  wf := dot_S128x300_S300x150_S128x150_1_0_0_1_n_n_wf
def dot_S128x150_S150x6_S128x6_1_0_0_1_n_n : DotDims S128x150 S150x6 S128x6 where
  lhsContracting := [1]
  rhsContracting := [0]
  lhsNonContracting := [0]
  rhsNonContracting := [1]
  lhsBatch := []
  rhsBatch := []
  wf := dot_S128x150_S150x6_S128x6_1_0_0_1_n_n_wf

abbrev win0_0 : Pipeline.Window sig grid0 :=
  Pipeline.Window.ofSpec (Memref.whole main_arg3) S4000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S7x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S300x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39_0) S2000x300.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v39_1) S1x2x300.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39_0) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S300x300.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x300.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67_0) S2000x300.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v67_1) S1x2x300.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v67_0) S2000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x300.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90_0) S2000x300.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v90_1) S2000x300.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v90_0) S2000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S2000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v110) S1x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v112) S300x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v115) S1x300.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v116_0) S2000x300.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v116_1) S1x2x300.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v116_0) S2000x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v139) S1x300.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v140) S1x300.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v141) S1x300.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v142) S1x300.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v136) S300x300.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v143) S1x300.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v144_0) S2000x300.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v144_1) S1x2x300.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v144_0) S2000x300.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v163) S1x300.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v164) S1x300.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v165) S1x300.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v166) S1x300.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v167_0) S2000x300.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v167_1) S2000x300.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v167_0) S2000x300.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v182) S2000x300.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v187) S1x300.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v189) S300x300.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v192) S1x300.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v193_0) S2000x300.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v193_1) S1x2x300.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v193_0) S2000x300.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v216) S1x300.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v217) S1x300.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v218) S1x300.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v219) S1x300.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v213) S300x300.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v220) S1x300.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v221_0) S2000x300.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v221_1) S1x2x300.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v221_0) S2000x300.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v240) S1x300.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v241) S1x300.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v242) S1x300.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v243) S1x300.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v244_0) S2000x300.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v244_1) S2000x300.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v244_0) S2000x300.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v259) S2000x300.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v264) S1x300.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v266) S300x300.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v269) S1x300.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v270_0) S2000x300.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v270_1) S1x2x300.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v270_0) S2000x300.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v293) S1x300.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v294) S1x300.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v295) S1x300.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v296) S1x300.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v290) S300x300.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v297) S1x300.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v298_0) S2000x300.size cc11_transform_7 reads11_7 true false 2 stage11_7 sem11_7
    hrank11 hreads11_7 hinb11_7 nbuf11_7 (Memref.isWhole_whole _) hwx11_7 hstage11_7

abbrev win11_8 : Pipeline.Window sig grid11 :=
  Pipeline.Window.ofSpec (Memref.whole main_v298_1) S1x2x300.size cc11_transform_8 reads11_8 true false 2 stage11_8 sem11_8
    hrank11 hreads11_8 hinb11_8 nbuf11_8 (Memref.isWhole_whole _) hwx11_8 hstage11_8

abbrev win11 : Fin 9 → Pipeline.Window sig grid11 := fun | 0 => win11_0 | 1 => win11_1 | 2 => win11_2 | 3 => win11_3 | 4 => win11_4 | 5 => win11_5 | 6 => win11_6 | 7 => win11_7 | 8 => win11_8 | ⟨_ + 9, h⟩ => absurd h (Nat.not_lt.2 (Nat.le_add_left _ _))
abbrev spec11 : Fin 9 → Pipeline.WinSpec sig grid11.rank := fun w => (win11 w).toWinSpec

abbrev win12_0 : Pipeline.Window sig grid12 :=
  Pipeline.Window.ofSpec (Memref.whole main_v298_0) S2000x300.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v317) S1x300.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v318) S1x300.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v319) S1x300.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v320) S1x300.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v321_0) S2000x300.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v321_1) S2000x300.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v321_0) S2000x300.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v336) S2000x300.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v341) S1x300.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v343) S300x300.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v346) S1x300.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v347_0) S2000x300.size cc13_transform_5 reads13_5 true false 2 stage13_5 sem13_5
    hrank13 hreads13_5 hinb13_5 nbuf13_5 (Memref.isWhole_whole _) hwx13_5 hstage13_5

abbrev win13_6 : Pipeline.Window sig grid13 :=
  Pipeline.Window.ofSpec (Memref.whole main_v347_1) S1x2x300.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v347_0) S2000x300.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v370) S1x300.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v371) S1x300.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v372) S1x300.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v373) S1x300.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v367) S300x300.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v374) S1x300.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v375_0) S2000x300.size cc14_transform_7 reads14_7 true false 2 stage14_7 sem14_7
    hrank14 hreads14_7 hinb14_7 nbuf14_7 (Memref.isWhole_whole _) hwx14_7 hstage14_7

abbrev win14_8 : Pipeline.Window sig grid14 :=
  Pipeline.Window.ofSpec (Memref.whole main_v375_1) S1x2x300.size cc14_transform_8 reads14_8 true false 2 stage14_8 sem14_8
    hrank14 hreads14_8 hinb14_8 nbuf14_8 (Memref.isWhole_whole _) hwx14_8 hstage14_8

abbrev win14 : Fin 9 → Pipeline.Window sig grid14 := fun | 0 => win14_0 | 1 => win14_1 | 2 => win14_2 | 3 => win14_3 | 4 => win14_4 | 5 => win14_5 | 6 => win14_6 | 7 => win14_7 | 8 => win14_8 | ⟨_ + 9, h⟩ => absurd h (Nat.not_lt.2 (Nat.le_add_left _ _))
abbrev spec14 : Fin 9 → Pipeline.WinSpec sig grid14.rank := fun w => (win14 w).toWinSpec

abbrev win15_0 : Pipeline.Window sig grid15 :=
  Pipeline.Window.ofSpec (Memref.whole main_v375_0) S2000x300.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v394) S1x300.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v395) S1x300.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v396) S1x300.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v397) S1x300.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v398_0) S2000x300.size cc15_transform_5 reads15_5 true false 2 stage15_5 sem15_5
    hrank15 hreads15_5 hinb15_5 nbuf15_5 (Memref.isWhole_whole _) hwx15_5 hstage15_5

abbrev win15_6 : Pipeline.Window sig grid15 :=
  Pipeline.Window.ofSpec (Memref.whole main_v398_1) S2000x300.size cc15_transform_6 reads15_6 true false 2 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

class Facts : Prop extends Facts₀ where

variable [Facts]
-- ==== ReferenceIdeal.lean ====
abbrev S20000 : Shape := ⟨1, ![20000]⟩
abbrev S2x320000 : Shape := ⟨2, ![2, 320000]⟩
abbrev S320000x7 : Shape := ⟨2, ![320000, 7]⟩
abbrev S119x300 : Shape := ⟨2, ![119, 300]⟩
abbrev S7x300 : Shape := ⟨2, ![7, 300]⟩
abbrev S300 : Shape := ⟨1, ![300]⟩
abbrev S5 : Shape := ⟨1, ![5]⟩
abbrev S5x300x300 : Shape := ⟨3, ![5, 300, 300]⟩
abbrev S5x300 : Shape := ⟨2, ![5, 300]⟩
abbrev S300x150 : Shape := ⟨2, ![300, 150]⟩
abbrev S150 : Shape := ⟨1, ![150]⟩
abbrev S150x6 : Shape := ⟨2, ![150, 6]⟩
abbrev S6 : Shape := ⟨1, ![6]⟩
abbrev S1x320000 : Shape := ⟨2, ![1, 320000]⟩
abbrev S320000 : Shape := ⟨1, ![320000]⟩
abbrev S_ : Shape := ⟨0, ![]⟩
abbrev S20000x1 : Shape := ⟨2, ![20000, 1]⟩
abbrev S20000x300 : Shape := ⟨2, ![20000, 300]⟩
abbrev S320000x300 : Shape := ⟨2, ![320000, 300]⟩
abbrev S1x300 : Shape := ⟨2, ![1, 300]⟩
abbrev S320000x1 : Shape := ⟨2, ![320000, 1]⟩
abbrev S1 : Shape := ⟨1, ![1]⟩
abbrev S1x300x300 : Shape := ⟨3, ![1, 300, 300]⟩
abbrev S300x300 : Shape := ⟨2, ![300, 300]⟩
abbrev S128 : Shape := ⟨1, ![128]⟩
abbrev S128x300 : Shape := ⟨2, ![128, 300]⟩
abbrev S128x1 : Shape := ⟨2, ![128, 1]⟩
abbrev S128x150 : Shape := ⟨2, ![128, 150]⟩
abbrev S1x150 : Shape := ⟨2, ![1, 150]⟩
abbrev S128x6 : Shape := ⟨2, ![128, 6]⟩
abbrev S1x6 : Shape := ⟨2, ![1, 6]⟩

abbrev nBuf : Space → Nat
  | .hbm => 774
  | .vmem => 0
  | .smem => 0
  | _ => 0

abbrev hbmTy0_0 (i : Nat) : BufTy := match i % 128 with
  | 0 => ⟨S20000, .i32⟩
  | 1 => ⟨S2x320000, .i32⟩
  | 2 => ⟨S20000, .i32⟩
  | 3 => ⟨S320000x7, .f32⟩
  | 4 => ⟨S119x300, .f32⟩
  | 5 => ⟨S7x300, .f32⟩
  | 6 => ⟨S300, .f32⟩
  | 7 => ⟨S5, .f32⟩
  | 8 => ⟨S5x300x300, .f32⟩
  | 9 => ⟨S5x300, .f32⟩
  | 10 => ⟨S5x300, .f32⟩
  | 11 => ⟨S5x300, .f32⟩
  | 12 => ⟨S5x300x300, .f32⟩
  | 13 => ⟨S5x300, .f32⟩
  | 14 => ⟨S5x300, .f32⟩
  | 15 => ⟨S5x300, .f32⟩
  | 16 => ⟨S300x150, .f32⟩
  | 17 => ⟨S150, .f32⟩
  | 18 => ⟨S150x6, .f32⟩
  | 19 => ⟨S6, .f32⟩
  | 20 => ⟨S1x320000, .i32⟩
  | 21 => ⟨S320000, .i32⟩
  | 22 => ⟨S1x320000, .i32⟩
  | 23 => ⟨S320000, .i32⟩
  | 24 => ⟨S_, .i32⟩
  | 25 => ⟨S20000, .i32⟩
  | 26 => ⟨S20000, .i1⟩
  | 27 => ⟨S_, .i32⟩
  | 28 => ⟨S20000, .i32⟩
  | 29 => ⟨S20000, .i32⟩
  | 30 => ⟨S20000, .i32⟩
  | 31 => ⟨S20000x1, .i32⟩
  | 32 => ⟨S20000x300, .f32⟩
  | 33 => ⟨S320000x300, .f32⟩
  | 34 => ⟨S1x300, .f32⟩
  | 35 => ⟨S320000x300, .f32⟩
  | 36 => ⟨S320000x300, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000x300, .f32⟩
  | 46 => ⟨S320000x300, .f32⟩
  | 47 => ⟨S_, .f32⟩
  | 48 => ⟨S320000x300, .f32⟩
  | 49 => ⟨S320000x300, .f32⟩
  | 50 => ⟨S_, .f32⟩
  | 51 => ⟨S20000x300, .f32⟩
  | 52 => ⟨S320000x1, .i32⟩
  | 53 => ⟨S20000x300, .f32⟩
  | 54 => ⟨S1, .f32⟩
  | 55 => ⟨S_, .f32⟩
  | 56 => ⟨S_, .f32⟩
  | 57 => ⟨S_, .f32⟩
  | 58 => ⟨S20000x300, .f32⟩
  | 59 => ⟨S20000x300, .f32⟩
  | 60 => ⟨S20000x300, .f32⟩
  | 61 => ⟨S1x300x300, .f32⟩
  | 62 => ⟨S300x300, .f32⟩
  | 63 => ⟨S20000x300, .f32⟩
  | 64 => ⟨S1x300, .f32⟩
  | 65 => ⟨S300, .f32⟩
  | 66 => ⟨S1x300, .f32⟩
  | 67 => ⟨S20000x300, .f32⟩
  | 68 => ⟨S20000x300, .f32⟩
  | 69 => ⟨S1x300, .f32⟩
  | 70 => ⟨S300, .f32⟩
  | 71 => ⟨S1x300, .f32⟩
  | 72 => ⟨S300, .f32⟩
  | 73 => ⟨S_, .f32⟩
  | 74 => ⟨S300, .f32⟩
  | 75 => ⟨S_, .f32⟩
  | 76 => ⟨S300, .f32⟩
  | 77 => ⟨S300, .f32⟩
  | 78 => ⟨S_, .i32⟩
  | 79 => ⟨S_, .f32⟩
  | 80 => ⟨S300, .f32⟩
  | 81 => ⟨S1x300, .f32⟩
  | 82 => ⟨S_, .f32⟩
  | 83 => ⟨S1x300, .f32⟩
  | 84 => ⟨S1x300, .f32⟩
  | 85 => ⟨S20000x300, .f32⟩
  | 86 => ⟨S20000x300, .f32⟩
  | 87 => ⟨S20000x300, .f32⟩
  | 88 => ⟨S_, .f32⟩
  | 89 => ⟨S_, .f32⟩
  | 90 => ⟨S_, .f32⟩
  | 91 => ⟨S_, .f32⟩
  | 92 => ⟨S300, .f32⟩
  | 93 => ⟨S300, .f32⟩
  | 94 => ⟨S300, .f32⟩
  | 95 => ⟨S_, .f32⟩
  | 96 => ⟨S_, .i1⟩
  | 97 => ⟨S_, .f32⟩
  | 98 => ⟨S_, .f32⟩
  | 99 => ⟨S300, .f32⟩
  | 100 => ⟨S300, .f32⟩
  | 101 => ⟨S1x300, .f32⟩
  | 102 => ⟨S20000x300, .f32⟩
  | 103 => ⟨S20000x300, .f32⟩
  | 104 => ⟨S_, .f32⟩
  | 105 => ⟨S300, .f32⟩
  | 106 => ⟨S300, .f32⟩
  | 107 => ⟨S300, .f32⟩
  | 108 => ⟨S1x300, .f32⟩
  | 109 => ⟨S20000x300, .f32⟩
  | 110 => ⟨S20000x300, .f32⟩
  | 111 => ⟨S1x300, .f32⟩
  | 112 => ⟨S20000x300, .f32⟩
  | 113 => ⟨S20000x300, .f32⟩
  | 114 => ⟨S1x300, .f32⟩
  | 115 => ⟨S20000x300, .f32⟩
  | 116 => ⟨S20000x300, .f32⟩
  | 117 => ⟨S_, .f32⟩
  | 118 => ⟨S20000x300, .f32⟩
  | 119 => ⟨S20000x300, .f32⟩
  | 120 => ⟨S1x300x300, .f32⟩
  | 121 => ⟨S300x300, .f32⟩
  | 122 => ⟨S20000x300, .f32⟩
  | 123 => ⟨S1x300, .f32⟩
  | 124 => ⟨S300, .f32⟩
  | 125 => ⟨S1x300, .f32⟩
  | 126 => ⟨S20000x300, .f32⟩
  | 127 => ⟨S20000x300, .f32⟩
  | _ => ⟨S20000, .i32⟩

abbrev hbmTy0_1 (i : Nat) : BufTy := match i % 128 with
  | 0 => ⟨S1x300, .f32⟩
  | 1 => ⟨S300, .f32⟩
  | 2 => ⟨S1x300, .f32⟩
  | 3 => ⟨S300, .f32⟩
  | 4 => ⟨S_, .f32⟩
  | 5 => ⟨S300, .f32⟩
  | 6 => ⟨S_, .f32⟩
  | 7 => ⟨S300, .f32⟩
  | 8 => ⟨S300, .f32⟩
  | 9 => ⟨S_, .i32⟩
  | 10 => ⟨S_, .f32⟩
  | 11 => ⟨S300, .f32⟩
  | 12 => ⟨S1x300, .f32⟩
  | 13 => ⟨S_, .f32⟩
  | 14 => ⟨S1x300, .f32⟩
  | 15 => ⟨S1x300, .f32⟩
  | 16 => ⟨S20000x300, .f32⟩
  | 17 => ⟨S20000x300, .f32⟩
  | 18 => ⟨S20000x300, .f32⟩
  | 19 => ⟨S_, .f32⟩
  | 20 => ⟨S_, .f32⟩
  | 21 => ⟨S_, .f32⟩
  | 22 => ⟨S_, .f32⟩
  | 23 => ⟨S300, .f32⟩
  | 24 => ⟨S300, .f32⟩
  | 25 => ⟨S300, .f32⟩
  | 26 => ⟨S_, .f32⟩
  | 27 => ⟨S_, .i1⟩
  | 28 => ⟨S_, .f32⟩
  | 29 => ⟨S_, .f32⟩
  | 30 => ⟨S300, .f32⟩
  | 31 => ⟨S300, .f32⟩
  | 32 => ⟨S1x300, .f32⟩
  | 33 => ⟨S20000x300, .f32⟩
  | 34 => ⟨S20000x300, .f32⟩
  | 35 => ⟨S_, .f32⟩
  | 36 => ⟨S300, .f32⟩
  | 37 => ⟨S300, .f32⟩
  | 38 => ⟨S300, .f32⟩
  | 39 => ⟨S1x300, .f32⟩
  | 40 => ⟨S20000x300, .f32⟩
  | 41 => ⟨S20000x300, .f32⟩
  | 42 => ⟨S1x300, .f32⟩
  | 43 => ⟨S20000x300, .f32⟩
  | 44 => ⟨S20000x300, .f32⟩
  | 45 => ⟨S1x300, .f32⟩
  | 46 => ⟨S20000x300, .f32⟩
  | 47 => ⟨S20000x300, .f32⟩
  | 48 => ⟨S_, .f32⟩
  | 49 => ⟨S20000x300, .f32⟩
  | 50 => ⟨S20000x300, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x300, .f32⟩
  | 60 => ⟨S320000x300, .f32⟩
  | 61 => ⟨S_, .f32⟩
  | 62 => ⟨S320000x300, .f32⟩
  | 63 => ⟨S320000x300, .f32⟩
  | 64 => ⟨S_, .f32⟩
  | 65 => ⟨S20000x300, .f32⟩
  | 66 => ⟨S320000x1, .i32⟩
  | 67 => ⟨S20000x300, .f32⟩
  | 68 => ⟨S1, .f32⟩
  | 69 => ⟨S_, .f32⟩
  | 70 => ⟨S_, .f32⟩
  | 71 => ⟨S_, .f32⟩
  | 72 => ⟨S20000x300, .f32⟩
  | 73 => ⟨S20000x300, .f32⟩
  | 74 => ⟨S20000x300, .f32⟩
  | 75 => ⟨S1x300x300, .f32⟩
  | 76 => ⟨S300x300, .f32⟩
  | 77 => ⟨S20000x300, .f32⟩
  | 78 => ⟨S1x300, .f32⟩
  | 79 => ⟨S300, .f32⟩
  | 80 => ⟨S1x300, .f32⟩
  | 81 => ⟨S20000x300, .f32⟩
  | 82 => ⟨S20000x300, .f32⟩
  | 83 => ⟨S1x300, .f32⟩
  | 84 => ⟨S300, .f32⟩
  | 85 => ⟨S1x300, .f32⟩
  | 86 => ⟨S300, .f32⟩
  | 87 => ⟨S_, .f32⟩
  | 88 => ⟨S300, .f32⟩
  | 89 => ⟨S_, .f32⟩
  | 90 => ⟨S300, .f32⟩
  | 91 => ⟨S300, .f32⟩
  | 92 => ⟨S_, .i32⟩
  | 93 => ⟨S_, .f32⟩
  | 94 => ⟨S300, .f32⟩
  | 95 => ⟨S1x300, .f32⟩
  | 96 => ⟨S_, .f32⟩
  | 97 => ⟨S1x300, .f32⟩
  | 98 => ⟨S1x300, .f32⟩
  | 99 => ⟨S20000x300, .f32⟩
  | 100 => ⟨S20000x300, .f32⟩
  | 101 => ⟨S20000x300, .f32⟩
  | 102 => ⟨S_, .f32⟩
  | 103 => ⟨S_, .f32⟩
  | 104 => ⟨S_, .f32⟩
  | 105 => ⟨S_, .f32⟩
  | 106 => ⟨S300, .f32⟩
  | 107 => ⟨S300, .f32⟩
  | 108 => ⟨S300, .f32⟩
  | 109 => ⟨S_, .f32⟩
  | 110 => ⟨S_, .i1⟩
  | 111 => ⟨S_, .f32⟩
  | 112 => ⟨S_, .f32⟩
  | 113 => ⟨S300, .f32⟩
  | 114 => ⟨S300, .f32⟩
  | 115 => ⟨S1x300, .f32⟩
  | 116 => ⟨S20000x300, .f32⟩
  | 117 => ⟨S20000x300, .f32⟩
  | 118 => ⟨S_, .f32⟩
  | 119 => ⟨S300, .f32⟩
  | 120 => ⟨S300, .f32⟩
  | 121 => ⟨S300, .f32⟩
  | 122 => ⟨S1x300, .f32⟩
  | 123 => ⟨S20000x300, .f32⟩
  | 124 => ⟨S20000x300, .f32⟩
  | 125 => ⟨S1x300, .f32⟩
  | 126 => ⟨S20000x300, .f32⟩
  | 127 => ⟨S20000x300, .f32⟩
  | _ => ⟨S20000, .i32⟩

abbrev hbmTy0_2 (i : Nat) : BufTy := match i % 128 with
  | 0 => ⟨S1x300, .f32⟩
  | 1 => ⟨S20000x300, .f32⟩
  | 2 => ⟨S20000x300, .f32⟩
  | 3 => ⟨S_, .f32⟩
  | 4 => ⟨S20000x300, .f32⟩
  | 5 => ⟨S20000x300, .f32⟩
  | 6 => ⟨S1x300x300, .f32⟩
  | 7 => ⟨S300x300, .f32⟩
  | 8 => ⟨S20000x300, .f32⟩
  | 9 => ⟨S1x300, .f32⟩
  | 10 => ⟨S300, .f32⟩
  | 11 => ⟨S1x300, .f32⟩
  | 12 => ⟨S20000x300, .f32⟩
  | 13 => ⟨S20000x300, .f32⟩
  | 14 => ⟨S1x300, .f32⟩
  | 15 => ⟨S300, .f32⟩
  | 16 => ⟨S1x300, .f32⟩
  | 17 => ⟨S300, .f32⟩
  | 18 => ⟨S_, .f32⟩
  | 19 => ⟨S300, .f32⟩
  | 20 => ⟨S_, .f32⟩
  | 21 => ⟨S300, .f32⟩
  | 22 => ⟨S300, .f32⟩
  | 23 => ⟨S_, .i32⟩
  | 24 => ⟨S_, .f32⟩
  | 25 => ⟨S300, .f32⟩
  | 26 => ⟨S1x300, .f32⟩
  | 27 => ⟨S_, .f32⟩
  | 28 => ⟨S1x300, .f32⟩
  | 29 => ⟨S1x300, .f32⟩
  | 30 => ⟨S20000x300, .f32⟩
  | 31 => ⟨S20000x300, .f32⟩
  | 32 => ⟨S20000x300, .f32⟩
  | 33 => ⟨S_, .f32⟩
  | 34 => ⟨S_, .f32⟩
  | 35 => ⟨S_, .f32⟩
  | 36 => ⟨S_, .f32⟩
  | 37 => ⟨S300, .f32⟩
  | 38 => ⟨S300, .f32⟩
  | 39 => ⟨S300, .f32⟩
  | 40 => ⟨S_, .f32⟩
  | 41 => ⟨S_, .i1⟩
  | 42 => ⟨S_, .f32⟩
  | 43 => ⟨S_, .f32⟩
  | 44 => ⟨S300, .f32⟩
  | 45 => ⟨S300, .f32⟩
  | 46 => ⟨S1x300, .f32⟩
  | 47 => ⟨S20000x300, .f32⟩
  | 48 => ⟨S20000x300, .f32⟩
  | 49 => ⟨S_, .f32⟩
  | 50 => ⟨S300, .f32⟩
  | 51 => ⟨S300, .f32⟩
  | 52 => ⟨S300, .f32⟩
  | 53 => ⟨S1x300, .f32⟩
  | 54 => ⟨S20000x300, .f32⟩
  | 55 => ⟨S20000x300, .f32⟩
  | 56 => ⟨S1x300, .f32⟩
  | 57 => ⟨S20000x300, .f32⟩
  | 58 => ⟨S20000x300, .f32⟩
  | 59 => ⟨S1x300, .f32⟩
  | 60 => ⟨S20000x300, .f32⟩
  | 61 => ⟨S20000x300, .f32⟩
  | 62 => ⟨S_, .f32⟩
  | 63 => ⟨S20000x300, .f32⟩
  | 64 => ⟨S20000x300, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x300, .f32⟩
  | 74 => ⟨S320000x300, .f32⟩
  | 75 => ⟨S_, .f32⟩
  | 76 => ⟨S320000x300, .f32⟩
  | 77 => ⟨S320000x300, .f32⟩
  | 78 => ⟨S_, .f32⟩
  | 79 => ⟨S20000x300, .f32⟩
  | 80 => ⟨S320000x1, .i32⟩
  | 81 => ⟨S20000x300, .f32⟩
  | 82 => ⟨S1, .f32⟩
  | 83 => ⟨S_, .f32⟩
  | 84 => ⟨S_, .f32⟩
  | 85 => ⟨S_, .f32⟩
  | 86 => ⟨S20000x300, .f32⟩
  | 87 => ⟨S20000x300, .f32⟩
  | 88 => ⟨S20000x300, .f32⟩
  | 89 => ⟨S1x300x300, .f32⟩
  | 90 => ⟨S300x300, .f32⟩
  | 91 => ⟨S20000x300, .f32⟩
  | 92 => ⟨S1x300, .f32⟩
  | 93 => ⟨S300, .f32⟩
  | 94 => ⟨S1x300, .f32⟩
  | 95 => ⟨S20000x300, .f32⟩
  | 96 => ⟨S20000x300, .f32⟩
  | 97 => ⟨S1x300, .f32⟩
  | 98 => ⟨S300, .f32⟩
  | 99 => ⟨S1x300, .f32⟩
  | 100 => ⟨S300, .f32⟩
  | 101 => ⟨S_, .f32⟩
  | 102 => ⟨S300, .f32⟩
  | 103 => ⟨S_, .f32⟩
  | 104 => ⟨S300, .f32⟩
  | 105 => ⟨S300, .f32⟩
  | 106 => ⟨S_, .i32⟩
  | 107 => ⟨S_, .f32⟩
  | 108 => ⟨S300, .f32⟩
  | 109 => ⟨S1x300, .f32⟩
  | 110 => ⟨S_, .f32⟩
  | 111 => ⟨S1x300, .f32⟩
  | 112 => ⟨S1x300, .f32⟩
  | 113 => ⟨S20000x300, .f32⟩
  | 114 => ⟨S20000x300, .f32⟩
  | 115 => ⟨S20000x300, .f32⟩
  | 116 => ⟨S_, .f32⟩
  | 117 => ⟨S_, .f32⟩
  | 118 => ⟨S_, .f32⟩
  | 119 => ⟨S_, .f32⟩
  | 120 => ⟨S300, .f32⟩
  | 121 => ⟨S300, .f32⟩
  | 122 => ⟨S300, .f32⟩
  | 123 => ⟨S_, .f32⟩
  | 124 => ⟨S_, .i1⟩
  | 125 => ⟨S_, .f32⟩
  | 126 => ⟨S_, .f32⟩
  | 127 => ⟨S300, .f32⟩
  | _ => ⟨S20000, .i32⟩

abbrev hbmTy0_3 (i : Nat) : BufTy := match i % 128 with
  | 0 => ⟨S300, .f32⟩
  | 1 => ⟨S1x300, .f32⟩
  | 2 => ⟨S20000x300, .f32⟩
  | 3 => ⟨S20000x300, .f32⟩
  | 4 => ⟨S_, .f32⟩
  | 5 => ⟨S300, .f32⟩
  | 6 => ⟨S300, .f32⟩
  | 7 => ⟨S300, .f32⟩
  | 8 => ⟨S1x300, .f32⟩
  | 9 => ⟨S20000x300, .f32⟩
  | 10 => ⟨S20000x300, .f32⟩
  | 11 => ⟨S1x300, .f32⟩
  | 12 => ⟨S20000x300, .f32⟩
  | 13 => ⟨S20000x300, .f32⟩
  | 14 => ⟨S1x300, .f32⟩
  | 15 => ⟨S20000x300, .f32⟩
  | 16 => ⟨S20000x300, .f32⟩
  | 17 => ⟨S_, .f32⟩
  | 18 => ⟨S20000x300, .f32⟩
  | 19 => ⟨S20000x300, .f32⟩
  | 20 => ⟨S1x300x300, .f32⟩
  | 21 => ⟨S300x300, .f32⟩
  | 22 => ⟨S20000x300, .f32⟩
  | 23 => ⟨S1x300, .f32⟩
  | 24 => ⟨S300, .f32⟩
  | 25 => ⟨S1x300, .f32⟩
  | 26 => ⟨S20000x300, .f32⟩
  | 27 => ⟨S20000x300, .f32⟩
  | 28 => ⟨S1x300, .f32⟩
  | 29 => ⟨S300, .f32⟩
  | 30 => ⟨S1x300, .f32⟩
  | 31 => ⟨S300, .f32⟩
  | 32 => ⟨S_, .f32⟩
  | 33 => ⟨S300, .f32⟩
  | 34 => ⟨S_, .f32⟩
  | 35 => ⟨S300, .f32⟩
  | 36 => ⟨S300, .f32⟩
  | 37 => ⟨S_, .i32⟩
  | 38 => ⟨S_, .f32⟩
  | 39 => ⟨S300, .f32⟩
  | 40 => ⟨S1x300, .f32⟩
  | 41 => ⟨S_, .f32⟩
  | 42 => ⟨S1x300, .f32⟩
  | 43 => ⟨S1x300, .f32⟩
  | 44 => ⟨S20000x300, .f32⟩
  | 45 => ⟨S20000x300, .f32⟩
  | 46 => ⟨S20000x300, .f32⟩
  | 47 => ⟨S_, .f32⟩
  | 48 => ⟨S_, .f32⟩
  | 49 => ⟨S_, .f32⟩
  | 50 => ⟨S_, .f32⟩
  | 51 => ⟨S300, .f32⟩
  | 52 => ⟨S300, .f32⟩
  | 53 => ⟨S300, .f32⟩
  | 54 => ⟨S_, .f32⟩
  | 55 => ⟨S_, .i1⟩
  | 56 => ⟨S_, .f32⟩
  | 57 => ⟨S_, .f32⟩
  | 58 => ⟨S300, .f32⟩
  | 59 => ⟨S300, .f32⟩
  | 60 => ⟨S1x300, .f32⟩
  | 61 => ⟨S20000x300, .f32⟩
  | 62 => ⟨S20000x300, .f32⟩
  | 63 => ⟨S_, .f32⟩
  | 64 => ⟨S300, .f32⟩
  | 65 => ⟨S300, .f32⟩
  | 66 => ⟨S300, .f32⟩
  | 67 => ⟨S1x300, .f32⟩
  | 68 => ⟨S20000x300, .f32⟩
  | 69 => ⟨S20000x300, .f32⟩
  | 70 => ⟨S1x300, .f32⟩
  | 71 => ⟨S20000x300, .f32⟩
  | 72 => ⟨S20000x300, .f32⟩
  | 73 => ⟨S1x300, .f32⟩
  | 74 => ⟨S20000x300, .f32⟩
  | 75 => ⟨S20000x300, .f32⟩
  | 76 => ⟨S_, .f32⟩
  | 77 => ⟨S20000x300, .f32⟩
  | 78 => ⟨S20000x300, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x300, .f32⟩
  | 88 => ⟨S320000x300, .f32⟩
  | 89 => ⟨S_, .f32⟩
  | 90 => ⟨S320000x300, .f32⟩
  | 91 => ⟨S320000x300, .f32⟩
  | 92 => ⟨S_, .f32⟩
  | 93 => ⟨S20000x300, .f32⟩
  | 94 => ⟨S320000x1, .i32⟩
  | 95 => ⟨S20000x300, .f32⟩
  | 96 => ⟨S1, .f32⟩
  | 97 => ⟨S_, .f32⟩
  | 98 => ⟨S_, .f32⟩
  | 99 => ⟨S_, .f32⟩
  | 100 => ⟨S20000x300, .f32⟩
  | 101 => ⟨S20000x300, .f32⟩
  | 102 => ⟨S20000x300, .f32⟩
  | 103 => ⟨S1x300x300, .f32⟩
  | 104 => ⟨S300x300, .f32⟩
  | 105 => ⟨S20000x300, .f32⟩
  | 106 => ⟨S1x300, .f32⟩
  | 107 => ⟨S300, .f32⟩
  | 108 => ⟨S1x300, .f32⟩
  | 109 => ⟨S20000x300, .f32⟩
  | 110 => ⟨S20000x300, .f32⟩
  | 111 => ⟨S1x300, .f32⟩
  | 112 => ⟨S300, .f32⟩
  | 113 => ⟨S1x300, .f32⟩
  | 114 => ⟨S300, .f32⟩
  | 115 => ⟨S_, .f32⟩
  | 116 => ⟨S300, .f32⟩
  | 117 => ⟨S_, .f32⟩
  | 118 => ⟨S300, .f32⟩
  | 119 => ⟨S300, .f32⟩
  | 120 => ⟨S_, .i32⟩
  | 121 => ⟨S_, .f32⟩
  | 122 => ⟨S300, .f32⟩
  | 123 => ⟨S1x300, .f32⟩
  | 124 => ⟨S_, .f32⟩
  | 125 => ⟨S1x300, .f32⟩
  | 126 => ⟨S1x300, .f32⟩
  | 127 => ⟨S20000x300, .f32⟩
  | _ => ⟨S20000, .i32⟩

abbrev hbmTy0_4 (i : Nat) : BufTy := match i % 128 with
  | 0 => ⟨S20000x300, .f32⟩
  | 1 => ⟨S20000x300, .f32⟩
  | 2 => ⟨S_, .f32⟩
  | 3 => ⟨S_, .f32⟩
  | 4 => ⟨S_, .f32⟩
  | 5 => ⟨S_, .f32⟩
  | 6 => ⟨S300, .f32⟩
  | 7 => ⟨S300, .f32⟩
  | 8 => ⟨S300, .f32⟩
  | 9 => ⟨S_, .f32⟩
  | 10 => ⟨S_, .i1⟩
  | 11 => ⟨S_, .f32⟩
  | 12 => ⟨S_, .f32⟩
  | 13 => ⟨S300, .f32⟩
  | 14 => ⟨S300, .f32⟩
  | 15 => ⟨S1x300, .f32⟩
  | 16 => ⟨S20000x300, .f32⟩
  | 17 => ⟨S20000x300, .f32⟩
  | 18 => ⟨S_, .f32⟩
  | 19 => ⟨S300, .f32⟩
  | 20 => ⟨S300, .f32⟩
  | 21 => ⟨S300, .f32⟩
  | 22 => ⟨S1x300, .f32⟩
  | 23 => ⟨S20000x300, .f32⟩
  | 24 => ⟨S20000x300, .f32⟩
  | 25 => ⟨S1x300, .f32⟩
  | 26 => ⟨S20000x300, .f32⟩
  | 27 => ⟨S20000x300, .f32⟩
  | 28 => ⟨S1x300, .f32⟩
  | 29 => ⟨S20000x300, .f32⟩
  | 30 => ⟨S20000x300, .f32⟩
  | 31 => ⟨S_, .f32⟩
  | 32 => ⟨S20000x300, .f32⟩
  | 33 => ⟨S20000x300, .f32⟩
  | 34 => ⟨S1x300x300, .f32⟩
  | 35 => ⟨S300x300, .f32⟩
  | 36 => ⟨S20000x300, .f32⟩
  | 37 => ⟨S1x300, .f32⟩
  | 38 => ⟨S300, .f32⟩
  | 39 => ⟨S1x300, .f32⟩
  | 40 => ⟨S20000x300, .f32⟩
  | 41 => ⟨S20000x300, .f32⟩
  | 42 => ⟨S1x300, .f32⟩
  | 43 => ⟨S300, .f32⟩
  | 44 => ⟨S1x300, .f32⟩
  | 45 => ⟨S300, .f32⟩
  | 46 => ⟨S_, .f32⟩
  | 47 => ⟨S300, .f32⟩
  | 48 => ⟨S_, .f32⟩
  | 49 => ⟨S300, .f32⟩
  | 50 => ⟨S300, .f32⟩
  | 51 => ⟨S_, .i32⟩
  | 52 => ⟨S_, .f32⟩
  | 53 => ⟨S300, .f32⟩
  | 54 => ⟨S1x300, .f32⟩
  | 55 => ⟨S_, .f32⟩
  | 56 => ⟨S1x300, .f32⟩
  | 57 => ⟨S1x300, .f32⟩
  | 58 => ⟨S20000x300, .f32⟩
  | 59 => ⟨S20000x300, .f32⟩
  | 60 => ⟨S20000x300, .f32⟩
  | 61 => ⟨S_, .f32⟩
  | 62 => ⟨S_, .f32⟩
  | 63 => ⟨S_, .f32⟩
  | 64 => ⟨S_, .f32⟩
  | 65 => ⟨S300, .f32⟩
  | 66 => ⟨S300, .f32⟩
  | 67 => ⟨S300, .f32⟩
  | 68 => ⟨S_, .f32⟩
  | 69 => ⟨S_, .i1⟩
  | 70 => ⟨S_, .f32⟩
  | 71 => ⟨S_, .f32⟩
  | 72 => ⟨S300, .f32⟩
  | 73 => ⟨S300, .f32⟩
  | 74 => ⟨S1x300, .f32⟩
  | 75 => ⟨S20000x300, .f32⟩
  | 76 => ⟨S20000x300, .f32⟩
  | 77 => ⟨S_, .f32⟩
  | 78 => ⟨S300, .f32⟩
  | 79 => ⟨S300, .f32⟩
  | 80 => ⟨S300, .f32⟩
  | 81 => ⟨S1x300, .f32⟩
  | 82 => ⟨S20000x300, .f32⟩
  | 83 => ⟨S20000x300, .f32⟩
  | 84 => ⟨S1x300, .f32⟩
  | 85 => ⟨S20000x300, .f32⟩
  | 86 => ⟨S20000x300, .f32⟩
  | 87 => ⟨S1x300, .f32⟩
  | 88 => ⟨S20000x300, .f32⟩
  | 89 => ⟨S20000x300, .f32⟩
  | 90 => ⟨S_, .f32⟩
  | 91 => ⟨S20000x300, .f32⟩
  | 92 => ⟨S20000x300, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x300, .f32⟩
  | 102 => ⟨S320000x300, .f32⟩
  | 103 => ⟨S_, .f32⟩
  | 104 => ⟨S320000x300, .f32⟩
  | 105 => ⟨S320000x300, .f32⟩
  | 106 => ⟨S_, .f32⟩
  | 107 => ⟨S20000x300, .f32⟩
  | 108 => ⟨S320000x1, .i32⟩
  | 109 => ⟨S20000x300, .f32⟩
  | 110 => ⟨S1, .f32⟩
  | 111 => ⟨S_, .f32⟩
  | 112 => ⟨S_, .f32⟩
  | 113 => ⟨S_, .f32⟩
  | 114 => ⟨S20000x300, .f32⟩
  | 115 => ⟨S20000x300, .f32⟩
  | 116 => ⟨S20000x300, .f32⟩
  | 117 => ⟨S1x300x300, .f32⟩
  | 118 => ⟨S300x300, .f32⟩
  | 119 => ⟨S20000x300, .f32⟩
  | 120 => ⟨S1x300, .f32⟩
  | 121 => ⟨S300, .f32⟩
  | 122 => ⟨S1x300, .f32⟩
  | 123 => ⟨S20000x300, .f32⟩
  | 124 => ⟨S20000x300, .f32⟩
  | 125 => ⟨S1x300, .f32⟩
  | 126 => ⟨S300, .f32⟩
  | 127 => ⟨S1x300, .f32⟩
  | _ => ⟨S20000, .i32⟩

abbrev hbmTy0_5 (i : Nat) : BufTy := match i % 128 with
  | 0 => ⟨S300, .f32⟩
  | 1 => ⟨S_, .f32⟩
  | 2 => ⟨S300, .f32⟩
  | 3 => ⟨S_, .f32⟩
  | 4 => ⟨S300, .f32⟩
  | 5 => ⟨S300, .f32⟩
  | 6 => ⟨S_, .i32⟩
  | 7 => ⟨S_, .f32⟩
  | 8 => ⟨S300, .f32⟩
  | 9 => ⟨S1x300, .f32⟩
  | 10 => ⟨S_, .f32⟩
  | 11 => ⟨S1x300, .f32⟩
  | 12 => ⟨S1x300, .f32⟩
  | 13 => ⟨S20000x300, .f32⟩
  | 14 => ⟨S20000x300, .f32⟩
  | 15 => ⟨S20000x300, .f32⟩
  | 16 => ⟨S_, .f32⟩
  | 17 => ⟨S_, .f32⟩
  | 18 => ⟨S_, .f32⟩
  | 19 => ⟨S_, .f32⟩
  | 20 => ⟨S300, .f32⟩
  | 21 => ⟨S300, .f32⟩
  | 22 => ⟨S300, .f32⟩
  | 23 => ⟨S_, .f32⟩
  | 24 => ⟨S_, .i1⟩
  | 25 => ⟨S_, .f32⟩
  | 26 => ⟨S_, .f32⟩
  | 27 => ⟨S300, .f32⟩
  | 28 => ⟨S300, .f32⟩
  | 29 => ⟨S1x300, .f32⟩
  | 30 => ⟨S20000x300, .f32⟩
  | 31 => ⟨S20000x300, .f32⟩
  | 32 => ⟨S_, .f32⟩
  | 33 => ⟨S300, .f32⟩
  | 34 => ⟨S300, .f32⟩
  | 35 => ⟨S300, .f32⟩
  | 36 => ⟨S1x300, .f32⟩
  | 37 => ⟨S20000x300, .f32⟩
  | 38 => ⟨S20000x300, .f32⟩
  | 39 => ⟨S1x300, .f32⟩
  | 40 => ⟨S20000x300, .f32⟩
  | 41 => ⟨S20000x300, .f32⟩
  | 42 => ⟨S1x300, .f32⟩
  | 43 => ⟨S20000x300, .f32⟩
  | 44 => ⟨S20000x300, .f32⟩
  | 45 => ⟨S_, .f32⟩
  | 46 => ⟨S20000x300, .f32⟩
  | 47 => ⟨S20000x300, .f32⟩
  | 48 => ⟨S1x300x300, .f32⟩
  | 49 => ⟨S300x300, .f32⟩
  | 50 => ⟨S20000x300, .f32⟩
  | 51 => ⟨S1x300, .f32⟩
  | 52 => ⟨S300, .f32⟩
  | 53 => ⟨S1x300, .f32⟩
  | 54 => ⟨S20000x300, .f32⟩
  | 55 => ⟨S20000x300, .f32⟩
  | 56 => ⟨S1x300, .f32⟩
  | 57 => ⟨S300, .f32⟩
  | 58 => ⟨S1x300, .f32⟩
  | 59 => ⟨S300, .f32⟩
  | 60 => ⟨S_, .f32⟩
  | 61 => ⟨S300, .f32⟩
  | 62 => ⟨S_, .f32⟩
  | 63 => ⟨S300, .f32⟩
  | 64 => ⟨S300, .f32⟩
  | 65 => ⟨S_, .i32⟩
  | 66 => ⟨S_, .f32⟩
  | 67 => ⟨S300, .f32⟩
  | 68 => ⟨S1x300, .f32⟩
  | 69 => ⟨S_, .f32⟩
  | 70 => ⟨S1x300, .f32⟩
  | 71 => ⟨S1x300, .f32⟩
  | 72 => ⟨S20000x300, .f32⟩
  | 73 => ⟨S20000x300, .f32⟩
  | 74 => ⟨S20000x300, .f32⟩
  | 75 => ⟨S_, .f32⟩
  | 76 => ⟨S_, .f32⟩
  | 77 => ⟨S_, .f32⟩
  | 78 => ⟨S_, .f32⟩
  | 79 => ⟨S300, .f32⟩
  | 80 => ⟨S300, .f32⟩
  | 81 => ⟨S300, .f32⟩
  | 82 => ⟨S_, .f32⟩
  | 83 => ⟨S_, .i1⟩
  | 84 => ⟨S_, .f32⟩
  | 85 => ⟨S_, .f32⟩
  | 86 => ⟨S300, .f32⟩
  | 87 => ⟨S300, .f32⟩
  | 88 => ⟨S1x300, .f32⟩
  | 89 => ⟨S20000x300, .f32⟩
  | 90 => ⟨S20000x300, .f32⟩
  | 91 => ⟨S_, .f32⟩
  | 92 => ⟨S300, .f32⟩
  | 93 => ⟨S300, .f32⟩
  | 94 => ⟨S300, .f32⟩
  | 95 => ⟨S1x300, .f32⟩
  | 96 => ⟨S20000x300, .f32⟩
  | 97 => ⟨S20000x300, .f32⟩
  | 98 => ⟨S1x300, .f32⟩
  | 99 => ⟨S20000x300, .f32⟩
  | 100 => ⟨S20000x300, .f32⟩
  | 101 => ⟨S1x300, .f32⟩
  | 102 => ⟨S20000x300, .f32⟩
  | 103 => ⟨S20000x300, .f32⟩
  | 104 => ⟨S_, .f32⟩
  | 105 => ⟨S20000x300, .f32⟩
  | 106 => ⟨S20000x300, .f32⟩
  | 107 => ⟨S_, .f32⟩
  | 108 => ⟨S20000, .f32⟩
  | 109 => ⟨S_, .f32⟩
  | 110 => ⟨S128, .f32⟩
  | 111 => ⟨S20000x1, .i32⟩
  | 112 => ⟨S128, .f32⟩
  | 113 => ⟨S_, .f32⟩
  | 114 => ⟨S128x300, .f32⟩
  | 115 => ⟨S20000x1, .i32⟩
  | 116 => ⟨S128x300, .f32⟩
  | 117 => ⟨S_, .f32⟩
  | 118 => ⟨S128, .f32⟩
  | 119 => ⟨S128, .f32⟩
  | 120 => ⟨S128x1, .f32⟩
  | 121 => ⟨S128x300, .f32⟩
  | 122 => ⟨S128x300, .f32⟩
  | 123 => ⟨S128x150, .f32⟩
  | 124 => ⟨S1x150, .f32⟩
  | 125 => ⟨S128x150, .f32⟩
  | 126 => ⟨S128x150, .f32⟩
  | 127 => ⟨S_, .f32⟩
  | _ => ⟨S20000, .i32⟩

abbrev hbmTy0_6 (i : Nat) : BufTy := match i % 128 with
  | 0 => ⟨S128x150, .f32⟩
  | 1 => ⟨S128x150, .f32⟩
  | 2 => ⟨S128x6, .f32⟩
  | 3 => ⟨S1x6, .f32⟩
  | 4 => ⟨S128x6, .f32⟩
  | 5 => ⟨S128x6, .f32⟩
  | _ => ⟨S20000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S20000, .i32⟩

abbrev bufTy : (tb : Table) → Fin (tcTables nBuf tb) → BufTy
  | .hbm, ⟨i, _⟩ => hbmTy i
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call0_cst : Ref sig .tc := ⟨.hbm, 47, rfl⟩
abbrev main_call0_v0 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_v47 : Ref sig .tc := ⟨.hbm, 77, rfl⟩
abbrev main_c_6 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_cst_1 : Ref sig .tc := ⟨.hbm, 89, rfl⟩
abbrev main_call1_v8 : Ref sig .tc := ⟨.hbm, 90, rfl⟩
abbrev main_call1_cst_2 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_cst_3 : Ref sig .tc := ⟨.hbm, 95, rfl⟩
abbrev main_call1_v12 : Ref sig .tc := ⟨.hbm, 96, rfl⟩
abbrev main_call1_cst_4 : Ref sig .tc := ⟨.hbm, 97, rfl⟩
abbrev main_call1_call0_v0 : Ref sig .tc := ⟨.hbm, 98, rfl⟩
abbrev main_call1_call0_v1 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_7 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_call2_cst : Ref sig .tc := ⟨.hbm, 117, rfl⟩
abbrev main_call2_v0 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_8 : Ref sig .tc := ⟨.hbm, 132, rfl⟩
abbrev main_v77 : Ref sig .tc := ⟨.hbm, 133, rfl⟩
abbrev main_cst_9 : Ref sig .tc := ⟨.hbm, 134, rfl⟩
abbrev main_v78 : Ref sig .tc := ⟨.hbm, 135, rfl⟩
abbrev main_v79 : Ref sig .tc := ⟨.hbm, 136, rfl⟩
abbrev main_c_10 : Ref sig .tc := ⟨.hbm, 137, rfl⟩
abbrev main_call3_cst : Ref sig .tc := ⟨.hbm, 138, rfl⟩
abbrev main_call3_v0 : Ref sig .tc := ⟨.hbm, 139, rfl⟩
abbrev main_call3_v1 : Ref sig .tc := ⟨.hbm, 140, rfl⟩
abbrev main_call3_cst_0 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_v6 : Ref sig .tc := ⟨.hbm, 146, rfl⟩
abbrev main_call3_v7 : Ref sig .tc := ⟨.hbm, 147, rfl⟩
abbrev main_call3_cst_1 : Ref sig .tc := ⟨.hbm, 148, rfl⟩
abbrev main_call3_v8 : Ref sig .tc := ⟨.hbm, 149, rfl⟩
abbrev main_call3_cst_2 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_cst_3 : Ref sig .tc := ⟨.hbm, 154, rfl⟩
abbrev main_call3_v12 : Ref sig .tc := ⟨.hbm, 155, rfl⟩
abbrev main_call3_cst_4 : Ref sig .tc := ⟨.hbm, 156, rfl⟩
abbrev main_call3_call0_v0 : Ref sig .tc := ⟨.hbm, 157, rfl⟩
abbrev main_call3_call0_v1 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_cst_11 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_call4_cst : Ref sig .tc := ⟨.hbm, 176, rfl⟩
abbrev main_call4_v0 : Ref sig .tc := ⟨.hbm, 177, rfl⟩
abbrev main_v96 : Ref sig .tc := ⟨.hbm, 178, rfl⟩
abbrev main_c_12 : Ref sig .tc := ⟨.hbm, 179, rfl⟩
abbrev main_v97 : Ref sig .tc := ⟨.hbm, 180, rfl⟩
abbrev main_v98 : Ref sig .tc := ⟨.hbm, 181, rfl⟩
abbrev main_c_13 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_call5_cst : Ref sig .tc := ⟨.hbm, 189, rfl⟩
abbrev main_call5_v0 : Ref sig .tc := ⟨.hbm, 190, rfl⟩
abbrev main_v105 : Ref sig .tc := ⟨.hbm, 191, rfl⟩
abbrev main_cst_14 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_15 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_cst_16 : Ref sig .tc := ⟨.hbm, 215, rfl⟩
abbrev main_v127 : Ref sig .tc := ⟨.hbm, 216, rfl⟩
abbrev main_cst_17 : Ref sig .tc := ⟨.hbm, 217, rfl⟩
abbrev main_v128 : Ref sig .tc := ⟨.hbm, 218, rfl⟩
abbrev main_v129 : Ref sig .tc := ⟨.hbm, 219, rfl⟩
abbrev main_c_18 : Ref sig .tc := ⟨.hbm, 220, rfl⟩
abbrev main_call6_cst : Ref sig .tc := ⟨.hbm, 221, rfl⟩
abbrev main_call6_v0 : Ref sig .tc := ⟨.hbm, 222, rfl⟩
abbrev main_call6_v1 : Ref sig .tc := ⟨.hbm, 223, rfl⟩
abbrev main_call6_cst_0 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_call6_v5 : Ref sig .tc := ⟨.hbm, 228, rfl⟩
abbrev main_call6_v6 : Ref sig .tc := ⟨.hbm, 229, rfl⟩
abbrev main_call6_v7 : Ref sig .tc := ⟨.hbm, 230, rfl⟩
abbrev main_call6_cst_1 : Ref sig .tc := ⟨.hbm, 231, rfl⟩
abbrev main_call6_v8 : Ref sig .tc := ⟨.hbm, 232, rfl⟩
abbrev main_call6_cst_2 : Ref sig .tc := ⟨.hbm, 233, rfl⟩
abbrev main_call6_v9 : Ref sig .tc := ⟨.hbm, 234, rfl⟩
abbrev main_call6_v10 : Ref sig .tc := ⟨.hbm, 235, rfl⟩
abbrev main_call6_v11 : Ref sig .tc := ⟨.hbm, 236, rfl⟩
abbrev main_call6_cst_3 : Ref sig .tc := ⟨.hbm, 237, rfl⟩
abbrev main_call6_v12 : Ref sig .tc := ⟨.hbm, 238, rfl⟩
abbrev main_call6_cst_4 : Ref sig .tc := ⟨.hbm, 239, rfl⟩
abbrev main_call6_call0_v0 : Ref sig .tc := ⟨.hbm, 240, rfl⟩
abbrev main_call6_call0_v1 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_cst_19 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_call7_cst : Ref sig .tc := ⟨.hbm, 259, rfl⟩
abbrev main_call7_v0 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_cst_20 : Ref sig .tc := ⟨.hbm, 274, rfl⟩
abbrev main_v159 : Ref sig .tc := ⟨.hbm, 275, rfl⟩
abbrev main_cst_21 : Ref sig .tc := ⟨.hbm, 276, rfl⟩
abbrev main_v160 : Ref sig .tc := ⟨.hbm, 277, rfl⟩
abbrev main_v161 : Ref sig .tc := ⟨.hbm, 278, rfl⟩
abbrev main_c_22 : Ref sig .tc := ⟨.hbm, 279, rfl⟩
abbrev main_call8_cst : Ref sig .tc := ⟨.hbm, 280, rfl⟩
abbrev main_call8_v0 : Ref sig .tc := ⟨.hbm, 281, rfl⟩
abbrev main_call8_v1 : Ref sig .tc := ⟨.hbm, 282, rfl⟩
abbrev main_call8_cst_0 : Ref sig .tc := ⟨.hbm, 283, rfl⟩
abbrev main_call8_v2 : Ref sig .tc := ⟨.hbm, 284, rfl⟩
abbrev main_call8_v3 : Ref sig .tc := ⟨.hbm, 285, rfl⟩
abbrev main_call8_v4 : Ref sig .tc := ⟨.hbm, 286, rfl⟩
abbrev main_call8_v5 : Ref sig .tc := ⟨.hbm, 287, rfl⟩
abbrev main_call8_v6 : Ref sig .tc := ⟨.hbm, 288, rfl⟩
abbrev main_call8_v7 : Ref sig .tc := ⟨.hbm, 289, rfl⟩
abbrev main_call8_cst_1 : Ref sig .tc := ⟨.hbm, 290, rfl⟩
abbrev main_call8_v8 : Ref sig .tc := ⟨.hbm, 291, rfl⟩
abbrev main_call8_cst_2 : Ref sig .tc := ⟨.hbm, 292, rfl⟩
abbrev main_call8_v9 : Ref sig .tc := ⟨.hbm, 293, rfl⟩
abbrev main_call8_v10 : Ref sig .tc := ⟨.hbm, 294, rfl⟩
abbrev main_call8_v11 : Ref sig .tc := ⟨.hbm, 295, rfl⟩
abbrev main_call8_cst_3 : Ref sig .tc := ⟨.hbm, 296, rfl⟩
abbrev main_call8_v12 : Ref sig .tc := ⟨.hbm, 297, rfl⟩
abbrev main_call8_cst_4 : Ref sig .tc := ⟨.hbm, 298, rfl⟩
abbrev main_call8_call0_v0 : Ref sig .tc := ⟨.hbm, 299, rfl⟩
abbrev main_call8_call0_v1 : Ref sig .tc := ⟨.hbm, 300, rfl⟩
abbrev main_v162 : Ref sig .tc := ⟨.hbm, 301, rfl⟩
abbrev main_v163 : Ref sig .tc := ⟨.hbm, 302, rfl⟩
abbrev main_v164 : Ref sig .tc := ⟨.hbm, 303, rfl⟩
abbrev main_v165 : Ref sig .tc := ⟨.hbm, 304, rfl⟩
abbrev main_cst_23 : Ref sig .tc := ⟨.hbm, 305, rfl⟩
abbrev main_v166 : Ref sig .tc := ⟨.hbm, 306, rfl⟩
abbrev main_v167 : Ref sig .tc := ⟨.hbm, 307, rfl⟩
abbrev main_v168 : Ref sig .tc := ⟨.hbm, 308, rfl⟩
abbrev main_v169 : Ref sig .tc := ⟨.hbm, 309, rfl⟩
abbrev main_v170 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_v177 : Ref sig .tc := ⟨.hbm, 317, rfl⟩
abbrev main_call9_cst : Ref sig .tc := ⟨.hbm, 318, rfl⟩
abbrev main_call9_v0 : Ref sig .tc := ⟨.hbm, 319, rfl⟩
abbrev main_v178 : Ref sig .tc := ⟨.hbm, 320, rfl⟩
abbrev main_c_24 : Ref sig .tc := ⟨.hbm, 321, rfl⟩
abbrev main_v179 : Ref sig .tc := ⟨.hbm, 322, rfl⟩
abbrev main_v180 : Ref sig .tc := ⟨.hbm, 323, rfl⟩
abbrev main_c_25 : Ref sig .tc := ⟨.hbm, 324, rfl⟩
abbrev main_v181 : Ref sig .tc := ⟨.hbm, 325, rfl⟩
abbrev main_v182 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_v186 : Ref sig .tc := ⟨.hbm, 330, rfl⟩
abbrev main_call10_cst : Ref sig .tc := ⟨.hbm, 331, rfl⟩
abbrev main_call10_v0 : Ref sig .tc := ⟨.hbm, 332, rfl⟩
abbrev main_v187 : Ref sig .tc := ⟨.hbm, 333, rfl⟩
abbrev main_cst_26 : Ref sig .tc := ⟨.hbm, 334, rfl⟩
abbrev main_v188 : Ref sig .tc := ⟨.hbm, 335, rfl⟩
abbrev main_v189 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_cst_27 : Ref sig .tc := ⟨.hbm, 340, rfl⟩
abbrev main_v193 : Ref sig .tc := ⟨.hbm, 341, rfl⟩
abbrev main_v194 : Ref sig .tc := ⟨.hbm, 342, rfl⟩
abbrev main_v195 : Ref sig .tc := ⟨.hbm, 343, rfl⟩
abbrev main_v196 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_v203 : Ref sig .tc := ⟨.hbm, 351, rfl⟩
abbrev main_v204 : Ref sig .tc := ⟨.hbm, 352, rfl⟩
abbrev main_v205 : Ref sig .tc := ⟨.hbm, 353, rfl⟩
abbrev main_v206 : Ref sig .tc := ⟨.hbm, 354, rfl⟩
abbrev main_v207 : Ref sig .tc := ⟨.hbm, 355, rfl⟩
abbrev main_v208 : Ref sig .tc := ⟨.hbm, 356, rfl⟩
abbrev main_cst_28 : Ref sig .tc := ⟨.hbm, 357, rfl⟩
abbrev main_v209 : Ref sig .tc := ⟨.hbm, 358, rfl⟩
abbrev main_cst_29 : Ref sig .tc := ⟨.hbm, 359, rfl⟩
abbrev main_v210 : Ref sig .tc := ⟨.hbm, 360, rfl⟩
abbrev main_v211 : Ref sig .tc := ⟨.hbm, 361, rfl⟩
abbrev main_c_30 : Ref sig .tc := ⟨.hbm, 362, rfl⟩
abbrev main_call11_cst : Ref sig .tc := ⟨.hbm, 363, rfl⟩
abbrev main_call11_v0 : Ref sig .tc := ⟨.hbm, 364, rfl⟩
abbrev main_call11_v1 : Ref sig .tc := ⟨.hbm, 365, rfl⟩
abbrev main_call11_cst_0 : Ref sig .tc := ⟨.hbm, 366, rfl⟩
abbrev main_call11_v2 : Ref sig .tc := ⟨.hbm, 367, rfl⟩
abbrev main_call11_v3 : Ref sig .tc := ⟨.hbm, 368, rfl⟩
abbrev main_call11_v4 : Ref sig .tc := ⟨.hbm, 369, rfl⟩
abbrev main_call11_v5 : Ref sig .tc := ⟨.hbm, 370, rfl⟩
abbrev main_call11_v6 : Ref sig .tc := ⟨.hbm, 371, rfl⟩
abbrev main_call11_v7 : Ref sig .tc := ⟨.hbm, 372, rfl⟩
abbrev main_call11_cst_1 : Ref sig .tc := ⟨.hbm, 373, rfl⟩
abbrev main_call11_v8 : Ref sig .tc := ⟨.hbm, 374, rfl⟩
abbrev main_call11_cst_2 : Ref sig .tc := ⟨.hbm, 375, rfl⟩
abbrev main_call11_v9 : Ref sig .tc := ⟨.hbm, 376, rfl⟩
abbrev main_call11_v10 : Ref sig .tc := ⟨.hbm, 377, rfl⟩
abbrev main_call11_v11 : Ref sig .tc := ⟨.hbm, 378, rfl⟩
abbrev main_call11_cst_3 : Ref sig .tc := ⟨.hbm, 379, rfl⟩
abbrev main_call11_v12 : Ref sig .tc := ⟨.hbm, 380, rfl⟩
abbrev main_call11_cst_4 : Ref sig .tc := ⟨.hbm, 381, rfl⟩
abbrev main_call11_call0_v0 : Ref sig .tc := ⟨.hbm, 382, rfl⟩
abbrev main_call11_call0_v1 : Ref sig .tc := ⟨.hbm, 383, rfl⟩
abbrev main_v212 : Ref sig .tc := ⟨.hbm, 384, rfl⟩
abbrev main_v213 : Ref sig .tc := ⟨.hbm, 385, rfl⟩
abbrev main_v214 : Ref sig .tc := ⟨.hbm, 386, rfl⟩
abbrev main_v215 : Ref sig .tc := ⟨.hbm, 387, rfl⟩
abbrev main_cst_31 : Ref sig .tc := ⟨.hbm, 388, rfl⟩
abbrev main_v216 : Ref sig .tc := ⟨.hbm, 389, rfl⟩
abbrev main_v217 : Ref sig .tc := ⟨.hbm, 390, rfl⟩
abbrev main_v218 : Ref sig .tc := ⟨.hbm, 391, rfl⟩
abbrev main_v219 : Ref sig .tc := ⟨.hbm, 392, rfl⟩
abbrev main_v220 : Ref sig .tc := ⟨.hbm, 393, rfl⟩
abbrev main_v221 : Ref sig .tc := ⟨.hbm, 394, rfl⟩
abbrev main_v222 : Ref sig .tc := ⟨.hbm, 395, rfl⟩
abbrev main_v223 : Ref sig .tc := ⟨.hbm, 396, rfl⟩
abbrev main_v224 : Ref sig .tc := ⟨.hbm, 397, rfl⟩
abbrev main_v225 : Ref sig .tc := ⟨.hbm, 398, rfl⟩
abbrev main_v226 : Ref sig .tc := ⟨.hbm, 399, rfl⟩
abbrev main_v227 : Ref sig .tc := ⟨.hbm, 400, rfl⟩
abbrev main_call12_cst : Ref sig .tc := ⟨.hbm, 401, rfl⟩
abbrev main_call12_v0 : Ref sig .tc := ⟨.hbm, 402, rfl⟩
abbrev main_v228 : Ref sig .tc := ⟨.hbm, 403, rfl⟩
abbrev main_v229 : Ref sig .tc := ⟨.hbm, 404, rfl⟩
abbrev main_v230 : Ref sig .tc := ⟨.hbm, 405, rfl⟩
abbrev main_v231 : Ref sig .tc := ⟨.hbm, 406, rfl⟩
abbrev main_v232 : Ref sig .tc := ⟨.hbm, 407, rfl⟩
abbrev main_v233 : Ref sig .tc := ⟨.hbm, 408, rfl⟩
abbrev main_v234 : Ref sig .tc := ⟨.hbm, 409, rfl⟩
abbrev main_v235 : Ref sig .tc := ⟨.hbm, 410, rfl⟩
abbrev main_v236 : Ref sig .tc := ⟨.hbm, 411, rfl⟩
abbrev main_v237 : Ref sig .tc := ⟨.hbm, 412, rfl⟩
abbrev main_v238 : Ref sig .tc := ⟨.hbm, 413, rfl⟩
abbrev main_v239 : Ref sig .tc := ⟨.hbm, 414, rfl⟩
abbrev main_v240 : Ref sig .tc := ⟨.hbm, 415, rfl⟩
abbrev main_cst_32 : Ref sig .tc := ⟨.hbm, 416, rfl⟩
abbrev main_v241 : Ref sig .tc := ⟨.hbm, 417, rfl⟩
abbrev main_cst_33 : Ref sig .tc := ⟨.hbm, 418, rfl⟩
abbrev main_v242 : Ref sig .tc := ⟨.hbm, 419, rfl⟩
abbrev main_v243 : Ref sig .tc := ⟨.hbm, 420, rfl⟩
abbrev main_c_34 : Ref sig .tc := ⟨.hbm, 421, rfl⟩
abbrev main_call13_cst : Ref sig .tc := ⟨.hbm, 422, rfl⟩
abbrev main_call13_v0 : Ref sig .tc := ⟨.hbm, 423, rfl⟩
abbrev main_call13_v1 : Ref sig .tc := ⟨.hbm, 424, rfl⟩
abbrev main_call13_cst_0 : Ref sig .tc := ⟨.hbm, 425, rfl⟩
abbrev main_call13_v2 : Ref sig .tc := ⟨.hbm, 426, rfl⟩
abbrev main_call13_v3 : Ref sig .tc := ⟨.hbm, 427, rfl⟩
abbrev main_call13_v4 : Ref sig .tc := ⟨.hbm, 428, rfl⟩
abbrev main_call13_v5 : Ref sig .tc := ⟨.hbm, 429, rfl⟩
abbrev main_call13_v6 : Ref sig .tc := ⟨.hbm, 430, rfl⟩
abbrev main_call13_v7 : Ref sig .tc := ⟨.hbm, 431, rfl⟩
abbrev main_call13_cst_1 : Ref sig .tc := ⟨.hbm, 432, rfl⟩
abbrev main_call13_v8 : Ref sig .tc := ⟨.hbm, 433, rfl⟩
abbrev main_call13_cst_2 : Ref sig .tc := ⟨.hbm, 434, rfl⟩
abbrev main_call13_v9 : Ref sig .tc := ⟨.hbm, 435, rfl⟩
abbrev main_call13_v10 : Ref sig .tc := ⟨.hbm, 436, rfl⟩
abbrev main_call13_v11 : Ref sig .tc := ⟨.hbm, 437, rfl⟩
abbrev main_call13_cst_3 : Ref sig .tc := ⟨.hbm, 438, rfl⟩
abbrev main_call13_v12 : Ref sig .tc := ⟨.hbm, 439, rfl⟩
abbrev main_call13_cst_4 : Ref sig .tc := ⟨.hbm, 440, rfl⟩
abbrev main_call13_call0_v0 : Ref sig .tc := ⟨.hbm, 441, rfl⟩
abbrev main_call13_call0_v1 : Ref sig .tc := ⟨.hbm, 442, rfl⟩
abbrev main_v244 : Ref sig .tc := ⟨.hbm, 443, rfl⟩
abbrev main_v245 : Ref sig .tc := ⟨.hbm, 444, rfl⟩
abbrev main_v246 : Ref sig .tc := ⟨.hbm, 445, rfl⟩
abbrev main_v247 : Ref sig .tc := ⟨.hbm, 446, rfl⟩
abbrev main_cst_35 : Ref sig .tc := ⟨.hbm, 447, rfl⟩
abbrev main_v248 : Ref sig .tc := ⟨.hbm, 448, rfl⟩
abbrev main_v249 : Ref sig .tc := ⟨.hbm, 449, rfl⟩
abbrev main_v250 : Ref sig .tc := ⟨.hbm, 450, rfl⟩
abbrev main_v251 : Ref sig .tc := ⟨.hbm, 451, rfl⟩
abbrev main_v252 : Ref sig .tc := ⟨.hbm, 452, rfl⟩
abbrev main_v253 : Ref sig .tc := ⟨.hbm, 453, rfl⟩
abbrev main_v254 : Ref sig .tc := ⟨.hbm, 454, rfl⟩
abbrev main_v255 : Ref sig .tc := ⟨.hbm, 455, rfl⟩
abbrev main_v256 : Ref sig .tc := ⟨.hbm, 456, rfl⟩
abbrev main_v257 : Ref sig .tc := ⟨.hbm, 457, rfl⟩
abbrev main_v258 : Ref sig .tc := ⟨.hbm, 458, rfl⟩
abbrev main_v259 : Ref sig .tc := ⟨.hbm, 459, rfl⟩
abbrev main_call14_cst : Ref sig .tc := ⟨.hbm, 460, rfl⟩
abbrev main_call14_v0 : Ref sig .tc := ⟨.hbm, 461, rfl⟩
abbrev main_v260 : Ref sig .tc := ⟨.hbm, 462, rfl⟩
abbrev main_c_36 : Ref sig .tc := ⟨.hbm, 463, rfl⟩
abbrev main_v261 : Ref sig .tc := ⟨.hbm, 464, rfl⟩
abbrev main_v262 : Ref sig .tc := ⟨.hbm, 465, rfl⟩
abbrev main_c_37 : Ref sig .tc := ⟨.hbm, 466, rfl⟩
abbrev main_v263 : Ref sig .tc := ⟨.hbm, 467, rfl⟩
abbrev main_v264 : Ref sig .tc := ⟨.hbm, 468, rfl⟩
abbrev main_v265 : Ref sig .tc := ⟨.hbm, 469, rfl⟩
abbrev main_v266 : Ref sig .tc := ⟨.hbm, 470, rfl⟩
abbrev main_v267 : Ref sig .tc := ⟨.hbm, 471, rfl⟩
abbrev main_v268 : Ref sig .tc := ⟨.hbm, 472, rfl⟩
abbrev main_call15_cst : Ref sig .tc := ⟨.hbm, 473, rfl⟩
abbrev main_call15_v0 : Ref sig .tc := ⟨.hbm, 474, rfl⟩
abbrev main_v269 : Ref sig .tc := ⟨.hbm, 475, rfl⟩
abbrev main_cst_38 : Ref sig .tc := ⟨.hbm, 476, rfl⟩
abbrev main_v270 : Ref sig .tc := ⟨.hbm, 477, rfl⟩
abbrev main_v271 : Ref sig .tc := ⟨.hbm, 478, rfl⟩
abbrev main_v272 : Ref sig .tc := ⟨.hbm, 479, rfl⟩
abbrev main_v273 : Ref sig .tc := ⟨.hbm, 480, rfl⟩
abbrev main_v274 : Ref sig .tc := ⟨.hbm, 481, rfl⟩
abbrev main_cst_39 : Ref sig .tc := ⟨.hbm, 482, rfl⟩
abbrev main_v275 : Ref sig .tc := ⟨.hbm, 483, rfl⟩
abbrev main_v276 : Ref sig .tc := ⟨.hbm, 484, rfl⟩
abbrev main_v277 : Ref sig .tc := ⟨.hbm, 485, rfl⟩
abbrev main_v278 : Ref sig .tc := ⟨.hbm, 486, rfl⟩
abbrev main_v279 : Ref sig .tc := ⟨.hbm, 487, rfl⟩
abbrev main_v280 : Ref sig .tc := ⟨.hbm, 488, rfl⟩
abbrev main_v281 : Ref sig .tc := ⟨.hbm, 489, rfl⟩
abbrev main_v282 : Ref sig .tc := ⟨.hbm, 490, rfl⟩
abbrev main_v283 : Ref sig .tc := ⟨.hbm, 491, rfl⟩
abbrev main_v284 : Ref sig .tc := ⟨.hbm, 492, rfl⟩
abbrev main_v285 : Ref sig .tc := ⟨.hbm, 493, rfl⟩
abbrev main_v286 : Ref sig .tc := ⟨.hbm, 494, rfl⟩
abbrev main_v287 : Ref sig .tc := ⟨.hbm, 495, rfl⟩
abbrev main_v288 : Ref sig .tc := ⟨.hbm, 496, rfl⟩
abbrev main_v289 : Ref sig .tc := ⟨.hbm, 497, rfl⟩
abbrev main_v290 : Ref sig .tc := ⟨.hbm, 498, rfl⟩
abbrev main_cst_40 : Ref sig .tc := ⟨.hbm, 499, rfl⟩
abbrev main_v291 : Ref sig .tc := ⟨.hbm, 500, rfl⟩
abbrev main_cst_41 : Ref sig .tc := ⟨.hbm, 501, rfl⟩
abbrev main_v292 : Ref sig .tc := ⟨.hbm, 502, rfl⟩
abbrev main_v293 : Ref sig .tc := ⟨.hbm, 503, rfl⟩
abbrev main_c_42 : Ref sig .tc := ⟨.hbm, 504, rfl⟩
abbrev main_call16_cst : Ref sig .tc := ⟨.hbm, 505, rfl⟩
abbrev main_call16_v0 : Ref sig .tc := ⟨.hbm, 506, rfl⟩
abbrev main_call16_v1 : Ref sig .tc := ⟨.hbm, 507, rfl⟩
abbrev main_call16_cst_0 : Ref sig .tc := ⟨.hbm, 508, rfl⟩
abbrev main_call16_v2 : Ref sig .tc := ⟨.hbm, 509, rfl⟩
abbrev main_call16_v3 : Ref sig .tc := ⟨.hbm, 510, rfl⟩
abbrev main_call16_v4 : Ref sig .tc := ⟨.hbm, 511, rfl⟩
abbrev main_call16_v5 : Ref sig .tc := ⟨.hbm, 512, rfl⟩
abbrev main_call16_v6 : Ref sig .tc := ⟨.hbm, 513, rfl⟩
abbrev main_call16_v7 : Ref sig .tc := ⟨.hbm, 514, rfl⟩
abbrev main_call16_cst_1 : Ref sig .tc := ⟨.hbm, 515, rfl⟩
abbrev main_call16_v8 : Ref sig .tc := ⟨.hbm, 516, rfl⟩
abbrev main_call16_cst_2 : Ref sig .tc := ⟨.hbm, 517, rfl⟩
abbrev main_call16_v9 : Ref sig .tc := ⟨.hbm, 518, rfl⟩
abbrev main_call16_v10 : Ref sig .tc := ⟨.hbm, 519, rfl⟩
abbrev main_call16_v11 : Ref sig .tc := ⟨.hbm, 520, rfl⟩
abbrev main_call16_cst_3 : Ref sig .tc := ⟨.hbm, 521, rfl⟩
abbrev main_call16_v12 : Ref sig .tc := ⟨.hbm, 522, rfl⟩
abbrev main_call16_cst_4 : Ref sig .tc := ⟨.hbm, 523, rfl⟩
abbrev main_call16_call0_v0 : Ref sig .tc := ⟨.hbm, 524, rfl⟩
abbrev main_call16_call0_v1 : Ref sig .tc := ⟨.hbm, 525, rfl⟩
abbrev main_v294 : Ref sig .tc := ⟨.hbm, 526, rfl⟩
abbrev main_v295 : Ref sig .tc := ⟨.hbm, 527, rfl⟩
abbrev main_v296 : Ref sig .tc := ⟨.hbm, 528, rfl⟩
abbrev main_v297 : Ref sig .tc := ⟨.hbm, 529, rfl⟩
abbrev main_cst_43 : Ref sig .tc := ⟨.hbm, 530, rfl⟩
abbrev main_v298 : Ref sig .tc := ⟨.hbm, 531, rfl⟩
abbrev main_v299 : Ref sig .tc := ⟨.hbm, 532, rfl⟩
abbrev main_v300 : Ref sig .tc := ⟨.hbm, 533, rfl⟩
abbrev main_v301 : Ref sig .tc := ⟨.hbm, 534, rfl⟩
abbrev main_v302 : Ref sig .tc := ⟨.hbm, 535, rfl⟩
abbrev main_v303 : Ref sig .tc := ⟨.hbm, 536, rfl⟩
abbrev main_v304 : Ref sig .tc := ⟨.hbm, 537, rfl⟩
abbrev main_v305 : Ref sig .tc := ⟨.hbm, 538, rfl⟩
abbrev main_v306 : Ref sig .tc := ⟨.hbm, 539, rfl⟩
abbrev main_v307 : Ref sig .tc := ⟨.hbm, 540, rfl⟩
abbrev main_v308 : Ref sig .tc := ⟨.hbm, 541, rfl⟩
abbrev main_v309 : Ref sig .tc := ⟨.hbm, 542, rfl⟩
abbrev main_call17_cst : Ref sig .tc := ⟨.hbm, 543, rfl⟩
abbrev main_call17_v0 : Ref sig .tc := ⟨.hbm, 544, rfl⟩
abbrev main_v310 : Ref sig .tc := ⟨.hbm, 545, rfl⟩
abbrev main_v311 : Ref sig .tc := ⟨.hbm, 546, rfl⟩
abbrev main_v312 : Ref sig .tc := ⟨.hbm, 547, rfl⟩
abbrev main_v313 : Ref sig .tc := ⟨.hbm, 548, rfl⟩
abbrev main_v314 : Ref sig .tc := ⟨.hbm, 549, rfl⟩
abbrev main_v315 : Ref sig .tc := ⟨.hbm, 550, rfl⟩
abbrev main_v316 : Ref sig .tc := ⟨.hbm, 551, rfl⟩
abbrev main_v317 : Ref sig .tc := ⟨.hbm, 552, rfl⟩
abbrev main_v318 : Ref sig .tc := ⟨.hbm, 553, rfl⟩
abbrev main_v319 : Ref sig .tc := ⟨.hbm, 554, rfl⟩
abbrev main_v320 : Ref sig .tc := ⟨.hbm, 555, rfl⟩
abbrev main_v321 : Ref sig .tc := ⟨.hbm, 556, rfl⟩
abbrev main_v322 : Ref sig .tc := ⟨.hbm, 557, rfl⟩
abbrev main_cst_44 : Ref sig .tc := ⟨.hbm, 558, rfl⟩
abbrev main_v323 : Ref sig .tc := ⟨.hbm, 559, rfl⟩
abbrev main_cst_45 : Ref sig .tc := ⟨.hbm, 560, rfl⟩
abbrev main_v324 : Ref sig .tc := ⟨.hbm, 561, rfl⟩
abbrev main_v325 : Ref sig .tc := ⟨.hbm, 562, rfl⟩
abbrev main_c_46 : Ref sig .tc := ⟨.hbm, 563, rfl⟩
abbrev main_call18_cst : Ref sig .tc := ⟨.hbm, 564, rfl⟩
abbrev main_call18_v0 : Ref sig .tc := ⟨.hbm, 565, rfl⟩
abbrev main_call18_v1 : Ref sig .tc := ⟨.hbm, 566, rfl⟩
abbrev main_call18_cst_0 : Ref sig .tc := ⟨.hbm, 567, rfl⟩
abbrev main_call18_v2 : Ref sig .tc := ⟨.hbm, 568, rfl⟩
abbrev main_call18_v3 : Ref sig .tc := ⟨.hbm, 569, rfl⟩
abbrev main_call18_v4 : Ref sig .tc := ⟨.hbm, 570, rfl⟩
abbrev main_call18_v5 : Ref sig .tc := ⟨.hbm, 571, rfl⟩
abbrev main_call18_v6 : Ref sig .tc := ⟨.hbm, 572, rfl⟩
abbrev main_call18_v7 : Ref sig .tc := ⟨.hbm, 573, rfl⟩
abbrev main_call18_cst_1 : Ref sig .tc := ⟨.hbm, 574, rfl⟩
abbrev main_call18_v8 : Ref sig .tc := ⟨.hbm, 575, rfl⟩
abbrev main_call18_cst_2 : Ref sig .tc := ⟨.hbm, 576, rfl⟩
abbrev main_call18_v9 : Ref sig .tc := ⟨.hbm, 577, rfl⟩
abbrev main_call18_v10 : Ref sig .tc := ⟨.hbm, 578, rfl⟩
abbrev main_call18_v11 : Ref sig .tc := ⟨.hbm, 579, rfl⟩
abbrev main_call18_cst_3 : Ref sig .tc := ⟨.hbm, 580, rfl⟩
abbrev main_call18_v12 : Ref sig .tc := ⟨.hbm, 581, rfl⟩
abbrev main_call18_cst_4 : Ref sig .tc := ⟨.hbm, 582, rfl⟩
abbrev main_call18_call0_v0 : Ref sig .tc := ⟨.hbm, 583, rfl⟩
abbrev main_call18_call0_v1 : Ref sig .tc := ⟨.hbm, 584, rfl⟩
abbrev main_v326 : Ref sig .tc := ⟨.hbm, 585, rfl⟩
abbrev main_v327 : Ref sig .tc := ⟨.hbm, 586, rfl⟩
abbrev main_v328 : Ref sig .tc := ⟨.hbm, 587, rfl⟩
abbrev main_v329 : Ref sig .tc := ⟨.hbm, 588, rfl⟩
abbrev main_cst_47 : Ref sig .tc := ⟨.hbm, 589, rfl⟩
abbrev main_v330 : Ref sig .tc := ⟨.hbm, 590, rfl⟩
abbrev main_v331 : Ref sig .tc := ⟨.hbm, 591, rfl⟩
abbrev main_v332 : Ref sig .tc := ⟨.hbm, 592, rfl⟩
abbrev main_v333 : Ref sig .tc := ⟨.hbm, 593, rfl⟩
abbrev main_v334 : Ref sig .tc := ⟨.hbm, 594, rfl⟩
abbrev main_v335 : Ref sig .tc := ⟨.hbm, 595, rfl⟩
abbrev main_v336 : Ref sig .tc := ⟨.hbm, 596, rfl⟩
abbrev main_v337 : Ref sig .tc := ⟨.hbm, 597, rfl⟩
abbrev main_v338 : Ref sig .tc := ⟨.hbm, 598, rfl⟩
abbrev main_v339 : Ref sig .tc := ⟨.hbm, 599, rfl⟩
abbrev main_v340 : Ref sig .tc := ⟨.hbm, 600, rfl⟩
abbrev main_v341 : Ref sig .tc := ⟨.hbm, 601, rfl⟩
abbrev main_call19_cst : Ref sig .tc := ⟨.hbm, 602, rfl⟩
abbrev main_call19_v0 : Ref sig .tc := ⟨.hbm, 603, rfl⟩
abbrev main_v342 : Ref sig .tc := ⟨.hbm, 604, rfl⟩
abbrev main_c_48 : Ref sig .tc := ⟨.hbm, 605, rfl⟩
abbrev main_v343 : Ref sig .tc := ⟨.hbm, 606, rfl⟩
abbrev main_v344 : Ref sig .tc := ⟨.hbm, 607, rfl⟩
abbrev main_c_49 : Ref sig .tc := ⟨.hbm, 608, rfl⟩
abbrev main_v345 : Ref sig .tc := ⟨.hbm, 609, rfl⟩
abbrev main_v346 : Ref sig .tc := ⟨.hbm, 610, rfl⟩
abbrev main_v347 : Ref sig .tc := ⟨.hbm, 611, rfl⟩
abbrev main_v348 : Ref sig .tc := ⟨.hbm, 612, rfl⟩
abbrev main_v349 : Ref sig .tc := ⟨.hbm, 613, rfl⟩
abbrev main_v350 : Ref sig .tc := ⟨.hbm, 614, rfl⟩
abbrev main_call20_cst : Ref sig .tc := ⟨.hbm, 615, rfl⟩
abbrev main_call20_v0 : Ref sig .tc := ⟨.hbm, 616, rfl⟩
abbrev main_v351 : Ref sig .tc := ⟨.hbm, 617, rfl⟩
abbrev main_cst_50 : Ref sig .tc := ⟨.hbm, 618, rfl⟩
abbrev main_v352 : Ref sig .tc := ⟨.hbm, 619, rfl⟩
abbrev main_v353 : Ref sig .tc := ⟨.hbm, 620, rfl⟩
abbrev main_v354 : Ref sig .tc := ⟨.hbm, 621, rfl⟩
abbrev main_v355 : Ref sig .tc := ⟨.hbm, 622, rfl⟩
abbrev main_v356 : Ref sig .tc := ⟨.hbm, 623, rfl⟩
abbrev main_cst_51 : Ref sig .tc := ⟨.hbm, 624, rfl⟩
abbrev main_v357 : Ref sig .tc := ⟨.hbm, 625, rfl⟩
abbrev main_v358 : Ref sig .tc := ⟨.hbm, 626, rfl⟩
abbrev main_v359 : Ref sig .tc := ⟨.hbm, 627, rfl⟩
abbrev main_v360 : Ref sig .tc := ⟨.hbm, 628, rfl⟩
abbrev main_v361 : Ref sig .tc := ⟨.hbm, 629, rfl⟩
abbrev main_v362 : Ref sig .tc := ⟨.hbm, 630, rfl⟩
abbrev main_v363 : Ref sig .tc := ⟨.hbm, 631, rfl⟩
abbrev main_v364 : Ref sig .tc := ⟨.hbm, 632, rfl⟩
abbrev main_v365 : Ref sig .tc := ⟨.hbm, 633, rfl⟩
abbrev main_v366 : Ref sig .tc := ⟨.hbm, 634, rfl⟩
abbrev main_v367 : Ref sig .tc := ⟨.hbm, 635, rfl⟩
abbrev main_v368 : Ref sig .tc := ⟨.hbm, 636, rfl⟩
abbrev main_v369 : Ref sig .tc := ⟨.hbm, 637, rfl⟩
abbrev main_v370 : Ref sig .tc := ⟨.hbm, 638, rfl⟩
abbrev main_v371 : Ref sig .tc := ⟨.hbm, 639, rfl⟩
abbrev main_v372 : Ref sig .tc := ⟨.hbm, 640, rfl⟩
abbrev main_cst_52 : Ref sig .tc := ⟨.hbm, 641, rfl⟩
abbrev main_v373 : Ref sig .tc := ⟨.hbm, 642, rfl⟩
abbrev main_cst_53 : Ref sig .tc := ⟨.hbm, 643, rfl⟩
abbrev main_v374 : Ref sig .tc := ⟨.hbm, 644, rfl⟩
abbrev main_v375 : Ref sig .tc := ⟨.hbm, 645, rfl⟩
abbrev main_c_54 : Ref sig .tc := ⟨.hbm, 646, rfl⟩
abbrev main_call21_cst : Ref sig .tc := ⟨.hbm, 647, rfl⟩
abbrev main_call21_v0 : Ref sig .tc := ⟨.hbm, 648, rfl⟩
abbrev main_call21_v1 : Ref sig .tc := ⟨.hbm, 649, rfl⟩
abbrev main_call21_cst_0 : Ref sig .tc := ⟨.hbm, 650, rfl⟩
abbrev main_call21_v2 : Ref sig .tc := ⟨.hbm, 651, rfl⟩
abbrev main_call21_v3 : Ref sig .tc := ⟨.hbm, 652, rfl⟩
abbrev main_call21_v4 : Ref sig .tc := ⟨.hbm, 653, rfl⟩
abbrev main_call21_v5 : Ref sig .tc := ⟨.hbm, 654, rfl⟩
abbrev main_call21_v6 : Ref sig .tc := ⟨.hbm, 655, rfl⟩
abbrev main_call21_v7 : Ref sig .tc := ⟨.hbm, 656, rfl⟩
abbrev main_call21_cst_1 : Ref sig .tc := ⟨.hbm, 657, rfl⟩
abbrev main_call21_v8 : Ref sig .tc := ⟨.hbm, 658, rfl⟩
abbrev main_call21_cst_2 : Ref sig .tc := ⟨.hbm, 659, rfl⟩
abbrev main_call21_v9 : Ref sig .tc := ⟨.hbm, 660, rfl⟩
abbrev main_call21_v10 : Ref sig .tc := ⟨.hbm, 661, rfl⟩
abbrev main_call21_v11 : Ref sig .tc := ⟨.hbm, 662, rfl⟩
abbrev main_call21_cst_3 : Ref sig .tc := ⟨.hbm, 663, rfl⟩
abbrev main_call21_v12 : Ref sig .tc := ⟨.hbm, 664, rfl⟩
abbrev main_call21_cst_4 : Ref sig .tc := ⟨.hbm, 665, rfl⟩
abbrev main_call21_call0_v0 : Ref sig .tc := ⟨.hbm, 666, rfl⟩
abbrev main_call21_call0_v1 : Ref sig .tc := ⟨.hbm, 667, rfl⟩
abbrev main_v376 : Ref sig .tc := ⟨.hbm, 668, rfl⟩
abbrev main_v377 : Ref sig .tc := ⟨.hbm, 669, rfl⟩
abbrev main_v378 : Ref sig .tc := ⟨.hbm, 670, rfl⟩
abbrev main_v379 : Ref sig .tc := ⟨.hbm, 671, rfl⟩
abbrev main_cst_55 : Ref sig .tc := ⟨.hbm, 672, rfl⟩
abbrev main_v380 : Ref sig .tc := ⟨.hbm, 673, rfl⟩
abbrev main_v381 : Ref sig .tc := ⟨.hbm, 674, rfl⟩
abbrev main_v382 : Ref sig .tc := ⟨.hbm, 675, rfl⟩
abbrev main_v383 : Ref sig .tc := ⟨.hbm, 676, rfl⟩
abbrev main_v384 : Ref sig .tc := ⟨.hbm, 677, rfl⟩
abbrev main_v385 : Ref sig .tc := ⟨.hbm, 678, rfl⟩
abbrev main_v386 : Ref sig .tc := ⟨.hbm, 679, rfl⟩
abbrev main_v387 : Ref sig .tc := ⟨.hbm, 680, rfl⟩
abbrev main_v388 : Ref sig .tc := ⟨.hbm, 681, rfl⟩
abbrev main_v389 : Ref sig .tc := ⟨.hbm, 682, rfl⟩
abbrev main_v390 : Ref sig .tc := ⟨.hbm, 683, rfl⟩
abbrev main_v391 : Ref sig .tc := ⟨.hbm, 684, rfl⟩
abbrev main_call22_cst : Ref sig .tc := ⟨.hbm, 685, rfl⟩
abbrev main_call22_v0 : Ref sig .tc := ⟨.hbm, 686, rfl⟩
abbrev main_v392 : Ref sig .tc := ⟨.hbm, 687, rfl⟩
abbrev main_v393 : Ref sig .tc := ⟨.hbm, 688, rfl⟩
abbrev main_v394 : Ref sig .tc := ⟨.hbm, 689, rfl⟩
abbrev main_v395 : Ref sig .tc := ⟨.hbm, 690, rfl⟩
abbrev main_v396 : Ref sig .tc := ⟨.hbm, 691, rfl⟩
abbrev main_v397 : Ref sig .tc := ⟨.hbm, 692, rfl⟩
abbrev main_v398 : Ref sig .tc := ⟨.hbm, 693, rfl⟩
abbrev main_v399 : Ref sig .tc := ⟨.hbm, 694, rfl⟩
abbrev main_v400 : Ref sig .tc := ⟨.hbm, 695, rfl⟩
abbrev main_v401 : Ref sig .tc := ⟨.hbm, 696, rfl⟩
abbrev main_v402 : Ref sig .tc := ⟨.hbm, 697, rfl⟩
abbrev main_v403 : Ref sig .tc := ⟨.hbm, 698, rfl⟩
abbrev main_v404 : Ref sig .tc := ⟨.hbm, 699, rfl⟩
abbrev main_cst_56 : Ref sig .tc := ⟨.hbm, 700, rfl⟩
abbrev main_v405 : Ref sig .tc := ⟨.hbm, 701, rfl⟩
abbrev main_cst_57 : Ref sig .tc := ⟨.hbm, 702, rfl⟩
abbrev main_v406 : Ref sig .tc := ⟨.hbm, 703, rfl⟩
abbrev main_v407 : Ref sig .tc := ⟨.hbm, 704, rfl⟩
abbrev main_c_58 : Ref sig .tc := ⟨.hbm, 705, rfl⟩
abbrev main_call23_cst : Ref sig .tc := ⟨.hbm, 706, rfl⟩
abbrev main_call23_v0 : Ref sig .tc := ⟨.hbm, 707, rfl⟩
abbrev main_call23_v1 : Ref sig .tc := ⟨.hbm, 708, rfl⟩
abbrev main_call23_cst_0 : Ref sig .tc := ⟨.hbm, 709, rfl⟩
abbrev main_call23_v2 : Ref sig .tc := ⟨.hbm, 710, rfl⟩
abbrev main_call23_v3 : Ref sig .tc := ⟨.hbm, 711, rfl⟩
abbrev main_call23_v4 : Ref sig .tc := ⟨.hbm, 712, rfl⟩
abbrev main_call23_v5 : Ref sig .tc := ⟨.hbm, 713, rfl⟩
abbrev main_call23_v6 : Ref sig .tc := ⟨.hbm, 714, rfl⟩
abbrev main_call23_v7 : Ref sig .tc := ⟨.hbm, 715, rfl⟩
abbrev main_call23_cst_1 : Ref sig .tc := ⟨.hbm, 716, rfl⟩
abbrev main_call23_v8 : Ref sig .tc := ⟨.hbm, 717, rfl⟩
abbrev main_call23_cst_2 : Ref sig .tc := ⟨.hbm, 718, rfl⟩
abbrev main_call23_v9 : Ref sig .tc := ⟨.hbm, 719, rfl⟩
abbrev main_call23_v10 : Ref sig .tc := ⟨.hbm, 720, rfl⟩
abbrev main_call23_v11 : Ref sig .tc := ⟨.hbm, 721, rfl⟩
abbrev main_call23_cst_3 : Ref sig .tc := ⟨.hbm, 722, rfl⟩
abbrev main_call23_v12 : Ref sig .tc := ⟨.hbm, 723, rfl⟩
abbrev main_call23_cst_4 : Ref sig .tc := ⟨.hbm, 724, rfl⟩
abbrev main_call23_call0_v0 : Ref sig .tc := ⟨.hbm, 725, rfl⟩
abbrev main_call23_call0_v1 : Ref sig .tc := ⟨.hbm, 726, rfl⟩
abbrev main_v408 : Ref sig .tc := ⟨.hbm, 727, rfl⟩
abbrev main_v409 : Ref sig .tc := ⟨.hbm, 728, rfl⟩
abbrev main_v410 : Ref sig .tc := ⟨.hbm, 729, rfl⟩
abbrev main_v411 : Ref sig .tc := ⟨.hbm, 730, rfl⟩
abbrev main_cst_59 : Ref sig .tc := ⟨.hbm, 731, rfl⟩
abbrev main_v412 : Ref sig .tc := ⟨.hbm, 732, rfl⟩
abbrev main_v413 : Ref sig .tc := ⟨.hbm, 733, rfl⟩
abbrev main_v414 : Ref sig .tc := ⟨.hbm, 734, rfl⟩
abbrev main_v415 : Ref sig .tc := ⟨.hbm, 735, rfl⟩
abbrev main_v416 : Ref sig .tc := ⟨.hbm, 736, rfl⟩
abbrev main_v417 : Ref sig .tc := ⟨.hbm, 737, rfl⟩
abbrev main_v418 : Ref sig .tc := ⟨.hbm, 738, rfl⟩
abbrev main_v419 : Ref sig .tc := ⟨.hbm, 739, rfl⟩
abbrev main_v420 : Ref sig .tc := ⟨.hbm, 740, rfl⟩
abbrev main_v421 : Ref sig .tc := ⟨.hbm, 741, rfl⟩
abbrev main_v422 : Ref sig .tc := ⟨.hbm, 742, rfl⟩
abbrev main_v423 : Ref sig .tc := ⟨.hbm, 743, rfl⟩
abbrev main_call24_cst : Ref sig .tc := ⟨.hbm, 744, rfl⟩
abbrev main_call24_v0 : Ref sig .tc := ⟨.hbm, 745, rfl⟩
abbrev main_v424 : Ref sig .tc := ⟨.hbm, 746, rfl⟩
abbrev main_cst_60 : Ref sig .tc := ⟨.hbm, 747, rfl⟩
abbrev main_v425 : Ref sig .tc := ⟨.hbm, 748, rfl⟩
abbrev main_cst_61 : Ref sig .tc := ⟨.hbm, 749, rfl⟩
abbrev main_v426 : Ref sig .tc := ⟨.hbm, 750, rfl⟩
abbrev main_v427 : Ref sig .tc := ⟨.hbm, 751, rfl⟩
abbrev main_v428 : Ref sig .tc := ⟨.hbm, 752, rfl⟩
abbrev main_cst_62 : Ref sig .tc := ⟨.hbm, 753, rfl⟩
abbrev main_v429 : Ref sig .tc := ⟨.hbm, 754, rfl⟩
abbrev main_v430 : Ref sig .tc := ⟨.hbm, 755, rfl⟩
abbrev main_v431 : Ref sig .tc := ⟨.hbm, 756, rfl⟩
abbrev main_cst_63 : Ref sig .tc := ⟨.hbm, 757, rfl⟩
abbrev main_v432 : Ref sig .tc := ⟨.hbm, 758, rfl⟩
abbrev main_v433 : Ref sig .tc := ⟨.hbm, 759, rfl⟩
abbrev main_v434 : Ref sig .tc := ⟨.hbm, 760, rfl⟩
abbrev main_v435 : Ref sig .tc := ⟨.hbm, 761, rfl⟩
abbrev main_v436 : Ref sig .tc := ⟨.hbm, 762, rfl⟩
abbrev main_v437 : Ref sig .tc := ⟨.hbm, 763, rfl⟩
abbrev main_v438 : Ref sig .tc := ⟨.hbm, 764, rfl⟩
abbrev main_v439 : Ref sig .tc := ⟨.hbm, 765, rfl⟩
abbrev main_v440 : Ref sig .tc := ⟨.hbm, 766, rfl⟩
abbrev main_call25_cst : Ref sig .tc := ⟨.hbm, 767, rfl⟩
abbrev main_call25_v0 : Ref sig .tc := ⟨.hbm, 768, rfl⟩
abbrev main_v441 : Ref sig .tc := ⟨.hbm, 769, rfl⟩
abbrev main_v442 : Ref sig .tc := ⟨.hbm, 770, rfl⟩
abbrev main_v443 : Ref sig .tc := ⟨.hbm, 771, rfl⟩
abbrev main_v444 : Ref sig .tc := ⟨.hbm, 772, rfl⟩
abbrev main_v445 : Ref sig .tc := ⟨.hbm, 773, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S20000_S20000x1_0 : S20000.BroadcastsInDim S20000x1 (![0] : Fin 1 → Fin S20000x1.rank)
  bcast_S300_S1x300_1 : S300.BroadcastsInDim S1x300 (![1] : Fin 1 → Fin S1x300.rank)
  bcast_S1x300_S320000x300_0_1 : S1x300.BroadcastsInDim S320000x300 (![0, 1] : Fin 2 → Fin S320000x300.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x300 : S_.BroadcastsInDim S320000x300 (![] : Fin 0 → Fin S320000x300.rank)
  bcast_S_S20000x300 : S_.BroadcastsInDim S20000x300 (![] : Fin 0 → Fin S20000x300.rank)
  slices_S5_S1_0 : S5.Slices ![0] S1
  shapeCasts_S1_S_ : S1.ShapeCasts S_
  slices_S5x300x300_S1x300x300_0_0_0 : S5x300x300.Slices ![0, 0, 0] S1x300x300
  shapeCasts_S1x300x300_S300x300 : S1x300x300.ShapeCasts S300x300
  slices_S5x300_S1x300_0_0 : S5x300.Slices ![0, 0] S1x300
  shapeCasts_S1x300_S300 : S1x300.ShapeCasts S300
  bcast_S1x300_S20000x300_0_1 : S1x300.BroadcastsInDim S20000x300 (![0, 1] : Fin 2 → Fin S20000x300.rank)
  reducesTo_S20000x300_S300_d0 : S20000x300.ReducesTo [0] S300
  h_S_ : 0 < S_.numel
  bcast_S_S300 : S_.BroadcastsInDim S300 (![] : Fin 0 → Fin S300.rank)
  bcast_S_S1x300 : S_.BroadcastsInDim S1x300 (![] : Fin 0 → Fin S1x300.rank)
  slices_S5_S1_1 : S5.Slices ![1] S1
  slices_S5x300x300_S1x300x300_1_0_0 : S5x300x300.Slices ![1, 0, 0] S1x300x300
  slices_S5x300_S1x300_1_0 : S5x300.Slices ![1, 0] S1x300
  slices_S5_S1_2 : S5.Slices ![2] S1
  slices_S5x300x300_S1x300x300_2_0_0 : S5x300x300.Slices ![2, 0, 0] S1x300x300
  slices_S5x300_S1x300_2_0 : S5x300.Slices ![2, 0] S1x300
  slices_S5_S1_3 : S5.Slices ![3] S1
  slices_S5x300x300_S1x300x300_3_0_0 : S5x300x300.Slices ![3, 0, 0] S1x300x300
  slices_S5x300_S1x300_3_0 : S5x300.Slices ![3, 0] S1x300
  slices_S5_S1_4 : S5.Slices ![4] S1
  slices_S5x300x300_S1x300x300_4_0_0 : S5x300x300.Slices ![4, 0, 0] S1x300x300
  slices_S5x300_S1x300_4_0 : S5x300.Slices ![4, 0] S1x300
  bcast_S_S128 : S_.BroadcastsInDim S128 (![] : Fin 0 → Fin S128.rank)
  bcast_S_S128x300 : S_.BroadcastsInDim S128x300 (![] : Fin 0 → Fin S128x300.rank)
  bcast_S128_S128x1_0 : S128.BroadcastsInDim S128x1 (![0] : Fin 1 → Fin S128x1.rank)
  bcast_S128x1_S128x300_0_1 : S128x1.BroadcastsInDim S128x300 (![0, 1] : Fin 2 → Fin S128x300.rank)
  bcast_S150_S1x150_1 : S150.BroadcastsInDim S1x150 (![1] : Fin 1 → Fin S1x150.rank)
  bcast_S1x150_S128x150_0_1 : S1x150.BroadcastsInDim S128x150 (![0, 1] : Fin 2 → Fin S128x150.rank)
  bcast_S_S128x150 : S_.BroadcastsInDim S128x150 (![] : Fin 0 → Fin S128x150.rank)
  bcast_S6_S1x6_1 : S6.BroadcastsInDim S1x6 (![1] : Fin 1 → Fin S1x6.rank)
  bcast_S1x6_S128x6_0_1 : S1x6.BroadcastsInDim S128x6 (![0, 1] : Fin 2 → Fin S128x6.rank)
  gather_S119x300_S20000x1_S20000x300_1_0_n_n_0_1_1300_wf : GatherDims.WF S119x300 S20000x1 S20000x300 [1] [0] [] [0] [] 1 ![1, 300]
  dot_S320000x7_S7x300_S320000x300_1_0_0_1_n_n_wf : DotDims.WF S320000x7 S7x300 S320000x300 [1] [0] [0] [1] [] []
  gather_S20000x300_S320000x1_S320000x300_1_0_n_n_0_1_1300_wf : GatherDims.WF S20000x300 S320000x1 S320000x300 [1] [0] [] [0] [] 1 ![1, 300]
  scatter_S20000x300_S320000x1_S320000x300_1_0_0_1_wf : ScatterDims.WF S20000x300 S320000x1 S320000x300 [1] [0] [0] 1
  dot_S20000x300_S300x300_S20000x300_1_0_0_1_n_n_wf : DotDims.WF S20000x300 S300x300 S20000x300 [1] [0] [0] [1] [] []
  scatter_S128_S20000x1_S20000_n_0_0_1_wf : ScatterDims.WF S128 S20000x1 S20000 [] [0] [0] 1
  scatter_S128x300_S20000x1_S20000x300_1_0_0_1_wf : ScatterDims.WF S128x300 S20000x1 S20000x300 [1] [0] [0] 1
  dot_S128x300_S300x150_S128x150_1_0_0_1_n_n_wf : DotDims.WF S128x300 S300x150 S128x150 [1] [0] [0] [1] [] []
  dot_S128x150_S150x6_S128x6_1_0_0_1_n_n_wf : DotDims.WF S128x150 S150x6 S128x6 [1] [0] [0] [1] [] []

variable [Facts₀]

def gather_S119x300_S20000x1_S20000x300_1_0_n_n_0_1_1300 : GatherDims S119x300 S20000x1 S20000x300 where
  offsetDims := [1]
  collapsedSliceDims := [0]
  operandBatchingDims := []
  startIndicesBatchingDims := []
  startIndexMap := [0]
  indexVectorDim := 1
  sliceSizes := ![1, 300]
  wf := gather_S119x300_S20000x1_S20000x300_1_0_n_n_0_1_1300_wf
def dot_S320000x7_S7x300_S320000x300_1_0_0_1_n_n : DotDims S320000x7 S7x300 S320000x300 where
  lhsContracting := [1]
  rhsContracting := [0]
  lhsNonContracting := [0]
  rhsNonContracting := [1]
  lhsBatch := []
  rhsBatch := []
  wf := dot_S320000x7_S7x300_S320000x300_1_0_0_1_n_n_wf
def gather_S20000x300_S320000x1_S320000x300_1_0_n_n_0_1_1300 : GatherDims S20000x300 S320000x1 S320000x300 where
  offsetDims := [1]
  collapsedSliceDims := [0]
  operandBatchingDims := []
  startIndicesBatchingDims := []
  startIndexMap := [0]
  indexVectorDim := 1
  sliceSizes := ![1, 300]
  wf := gather_S20000x300_S320000x1_S320000x300_1_0_n_n_0_1_1300_wf
def scatter_S20000x300_S320000x1_S320000x300_1_0_0_1 : ScatterDims S20000x300 S320000x1 S320000x300 where
  updateWindowDims := [1]
  insertedWindowDims := [0]
  scatterDimsToOperandDims := [0]
  indexVectorDim := 1
  wf := scatter_S20000x300_S320000x1_S320000x300_1_0_0_1_wf
def dot_S20000x300_S300x300_S20000x300_1_0_0_1_n_n : DotDims S20000x300 S300x300 S20000x300 where
  lhsContracting := [1]
  rhsContracting := [0]
  lhsNonContracting := [0]
  rhsNonContracting := [1]
  lhsBatch := []
  rhsBatch := []
  wf := dot_S20000x300_S300x300_S20000x300_1_0_0_1_n_n_wf
def scatter_S128_S20000x1_S20000_n_0_0_1 : ScatterDims S128 S20000x1 S20000 where
  updateWindowDims := []
  insertedWindowDims := [0]
  scatterDimsToOperandDims := [0]
  indexVectorDim := 1
  wf := scatter_S128_S20000x1_S20000_n_0_0_1_wf
def scatter_S128x300_S20000x1_S20000x300_1_0_0_1 : ScatterDims S128x300 S20000x1 S20000x300 where
  updateWindowDims := [1]
  insertedWindowDims := [0]
  scatterDimsToOperandDims := [0]
  indexVectorDim := 1
  wf := scatter_S128x300_S20000x1_S20000x300_1_0_0_1_wf
def dot_S128x300_S300x150_S128x150_1_0_0_1_n_n : DotDims S128x300 S300x150 S128x150 where
  lhsContracting := [1]
  rhsContracting := [0]
  lhsNonContracting := [0]
  rhsNonContracting := [1]
  lhsBatch := []
  rhsBatch := []
  wf := dot_S128x300_S300x150_S128x150_1_0_0_1_n_n_wf
def dot_S128x150_S150x6_S128x6_1_0_0_1_n_n : DotDims S128x150 S150x6 S128x6 where
  lhsContracting := [1]
  rhsContracting := [0]
  lhsNonContracting := [0]
  rhsNonContracting := [1]
  lhsBatch := []
  rhsBatch := []
  wf := dot_S128x150_S150x6_S128x6_1_0_0_1_n_n_wf

class Facts : Prop extends Facts₀ where

variable [Facts]
-- ==== Proof.KernelRun.lean ====
/- The run of the kernel's @main at any float instance, with its RESULT: from any memory with zero counters every
   weakly fair execution on the TensorCores terminates without a fault, and in every final state the result buffer
   (the value of the last addition, %419) holds the last boundary's contents `Gen.W35` at that buffer, while each of
   the twenty argument arrays is as launched. -/
import proofs.«119086_j26585847562989_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the final state's result buffer holds the last
    boundary's contents there, and every argument array is as launched. The final thread state says that every
    unscoped buffer ends at the last boundary's contents; the result buffer is unscoped, so it is read off directly,
    and each argument is read back through the fold to the launch memory. -/
theorem run_result : θ_run defs (onTc (τ := τ) (main (F := F))) ⟨m, fun _ => 0, ρ⟩ (fun r => ∀ c : Dev nD,
      r.2.mem ((c.tc : Thread nD τ).loc main_v419) = Gen.W35 m ρ c (Proc.devRef .tc main_v419)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h c =>
      ⟨h c _ (mem_uc main_v419 (by decide)),
       (h c _ (mem_uc main_arg0 (by decide))).trans (W35_main_arg0 m ρ c),
       (h c _ (mem_uc main_arg1 (by decide))).trans (W35_main_arg1 m ρ c),
       (h c _ (mem_uc main_arg2 (by decide))).trans (W35_main_arg2 m ρ c),
       (h c _ (mem_uc main_arg3 (by decide))).trans (W35_main_arg3 m ρ c),
       (h c _ (mem_uc main_arg4 (by decide))).trans (W35_main_arg4 m ρ c),
       (h c _ (mem_uc main_arg5 (by decide))).trans (W35_main_arg5 m ρ c),
       (h c _ (mem_uc main_arg6 (by decide))).trans (W35_main_arg6 m ρ c),
       (h c _ (mem_uc main_arg7 (by decide))).trans (W35_main_arg7 m ρ c),
       (h c _ (mem_uc main_arg8 (by decide))).trans (W35_main_arg8 m ρ c),
       (h c _ (mem_uc main_arg9 (by decide))).trans (W35_main_arg9 m ρ c),
       (h c _ (mem_uc main_arg10 (by decide))).trans (W35_main_arg10 m ρ c),
       (h c _ (mem_uc main_arg11 (by decide))).trans (W35_main_arg11 m ρ c),
       (h c _ (mem_uc main_arg12 (by decide))).trans (W35_main_arg12 m ρ c),
       (h c _ (mem_uc main_arg13 (by decide))).trans (W35_main_arg13 m ρ c),
       (h c _ (mem_uc main_arg14 (by decide))).trans (W35_main_arg14 m ρ c),
       (h c _ (mem_uc main_arg15 (by decide))).trans (W35_main_arg15 m ρ c),
       (h c _ (mem_uc main_arg16 (by decide))).trans (W35_main_arg16 m ρ c),
       (h c _ (mem_uc main_arg17 (by decide))).trans (W35_main_arg17 m ρ c),
       (h c _ (mem_uc main_arg18 (by decide))).trans (W35_main_arg18 m ρ c),
       (h c _ (mem_uc main_arg19 (by decide))).trans (W35_main_arg19 m ρ c)⟩)

end Cert.KernelIdeal.KRun

end
-- ==== Proof.RefOpsPre.lean ====
/- One stage (`opsPre`) of the reference program's @main as a LIST of its host operations, in order, each call of a module-local
   function replaced by the callee's operations over that call's buffer record (a nested call likewise). Each operation is named
   after the reference it writes (`op_‹reference›`); the stage is cut where a printed window of @main ends into segments `segK`,
   beside each the list `wrK` of the references its operations write, in order. A table (17 of the program's 754 operations);
   the statements about it are in RefRun.lean. -/
import proofs.«119086_j26585847562989_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev op_main_v0 : HloOp τ sig (Elt F) := StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
abbrev op_main_v1 : HloOp τ sig (Elt F) := StableHlo.reshape main_v0 main_v1 rfl shapeCasts_S1x320000_S320000
abbrev op_main_v2 : HloOp τ sig (Elt F) := StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
abbrev op_main_v3 : HloOp τ sig (Elt F) := StableHlo.reshape main_v2 main_v3 rfl shapeCasts_S1x320000_S320000
abbrev op_main_c : HloOp τ sig (Elt F) := StableHlo.nullary main_c (constantI S_ 32 0#32)
abbrev op_main_v4 : HloOp τ sig (Elt F) := StableHlo.unary main_c main_v4 (broadcastInDim S20000 ![] bcast_S_S20000 : (⟨S_, .i32⟩ : BufTy).Contents (Elt F) → (⟨S20000, .i32⟩ : BufTy).Contents (Elt F))
abbrev op_main_v5 : HloOp τ sig (Elt F) := StableHlo.binary main_arg0 main_v4 main_v5 (cmpi .slt : (⟨S20000, .i32⟩ : BufTy).Contents (Elt F) → (⟨S20000, .i32⟩ : BufTy).Contents (Elt F) → (⟨S20000, .i1⟩ : BufTy).Contents (Elt F))
abbrev op_main_c_0 : HloOp τ sig (Elt F) := StableHlo.nullary main_c_0 (constantI S_ 32 119#32)
abbrev op_main_v6 : HloOp τ sig (Elt F) := StableHlo.unary main_c_0 main_v6 (broadcastInDim S20000 ![] bcast_S_S20000 : (⟨S_, .i32⟩ : BufTy).Contents (Elt F) → (⟨S20000, .i32⟩ : BufTy).Contents (Elt F))
abbrev op_main_v7 : HloOp τ sig (Elt F) := StableHlo.binary main_arg0 main_v6 main_v7 (addi : (⟨S20000, .i32⟩ : BufTy).Contents (Elt F) → (⟨S20000, .i32⟩ : BufTy).Contents (Elt F) → (⟨S20000, .i32⟩ : BufTy).Contents (Elt F))
abbrev op_main_v8 : HloOp τ sig (Elt F) := StableHlo.ternary main_v5 main_v7 main_arg0 main_v8 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F))
abbrev op_main_v9 : HloOp τ sig (Elt F) := StableHlo.unary main_v8 main_v9 (broadcastInDim S20000x1 ![0] bcast_S20000_S20000x1_0 : (⟨S20000, .i32⟩ : BufTy).Contents (Elt F) → (⟨S20000x1, .i32⟩ : BufTy).Contents (Elt F))
abbrev op_main_v10 : HloOp τ sig (Elt F) := StableHlo.binary main_arg4 main_v9 main_v10 ((fun x i => Host.gather gather_S119x300_S20000x1_S20000x300_1_0_n_n_0_1_1300 x i) : (⟨S119x300, .f32⟩ : BufTy).Contents (Elt F) → (⟨S20000x1, .i32⟩ : BufTy).Contents (Elt F) → (⟨S20000x300, .f32⟩ : BufTy).Contents (Elt F))
abbrev op_main_v11 : HloOp τ sig (Elt F) := StableHlo.binary main_arg3 main_arg5 main_v11 ((fun l r => Host.dotGeneral dot_S320000x7_S7x300_S320000x300_1_0_0_1_n_n none l r) : (⟨S320000x7, .f32⟩ : BufTy).Contents (Elt F) → (⟨S7x300, .f32⟩ : BufTy).Contents (Elt F) → (⟨S320000x300, .f32⟩ : BufTy).Contents (Elt F))
abbrev op_main_v12 : HloOp τ sig (Elt F) := StableHlo.unary main_arg6 main_v12 (broadcastInDim S1x300 ![1] bcast_S300_S1x300_1 : (⟨S300, .f32⟩ : BufTy).Contents (Elt F) → (⟨S1x300, .f32⟩ : BufTy).Contents (Elt F))
abbrev op_main_v13 : HloOp τ sig (Elt F) := StableHlo.unary main_v12 main_v13 (broadcastInDim S320000x300 ![0, 1] bcast_S1x300_S320000x300_0_1 : (⟨S1x300, .f32⟩ : BufTy).Contents (Elt F) → (⟨S320000x300, .f32⟩ : BufTy).Contents (Elt F))
abbrev op_main_v14 : HloOp τ sig (Elt F) := StableHlo.binary main_v11 main_v13 main_v14 (addf : (⟨S320000x300, .f32⟩ : BufTy).Contents (Elt F) → (⟨S320000x300, .f32⟩ : BufTy).Contents (Elt F) → (⟨S320000x300, .f32⟩ : BufTy).Contents (Elt F))

/-- Segment 0: 17 operations of window 0, stage opsPre. -/
def seg0 : List (HloOp τ sig (Elt F)) :=
  [op_main_v0, op_main_v1, op_main_v2, op_main_v3, op_main_c, op_main_v4, op_main_v5, op_main_c_0, op_main_v6, op_main_v7, op_main_v8, op_main_v9, op_main_v10, op_main_v11, op_main_v12, op_main_v13, op_main_v14]

/-- The references segment 0 writes, in order. -/
def wr0 : List (Ref sig .tc) :=
  [main_v0, main_v1, main_v2, main_v3, main_c, main_v4, main_v5, main_c_0, main_v6, main_v7, main_v8, main_v9, main_v10, main_v11, main_v12, main_v13, main_v14]

/-- The operations of stage opsPre, and the references they write. -/
def opsPre : List (HloOp τ sig (Elt F)) := seg0
def wrPre : List (Ref sig .tc) := wr0

end Cert.ReferenceIdeal.RRun

end
-- ==== Proof.RefOpsL0.lean ====
/- One stage (`opsLayer0`) of the reference program's @main as a LIST of its host operations, in order, each call of a module-local
   function replaced by the callee's operations over that call's buffer record (a nested call likewise). Each operation is named
   after the reference it writes (`op_‹reference›`); the stage is cut where a printed window of @main ends into segments `segK`,
   beside each the list `wrK` of the references its operations write, in order. A table (142 of the program's 754 operations);
   the statements about it are in RefRun.lean. -/
import proofs.«119086_j26585847562989_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev op_main_c_1 : HloOp τ sig (Elt F) := StableHlo.nullary main_c_1 (constantI S_ 32 0#32)
abbrev op_main_v15 : HloOp τ sig (Elt F) := StableHlo.unary main_c_1 main_v15 (broadcastInDim S320000 ![] bcast_S_S320000 : (⟨S_, .i32⟩ : BufTy).Contents (Elt F) → (⟨S320000, .i32⟩ : BufTy).Contents (Elt F))
abbrev op_main_v16 : HloOp τ sig (Elt F) := StableHlo.binary main_v1 main_v15 main_v16 (cmpi .slt : (⟨S320000, .i32⟩ : BufTy).Contents (Elt F) → (⟨S320000, .i32⟩ : BufTy).Contents (Elt F) → (⟨S320000, .i1⟩ : BufTy).Contents (Elt F))
abbrev op_main_c_2 : HloOp τ sig (Elt F) := StableHlo.nullary main_c_2 (constantI S_ 32 20000#32)
abbrev op_main_v17 : HloOp τ sig (Elt F) := StableHlo.unary main_c_2 main_v17 (broadcastInDim S320000 ![] bcast_S_S320000 : (⟨S_, .i32⟩ : BufTy).Contents (Elt F) → (⟨S320000, .i32⟩ : BufTy).Contents (Elt F))
abbrev op_main_v18 : HloOp τ sig (Elt F) := StableHlo.binary main_v1 main_v17 main_v18 (addi : (⟨S320000, .i32⟩ : BufTy).Contents (Elt F) → (⟨S320000, .i32⟩ : BufTy).Contents (Elt F) → (⟨S320000, .i32⟩ : BufTy).Contents (Elt F))
abbrev op_main_v19 : HloOp τ sig (Elt F) := StableHlo.ternary main_v16 main_v18 main_v1 main_v19 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
abbrev op_main_v20 : HloOp τ sig (Elt F) := StableHlo.unary main_v19 main_v20 (broadcastInDim S320000x1 ![0] bcast_S320000_S320000x1_0 : (⟨S320000, .i32⟩ : BufTy).Contents (Elt F) → (⟨S320000x1, .i32⟩ : BufTy).Contents (Elt F))
abbrev op_main_v21 : HloOp τ sig (Elt F) := StableHlo.binary main_v10 main_v20 main_v21 ((fun x i => Host.gather gather_S20000x300_S320000x1_S320000x300_1_0_n_n_0_1_1300 x i) : (⟨S20000x300, .f32⟩ : BufTy).Contents (Elt F) → (⟨S320000x1, .i32⟩ : BufTy).Contents (Elt F) → (⟨S320000x300, .f32⟩ : BufTy).Contents (Elt F))
abbrev op_main_v22 : HloOp τ sig (Elt F) := StableHlo.binary main_v21 main_v14 main_v22 (addf : (⟨S320000x300, .f32⟩ : BufTy).Contents (Elt F) → (⟨S320000x300, .f32⟩ : BufTy).Contents (Elt F) → (⟨S320000x300, .f32⟩ : BufTy).Contents (Elt F))
abbrev op_main_call0_cst : HloOp τ sig (Elt F) := StableHlo.TRef.nullary main_call0.cst (constant S_ .f32 0x00000000#32)
abbrev op_main_call0_v0 : HloOp τ sig (Elt F) := StableHlo.TRef.unary main_call0.cst main_call0.v0 (broadcastInDim S320000x300 ![] bcast_S_S320000x300)
abbrev op_main_call0_v1 : HloOp τ sig (Elt F) := StableHlo.TRef.binary (.of main_v22 : StableHlo.TRef sig ⟨S320000x300, .f32⟩) main_call0.v0 main_call0.v1 maximumf
abbrev op_main_cst : HloOp τ sig (Elt F) := StableHlo.nullary main_cst (constant S_ .f32 0x00000000#32)
abbrev op_main_v24 : HloOp τ sig (Elt F) := StableHlo.unary main_cst main_v24 (broadcastInDim S20000x300 ![] bcast_S_S20000x300 : (⟨S_, .f32⟩ : BufTy).Contents (Elt F) → (⟨S20000x300, .f32⟩ : BufTy).Contents (Elt F))
abbrev op_main_v25 : HloOp τ sig (Elt F) := StableHlo.unary main_v3 main_v25 (broadcastInDim S320000x1 ![0] bcast_S320000_S320000x1_0 : (⟨S320000, .i32⟩ : BufTy).Contents (Elt F) → (⟨S320000x1, .i32⟩ : BufTy).Contents (Elt F))
abbrev op_main_v26 : HloOp τ sig (Elt F) := StableHlo.ternary main_v24 main_v25 main_v23 main_v26 ((fun x i u => Host.scatterAdd scatter_S20000x300_S320000x1_S320000x300_1_0_0_1 x i u) : (⟨S20000x300, .f32⟩ : BufTy).Contents (Elt F) → (⟨S320000x1, .i32⟩ : BufTy).Contents (Elt F) → (⟨S320000x300, .f32⟩ : BufTy).Contents (Elt F) → (⟨S20000x300, .f32⟩ : BufTy).Contents (Elt F))
abbrev op_main_v27 : HloOp τ sig (Elt F) := StableHlo.unary main_arg7 main_v27 ((extractStridedSlice S1 ![0] · slices_S5_S1_0) : (⟨S5, .f32⟩ : BufTy).Contents (Elt F) → (⟨S1, .f32⟩ : BufTy).Contents (Elt F))
abbrev op_main_v28 : HloOp τ sig (Elt F) := StableHlo.reshape main_v27 main_v28 rfl shapeCasts_S1_S_
abbrev op_main_cst_3 : HloOp τ sig (Elt F) := StableHlo.nullary main_cst_3 (constant S_ .f32 0x3F800000#32)
abbrev op_main_v29 : HloOp τ sig (Elt F) := StableHlo.binary main_cst_3 main_v28 main_v29 (addf : (⟨S_, .f32⟩ : BufTy).Contents (Elt F) → (⟨S_, .f32⟩ : BufTy).Contents (Elt F) → (⟨S_, .f32⟩ : BufTy).Contents (Elt F))
abbrev op_main_v30 : HloOp τ sig (Elt F) := StableHlo.unary main_v29 main_v30 (broadcastInDim S20000x300 ![] bcast_S_S20000x300 : (⟨S_, .f32⟩ : BufTy).Contents (Elt F) → (⟨S20000x300, .f32⟩ : BufTy).Contents (Elt F))
abbrev op_main_v31 : HloOp τ sig (Elt F) := StableHlo.binary main_v30 main_v10 main_v31 (mulf : (⟨S20000x300, .f32⟩ : BufTy).Contents (Elt F) → (⟨S20000x300, .f32⟩ : BufTy).Contents (Elt F) → (⟨S20000x300, .f32⟩ : BufTy).Contents (Elt F))
abbrev op_main_v32 : HloOp τ sig (Elt F) := StableHlo.binary main_v31 main_v26 main_v32 (addf : (⟨S20000x300, .f32⟩ : BufTy).Contents (Elt F) → (⟨S20000x300, .f32⟩ : BufTy).Contents (Elt F) → (⟨S20000x300, .f32⟩ : BufTy).Contents (Elt F))
abbrev op_main_v33 : HloOp τ sig (Elt F) := StableHlo.unary main_arg8 main_v33 ((extractStridedSlice S1x300x300 ![0, 0, 0] · slices_S5x300x300_S1x300x300_0_0_0) : (⟨S5x300x300, .f32⟩ : BufTy).Contents (Elt F) → (⟨S1x300x300, .f32⟩ : BufTy).Contents (Elt F))
abbrev op_main_v34 : HloOp τ sig (Elt F) := StableHlo.reshape main_v33 main_v34 rfl shapeCasts_S1x300x300_S300x300
abbrev op_main_v35 : HloOp τ sig (Elt F) := StableHlo.binary main_v32 main_v34 main_v35 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v36 : HloOp τ sig (Elt F) := StableHlo.unary main_arg9 main_v36 ((extractStridedSlice S1x300 ![0, 0] · slices_S5x300_S1x300_0_0) : (⟨S5x300, .f32⟩ : BufTy).Contents (Elt F) → (⟨S1x300, .f32⟩ : BufTy).Contents (Elt F))
abbrev op_main_v37 : HloOp τ sig (Elt F) := StableHlo.reshape main_v36 main_v37 rfl shapeCasts_S1x300_S300
abbrev op_main_v38 : HloOp τ sig (Elt F) := StableHlo.unary main_v37 main_v38 (broadcastInDim S1x300 ![1] bcast_S300_S1x300_1 : (⟨S300, .f32⟩ : BufTy).Contents (Elt F) → (⟨S1x300, .f32⟩ : BufTy).Contents (Elt F))
abbrev op_main_v39 : HloOp τ sig (Elt F) := StableHlo.unary main_v38 main_v39 (broadcastInDim S20000x300 ![0, 1] bcast_S1x300_S20000x300_0_1 : (⟨S1x300, .f32⟩ : BufTy).Contents (Elt F) → (⟨S20000x300, .f32⟩ : BufTy).Contents (Elt F))
abbrev op_main_v40 : HloOp τ sig (Elt F) := StableHlo.binary main_v35 main_v39 main_v40 (addf : (⟨S20000x300, .f32⟩ : BufTy).Contents (Elt F) → (⟨S20000x300, .f32⟩ : BufTy).Contents (Elt F) → (⟨S20000x300, .f32⟩ : BufTy).Contents (Elt F))
abbrev op_main_v41 : HloOp τ sig (Elt F) := StableHlo.unary main_arg10 main_v41 ((extractStridedSlice S1x300 ![0, 0] · slices_S5x300_S1x300_0_0) : (⟨S5x300, .f32⟩ : BufTy).Contents (Elt F) → (⟨S1x300, .f32⟩ : BufTy).Contents (Elt F))
abbrev op_main_v42 : HloOp τ sig (Elt F) := StableHlo.reshape main_v41 main_v42 rfl shapeCasts_S1x300_S300
abbrev op_main_v43 : HloOp τ sig (Elt F) := StableHlo.unary main_arg11 main_v43 ((extractStridedSlice S1x300 ![0, 0] · slices_S5x300_S1x300_0_0) : (⟨S5x300, .f32⟩ : BufTy).Contents (Elt F) → (⟨S1x300, .f32⟩ : BufTy).Contents (Elt F))
abbrev op_main_v44 : HloOp τ sig (Elt F) := StableHlo.reshape main_v43 main_v44 rfl shapeCasts_S1x300_S300
abbrev op_main_cst_4 : HloOp τ sig (Elt F) := StableHlo.nullary main_cst_4 (constant S_ .f32 0x00000000#32)
abbrev op_main_v45 : HloOp τ sig (Elt F) := StableHlo.binary main_v40 main_cst_4 main_v45 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_5 : HloOp τ sig (Elt F) := StableHlo.nullary main_cst_5 (constant S_ .f32 0x469C4000#32)
abbrev op_main_v46 : HloOp τ sig (Elt F) := StableHlo.unary main_cst_5 main_v46 (broadcastInDim S300 ![] bcast_S_S300 : (⟨S_, .f32⟩ : BufTy).Contents (Elt F) → (⟨S300, .f32⟩ : BufTy).Contents (Elt F))
abbrev op_main_v47 : HloOp τ sig (Elt F) := StableHlo.binary main_v45 main_v46 main_v47 (Host.divf : (⟨S300, .f32⟩ : BufTy).Contents (Elt F) → (⟨S300, .f32⟩ : BufTy).Contents (Elt F) → (⟨S300, .f32⟩ : BufTy).Contents (Elt F))
abbrev op_main_c_6 : HloOp τ sig (Elt F) := StableHlo.nullary main_c_6 (constantI S_ 32 0#32)
abbrev op_main_call1_cst : HloOp τ sig (Elt F) := StableHlo.TRef.nullary main_call1.cst (constant S_ .f32 0x00000000#32)
abbrev op_main_call1_v0 : HloOp τ sig (Elt F) := StableHlo.TRef.binary (.of main_v40 : StableHlo.TRef sig ⟨S20000x300, .f32⟩) main_call1.cst main_call1.v0 (fun x v => Host.reduceAdd x v reducesTo_S20000x300_S300_d0 h_S_)
abbrev op_main_call1_v1 : HloOp τ sig (Elt F) := StableHlo.TRef.unary main_call1.v0 main_call1.v1 (broadcastInDim S1x300 ![1] bcast_S300_S1x300_1)
abbrev op_main_call1_cst_0 : HloOp τ sig (Elt F) := StableHlo.TRef.nullary main_call1.cst_0 (constant S_ .f32 0x469C4000#32)
abbrev op_main_call1_v2 : HloOp τ sig (Elt F) := StableHlo.TRef.unary main_call1.cst_0 main_call1.v2 (broadcastInDim S1x300 ![] bcast_S_S1x300)
abbrev op_main_call1_v3 : HloOp τ sig (Elt F) := StableHlo.TRef.binary main_call1.v1 main_call1.v2 main_call1.v3 Host.divf
abbrev op_main_call1_v4 : HloOp τ sig (Elt F) := StableHlo.TRef.unary main_call1.v3 main_call1.v4 (broadcastInDim S20000x300 ![0, 1] bcast_S1x300_S20000x300_0_1)
abbrev op_main_call1_v5 : HloOp τ sig (Elt F) := StableHlo.TRef.binary (.of main_v40 : StableHlo.TRef sig ⟨S20000x300, .f32⟩) main_call1.v4 main_call1.v5 subf
abbrev op_main_call1_v6 : HloOp τ sig (Elt F) := StableHlo.TRef.binary main_call1.v5 main_call1.v5 main_call1.v6 mulf
abbrev op_main_call1_v7 : HloOp τ sig (Elt F) := StableHlo.TRef.unary (.of main_c_6 : StableHlo.TRef sig ⟨S_, .i32⟩) main_call1.v7 (sitofp .f32)
abbrev op_main_call1_cst_1 : HloOp τ sig (Elt F) := StableHlo.TRef.nullary main_call1.cst_1 (constant S_ .f32 0x469C4000#32)
abbrev op_main_call1_v8 : HloOp τ sig (Elt F) := StableHlo.TRef.binary main_call1.cst_1 main_call1.v7 main_call1.v8 subf
abbrev op_main_call1_cst_2 : HloOp τ sig (Elt F) := StableHlo.TRef.nullary main_call1.cst_2 (constant S_ .f32 0x00000000#32)
abbrev op_main_call1_v9 : HloOp τ sig (Elt F) := StableHlo.TRef.binary main_call1.v6 main_call1.cst_2 main_call1.v9 (fun x v => Host.reduceAdd x v reducesTo_S20000x300_S300_d0 h_S_)
abbrev op_main_call1_v10 : HloOp τ sig (Elt F) := StableHlo.TRef.unary main_call1.v8 main_call1.v10 (broadcastInDim S300 ![] bcast_S_S300)
abbrev op_main_call1_v11 : HloOp τ sig (Elt F) := StableHlo.TRef.binary main_call1.v9 main_call1.v10 main_call1.v11 Host.divf
abbrev op_main_call1_cst_3 : HloOp τ sig (Elt F) := StableHlo.TRef.nullary main_call1.cst_3 (constant S_ .f32 0x00000000#32)
abbrev op_main_call1_v12 : HloOp τ sig (Elt F) := StableHlo.TRef.binary main_call1.v8 main_call1.cst_3 main_call1.v12 (cmpf .ogt)
abbrev op_main_call1_cst_4 : HloOp τ sig (Elt F) := StableHlo.TRef.nullary main_call1.cst_4 (constant S_ .f32 0x7FC00000#32)
abbrev op_main_call1_call0_v0 : HloOp τ sig (Elt F) := StableHlo.TRef.unary main_call1.cst_4 main_call1.call0.v0 id
abbrev op_main_call1_call0_v1 : HloOp τ sig (Elt F) := StableHlo.TRef.unary main_call1.call0.v0 main_call1.call0.v1 (broadcastInDim S300 ![] bcast_S_S300)
abbrev op_main_call1_call0_v2 : HloOp τ sig (Elt F) := StableHlo.TRef.ternary main_call1.v12 main_call1.v11 main_call1.call0.v1 main_call1.call0.v2 (fun p a b => select (broadcastInDim S300 ![] bcast_S_S300 p) a b)
abbrev op_main_v49 : HloOp τ sig (Elt F) := StableHlo.unary main_v47 main_v49 (broadcastInDim S1x300 ![1] bcast_S300_S1x300_1 : (⟨S300, .f32⟩ : BufTy).Contents (Elt F) → (⟨S1x300, .f32⟩ : BufTy).Contents (Elt F))
abbrev op_main_v50 : HloOp τ sig (Elt F) := StableHlo.unary main_v49 main_v50 (broadcastInDim S20000x300 ![0, 1] bcast_S1x300_S20000x300_0_1 : (⟨S1x300, .f32⟩ : BufTy).Contents (Elt F) → (⟨S20000x300, .f32⟩ : BufTy).Contents (Elt F))

/-- Segment 1: 66 operations of window 0, stage opsLayer0. -/
def seg1 : List (HloOp τ sig (Elt F)) :=
  [op_main_c_1, op_main_v15, op_main_v16, op_main_c_2, op_main_v17, op_main_v18, op_main_v19, op_main_v20, op_main_v21, op_main_v22, op_main_call0_cst, op_main_call0_v0, op_main_call0_v1, op_main_cst, op_main_v24, op_main_v25, op_main_v26, op_main_v27, op_main_v28, op_main_cst_3, op_main_v29, op_main_v30, op_main_v31, op_main_v32, op_main_v33, op_main_v34, op_main_v35, op_main_v36, op_main_v37, op_main_v38, op_main_v39, op_main_v40, op_main_v41, op_main_v42, op_main_v43, op_main_v44, op_main_cst_4, op_main_v45, op_main_cst_5, op_main_v46, op_main_v47, op_main_c_6, op_main_call1_cst, op_main_call1_v0, op_main_call1_v1, op_main_call1_cst_0, op_main_call1_v2, op_main_call1_v3, op_main_call1_v4, op_main_call1_v5, op_main_call1_v6, op_main_call1_v7, op_main_call1_cst_1, op_main_call1_v8, op_main_call1_cst_2, op_main_call1_v9, op_main_call1_v10, op_main_call1_v11, op_main_call1_cst_3, op_main_call1_v12, op_main_call1_cst_4, op_main_call1_call0_v0, op_main_call1_call0_v1, op_main_call1_call0_v2, op_main_v49, op_main_v50]

/-- The references segment 1 writes, in order. -/
def wr1 : List (Ref sig .tc) :=
  [main_c_1, main_v15, main_v16, main_c_2, main_v17, main_v18, main_v19, main_v20, main_v21, main_v22, main_call0.cst.ref, main_call0.v0.ref, main_call0.v1.ref, main_cst, main_v24, main_v25, main_v26, main_v27, main_v28, main_cst_3, main_v29, main_v30, main_v31, main_v32, main_v33, main_v34, main_v35, main_v36, main_v37, main_v38, main_v39, main_v40, main_v41, main_v42, main_v43, main_v44, main_cst_4, main_v45, main_cst_5, main_v46, main_v47, main_c_6, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v49, main_v50]

abbrev op_main_v51 : HloOp τ sig (Elt F) := StableHlo.binary main_v40 main_v50 main_v51 (subf : (⟨S20000x300, .f32⟩ : BufTy).Contents (Elt F) → (⟨S20000x300, .f32⟩ : BufTy).Contents (Elt F) → (⟨S20000x300, .f32⟩ : BufTy).Contents (Elt F))
abbrev op_main_cst_7 : HloOp τ sig (Elt F) := StableHlo.nullary main_cst_7 (constant S_ .f32 0x3727C5AC#32)
abbrev op_main_v52 : HloOp τ sig (Elt F) := StableHlo.unary main_cst_7 main_v52 (broadcastInDim S300 ![] bcast_S_S300 : (⟨S_, .f32⟩ : BufTy).Contents (Elt F) → (⟨S300, .f32⟩ : BufTy).Contents (Elt F))
abbrev op_main_v53 : HloOp τ sig (Elt F) := StableHlo.binary main_v48 main_v52 main_v53 (addf : (⟨S300, .f32⟩ : BufTy).Contents (Elt F) → (⟨S300, .f32⟩ : BufTy).Contents (Elt F) → (⟨S300, .f32⟩ : BufTy).Contents (Elt F))
abbrev op_main_v54 : HloOp τ sig (Elt F) := StableHlo.unary main_v53 main_v54 (Host.rsqrt : (⟨S300, .f32⟩ : BufTy).Contents (Elt F) → (⟨S300, .f32⟩ : BufTy).Contents (Elt F))
abbrev op_main_v55 : HloOp τ sig (Elt F) := StableHlo.unary main_v54 main_v55 (broadcastInDim S1x300 ![1] bcast_S300_S1x300_1 : (⟨S300, .f32⟩ : BufTy).Contents (Elt F) → (⟨S1x300, .f32⟩ : BufTy).Contents (Elt F))
abbrev op_main_v56 : HloOp τ sig (Elt F) := StableHlo.unary main_v55 main_v56 (broadcastInDim S20000x300 ![0, 1] bcast_S1x300_S20000x300_0_1 : (⟨S1x300, .f32⟩ : BufTy).Contents (Elt F) → (⟨S20000x300, .f32⟩ : BufTy).Contents (Elt F))
abbrev op_main_v57 : HloOp τ sig (Elt F) := StableHlo.binary main_v51 main_v56 main_v57 (mulf : (⟨S20000x300, .f32⟩ : BufTy).Contents (Elt F) → (⟨S20000x300, .f32⟩ : BufTy).Contents (Elt F) → (⟨S20000x300, .f32⟩ : BufTy).Contents (Elt F))
abbrev op_main_v58 : HloOp τ sig (Elt F) := StableHlo.unary main_v42 main_v58 (broadcastInDim S1x300 ![1] bcast_S300_S1x300_1 : (⟨S300, .f32⟩ : BufTy).Contents (Elt F) → (⟨S1x300, .f32⟩ : BufTy).Contents (Elt F))
abbrev op_main_v59 : HloOp τ sig (Elt F) := StableHlo.unary main_v58 main_v59 (broadcastInDim S20000x300 ![0, 1] bcast_S1x300_S20000x300_0_1 : (⟨S1x300, .f32⟩ : BufTy).Contents (Elt F) → (⟨S20000x300, .f32⟩ : BufTy).Contents (Elt F))
abbrev op_main_v60 : HloOp τ sig (Elt F) := StableHlo.binary main_v57 main_v59 main_v60 (mulf : (⟨S20000x300, .f32⟩ : BufTy).Contents (Elt F) → (⟨S20000x300, .f32⟩ : BufTy).Contents (Elt F) → (⟨S20000x300, .f32⟩ : BufTy).Contents (Elt F))
abbrev op_main_v61 : HloOp τ sig (Elt F) := StableHlo.unary main_v44 main_v61 (broadcastInDim S1x300 ![1] bcast_S300_S1x300_1 : (⟨S300, .f32⟩ : BufTy).Contents (Elt F) → (⟨S1x300, .f32⟩ : BufTy).Contents (Elt F))
abbrev op_main_v62 : HloOp τ sig (Elt F) := StableHlo.unary main_v61 main_v62 (broadcastInDim S20000x300 ![0, 1] bcast_S1x300_S20000x300_0_1 : (⟨S1x300, .f32⟩ : BufTy).Contents (Elt F) → (⟨S20000x300, .f32⟩ : BufTy).Contents (Elt F))
abbrev op_main_v63 : HloOp τ sig (Elt F) := StableHlo.binary main_v60 main_v62 main_v63 (addf : (⟨S20000x300, .f32⟩ : BufTy).Contents (Elt F) → (⟨S20000x300, .f32⟩ : BufTy).Contents (Elt F) → (⟨S20000x300, .f32⟩ : BufTy).Contents (Elt F))
abbrev op_main_call2_cst : HloOp τ sig (Elt F) := StableHlo.TRef.nullary main_call2.cst (constant S_ .f32 0x00000000#32)
abbrev op_main_call2_v0 : HloOp τ sig (Elt F) := StableHlo.TRef.unary main_call2.cst main_call2.v0 (broadcastInDim S20000x300 ![] bcast_S_S20000x300)
abbrev op_main_call2_v1 : HloOp τ sig (Elt F) := StableHlo.TRef.binary (.of main_v63 : StableHlo.TRef sig ⟨S20000x300, .f32⟩) main_call2.v0 main_call2.v1 maximumf
abbrev op_main_v65 : HloOp τ sig (Elt F) := StableHlo.unary main_arg12 main_v65 ((extractStridedSlice S1x300x300 ![0, 0, 0] · slices_S5x300x300_S1x300x300_0_0_0) : (⟨S5x300x300, .f32⟩ : BufTy).Contents (Elt F) → (⟨S1x300x300, .f32⟩ : BufTy).Contents (Elt F))
abbrev op_main_v66 : HloOp τ sig (Elt F) := StableHlo.reshape main_v65 main_v66 rfl shapeCasts_S1x300x300_S300x300
abbrev op_main_v67 : HloOp τ sig (Elt F) := StableHlo.binary main_v64 main_v66 main_v67 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v68 : HloOp τ sig (Elt F) := StableHlo.unary main_arg13 main_v68 ((extractStridedSlice S1x300 ![0, 0] · slices_S5x300_S1x300_0_0) : (⟨S5x300, .f32⟩ : BufTy).Contents (Elt F) → (⟨S1x300, .f32⟩ : BufTy).Contents (Elt F))
abbrev op_main_v69 : HloOp τ sig (Elt F) := StableHlo.reshape main_v68 main_v69 rfl shapeCasts_S1x300_S300
abbrev op_main_v70 : HloOp τ sig (Elt F) := StableHlo.unary main_v69 main_v70 (broadcastInDim S1x300 ![1] bcast_S300_S1x300_1 : (⟨S300, .f32⟩ : BufTy).Contents (Elt F) → (⟨S1x300, .f32⟩ : BufTy).Contents (Elt F))
abbrev op_main_v71 : HloOp τ sig (Elt F) := StableHlo.unary main_v70 main_v71 (broadcastInDim S20000x300 ![0, 1] bcast_S1x300_S20000x300_0_1 : (⟨S1x300, .f32⟩ : BufTy).Contents (Elt F) → (⟨S20000x300, .f32⟩ : BufTy).Contents (Elt F))
abbrev op_main_v72 : HloOp τ sig (Elt F) := StableHlo.binary main_v67 main_v71 main_v72 (addf : (⟨S20000x300, .f32⟩ : BufTy).Contents (Elt F) → (⟨S20000x300, .f32⟩ : BufTy).Contents (Elt F) → (⟨S20000x300, .f32⟩ : BufTy).Contents (Elt F))
abbrev op_main_v73 : HloOp τ sig (Elt F) := StableHlo.unary main_arg14 main_v73 ((extractStridedSlice S1x300 ![0, 0] · slices_S5x300_S1x300_0_0) : (⟨S5x300, .f32⟩ : BufTy).Contents (Elt F) → (⟨S1x300, .f32⟩ : BufTy).Contents (Elt F))
abbrev op_main_v74 : HloOp τ sig (Elt F) := StableHlo.reshape main_v73 main_v74 rfl shapeCasts_S1x300_S300
abbrev op_main_v75 : HloOp τ sig (Elt F) := StableHlo.unary main_arg15 main_v75 ((extractStridedSlice S1x300 ![0, 0] · slices_S5x300_S1x300_0_0) : (⟨S5x300, .f32⟩ : BufTy).Contents (Elt F) → (⟨S1x300, .f32⟩ : BufTy).Contents (Elt F))
abbrev op_main_v76 : HloOp τ sig (Elt F) := StableHlo.reshape main_v75 main_v76 rfl shapeCasts_S1x300_S300
abbrev op_main_cst_8 : HloOp τ sig (Elt F) := StableHlo.nullary main_cst_8 (constant S_ .f32 0x00000000#32)
abbrev op_main_v77 : HloOp τ sig (Elt F) := StableHlo.binary main_v72 main_cst_8 main_v77 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_9 : HloOp τ sig (Elt F) := StableHlo.nullary main_cst_9 (constant S_ .f32 0x469C4000#32)
abbrev op_main_v78 : HloOp τ sig (Elt F) := StableHlo.unary main_cst_9 main_v78 (broadcastInDim S300 ![] bcast_S_S300 : (⟨S_, .f32⟩ : BufTy).Contents (Elt F) → (⟨S300, .f32⟩ : BufTy).Contents (Elt F))
abbrev op_main_v79 : HloOp τ sig (Elt F) := StableHlo.binary main_v77 main_v78 main_v79 (Host.divf : (⟨S300, .f32⟩ : BufTy).Contents (Elt F) → (⟨S300, .f32⟩ : BufTy).Contents (Elt F) → (⟨S300, .f32⟩ : BufTy).Contents (Elt F))
abbrev op_main_c_10 : HloOp τ sig (Elt F) := StableHlo.nullary main_c_10 (constantI S_ 32 0#32)
abbrev op_main_call3_cst : HloOp τ sig (Elt F) := StableHlo.TRef.nullary main_call3.cst (constant S_ .f32 0x00000000#32)
abbrev op_main_call3_v0 : HloOp τ sig (Elt F) := StableHlo.TRef.binary (.of main_v72 : StableHlo.TRef sig ⟨S20000x300, .f32⟩) main_call3.cst main_call3.v0 (fun x v => Host.reduceAdd x v reducesTo_S20000x300_S300_d0 h_S_)
abbrev op_main_call3_v1 : HloOp τ sig (Elt F) := StableHlo.TRef.unary main_call3.v0 main_call3.v1 (broadcastInDim S1x300 ![1] bcast_S300_S1x300_1)
abbrev op_main_call3_cst_0 : HloOp τ sig (Elt F) := StableHlo.TRef.nullary main_call3.cst_0 (constant S_ .f32 0x469C4000#32)
abbrev op_main_call3_v2 : HloOp τ sig (Elt F) := StableHlo.TRef.unary main_call3.cst_0 main_call3.v2 (broadcastInDim S1x300 ![] bcast_S_S1x300)
abbrev op_main_call3_v3 : HloOp τ sig (Elt F) := StableHlo.TRef.binary main_call3.v1 main_call3.v2 main_call3.v3 Host.divf
abbrev op_main_call3_v4 : HloOp τ sig (Elt F) := StableHlo.TRef.unary main_call3.v3 main_call3.v4 (broadcastInDim S20000x300 ![0, 1] bcast_S1x300_S20000x300_0_1)
abbrev op_main_call3_v5 : HloOp τ sig (Elt F) := StableHlo.TRef.binary (.of main_v72 : StableHlo.TRef sig ⟨S20000x300, .f32⟩) main_call3.v4 main_call3.v5 subf
abbrev op_main_call3_v6 : HloOp τ sig (Elt F) := StableHlo.TRef.binary main_call3.v5 main_call3.v5 main_call3.v6 mulf
abbrev op_main_call3_v7 : HloOp τ sig (Elt F) := StableHlo.TRef.unary (.of main_c_10 : StableHlo.TRef sig ⟨S_, .i32⟩) main_call3.v7 (sitofp .f32)
abbrev op_main_call3_cst_1 : HloOp τ sig (Elt F) := StableHlo.TRef.nullary main_call3.cst_1 (constant S_ .f32 0x469C4000#32)
abbrev op_main_call3_v8 : HloOp τ sig (Elt F) := StableHlo.TRef.binary main_call3.cst_1 main_call3.v7 main_call3.v8 subf
abbrev op_main_call3_cst_2 : HloOp τ sig (Elt F) := StableHlo.TRef.nullary main_call3.cst_2 (constant S_ .f32 0x00000000#32)
abbrev op_main_call3_v9 : HloOp τ sig (Elt F) := StableHlo.TRef.binary main_call3.v6 main_call3.cst_2 main_call3.v9 (fun x v => Host.reduceAdd x v reducesTo_S20000x300_S300_d0 h_S_)
abbrev op_main_call3_v10 : HloOp τ sig (Elt F) := StableHlo.TRef.unary main_call3.v8 main_call3.v10 (broadcastInDim S300 ![] bcast_S_S300)
abbrev op_main_call3_v11 : HloOp τ sig (Elt F) := StableHlo.TRef.binary main_call3.v9 main_call3.v10 main_call3.v11 Host.divf
abbrev op_main_call3_cst_3 : HloOp τ sig (Elt F) := StableHlo.TRef.nullary main_call3.cst_3 (constant S_ .f32 0x00000000#32)
abbrev op_main_call3_v12 : HloOp τ sig (Elt F) := StableHlo.TRef.binary main_call3.v8 main_call3.cst_3 main_call3.v12 (cmpf .ogt)
abbrev op_main_call3_cst_4 : HloOp τ sig (Elt F) := StableHlo.TRef.nullary main_call3.cst_4 (constant S_ .f32 0x7FC00000#32)
abbrev op_main_call3_call0_v0 : HloOp τ sig (Elt F) := StableHlo.TRef.unary main_call3.cst_4 main_call3.call0.v0 id
abbrev op_main_call3_call0_v1 : HloOp τ sig (Elt F) := StableHlo.TRef.unary main_call3.call0.v0 main_call3.call0.v1 (broadcastInDim S300 ![] bcast_S_S300)
abbrev op_main_call3_call0_v2 : HloOp τ sig (Elt F) := StableHlo.TRef.ternary main_call3.v12 main_call3.v11 main_call3.call0.v1 main_call3.call0.v2 (fun p a b => select (broadcastInDim S300 ![] bcast_S_S300 p) a b)
abbrev op_main_v81 : HloOp τ sig (Elt F) := StableHlo.unary main_v79 main_v81 (broadcastInDim S1x300 ![1] bcast_S300_S1x300_1 : (⟨S300, .f32⟩ : BufTy).Contents (Elt F) → (⟨S1x300, .f32⟩ : BufTy).Contents (Elt F))
abbrev op_main_v82 : HloOp τ sig (Elt F) := StableHlo.unary main_v81 main_v82 (broadcastInDim S20000x300 ![0, 1] bcast_S1x300_S20000x300_0_1 : (⟨S1x300, .f32⟩ : BufTy).Contents (Elt F) → (⟨S20000x300, .f32⟩ : BufTy).Contents (Elt F))
abbrev op_main_v83 : HloOp τ sig (Elt F) := StableHlo.binary main_v72 main_v82 main_v83 (subf : (⟨S20000x300, .f32⟩ : BufTy).Contents (Elt F) → (⟨S20000x300, .f32⟩ : BufTy).Contents (Elt F) → (⟨S20000x300, .f32⟩ : BufTy).Contents (Elt F))
abbrev op_main_cst_11 : HloOp τ sig (Elt F) := StableHlo.nullary main_cst_11 (constant S_ .f32 0x3727C5AC#32)
abbrev op_main_v84 : HloOp τ sig (Elt F) := StableHlo.unary main_cst_11 main_v84 (broadcastInDim S300 ![] bcast_S_S300 : (⟨S_, .f32⟩ : BufTy).Contents (Elt F) → (⟨S300, .f32⟩ : BufTy).Contents (Elt F))
abbrev op_main_v85 : HloOp τ sig (Elt F) := StableHlo.binary main_v80 main_v84 main_v85 (addf : (⟨S300, .f32⟩ : BufTy).Contents (Elt F) → (⟨S300, .f32⟩ : BufTy).Contents (Elt F) → (⟨S300, .f32⟩ : BufTy).Contents (Elt F))
abbrev op_main_v86 : HloOp τ sig (Elt F) := StableHlo.unary main_v85 main_v86 (Host.rsqrt : (⟨S300, .f32⟩ : BufTy).Contents (Elt F) → (⟨S300, .f32⟩ : BufTy).Contents (Elt F))
abbrev op_main_v87 : HloOp τ sig (Elt F) := StableHlo.unary main_v86 main_v87 (broadcastInDim S1x300 ![1] bcast_S300_S1x300_1 : (⟨S300, .f32⟩ : BufTy).Contents (Elt F) → (⟨S1x300, .f32⟩ : BufTy).Contents (Elt F))
abbrev op_main_v88 : HloOp τ sig (Elt F) := StableHlo.unary main_v87 main_v88 (broadcastInDim S20000x300 ![0, 1] bcast_S1x300_S20000x300_0_1 : (⟨S1x300, .f32⟩ : BufTy).Contents (Elt F) → (⟨S20000x300, .f32⟩ : BufTy).Contents (Elt F))
abbrev op_main_v89 : HloOp τ sig (Elt F) := StableHlo.binary main_v83 main_v88 main_v89 (mulf : (⟨S20000x300, .f32⟩ : BufTy).Contents (Elt F) → (⟨S20000x300, .f32⟩ : BufTy).Contents (Elt F) → (⟨S20000x300, .f32⟩ : BufTy).Contents (Elt F))
abbrev op_main_v90 : HloOp τ sig (Elt F) := StableHlo.unary main_v74 main_v90 (broadcastInDim S1x300 ![1] bcast_S300_S1x300_1 : (⟨S300, .f32⟩ : BufTy).Contents (Elt F) → (⟨S1x300, .f32⟩ : BufTy).Contents (Elt F))
abbrev op_main_v91 : HloOp τ sig (Elt F) := StableHlo.unary main_v90 main_v91 (broadcastInDim S20000x300 ![0, 1] bcast_S1x300_S20000x300_0_1 : (⟨S1x300, .f32⟩ : BufTy).Contents (Elt F) → (⟨S20000x300, .f32⟩ : BufTy).Contents (Elt F))
abbrev op_main_v92 : HloOp τ sig (Elt F) := StableHlo.binary main_v89 main_v91 main_v92 (mulf : (⟨S20000x300, .f32⟩ : BufTy).Contents (Elt F) → (⟨S20000x300, .f32⟩ : BufTy).Contents (Elt F) → (⟨S20000x300, .f32⟩ : BufTy).Contents (Elt F))
abbrev op_main_v93 : HloOp τ sig (Elt F) := StableHlo.unary main_v76 main_v93 (broadcastInDim S1x300 ![1] bcast_S300_S1x300_1 : (⟨S300, .f32⟩ : BufTy).Contents (Elt F) → (⟨S1x300, .f32⟩ : BufTy).Contents (Elt F))
abbrev op_main_v94 : HloOp τ sig (Elt F) := StableHlo.unary main_v93 main_v94 (broadcastInDim S20000x300 ![0, 1] bcast_S1x300_S20000x300_0_1 : (⟨S1x300, .f32⟩ : BufTy).Contents (Elt F) → (⟨S20000x300, .f32⟩ : BufTy).Contents (Elt F))
abbrev op_main_v95 : HloOp τ sig (Elt F) := StableHlo.binary main_v92 main_v94 main_v95 (addf : (⟨S20000x300, .f32⟩ : BufTy).Contents (Elt F) → (⟨S20000x300, .f32⟩ : BufTy).Contents (Elt F) → (⟨S20000x300, .f32⟩ : BufTy).Contents (Elt F))
abbrev op_main_call4_cst : HloOp τ sig (Elt F) := StableHlo.TRef.nullary main_call4.cst (constant S_ .f32 0x00000000#32)
abbrev op_main_call4_v0 : HloOp τ sig (Elt F) := StableHlo.TRef.unary main_call4.cst main_call4.v0 (broadcastInDim S20000x300 ![] bcast_S_S20000x300)
abbrev op_main_call4_v1 : HloOp τ sig (Elt F) := StableHlo.TRef.binary (.of main_v95 : StableHlo.TRef sig ⟨S20000x300, .f32⟩) main_call4.v0 main_call4.v1 maximumf

/-- Segment 2: 76 operations of window 1, stage opsLayer0. -/
def seg2 : List (HloOp τ sig (Elt F)) :=
  [op_main_v51, op_main_cst_7, op_main_v52, op_main_v53, op_main_v54, op_main_v55, op_main_v56, op_main_v57, op_main_v58, op_main_v59, op_main_v60, op_main_v61, op_main_v62, op_main_v63, op_main_call2_cst, op_main_call2_v0, op_main_call2_v1, op_main_v65, op_main_v66, op_main_v67, op_main_v68, op_main_v69, op_main_v70, op_main_v71, op_main_v72, op_main_v73, op_main_v74, op_main_v75, op_main_v76, op_main_cst_8, op_main_v77, op_main_cst_9, op_main_v78, op_main_v79, op_main_c_10, op_main_call3_cst, op_main_call3_v0, op_main_call3_v1, op_main_call3_cst_0, op_main_call3_v2, op_main_call3_v3, op_main_call3_v4, op_main_call3_v5, op_main_call3_v6, op_main_call3_v7, op_main_call3_cst_1, op_main_call3_v8, op_main_call3_cst_2, op_main_call3_v9, op_main_call3_v10, op_main_call3_v11, op_main_call3_cst_3, op_main_call3_v12, op_main_call3_cst_4, op_main_call3_call0_v0, op_main_call3_call0_v1, op_main_call3_call0_v2, op_main_v81, op_main_v82, op_main_v83, op_main_cst_11, op_main_v84, op_main_v85, op_main_v86, op_main_v87, op_main_v88, op_main_v89, op_main_v90, op_main_v91, op_main_v92, op_main_v93, op_main_v94, op_main_v95, op_main_call4_cst, op_main_call4_v0, op_main_call4_v1]

/-- The references segment 2 writes, in order. -/
def wr2 : List (Ref sig .tc) :=
  [main_v51, main_cst_7, main_v52, main_v53, main_v54, main_v55, main_v56, main_v57, main_v58, main_v59, main_v60, main_v61, main_v62, main_v63, main_call2.cst.ref, main_call2.v0.ref, main_call2.v1.ref, main_v65, main_v66, main_v67, main_v68, main_v69, main_v70, main_v71, main_v72, main_v73, main_v74, main_v75, main_v76, main_cst_8, main_v77, main_cst_9, main_v78, main_v79, main_c_10, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v81, main_v82, main_v83, main_cst_11, main_v84, main_v85, main_v86, main_v87, main_v88, main_v89, main_v90, main_v91, main_v92, main_v93, main_v94, main_v95, main_call4.cst.ref, main_call4.v0.ref, main_call4.v1.ref]

/-- The operations of stage opsLayer0, and the references they write. -/
def opsLayer0 : List (HloOp τ sig (Elt F)) := seg1 ++ seg2
def wrLayer0 : List (Ref sig .tc) := wr1 ++ wr2

end Cert.ReferenceIdeal.RRun

end
-- ==== Proof.RefOpsL1.lean ====
/- One stage (`opsLayer1`) of the reference program's @main as a LIST of its host operations, in order, each call of a module-local
   function replaced by the callee's operations over that call's buffer record (a nested call likewise). Each operation is named
   after the reference it writes (`op_‹reference›`); the stage is cut where a printed window of @main ends into segments `segK`,
   beside each the list `wrK` of the references its operations write, in order. A table (142 of the program's 754 operations);
   the statements about it are in RefRun.lean. -/
import proofs.«119086_j26585847562989_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev op_main_c_12 : HloOp τ sig (Elt F) := StableHlo.nullary main_c_12 (constantI S_ 32 0#32)
abbrev op_main_v97 : HloOp τ sig (Elt F) := StableHlo.unary main_c_12 main_v97 (broadcastInDim S320000 ![] bcast_S_S320000 : (⟨S_, .i32⟩ : BufTy).Contents (Elt F) → (⟨S320000, .i32⟩ : BufTy).Contents (Elt F))
abbrev op_main_v98 : HloOp τ sig (Elt F) := StableHlo.binary main_v1 main_v97 main_v98 (cmpi .slt : (⟨S320000, .i32⟩ : BufTy).Contents (Elt F) → (⟨S320000, .i32⟩ : BufTy).Contents (Elt F) → (⟨S320000, .i1⟩ : BufTy).Contents (Elt F))
abbrev op_main_c_13 : HloOp τ sig (Elt F) := StableHlo.nullary main_c_13 (constantI S_ 32 20000#32)
abbrev op_main_v99 : HloOp τ sig (Elt F) := StableHlo.unary main_c_13 main_v99 (broadcastInDim S320000 ![] bcast_S_S320000 : (⟨S_, .i32⟩ : BufTy).Contents (Elt F) → (⟨S320000, .i32⟩ : BufTy).Contents (Elt F))
abbrev op_main_v100 : HloOp τ sig (Elt F) := StableHlo.binary main_v1 main_v99 main_v100 (addi : (⟨S320000, .i32⟩ : BufTy).Contents (Elt F) → (⟨S320000, .i32⟩ : BufTy).Contents (Elt F) → (⟨S320000, .i32⟩ : BufTy).Contents (Elt F))
abbrev op_main_v101 : HloOp τ sig (Elt F) := StableHlo.ternary main_v98 main_v100 main_v1 main_v101 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
abbrev op_main_v102 : HloOp τ sig (Elt F) := StableHlo.unary main_v101 main_v102 (broadcastInDim S320000x1 ![0] bcast_S320000_S320000x1_0 : (⟨S320000, .i32⟩ : BufTy).Contents (Elt F) → (⟨S320000x1, .i32⟩ : BufTy).Contents (Elt F))
abbrev op_main_v103 : HloOp τ sig (Elt F) := StableHlo.binary main_v96 main_v102 main_v103 ((fun x i => Host.gather gather_S20000x300_S320000x1_S320000x300_1_0_n_n_0_1_1300 x i) : (⟨S20000x300, .f32⟩ : BufTy).Contents (Elt F) → (⟨S320000x1, .i32⟩ : BufTy).Contents (Elt F) → (⟨S320000x300, .f32⟩ : BufTy).Contents (Elt F))

/-- Segment 3: 9 operations of window 1, stage opsLayer1. -/
def seg3 : List (HloOp τ sig (Elt F)) :=
  [op_main_c_12, op_main_v97, op_main_v98, op_main_c_13, op_main_v99, op_main_v100, op_main_v101, op_main_v102, op_main_v103]

/-- The references segment 3 writes, in order. -/
def wr3 : List (Ref sig .tc) :=
  [main_c_12, main_v97, main_v98, main_c_13, main_v99, main_v100, main_v101, main_v102, main_v103]

abbrev op_main_v104 : HloOp τ sig (Elt F) := StableHlo.binary main_v103 main_v14 main_v104 (addf : (⟨S320000x300, .f32⟩ : BufTy).Contents (Elt F) → (⟨S320000x300, .f32⟩ : BufTy).Contents (Elt F) → (⟨S320000x300, .f32⟩ : BufTy).Contents (Elt F))
abbrev op_main_call5_cst : HloOp τ sig (Elt F) := StableHlo.TRef.nullary main_call5.cst (constant S_ .f32 0x00000000#32)
abbrev op_main_call5_v0 : HloOp τ sig (Elt F) := StableHlo.TRef.unary main_call5.cst main_call5.v0 (broadcastInDim S320000x300 ![] bcast_S_S320000x300)
abbrev op_main_call5_v1 : HloOp τ sig (Elt F) := StableHlo.TRef.binary (.of main_v104 : StableHlo.TRef sig ⟨S320000x300, .f32⟩) main_call5.v0 main_call5.v1 maximumf
abbrev op_main_cst_14 : HloOp τ sig (Elt F) := StableHlo.nullary main_cst_14 (constant S_ .f32 0x00000000#32)
abbrev op_main_v106 : HloOp τ sig (Elt F) := StableHlo.unary main_cst_14 main_v106 (broadcastInDim S20000x300 ![] bcast_S_S20000x300 : (⟨S_, .f32⟩ : BufTy).Contents (Elt F) → (⟨S20000x300, .f32⟩ : BufTy).Contents (Elt F))
abbrev op_main_v107 : HloOp τ sig (Elt F) := StableHlo.unary main_v3 main_v107 (broadcastInDim S320000x1 ![0] bcast_S320000_S320000x1_0 : (⟨S320000, .i32⟩ : BufTy).Contents (Elt F) → (⟨S320000x1, .i32⟩ : BufTy).Contents (Elt F))
abbrev op_main_v108 : HloOp τ sig (Elt F) := StableHlo.ternary main_v106 main_v107 main_v105 main_v108 ((fun x i u => Host.scatterAdd scatter_S20000x300_S320000x1_S320000x300_1_0_0_1 x i u) : (⟨S20000x300, .f32⟩ : BufTy).Contents (Elt F) → (⟨S320000x1, .i32⟩ : BufTy).Contents (Elt F) → (⟨S320000x300, .f32⟩ : BufTy).Contents (Elt F) → (⟨S20000x300, .f32⟩ : BufTy).Contents (Elt F))
abbrev op_main_v109 : HloOp τ sig (Elt F) := StableHlo.unary main_arg7 main_v109 ((extractStridedSlice S1 ![1] · slices_S5_S1_1) : (⟨S5, .f32⟩ : BufTy).Contents (Elt F) → (⟨S1, .f32⟩ : BufTy).Contents (Elt F))
abbrev op_main_v110 : HloOp τ sig (Elt F) := StableHlo.reshape main_v109 main_v110 rfl shapeCasts_S1_S_
abbrev op_main_cst_15 : HloOp τ sig (Elt F) := StableHlo.nullary main_cst_15 (constant S_ .f32 0x3F800000#32)
abbrev op_main_v111 : HloOp τ sig (Elt F) := StableHlo.binary main_cst_15 main_v110 main_v111 (addf : (⟨S_, .f32⟩ : BufTy).Contents (Elt F) → (⟨S_, .f32⟩ : BufTy).Contents (Elt F) → (⟨S_, .f32⟩ : BufTy).Contents (Elt F))
abbrev op_main_v112 : HloOp τ sig (Elt F) := StableHlo.unary main_v111 main_v112 (broadcastInDim S20000x300 ![] bcast_S_S20000x300 : (⟨S_, .f32⟩ : BufTy).Contents (Elt F) → (⟨S20000x300, .f32⟩ : BufTy).Contents (Elt F))
abbrev op_main_v113 : HloOp τ sig (Elt F) := StableHlo.binary main_v112 main_v96 main_v113 (mulf : (⟨S20000x300, .f32⟩ : BufTy).Contents (Elt F) → (⟨S20000x300, .f32⟩ : BufTy).Contents (Elt F) → (⟨S20000x300, .f32⟩ : BufTy).Contents (Elt F))
abbrev op_main_v114 : HloOp τ sig (Elt F) := StableHlo.binary main_v113 main_v108 main_v114 (addf : (⟨S20000x300, .f32⟩ : BufTy).Contents (Elt F) → (⟨S20000x300, .f32⟩ : BufTy).Contents (Elt F) → (⟨S20000x300, .f32⟩ : BufTy).Contents (Elt F))
abbrev op_main_v115 : HloOp τ sig (Elt F) := StableHlo.unary main_arg8 main_v115 ((extractStridedSlice S1x300x300 ![1, 0, 0] · slices_S5x300x300_S1x300x300_1_0_0) : (⟨S5x300x300, .f32⟩ : BufTy).Contents (Elt F) → (⟨S1x300x300, .f32⟩ : BufTy).Contents (Elt F))
abbrev op_main_v116 : HloOp τ sig (Elt F) := StableHlo.reshape main_v115 main_v116 rfl shapeCasts_S1x300x300_S300x300
abbrev op_main_v117 : HloOp τ sig (Elt F) := StableHlo.binary main_v114 main_v116 main_v117 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v118 : HloOp τ sig (Elt F) := StableHlo.unary main_arg9 main_v118 ((extractStridedSlice S1x300 ![1, 0] · slices_S5x300_S1x300_1_0) : (⟨S5x300, .f32⟩ : BufTy).Contents (Elt F) → (⟨S1x300, .f32⟩ : BufTy).Contents (Elt F))
abbrev op_main_v119 : HloOp τ sig (Elt F) := StableHlo.reshape main_v118 main_v119 rfl shapeCasts_S1x300_S300
abbrev op_main_v120 : HloOp τ sig (Elt F) := StableHlo.unary main_v119 main_v120 (broadcastInDim S1x300 ![1] bcast_S300_S1x300_1 : (⟨S300, .f32⟩ : BufTy).Contents (Elt F) → (⟨S1x300, .f32⟩ : BufTy).Contents (Elt F))
abbrev op_main_v121 : HloOp τ sig (Elt F) := StableHlo.unary main_v120 main_v121 (broadcastInDim S20000x300 ![0, 1] bcast_S1x300_S20000x300_0_1 : (⟨S1x300, .f32⟩ : BufTy).Contents (Elt F) → (⟨S20000x300, .f32⟩ : BufTy).Contents (Elt F))
abbrev op_main_v122 : HloOp τ sig (Elt F) := StableHlo.binary main_v117 main_v121 main_v122 (addf : (⟨S20000x300, .f32⟩ : BufTy).Contents (Elt F) → (⟨S20000x300, .f32⟩ : BufTy).Contents (Elt F) → (⟨S20000x300, .f32⟩ : BufTy).Contents (Elt F))
abbrev op_main_v123 : HloOp τ sig (Elt F) := StableHlo.unary main_arg10 main_v123 ((extractStridedSlice S1x300 ![1, 0] · slices_S5x300_S1x300_1_0) : (⟨S5x300, .f32⟩ : BufTy).Contents (Elt F) → (⟨S1x300, .f32⟩ : BufTy).Contents (Elt F))
abbrev op_main_v124 : HloOp τ sig (Elt F) := StableHlo.reshape main_v123 main_v124 rfl shapeCasts_S1x300_S300
abbrev op_main_v125 : HloOp τ sig (Elt F) := StableHlo.unary main_arg11 main_v125 ((extractStridedSlice S1x300 ![1, 0] · slices_S5x300_S1x300_1_0) : (⟨S5x300, .f32⟩ : BufTy).Contents (Elt F) → (⟨S1x300, .f32⟩ : BufTy).Contents (Elt F))
abbrev op_main_v126 : HloOp τ sig (Elt F) := StableHlo.reshape main_v125 main_v126 rfl shapeCasts_S1x300_S300
abbrev op_main_cst_16 : HloOp τ sig (Elt F) := StableHlo.nullary main_cst_16 (constant S_ .f32 0x00000000#32)
abbrev op_main_v127 : HloOp τ sig (Elt F) := StableHlo.binary main_v122 main_cst_16 main_v127 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_17 : HloOp τ sig (Elt F) := StableHlo.nullary main_cst_17 (constant S_ .f32 0x469C4000#32)
abbrev op_main_v128 : HloOp τ sig (Elt F) := StableHlo.unary main_cst_17 main_v128 (broadcastInDim S300 ![] bcast_S_S300 : (⟨S_, .f32⟩ : BufTy).Contents (Elt F) → (⟨S300, .f32⟩ : BufTy).Contents (Elt F))
abbrev op_main_v129 : HloOp τ sig (Elt F) := StableHlo.binary main_v127 main_v128 main_v129 (Host.divf : (⟨S300, .f32⟩ : BufTy).Contents (Elt F) → (⟨S300, .f32⟩ : BufTy).Contents (Elt F) → (⟨S300, .f32⟩ : BufTy).Contents (Elt F))
abbrev op_main_c_18 : HloOp τ sig (Elt F) := StableHlo.nullary main_c_18 (constantI S_ 32 0#32)
abbrev op_main_call6_cst : HloOp τ sig (Elt F) := StableHlo.TRef.nullary main_call6.cst (constant S_ .f32 0x00000000#32)
abbrev op_main_call6_v0 : HloOp τ sig (Elt F) := StableHlo.TRef.binary (.of main_v122 : StableHlo.TRef sig ⟨S20000x300, .f32⟩) main_call6.cst main_call6.v0 (fun x v => Host.reduceAdd x v reducesTo_S20000x300_S300_d0 h_S_)
abbrev op_main_call6_v1 : HloOp τ sig (Elt F) := StableHlo.TRef.unary main_call6.v0 main_call6.v1 (broadcastInDim S1x300 ![1] bcast_S300_S1x300_1)
abbrev op_main_call6_cst_0 : HloOp τ sig (Elt F) := StableHlo.TRef.nullary main_call6.cst_0 (constant S_ .f32 0x469C4000#32)
abbrev op_main_call6_v2 : HloOp τ sig (Elt F) := StableHlo.TRef.unary main_call6.cst_0 main_call6.v2 (broadcastInDim S1x300 ![] bcast_S_S1x300)
abbrev op_main_call6_v3 : HloOp τ sig (Elt F) := StableHlo.TRef.binary main_call6.v1 main_call6.v2 main_call6.v3 Host.divf
abbrev op_main_call6_v4 : HloOp τ sig (Elt F) := StableHlo.TRef.unary main_call6.v3 main_call6.v4 (broadcastInDim S20000x300 ![0, 1] bcast_S1x300_S20000x300_0_1)
abbrev op_main_call6_v5 : HloOp τ sig (Elt F) := StableHlo.TRef.binary (.of main_v122 : StableHlo.TRef sig ⟨S20000x300, .f32⟩) main_call6.v4 main_call6.v5 subf
abbrev op_main_call6_v6 : HloOp τ sig (Elt F) := StableHlo.TRef.binary main_call6.v5 main_call6.v5 main_call6.v6 mulf
abbrev op_main_call6_v7 : HloOp τ sig (Elt F) := StableHlo.TRef.unary (.of main_c_18 : StableHlo.TRef sig ⟨S_, .i32⟩) main_call6.v7 (sitofp .f32)
abbrev op_main_call6_cst_1 : HloOp τ sig (Elt F) := StableHlo.TRef.nullary main_call6.cst_1 (constant S_ .f32 0x469C4000#32)
abbrev op_main_call6_v8 : HloOp τ sig (Elt F) := StableHlo.TRef.binary main_call6.cst_1 main_call6.v7 main_call6.v8 subf
abbrev op_main_call6_cst_2 : HloOp τ sig (Elt F) := StableHlo.TRef.nullary main_call6.cst_2 (constant S_ .f32 0x00000000#32)
abbrev op_main_call6_v9 : HloOp τ sig (Elt F) := StableHlo.TRef.binary main_call6.v6 main_call6.cst_2 main_call6.v9 (fun x v => Host.reduceAdd x v reducesTo_S20000x300_S300_d0 h_S_)
abbrev op_main_call6_v10 : HloOp τ sig (Elt F) := StableHlo.TRef.unary main_call6.v8 main_call6.v10 (broadcastInDim S300 ![] bcast_S_S300)
abbrev op_main_call6_v11 : HloOp τ sig (Elt F) := StableHlo.TRef.binary main_call6.v9 main_call6.v10 main_call6.v11 Host.divf
abbrev op_main_call6_cst_3 : HloOp τ sig (Elt F) := StableHlo.TRef.nullary main_call6.cst_3 (constant S_ .f32 0x00000000#32)
abbrev op_main_call6_v12 : HloOp τ sig (Elt F) := StableHlo.TRef.binary main_call6.v8 main_call6.cst_3 main_call6.v12 (cmpf .ogt)
abbrev op_main_call6_cst_4 : HloOp τ sig (Elt F) := StableHlo.TRef.nullary main_call6.cst_4 (constant S_ .f32 0x7FC00000#32)
abbrev op_main_call6_call0_v0 : HloOp τ sig (Elt F) := StableHlo.TRef.unary main_call6.cst_4 main_call6.call0.v0 id
abbrev op_main_call6_call0_v1 : HloOp τ sig (Elt F) := StableHlo.TRef.unary main_call6.call0.v0 main_call6.call0.v1 (broadcastInDim S300 ![] bcast_S_S300)
abbrev op_main_call6_call0_v2 : HloOp τ sig (Elt F) := StableHlo.TRef.ternary main_call6.v12 main_call6.v11 main_call6.call0.v1 main_call6.call0.v2 (fun p a b => select (broadcastInDim S300 ![] bcast_S_S300 p) a b)
abbrev op_main_v131 : HloOp τ sig (Elt F) := StableHlo.unary main_v129 main_v131 (broadcastInDim S1x300 ![1] bcast_S300_S1x300_1 : (⟨S300, .f32⟩ : BufTy).Contents (Elt F) → (⟨S1x300, .f32⟩ : BufTy).Contents (Elt F))
abbrev op_main_v132 : HloOp τ sig (Elt F) := StableHlo.unary main_v131 main_v132 (broadcastInDim S20000x300 ![0, 1] bcast_S1x300_S20000x300_0_1 : (⟨S1x300, .f32⟩ : BufTy).Contents (Elt F) → (⟨S20000x300, .f32⟩ : BufTy).Contents (Elt F))
abbrev op_main_v133 : HloOp τ sig (Elt F) := StableHlo.binary main_v122 main_v132 main_v133 (subf : (⟨S20000x300, .f32⟩ : BufTy).Contents (Elt F) → (⟨S20000x300, .f32⟩ : BufTy).Contents (Elt F) → (⟨S20000x300, .f32⟩ : BufTy).Contents (Elt F))
abbrev op_main_cst_19 : HloOp τ sig (Elt F) := StableHlo.nullary main_cst_19 (constant S_ .f32 0x3727C5AC#32)
abbrev op_main_v134 : HloOp τ sig (Elt F) := StableHlo.unary main_cst_19 main_v134 (broadcastInDim S300 ![] bcast_S_S300 : (⟨S_, .f32⟩ : BufTy).Contents (Elt F) → (⟨S300, .f32⟩ : BufTy).Contents (Elt F))
abbrev op_main_v135 : HloOp τ sig (Elt F) := StableHlo.binary main_v130 main_v134 main_v135 (addf : (⟨S300, .f32⟩ : BufTy).Contents (Elt F) → (⟨S300, .f32⟩ : BufTy).Contents (Elt F) → (⟨S300, .f32⟩ : BufTy).Contents (Elt F))
abbrev op_main_v136 : HloOp τ sig (Elt F) := StableHlo.unary main_v135 main_v136 (Host.rsqrt : (⟨S300, .f32⟩ : BufTy).Contents (Elt F) → (⟨S300, .f32⟩ : BufTy).Contents (Elt F))
abbrev op_main_v137 : HloOp τ sig (Elt F) := StableHlo.unary main_v136 main_v137 (broadcastInDim S1x300 ![1] bcast_S300_S1x300_1 : (⟨S300, .f32⟩ : BufTy).Contents (Elt F) → (⟨S1x300, .f32⟩ : BufTy).Contents (Elt F))
abbrev op_main_v138 : HloOp τ sig (Elt F) := StableHlo.unary main_v137 main_v138 (broadcastInDim S20000x300 ![0, 1] bcast_S1x300_S20000x300_0_1 : (⟨S1x300, .f32⟩ : BufTy).Contents (Elt F) → (⟨S20000x300, .f32⟩ : BufTy).Contents (Elt F))
abbrev op_main_v139 : HloOp τ sig (Elt F) := StableHlo.binary main_v133 main_v138 main_v139 (mulf : (⟨S20000x300, .f32⟩ : BufTy).Contents (Elt F) → (⟨S20000x300, .f32⟩ : BufTy).Contents (Elt F) → (⟨S20000x300, .f32⟩ : BufTy).Contents (Elt F))
abbrev op_main_v140 : HloOp τ sig (Elt F) := StableHlo.unary main_v124 main_v140 (broadcastInDim S1x300 ![1] bcast_S300_S1x300_1 : (⟨S300, .f32⟩ : BufTy).Contents (Elt F) → (⟨S1x300, .f32⟩ : BufTy).Contents (Elt F))
abbrev op_main_v141 : HloOp τ sig (Elt F) := StableHlo.unary main_v140 main_v141 (broadcastInDim S20000x300 ![0, 1] bcast_S1x300_S20000x300_0_1 : (⟨S1x300, .f32⟩ : BufTy).Contents (Elt F) → (⟨S20000x300, .f32⟩ : BufTy).Contents (Elt F))
abbrev op_main_v142 : HloOp τ sig (Elt F) := StableHlo.binary main_v139 main_v141 main_v142 (mulf : (⟨S20000x300, .f32⟩ : BufTy).Contents (Elt F) → (⟨S20000x300, .f32⟩ : BufTy).Contents (Elt F) → (⟨S20000x300, .f32⟩ : BufTy).Contents (Elt F))
abbrev op_main_v143 : HloOp τ sig (Elt F) := StableHlo.unary main_v126 main_v143 (broadcastInDim S1x300 ![1] bcast_S300_S1x300_1 : (⟨S300, .f32⟩ : BufTy).Contents (Elt F) → (⟨S1x300, .f32⟩ : BufTy).Contents (Elt F))
abbrev op_main_v144 : HloOp τ sig (Elt F) := StableHlo.unary main_v143 main_v144 (broadcastInDim S20000x300 ![0, 1] bcast_S1x300_S20000x300_0_1 : (⟨S1x300, .f32⟩ : BufTy).Contents (Elt F) → (⟨S20000x300, .f32⟩ : BufTy).Contents (Elt F))
abbrev op_main_v145 : HloOp τ sig (Elt F) := StableHlo.binary main_v142 main_v144 main_v145 (addf : (⟨S20000x300, .f32⟩ : BufTy).Contents (Elt F) → (⟨S20000x300, .f32⟩ : BufTy).Contents (Elt F) → (⟨S20000x300, .f32⟩ : BufTy).Contents (Elt F))
abbrev op_main_call7_cst : HloOp τ sig (Elt F) := StableHlo.TRef.nullary main_call7.cst (constant S_ .f32 0x00000000#32)
abbrev op_main_call7_v0 : HloOp τ sig (Elt F) := StableHlo.TRef.unary main_call7.cst main_call7.v0 (broadcastInDim S20000x300 ![] bcast_S_S20000x300)
abbrev op_main_call7_v1 : HloOp τ sig (Elt F) := StableHlo.TRef.binary (.of main_v145 : StableHlo.TRef sig ⟨S20000x300, .f32⟩) main_call7.v0 main_call7.v1 maximumf
abbrev op_main_v147 : HloOp τ sig (Elt F) := StableHlo.unary main_arg12 main_v147 ((extractStridedSlice S1x300x300 ![1, 0, 0] · slices_S5x300x300_S1x300x300_1_0_0) : (⟨S5x300x300, .f32⟩ : BufTy).Contents (Elt F) → (⟨S1x300x300, .f32⟩ : BufTy).Contents (Elt F))
abbrev op_main_v148 : HloOp τ sig (Elt F) := StableHlo.reshape main_v147 main_v148 rfl shapeCasts_S1x300x300_S300x300
abbrev op_main_v149 : HloOp τ sig (Elt F) := StableHlo.binary main_v146 main_v148 main_v149 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v150 : HloOp τ sig (Elt F) := StableHlo.unary main_arg13 main_v150 ((extractStridedSlice S1x300 ![1, 0] · slices_S5x300_S1x300_1_0) : (⟨S5x300, .f32⟩ : BufTy).Contents (Elt F) → (⟨S1x300, .f32⟩ : BufTy).Contents (Elt F))
abbrev op_main_v151 : HloOp τ sig (Elt F) := StableHlo.reshape main_v150 main_v151 rfl shapeCasts_S1x300_S300
abbrev op_main_v152 : HloOp τ sig (Elt F) := StableHlo.unary main_v151 main_v152 (broadcastInDim S1x300 ![1] bcast_S300_S1x300_1 : (⟨S300, .f32⟩ : BufTy).Contents (Elt F) → (⟨S1x300, .f32⟩ : BufTy).Contents (Elt F))
abbrev op_main_v153 : HloOp τ sig (Elt F) := StableHlo.unary main_v152 main_v153 (broadcastInDim S20000x300 ![0, 1] bcast_S1x300_S20000x300_0_1 : (⟨S1x300, .f32⟩ : BufTy).Contents (Elt F) → (⟨S20000x300, .f32⟩ : BufTy).Contents (Elt F))
abbrev op_main_v154 : HloOp τ sig (Elt F) := StableHlo.binary main_v149 main_v153 main_v154 (addf : (⟨S20000x300, .f32⟩ : BufTy).Contents (Elt F) → (⟨S20000x300, .f32⟩ : BufTy).Contents (Elt F) → (⟨S20000x300, .f32⟩ : BufTy).Contents (Elt F))
abbrev op_main_v155 : HloOp τ sig (Elt F) := StableHlo.unary main_arg14 main_v155 ((extractStridedSlice S1x300 ![1, 0] · slices_S5x300_S1x300_1_0) : (⟨S5x300, .f32⟩ : BufTy).Contents (Elt F) → (⟨S1x300, .f32⟩ : BufTy).Contents (Elt F))
abbrev op_main_v156 : HloOp τ sig (Elt F) := StableHlo.reshape main_v155 main_v156 rfl shapeCasts_S1x300_S300
abbrev op_main_v157 : HloOp τ sig (Elt F) := StableHlo.unary main_arg15 main_v157 ((extractStridedSlice S1x300 ![1, 0] · slices_S5x300_S1x300_1_0) : (⟨S5x300, .f32⟩ : BufTy).Contents (Elt F) → (⟨S1x300, .f32⟩ : BufTy).Contents (Elt F))

/-- Segment 4: 85 operations of window 2, stage opsLayer1. -/
def seg4 : List (HloOp τ sig (Elt F)) :=
  [op_main_v104, op_main_call5_cst, op_main_call5_v0, op_main_call5_v1, op_main_cst_14, op_main_v106, op_main_v107, op_main_v108, op_main_v109, op_main_v110, op_main_cst_15, op_main_v111, op_main_v112, op_main_v113, op_main_v114, op_main_v115, op_main_v116, op_main_v117, op_main_v118, op_main_v119, op_main_v120, op_main_v121, op_main_v122, op_main_v123, op_main_v124, op_main_v125, op_main_v126, op_main_cst_16, op_main_v127, op_main_cst_17, op_main_v128, op_main_v129, op_main_c_18, op_main_call6_cst, op_main_call6_v0, op_main_call6_v1, op_main_call6_cst_0, op_main_call6_v2, op_main_call6_v3, op_main_call6_v4, op_main_call6_v5, op_main_call6_v6, op_main_call6_v7, op_main_call6_cst_1, op_main_call6_v8, op_main_call6_cst_2, op_main_call6_v9, op_main_call6_v10, op_main_call6_v11, op_main_call6_cst_3, op_main_call6_v12, op_main_call6_cst_4, op_main_call6_call0_v0, op_main_call6_call0_v1, op_main_call6_call0_v2, op_main_v131, op_main_v132, op_main_v133, op_main_cst_19, op_main_v134, op_main_v135, op_main_v136, op_main_v137, op_main_v138, op_main_v139, op_main_v140, op_main_v141, op_main_v142, op_main_v143, op_main_v144, op_main_v145, op_main_call7_cst, op_main_call7_v0, op_main_call7_v1, op_main_v147, op_main_v148, op_main_v149, op_main_v150, op_main_v151, op_main_v152, op_main_v153, op_main_v154, op_main_v155, op_main_v156, op_main_v157]

/-- The references segment 4 writes, in order. -/
def wr4 : List (Ref sig .tc) :=
  [main_v104, main_call5.cst.ref, main_call5.v0.ref, main_call5.v1.ref, main_cst_14, main_v106, main_v107, main_v108, main_v109, main_v110, main_cst_15, main_v111, main_v112, main_v113, main_v114, main_v115, main_v116, main_v117, main_v118, main_v119, main_v120, main_v121, main_v122, main_v123, main_v124, main_v125, main_v126, main_cst_16, main_v127, main_cst_17, main_v128, main_v129, main_c_18, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v131, main_v132, main_v133, main_cst_19, main_v134, main_v135, main_v136, main_v137, main_v138, main_v139, main_v140, main_v141, main_v142, main_v143, main_v144, main_v145, main_call7.cst.ref, main_call7.v0.ref, main_call7.v1.ref, main_v147, main_v148, main_v149, main_v150, main_v151, main_v152, main_v153, main_v154, main_v155, main_v156, main_v157]

abbrev op_main_v158 : HloOp τ sig (Elt F) := StableHlo.reshape main_v157 main_v158 rfl shapeCasts_S1x300_S300
abbrev op_main_cst_20 : HloOp τ sig (Elt F) := StableHlo.nullary main_cst_20 (constant S_ .f32 0x00000000#32)
abbrev op_main_v159 : HloOp τ sig (Elt F) := StableHlo.binary main_v154 main_cst_20 main_v159 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_21 : HloOp τ sig (Elt F) := StableHlo.nullary main_cst_21 (constant S_ .f32 0x469C4000#32)
abbrev op_main_v160 : HloOp τ sig (Elt F) := StableHlo.unary main_cst_21 main_v160 (broadcastInDim S300 ![] bcast_S_S300 : (⟨S_, .f32⟩ : BufTy).Contents (Elt F) → (⟨S300, .f32⟩ : BufTy).Contents (Elt F))
abbrev op_main_v161 : HloOp τ sig (Elt F) := StableHlo.binary main_v159 main_v160 main_v161 (Host.divf : (⟨S300, .f32⟩ : BufTy).Contents (Elt F) → (⟨S300, .f32⟩ : BufTy).Contents (Elt F) → (⟨S300, .f32⟩ : BufTy).Contents (Elt F))
abbrev op_main_c_22 : HloOp τ sig (Elt F) := StableHlo.nullary main_c_22 (constantI S_ 32 0#32)
abbrev op_main_call8_cst : HloOp τ sig (Elt F) := StableHlo.TRef.nullary main_call8.cst (constant S_ .f32 0x00000000#32)
abbrev op_main_call8_v0 : HloOp τ sig (Elt F) := StableHlo.TRef.binary (.of main_v154 : StableHlo.TRef sig ⟨S20000x300, .f32⟩) main_call8.cst main_call8.v0 (fun x v => Host.reduceAdd x v reducesTo_S20000x300_S300_d0 h_S_)
abbrev op_main_call8_v1 : HloOp τ sig (Elt F) := StableHlo.TRef.unary main_call8.v0 main_call8.v1 (broadcastInDim S1x300 ![1] bcast_S300_S1x300_1)
abbrev op_main_call8_cst_0 : HloOp τ sig (Elt F) := StableHlo.TRef.nullary main_call8.cst_0 (constant S_ .f32 0x469C4000#32)
abbrev op_main_call8_v2 : HloOp τ sig (Elt F) := StableHlo.TRef.unary main_call8.cst_0 main_call8.v2 (broadcastInDim S1x300 ![] bcast_S_S1x300)
abbrev op_main_call8_v3 : HloOp τ sig (Elt F) := StableHlo.TRef.binary main_call8.v1 main_call8.v2 main_call8.v3 Host.divf
abbrev op_main_call8_v4 : HloOp τ sig (Elt F) := StableHlo.TRef.unary main_call8.v3 main_call8.v4 (broadcastInDim S20000x300 ![0, 1] bcast_S1x300_S20000x300_0_1)
abbrev op_main_call8_v5 : HloOp τ sig (Elt F) := StableHlo.TRef.binary (.of main_v154 : StableHlo.TRef sig ⟨S20000x300, .f32⟩) main_call8.v4 main_call8.v5 subf
abbrev op_main_call8_v6 : HloOp τ sig (Elt F) := StableHlo.TRef.binary main_call8.v5 main_call8.v5 main_call8.v6 mulf
abbrev op_main_call8_v7 : HloOp τ sig (Elt F) := StableHlo.TRef.unary (.of main_c_22 : StableHlo.TRef sig ⟨S_, .i32⟩) main_call8.v7 (sitofp .f32)
abbrev op_main_call8_cst_1 : HloOp τ sig (Elt F) := StableHlo.TRef.nullary main_call8.cst_1 (constant S_ .f32 0x469C4000#32)
abbrev op_main_call8_v8 : HloOp τ sig (Elt F) := StableHlo.TRef.binary main_call8.cst_1 main_call8.v7 main_call8.v8 subf
abbrev op_main_call8_cst_2 : HloOp τ sig (Elt F) := StableHlo.TRef.nullary main_call8.cst_2 (constant S_ .f32 0x00000000#32)
abbrev op_main_call8_v9 : HloOp τ sig (Elt F) := StableHlo.TRef.binary main_call8.v6 main_call8.cst_2 main_call8.v9 (fun x v => Host.reduceAdd x v reducesTo_S20000x300_S300_d0 h_S_)
abbrev op_main_call8_v10 : HloOp τ sig (Elt F) := StableHlo.TRef.unary main_call8.v8 main_call8.v10 (broadcastInDim S300 ![] bcast_S_S300)
abbrev op_main_call8_v11 : HloOp τ sig (Elt F) := StableHlo.TRef.binary main_call8.v9 main_call8.v10 main_call8.v11 Host.divf
abbrev op_main_call8_cst_3 : HloOp τ sig (Elt F) := StableHlo.TRef.nullary main_call8.cst_3 (constant S_ .f32 0x00000000#32)
abbrev op_main_call8_v12 : HloOp τ sig (Elt F) := StableHlo.TRef.binary main_call8.v8 main_call8.cst_3 main_call8.v12 (cmpf .ogt)
abbrev op_main_call8_cst_4 : HloOp τ sig (Elt F) := StableHlo.TRef.nullary main_call8.cst_4 (constant S_ .f32 0x7FC00000#32)
abbrev op_main_call8_call0_v0 : HloOp τ sig (Elt F) := StableHlo.TRef.unary main_call8.cst_4 main_call8.call0.v0 id
abbrev op_main_call8_call0_v1 : HloOp τ sig (Elt F) := StableHlo.TRef.unary main_call8.call0.v0 main_call8.call0.v1 (broadcastInDim S300 ![] bcast_S_S300)
abbrev op_main_call8_call0_v2 : HloOp τ sig (Elt F) := StableHlo.TRef.ternary main_call8.v12 main_call8.v11 main_call8.call0.v1 main_call8.call0.v2 (fun p a b => select (broadcastInDim S300 ![] bcast_S_S300 p) a b)
abbrev op_main_v163 : HloOp τ sig (Elt F) := StableHlo.unary main_v161 main_v163 (broadcastInDim S1x300 ![1] bcast_S300_S1x300_1 : (⟨S300, .f32⟩ : BufTy).Contents (Elt F) → (⟨S1x300, .f32⟩ : BufTy).Contents (Elt F))
abbrev op_main_v164 : HloOp τ sig (Elt F) := StableHlo.unary main_v163 main_v164 (broadcastInDim S20000x300 ![0, 1] bcast_S1x300_S20000x300_0_1 : (⟨S1x300, .f32⟩ : BufTy).Contents (Elt F) → (⟨S20000x300, .f32⟩ : BufTy).Contents (Elt F))
abbrev op_main_v165 : HloOp τ sig (Elt F) := StableHlo.binary main_v154 main_v164 main_v165 (subf : (⟨S20000x300, .f32⟩ : BufTy).Contents (Elt F) → (⟨S20000x300, .f32⟩ : BufTy).Contents (Elt F) → (⟨S20000x300, .f32⟩ : BufTy).Contents (Elt F))
abbrev op_main_cst_23 : HloOp τ sig (Elt F) := StableHlo.nullary main_cst_23 (constant S_ .f32 0x3727C5AC#32)
abbrev op_main_v166 : HloOp τ sig (Elt F) := StableHlo.unary main_cst_23 main_v166 (broadcastInDim S300 ![] bcast_S_S300 : (⟨S_, .f32⟩ : BufTy).Contents (Elt F) → (⟨S300, .f32⟩ : BufTy).Contents (Elt F))
abbrev op_main_v167 : HloOp τ sig (Elt F) := StableHlo.binary main_v162 main_v166 main_v167 (addf : (⟨S300, .f32⟩ : BufTy).Contents (Elt F) → (⟨S300, .f32⟩ : BufTy).Contents (Elt F) → (⟨S300, .f32⟩ : BufTy).Contents (Elt F))
abbrev op_main_v168 : HloOp τ sig (Elt F) := StableHlo.unary main_v167 main_v168 (Host.rsqrt : (⟨S300, .f32⟩ : BufTy).Contents (Elt F) → (⟨S300, .f32⟩ : BufTy).Contents (Elt F))
abbrev op_main_v169 : HloOp τ sig (Elt F) := StableHlo.unary main_v168 main_v169 (broadcastInDim S1x300 ![1] bcast_S300_S1x300_1 : (⟨S300, .f32⟩ : BufTy).Contents (Elt F) → (⟨S1x300, .f32⟩ : BufTy).Contents (Elt F))
abbrev op_main_v170 : HloOp τ sig (Elt F) := StableHlo.unary main_v169 main_v170 (broadcastInDim S20000x300 ![0, 1] bcast_S1x300_S20000x300_0_1 : (⟨S1x300, .f32⟩ : BufTy).Contents (Elt F) → (⟨S20000x300, .f32⟩ : BufTy).Contents (Elt F))
abbrev op_main_v171 : HloOp τ sig (Elt F) := StableHlo.binary main_v165 main_v170 main_v171 (mulf : (⟨S20000x300, .f32⟩ : BufTy).Contents (Elt F) → (⟨S20000x300, .f32⟩ : BufTy).Contents (Elt F) → (⟨S20000x300, .f32⟩ : BufTy).Contents (Elt F))
abbrev op_main_v172 : HloOp τ sig (Elt F) := StableHlo.unary main_v156 main_v172 (broadcastInDim S1x300 ![1] bcast_S300_S1x300_1 : (⟨S300, .f32⟩ : BufTy).Contents (Elt F) → (⟨S1x300, .f32⟩ : BufTy).Contents (Elt F))
abbrev op_main_v173 : HloOp τ sig (Elt F) := StableHlo.unary main_v172 main_v173 (broadcastInDim S20000x300 ![0, 1] bcast_S1x300_S20000x300_0_1 : (⟨S1x300, .f32⟩ : BufTy).Contents (Elt F) → (⟨S20000x300, .f32⟩ : BufTy).Contents (Elt F))
abbrev op_main_v174 : HloOp τ sig (Elt F) := StableHlo.binary main_v171 main_v173 main_v174 (mulf : (⟨S20000x300, .f32⟩ : BufTy).Contents (Elt F) → (⟨S20000x300, .f32⟩ : BufTy).Contents (Elt F) → (⟨S20000x300, .f32⟩ : BufTy).Contents (Elt F))
abbrev op_main_v175 : HloOp τ sig (Elt F) := StableHlo.unary main_v158 main_v175 (broadcastInDim S1x300 ![1] bcast_S300_S1x300_1 : (⟨S300, .f32⟩ : BufTy).Contents (Elt F) → (⟨S1x300, .f32⟩ : BufTy).Contents (Elt F))
abbrev op_main_v176 : HloOp τ sig (Elt F) := StableHlo.unary main_v175 main_v176 (broadcastInDim S20000x300 ![0, 1] bcast_S1x300_S20000x300_0_1 : (⟨S1x300, .f32⟩ : BufTy).Contents (Elt F) → (⟨S20000x300, .f32⟩ : BufTy).Contents (Elt F))
abbrev op_main_v177 : HloOp τ sig (Elt F) := StableHlo.binary main_v174 main_v176 main_v177 (addf : (⟨S20000x300, .f32⟩ : BufTy).Contents (Elt F) → (⟨S20000x300, .f32⟩ : BufTy).Contents (Elt F) → (⟨S20000x300, .f32⟩ : BufTy).Contents (Elt F))
abbrev op_main_call9_cst : HloOp τ sig (Elt F) := StableHlo.TRef.nullary main_call9.cst (constant S_ .f32 0x00000000#32)
abbrev op_main_call9_v0 : HloOp τ sig (Elt F) := StableHlo.TRef.unary main_call9.cst main_call9.v0 (broadcastInDim S20000x300 ![] bcast_S_S20000x300)
abbrev op_main_call9_v1 : HloOp τ sig (Elt F) := StableHlo.TRef.binary (.of main_v177 : StableHlo.TRef sig ⟨S20000x300, .f32⟩) main_call9.v0 main_call9.v1 maximumf

/-- Segment 5: 48 operations of window 3, stage opsLayer1. -/
def seg5 : List (HloOp τ sig (Elt F)) :=
  [op_main_v158, op_main_cst_20, op_main_v159, op_main_cst_21, op_main_v160, op_main_v161, op_main_c_22, op_main_call8_cst, op_main_call8_v0, op_main_call8_v1, op_main_call8_cst_0, op_main_call8_v2, op_main_call8_v3, op_main_call8_v4, op_main_call8_v5, op_main_call8_v6, op_main_call8_v7, op_main_call8_cst_1, op_main_call8_v8, op_main_call8_cst_2, op_main_call8_v9, op_main_call8_v10, op_main_call8_v11, op_main_call8_cst_3, op_main_call8_v12, op_main_call8_cst_4, op_main_call8_call0_v0, op_main_call8_call0_v1, op_main_call8_call0_v2, op_main_v163, op_main_v164, op_main_v165, op_main_cst_23, op_main_v166, op_main_v167, op_main_v168, op_main_v169, op_main_v170, op_main_v171, op_main_v172, op_main_v173, op_main_v174, op_main_v175, op_main_v176, op_main_v177, op_main_call9_cst, op_main_call9_v0, op_main_call9_v1]

/-- The references segment 5 writes, in order. -/
def wr5 : List (Ref sig .tc) :=
  [main_v158, main_cst_20, main_v159, main_cst_21, main_v160, main_v161, main_c_22, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v163, main_v164, main_v165, main_cst_23, main_v166, main_v167, main_v168, main_v169, main_v170, main_v171, main_v172, main_v173, main_v174, main_v175, main_v176, main_v177, main_call9.cst.ref, main_call9.v0.ref, main_call9.v1.ref]

/-- The operations of stage opsLayer1, and the references they write. -/
def opsLayer1 : List (HloOp τ sig (Elt F)) := seg3 ++ seg4 ++ seg5
def wrLayer1 : List (Ref sig .tc) := wr3 ++ wr4 ++ wr5

end Cert.ReferenceIdeal.RRun

end
-- ==== Proof.RefOpsL2.lean ====
/- One stage (`opsLayer2`) of the reference program's @main as a LIST of its host operations, in order, each call of a module-local
   function replaced by the callee's operations over that call's buffer record (a nested call likewise). Each operation is named
   after the reference it writes (`op_‹reference›`); the stage is cut where a printed window of @main ends into segments `segK`,
   beside each the list `wrK` of the references its operations write, in order. A table (142 of the program's 754 operations);
   the statements about it are in RefRun.lean. -/
import proofs.«119086_j26585847562989_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev op_main_c_24 : HloOp τ sig (Elt F) := StableHlo.nullary main_c_24 (constantI S_ 32 0#32)
abbrev op_main_v179 : HloOp τ sig (Elt F) := StableHlo.unary main_c_24 main_v179 (broadcastInDim S320000 ![] bcast_S_S320000 : (⟨S_, .i32⟩ : BufTy).Contents (Elt F) → (⟨S320000, .i32⟩ : BufTy).Contents (Elt F))
abbrev op_main_v180 : HloOp τ sig (Elt F) := StableHlo.binary main_v1 main_v179 main_v180 (cmpi .slt : (⟨S320000, .i32⟩ : BufTy).Contents (Elt F) → (⟨S320000, .i32⟩ : BufTy).Contents (Elt F) → (⟨S320000, .i1⟩ : BufTy).Contents (Elt F))
abbrev op_main_c_25 : HloOp τ sig (Elt F) := StableHlo.nullary main_c_25 (constantI S_ 32 20000#32)
abbrev op_main_v181 : HloOp τ sig (Elt F) := StableHlo.unary main_c_25 main_v181 (broadcastInDim S320000 ![] bcast_S_S320000 : (⟨S_, .i32⟩ : BufTy).Contents (Elt F) → (⟨S320000, .i32⟩ : BufTy).Contents (Elt F))
abbrev op_main_v182 : HloOp τ sig (Elt F) := StableHlo.binary main_v1 main_v181 main_v182 (addi : (⟨S320000, .i32⟩ : BufTy).Contents (Elt F) → (⟨S320000, .i32⟩ : BufTy).Contents (Elt F) → (⟨S320000, .i32⟩ : BufTy).Contents (Elt F))
abbrev op_main_v183 : HloOp τ sig (Elt F) := StableHlo.ternary main_v180 main_v182 main_v1 main_v183 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
abbrev op_main_v184 : HloOp τ sig (Elt F) := StableHlo.unary main_v183 main_v184 (broadcastInDim S320000x1 ![0] bcast_S320000_S320000x1_0 : (⟨S320000, .i32⟩ : BufTy).Contents (Elt F) → (⟨S320000x1, .i32⟩ : BufTy).Contents (Elt F))
abbrev op_main_v185 : HloOp τ sig (Elt F) := StableHlo.binary main_v178 main_v184 main_v185 ((fun x i => Host.gather gather_S20000x300_S320000x1_S320000x300_1_0_n_n_0_1_1300 x i) : (⟨S20000x300, .f32⟩ : BufTy).Contents (Elt F) → (⟨S320000x1, .i32⟩ : BufTy).Contents (Elt F) → (⟨S320000x300, .f32⟩ : BufTy).Contents (Elt F))
abbrev op_main_v186 : HloOp τ sig (Elt F) := StableHlo.binary main_v185 main_v14 main_v186 (addf : (⟨S320000x300, .f32⟩ : BufTy).Contents (Elt F) → (⟨S320000x300, .f32⟩ : BufTy).Contents (Elt F) → (⟨S320000x300, .f32⟩ : BufTy).Contents (Elt F))
abbrev op_main_call10_cst : HloOp τ sig (Elt F) := StableHlo.TRef.nullary main_call10.cst (constant S_ .f32 0x00000000#32)
abbrev op_main_call10_v0 : HloOp τ sig (Elt F) := StableHlo.TRef.unary main_call10.cst main_call10.v0 (broadcastInDim S320000x300 ![] bcast_S_S320000x300)
abbrev op_main_call10_v1 : HloOp τ sig (Elt F) := StableHlo.TRef.binary (.of main_v186 : StableHlo.TRef sig ⟨S320000x300, .f32⟩) main_call10.v0 main_call10.v1 maximumf
abbrev op_main_cst_26 : HloOp τ sig (Elt F) := StableHlo.nullary main_cst_26 (constant S_ .f32 0x00000000#32)
abbrev op_main_v188 : HloOp τ sig (Elt F) := StableHlo.unary main_cst_26 main_v188 (broadcastInDim S20000x300 ![] bcast_S_S20000x300 : (⟨S_, .f32⟩ : BufTy).Contents (Elt F) → (⟨S20000x300, .f32⟩ : BufTy).Contents (Elt F))
abbrev op_main_v189 : HloOp τ sig (Elt F) := StableHlo.unary main_v3 main_v189 (broadcastInDim S320000x1 ![0] bcast_S320000_S320000x1_0 : (⟨S320000, .i32⟩ : BufTy).Contents (Elt F) → (⟨S320000x1, .i32⟩ : BufTy).Contents (Elt F))
abbrev op_main_v190 : HloOp τ sig (Elt F) := StableHlo.ternary main_v188 main_v189 main_v187 main_v190 ((fun x i u => Host.scatterAdd scatter_S20000x300_S320000x1_S320000x300_1_0_0_1 x i u) : (⟨S20000x300, .f32⟩ : BufTy).Contents (Elt F) → (⟨S320000x1, .i32⟩ : BufTy).Contents (Elt F) → (⟨S320000x300, .f32⟩ : BufTy).Contents (Elt F) → (⟨S20000x300, .f32⟩ : BufTy).Contents (Elt F))
abbrev op_main_v191 : HloOp τ sig (Elt F) := StableHlo.unary main_arg7 main_v191 ((extractStridedSlice S1 ![2] · slices_S5_S1_2) : (⟨S5, .f32⟩ : BufTy).Contents (Elt F) → (⟨S1, .f32⟩ : BufTy).Contents (Elt F))
abbrev op_main_v192 : HloOp τ sig (Elt F) := StableHlo.reshape main_v191 main_v192 rfl shapeCasts_S1_S_
abbrev op_main_cst_27 : HloOp τ sig (Elt F) := StableHlo.nullary main_cst_27 (constant S_ .f32 0x3F800000#32)
abbrev op_main_v193 : HloOp τ sig (Elt F) := StableHlo.binary main_cst_27 main_v192 main_v193 (addf : (⟨S_, .f32⟩ : BufTy).Contents (Elt F) → (⟨S_, .f32⟩ : BufTy).Contents (Elt F) → (⟨S_, .f32⟩ : BufTy).Contents (Elt F))
abbrev op_main_v194 : HloOp τ sig (Elt F) := StableHlo.unary main_v193 main_v194 (broadcastInDim S20000x300 ![] bcast_S_S20000x300 : (⟨S_, .f32⟩ : BufTy).Contents (Elt F) → (⟨S20000x300, .f32⟩ : BufTy).Contents (Elt F))
abbrev op_main_v195 : HloOp τ sig (Elt F) := StableHlo.binary main_v194 main_v178 main_v195 (mulf : (⟨S20000x300, .f32⟩ : BufTy).Contents (Elt F) → (⟨S20000x300, .f32⟩ : BufTy).Contents (Elt F) → (⟨S20000x300, .f32⟩ : BufTy).Contents (Elt F))
abbrev op_main_v196 : HloOp τ sig (Elt F) := StableHlo.binary main_v195 main_v190 main_v196 (addf : (⟨S20000x300, .f32⟩ : BufTy).Contents (Elt F) → (⟨S20000x300, .f32⟩ : BufTy).Contents (Elt F) → (⟨S20000x300, .f32⟩ : BufTy).Contents (Elt F))
abbrev op_main_v197 : HloOp τ sig (Elt F) := StableHlo.unary main_arg8 main_v197 ((extractStridedSlice S1x300x300 ![2, 0, 0] · slices_S5x300x300_S1x300x300_2_0_0) : (⟨S5x300x300, .f32⟩ : BufTy).Contents (Elt F) → (⟨S1x300x300, .f32⟩ : BufTy).Contents (Elt F))
abbrev op_main_v198 : HloOp τ sig (Elt F) := StableHlo.reshape main_v197 main_v198 rfl shapeCasts_S1x300x300_S300x300
abbrev op_main_v199 : HloOp τ sig (Elt F) := StableHlo.binary main_v196 main_v198 main_v199 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v200 : HloOp τ sig (Elt F) := StableHlo.unary main_arg9 main_v200 ((extractStridedSlice S1x300 ![2, 0] · slices_S5x300_S1x300_2_0) : (⟨S5x300, .f32⟩ : BufTy).Contents (Elt F) → (⟨S1x300, .f32⟩ : BufTy).Contents (Elt F))
abbrev op_main_v201 : HloOp τ sig (Elt F) := StableHlo.reshape main_v200 main_v201 rfl shapeCasts_S1x300_S300
abbrev op_main_v202 : HloOp τ sig (Elt F) := StableHlo.unary main_v201 main_v202 (broadcastInDim S1x300 ![1] bcast_S300_S1x300_1 : (⟨S300, .f32⟩ : BufTy).Contents (Elt F) → (⟨S1x300, .f32⟩ : BufTy).Contents (Elt F))
abbrev op_main_v203 : HloOp τ sig (Elt F) := StableHlo.unary main_v202 main_v203 (broadcastInDim S20000x300 ![0, 1] bcast_S1x300_S20000x300_0_1 : (⟨S1x300, .f32⟩ : BufTy).Contents (Elt F) → (⟨S20000x300, .f32⟩ : BufTy).Contents (Elt F))
abbrev op_main_v204 : HloOp τ sig (Elt F) := StableHlo.binary main_v199 main_v203 main_v204 (addf : (⟨S20000x300, .f32⟩ : BufTy).Contents (Elt F) → (⟨S20000x300, .f32⟩ : BufTy).Contents (Elt F) → (⟨S20000x300, .f32⟩ : BufTy).Contents (Elt F))
abbrev op_main_v205 : HloOp τ sig (Elt F) := StableHlo.unary main_arg10 main_v205 ((extractStridedSlice S1x300 ![2, 0] · slices_S5x300_S1x300_2_0) : (⟨S5x300, .f32⟩ : BufTy).Contents (Elt F) → (⟨S1x300, .f32⟩ : BufTy).Contents (Elt F))
abbrev op_main_v206 : HloOp τ sig (Elt F) := StableHlo.reshape main_v205 main_v206 rfl shapeCasts_S1x300_S300
abbrev op_main_v207 : HloOp τ sig (Elt F) := StableHlo.unary main_arg11 main_v207 ((extractStridedSlice S1x300 ![2, 0] · slices_S5x300_S1x300_2_0) : (⟨S5x300, .f32⟩ : BufTy).Contents (Elt F) → (⟨S1x300, .f32⟩ : BufTy).Contents (Elt F))
abbrev op_main_v208 : HloOp τ sig (Elt F) := StableHlo.reshape main_v207 main_v208 rfl shapeCasts_S1x300_S300
abbrev op_main_cst_28 : HloOp τ sig (Elt F) := StableHlo.nullary main_cst_28 (constant S_ .f32 0x00000000#32)

/-- Segment 6: 37 operations of window 3, stage opsLayer2. -/
def seg6 : List (HloOp τ sig (Elt F)) :=
  [op_main_c_24, op_main_v179, op_main_v180, op_main_c_25, op_main_v181, op_main_v182, op_main_v183, op_main_v184, op_main_v185, op_main_v186, op_main_call10_cst, op_main_call10_v0, op_main_call10_v1, op_main_cst_26, op_main_v188, op_main_v189, op_main_v190, op_main_v191, op_main_v192, op_main_cst_27, op_main_v193, op_main_v194, op_main_v195, op_main_v196, op_main_v197, op_main_v198, op_main_v199, op_main_v200, op_main_v201, op_main_v202, op_main_v203, op_main_v204, op_main_v205, op_main_v206, op_main_v207, op_main_v208, op_main_cst_28]

/-- The references segment 6 writes, in order. -/
def wr6 : List (Ref sig .tc) :=
  [main_c_24, main_v179, main_v180, main_c_25, main_v181, main_v182, main_v183, main_v184, main_v185, main_v186, main_call10.cst.ref, main_call10.v0.ref, main_call10.v1.ref, main_cst_26, main_v188, main_v189, main_v190, main_v191, main_v192, main_cst_27, main_v193, main_v194, main_v195, main_v196, main_v197, main_v198, main_v199, main_v200, main_v201, main_v202, main_v203, main_v204, main_v205, main_v206, main_v207, main_v208, main_cst_28]

abbrev op_main_v209 : HloOp τ sig (Elt F) := StableHlo.binary main_v204 main_cst_28 main_v209 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_29 : HloOp τ sig (Elt F) := StableHlo.nullary main_cst_29 (constant S_ .f32 0x469C4000#32)
abbrev op_main_v210 : HloOp τ sig (Elt F) := StableHlo.unary main_cst_29 main_v210 (broadcastInDim S300 ![] bcast_S_S300 : (⟨S_, .f32⟩ : BufTy).Contents (Elt F) → (⟨S300, .f32⟩ : BufTy).Contents (Elt F))
abbrev op_main_v211 : HloOp τ sig (Elt F) := StableHlo.binary main_v209 main_v210 main_v211 (Host.divf : (⟨S300, .f32⟩ : BufTy).Contents (Elt F) → (⟨S300, .f32⟩ : BufTy).Contents (Elt F) → (⟨S300, .f32⟩ : BufTy).Contents (Elt F))
abbrev op_main_c_30 : HloOp τ sig (Elt F) := StableHlo.nullary main_c_30 (constantI S_ 32 0#32)
abbrev op_main_call11_cst : HloOp τ sig (Elt F) := StableHlo.TRef.nullary main_call11.cst (constant S_ .f32 0x00000000#32)
abbrev op_main_call11_v0 : HloOp τ sig (Elt F) := StableHlo.TRef.binary (.of main_v204 : StableHlo.TRef sig ⟨S20000x300, .f32⟩) main_call11.cst main_call11.v0 (fun x v => Host.reduceAdd x v reducesTo_S20000x300_S300_d0 h_S_)
abbrev op_main_call11_v1 : HloOp τ sig (Elt F) := StableHlo.TRef.unary main_call11.v0 main_call11.v1 (broadcastInDim S1x300 ![1] bcast_S300_S1x300_1)
abbrev op_main_call11_cst_0 : HloOp τ sig (Elt F) := StableHlo.TRef.nullary main_call11.cst_0 (constant S_ .f32 0x469C4000#32)
abbrev op_main_call11_v2 : HloOp τ sig (Elt F) := StableHlo.TRef.unary main_call11.cst_0 main_call11.v2 (broadcastInDim S1x300 ![] bcast_S_S1x300)
abbrev op_main_call11_v3 : HloOp τ sig (Elt F) := StableHlo.TRef.binary main_call11.v1 main_call11.v2 main_call11.v3 Host.divf
abbrev op_main_call11_v4 : HloOp τ sig (Elt F) := StableHlo.TRef.unary main_call11.v3 main_call11.v4 (broadcastInDim S20000x300 ![0, 1] bcast_S1x300_S20000x300_0_1)
abbrev op_main_call11_v5 : HloOp τ sig (Elt F) := StableHlo.TRef.binary (.of main_v204 : StableHlo.TRef sig ⟨S20000x300, .f32⟩) main_call11.v4 main_call11.v5 subf
abbrev op_main_call11_v6 : HloOp τ sig (Elt F) := StableHlo.TRef.binary main_call11.v5 main_call11.v5 main_call11.v6 mulf
abbrev op_main_call11_v7 : HloOp τ sig (Elt F) := StableHlo.TRef.unary (.of main_c_30 : StableHlo.TRef sig ⟨S_, .i32⟩) main_call11.v7 (sitofp .f32)
abbrev op_main_call11_cst_1 : HloOp τ sig (Elt F) := StableHlo.TRef.nullary main_call11.cst_1 (constant S_ .f32 0x469C4000#32)
abbrev op_main_call11_v8 : HloOp τ sig (Elt F) := StableHlo.TRef.binary main_call11.cst_1 main_call11.v7 main_call11.v8 subf
abbrev op_main_call11_cst_2 : HloOp τ sig (Elt F) := StableHlo.TRef.nullary main_call11.cst_2 (constant S_ .f32 0x00000000#32)
abbrev op_main_call11_v9 : HloOp τ sig (Elt F) := StableHlo.TRef.binary main_call11.v6 main_call11.cst_2 main_call11.v9 (fun x v => Host.reduceAdd x v reducesTo_S20000x300_S300_d0 h_S_)
abbrev op_main_call11_v10 : HloOp τ sig (Elt F) := StableHlo.TRef.unary main_call11.v8 main_call11.v10 (broadcastInDim S300 ![] bcast_S_S300)
abbrev op_main_call11_v11 : HloOp τ sig (Elt F) := StableHlo.TRef.binary main_call11.v9 main_call11.v10 main_call11.v11 Host.divf
abbrev op_main_call11_cst_3 : HloOp τ sig (Elt F) := StableHlo.TRef.nullary main_call11.cst_3 (constant S_ .f32 0x00000000#32)
abbrev op_main_call11_v12 : HloOp τ sig (Elt F) := StableHlo.TRef.binary main_call11.v8 main_call11.cst_3 main_call11.v12 (cmpf .ogt)
abbrev op_main_call11_cst_4 : HloOp τ sig (Elt F) := StableHlo.TRef.nullary main_call11.cst_4 (constant S_ .f32 0x7FC00000#32)
abbrev op_main_call11_call0_v0 : HloOp τ sig (Elt F) := StableHlo.TRef.unary main_call11.cst_4 main_call11.call0.v0 id
abbrev op_main_call11_call0_v1 : HloOp τ sig (Elt F) := StableHlo.TRef.unary main_call11.call0.v0 main_call11.call0.v1 (broadcastInDim S300 ![] bcast_S_S300)
abbrev op_main_call11_call0_v2 : HloOp τ sig (Elt F) := StableHlo.TRef.ternary main_call11.v12 main_call11.v11 main_call11.call0.v1 main_call11.call0.v2 (fun p a b => select (broadcastInDim S300 ![] bcast_S_S300 p) a b)
abbrev op_main_v213 : HloOp τ sig (Elt F) := StableHlo.unary main_v211 main_v213 (broadcastInDim S1x300 ![1] bcast_S300_S1x300_1 : (⟨S300, .f32⟩ : BufTy).Contents (Elt F) → (⟨S1x300, .f32⟩ : BufTy).Contents (Elt F))
abbrev op_main_v214 : HloOp τ sig (Elt F) := StableHlo.unary main_v213 main_v214 (broadcastInDim S20000x300 ![0, 1] bcast_S1x300_S20000x300_0_1 : (⟨S1x300, .f32⟩ : BufTy).Contents (Elt F) → (⟨S20000x300, .f32⟩ : BufTy).Contents (Elt F))
abbrev op_main_v215 : HloOp τ sig (Elt F) := StableHlo.binary main_v204 main_v214 main_v215 (subf : (⟨S20000x300, .f32⟩ : BufTy).Contents (Elt F) → (⟨S20000x300, .f32⟩ : BufTy).Contents (Elt F) → (⟨S20000x300, .f32⟩ : BufTy).Contents (Elt F))
abbrev op_main_cst_31 : HloOp τ sig (Elt F) := StableHlo.nullary main_cst_31 (constant S_ .f32 0x3727C5AC#32)
abbrev op_main_v216 : HloOp τ sig (Elt F) := StableHlo.unary main_cst_31 main_v216 (broadcastInDim S300 ![] bcast_S_S300 : (⟨S_, .f32⟩ : BufTy).Contents (Elt F) → (⟨S300, .f32⟩ : BufTy).Contents (Elt F))
abbrev op_main_v217 : HloOp τ sig (Elt F) := StableHlo.binary main_v212 main_v216 main_v217 (addf : (⟨S300, .f32⟩ : BufTy).Contents (Elt F) → (⟨S300, .f32⟩ : BufTy).Contents (Elt F) → (⟨S300, .f32⟩ : BufTy).Contents (Elt F))
abbrev op_main_v218 : HloOp τ sig (Elt F) := StableHlo.unary main_v217 main_v218 (Host.rsqrt : (⟨S300, .f32⟩ : BufTy).Contents (Elt F) → (⟨S300, .f32⟩ : BufTy).Contents (Elt F))
abbrev op_main_v219 : HloOp τ sig (Elt F) := StableHlo.unary main_v218 main_v219 (broadcastInDim S1x300 ![1] bcast_S300_S1x300_1 : (⟨S300, .f32⟩ : BufTy).Contents (Elt F) → (⟨S1x300, .f32⟩ : BufTy).Contents (Elt F))
abbrev op_main_v220 : HloOp τ sig (Elt F) := StableHlo.unary main_v219 main_v220 (broadcastInDim S20000x300 ![0, 1] bcast_S1x300_S20000x300_0_1 : (⟨S1x300, .f32⟩ : BufTy).Contents (Elt F) → (⟨S20000x300, .f32⟩ : BufTy).Contents (Elt F))
abbrev op_main_v221 : HloOp τ sig (Elt F) := StableHlo.binary main_v215 main_v220 main_v221 (mulf : (⟨S20000x300, .f32⟩ : BufTy).Contents (Elt F) → (⟨S20000x300, .f32⟩ : BufTy).Contents (Elt F) → (⟨S20000x300, .f32⟩ : BufTy).Contents (Elt F))
abbrev op_main_v222 : HloOp τ sig (Elt F) := StableHlo.unary main_v206 main_v222 (broadcastInDim S1x300 ![1] bcast_S300_S1x300_1 : (⟨S300, .f32⟩ : BufTy).Contents (Elt F) → (⟨S1x300, .f32⟩ : BufTy).Contents (Elt F))
abbrev op_main_v223 : HloOp τ sig (Elt F) := StableHlo.unary main_v222 main_v223 (broadcastInDim S20000x300 ![0, 1] bcast_S1x300_S20000x300_0_1 : (⟨S1x300, .f32⟩ : BufTy).Contents (Elt F) → (⟨S20000x300, .f32⟩ : BufTy).Contents (Elt F))
abbrev op_main_v224 : HloOp τ sig (Elt F) := StableHlo.binary main_v221 main_v223 main_v224 (mulf : (⟨S20000x300, .f32⟩ : BufTy).Contents (Elt F) → (⟨S20000x300, .f32⟩ : BufTy).Contents (Elt F) → (⟨S20000x300, .f32⟩ : BufTy).Contents (Elt F))
abbrev op_main_v225 : HloOp τ sig (Elt F) := StableHlo.unary main_v208 main_v225 (broadcastInDim S1x300 ![1] bcast_S300_S1x300_1 : (⟨S300, .f32⟩ : BufTy).Contents (Elt F) → (⟨S1x300, .f32⟩ : BufTy).Contents (Elt F))
abbrev op_main_v226 : HloOp τ sig (Elt F) := StableHlo.unary main_v225 main_v226 (broadcastInDim S20000x300 ![0, 1] bcast_S1x300_S20000x300_0_1 : (⟨S1x300, .f32⟩ : BufTy).Contents (Elt F) → (⟨S20000x300, .f32⟩ : BufTy).Contents (Elt F))
abbrev op_main_v227 : HloOp τ sig (Elt F) := StableHlo.binary main_v224 main_v226 main_v227 (addf : (⟨S20000x300, .f32⟩ : BufTy).Contents (Elt F) → (⟨S20000x300, .f32⟩ : BufTy).Contents (Elt F) → (⟨S20000x300, .f32⟩ : BufTy).Contents (Elt F))
abbrev op_main_call12_cst : HloOp τ sig (Elt F) := StableHlo.TRef.nullary main_call12.cst (constant S_ .f32 0x00000000#32)
abbrev op_main_call12_v0 : HloOp τ sig (Elt F) := StableHlo.TRef.unary main_call12.cst main_call12.v0 (broadcastInDim S20000x300 ![] bcast_S_S20000x300)
abbrev op_main_call12_v1 : HloOp τ sig (Elt F) := StableHlo.TRef.binary (.of main_v227 : StableHlo.TRef sig ⟨S20000x300, .f32⟩) main_call12.v0 main_call12.v1 maximumf
abbrev op_main_v229 : HloOp τ sig (Elt F) := StableHlo.unary main_arg12 main_v229 ((extractStridedSlice S1x300x300 ![2, 0, 0] · slices_S5x300x300_S1x300x300_2_0_0) : (⟨S5x300x300, .f32⟩ : BufTy).Contents (Elt F) → (⟨S1x300x300, .f32⟩ : BufTy).Contents (Elt F))
abbrev op_main_v230 : HloOp τ sig (Elt F) := StableHlo.reshape main_v229 main_v230 rfl shapeCasts_S1x300x300_S300x300
abbrev op_main_v231 : HloOp τ sig (Elt F) := StableHlo.binary main_v228 main_v230 main_v231 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v232 : HloOp τ sig (Elt F) := StableHlo.unary main_arg13 main_v232 ((extractStridedSlice S1x300 ![2, 0] · slices_S5x300_S1x300_2_0) : (⟨S5x300, .f32⟩ : BufTy).Contents (Elt F) → (⟨S1x300, .f32⟩ : BufTy).Contents (Elt F))
abbrev op_main_v233 : HloOp τ sig (Elt F) := StableHlo.reshape main_v232 main_v233 rfl shapeCasts_S1x300_S300
abbrev op_main_v234 : HloOp τ sig (Elt F) := StableHlo.unary main_v233 main_v234 (broadcastInDim S1x300 ![1] bcast_S300_S1x300_1 : (⟨S300, .f32⟩ : BufTy).Contents (Elt F) → (⟨S1x300, .f32⟩ : BufTy).Contents (Elt F))
abbrev op_main_v235 : HloOp τ sig (Elt F) := StableHlo.unary main_v234 main_v235 (broadcastInDim S20000x300 ![0, 1] bcast_S1x300_S20000x300_0_1 : (⟨S1x300, .f32⟩ : BufTy).Contents (Elt F) → (⟨S20000x300, .f32⟩ : BufTy).Contents (Elt F))
abbrev op_main_v236 : HloOp τ sig (Elt F) := StableHlo.binary main_v231 main_v235 main_v236 (addf : (⟨S20000x300, .f32⟩ : BufTy).Contents (Elt F) → (⟨S20000x300, .f32⟩ : BufTy).Contents (Elt F) → (⟨S20000x300, .f32⟩ : BufTy).Contents (Elt F))
abbrev op_main_v237 : HloOp τ sig (Elt F) := StableHlo.unary main_arg14 main_v237 ((extractStridedSlice S1x300 ![2, 0] · slices_S5x300_S1x300_2_0) : (⟨S5x300, .f32⟩ : BufTy).Contents (Elt F) → (⟨S1x300, .f32⟩ : BufTy).Contents (Elt F))
abbrev op_main_v238 : HloOp τ sig (Elt F) := StableHlo.reshape main_v237 main_v238 rfl shapeCasts_S1x300_S300
abbrev op_main_v239 : HloOp τ sig (Elt F) := StableHlo.unary main_arg15 main_v239 ((extractStridedSlice S1x300 ![2, 0] · slices_S5x300_S1x300_2_0) : (⟨S5x300, .f32⟩ : BufTy).Contents (Elt F) → (⟨S1x300, .f32⟩ : BufTy).Contents (Elt F))
abbrev op_main_v240 : HloOp τ sig (Elt F) := StableHlo.reshape main_v239 main_v240 rfl shapeCasts_S1x300_S300
abbrev op_main_cst_32 : HloOp τ sig (Elt F) := StableHlo.nullary main_cst_32 (constant S_ .f32 0x00000000#32)
abbrev op_main_v241 : HloOp τ sig (Elt F) := StableHlo.binary main_v236 main_cst_32 main_v241 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_33 : HloOp τ sig (Elt F) := StableHlo.nullary main_cst_33 (constant S_ .f32 0x469C4000#32)
abbrev op_main_v242 : HloOp τ sig (Elt F) := StableHlo.unary main_cst_33 main_v242 (broadcastInDim S300 ![] bcast_S_S300 : (⟨S_, .f32⟩ : BufTy).Contents (Elt F) → (⟨S300, .f32⟩ : BufTy).Contents (Elt F))
abbrev op_main_v243 : HloOp τ sig (Elt F) := StableHlo.binary main_v241 main_v242 main_v243 (Host.divf : (⟨S300, .f32⟩ : BufTy).Contents (Elt F) → (⟨S300, .f32⟩ : BufTy).Contents (Elt F) → (⟨S300, .f32⟩ : BufTy).Contents (Elt F))
abbrev op_main_c_34 : HloOp τ sig (Elt F) := StableHlo.nullary main_c_34 (constantI S_ 32 0#32)
abbrev op_main_call13_cst : HloOp τ sig (Elt F) := StableHlo.TRef.nullary main_call13.cst (constant S_ .f32 0x00000000#32)
abbrev op_main_call13_v0 : HloOp τ sig (Elt F) := StableHlo.TRef.binary (.of main_v236 : StableHlo.TRef sig ⟨S20000x300, .f32⟩) main_call13.cst main_call13.v0 (fun x v => Host.reduceAdd x v reducesTo_S20000x300_S300_d0 h_S_)
abbrev op_main_call13_v1 : HloOp τ sig (Elt F) := StableHlo.TRef.unary main_call13.v0 main_call13.v1 (broadcastInDim S1x300 ![1] bcast_S300_S1x300_1)
abbrev op_main_call13_cst_0 : HloOp τ sig (Elt F) := StableHlo.TRef.nullary main_call13.cst_0 (constant S_ .f32 0x469C4000#32)
abbrev op_main_call13_v2 : HloOp τ sig (Elt F) := StableHlo.TRef.unary main_call13.cst_0 main_call13.v2 (broadcastInDim S1x300 ![] bcast_S_S1x300)
abbrev op_main_call13_v3 : HloOp τ sig (Elt F) := StableHlo.TRef.binary main_call13.v1 main_call13.v2 main_call13.v3 Host.divf
abbrev op_main_call13_v4 : HloOp τ sig (Elt F) := StableHlo.TRef.unary main_call13.v3 main_call13.v4 (broadcastInDim S20000x300 ![0, 1] bcast_S1x300_S20000x300_0_1)
abbrev op_main_call13_v5 : HloOp τ sig (Elt F) := StableHlo.TRef.binary (.of main_v236 : StableHlo.TRef sig ⟨S20000x300, .f32⟩) main_call13.v4 main_call13.v5 subf
abbrev op_main_call13_v6 : HloOp τ sig (Elt F) := StableHlo.TRef.binary main_call13.v5 main_call13.v5 main_call13.v6 mulf
abbrev op_main_call13_v7 : HloOp τ sig (Elt F) := StableHlo.TRef.unary (.of main_c_34 : StableHlo.TRef sig ⟨S_, .i32⟩) main_call13.v7 (sitofp .f32)
abbrev op_main_call13_cst_1 : HloOp τ sig (Elt F) := StableHlo.TRef.nullary main_call13.cst_1 (constant S_ .f32 0x469C4000#32)
abbrev op_main_call13_v8 : HloOp τ sig (Elt F) := StableHlo.TRef.binary main_call13.cst_1 main_call13.v7 main_call13.v8 subf
abbrev op_main_call13_cst_2 : HloOp τ sig (Elt F) := StableHlo.TRef.nullary main_call13.cst_2 (constant S_ .f32 0x00000000#32)
abbrev op_main_call13_v9 : HloOp τ sig (Elt F) := StableHlo.TRef.binary main_call13.v6 main_call13.cst_2 main_call13.v9 (fun x v => Host.reduceAdd x v reducesTo_S20000x300_S300_d0 h_S_)
abbrev op_main_call13_v10 : HloOp τ sig (Elt F) := StableHlo.TRef.unary main_call13.v8 main_call13.v10 (broadcastInDim S300 ![] bcast_S_S300)
abbrev op_main_call13_v11 : HloOp τ sig (Elt F) := StableHlo.TRef.binary main_call13.v9 main_call13.v10 main_call13.v11 Host.divf
abbrev op_main_call13_cst_3 : HloOp τ sig (Elt F) := StableHlo.TRef.nullary main_call13.cst_3 (constant S_ .f32 0x00000000#32)
abbrev op_main_call13_v12 : HloOp τ sig (Elt F) := StableHlo.TRef.binary main_call13.v8 main_call13.cst_3 main_call13.v12 (cmpf .ogt)
abbrev op_main_call13_cst_4 : HloOp τ sig (Elt F) := StableHlo.TRef.nullary main_call13.cst_4 (constant S_ .f32 0x7FC00000#32)
abbrev op_main_call13_call0_v0 : HloOp τ sig (Elt F) := StableHlo.TRef.unary main_call13.cst_4 main_call13.call0.v0 id
abbrev op_main_call13_call0_v1 : HloOp τ sig (Elt F) := StableHlo.TRef.unary main_call13.call0.v0 main_call13.call0.v1 (broadcastInDim S300 ![] bcast_S_S300)
abbrev op_main_call13_call0_v2 : HloOp τ sig (Elt F) := StableHlo.TRef.ternary main_call13.v12 main_call13.v11 main_call13.call0.v1 main_call13.call0.v2 (fun p a b => select (broadcastInDim S300 ![] bcast_S_S300 p) a b)
abbrev op_main_v245 : HloOp τ sig (Elt F) := StableHlo.unary main_v243 main_v245 (broadcastInDim S1x300 ![1] bcast_S300_S1x300_1 : (⟨S300, .f32⟩ : BufTy).Contents (Elt F) → (⟨S1x300, .f32⟩ : BufTy).Contents (Elt F))
abbrev op_main_v246 : HloOp τ sig (Elt F) := StableHlo.unary main_v245 main_v246 (broadcastInDim S20000x300 ![0, 1] bcast_S1x300_S20000x300_0_1 : (⟨S1x300, .f32⟩ : BufTy).Contents (Elt F) → (⟨S20000x300, .f32⟩ : BufTy).Contents (Elt F))
abbrev op_main_v247 : HloOp τ sig (Elt F) := StableHlo.binary main_v236 main_v246 main_v247 (subf : (⟨S20000x300, .f32⟩ : BufTy).Contents (Elt F) → (⟨S20000x300, .f32⟩ : BufTy).Contents (Elt F) → (⟨S20000x300, .f32⟩ : BufTy).Contents (Elt F))
abbrev op_main_cst_35 : HloOp τ sig (Elt F) := StableHlo.nullary main_cst_35 (constant S_ .f32 0x3727C5AC#32)
abbrev op_main_v248 : HloOp τ sig (Elt F) := StableHlo.unary main_cst_35 main_v248 (broadcastInDim S300 ![] bcast_S_S300 : (⟨S_, .f32⟩ : BufTy).Contents (Elt F) → (⟨S300, .f32⟩ : BufTy).Contents (Elt F))
abbrev op_main_v249 : HloOp τ sig (Elt F) := StableHlo.binary main_v244 main_v248 main_v249 (addf : (⟨S300, .f32⟩ : BufTy).Contents (Elt F) → (⟨S300, .f32⟩ : BufTy).Contents (Elt F) → (⟨S300, .f32⟩ : BufTy).Contents (Elt F))
abbrev op_main_v250 : HloOp τ sig (Elt F) := StableHlo.unary main_v249 main_v250 (Host.rsqrt : (⟨S300, .f32⟩ : BufTy).Contents (Elt F) → (⟨S300, .f32⟩ : BufTy).Contents (Elt F))
abbrev op_main_v251 : HloOp τ sig (Elt F) := StableHlo.unary main_v250 main_v251 (broadcastInDim S1x300 ![1] bcast_S300_S1x300_1 : (⟨S300, .f32⟩ : BufTy).Contents (Elt F) → (⟨S1x300, .f32⟩ : BufTy).Contents (Elt F))
abbrev op_main_v252 : HloOp τ sig (Elt F) := StableHlo.unary main_v251 main_v252 (broadcastInDim S20000x300 ![0, 1] bcast_S1x300_S20000x300_0_1 : (⟨S1x300, .f32⟩ : BufTy).Contents (Elt F) → (⟨S20000x300, .f32⟩ : BufTy).Contents (Elt F))
abbrev op_main_v253 : HloOp τ sig (Elt F) := StableHlo.binary main_v247 main_v252 main_v253 (mulf : (⟨S20000x300, .f32⟩ : BufTy).Contents (Elt F) → (⟨S20000x300, .f32⟩ : BufTy).Contents (Elt F) → (⟨S20000x300, .f32⟩ : BufTy).Contents (Elt F))
abbrev op_main_v254 : HloOp τ sig (Elt F) := StableHlo.unary main_v238 main_v254 (broadcastInDim S1x300 ![1] bcast_S300_S1x300_1 : (⟨S300, .f32⟩ : BufTy).Contents (Elt F) → (⟨S1x300, .f32⟩ : BufTy).Contents (Elt F))
abbrev op_main_v255 : HloOp τ sig (Elt F) := StableHlo.unary main_v254 main_v255 (broadcastInDim S20000x300 ![0, 1] bcast_S1x300_S20000x300_0_1 : (⟨S1x300, .f32⟩ : BufTy).Contents (Elt F) → (⟨S20000x300, .f32⟩ : BufTy).Contents (Elt F))
abbrev op_main_v256 : HloOp τ sig (Elt F) := StableHlo.binary main_v253 main_v255 main_v256 (mulf : (⟨S20000x300, .f32⟩ : BufTy).Contents (Elt F) → (⟨S20000x300, .f32⟩ : BufTy).Contents (Elt F) → (⟨S20000x300, .f32⟩ : BufTy).Contents (Elt F))
abbrev op_main_v257 : HloOp τ sig (Elt F) := StableHlo.unary main_v240 main_v257 (broadcastInDim S1x300 ![1] bcast_S300_S1x300_1 : (⟨S300, .f32⟩ : BufTy).Contents (Elt F) → (⟨S1x300, .f32⟩ : BufTy).Contents (Elt F))
abbrev op_main_v258 : HloOp τ sig (Elt F) := StableHlo.unary main_v257 main_v258 (broadcastInDim S20000x300 ![0, 1] bcast_S1x300_S20000x300_0_1 : (⟨S1x300, .f32⟩ : BufTy).Contents (Elt F) → (⟨S20000x300, .f32⟩ : BufTy).Contents (Elt F))
abbrev op_main_v259 : HloOp τ sig (Elt F) := StableHlo.binary main_v256 main_v258 main_v259 (addf : (⟨S20000x300, .f32⟩ : BufTy).Contents (Elt F) → (⟨S20000x300, .f32⟩ : BufTy).Contents (Elt F) → (⟨S20000x300, .f32⟩ : BufTy).Contents (Elt F))
abbrev op_main_call14_cst : HloOp τ sig (Elt F) := StableHlo.TRef.nullary main_call14.cst (constant S_ .f32 0x00000000#32)
abbrev op_main_call14_v0 : HloOp τ sig (Elt F) := StableHlo.TRef.unary main_call14.cst main_call14.v0 (broadcastInDim S20000x300 ![] bcast_S_S20000x300)
abbrev op_main_call14_v1 : HloOp τ sig (Elt F) := StableHlo.TRef.binary (.of main_v259 : StableHlo.TRef sig ⟨S20000x300, .f32⟩) main_call14.v0 main_call14.v1 maximumf

/-- Segment 7: 105 operations of window 4, stage opsLayer2. -/
def seg7 : List (HloOp τ sig (Elt F)) :=
  [op_main_v209, op_main_cst_29, op_main_v210, op_main_v211, op_main_c_30, op_main_call11_cst, op_main_call11_v0, op_main_call11_v1, op_main_call11_cst_0, op_main_call11_v2, op_main_call11_v3, op_main_call11_v4, op_main_call11_v5, op_main_call11_v6, op_main_call11_v7, op_main_call11_cst_1, op_main_call11_v8, op_main_call11_cst_2, op_main_call11_v9, op_main_call11_v10, op_main_call11_v11, op_main_call11_cst_3, op_main_call11_v12, op_main_call11_cst_4, op_main_call11_call0_v0, op_main_call11_call0_v1, op_main_call11_call0_v2, op_main_v213, op_main_v214, op_main_v215, op_main_cst_31, op_main_v216, op_main_v217, op_main_v218, op_main_v219, op_main_v220, op_main_v221, op_main_v222, op_main_v223, op_main_v224, op_main_v225, op_main_v226, op_main_v227, op_main_call12_cst, op_main_call12_v0, op_main_call12_v1, op_main_v229, op_main_v230, op_main_v231, op_main_v232, op_main_v233, op_main_v234, op_main_v235, op_main_v236, op_main_v237, op_main_v238, op_main_v239, op_main_v240, op_main_cst_32, op_main_v241, op_main_cst_33, op_main_v242, op_main_v243, op_main_c_34, op_main_call13_cst, op_main_call13_v0, op_main_call13_v1, op_main_call13_cst_0, op_main_call13_v2, op_main_call13_v3, op_main_call13_v4, op_main_call13_v5, op_main_call13_v6, op_main_call13_v7, op_main_call13_cst_1, op_main_call13_v8, op_main_call13_cst_2, op_main_call13_v9, op_main_call13_v10, op_main_call13_v11, op_main_call13_cst_3, op_main_call13_v12, op_main_call13_cst_4, op_main_call13_call0_v0, op_main_call13_call0_v1, op_main_call13_call0_v2, op_main_v245, op_main_v246, op_main_v247, op_main_cst_35, op_main_v248, op_main_v249, op_main_v250, op_main_v251, op_main_v252, op_main_v253, op_main_v254, op_main_v255, op_main_v256, op_main_v257, op_main_v258, op_main_v259, op_main_call14_cst, op_main_call14_v0, op_main_call14_v1]

/-- The references segment 7 writes, in order. -/
def wr7 : List (Ref sig .tc) :=
  [main_v209, main_cst_29, main_v210, main_v211, main_c_30, main_call11.cst.ref, main_call11.v0.ref, main_call11.v1.ref, main_call11.cst_0.ref, main_call11.v2.ref, main_call11.v3.ref, main_call11.v4.ref, main_call11.v5.ref, main_call11.v6.ref, main_call11.v7.ref, main_call11.cst_1.ref, main_call11.v8.ref, main_call11.cst_2.ref, main_call11.v9.ref, main_call11.v10.ref, main_call11.v11.ref, main_call11.cst_3.ref, main_call11.v12.ref, main_call11.cst_4.ref, main_call11.call0.v0.ref, main_call11.call0.v1.ref, main_call11.call0.v2.ref, main_v213, main_v214, main_v215, main_cst_31, main_v216, main_v217, main_v218, main_v219, main_v220, main_v221, main_v222, main_v223, main_v224, main_v225, main_v226, main_v227, main_call12.cst.ref, main_call12.v0.ref, main_call12.v1.ref, main_v229, main_v230, main_v231, main_v232, main_v233, main_v234, main_v235, main_v236, main_v237, main_v238, main_v239, main_v240, main_cst_32, main_v241, main_cst_33, main_v242, main_v243, main_c_34, main_call13.cst.ref, main_call13.v0.ref, main_call13.v1.ref, main_call13.cst_0.ref, main_call13.v2.ref, main_call13.v3.ref, main_call13.v4.ref, main_call13.v5.ref, main_call13.v6.ref, main_call13.v7.ref, main_call13.cst_1.ref, main_call13.v8.ref, main_call13.cst_2.ref, main_call13.v9.ref, main_call13.v10.ref, main_call13.v11.ref, main_call13.cst_3.ref, main_call13.v12.ref, main_call13.cst_4.ref, main_call13.call0.v0.ref, main_call13.call0.v1.ref, main_call13.call0.v2.ref, main_v245, main_v246, main_v247, main_cst_35, main_v248, main_v249, main_v250, main_v251, main_v252, main_v253, main_v254, main_v255, main_v256, main_v257, main_v258, main_v259, main_call14.cst.ref, main_call14.v0.ref, main_call14.v1.ref]

/-- The operations of stage opsLayer2, and the references they write. -/
def opsLayer2 : List (HloOp τ sig (Elt F)) := seg6 ++ seg7
def wrLayer2 : List (Ref sig .tc) := wr6 ++ wr7

end Cert.ReferenceIdeal.RRun

end
-- ==== Proof.RefOpsL3.lean ====
/- One stage (`opsLayer3`) of the reference program's @main as a LIST of its host operations, in order, each call of a module-local
   function replaced by the callee's operations over that call's buffer record (a nested call likewise). Each operation is named
   after the reference it writes (`op_‹reference›`); the stage is cut where a printed window of @main ends into segments `segK`,
   beside each the list `wrK` of the references its operations write, in order. A table (142 of the program's 754 operations);
   the statements about it are in RefRun.lean. -/
import proofs.«119086_j26585847562989_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev op_main_c_36 : HloOp τ sig (Elt F) := StableHlo.nullary main_c_36 (constantI S_ 32 0#32)

/-- Segment 8: 1 operations of window 4, stage opsLayer3. -/
def seg8 : List (HloOp τ sig (Elt F)) :=
  [op_main_c_36]

/-- The references segment 8 writes, in order. -/
def wr8 : List (Ref sig .tc) :=
  [main_c_36]

abbrev op_main_v261 : HloOp τ sig (Elt F) := StableHlo.unary main_c_36 main_v261 (broadcastInDim S320000 ![] bcast_S_S320000 : (⟨S_, .i32⟩ : BufTy).Contents (Elt F) → (⟨S320000, .i32⟩ : BufTy).Contents (Elt F))
abbrev op_main_v262 : HloOp τ sig (Elt F) := StableHlo.binary main_v1 main_v261 main_v262 (cmpi .slt : (⟨S320000, .i32⟩ : BufTy).Contents (Elt F) → (⟨S320000, .i32⟩ : BufTy).Contents (Elt F) → (⟨S320000, .i1⟩ : BufTy).Contents (Elt F))
abbrev op_main_c_37 : HloOp τ sig (Elt F) := StableHlo.nullary main_c_37 (constantI S_ 32 20000#32)
abbrev op_main_v263 : HloOp τ sig (Elt F) := StableHlo.unary main_c_37 main_v263 (broadcastInDim S320000 ![] bcast_S_S320000 : (⟨S_, .i32⟩ : BufTy).Contents (Elt F) → (⟨S320000, .i32⟩ : BufTy).Contents (Elt F))
abbrev op_main_v264 : HloOp τ sig (Elt F) := StableHlo.binary main_v1 main_v263 main_v264 (addi : (⟨S320000, .i32⟩ : BufTy).Contents (Elt F) → (⟨S320000, .i32⟩ : BufTy).Contents (Elt F) → (⟨S320000, .i32⟩ : BufTy).Contents (Elt F))
abbrev op_main_v265 : HloOp τ sig (Elt F) := StableHlo.ternary main_v262 main_v264 main_v1 main_v265 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
abbrev op_main_v266 : HloOp τ sig (Elt F) := StableHlo.unary main_v265 main_v266 (broadcastInDim S320000x1 ![0] bcast_S320000_S320000x1_0 : (⟨S320000, .i32⟩ : BufTy).Contents (Elt F) → (⟨S320000x1, .i32⟩ : BufTy).Contents (Elt F))
abbrev op_main_v267 : HloOp τ sig (Elt F) := StableHlo.binary main_v260 main_v266 main_v267 ((fun x i => Host.gather gather_S20000x300_S320000x1_S320000x300_1_0_n_n_0_1_1300 x i) : (⟨S20000x300, .f32⟩ : BufTy).Contents (Elt F) → (⟨S320000x1, .i32⟩ : BufTy).Contents (Elt F) → (⟨S320000x300, .f32⟩ : BufTy).Contents (Elt F))
abbrev op_main_v268 : HloOp τ sig (Elt F) := StableHlo.binary main_v267 main_v14 main_v268 (addf : (⟨S320000x300, .f32⟩ : BufTy).Contents (Elt F) → (⟨S320000x300, .f32⟩ : BufTy).Contents (Elt F) → (⟨S320000x300, .f32⟩ : BufTy).Contents (Elt F))
abbrev op_main_call15_cst : HloOp τ sig (Elt F) := StableHlo.TRef.nullary main_call15.cst (constant S_ .f32 0x00000000#32)
abbrev op_main_call15_v0 : HloOp τ sig (Elt F) := StableHlo.TRef.unary main_call15.cst main_call15.v0 (broadcastInDim S320000x300 ![] bcast_S_S320000x300)
abbrev op_main_call15_v1 : HloOp τ sig (Elt F) := StableHlo.TRef.binary (.of main_v268 : StableHlo.TRef sig ⟨S320000x300, .f32⟩) main_call15.v0 main_call15.v1 maximumf
abbrev op_main_cst_38 : HloOp τ sig (Elt F) := StableHlo.nullary main_cst_38 (constant S_ .f32 0x00000000#32)
abbrev op_main_v270 : HloOp τ sig (Elt F) := StableHlo.unary main_cst_38 main_v270 (broadcastInDim S20000x300 ![] bcast_S_S20000x300 : (⟨S_, .f32⟩ : BufTy).Contents (Elt F) → (⟨S20000x300, .f32⟩ : BufTy).Contents (Elt F))
abbrev op_main_v271 : HloOp τ sig (Elt F) := StableHlo.unary main_v3 main_v271 (broadcastInDim S320000x1 ![0] bcast_S320000_S320000x1_0 : (⟨S320000, .i32⟩ : BufTy).Contents (Elt F) → (⟨S320000x1, .i32⟩ : BufTy).Contents (Elt F))
abbrev op_main_v272 : HloOp τ sig (Elt F) := StableHlo.ternary main_v270 main_v271 main_v269 main_v272 ((fun x i u => Host.scatterAdd scatter_S20000x300_S320000x1_S320000x300_1_0_0_1 x i u) : (⟨S20000x300, .f32⟩ : BufTy).Contents (Elt F) → (⟨S320000x1, .i32⟩ : BufTy).Contents (Elt F) → (⟨S320000x300, .f32⟩ : BufTy).Contents (Elt F) → (⟨S20000x300, .f32⟩ : BufTy).Contents (Elt F))
abbrev op_main_v273 : HloOp τ sig (Elt F) := StableHlo.unary main_arg7 main_v273 ((extractStridedSlice S1 ![3] · slices_S5_S1_3) : (⟨S5, .f32⟩ : BufTy).Contents (Elt F) → (⟨S1, .f32⟩ : BufTy).Contents (Elt F))
abbrev op_main_v274 : HloOp τ sig (Elt F) := StableHlo.reshape main_v273 main_v274 rfl shapeCasts_S1_S_
abbrev op_main_cst_39 : HloOp τ sig (Elt F) := StableHlo.nullary main_cst_39 (constant S_ .f32 0x3F800000#32)
abbrev op_main_v275 : HloOp τ sig (Elt F) := StableHlo.binary main_cst_39 main_v274 main_v275 (addf : (⟨S_, .f32⟩ : BufTy).Contents (Elt F) → (⟨S_, .f32⟩ : BufTy).Contents (Elt F) → (⟨S_, .f32⟩ : BufTy).Contents (Elt F))
abbrev op_main_v276 : HloOp τ sig (Elt F) := StableHlo.unary main_v275 main_v276 (broadcastInDim S20000x300 ![] bcast_S_S20000x300 : (⟨S_, .f32⟩ : BufTy).Contents (Elt F) → (⟨S20000x300, .f32⟩ : BufTy).Contents (Elt F))
abbrev op_main_v277 : HloOp τ sig (Elt F) := StableHlo.binary main_v276 main_v260 main_v277 (mulf : (⟨S20000x300, .f32⟩ : BufTy).Contents (Elt F) → (⟨S20000x300, .f32⟩ : BufTy).Contents (Elt F) → (⟨S20000x300, .f32⟩ : BufTy).Contents (Elt F))
abbrev op_main_v278 : HloOp τ sig (Elt F) := StableHlo.binary main_v277 main_v272 main_v278 (addf : (⟨S20000x300, .f32⟩ : BufTy).Contents (Elt F) → (⟨S20000x300, .f32⟩ : BufTy).Contents (Elt F) → (⟨S20000x300, .f32⟩ : BufTy).Contents (Elt F))
abbrev op_main_v279 : HloOp τ sig (Elt F) := StableHlo.unary main_arg8 main_v279 ((extractStridedSlice S1x300x300 ![3, 0, 0] · slices_S5x300x300_S1x300x300_3_0_0) : (⟨S5x300x300, .f32⟩ : BufTy).Contents (Elt F) → (⟨S1x300x300, .f32⟩ : BufTy).Contents (Elt F))
abbrev op_main_v280 : HloOp τ sig (Elt F) := StableHlo.reshape main_v279 main_v280 rfl shapeCasts_S1x300x300_S300x300
abbrev op_main_v281 : HloOp τ sig (Elt F) := StableHlo.binary main_v278 main_v280 main_v281 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v282 : HloOp τ sig (Elt F) := StableHlo.unary main_arg9 main_v282 ((extractStridedSlice S1x300 ![3, 0] · slices_S5x300_S1x300_3_0) : (⟨S5x300, .f32⟩ : BufTy).Contents (Elt F) → (⟨S1x300, .f32⟩ : BufTy).Contents (Elt F))
abbrev op_main_v283 : HloOp τ sig (Elt F) := StableHlo.reshape main_v282 main_v283 rfl shapeCasts_S1x300_S300
abbrev op_main_v284 : HloOp τ sig (Elt F) := StableHlo.unary main_v283 main_v284 (broadcastInDim S1x300 ![1] bcast_S300_S1x300_1 : (⟨S300, .f32⟩ : BufTy).Contents (Elt F) → (⟨S1x300, .f32⟩ : BufTy).Contents (Elt F))
abbrev op_main_v285 : HloOp τ sig (Elt F) := StableHlo.unary main_v284 main_v285 (broadcastInDim S20000x300 ![0, 1] bcast_S1x300_S20000x300_0_1 : (⟨S1x300, .f32⟩ : BufTy).Contents (Elt F) → (⟨S20000x300, .f32⟩ : BufTy).Contents (Elt F))
abbrev op_main_v286 : HloOp τ sig (Elt F) := StableHlo.binary main_v281 main_v285 main_v286 (addf : (⟨S20000x300, .f32⟩ : BufTy).Contents (Elt F) → (⟨S20000x300, .f32⟩ : BufTy).Contents (Elt F) → (⟨S20000x300, .f32⟩ : BufTy).Contents (Elt F))
abbrev op_main_v287 : HloOp τ sig (Elt F) := StableHlo.unary main_arg10 main_v287 ((extractStridedSlice S1x300 ![3, 0] · slices_S5x300_S1x300_3_0) : (⟨S5x300, .f32⟩ : BufTy).Contents (Elt F) → (⟨S1x300, .f32⟩ : BufTy).Contents (Elt F))
abbrev op_main_v288 : HloOp τ sig (Elt F) := StableHlo.reshape main_v287 main_v288 rfl shapeCasts_S1x300_S300
abbrev op_main_v289 : HloOp τ sig (Elt F) := StableHlo.unary main_arg11 main_v289 ((extractStridedSlice S1x300 ![3, 0] · slices_S5x300_S1x300_3_0) : (⟨S5x300, .f32⟩ : BufTy).Contents (Elt F) → (⟨S1x300, .f32⟩ : BufTy).Contents (Elt F))
abbrev op_main_v290 : HloOp τ sig (Elt F) := StableHlo.reshape main_v289 main_v290 rfl shapeCasts_S1x300_S300
abbrev op_main_cst_40 : HloOp τ sig (Elt F) := StableHlo.nullary main_cst_40 (constant S_ .f32 0x00000000#32)
abbrev op_main_v291 : HloOp τ sig (Elt F) := StableHlo.binary main_v286 main_cst_40 main_v291 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_41 : HloOp τ sig (Elt F) := StableHlo.nullary main_cst_41 (constant S_ .f32 0x469C4000#32)
abbrev op_main_v292 : HloOp τ sig (Elt F) := StableHlo.unary main_cst_41 main_v292 (broadcastInDim S300 ![] bcast_S_S300 : (⟨S_, .f32⟩ : BufTy).Contents (Elt F) → (⟨S300, .f32⟩ : BufTy).Contents (Elt F))
abbrev op_main_v293 : HloOp τ sig (Elt F) := StableHlo.binary main_v291 main_v292 main_v293 (Host.divf : (⟨S300, .f32⟩ : BufTy).Contents (Elt F) → (⟨S300, .f32⟩ : BufTy).Contents (Elt F) → (⟨S300, .f32⟩ : BufTy).Contents (Elt F))
abbrev op_main_c_42 : HloOp τ sig (Elt F) := StableHlo.nullary main_c_42 (constantI S_ 32 0#32)
abbrev op_main_call16_cst : HloOp τ sig (Elt F) := StableHlo.TRef.nullary main_call16.cst (constant S_ .f32 0x00000000#32)
abbrev op_main_call16_v0 : HloOp τ sig (Elt F) := StableHlo.TRef.binary (.of main_v286 : StableHlo.TRef sig ⟨S20000x300, .f32⟩) main_call16.cst main_call16.v0 (fun x v => Host.reduceAdd x v reducesTo_S20000x300_S300_d0 h_S_)
abbrev op_main_call16_v1 : HloOp τ sig (Elt F) := StableHlo.TRef.unary main_call16.v0 main_call16.v1 (broadcastInDim S1x300 ![1] bcast_S300_S1x300_1)
abbrev op_main_call16_cst_0 : HloOp τ sig (Elt F) := StableHlo.TRef.nullary main_call16.cst_0 (constant S_ .f32 0x469C4000#32)
abbrev op_main_call16_v2 : HloOp τ sig (Elt F) := StableHlo.TRef.unary main_call16.cst_0 main_call16.v2 (broadcastInDim S1x300 ![] bcast_S_S1x300)
abbrev op_main_call16_v3 : HloOp τ sig (Elt F) := StableHlo.TRef.binary main_call16.v1 main_call16.v2 main_call16.v3 Host.divf
abbrev op_main_call16_v4 : HloOp τ sig (Elt F) := StableHlo.TRef.unary main_call16.v3 main_call16.v4 (broadcastInDim S20000x300 ![0, 1] bcast_S1x300_S20000x300_0_1)
abbrev op_main_call16_v5 : HloOp τ sig (Elt F) := StableHlo.TRef.binary (.of main_v286 : StableHlo.TRef sig ⟨S20000x300, .f32⟩) main_call16.v4 main_call16.v5 subf
abbrev op_main_call16_v6 : HloOp τ sig (Elt F) := StableHlo.TRef.binary main_call16.v5 main_call16.v5 main_call16.v6 mulf
abbrev op_main_call16_v7 : HloOp τ sig (Elt F) := StableHlo.TRef.unary (.of main_c_42 : StableHlo.TRef sig ⟨S_, .i32⟩) main_call16.v7 (sitofp .f32)
abbrev op_main_call16_cst_1 : HloOp τ sig (Elt F) := StableHlo.TRef.nullary main_call16.cst_1 (constant S_ .f32 0x469C4000#32)
abbrev op_main_call16_v8 : HloOp τ sig (Elt F) := StableHlo.TRef.binary main_call16.cst_1 main_call16.v7 main_call16.v8 subf
abbrev op_main_call16_cst_2 : HloOp τ sig (Elt F) := StableHlo.TRef.nullary main_call16.cst_2 (constant S_ .f32 0x00000000#32)
abbrev op_main_call16_v9 : HloOp τ sig (Elt F) := StableHlo.TRef.binary main_call16.v6 main_call16.cst_2 main_call16.v9 (fun x v => Host.reduceAdd x v reducesTo_S20000x300_S300_d0 h_S_)
abbrev op_main_call16_v10 : HloOp τ sig (Elt F) := StableHlo.TRef.unary main_call16.v8 main_call16.v10 (broadcastInDim S300 ![] bcast_S_S300)
abbrev op_main_call16_v11 : HloOp τ sig (Elt F) := StableHlo.TRef.binary main_call16.v9 main_call16.v10 main_call16.v11 Host.divf
abbrev op_main_call16_cst_3 : HloOp τ sig (Elt F) := StableHlo.TRef.nullary main_call16.cst_3 (constant S_ .f32 0x00000000#32)
abbrev op_main_call16_v12 : HloOp τ sig (Elt F) := StableHlo.TRef.binary main_call16.v8 main_call16.cst_3 main_call16.v12 (cmpf .ogt)
abbrev op_main_call16_cst_4 : HloOp τ sig (Elt F) := StableHlo.TRef.nullary main_call16.cst_4 (constant S_ .f32 0x7FC00000#32)
abbrev op_main_call16_call0_v0 : HloOp τ sig (Elt F) := StableHlo.TRef.unary main_call16.cst_4 main_call16.call0.v0 id
abbrev op_main_call16_call0_v1 : HloOp τ sig (Elt F) := StableHlo.TRef.unary main_call16.call0.v0 main_call16.call0.v1 (broadcastInDim S300 ![] bcast_S_S300)
abbrev op_main_call16_call0_v2 : HloOp τ sig (Elt F) := StableHlo.TRef.ternary main_call16.v12 main_call16.v11 main_call16.call0.v1 main_call16.call0.v2 (fun p a b => select (broadcastInDim S300 ![] bcast_S_S300 p) a b)
abbrev op_main_v295 : HloOp τ sig (Elt F) := StableHlo.unary main_v293 main_v295 (broadcastInDim S1x300 ![1] bcast_S300_S1x300_1 : (⟨S300, .f32⟩ : BufTy).Contents (Elt F) → (⟨S1x300, .f32⟩ : BufTy).Contents (Elt F))
abbrev op_main_v296 : HloOp τ sig (Elt F) := StableHlo.unary main_v295 main_v296 (broadcastInDim S20000x300 ![0, 1] bcast_S1x300_S20000x300_0_1 : (⟨S1x300, .f32⟩ : BufTy).Contents (Elt F) → (⟨S20000x300, .f32⟩ : BufTy).Contents (Elt F))
abbrev op_main_v297 : HloOp τ sig (Elt F) := StableHlo.binary main_v286 main_v296 main_v297 (subf : (⟨S20000x300, .f32⟩ : BufTy).Contents (Elt F) → (⟨S20000x300, .f32⟩ : BufTy).Contents (Elt F) → (⟨S20000x300, .f32⟩ : BufTy).Contents (Elt F))
abbrev op_main_cst_43 : HloOp τ sig (Elt F) := StableHlo.nullary main_cst_43 (constant S_ .f32 0x3727C5AC#32)
abbrev op_main_v298 : HloOp τ sig (Elt F) := StableHlo.unary main_cst_43 main_v298 (broadcastInDim S300 ![] bcast_S_S300 : (⟨S_, .f32⟩ : BufTy).Contents (Elt F) → (⟨S300, .f32⟩ : BufTy).Contents (Elt F))
abbrev op_main_v299 : HloOp τ sig (Elt F) := StableHlo.binary main_v294 main_v298 main_v299 (addf : (⟨S300, .f32⟩ : BufTy).Contents (Elt F) → (⟨S300, .f32⟩ : BufTy).Contents (Elt F) → (⟨S300, .f32⟩ : BufTy).Contents (Elt F))
abbrev op_main_v300 : HloOp τ sig (Elt F) := StableHlo.unary main_v299 main_v300 (Host.rsqrt : (⟨S300, .f32⟩ : BufTy).Contents (Elt F) → (⟨S300, .f32⟩ : BufTy).Contents (Elt F))
abbrev op_main_v301 : HloOp τ sig (Elt F) := StableHlo.unary main_v300 main_v301 (broadcastInDim S1x300 ![1] bcast_S300_S1x300_1 : (⟨S300, .f32⟩ : BufTy).Contents (Elt F) → (⟨S1x300, .f32⟩ : BufTy).Contents (Elt F))
abbrev op_main_v302 : HloOp τ sig (Elt F) := StableHlo.unary main_v301 main_v302 (broadcastInDim S20000x300 ![0, 1] bcast_S1x300_S20000x300_0_1 : (⟨S1x300, .f32⟩ : BufTy).Contents (Elt F) → (⟨S20000x300, .f32⟩ : BufTy).Contents (Elt F))
abbrev op_main_v303 : HloOp τ sig (Elt F) := StableHlo.binary main_v297 main_v302 main_v303 (mulf : (⟨S20000x300, .f32⟩ : BufTy).Contents (Elt F) → (⟨S20000x300, .f32⟩ : BufTy).Contents (Elt F) → (⟨S20000x300, .f32⟩ : BufTy).Contents (Elt F))
abbrev op_main_v304 : HloOp τ sig (Elt F) := StableHlo.unary main_v288 main_v304 (broadcastInDim S1x300 ![1] bcast_S300_S1x300_1 : (⟨S300, .f32⟩ : BufTy).Contents (Elt F) → (⟨S1x300, .f32⟩ : BufTy).Contents (Elt F))
abbrev op_main_v305 : HloOp τ sig (Elt F) := StableHlo.unary main_v304 main_v305 (broadcastInDim S20000x300 ![0, 1] bcast_S1x300_S20000x300_0_1 : (⟨S1x300, .f32⟩ : BufTy).Contents (Elt F) → (⟨S20000x300, .f32⟩ : BufTy).Contents (Elt F))
abbrev op_main_v306 : HloOp τ sig (Elt F) := StableHlo.binary main_v303 main_v305 main_v306 (mulf : (⟨S20000x300, .f32⟩ : BufTy).Contents (Elt F) → (⟨S20000x300, .f32⟩ : BufTy).Contents (Elt F) → (⟨S20000x300, .f32⟩ : BufTy).Contents (Elt F))
abbrev op_main_v307 : HloOp τ sig (Elt F) := StableHlo.unary main_v290 main_v307 (broadcastInDim S1x300 ![1] bcast_S300_S1x300_1 : (⟨S300, .f32⟩ : BufTy).Contents (Elt F) → (⟨S1x300, .f32⟩ : BufTy).Contents (Elt F))
abbrev op_main_v308 : HloOp τ sig (Elt F) := StableHlo.unary main_v307 main_v308 (broadcastInDim S20000x300 ![0, 1] bcast_S1x300_S20000x300_0_1 : (⟨S1x300, .f32⟩ : BufTy).Contents (Elt F) → (⟨S20000x300, .f32⟩ : BufTy).Contents (Elt F))
abbrev op_main_v309 : HloOp τ sig (Elt F) := StableHlo.binary main_v306 main_v308 main_v309 (addf : (⟨S20000x300, .f32⟩ : BufTy).Contents (Elt F) → (⟨S20000x300, .f32⟩ : BufTy).Contents (Elt F) → (⟨S20000x300, .f32⟩ : BufTy).Contents (Elt F))
abbrev op_main_call17_cst : HloOp τ sig (Elt F) := StableHlo.TRef.nullary main_call17.cst (constant S_ .f32 0x00000000#32)
abbrev op_main_call17_v0 : HloOp τ sig (Elt F) := StableHlo.TRef.unary main_call17.cst main_call17.v0 (broadcastInDim S20000x300 ![] bcast_S_S20000x300)
abbrev op_main_call17_v1 : HloOp τ sig (Elt F) := StableHlo.TRef.binary (.of main_v309 : StableHlo.TRef sig ⟨S20000x300, .f32⟩) main_call17.v0 main_call17.v1 maximumf
abbrev op_main_v311 : HloOp τ sig (Elt F) := StableHlo.unary main_arg12 main_v311 ((extractStridedSlice S1x300x300 ![3, 0, 0] · slices_S5x300x300_S1x300x300_3_0_0) : (⟨S5x300x300, .f32⟩ : BufTy).Contents (Elt F) → (⟨S1x300x300, .f32⟩ : BufTy).Contents (Elt F))
abbrev op_main_v312 : HloOp τ sig (Elt F) := StableHlo.reshape main_v311 main_v312 rfl shapeCasts_S1x300x300_S300x300
abbrev op_main_v313 : HloOp τ sig (Elt F) := StableHlo.binary main_v310 main_v312 main_v313 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))

/-- Segment 9: 85 operations of window 5, stage opsLayer3. -/
def seg9 : List (HloOp τ sig (Elt F)) :=
  [op_main_v261, op_main_v262, op_main_c_37, op_main_v263, op_main_v264, op_main_v265, op_main_v266, op_main_v267, op_main_v268, op_main_call15_cst, op_main_call15_v0, op_main_call15_v1, op_main_cst_38, op_main_v270, op_main_v271, op_main_v272, op_main_v273, op_main_v274, op_main_cst_39, op_main_v275, op_main_v276, op_main_v277, op_main_v278, op_main_v279, op_main_v280, op_main_v281, op_main_v282, op_main_v283, op_main_v284, op_main_v285, op_main_v286, op_main_v287, op_main_v288, op_main_v289, op_main_v290, op_main_cst_40, op_main_v291, op_main_cst_41, op_main_v292, op_main_v293, op_main_c_42, op_main_call16_cst, op_main_call16_v0, op_main_call16_v1, op_main_call16_cst_0, op_main_call16_v2, op_main_call16_v3, op_main_call16_v4, op_main_call16_v5, op_main_call16_v6, op_main_call16_v7, op_main_call16_cst_1, op_main_call16_v8, op_main_call16_cst_2, op_main_call16_v9, op_main_call16_v10, op_main_call16_v11, op_main_call16_cst_3, op_main_call16_v12, op_main_call16_cst_4, op_main_call16_call0_v0, op_main_call16_call0_v1, op_main_call16_call0_v2, op_main_v295, op_main_v296, op_main_v297, op_main_cst_43, op_main_v298, op_main_v299, op_main_v300, op_main_v301, op_main_v302, op_main_v303, op_main_v304, op_main_v305, op_main_v306, op_main_v307, op_main_v308, op_main_v309, op_main_call17_cst, op_main_call17_v0, op_main_call17_v1, op_main_v311, op_main_v312, op_main_v313]

/-- The references segment 9 writes, in order. -/
def wr9 : List (Ref sig .tc) :=
  [main_v261, main_v262, main_c_37, main_v263, main_v264, main_v265, main_v266, main_v267, main_v268, main_call15.cst.ref, main_call15.v0.ref, main_call15.v1.ref, main_cst_38, main_v270, main_v271, main_v272, main_v273, main_v274, main_cst_39, main_v275, main_v276, main_v277, main_v278, main_v279, main_v280, main_v281, main_v282, main_v283, main_v284, main_v285, main_v286, main_v287, main_v288, main_v289, main_v290, main_cst_40, main_v291, main_cst_41, main_v292, main_v293, main_c_42, main_call16.cst.ref, main_call16.v0.ref, main_call16.v1.ref, main_call16.cst_0.ref, main_call16.v2.ref, main_call16.v3.ref, main_call16.v4.ref, main_call16.v5.ref, main_call16.v6.ref, main_call16.v7.ref, main_call16.cst_1.ref, main_call16.v8.ref, main_call16.cst_2.ref, main_call16.v9.ref, main_call16.v10.ref, main_call16.v11.ref, main_call16.cst_3.ref, main_call16.v12.ref, main_call16.cst_4.ref, main_call16.call0.v0.ref, main_call16.call0.v1.ref, main_call16.call0.v2.ref, main_v295, main_v296, main_v297, main_cst_43, main_v298, main_v299, main_v300, main_v301, main_v302, main_v303, main_v304, main_v305, main_v306, main_v307, main_v308, main_v309, main_call17.cst.ref, main_call17.v0.ref, main_call17.v1.ref, main_v311, main_v312, main_v313]

abbrev op_main_v314 : HloOp τ sig (Elt F) := StableHlo.unary main_arg13 main_v314 ((extractStridedSlice S1x300 ![3, 0] · slices_S5x300_S1x300_3_0) : (⟨S5x300, .f32⟩ : BufTy).Contents (Elt F) → (⟨S1x300, .f32⟩ : BufTy).Contents (Elt F))
abbrev op_main_v315 : HloOp τ sig (Elt F) := StableHlo.reshape main_v314 main_v315 rfl shapeCasts_S1x300_S300
abbrev op_main_v316 : HloOp τ sig (Elt F) := StableHlo.unary main_v315 main_v316 (broadcastInDim S1x300 ![1] bcast_S300_S1x300_1 : (⟨S300, .f32⟩ : BufTy).Contents (Elt F) → (⟨S1x300, .f32⟩ : BufTy).Contents (Elt F))
abbrev op_main_v317 : HloOp τ sig (Elt F) := StableHlo.unary main_v316 main_v317 (broadcastInDim S20000x300 ![0, 1] bcast_S1x300_S20000x300_0_1 : (⟨S1x300, .f32⟩ : BufTy).Contents (Elt F) → (⟨S20000x300, .f32⟩ : BufTy).Contents (Elt F))
abbrev op_main_v318 : HloOp τ sig (Elt F) := StableHlo.binary main_v313 main_v317 main_v318 (addf : (⟨S20000x300, .f32⟩ : BufTy).Contents (Elt F) → (⟨S20000x300, .f32⟩ : BufTy).Contents (Elt F) → (⟨S20000x300, .f32⟩ : BufTy).Contents (Elt F))
abbrev op_main_v319 : HloOp τ sig (Elt F) := StableHlo.unary main_arg14 main_v319 ((extractStridedSlice S1x300 ![3, 0] · slices_S5x300_S1x300_3_0) : (⟨S5x300, .f32⟩ : BufTy).Contents (Elt F) → (⟨S1x300, .f32⟩ : BufTy).Contents (Elt F))
abbrev op_main_v320 : HloOp τ sig (Elt F) := StableHlo.reshape main_v319 main_v320 rfl shapeCasts_S1x300_S300
abbrev op_main_v321 : HloOp τ sig (Elt F) := StableHlo.unary main_arg15 main_v321 ((extractStridedSlice S1x300 ![3, 0] · slices_S5x300_S1x300_3_0) : (⟨S5x300, .f32⟩ : BufTy).Contents (Elt F) → (⟨S1x300, .f32⟩ : BufTy).Contents (Elt F))
abbrev op_main_v322 : HloOp τ sig (Elt F) := StableHlo.reshape main_v321 main_v322 rfl shapeCasts_S1x300_S300
abbrev op_main_cst_44 : HloOp τ sig (Elt F) := StableHlo.nullary main_cst_44 (constant S_ .f32 0x00000000#32)
abbrev op_main_v323 : HloOp τ sig (Elt F) := StableHlo.binary main_v318 main_cst_44 main_v323 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_45 : HloOp τ sig (Elt F) := StableHlo.nullary main_cst_45 (constant S_ .f32 0x469C4000#32)
abbrev op_main_v324 : HloOp τ sig (Elt F) := StableHlo.unary main_cst_45 main_v324 (broadcastInDim S300 ![] bcast_S_S300 : (⟨S_, .f32⟩ : BufTy).Contents (Elt F) → (⟨S300, .f32⟩ : BufTy).Contents (Elt F))
abbrev op_main_v325 : HloOp τ sig (Elt F) := StableHlo.binary main_v323 main_v324 main_v325 (Host.divf : (⟨S300, .f32⟩ : BufTy).Contents (Elt F) → (⟨S300, .f32⟩ : BufTy).Contents (Elt F) → (⟨S300, .f32⟩ : BufTy).Contents (Elt F))
abbrev op_main_c_46 : HloOp τ sig (Elt F) := StableHlo.nullary main_c_46 (constantI S_ 32 0#32)
abbrev op_main_call18_cst : HloOp τ sig (Elt F) := StableHlo.TRef.nullary main_call18.cst (constant S_ .f32 0x00000000#32)
abbrev op_main_call18_v0 : HloOp τ sig (Elt F) := StableHlo.TRef.binary (.of main_v318 : StableHlo.TRef sig ⟨S20000x300, .f32⟩) main_call18.cst main_call18.v0 (fun x v => Host.reduceAdd x v reducesTo_S20000x300_S300_d0 h_S_)
abbrev op_main_call18_v1 : HloOp τ sig (Elt F) := StableHlo.TRef.unary main_call18.v0 main_call18.v1 (broadcastInDim S1x300 ![1] bcast_S300_S1x300_1)
abbrev op_main_call18_cst_0 : HloOp τ sig (Elt F) := StableHlo.TRef.nullary main_call18.cst_0 (constant S_ .f32 0x469C4000#32)
abbrev op_main_call18_v2 : HloOp τ sig (Elt F) := StableHlo.TRef.unary main_call18.cst_0 main_call18.v2 (broadcastInDim S1x300 ![] bcast_S_S1x300)
abbrev op_main_call18_v3 : HloOp τ sig (Elt F) := StableHlo.TRef.binary main_call18.v1 main_call18.v2 main_call18.v3 Host.divf
abbrev op_main_call18_v4 : HloOp τ sig (Elt F) := StableHlo.TRef.unary main_call18.v3 main_call18.v4 (broadcastInDim S20000x300 ![0, 1] bcast_S1x300_S20000x300_0_1)
abbrev op_main_call18_v5 : HloOp τ sig (Elt F) := StableHlo.TRef.binary (.of main_v318 : StableHlo.TRef sig ⟨S20000x300, .f32⟩) main_call18.v4 main_call18.v5 subf
abbrev op_main_call18_v6 : HloOp τ sig (Elt F) := StableHlo.TRef.binary main_call18.v5 main_call18.v5 main_call18.v6 mulf
abbrev op_main_call18_v7 : HloOp τ sig (Elt F) := StableHlo.TRef.unary (.of main_c_46 : StableHlo.TRef sig ⟨S_, .i32⟩) main_call18.v7 (sitofp .f32)
abbrev op_main_call18_cst_1 : HloOp τ sig (Elt F) := StableHlo.TRef.nullary main_call18.cst_1 (constant S_ .f32 0x469C4000#32)
abbrev op_main_call18_v8 : HloOp τ sig (Elt F) := StableHlo.TRef.binary main_call18.cst_1 main_call18.v7 main_call18.v8 subf
abbrev op_main_call18_cst_2 : HloOp τ sig (Elt F) := StableHlo.TRef.nullary main_call18.cst_2 (constant S_ .f32 0x00000000#32)
abbrev op_main_call18_v9 : HloOp τ sig (Elt F) := StableHlo.TRef.binary main_call18.v6 main_call18.cst_2 main_call18.v9 (fun x v => Host.reduceAdd x v reducesTo_S20000x300_S300_d0 h_S_)
abbrev op_main_call18_v10 : HloOp τ sig (Elt F) := StableHlo.TRef.unary main_call18.v8 main_call18.v10 (broadcastInDim S300 ![] bcast_S_S300)
abbrev op_main_call18_v11 : HloOp τ sig (Elt F) := StableHlo.TRef.binary main_call18.v9 main_call18.v10 main_call18.v11 Host.divf
abbrev op_main_call18_cst_3 : HloOp τ sig (Elt F) := StableHlo.TRef.nullary main_call18.cst_3 (constant S_ .f32 0x00000000#32)
abbrev op_main_call18_v12 : HloOp τ sig (Elt F) := StableHlo.TRef.binary main_call18.v8 main_call18.cst_3 main_call18.v12 (cmpf .ogt)
abbrev op_main_call18_cst_4 : HloOp τ sig (Elt F) := StableHlo.TRef.nullary main_call18.cst_4 (constant S_ .f32 0x7FC00000#32)
abbrev op_main_call18_call0_v0 : HloOp τ sig (Elt F) := StableHlo.TRef.unary main_call18.cst_4 main_call18.call0.v0 id
abbrev op_main_call18_call0_v1 : HloOp τ sig (Elt F) := StableHlo.TRef.unary main_call18.call0.v0 main_call18.call0.v1 (broadcastInDim S300 ![] bcast_S_S300)
abbrev op_main_call18_call0_v2 : HloOp τ sig (Elt F) := StableHlo.TRef.ternary main_call18.v12 main_call18.v11 main_call18.call0.v1 main_call18.call0.v2 (fun p a b => select (broadcastInDim S300 ![] bcast_S_S300 p) a b)
abbrev op_main_v327 : HloOp τ sig (Elt F) := StableHlo.unary main_v325 main_v327 (broadcastInDim S1x300 ![1] bcast_S300_S1x300_1 : (⟨S300, .f32⟩ : BufTy).Contents (Elt F) → (⟨S1x300, .f32⟩ : BufTy).Contents (Elt F))
abbrev op_main_v328 : HloOp τ sig (Elt F) := StableHlo.unary main_v327 main_v328 (broadcastInDim S20000x300 ![0, 1] bcast_S1x300_S20000x300_0_1 : (⟨S1x300, .f32⟩ : BufTy).Contents (Elt F) → (⟨S20000x300, .f32⟩ : BufTy).Contents (Elt F))
abbrev op_main_v329 : HloOp τ sig (Elt F) := StableHlo.binary main_v318 main_v328 main_v329 (subf : (⟨S20000x300, .f32⟩ : BufTy).Contents (Elt F) → (⟨S20000x300, .f32⟩ : BufTy).Contents (Elt F) → (⟨S20000x300, .f32⟩ : BufTy).Contents (Elt F))
abbrev op_main_cst_47 : HloOp τ sig (Elt F) := StableHlo.nullary main_cst_47 (constant S_ .f32 0x3727C5AC#32)
abbrev op_main_v330 : HloOp τ sig (Elt F) := StableHlo.unary main_cst_47 main_v330 (broadcastInDim S300 ![] bcast_S_S300 : (⟨S_, .f32⟩ : BufTy).Contents (Elt F) → (⟨S300, .f32⟩ : BufTy).Contents (Elt F))
abbrev op_main_v331 : HloOp τ sig (Elt F) := StableHlo.binary main_v326 main_v330 main_v331 (addf : (⟨S300, .f32⟩ : BufTy).Contents (Elt F) → (⟨S300, .f32⟩ : BufTy).Contents (Elt F) → (⟨S300, .f32⟩ : BufTy).Contents (Elt F))
abbrev op_main_v332 : HloOp τ sig (Elt F) := StableHlo.unary main_v331 main_v332 (Host.rsqrt : (⟨S300, .f32⟩ : BufTy).Contents (Elt F) → (⟨S300, .f32⟩ : BufTy).Contents (Elt F))
abbrev op_main_v333 : HloOp τ sig (Elt F) := StableHlo.unary main_v332 main_v333 (broadcastInDim S1x300 ![1] bcast_S300_S1x300_1 : (⟨S300, .f32⟩ : BufTy).Contents (Elt F) → (⟨S1x300, .f32⟩ : BufTy).Contents (Elt F))
abbrev op_main_v334 : HloOp τ sig (Elt F) := StableHlo.unary main_v333 main_v334 (broadcastInDim S20000x300 ![0, 1] bcast_S1x300_S20000x300_0_1 : (⟨S1x300, .f32⟩ : BufTy).Contents (Elt F) → (⟨S20000x300, .f32⟩ : BufTy).Contents (Elt F))
abbrev op_main_v335 : HloOp τ sig (Elt F) := StableHlo.binary main_v329 main_v334 main_v335 (mulf : (⟨S20000x300, .f32⟩ : BufTy).Contents (Elt F) → (⟨S20000x300, .f32⟩ : BufTy).Contents (Elt F) → (⟨S20000x300, .f32⟩ : BufTy).Contents (Elt F))
abbrev op_main_v336 : HloOp τ sig (Elt F) := StableHlo.unary main_v320 main_v336 (broadcastInDim S1x300 ![1] bcast_S300_S1x300_1 : (⟨S300, .f32⟩ : BufTy).Contents (Elt F) → (⟨S1x300, .f32⟩ : BufTy).Contents (Elt F))
abbrev op_main_v337 : HloOp τ sig (Elt F) := StableHlo.unary main_v336 main_v337 (broadcastInDim S20000x300 ![0, 1] bcast_S1x300_S20000x300_0_1 : (⟨S1x300, .f32⟩ : BufTy).Contents (Elt F) → (⟨S20000x300, .f32⟩ : BufTy).Contents (Elt F))
abbrev op_main_v338 : HloOp τ sig (Elt F) := StableHlo.binary main_v335 main_v337 main_v338 (mulf : (⟨S20000x300, .f32⟩ : BufTy).Contents (Elt F) → (⟨S20000x300, .f32⟩ : BufTy).Contents (Elt F) → (⟨S20000x300, .f32⟩ : BufTy).Contents (Elt F))
abbrev op_main_v339 : HloOp τ sig (Elt F) := StableHlo.unary main_v322 main_v339 (broadcastInDim S1x300 ![1] bcast_S300_S1x300_1 : (⟨S300, .f32⟩ : BufTy).Contents (Elt F) → (⟨S1x300, .f32⟩ : BufTy).Contents (Elt F))
abbrev op_main_v340 : HloOp τ sig (Elt F) := StableHlo.unary main_v339 main_v340 (broadcastInDim S20000x300 ![0, 1] bcast_S1x300_S20000x300_0_1 : (⟨S1x300, .f32⟩ : BufTy).Contents (Elt F) → (⟨S20000x300, .f32⟩ : BufTy).Contents (Elt F))
abbrev op_main_v341 : HloOp τ sig (Elt F) := StableHlo.binary main_v338 main_v340 main_v341 (addf : (⟨S20000x300, .f32⟩ : BufTy).Contents (Elt F) → (⟨S20000x300, .f32⟩ : BufTy).Contents (Elt F) → (⟨S20000x300, .f32⟩ : BufTy).Contents (Elt F))
abbrev op_main_call19_cst : HloOp τ sig (Elt F) := StableHlo.TRef.nullary main_call19.cst (constant S_ .f32 0x00000000#32)
abbrev op_main_call19_v0 : HloOp τ sig (Elt F) := StableHlo.TRef.unary main_call19.cst main_call19.v0 (broadcastInDim S20000x300 ![] bcast_S_S20000x300)
abbrev op_main_call19_v1 : HloOp τ sig (Elt F) := StableHlo.TRef.binary (.of main_v341 : StableHlo.TRef sig ⟨S20000x300, .f32⟩) main_call19.v0 main_call19.v1 maximumf

/-- Segment 10: 56 operations of window 6, stage opsLayer3. -/
def seg10 : List (HloOp τ sig (Elt F)) :=
  [op_main_v314, op_main_v315, op_main_v316, op_main_v317, op_main_v318, op_main_v319, op_main_v320, op_main_v321, op_main_v322, op_main_cst_44, op_main_v323, op_main_cst_45, op_main_v324, op_main_v325, op_main_c_46, op_main_call18_cst, op_main_call18_v0, op_main_call18_v1, op_main_call18_cst_0, op_main_call18_v2, op_main_call18_v3, op_main_call18_v4, op_main_call18_v5, op_main_call18_v6, op_main_call18_v7, op_main_call18_cst_1, op_main_call18_v8, op_main_call18_cst_2, op_main_call18_v9, op_main_call18_v10, op_main_call18_v11, op_main_call18_cst_3, op_main_call18_v12, op_main_call18_cst_4, op_main_call18_call0_v0, op_main_call18_call0_v1, op_main_call18_call0_v2, op_main_v327, op_main_v328, op_main_v329, op_main_cst_47, op_main_v330, op_main_v331, op_main_v332, op_main_v333, op_main_v334, op_main_v335, op_main_v336, op_main_v337, op_main_v338, op_main_v339, op_main_v340, op_main_v341, op_main_call19_cst, op_main_call19_v0, op_main_call19_v1]

/-- The references segment 10 writes, in order. -/
def wr10 : List (Ref sig .tc) :=
  [main_v314, main_v315, main_v316, main_v317, main_v318, main_v319, main_v320, main_v321, main_v322, main_cst_44, main_v323, main_cst_45, main_v324, main_v325, main_c_46, main_call18.cst.ref, main_call18.v0.ref, main_call18.v1.ref, main_call18.cst_0.ref, main_call18.v2.ref, main_call18.v3.ref, main_call18.v4.ref, main_call18.v5.ref, main_call18.v6.ref, main_call18.v7.ref, main_call18.cst_1.ref, main_call18.v8.ref, main_call18.cst_2.ref, main_call18.v9.ref, main_call18.v10.ref, main_call18.v11.ref, main_call18.cst_3.ref, main_call18.v12.ref, main_call18.cst_4.ref, main_call18.call0.v0.ref, main_call18.call0.v1.ref, main_call18.call0.v2.ref, main_v327, main_v328, main_v329, main_cst_47, main_v330, main_v331, main_v332, main_v333, main_v334, main_v335, main_v336, main_v337, main_v338, main_v339, main_v340, main_v341, main_call19.cst.ref, main_call19.v0.ref, main_call19.v1.ref]

/-- The operations of stage opsLayer3, and the references they write. -/
def opsLayer3 : List (HloOp τ sig (Elt F)) := seg8 ++ seg9 ++ seg10
def wrLayer3 : List (Ref sig .tc) := wr8 ++ wr9 ++ wr10

end Cert.ReferenceIdeal.RRun

end
-- ==== Proof.RefOpsL4.lean ====
/- One stage (`opsLayer4`) of the reference program's @main as a LIST of its host operations, in order, each call of a module-local
   function replaced by the callee's operations over that call's buffer record (a nested call likewise). Each operation is named
   after the reference it writes (`op_‹reference›`); the stage is cut where a printed window of @main ends into segments `segK`,
   beside each the list `wrK` of the references its operations write, in order. A table (142 of the program's 754 operations);
   the statements about it are in RefRun.lean. -/
import proofs.«119086_j26585847562989_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev op_main_c_48 : HloOp τ sig (Elt F) := StableHlo.nullary main_c_48 (constantI S_ 32 0#32)
abbrev op_main_v343 : HloOp τ sig (Elt F) := StableHlo.unary main_c_48 main_v343 (broadcastInDim S320000 ![] bcast_S_S320000 : (⟨S_, .i32⟩ : BufTy).Contents (Elt F) → (⟨S320000, .i32⟩ : BufTy).Contents (Elt F))
abbrev op_main_v344 : HloOp τ sig (Elt F) := StableHlo.binary main_v1 main_v343 main_v344 (cmpi .slt : (⟨S320000, .i32⟩ : BufTy).Contents (Elt F) → (⟨S320000, .i32⟩ : BufTy).Contents (Elt F) → (⟨S320000, .i1⟩ : BufTy).Contents (Elt F))
abbrev op_main_c_49 : HloOp τ sig (Elt F) := StableHlo.nullary main_c_49 (constantI S_ 32 20000#32)
abbrev op_main_v345 : HloOp τ sig (Elt F) := StableHlo.unary main_c_49 main_v345 (broadcastInDim S320000 ![] bcast_S_S320000 : (⟨S_, .i32⟩ : BufTy).Contents (Elt F) → (⟨S320000, .i32⟩ : BufTy).Contents (Elt F))
abbrev op_main_v346 : HloOp τ sig (Elt F) := StableHlo.binary main_v1 main_v345 main_v346 (addi : (⟨S320000, .i32⟩ : BufTy).Contents (Elt F) → (⟨S320000, .i32⟩ : BufTy).Contents (Elt F) → (⟨S320000, .i32⟩ : BufTy).Contents (Elt F))
abbrev op_main_v347 : HloOp τ sig (Elt F) := StableHlo.ternary main_v344 main_v346 main_v1 main_v347 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
abbrev op_main_v348 : HloOp τ sig (Elt F) := StableHlo.unary main_v347 main_v348 (broadcastInDim S320000x1 ![0] bcast_S320000_S320000x1_0 : (⟨S320000, .i32⟩ : BufTy).Contents (Elt F) → (⟨S320000x1, .i32⟩ : BufTy).Contents (Elt F))
abbrev op_main_v349 : HloOp τ sig (Elt F) := StableHlo.binary main_v342 main_v348 main_v349 ((fun x i => Host.gather gather_S20000x300_S320000x1_S320000x300_1_0_n_n_0_1_1300 x i) : (⟨S20000x300, .f32⟩ : BufTy).Contents (Elt F) → (⟨S320000x1, .i32⟩ : BufTy).Contents (Elt F) → (⟨S320000x300, .f32⟩ : BufTy).Contents (Elt F))
abbrev op_main_v350 : HloOp τ sig (Elt F) := StableHlo.binary main_v349 main_v14 main_v350 (addf : (⟨S320000x300, .f32⟩ : BufTy).Contents (Elt F) → (⟨S320000x300, .f32⟩ : BufTy).Contents (Elt F) → (⟨S320000x300, .f32⟩ : BufTy).Contents (Elt F))
abbrev op_main_call20_cst : HloOp τ sig (Elt F) := StableHlo.TRef.nullary main_call20.cst (constant S_ .f32 0x00000000#32)
abbrev op_main_call20_v0 : HloOp τ sig (Elt F) := StableHlo.TRef.unary main_call20.cst main_call20.v0 (broadcastInDim S320000x300 ![] bcast_S_S320000x300)
abbrev op_main_call20_v1 : HloOp τ sig (Elt F) := StableHlo.TRef.binary (.of main_v350 : StableHlo.TRef sig ⟨S320000x300, .f32⟩) main_call20.v0 main_call20.v1 maximumf
abbrev op_main_cst_50 : HloOp τ sig (Elt F) := StableHlo.nullary main_cst_50 (constant S_ .f32 0x00000000#32)
abbrev op_main_v352 : HloOp τ sig (Elt F) := StableHlo.unary main_cst_50 main_v352 (broadcastInDim S20000x300 ![] bcast_S_S20000x300 : (⟨S_, .f32⟩ : BufTy).Contents (Elt F) → (⟨S20000x300, .f32⟩ : BufTy).Contents (Elt F))
abbrev op_main_v353 : HloOp τ sig (Elt F) := StableHlo.unary main_v3 main_v353 (broadcastInDim S320000x1 ![0] bcast_S320000_S320000x1_0 : (⟨S320000, .i32⟩ : BufTy).Contents (Elt F) → (⟨S320000x1, .i32⟩ : BufTy).Contents (Elt F))
abbrev op_main_v354 : HloOp τ sig (Elt F) := StableHlo.ternary main_v352 main_v353 main_v351 main_v354 ((fun x i u => Host.scatterAdd scatter_S20000x300_S320000x1_S320000x300_1_0_0_1 x i u) : (⟨S20000x300, .f32⟩ : BufTy).Contents (Elt F) → (⟨S320000x1, .i32⟩ : BufTy).Contents (Elt F) → (⟨S320000x300, .f32⟩ : BufTy).Contents (Elt F) → (⟨S20000x300, .f32⟩ : BufTy).Contents (Elt F))
abbrev op_main_v355 : HloOp τ sig (Elt F) := StableHlo.unary main_arg7 main_v355 ((extractStridedSlice S1 ![4] · slices_S5_S1_4) : (⟨S5, .f32⟩ : BufTy).Contents (Elt F) → (⟨S1, .f32⟩ : BufTy).Contents (Elt F))
abbrev op_main_v356 : HloOp τ sig (Elt F) := StableHlo.reshape main_v355 main_v356 rfl shapeCasts_S1_S_
abbrev op_main_cst_51 : HloOp τ sig (Elt F) := StableHlo.nullary main_cst_51 (constant S_ .f32 0x3F800000#32)
abbrev op_main_v357 : HloOp τ sig (Elt F) := StableHlo.binary main_cst_51 main_v356 main_v357 (addf : (⟨S_, .f32⟩ : BufTy).Contents (Elt F) → (⟨S_, .f32⟩ : BufTy).Contents (Elt F) → (⟨S_, .f32⟩ : BufTy).Contents (Elt F))
abbrev op_main_v358 : HloOp τ sig (Elt F) := StableHlo.unary main_v357 main_v358 (broadcastInDim S20000x300 ![] bcast_S_S20000x300 : (⟨S_, .f32⟩ : BufTy).Contents (Elt F) → (⟨S20000x300, .f32⟩ : BufTy).Contents (Elt F))
abbrev op_main_v359 : HloOp τ sig (Elt F) := StableHlo.binary main_v358 main_v342 main_v359 (mulf : (⟨S20000x300, .f32⟩ : BufTy).Contents (Elt F) → (⟨S20000x300, .f32⟩ : BufTy).Contents (Elt F) → (⟨S20000x300, .f32⟩ : BufTy).Contents (Elt F))
abbrev op_main_v360 : HloOp τ sig (Elt F) := StableHlo.binary main_v359 main_v354 main_v360 (addf : (⟨S20000x300, .f32⟩ : BufTy).Contents (Elt F) → (⟨S20000x300, .f32⟩ : BufTy).Contents (Elt F) → (⟨S20000x300, .f32⟩ : BufTy).Contents (Elt F))
abbrev op_main_v361 : HloOp τ sig (Elt F) := StableHlo.unary main_arg8 main_v361 ((extractStridedSlice S1x300x300 ![4, 0, 0] · slices_S5x300x300_S1x300x300_4_0_0) : (⟨S5x300x300, .f32⟩ : BufTy).Contents (Elt F) → (⟨S1x300x300, .f32⟩ : BufTy).Contents (Elt F))
abbrev op_main_v362 : HloOp τ sig (Elt F) := StableHlo.reshape main_v361 main_v362 rfl shapeCasts_S1x300x300_S300x300
abbrev op_main_v363 : HloOp τ sig (Elt F) := StableHlo.binary main_v360 main_v362 main_v363 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v364 : HloOp τ sig (Elt F) := StableHlo.unary main_arg9 main_v364 ((extractStridedSlice S1x300 ![4, 0] · slices_S5x300_S1x300_4_0) : (⟨S5x300, .f32⟩ : BufTy).Contents (Elt F) → (⟨S1x300, .f32⟩ : BufTy).Contents (Elt F))
abbrev op_main_v365 : HloOp τ sig (Elt F) := StableHlo.reshape main_v364 main_v365 rfl shapeCasts_S1x300_S300

/-- Segment 11: 29 operations of window 6, stage opsLayer4. -/
def seg11 : List (HloOp τ sig (Elt F)) :=
  [op_main_c_48, op_main_v343, op_main_v344, op_main_c_49, op_main_v345, op_main_v346, op_main_v347, op_main_v348, op_main_v349, op_main_v350, op_main_call20_cst, op_main_call20_v0, op_main_call20_v1, op_main_cst_50, op_main_v352, op_main_v353, op_main_v354, op_main_v355, op_main_v356, op_main_cst_51, op_main_v357, op_main_v358, op_main_v359, op_main_v360, op_main_v361, op_main_v362, op_main_v363, op_main_v364, op_main_v365]

/-- The references segment 11 writes, in order. -/
def wr11 : List (Ref sig .tc) :=
  [main_c_48, main_v343, main_v344, main_c_49, main_v345, main_v346, main_v347, main_v348, main_v349, main_v350, main_call20.cst.ref, main_call20.v0.ref, main_call20.v1.ref, main_cst_50, main_v352, main_v353, main_v354, main_v355, main_v356, main_cst_51, main_v357, main_v358, main_v359, main_v360, main_v361, main_v362, main_v363, main_v364, main_v365]

abbrev op_main_v366 : HloOp τ sig (Elt F) := StableHlo.unary main_v365 main_v366 (broadcastInDim S1x300 ![1] bcast_S300_S1x300_1 : (⟨S300, .f32⟩ : BufTy).Contents (Elt F) → (⟨S1x300, .f32⟩ : BufTy).Contents (Elt F))
abbrev op_main_v367 : HloOp τ sig (Elt F) := StableHlo.unary main_v366 main_v367 (broadcastInDim S20000x300 ![0, 1] bcast_S1x300_S20000x300_0_1 : (⟨S1x300, .f32⟩ : BufTy).Contents (Elt F) → (⟨S20000x300, .f32⟩ : BufTy).Contents (Elt F))
abbrev op_main_v368 : HloOp τ sig (Elt F) := StableHlo.binary main_v363 main_v367 main_v368 (addf : (⟨S20000x300, .f32⟩ : BufTy).Contents (Elt F) → (⟨S20000x300, .f32⟩ : BufTy).Contents (Elt F) → (⟨S20000x300, .f32⟩ : BufTy).Contents (Elt F))
abbrev op_main_v369 : HloOp τ sig (Elt F) := StableHlo.unary main_arg10 main_v369 ((extractStridedSlice S1x300 ![4, 0] · slices_S5x300_S1x300_4_0) : (⟨S5x300, .f32⟩ : BufTy).Contents (Elt F) → (⟨S1x300, .f32⟩ : BufTy).Contents (Elt F))
abbrev op_main_v370 : HloOp τ sig (Elt F) := StableHlo.reshape main_v369 main_v370 rfl shapeCasts_S1x300_S300
abbrev op_main_v371 : HloOp τ sig (Elt F) := StableHlo.unary main_arg11 main_v371 ((extractStridedSlice S1x300 ![4, 0] · slices_S5x300_S1x300_4_0) : (⟨S5x300, .f32⟩ : BufTy).Contents (Elt F) → (⟨S1x300, .f32⟩ : BufTy).Contents (Elt F))
abbrev op_main_v372 : HloOp τ sig (Elt F) := StableHlo.reshape main_v371 main_v372 rfl shapeCasts_S1x300_S300
abbrev op_main_cst_52 : HloOp τ sig (Elt F) := StableHlo.nullary main_cst_52 (constant S_ .f32 0x00000000#32)
abbrev op_main_v373 : HloOp τ sig (Elt F) := StableHlo.binary main_v368 main_cst_52 main_v373 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_53 : HloOp τ sig (Elt F) := StableHlo.nullary main_cst_53 (constant S_ .f32 0x469C4000#32)
abbrev op_main_v374 : HloOp τ sig (Elt F) := StableHlo.unary main_cst_53 main_v374 (broadcastInDim S300 ![] bcast_S_S300 : (⟨S_, .f32⟩ : BufTy).Contents (Elt F) → (⟨S300, .f32⟩ : BufTy).Contents (Elt F))
abbrev op_main_v375 : HloOp τ sig (Elt F) := StableHlo.binary main_v373 main_v374 main_v375 (Host.divf : (⟨S300, .f32⟩ : BufTy).Contents (Elt F) → (⟨S300, .f32⟩ : BufTy).Contents (Elt F) → (⟨S300, .f32⟩ : BufTy).Contents (Elt F))
abbrev op_main_c_54 : HloOp τ sig (Elt F) := StableHlo.nullary main_c_54 (constantI S_ 32 0#32)
abbrev op_main_call21_cst : HloOp τ sig (Elt F) := StableHlo.TRef.nullary main_call21.cst (constant S_ .f32 0x00000000#32)
abbrev op_main_call21_v0 : HloOp τ sig (Elt F) := StableHlo.TRef.binary (.of main_v368 : StableHlo.TRef sig ⟨S20000x300, .f32⟩) main_call21.cst main_call21.v0 (fun x v => Host.reduceAdd x v reducesTo_S20000x300_S300_d0 h_S_)
abbrev op_main_call21_v1 : HloOp τ sig (Elt F) := StableHlo.TRef.unary main_call21.v0 main_call21.v1 (broadcastInDim S1x300 ![1] bcast_S300_S1x300_1)
abbrev op_main_call21_cst_0 : HloOp τ sig (Elt F) := StableHlo.TRef.nullary main_call21.cst_0 (constant S_ .f32 0x469C4000#32)
abbrev op_main_call21_v2 : HloOp τ sig (Elt F) := StableHlo.TRef.unary main_call21.cst_0 main_call21.v2 (broadcastInDim S1x300 ![] bcast_S_S1x300)
abbrev op_main_call21_v3 : HloOp τ sig (Elt F) := StableHlo.TRef.binary main_call21.v1 main_call21.v2 main_call21.v3 Host.divf
abbrev op_main_call21_v4 : HloOp τ sig (Elt F) := StableHlo.TRef.unary main_call21.v3 main_call21.v4 (broadcastInDim S20000x300 ![0, 1] bcast_S1x300_S20000x300_0_1)
abbrev op_main_call21_v5 : HloOp τ sig (Elt F) := StableHlo.TRef.binary (.of main_v368 : StableHlo.TRef sig ⟨S20000x300, .f32⟩) main_call21.v4 main_call21.v5 subf
abbrev op_main_call21_v6 : HloOp τ sig (Elt F) := StableHlo.TRef.binary main_call21.v5 main_call21.v5 main_call21.v6 mulf
abbrev op_main_call21_v7 : HloOp τ sig (Elt F) := StableHlo.TRef.unary (.of main_c_54 : StableHlo.TRef sig ⟨S_, .i32⟩) main_call21.v7 (sitofp .f32)
abbrev op_main_call21_cst_1 : HloOp τ sig (Elt F) := StableHlo.TRef.nullary main_call21.cst_1 (constant S_ .f32 0x469C4000#32)
abbrev op_main_call21_v8 : HloOp τ sig (Elt F) := StableHlo.TRef.binary main_call21.cst_1 main_call21.v7 main_call21.v8 subf
abbrev op_main_call21_cst_2 : HloOp τ sig (Elt F) := StableHlo.TRef.nullary main_call21.cst_2 (constant S_ .f32 0x00000000#32)
abbrev op_main_call21_v9 : HloOp τ sig (Elt F) := StableHlo.TRef.binary main_call21.v6 main_call21.cst_2 main_call21.v9 (fun x v => Host.reduceAdd x v reducesTo_S20000x300_S300_d0 h_S_)
abbrev op_main_call21_v10 : HloOp τ sig (Elt F) := StableHlo.TRef.unary main_call21.v8 main_call21.v10 (broadcastInDim S300 ![] bcast_S_S300)
abbrev op_main_call21_v11 : HloOp τ sig (Elt F) := StableHlo.TRef.binary main_call21.v9 main_call21.v10 main_call21.v11 Host.divf
abbrev op_main_call21_cst_3 : HloOp τ sig (Elt F) := StableHlo.TRef.nullary main_call21.cst_3 (constant S_ .f32 0x00000000#32)
abbrev op_main_call21_v12 : HloOp τ sig (Elt F) := StableHlo.TRef.binary main_call21.v8 main_call21.cst_3 main_call21.v12 (cmpf .ogt)
abbrev op_main_call21_cst_4 : HloOp τ sig (Elt F) := StableHlo.TRef.nullary main_call21.cst_4 (constant S_ .f32 0x7FC00000#32)
abbrev op_main_call21_call0_v0 : HloOp τ sig (Elt F) := StableHlo.TRef.unary main_call21.cst_4 main_call21.call0.v0 id
abbrev op_main_call21_call0_v1 : HloOp τ sig (Elt F) := StableHlo.TRef.unary main_call21.call0.v0 main_call21.call0.v1 (broadcastInDim S300 ![] bcast_S_S300)
abbrev op_main_call21_call0_v2 : HloOp τ sig (Elt F) := StableHlo.TRef.ternary main_call21.v12 main_call21.v11 main_call21.call0.v1 main_call21.call0.v2 (fun p a b => select (broadcastInDim S300 ![] bcast_S_S300 p) a b)
abbrev op_main_v377 : HloOp τ sig (Elt F) := StableHlo.unary main_v375 main_v377 (broadcastInDim S1x300 ![1] bcast_S300_S1x300_1 : (⟨S300, .f32⟩ : BufTy).Contents (Elt F) → (⟨S1x300, .f32⟩ : BufTy).Contents (Elt F))
abbrev op_main_v378 : HloOp τ sig (Elt F) := StableHlo.unary main_v377 main_v378 (broadcastInDim S20000x300 ![0, 1] bcast_S1x300_S20000x300_0_1 : (⟨S1x300, .f32⟩ : BufTy).Contents (Elt F) → (⟨S20000x300, .f32⟩ : BufTy).Contents (Elt F))
abbrev op_main_v379 : HloOp τ sig (Elt F) := StableHlo.binary main_v368 main_v378 main_v379 (subf : (⟨S20000x300, .f32⟩ : BufTy).Contents (Elt F) → (⟨S20000x300, .f32⟩ : BufTy).Contents (Elt F) → (⟨S20000x300, .f32⟩ : BufTy).Contents (Elt F))
abbrev op_main_cst_55 : HloOp τ sig (Elt F) := StableHlo.nullary main_cst_55 (constant S_ .f32 0x3727C5AC#32)
abbrev op_main_v380 : HloOp τ sig (Elt F) := StableHlo.unary main_cst_55 main_v380 (broadcastInDim S300 ![] bcast_S_S300 : (⟨S_, .f32⟩ : BufTy).Contents (Elt F) → (⟨S300, .f32⟩ : BufTy).Contents (Elt F))
abbrev op_main_v381 : HloOp τ sig (Elt F) := StableHlo.binary main_v376 main_v380 main_v381 (addf : (⟨S300, .f32⟩ : BufTy).Contents (Elt F) → (⟨S300, .f32⟩ : BufTy).Contents (Elt F) → (⟨S300, .f32⟩ : BufTy).Contents (Elt F))
abbrev op_main_v382 : HloOp τ sig (Elt F) := StableHlo.unary main_v381 main_v382 (Host.rsqrt : (⟨S300, .f32⟩ : BufTy).Contents (Elt F) → (⟨S300, .f32⟩ : BufTy).Contents (Elt F))
abbrev op_main_v383 : HloOp τ sig (Elt F) := StableHlo.unary main_v382 main_v383 (broadcastInDim S1x300 ![1] bcast_S300_S1x300_1 : (⟨S300, .f32⟩ : BufTy).Contents (Elt F) → (⟨S1x300, .f32⟩ : BufTy).Contents (Elt F))
abbrev op_main_v384 : HloOp τ sig (Elt F) := StableHlo.unary main_v383 main_v384 (broadcastInDim S20000x300 ![0, 1] bcast_S1x300_S20000x300_0_1 : (⟨S1x300, .f32⟩ : BufTy).Contents (Elt F) → (⟨S20000x300, .f32⟩ : BufTy).Contents (Elt F))
abbrev op_main_v385 : HloOp τ sig (Elt F) := StableHlo.binary main_v379 main_v384 main_v385 (mulf : (⟨S20000x300, .f32⟩ : BufTy).Contents (Elt F) → (⟨S20000x300, .f32⟩ : BufTy).Contents (Elt F) → (⟨S20000x300, .f32⟩ : BufTy).Contents (Elt F))
abbrev op_main_v386 : HloOp τ sig (Elt F) := StableHlo.unary main_v370 main_v386 (broadcastInDim S1x300 ![1] bcast_S300_S1x300_1 : (⟨S300, .f32⟩ : BufTy).Contents (Elt F) → (⟨S1x300, .f32⟩ : BufTy).Contents (Elt F))
abbrev op_main_v387 : HloOp τ sig (Elt F) := StableHlo.unary main_v386 main_v387 (broadcastInDim S20000x300 ![0, 1] bcast_S1x300_S20000x300_0_1 : (⟨S1x300, .f32⟩ : BufTy).Contents (Elt F) → (⟨S20000x300, .f32⟩ : BufTy).Contents (Elt F))
abbrev op_main_v388 : HloOp τ sig (Elt F) := StableHlo.binary main_v385 main_v387 main_v388 (mulf : (⟨S20000x300, .f32⟩ : BufTy).Contents (Elt F) → (⟨S20000x300, .f32⟩ : BufTy).Contents (Elt F) → (⟨S20000x300, .f32⟩ : BufTy).Contents (Elt F))
abbrev op_main_v389 : HloOp τ sig (Elt F) := StableHlo.unary main_v372 main_v389 (broadcastInDim S1x300 ![1] bcast_S300_S1x300_1 : (⟨S300, .f32⟩ : BufTy).Contents (Elt F) → (⟨S1x300, .f32⟩ : BufTy).Contents (Elt F))
abbrev op_main_v390 : HloOp τ sig (Elt F) := StableHlo.unary main_v389 main_v390 (broadcastInDim S20000x300 ![0, 1] bcast_S1x300_S20000x300_0_1 : (⟨S1x300, .f32⟩ : BufTy).Contents (Elt F) → (⟨S20000x300, .f32⟩ : BufTy).Contents (Elt F))
abbrev op_main_v391 : HloOp τ sig (Elt F) := StableHlo.binary main_v388 main_v390 main_v391 (addf : (⟨S20000x300, .f32⟩ : BufTy).Contents (Elt F) → (⟨S20000x300, .f32⟩ : BufTy).Contents (Elt F) → (⟨S20000x300, .f32⟩ : BufTy).Contents (Elt F))
abbrev op_main_call22_cst : HloOp τ sig (Elt F) := StableHlo.TRef.nullary main_call22.cst (constant S_ .f32 0x00000000#32)
abbrev op_main_call22_v0 : HloOp τ sig (Elt F) := StableHlo.TRef.unary main_call22.cst main_call22.v0 (broadcastInDim S20000x300 ![] bcast_S_S20000x300)
abbrev op_main_call22_v1 : HloOp τ sig (Elt F) := StableHlo.TRef.binary (.of main_v391 : StableHlo.TRef sig ⟨S20000x300, .f32⟩) main_call22.v0 main_call22.v1 maximumf
abbrev op_main_v393 : HloOp τ sig (Elt F) := StableHlo.unary main_arg12 main_v393 ((extractStridedSlice S1x300x300 ![4, 0, 0] · slices_S5x300x300_S1x300x300_4_0_0) : (⟨S5x300x300, .f32⟩ : BufTy).Contents (Elt F) → (⟨S1x300x300, .f32⟩ : BufTy).Contents (Elt F))
abbrev op_main_v394 : HloOp τ sig (Elt F) := StableHlo.reshape main_v393 main_v394 rfl shapeCasts_S1x300x300_S300x300
abbrev op_main_v395 : HloOp τ sig (Elt F) := StableHlo.binary main_v392 main_v394 main_v395 ((fun l r => Host.dotGeneral dot_S20000x300_S300x300_S20000x300_1_0_0_1_n_n none l r) : (⟨S20000x300, .f32⟩ : BufTy).Contents (Elt F) → (⟨S300x300, .f32⟩ : BufTy).Contents (Elt F) → (⟨S20000x300, .f32⟩ : BufTy).Contents (Elt F))
abbrev op_main_v396 : HloOp τ sig (Elt F) := StableHlo.unary main_arg13 main_v396 ((extractStridedSlice S1x300 ![4, 0] · slices_S5x300_S1x300_4_0) : (⟨S5x300, .f32⟩ : BufTy).Contents (Elt F) → (⟨S1x300, .f32⟩ : BufTy).Contents (Elt F))
abbrev op_main_v397 : HloOp τ sig (Elt F) := StableHlo.reshape main_v396 main_v397 rfl shapeCasts_S1x300_S300
abbrev op_main_v398 : HloOp τ sig (Elt F) := StableHlo.unary main_v397 main_v398 (broadcastInDim S1x300 ![1] bcast_S300_S1x300_1 : (⟨S300, .f32⟩ : BufTy).Contents (Elt F) → (⟨S1x300, .f32⟩ : BufTy).Contents (Elt F))
abbrev op_main_v399 : HloOp τ sig (Elt F) := StableHlo.unary main_v398 main_v399 (broadcastInDim S20000x300 ![0, 1] bcast_S1x300_S20000x300_0_1 : (⟨S1x300, .f32⟩ : BufTy).Contents (Elt F) → (⟨S20000x300, .f32⟩ : BufTy).Contents (Elt F))
abbrev op_main_v400 : HloOp τ sig (Elt F) := StableHlo.binary main_v395 main_v399 main_v400 (addf : (⟨S20000x300, .f32⟩ : BufTy).Contents (Elt F) → (⟨S20000x300, .f32⟩ : BufTy).Contents (Elt F) → (⟨S20000x300, .f32⟩ : BufTy).Contents (Elt F))
abbrev op_main_v401 : HloOp τ sig (Elt F) := StableHlo.unary main_arg14 main_v401 ((extractStridedSlice S1x300 ![4, 0] · slices_S5x300_S1x300_4_0) : (⟨S5x300, .f32⟩ : BufTy).Contents (Elt F) → (⟨S1x300, .f32⟩ : BufTy).Contents (Elt F))
abbrev op_main_v402 : HloOp τ sig (Elt F) := StableHlo.reshape main_v401 main_v402 rfl shapeCasts_S1x300_S300
abbrev op_main_v403 : HloOp τ sig (Elt F) := StableHlo.unary main_arg15 main_v403 ((extractStridedSlice S1x300 ![4, 0] · slices_S5x300_S1x300_4_0) : (⟨S5x300, .f32⟩ : BufTy).Contents (Elt F) → (⟨S1x300, .f32⟩ : BufTy).Contents (Elt F))
abbrev op_main_v404 : HloOp τ sig (Elt F) := StableHlo.reshape main_v403 main_v404 rfl shapeCasts_S1x300_S300
abbrev op_main_cst_56 : HloOp τ sig (Elt F) := StableHlo.nullary main_cst_56 (constant S_ .f32 0x00000000#32)
abbrev op_main_v405 : HloOp τ sig (Elt F) := StableHlo.binary main_v400 main_cst_56 main_v405 ((fun x v => Host.reduceAdd x v reducesTo_S20000x300_S300_d0 h_S_) : (⟨S20000x300, .f32⟩ : BufTy).Contents (Elt F) → (⟨S_, .f32⟩ : BufTy).Contents (Elt F) → (⟨S300, .f32⟩ : BufTy).Contents (Elt F))
abbrev op_main_cst_57 : HloOp τ sig (Elt F) := StableHlo.nullary main_cst_57 (constant S_ .f32 0x469C4000#32)
abbrev op_main_v406 : HloOp τ sig (Elt F) := StableHlo.unary main_cst_57 main_v406 (broadcastInDim S300 ![] bcast_S_S300 : (⟨S_, .f32⟩ : BufTy).Contents (Elt F) → (⟨S300, .f32⟩ : BufTy).Contents (Elt F))
abbrev op_main_v407 : HloOp τ sig (Elt F) := StableHlo.binary main_v405 main_v406 main_v407 (Host.divf : (⟨S300, .f32⟩ : BufTy).Contents (Elt F) → (⟨S300, .f32⟩ : BufTy).Contents (Elt F) → (⟨S300, .f32⟩ : BufTy).Contents (Elt F))
abbrev op_main_c_58 : HloOp τ sig (Elt F) := StableHlo.nullary main_c_58 (constantI S_ 32 0#32)
abbrev op_main_call23_cst : HloOp τ sig (Elt F) := StableHlo.TRef.nullary main_call23.cst (constant S_ .f32 0x00000000#32)
abbrev op_main_call23_v0 : HloOp τ sig (Elt F) := StableHlo.TRef.binary (.of main_v400 : StableHlo.TRef sig ⟨S20000x300, .f32⟩) main_call23.cst main_call23.v0 (fun x v => Host.reduceAdd x v reducesTo_S20000x300_S300_d0 h_S_)
abbrev op_main_call23_v1 : HloOp τ sig (Elt F) := StableHlo.TRef.unary main_call23.v0 main_call23.v1 (broadcastInDim S1x300 ![1] bcast_S300_S1x300_1)
abbrev op_main_call23_cst_0 : HloOp τ sig (Elt F) := StableHlo.TRef.nullary main_call23.cst_0 (constant S_ .f32 0x469C4000#32)
abbrev op_main_call23_v2 : HloOp τ sig (Elt F) := StableHlo.TRef.unary main_call23.cst_0 main_call23.v2 (broadcastInDim S1x300 ![] bcast_S_S1x300)
abbrev op_main_call23_v3 : HloOp τ sig (Elt F) := StableHlo.TRef.binary main_call23.v1 main_call23.v2 main_call23.v3 Host.divf
abbrev op_main_call23_v4 : HloOp τ sig (Elt F) := StableHlo.TRef.unary main_call23.v3 main_call23.v4 (broadcastInDim S20000x300 ![0, 1] bcast_S1x300_S20000x300_0_1)
abbrev op_main_call23_v5 : HloOp τ sig (Elt F) := StableHlo.TRef.binary (.of main_v400 : StableHlo.TRef sig ⟨S20000x300, .f32⟩) main_call23.v4 main_call23.v5 subf
abbrev op_main_call23_v6 : HloOp τ sig (Elt F) := StableHlo.TRef.binary main_call23.v5 main_call23.v5 main_call23.v6 mulf
abbrev op_main_call23_v7 : HloOp τ sig (Elt F) := StableHlo.TRef.unary (.of main_c_58 : StableHlo.TRef sig ⟨S_, .i32⟩) main_call23.v7 (sitofp .f32)
abbrev op_main_call23_cst_1 : HloOp τ sig (Elt F) := StableHlo.TRef.nullary main_call23.cst_1 (constant S_ .f32 0x469C4000#32)
abbrev op_main_call23_v8 : HloOp τ sig (Elt F) := StableHlo.TRef.binary main_call23.cst_1 main_call23.v7 main_call23.v8 subf
abbrev op_main_call23_cst_2 : HloOp τ sig (Elt F) := StableHlo.TRef.nullary main_call23.cst_2 (constant S_ .f32 0x00000000#32)
abbrev op_main_call23_v9 : HloOp τ sig (Elt F) := StableHlo.TRef.binary main_call23.v6 main_call23.cst_2 main_call23.v9 (fun x v => Host.reduceAdd x v reducesTo_S20000x300_S300_d0 h_S_)
abbrev op_main_call23_v10 : HloOp τ sig (Elt F) := StableHlo.TRef.unary main_call23.v8 main_call23.v10 (broadcastInDim S300 ![] bcast_S_S300)
abbrev op_main_call23_v11 : HloOp τ sig (Elt F) := StableHlo.TRef.binary main_call23.v9 main_call23.v10 main_call23.v11 Host.divf
abbrev op_main_call23_cst_3 : HloOp τ sig (Elt F) := StableHlo.TRef.nullary main_call23.cst_3 (constant S_ .f32 0x00000000#32)
abbrev op_main_call23_v12 : HloOp τ sig (Elt F) := StableHlo.TRef.binary main_call23.v8 main_call23.cst_3 main_call23.v12 (cmpf .ogt)
abbrev op_main_call23_cst_4 : HloOp τ sig (Elt F) := StableHlo.TRef.nullary main_call23.cst_4 (constant S_ .f32 0x7FC00000#32)
abbrev op_main_call23_call0_v0 : HloOp τ sig (Elt F) := StableHlo.TRef.unary main_call23.cst_4 main_call23.call0.v0 id
abbrev op_main_call23_call0_v1 : HloOp τ sig (Elt F) := StableHlo.TRef.unary main_call23.call0.v0 main_call23.call0.v1 (broadcastInDim S300 ![] bcast_S_S300)
abbrev op_main_call23_call0_v2 : HloOp τ sig (Elt F) := StableHlo.TRef.ternary main_call23.v12 main_call23.v11 main_call23.call0.v1 main_call23.call0.v2 (fun p a b => select (broadcastInDim S300 ![] bcast_S_S300 p) a b)
abbrev op_main_v409 : HloOp τ sig (Elt F) := StableHlo.unary main_v407 main_v409 (broadcastInDim S1x300 ![1] bcast_S300_S1x300_1 : (⟨S300, .f32⟩ : BufTy).Contents (Elt F) → (⟨S1x300, .f32⟩ : BufTy).Contents (Elt F))
abbrev op_main_v410 : HloOp τ sig (Elt F) := StableHlo.unary main_v409 main_v410 (broadcastInDim S20000x300 ![0, 1] bcast_S1x300_S20000x300_0_1 : (⟨S1x300, .f32⟩ : BufTy).Contents (Elt F) → (⟨S20000x300, .f32⟩ : BufTy).Contents (Elt F))
abbrev op_main_v411 : HloOp τ sig (Elt F) := StableHlo.binary main_v400 main_v410 main_v411 (subf : (⟨S20000x300, .f32⟩ : BufTy).Contents (Elt F) → (⟨S20000x300, .f32⟩ : BufTy).Contents (Elt F) → (⟨S20000x300, .f32⟩ : BufTy).Contents (Elt F))
abbrev op_main_cst_59 : HloOp τ sig (Elt F) := StableHlo.nullary main_cst_59 (constant S_ .f32 0x3727C5AC#32)
abbrev op_main_v412 : HloOp τ sig (Elt F) := StableHlo.unary main_cst_59 main_v412 (broadcastInDim S300 ![] bcast_S_S300 : (⟨S_, .f32⟩ : BufTy).Contents (Elt F) → (⟨S300, .f32⟩ : BufTy).Contents (Elt F))
abbrev op_main_v413 : HloOp τ sig (Elt F) := StableHlo.binary main_v408 main_v412 main_v413 (addf : (⟨S300, .f32⟩ : BufTy).Contents (Elt F) → (⟨S300, .f32⟩ : BufTy).Contents (Elt F) → (⟨S300, .f32⟩ : BufTy).Contents (Elt F))
abbrev op_main_v414 : HloOp τ sig (Elt F) := StableHlo.unary main_v413 main_v414 (Host.rsqrt : (⟨S300, .f32⟩ : BufTy).Contents (Elt F) → (⟨S300, .f32⟩ : BufTy).Contents (Elt F))
abbrev op_main_v415 : HloOp τ sig (Elt F) := StableHlo.unary main_v414 main_v415 (broadcastInDim S1x300 ![1] bcast_S300_S1x300_1 : (⟨S300, .f32⟩ : BufTy).Contents (Elt F) → (⟨S1x300, .f32⟩ : BufTy).Contents (Elt F))
abbrev op_main_v416 : HloOp τ sig (Elt F) := StableHlo.unary main_v415 main_v416 (broadcastInDim S20000x300 ![0, 1] bcast_S1x300_S20000x300_0_1 : (⟨S1x300, .f32⟩ : BufTy).Contents (Elt F) → (⟨S20000x300, .f32⟩ : BufTy).Contents (Elt F))
abbrev op_main_v417 : HloOp τ sig (Elt F) := StableHlo.binary main_v411 main_v416 main_v417 (mulf : (⟨S20000x300, .f32⟩ : BufTy).Contents (Elt F) → (⟨S20000x300, .f32⟩ : BufTy).Contents (Elt F) → (⟨S20000x300, .f32⟩ : BufTy).Contents (Elt F))

/-- Segment 12: 104 operations of window 7, stage opsLayer4. -/
def seg12 : List (HloOp τ sig (Elt F)) :=
  [op_main_v366, op_main_v367, op_main_v368, op_main_v369, op_main_v370, op_main_v371, op_main_v372, op_main_cst_52, op_main_v373, op_main_cst_53, op_main_v374, op_main_v375, op_main_c_54, op_main_call21_cst, op_main_call21_v0, op_main_call21_v1, op_main_call21_cst_0, op_main_call21_v2, op_main_call21_v3, op_main_call21_v4, op_main_call21_v5, op_main_call21_v6, op_main_call21_v7, op_main_call21_cst_1, op_main_call21_v8, op_main_call21_cst_2, op_main_call21_v9, op_main_call21_v10, op_main_call21_v11, op_main_call21_cst_3, op_main_call21_v12, op_main_call21_cst_4, op_main_call21_call0_v0, op_main_call21_call0_v1, op_main_call21_call0_v2, op_main_v377, op_main_v378, op_main_v379, op_main_cst_55, op_main_v380, op_main_v381, op_main_v382, op_main_v383, op_main_v384, op_main_v385, op_main_v386, op_main_v387, op_main_v388, op_main_v389, op_main_v390, op_main_v391, op_main_call22_cst, op_main_call22_v0, op_main_call22_v1, op_main_v393, op_main_v394, op_main_v395, op_main_v396, op_main_v397, op_main_v398, op_main_v399, op_main_v400, op_main_v401, op_main_v402, op_main_v403, op_main_v404, op_main_cst_56, op_main_v405, op_main_cst_57, op_main_v406, op_main_v407, op_main_c_58, op_main_call23_cst, op_main_call23_v0, op_main_call23_v1, op_main_call23_cst_0, op_main_call23_v2, op_main_call23_v3, op_main_call23_v4, op_main_call23_v5, op_main_call23_v6, op_main_call23_v7, op_main_call23_cst_1, op_main_call23_v8, op_main_call23_cst_2, op_main_call23_v9, op_main_call23_v10, op_main_call23_v11, op_main_call23_cst_3, op_main_call23_v12, op_main_call23_cst_4, op_main_call23_call0_v0, op_main_call23_call0_v1, op_main_call23_call0_v2, op_main_v409, op_main_v410, op_main_v411, op_main_cst_59, op_main_v412, op_main_v413, op_main_v414, op_main_v415, op_main_v416, op_main_v417]

/-- The references segment 12 writes, in order. -/
def wr12 : List (Ref sig .tc) :=
  [main_v366, main_v367, main_v368, main_v369, main_v370, main_v371, main_v372, main_cst_52, main_v373, main_cst_53, main_v374, main_v375, main_c_54, main_call21.cst.ref, main_call21.v0.ref, main_call21.v1.ref, main_call21.cst_0.ref, main_call21.v2.ref, main_call21.v3.ref, main_call21.v4.ref, main_call21.v5.ref, main_call21.v6.ref, main_call21.v7.ref, main_call21.cst_1.ref, main_call21.v8.ref, main_call21.cst_2.ref, main_call21.v9.ref, main_call21.v10.ref, main_call21.v11.ref, main_call21.cst_3.ref, main_call21.v12.ref, main_call21.cst_4.ref, main_call21.call0.v0.ref, main_call21.call0.v1.ref, main_call21.call0.v2.ref, main_v377, main_v378, main_v379, main_cst_55, main_v380, main_v381, main_v382, main_v383, main_v384, main_v385, main_v386, main_v387, main_v388, main_v389, main_v390, main_v391, main_call22.cst.ref, main_call22.v0.ref, main_call22.v1.ref, main_v393, main_v394, main_v395, main_v396, main_v397, main_v398, main_v399, main_v400, main_v401, main_v402, main_v403, main_v404, main_cst_56, main_v405, main_cst_57, main_v406, main_v407, main_c_58, main_call23.cst.ref, main_call23.v0.ref, main_call23.v1.ref, main_call23.cst_0.ref, main_call23.v2.ref, main_call23.v3.ref, main_call23.v4.ref, main_call23.v5.ref, main_call23.v6.ref, main_call23.v7.ref, main_call23.cst_1.ref, main_call23.v8.ref, main_call23.cst_2.ref, main_call23.v9.ref, main_call23.v10.ref, main_call23.v11.ref, main_call23.cst_3.ref, main_call23.v12.ref, main_call23.cst_4.ref, main_call23.call0.v0.ref, main_call23.call0.v1.ref, main_call23.call0.v2.ref, main_v409, main_v410, main_v411, main_cst_59, main_v412, main_v413, main_v414, main_v415, main_v416, main_v417]

abbrev op_main_v418 : HloOp τ sig (Elt F) := StableHlo.unary main_v402 main_v418 (broadcastInDim S1x300 ![1] bcast_S300_S1x300_1 : (⟨S300, .f32⟩ : BufTy).Contents (Elt F) → (⟨S1x300, .f32⟩ : BufTy).Contents (Elt F))
abbrev op_main_v419 : HloOp τ sig (Elt F) := StableHlo.unary main_v418 main_v419 (broadcastInDim S20000x300 ![0, 1] bcast_S1x300_S20000x300_0_1 : (⟨S1x300, .f32⟩ : BufTy).Contents (Elt F) → (⟨S20000x300, .f32⟩ : BufTy).Contents (Elt F))
abbrev op_main_v420 : HloOp τ sig (Elt F) := StableHlo.binary main_v417 main_v419 main_v420 (mulf : (⟨S20000x300, .f32⟩ : BufTy).Contents (Elt F) → (⟨S20000x300, .f32⟩ : BufTy).Contents (Elt F) → (⟨S20000x300, .f32⟩ : BufTy).Contents (Elt F))
abbrev op_main_v421 : HloOp τ sig (Elt F) := StableHlo.unary main_v404 main_v421 (broadcastInDim S1x300 ![1] bcast_S300_S1x300_1 : (⟨S300, .f32⟩ : BufTy).Contents (Elt F) → (⟨S1x300, .f32⟩ : BufTy).Contents (Elt F))
abbrev op_main_v422 : HloOp τ sig (Elt F) := StableHlo.unary main_v421 main_v422 (broadcastInDim S20000x300 ![0, 1] bcast_S1x300_S20000x300_0_1 : (⟨S1x300, .f32⟩ : BufTy).Contents (Elt F) → (⟨S20000x300, .f32⟩ : BufTy).Contents (Elt F))
abbrev op_main_v423 : HloOp τ sig (Elt F) := StableHlo.binary main_v420 main_v422 main_v423 (addf : (⟨S20000x300, .f32⟩ : BufTy).Contents (Elt F) → (⟨S20000x300, .f32⟩ : BufTy).Contents (Elt F) → (⟨S20000x300, .f32⟩ : BufTy).Contents (Elt F))
abbrev op_main_call24_cst : HloOp τ sig (Elt F) := StableHlo.TRef.nullary main_call24.cst (constant S_ .f32 0x00000000#32)
abbrev op_main_call24_v0 : HloOp τ sig (Elt F) := StableHlo.TRef.unary main_call24.cst main_call24.v0 (broadcastInDim S20000x300 ![] bcast_S_S20000x300)
abbrev op_main_call24_v1 : HloOp τ sig (Elt F) := StableHlo.TRef.binary (.of main_v423 : StableHlo.TRef sig ⟨S20000x300, .f32⟩) main_call24.v0 main_call24.v1 maximumf

/-- Segment 13: 9 operations of window 8, stage opsLayer4. -/
def seg13 : List (HloOp τ sig (Elt F)) :=
  [op_main_v418, op_main_v419, op_main_v420, op_main_v421, op_main_v422, op_main_v423, op_main_call24_cst, op_main_call24_v0, op_main_call24_v1]

/-- The references segment 13 writes, in order. -/
def wr13 : List (Ref sig .tc) :=
  [main_v418, main_v419, main_v420, main_v421, main_v422, main_v423, main_call24.cst.ref, main_call24.v0.ref, main_call24.v1.ref]

/-- The operations of stage opsLayer4, and the references they write. -/
def opsLayer4 : List (HloOp τ sig (Elt F)) := seg11 ++ seg12 ++ seg13
def wrLayer4 : List (Ref sig .tc) := wr11 ++ wr12 ++ wr13

end Cert.ReferenceIdeal.RRun

end
-- ==== Proof.RefOpsTail.lean ====
/- One stage (`opsTail`) of the reference program's @main as a LIST of its host operations, in order, each call of a module-local
   function replaced by the callee's operations over that call's buffer record (a nested call likewise). Each operation is named
   after the reference it writes (`op_‹reference›`); the stage is cut where a printed window of @main ends into segments `segK`,
   beside each the list `wrK` of the references its operations write, in order. A table (27 of the program's 754 operations);
   the statements about it are in RefRun.lean. -/
import proofs.«119086_j26585847562989_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev op_main_cst_60 : HloOp τ sig (Elt F) := StableHlo.nullary main_cst_60 (constant S_ .f32 0x3F800000#32)
abbrev op_main_v425 : HloOp τ sig (Elt F) := StableHlo.unary main_cst_60 main_v425 (broadcastInDim S20000 ![] bcast_S_S20000 : (⟨S_, .f32⟩ : BufTy).Contents (Elt F) → (⟨S20000, .f32⟩ : BufTy).Contents (Elt F))
abbrev op_main_cst_61 : HloOp τ sig (Elt F) := StableHlo.nullary main_cst_61 (constant S_ .f32 0x00000000#32)
abbrev op_main_v426 : HloOp τ sig (Elt F) := StableHlo.unary main_cst_61 main_v426 (broadcastInDim S128 ![] bcast_S_S128 : (⟨S_, .f32⟩ : BufTy).Contents (Elt F) → (⟨S128, .f32⟩ : BufTy).Contents (Elt F))
abbrev op_main_v427 : HloOp τ sig (Elt F) := StableHlo.unary main_arg2 main_v427 (broadcastInDim S20000x1 ![0] bcast_S20000_S20000x1_0 : (⟨S20000, .i32⟩ : BufTy).Contents (Elt F) → (⟨S20000x1, .i32⟩ : BufTy).Contents (Elt F))
abbrev op_main_v428 : HloOp τ sig (Elt F) := StableHlo.ternary main_v426 main_v427 main_v425 main_v428 ((fun x i u => Host.scatterAdd scatter_S128_S20000x1_S20000_n_0_0_1 x i u) : (⟨S128, .f32⟩ : BufTy).Contents (Elt F) → (⟨S20000x1, .i32⟩ : BufTy).Contents (Elt F) → (⟨S20000, .f32⟩ : BufTy).Contents (Elt F) → (⟨S128, .f32⟩ : BufTy).Contents (Elt F))
abbrev op_main_cst_62 : HloOp τ sig (Elt F) := StableHlo.nullary main_cst_62 (constant S_ .f32 0x00000000#32)
abbrev op_main_v429 : HloOp τ sig (Elt F) := StableHlo.unary main_cst_62 main_v429 (broadcastInDim S128x300 ![] bcast_S_S128x300 : (⟨S_, .f32⟩ : BufTy).Contents (Elt F) → (⟨S128x300, .f32⟩ : BufTy).Contents (Elt F))
abbrev op_main_v430 : HloOp τ sig (Elt F) := StableHlo.unary main_arg2 main_v430 (broadcastInDim S20000x1 ![0] bcast_S20000_S20000x1_0 : (⟨S20000, .i32⟩ : BufTy).Contents (Elt F) → (⟨S20000x1, .i32⟩ : BufTy).Contents (Elt F))
abbrev op_main_v431 : HloOp τ sig (Elt F) := StableHlo.ternary main_v429 main_v430 main_v424 main_v431 ((fun x i u => Host.scatterAdd scatter_S128x300_S20000x1_S20000x300_1_0_0_1 x i u) : (⟨S128x300, .f32⟩ : BufTy).Contents (Elt F) → (⟨S20000x1, .i32⟩ : BufTy).Contents (Elt F) → (⟨S20000x300, .f32⟩ : BufTy).Contents (Elt F) → (⟨S128x300, .f32⟩ : BufTy).Contents (Elt F))
abbrev op_main_cst_63 : HloOp τ sig (Elt F) := StableHlo.nullary main_cst_63 (constant S_ .f32 0x3F800000#32)
abbrev op_main_v432 : HloOp τ sig (Elt F) := StableHlo.unary main_cst_63 main_v432 (broadcastInDim S128 ![] bcast_S_S128 : (⟨S_, .f32⟩ : BufTy).Contents (Elt F) → (⟨S128, .f32⟩ : BufTy).Contents (Elt F))
abbrev op_main_v433 : HloOp τ sig (Elt F) := StableHlo.binary main_v428 main_v432 main_v433 (maximumf : (⟨S128, .f32⟩ : BufTy).Contents (Elt F) → (⟨S128, .f32⟩ : BufTy).Contents (Elt F) → (⟨S128, .f32⟩ : BufTy).Contents (Elt F))
abbrev op_main_v434 : HloOp τ sig (Elt F) := StableHlo.unary main_v433 main_v434 (broadcastInDim S128x1 ![0] bcast_S128_S128x1_0 : (⟨S128, .f32⟩ : BufTy).Contents (Elt F) → (⟨S128x1, .f32⟩ : BufTy).Contents (Elt F))
abbrev op_main_v435 : HloOp τ sig (Elt F) := StableHlo.unary main_v434 main_v435 (broadcastInDim S128x300 ![0, 1] bcast_S128x1_S128x300_0_1 : (⟨S128x1, .f32⟩ : BufTy).Contents (Elt F) → (⟨S128x300, .f32⟩ : BufTy).Contents (Elt F))
abbrev op_main_v436 : HloOp τ sig (Elt F) := StableHlo.binary main_v431 main_v435 main_v436 (Host.divf : (⟨S128x300, .f32⟩ : BufTy).Contents (Elt F) → (⟨S128x300, .f32⟩ : BufTy).Contents (Elt F) → (⟨S128x300, .f32⟩ : BufTy).Contents (Elt F))
abbrev op_main_v437 : HloOp τ sig (Elt F) := StableHlo.binary main_v436 main_arg16 main_v437 ((fun l r => Host.dotGeneral dot_S128x300_S300x150_S128x150_1_0_0_1_n_n none l r) : (⟨S128x300, .f32⟩ : BufTy).Contents (Elt F) → (⟨S300x150, .f32⟩ : BufTy).Contents (Elt F) → (⟨S128x150, .f32⟩ : BufTy).Contents (Elt F))
abbrev op_main_v438 : HloOp τ sig (Elt F) := StableHlo.unary main_arg17 main_v438 (broadcastInDim S1x150 ![1] bcast_S150_S1x150_1 : (⟨S150, .f32⟩ : BufTy).Contents (Elt F) → (⟨S1x150, .f32⟩ : BufTy).Contents (Elt F))
abbrev op_main_v439 : HloOp τ sig (Elt F) := StableHlo.unary main_v438 main_v439 (broadcastInDim S128x150 ![0, 1] bcast_S1x150_S128x150_0_1 : (⟨S1x150, .f32⟩ : BufTy).Contents (Elt F) → (⟨S128x150, .f32⟩ : BufTy).Contents (Elt F))
abbrev op_main_v440 : HloOp τ sig (Elt F) := StableHlo.binary main_v437 main_v439 main_v440 (addf : (⟨S128x150, .f32⟩ : BufTy).Contents (Elt F) → (⟨S128x150, .f32⟩ : BufTy).Contents (Elt F) → (⟨S128x150, .f32⟩ : BufTy).Contents (Elt F))
abbrev op_main_call25_cst : HloOp τ sig (Elt F) := StableHlo.TRef.nullary main_call25.cst (constant S_ .f32 0x00000000#32)
abbrev op_main_call25_v0 : HloOp τ sig (Elt F) := StableHlo.TRef.unary main_call25.cst main_call25.v0 (broadcastInDim S128x150 ![] bcast_S_S128x150)
abbrev op_main_call25_v1 : HloOp τ sig (Elt F) := StableHlo.TRef.binary (.of main_v440 : StableHlo.TRef sig ⟨S128x150, .f32⟩) main_call25.v0 main_call25.v1 maximumf
abbrev op_main_v442 : HloOp τ sig (Elt F) := StableHlo.binary main_v441 main_arg18 main_v442 ((fun l r => Host.dotGeneral dot_S128x150_S150x6_S128x6_1_0_0_1_n_n none l r) : (⟨S128x150, .f32⟩ : BufTy).Contents (Elt F) → (⟨S150x6, .f32⟩ : BufTy).Contents (Elt F) → (⟨S128x6, .f32⟩ : BufTy).Contents (Elt F))
abbrev op_main_v443 : HloOp τ sig (Elt F) := StableHlo.unary main_arg19 main_v443 (broadcastInDim S1x6 ![1] bcast_S6_S1x6_1 : (⟨S6, .f32⟩ : BufTy).Contents (Elt F) → (⟨S1x6, .f32⟩ : BufTy).Contents (Elt F))
abbrev op_main_v444 : HloOp τ sig (Elt F) := StableHlo.unary main_v443 main_v444 (broadcastInDim S128x6 ![0, 1] bcast_S1x6_S128x6_0_1 : (⟨S1x6, .f32⟩ : BufTy).Contents (Elt F) → (⟨S128x6, .f32⟩ : BufTy).Contents (Elt F))
abbrev op_main_v445 : HloOp τ sig (Elt F) := StableHlo.binary main_v442 main_v444 main_v445 (addf : (⟨S128x6, .f32⟩ : BufTy).Contents (Elt F) → (⟨S128x6, .f32⟩ : BufTy).Contents (Elt F) → (⟨S128x6, .f32⟩ : BufTy).Contents (Elt F))

/-- Segment 14: 27 operations of window 8, stage opsTail. -/
def seg14 : List (HloOp τ sig (Elt F)) :=
  [op_main_cst_60, op_main_v425, op_main_cst_61, op_main_v426, op_main_v427, op_main_v428, op_main_cst_62, op_main_v429, op_main_v430, op_main_v431, op_main_cst_63, op_main_v432, op_main_v433, op_main_v434, op_main_v435, op_main_v436, op_main_v437, op_main_v438, op_main_v439, op_main_v440, op_main_call25_cst, op_main_call25_v0, op_main_call25_v1, op_main_v442, op_main_v443, op_main_v444, op_main_v445]

/-- The references segment 14 writes, in order. -/
def wr14 : List (Ref sig .tc) :=
  [main_cst_60, main_v425, main_cst_61, main_v426, main_v427, main_v428, main_cst_62, main_v429, main_v430, main_v431, main_cst_63, main_v432, main_v433, main_v434, main_v435, main_v436, main_v437, main_v438, main_v439, main_v440, main_call25.cst.ref, main_call25.v0.ref, main_call25.v1.ref, main_v442, main_v443, main_v444, main_v445]

/-- The operations of stage opsTail, and the references they write. -/
def opsTail : List (HloOp τ sig (Elt F)) := seg14
def wrTail : List (Ref sig .tc) := wr14

end Cert.ReferenceIdeal.RRun

end
-- ==== Proof.RefOps.lean ====
/- The printed windows of the reference program's @main as concatenations of the stages' segments (`winN` is the N-th window):
   754 operations in 15 segments over 9 windows. A table; the statements about it are in RefRun.lean. -/
import proofs.«119086_j26585847562989_2_alg».proof.Proof.RefOpsPre
import proofs.«119086_j26585847562989_2_alg».proof.Proof.RefOpsL0
import proofs.«119086_j26585847562989_2_alg».proof.Proof.RefOpsL1
import proofs.«119086_j26585847562989_2_alg».proof.Proof.RefOpsL2
import proofs.«119086_j26585847562989_2_alg».proof.Proof.RefOpsL3
import proofs.«119086_j26585847562989_2_alg».proof.Proof.RefOpsL4
import proofs.«119086_j26585847562989_2_alg».proof.Proof.RefOpsTail

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The operations of the printed window 0. -/
def win0 : List (HloOp τ sig (Elt F)) := seg0 ++ seg1
/-- The operations of the printed window 1. -/
def win1 : List (HloOp τ sig (Elt F)) := seg2 ++ seg3
/-- The operations of the printed window 2. -/
def win2 : List (HloOp τ sig (Elt F)) := seg4
/-- The operations of the printed window 3. -/
def win3 : List (HloOp τ sig (Elt F)) := seg5 ++ seg6
/-- The operations of the printed window 4. -/
def win4 : List (HloOp τ sig (Elt F)) := seg7 ++ seg8
/-- The operations of the printed window 5. -/
def win5 : List (HloOp τ sig (Elt F)) := seg9
/-- The operations of the printed window 6. -/
def win6 : List (HloOp τ sig (Elt F)) := seg10 ++ seg11
/-- The operations of the printed window 7. -/
def win7 : List (HloOp τ sig (Elt F)) := seg12
/-- The operations of the printed window 8. -/
def win8 : List (HloOp τ sig (Elt F)) := seg13 ++ seg14

end Cert.ReferenceIdeal.RRun

end
-- ==== Proof.LibLineReads.lean ====
/- Reading a straight line of host operations one operation at a time. When every operation of the line writes exactly the
   reference at its position in a list of references (`WritesAt`), a reference outside the list keeps its contents through the
   line, and the contents after the whole line of the reference an operation writes are that operation's function of the contents
   after the whole line of its operands — provided no later operation writes the result again, and neither the operation itself
   nor a later one writes an operand (a line in single-assignment form, each value computed before it is used). -/
import Idealize.ShloMosaic.Lib.StableHlo.Run
import Idealize.ShloMosaic.Lib.Pipeline.Frame

noncomputable section

namespace Cert.LineReads

open Idealize.ShloMosaic Idealize.ShloMosaic.TcCoe Idealize.SL.Sem Idealize.ShloMosaic.StableHlo

section Generic

variable {τ' : Topo} {sg : RefSig} {Vl : EltTy → Type}

/-- Each operation of the line writes exactly the reference at its position in the list. -/
abbrev WritesAt (l : List (HloOp τ' sg Vl)) (Wl : List (Ref sg .tc)) : Prop :=
  List.Forall₂ (fun op r => op.writes = {Proc.devRef (τ := τ') .tc r}) l Wl

theorem WritesAt.append {l₁ l₂ : List (HloOp τ' sg Vl)} {W₁ W₂ : List (Ref sg .tc)} (h₁ : WritesAt l₁ W₁) (h₂ : WritesAt l₂ W₂) :
    WritesAt (l₁ ++ l₂) (W₁ ++ W₂) := by
  induction h₁ with
  | nil => exact h₂
  | cons h _ ih => exact List.Forall₂.cons h ih

/-- A reference outside the list keeps its contents through the line. -/
theorem WritesAt.keep {l : List (HloOp τ' sg Vl)} {Wl : List (Ref sg .tc)} (h : WritesAt l Wl) {r : Ref sg .tc} (hr : r ∉ Wl) :
    ∀ V : Valuation τ' sg Vl, after l V (Proc.devRef .tc r) = V (Proc.devRef .tc r) := by
  induction h with
  | nil => intro V; rfl
  | @cons op r₀ l Wl hop _ ih =>
    intro V
    rw [after_cons, ih (fun h' => hr (List.mem_cons_of_mem _ h'))]
    refine op.result_of_not_mem V ?_
    rw [hop, Finset.mem_singleton]
    exact devRef_ne_of_ne (fun e => hr (e ▸ List.mem_cons_self))

/-- The line cut at its `p`-th operation: what precedes it, the operation, what follows. -/
theorem after_split (l : List (HloOp τ' sg Vl)) (p : Nat) (op : HloOp τ' sg Vl) (hop : l[p]? = some op) (V : Valuation τ' sg Vl) :
    after l V = after (l.drop (p + 1)) (op.result (after (l.take p) V)) := by
  obtain ⟨hp, rfl⟩ := List.getElem?_eq_some_iff.mp hop
  have e : l.take p ++ l[p] :: l.drop (p + 1) = l := by
    rw [← List.drop_eq_getElem_cons hp, List.take_append_drop]
  calc after l V = after (l.take p ++ l[p] :: l.drop (p + 1)) V := by rw [e]
    _ = _ := by rw [after_append, after_cons]

/-- A reference that no operation after the `p`-th writes holds, after the line, what the `p`-th operation left in it. -/
theorem read_at {l : List (HloOp τ' sg Vl)} {Wl : List (Ref sg .tc)} (h : WritesAt l Wl) (p : Nat) (op : HloOp τ' sg Vl)
    (hop : l[p]? = some op) (V : Valuation τ' sg Vl) {r : Ref sg .tc} (hr : r ∉ Wl.drop (p + 1)) :
    after l V (Proc.devRef .tc r) = op.result (after (l.take p) V) (Proc.devRef .tc r) := by
  rw [after_split l p op hop V]
  exact WritesAt.keep (List.forall₂_drop (p + 1) h) hr _

variable {l : List (HloOp τ' sg Vl)} {Wl : List (Ref sg .tc)}

theorem read_nullary (h : WritesAt l Wl) (p : Nat) {y : Ref sg .tc} {v : y.ty.Contents Vl} {hy}
    (hop : l[p]? = some (nullary y v hy)) (hy' : y ∉ Wl.drop (p + 1)) (V : Valuation τ' sg Vl) :
    after l V (Proc.devRef .tc y) = v := by
  rw [read_at h p _ hop V hy', nullary_result]

theorem read_unary (h : WritesAt l Wl) (p : Nat) {x y : Ref sg .tc} {f : x.ty.Contents Vl → y.ty.Contents Vl} {hx hy}
    (hop : l[p]? = some (unary x y f hx hy)) (hy' : y ∉ Wl.drop (p + 1)) (hx' : x ∉ y :: Wl.drop (p + 1)) (V : Valuation τ' sg Vl) :
    after l V (Proc.devRef .tc y) = f (after l V (Proc.devRef .tc x)) := by
  have ex : after l V (Proc.devRef .tc x) = after (l.take p) V (Proc.devRef .tc x) := by
    rw [read_at h p _ hop V (fun hm => hx' (List.mem_cons_of_mem _ hm)),
      unary_result_ne _ _ _ _ _ _ (fun e : x = y => hx' (e ▸ List.mem_cons_self))]
  rw [ex, read_at h p _ hop V hy', unary_result]

theorem read_reshape (h : WritesAt l Wl) (p : Nat) {x y : Ref sg .tc} {he : x.ty.elt = y.ty.elt} {hn : x.ty.shape.ShapeCasts y.ty.shape} {hx hy}
    (hop : l[p]? = some (reshape (Val := Vl) x y he hn hx hy)) (hy' : y ∉ Wl.drop (p + 1)) (hx' : x ∉ y :: Wl.drop (p + 1))
    (V : Valuation τ' sg Vl) :
    after l V (Proc.devRef .tc y) = fun i => he ▸ shapeCast y.ty.shape (after l V (Proc.devRef .tc x)) hn i := by
  have ex : after l V (Proc.devRef .tc x) = after (l.take p) V (Proc.devRef .tc x) := by
    rw [read_at h p _ hop V (fun hm => hx' (List.mem_cons_of_mem _ hm)),
      reshape_result_ne _ _ _ _ _ _ _ (fun e : x = y => hx' (e ▸ List.mem_cons_self))]
  rw [ex, read_at h p _ hop V hy', reshape_result]

theorem read_binary (h : WritesAt l Wl) (p : Nat) {a b y : Ref sg .tc} {f : a.ty.Contents Vl → b.ty.Contents Vl → y.ty.Contents Vl} {ha hb hy}
    (hop : l[p]? = some (binary a b y f ha hb hy)) (hy' : y ∉ Wl.drop (p + 1)) (ha' : a ∉ y :: Wl.drop (p + 1))
    (hb' : b ∉ y :: Wl.drop (p + 1)) (V : Valuation τ' sg Vl) :
    after l V (Proc.devRef .tc y) = f (after l V (Proc.devRef .tc a)) (after l V (Proc.devRef .tc b)) := by
  have ea : after l V (Proc.devRef .tc a) = after (l.take p) V (Proc.devRef .tc a) := by
    rw [read_at h p _ hop V (fun hm => ha' (List.mem_cons_of_mem _ hm)),
      binary_result_ne _ _ _ _ _ _ _ _ (fun e : a = y => ha' (e ▸ List.mem_cons_self))]
  have eb : after l V (Proc.devRef .tc b) = after (l.take p) V (Proc.devRef .tc b) := by
    rw [read_at h p _ hop V (fun hm => hb' (List.mem_cons_of_mem _ hm)),
      binary_result_ne _ _ _ _ _ _ _ _ (fun e : b = y => hb' (e ▸ List.mem_cons_self))]
  rw [ea, eb, read_at h p _ hop V hy', binary_result]

theorem read_ternary (h : WritesAt l Wl) (p : Nat) {c a b y : Ref sg .tc}
    {f : c.ty.Contents Vl → a.ty.Contents Vl → b.ty.Contents Vl → y.ty.Contents Vl} {hc ha hb hy}
    (hop : l[p]? = some (ternary c a b y f hc ha hb hy)) (hy' : y ∉ Wl.drop (p + 1)) (hc' : c ∉ y :: Wl.drop (p + 1))
    (ha' : a ∉ y :: Wl.drop (p + 1)) (hb' : b ∉ y :: Wl.drop (p + 1)) (V : Valuation τ' sg Vl) :
    after l V (Proc.devRef .tc y)
      = f (after l V (Proc.devRef .tc c)) (after l V (Proc.devRef .tc a)) (after l V (Proc.devRef .tc b)) := by
  have ec : after l V (Proc.devRef .tc c) = after (l.take p) V (Proc.devRef .tc c) := by
    rw [read_at h p _ hop V (fun hm => hc' (List.mem_cons_of_mem _ hm)),
      ternary_result_ne _ _ _ _ _ _ _ _ _ _ (fun e : c = y => hc' (e ▸ List.mem_cons_self))]
  have ea : after l V (Proc.devRef .tc a) = after (l.take p) V (Proc.devRef .tc a) := by
    rw [read_at h p _ hop V (fun hm => ha' (List.mem_cons_of_mem _ hm)),
      ternary_result_ne _ _ _ _ _ _ _ _ _ _ (fun e : a = y => ha' (e ▸ List.mem_cons_self))]
  have eb : after l V (Proc.devRef .tc b) = after (l.take p) V (Proc.devRef .tc b) := by
    rw [read_at h p _ hop V (fun hm => hb' (List.mem_cons_of_mem _ hm)),
      ternary_result_ne _ _ _ _ _ _ _ _ _ _ (fun e : b = y => hb' (e ▸ List.mem_cons_self))]
  rw [ec, ea, eb, read_at h p _ hop V hy', ternary_result]

end Generic

end Cert.LineReads

end
-- ==== Proof.RefRun.lean ====
/- The reference program's run, read as one straight line of host operations.

   The printed @main is nine windows run in order, each a sequence of host operations and of calls of module-local
   functions (a rectifier, a variance whose last step is a call of a select). A call executes the callee's body on
   the caller's buffers, so unfolding the callees at their calls and reassociating the sequencing turns each window
   into the straight line of the operations listed for it (the tables RefOps*.lean), and @main into the line of all of
   them (ops). The library's run of a straight line then gives: every weakly fair execution terminates with each
   buffer at the fold of the operations over the launch contents (run_main). Each operation writes exactly the
   reference listed at its position, none of them an argument of @main, so the arguments end as they began
   (keep_argK, args_kept). The fold over the whole line is the fold over the stages in turn (after_ops), and a stage
   leaves alone every reference it does not write (the stages' writes lemmas with WritesAt.keep). -/
import proofs.«119086_j26585847562989_2_alg».proof.Proof.RefOps
import proofs.«119086_j26585847562989_2_alg».proof.Proof.LibLineReads
import Idealize.ShloMosaic.Lib.Pipeline.Frame

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.LineReads

variable {F : FTy → Type} [FloatOps F]

/-- @main's operations in order, the calls unfolded: the prologue, the five layers, the pooling and classifier. -/
abbrev ops : List (HloOp τ sig (Elt F)) := opsPre ++ opsLayer0 ++ opsLayer1 ++ opsLayer2 ++ opsLayer3 ++ opsLayer4 ++ opsTail

/-- The references the operations write, in order. -/
abbrev wrs : List (Ref sig .tc) := wrPre ++ wrLayer0 ++ wrLayer1 ++ wrLayer2 ++ wrLayer3 ++ wrLayer4 ++ wrTail

/-! ## Each printed window is the line of its operations -/

/-- Unfold the window, the callees at their calls (the variance's select inside it), the window's list and its
    segments, and reassociate the sequencing: both sides are then the same chain of steps. -/
local macro "window_line" : tactic =>
  `(tactic| (simp only [main_part0, main_part1, main_part2, main_part3, main_part4, main_part5, main_part6, main_part7, main_part8,
      fn_relu.body, fn_relu_0.body, fn_relu_1.body, fn_var.body, fn_where.body,
      win0, win1, win2, win3, win4, win5, win6, win7, win8, seg0, seg1, seg2, seg3, seg4, seg5, seg6, seg7, seg8, seg9, seg10, seg11, seg12, seg13, seg14,
      List.cons_append, List.nil_append, seq, bind_assoc, pure_bind] <;> rfl))

set_option maxRecDepth 8192 in
theorem part0_eq (d : Dev nD) : main_part0 (F := F) d = seq win0 := by window_line
set_option maxRecDepth 8192 in
theorem part1_eq (d : Dev nD) : main_part1 (F := F) d = seq win1 := by window_line
set_option maxRecDepth 8192 in
theorem part2_eq (d : Dev nD) : main_part2 (F := F) d = seq win2 := by window_line
set_option maxRecDepth 8192 in
theorem part3_eq (d : Dev nD) : main_part3 (F := F) d = seq win3 := by window_line
set_option maxRecDepth 8192 in
theorem part4_eq (d : Dev nD) : main_part4 (F := F) d = seq win4 := by window_line
set_option maxRecDepth 8192 in
theorem part5_eq (d : Dev nD) : main_part5 (F := F) d = seq win5 := by window_line
set_option maxRecDepth 8192 in
theorem part6_eq (d : Dev nD) : main_part6 (F := F) d = seq win6 := by window_line
set_option maxRecDepth 8192 in
theorem part7_eq (d : Dev nD) : main_part7 (F := F) d = seq win7 := by window_line
set_option maxRecDepth 8192 in
theorem part8_eq (d : Dev nD) : main_part8 (F := F) d = seq win8 := by window_line

/-- The stages in order and the windows in order are the same segments in the same order. -/
theorem ops_eq_windows :
    (ops : List (HloOp τ sig (Elt F))) = win0 ++ (win1 ++ (win2 ++ (win3 ++ (win4 ++ (win5 ++ (win6 ++ (win7 ++ win8))))))) := by
  simp only [ops, opsPre, opsLayer0, opsLayer1, opsLayer2, opsLayer3, opsLayer4, opsTail,
    win0, win1, win2, win3, win4, win5, win6, win7, win8, List.append_assoc]

/-- @main is the straight line of all its operations: it runs its windows in order, each the line of its own
    operations, and lines run in order are their concatenation run as one. -/
theorem main_eq (c : Dev nD) : main (F := F) c = seq ops := by
  rw [ops_eq_windows]
  simp only [seq_append, main, part0_eq, part1_eq, part2_eq, part3_eq, part4_eq, part5_eq, part6_eq, part7_eq, part8_eq]

/-! ## What the operations touch, write, and leave undetermined -/

section Fresh
variable {τ' : Topo} {sg : RefSig} {Vl : EltTy → Type} (x a b c y : Ref sg .tc)
/-- A builder's operation determines its result: it leaves no buffer with contents of the machine's choosing. -/
theorem nullary_fresh (v : y.ty.Contents Vl) (hy) : (nullary (τ := τ') y v hy).fresh = ∅ := rfl
@[inherit_doc nullary_fresh]
theorem unary_fresh (f : x.ty.Contents Vl → y.ty.Contents Vl) (hx hy) : (unary (τ := τ') x y f hx hy).fresh = ∅ := rfl
@[inherit_doc nullary_fresh]
theorem binary_fresh (f : a.ty.Contents Vl → b.ty.Contents Vl → y.ty.Contents Vl) (ha hb hy) :
    (binary (τ := τ') a b y f ha hb hy).fresh = ∅ := rfl
@[inherit_doc nullary_fresh]
theorem ternary_fresh (f : c.ty.Contents Vl → a.ty.Contents Vl → b.ty.Contents Vl → y.ty.Contents Vl) (hc ha hb hy) :
    (ternary (τ := τ') c a b y f hc ha hb hy).fresh = ∅ := rfl
@[inherit_doc nullary_fresh]
theorem reshape_fresh (he hn hx hy) : (reshape (τ := τ') (Val := Vl) x y he hn hx hy).fresh = ∅ := rfl
end Fresh

/-- Every builder's operation touches TensorCore references only. -/
local macro "seg_sub" : tactic =>
  `(tactic| simp only [seg0, seg1, seg2, seg3, seg4, seg5, seg6, seg7, seg8, seg9, seg10, seg11, seg12, seg13, seg14, List.forall_cons, List.Forall,
      nullary_bufs_sub, unary_bufs_sub, binary_bufs_sub, ternary_bufs_sub, reshape_bufs_sub, and_self])

/-- Every builder's operation determines its result. -/
local macro "seg_fresh" : tactic =>
  `(tactic| simp only [seg0, seg1, seg2, seg3, seg4, seg5, seg6, seg7, seg8, seg9, seg10, seg11, seg12, seg13, seg14, List.forall_cons, List.Forall,
      nullary_fresh, unary_fresh, binary_fresh, ternary_fresh, reshape_fresh, and_self])

/-- Every builder's operation writes exactly its result reference, the one listed at its position. -/
local macro "seg_writes" : tactic =>
  `(tactic| simp only [seg0, seg1, seg2, seg3, seg4, seg5, seg6, seg7, seg8, seg9, seg10, seg11, seg12, seg13, seg14, wr0, wr1, wr2, wr3, wr4, wr5, wr6, wr7, wr8, wr9, wr10, wr11, wr12, wr13, wr14, WritesAt, List.forall₂_cons, List.forall₂_nil_left_iff,
      nullary_writes, unary_writes, binary_writes, ternary_writes, reshape_writes, and_self])

theorem seg0_sub : (seg0 (F := F)).Forall fun op => op.bufs ⊆ tcRefs τ sig := by seg_sub
theorem seg1_sub : (seg1 (F := F)).Forall fun op => op.bufs ⊆ tcRefs τ sig := by seg_sub
theorem seg2_sub : (seg2 (F := F)).Forall fun op => op.bufs ⊆ tcRefs τ sig := by seg_sub
theorem seg3_sub : (seg3 (F := F)).Forall fun op => op.bufs ⊆ tcRefs τ sig := by seg_sub
theorem seg4_sub : (seg4 (F := F)).Forall fun op => op.bufs ⊆ tcRefs τ sig := by seg_sub
theorem seg5_sub : (seg5 (F := F)).Forall fun op => op.bufs ⊆ tcRefs τ sig := by seg_sub
theorem seg6_sub : (seg6 (F := F)).Forall fun op => op.bufs ⊆ tcRefs τ sig := by seg_sub
theorem seg7_sub : (seg7 (F := F)).Forall fun op => op.bufs ⊆ tcRefs τ sig := by seg_sub
theorem seg8_sub : (seg8 (F := F)).Forall fun op => op.bufs ⊆ tcRefs τ sig := by seg_sub
theorem seg9_sub : (seg9 (F := F)).Forall fun op => op.bufs ⊆ tcRefs τ sig := by seg_sub
theorem seg10_sub : (seg10 (F := F)).Forall fun op => op.bufs ⊆ tcRefs τ sig := by seg_sub
theorem seg11_sub : (seg11 (F := F)).Forall fun op => op.bufs ⊆ tcRefs τ sig := by seg_sub
theorem seg12_sub : (seg12 (F := F)).Forall fun op => op.bufs ⊆ tcRefs τ sig := by seg_sub
theorem seg13_sub : (seg13 (F := F)).Forall fun op => op.bufs ⊆ tcRefs τ sig := by seg_sub
theorem seg14_sub : (seg14 (F := F)).Forall fun op => op.bufs ⊆ tcRefs τ sig := by seg_sub

theorem seg0_fresh : (seg0 (F := F)).Forall fun op => op.fresh = ∅ := by seg_fresh
theorem seg1_fresh : (seg1 (F := F)).Forall fun op => op.fresh = ∅ := by seg_fresh
theorem seg2_fresh : (seg2 (F := F)).Forall fun op => op.fresh = ∅ := by seg_fresh
theorem seg3_fresh : (seg3 (F := F)).Forall fun op => op.fresh = ∅ := by seg_fresh
theorem seg4_fresh : (seg4 (F := F)).Forall fun op => op.fresh = ∅ := by seg_fresh
theorem seg5_fresh : (seg5 (F := F)).Forall fun op => op.fresh = ∅ := by seg_fresh
theorem seg6_fresh : (seg6 (F := F)).Forall fun op => op.fresh = ∅ := by seg_fresh
theorem seg7_fresh : (seg7 (F := F)).Forall fun op => op.fresh = ∅ := by seg_fresh
theorem seg8_fresh : (seg8 (F := F)).Forall fun op => op.fresh = ∅ := by seg_fresh
theorem seg9_fresh : (seg9 (F := F)).Forall fun op => op.fresh = ∅ := by seg_fresh
theorem seg10_fresh : (seg10 (F := F)).Forall fun op => op.fresh = ∅ := by seg_fresh
theorem seg11_fresh : (seg11 (F := F)).Forall fun op => op.fresh = ∅ := by seg_fresh
theorem seg12_fresh : (seg12 (F := F)).Forall fun op => op.fresh = ∅ := by seg_fresh
theorem seg13_fresh : (seg13 (F := F)).Forall fun op => op.fresh = ∅ := by seg_fresh
theorem seg14_fresh : (seg14 (F := F)).Forall fun op => op.fresh = ∅ := by seg_fresh

theorem seg0_writes : WritesAt (seg0 (F := F)) wr0 := by seg_writes
theorem seg1_writes : WritesAt (seg1 (F := F)) wr1 := by seg_writes
theorem seg2_writes : WritesAt (seg2 (F := F)) wr2 := by seg_writes
theorem seg3_writes : WritesAt (seg3 (F := F)) wr3 := by seg_writes
theorem seg4_writes : WritesAt (seg4 (F := F)) wr4 := by seg_writes
theorem seg5_writes : WritesAt (seg5 (F := F)) wr5 := by seg_writes
theorem seg6_writes : WritesAt (seg6 (F := F)) wr6 := by seg_writes
theorem seg7_writes : WritesAt (seg7 (F := F)) wr7 := by seg_writes
theorem seg8_writes : WritesAt (seg8 (F := F)) wr8 := by seg_writes
theorem seg9_writes : WritesAt (seg9 (F := F)) wr9 := by seg_writes
theorem seg10_writes : WritesAt (seg10 (F := F)) wr10 := by seg_writes
theorem seg11_writes : WritesAt (seg11 (F := F)) wr11 := by seg_writes
theorem seg12_writes : WritesAt (seg12 (F := F)) wr12 := by seg_writes
theorem seg13_writes : WritesAt (seg13 (F := F)) wr13 := by seg_writes
theorem seg14_writes : WritesAt (seg14 (F := F)) wr14 := by seg_writes

theorem ops_sub : (ops : List (HloOp τ sig (Elt F))).Forall fun op => op.bufs ⊆ tcRefs τ sig := by
  simp only [ops, opsPre, opsLayer0, opsLayer1, opsLayer2, opsLayer3, opsLayer4, opsTail, List.forall_append,
    seg0_sub, seg1_sub, seg2_sub, seg3_sub, seg4_sub, seg5_sub, seg6_sub, seg7_sub, seg8_sub, seg9_sub, seg10_sub, seg11_sub, seg12_sub, seg13_sub, seg14_sub, and_self]

theorem ops_fresh : (ops : List (HloOp τ sig (Elt F))).Forall fun op => op.fresh = ∅ := by
  simp only [ops, opsPre, opsLayer0, opsLayer1, opsLayer2, opsLayer3, opsLayer4, opsTail, List.forall_append,
    seg0_fresh, seg1_fresh, seg2_fresh, seg3_fresh, seg4_fresh, seg5_fresh, seg6_fresh, seg7_fresh, seg8_fresh, seg9_fresh, seg10_fresh, seg11_fresh, seg12_fresh, seg13_fresh, seg14_fresh, and_self]

/-- Each stage's operations write exactly the references listed for it. -/
theorem opsPre_writes : WritesAt (opsPre (F := F)) wrPre := seg0_writes
@[inherit_doc opsPre_writes]
theorem opsLayer0_writes : WritesAt (opsLayer0 (F := F)) wrLayer0 := seg1_writes.append seg2_writes
@[inherit_doc opsPre_writes]
theorem opsLayer1_writes : WritesAt (opsLayer1 (F := F)) wrLayer1 := (seg3_writes.append seg4_writes).append seg5_writes
@[inherit_doc opsPre_writes]
theorem opsLayer2_writes : WritesAt (opsLayer2 (F := F)) wrLayer2 := seg6_writes.append seg7_writes
@[inherit_doc opsPre_writes]
theorem opsLayer3_writes : WritesAt (opsLayer3 (F := F)) wrLayer3 := (seg8_writes.append seg9_writes).append seg10_writes
@[inherit_doc opsPre_writes]
theorem opsLayer4_writes : WritesAt (opsLayer4 (F := F)) wrLayer4 := (seg11_writes.append seg12_writes).append seg13_writes
@[inherit_doc opsPre_writes]
theorem opsTail_writes : WritesAt (opsTail (F := F)) wrTail := seg14_writes

/-- The whole line writes exactly the references listed, in order. -/
theorem ops_writes : WritesAt (ops : List (HloOp τ sig (Elt F))) wrs :=
  (((((opsPre_writes.append opsLayer0_writes).append opsLayer1_writes).append opsLayer2_writes).append opsLayer3_writes).append
    opsLayer4_writes).append opsTail_writes

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The fold over the whole line is the fold over the stages in turn. -/
theorem after_ops (V : Valuation τ sig (Elt F)) :
    after ops V = after opsTail (after opsLayer4 (after opsLayer3 (after opsLayer2 (after opsLayer1 (after opsLayer0 (after opsPre V)))))) := by
  simp only [ops, after_append]

/-! ## The arguments are written by no operation -/

theorem keep_arg0 (V : Valuation τ sig (Elt F)) : after ops V (main_arg0 : DevRef τ sig) = V (main_arg0 : DevRef τ sig) :=
  ops_writes.keep (by decide) V
theorem keep_arg1 (V : Valuation τ sig (Elt F)) : after ops V (main_arg1 : DevRef τ sig) = V (main_arg1 : DevRef τ sig) :=
  ops_writes.keep (by decide) V
theorem keep_arg2 (V : Valuation τ sig (Elt F)) : after ops V (main_arg2 : DevRef τ sig) = V (main_arg2 : DevRef τ sig) :=
  ops_writes.keep (by decide) V
theorem keep_arg3 (V : Valuation τ sig (Elt F)) : after ops V (main_arg3 : DevRef τ sig) = V (main_arg3 : DevRef τ sig) :=
  ops_writes.keep (by decide) V
theorem keep_arg4 (V : Valuation τ sig (Elt F)) : after ops V (main_arg4 : DevRef τ sig) = V (main_arg4 : DevRef τ sig) :=
  ops_writes.keep (by decide) V
theorem keep_arg5 (V : Valuation τ sig (Elt F)) : after ops V (main_arg5 : DevRef τ sig) = V (main_arg5 : DevRef τ sig) :=
  ops_writes.keep (by decide) V
theorem keep_arg6 (V : Valuation τ sig (Elt F)) : after ops V (main_arg6 : DevRef τ sig) = V (main_arg6 : DevRef τ sig) :=
  ops_writes.keep (by decide) V
theorem keep_arg7 (V : Valuation τ sig (Elt F)) : after ops V (main_arg7 : DevRef τ sig) = V (main_arg7 : DevRef τ sig) :=
  ops_writes.keep (by decide) V
theorem keep_arg8 (V : Valuation τ sig (Elt F)) : after ops V (main_arg8 : DevRef τ sig) = V (main_arg8 : DevRef τ sig) :=
  ops_writes.keep (by decide) V
theorem keep_arg9 (V : Valuation τ sig (Elt F)) : after ops V (main_arg9 : DevRef τ sig) = V (main_arg9 : DevRef τ sig) :=
  ops_writes.keep (by decide) V
theorem keep_arg10 (V : Valuation τ sig (Elt F)) : after ops V (main_arg10 : DevRef τ sig) = V (main_arg10 : DevRef τ sig) :=
  ops_writes.keep (by decide) V
theorem keep_arg11 (V : Valuation τ sig (Elt F)) : after ops V (main_arg11 : DevRef τ sig) = V (main_arg11 : DevRef τ sig) :=
  ops_writes.keep (by decide) V
theorem keep_arg12 (V : Valuation τ sig (Elt F)) : after ops V (main_arg12 : DevRef τ sig) = V (main_arg12 : DevRef τ sig) :=
  ops_writes.keep (by decide) V
theorem keep_arg13 (V : Valuation τ sig (Elt F)) : after ops V (main_arg13 : DevRef τ sig) = V (main_arg13 : DevRef τ sig) :=
  ops_writes.keep (by decide) V
theorem keep_arg14 (V : Valuation τ sig (Elt F)) : after ops V (main_arg14 : DevRef τ sig) = V (main_arg14 : DevRef τ sig) :=
  ops_writes.keep (by decide) V
theorem keep_arg15 (V : Valuation τ sig (Elt F)) : after ops V (main_arg15 : DevRef τ sig) = V (main_arg15 : DevRef τ sig) :=
  ops_writes.keep (by decide) V
theorem keep_arg16 (V : Valuation τ sig (Elt F)) : after ops V (main_arg16 : DevRef τ sig) = V (main_arg16 : DevRef τ sig) :=
  ops_writes.keep (by decide) V
theorem keep_arg17 (V : Valuation τ sig (Elt F)) : after ops V (main_arg17 : DevRef τ sig) = V (main_arg17 : DevRef τ sig) :=
  ops_writes.keep (by decide) V
theorem keep_arg18 (V : Valuation τ sig (Elt F)) : after ops V (main_arg18 : DevRef τ sig) = V (main_arg18 : DevRef τ sig) :=
  ops_writes.keep (by decide) V
theorem keep_arg19 (V : Valuation τ sig (Elt F)) : after ops V (main_arg19 : DevRef τ sig) = V (main_arg19 : DevRef τ sig) :=
  ops_writes.keep (by decide) V

/-- A final state that holds the fold of the operations over the launch contents holds each argument as launched. -/
theorem args_kept (m : (ℓ : Loc nD τ sig) → Buf (Elt F) ℓ) (c : Dev nD) (r : PUnit × MemSt nD τ sig (Elt F))
    (h : ∀ b : Ref sig .tc, r.2.mem ((c.tc : Thread nD τ).loc b) = after ops (launchContents m c) (b : DevRef τ sig)) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19) :=
  ⟨(h main_arg0).trans (keep_arg0 _),
    (h main_arg1).trans (keep_arg1 _),
    (h main_arg2).trans (keep_arg2 _),
    (h main_arg3).trans (keep_arg3 _),
    (h main_arg4).trans (keep_arg4 _),
    (h main_arg5).trans (keep_arg5 _),
    (h main_arg6).trans (keep_arg6 _),
    (h main_arg7).trans (keep_arg7 _),
    (h main_arg8).trans (keep_arg8 _),
    (h main_arg9).trans (keep_arg9 _),
    (h main_arg10).trans (keep_arg10 _),
    (h main_arg11).trans (keep_arg11 _),
    (h main_arg12).trans (keep_arg12 _),
    (h main_arg13).trans (keep_arg13 _),
    (h main_arg14).trans (keep_arg14 _),
    (h main_arg15).trans (keep_arg15 _),
    (h main_arg16).trans (keep_arg16 _),
    (h main_arg17).trans (keep_arg17 _),
    (h main_arg18).trans (keep_arg18 _),
    (h main_arg19).trans (keep_arg19 _)⟩

end Cert.ReferenceIdeal.RRun

end
-- ==== Proof.KernelStretchDefs.lean ====
/- The quantities the kernel's host stretches compute, as functions of the contents they read, at any float instance:
   the node embedding, the messages and their scatter-sum, the scale row 1 + eps, a layer's slice of a stacked
   parameter, and the batch statistics (mean and clamped variance) recovered from per-tile column sums and sums of
   squares. Each later module states that a stretch leaves exactly these in the buffers that later code reads. -/
import proofs.«119086_j26585847562989_2_alg».proof.Proof.Gen.KernelIdeal
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-! ## Indices -/

/-- A node's feature index wrapped into the embedding table's 119 rows (a negative index counts from the end), as a
    column of indices. -/
def nodeIdx (x : (⟨S20000, .i32⟩ : BufTy).Contents (Elt F)) : (⟨S20000x1, .i32⟩ : BufTy).Contents (Elt F) :=
  broadcastInDim S20000x1 ![0] bcast_S20000_S20000x1_0
    (select (cmpi .slt x (broadcastInDim S20000 ![] bcast_S_S20000 (constantI S_ 32 0#32)))
      (addi x (broadcastInDim S20000 ![] bcast_S_S20000 (constantI S_ 32 119#32))) x)

/-- An edge endpoint wrapped into the 20000 nodes (a negative index counts from the end), as a column of indices. -/
def edgeIdx (x : (⟨S320000, .i32⟩ : BufTy).Contents (Elt F)) : (⟨S320000x1, .i32⟩ : BufTy).Contents (Elt F) :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 20000#32))) x)

/-- Row `r` (0 or 1) of the 2 × E edge index, as a vector of E endpoints. -/
def edgeRow (ei : (⟨S2x320000, .i32⟩ : BufTy).Contents (Elt F)) (off : Fin S2x320000.rank → Nat) (h : S2x320000.Slices off S1x320000) :
    (⟨S320000, .i32⟩ : BufTy).Contents (Elt F) :=
  shapeCast S320000 (extractStridedSlice S1x320000 off ei h) shapeCasts_S1x320000_S320000

/-! ## The embedding, the messages, the aggregate -/

/-- The node embedding: row `x n` (wrapped) of the embedding table for node `n`. -/
def nodeEmbed (tbl : (⟨S119x300, .f32⟩ : BufTy).Contents (Elt F)) (x : (⟨S20000, .i32⟩ : BufTy).Contents (Elt F)) : (⟨S20000x300, .f32⟩ : BufTy).Contents (Elt F) :=
  Host.gather gather_S119x300_S20000x1_S20000x300_1_0_n_n_0_1_1300 tbl (nodeIdx x)

/-- The messages: for each edge, relu (h[src] + e), both summands widened from bf16. -/
def messages (hb : (⟨S20000x300, .bf16⟩ : BufTy).Contents (Elt F)) (e : (⟨S320000x300, .bf16⟩ : BufTy).Contents (Elt F)) (src : (⟨S320000, .i32⟩ : BufTy).Contents (Elt F)) :
    (⟨S320000x300, .f32⟩ : BufTy).Contents (Elt F) :=
  maximumf
    (addf (extf .f32 (Host.gather gather_S20000x300_S320000x1_S320000x300_1_0_n_n_0_1_1300 hb (edgeIdx src)) bitsLt_bf16_f32)
      (extf .f32 e bitsLt_bf16_f32))
    (broadcastInDim S320000x300 ![] bcast_S_S320000x300 (constant S_ .f32 0x00000000#32))

/-- The aggregate: the messages added into their destination rows, from zero. -/
def aggregate (hb : (⟨S20000x300, .bf16⟩ : BufTy).Contents (Elt F)) (e : (⟨S320000x300, .bf16⟩ : BufTy).Contents (Elt F)) (src dst : (⟨S320000, .i32⟩ : BufTy).Contents (Elt F)) :
    (⟨S20000x300, .f32⟩ : BufTy).Contents (Elt F) :=
  Host.scatterAdd scatter_S20000x300_S320000x1_S320000x300_1_0_0_1
    (broadcastInDim S20000x300 ![] bcast_S_S20000x300 (constant S_ .f32 0x00000000#32))
    (broadcastInDim S320000x1 ![0] bcast_S320000_S320000x1_0 dst)
    (messages hb e src)

/-! ## A layer's parameters -/

/-- The row 1 + eps, eps the layer's entry of the five-entry vector, repeated along the 300 columns. -/
def scaleRow (eps : (⟨S5, .f32⟩ : BufTy).Contents (Elt F)) (off : Fin S5.rank → Nat) (h : S5.Slices off S1) : (⟨S1x300, .f32⟩ : BufTy).Contents (Elt F) :=
  broadcastInDim S1x300 ![0, 1] bcast_S1x1_S1x300_0_1
    (broadcastInDim S1x1 ![] bcast_S_S1x1
      (addf (constant S_ .f32 0x3F800000#32) (shapeCast S_ (extractStridedSlice S1 off eps h) shapeCasts_S1_S_)))

/-- The layer's 300-vector out of a stack of five. -/
def layerVec (t : (⟨S5x300, .f32⟩ : BufTy).Contents (Elt F)) (off : Fin S5x300.rank → Nat) (h : S5x300.Slices off S1x300) : (⟨S300, .f32⟩ : BufTy).Contents (Elt F) :=
  shapeCast S300 (extractStridedSlice S1x300 off t h) shapeCasts_S1x300_S300

/-- The layer's 300 × 300 matrix out of a stack of five. -/
def layerMat (t : (⟨S5x300x300, .f32⟩ : BufTy).Contents (Elt F)) (off : Fin S5x300x300.rank → Nat) (h : S5x300x300.Slices off S1x300x300) :
    (⟨S300x300, .f32⟩ : BufTy).Contents (Elt F) :=
  shapeCast S300x300 (extractStridedSlice S1x300x300 off t h) shapeCasts_S1x300x300_S300x300

/-- A 300-vector laid out as one row. -/
def rowOf (x : (⟨S300, .f32⟩ : BufTy).Contents (Elt F)) : (⟨S1x300, .f32⟩ : BufTy).Contents (Elt F) := shapeCast S1x300 x shapeCasts_S300_S1x300

/-! ## Batch statistics from the per-tile partials -/

/-- One of the two partials (0: column sums, 1: column sums of squares) summed over the ten tiles. -/
def partSum (p : (⟨S10x2x300, .f32⟩ : BufTy).Contents (Elt F)) (off : Fin S10x2x300.rank → Nat) (h : S10x2x300.Slices off S10x1x300) :
    (⟨S300, .f32⟩ : BufTy).Contents (Elt F) :=
  Host.reduceAdd (shapeCast S10x300 (extractStridedSlice S10x1x300 off p h) shapeCasts_S10x1x300_S10x300)
    (constant S_ .f32 0x00000000#32) reducesTo_S10x300_S300_d0 h_S_

/-- The number of nodes, 20000, in every column. -/
def nodeCount : (⟨S300, .f32⟩ : BufTy).Contents (Elt F) := broadcastInDim S300 ![] bcast_S_S300 (constant S_ .f32 0x469C4000#32)

/-- The column means: the column sums over the number of nodes. -/
def bnMean (p : (⟨S10x2x300, .f32⟩ : BufTy).Contents (Elt F)) : (⟨S300, .f32⟩ : BufTy).Contents (Elt F) :=
  Host.divf (partSum p ![0, 0, 0] slices_S10x2x300_S10x1x300_0_0_0) nodeCount

/-- The column variances: mean of squares minus squared mean, clamped at zero. -/
def bnVar (p : (⟨S10x2x300, .f32⟩ : BufTy).Contents (Elt F)) : (⟨S300, .f32⟩ : BufTy).Contents (Elt F) :=
  maximumf
    (subf (Host.divf (partSum p ![0, 1, 0] slices_S10x2x300_S10x1x300_0_1_0) nodeCount) (mulf (bnMean p) (bnMean p)))
    (broadcastInDim S300 ![] bcast_S_S300 (constant S_ .f32 0x00000000#32))

/-! ## The readout: mean pooling per graph, then two dense layers -/

/-- The nodes' graph numbers as a column of indices. -/
def graphCol (g : (⟨S20000, .i32⟩ : BufTy).Contents (Elt F)) : (⟨S20000x1, .i32⟩ : BufTy).Contents (Elt F) :=
  broadcastInDim S20000x1 ![0] bcast_S20000_S20000x1_0 g

/-- The number of nodes of each of the 128 graphs: ones added at the nodes' graph numbers, from zero. -/
def graphCount (g : (⟨S20000, .i32⟩ : BufTy).Contents (Elt F)) : (⟨S128, .f32⟩ : BufTy).Contents (Elt F) :=
  Host.scatterAdd scatter_S128_S20000x1_S20000_n_0_0_1
    (broadcastInDim S128 ![] bcast_S_S128 (constant S_ .f32 0x00000000#32))
    (graphCol g)
    (broadcastInDim S20000 ![] bcast_S_S20000 (constant S_ .f32 0x3F800000#32))

/-- The node rows added up per graph, from zero. -/
def graphSum (h : (⟨S20000x300, .f32⟩ : BufTy).Contents (Elt F)) (g : (⟨S20000, .i32⟩ : BufTy).Contents (Elt F)) : (⟨S128x300, .f32⟩ : BufTy).Contents (Elt F) :=
  Host.scatterAdd scatter_S128x300_S20000x1_S20000x300_1_0_0_1
    (broadcastInDim S128x300 ![] bcast_S_S128x300 (constant S_ .f32 0x00000000#32))
    (graphCol g) h

/-- The mean node row of each graph: its sum over its node count, the count taken as at least one. -/
def graphMean (h : (⟨S20000x300, .f32⟩ : BufTy).Contents (Elt F)) (g : (⟨S20000, .i32⟩ : BufTy).Contents (Elt F)) : (⟨S128x300, .f32⟩ : BufTy).Contents (Elt F) :=
  Host.divf (graphSum h g)
    (broadcastInDim S128x300 ![0, 1] bcast_S128x1_S128x300_0_1
      (broadcastInDim S128x1 ![0] bcast_S128_S128x1_0
        (maximumf (graphCount g) (broadcastInDim S128 ![] bcast_S_S128 (constant S_ .f32 0x3F800000#32)))))

/-- The readout's hidden layer before its clamp: mean rows times the 300 × 150 matrix, plus the bias row. -/
def headHidden (h : (⟨S20000x300, .f32⟩ : BufTy).Contents (Elt F)) (g : (⟨S20000, .i32⟩ : BufTy).Contents (Elt F)) (w : (⟨S300x150, .f32⟩ : BufTy).Contents (Elt F)) (b : (⟨S150, .f32⟩ : BufTy).Contents (Elt F)) :
    (⟨S128x150, .f32⟩ : BufTy).Contents (Elt F) :=
  addf (Host.dotGeneral dot_S128x300_S300x150_S128x150_1_0_0_1_n_n none (graphMean h g) w)
    (broadcastInDim S128x150 ![0, 1] bcast_S1x150_S128x150_0_1 (broadcastInDim S1x150 ![1] bcast_S150_S1x150_1 b))

/-- The clamp at zero of the hidden layer. -/
def headClamp (x : (⟨S128x150, .f32⟩ : BufTy).Contents (Elt F)) : (⟨S128x150, .f32⟩ : BufTy).Contents (Elt F) :=
  maximumf x (broadcastInDim S128x150 ![] bcast_S_S128x150 (constant S_ .f32 0x00000000#32))

/-- The readout's last layer: the clamped hidden rows times the 150 × 6 matrix, plus the bias row. -/
def headOut (x : (⟨S128x150, .f32⟩ : BufTy).Contents (Elt F)) (w : (⟨S150x6, .f32⟩ : BufTy).Contents (Elt F)) (b : (⟨S6, .f32⟩ : BufTy).Contents (Elt F)) : (⟨S128x6, .f32⟩ : BufTy).Contents (Elt F) :=
  addf (Host.dotGeneral dot_S128x150_S150x6_S128x6_1_0_0_1_n_n none x w)
    (broadcastInDim S128x6 ![0, 1] bcast_S1x6_S128x6_0_1 (broadcastInDim S1x6 ![1] bcast_S6_S1x6_1 b))

end Cert.KernelIdeal.KStretch

end
-- ==== Proof.KernelStretch0.lean ====
/- The first stretch of host operations of the kernel's @main (the fifteen operations before the edge encoder), read
   from ANY contents `W` of the buffers: what it leaves in each buffer that later code reads. It splits the edge index
   into its row of sources and its row of destinations, looks the node features up in the embedding table (a negative
   index counting from the table's end), narrows the looked-up rows to bf16, and lays the edge bias out as one row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The sources: row 0 of the edge index. -/
theorem st0_v1 (W : Valuation τ sig (Elt F)) :
    StableHlo.after hostOps0 W (Proc.devRef .tc main_v1)
      = edgeRow (W (Proc.devRef .tc main_arg1)) ![0, 0] slices_S2x320000_S1x320000_0_0 := by
  simp only [hostOps0]; after_results; rfl

/-- The destinations: row 1 of the edge index. -/
theorem st0_v3 (W : Valuation τ sig (Elt F)) :
    StableHlo.after hostOps0 W (Proc.devRef .tc main_v3)
      = edgeRow (W (Proc.devRef .tc main_arg1)) ![1, 0] slices_S2x320000_S1x320000_1_0 := by
  simp only [hostOps0]; after_results; rfl

/-- The node embedding. -/
theorem st0_v10 (W : Valuation τ sig (Elt F)) :
    StableHlo.after hostOps0 W (Proc.devRef .tc main_v10)
      = nodeEmbed (W (Proc.devRef .tc main_arg4)) (W (Proc.devRef .tc main_arg0)) := by
  simp only [hostOps0]; after_results; rfl

/-- The node embedding narrowed to bf16. -/
theorem st0_v11 (W : Valuation τ sig (Elt F)) :
    StableHlo.after hostOps0 W (Proc.devRef .tc main_v11)
      = truncf .bf16 (nodeEmbed (W (Proc.devRef .tc main_arg4)) (W (Proc.devRef .tc main_arg0))) bitsLt_bf16_f32 := by
  simp only [hostOps0]; after_results; rfl

/-- The edge bias as one row. -/
theorem st0_v12 (W : Valuation τ sig (Elt F)) :
    StableHlo.after hostOps0 W (Proc.devRef .tc main_v12)
      = rowOf (W (Proc.devRef .tc main_arg6)) := by
  simp only [hostOps0]; after_results; rfl

/-- The references the stretch writes, in order. -/
def writes0 : List (Ref sig .tc) :=
  [main_v0, main_v1, main_v2, main_v3, main_c, main_v4, main_v5, main_c_0, main_v6, main_v7, main_v8, main_v9, main_v10, main_v11, main_v12]

/-- A buffer the stretch does not write keeps its contents. -/
theorem st0_keep (W : Valuation τ sig (Elt F)) (r : Ref sig .tc) (hr : r ∉ writes0) :
    StableHlo.after hostOps0 W (Proc.devRef .tc r) = W (Proc.devRef .tc r) :=
  StableHlo.after_of_writes_sub hostOps0 W (by
    simp only [hostOps0, writes0, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.SpecEncBn.lean ====
/-
  Two closed forms, entry by entry, at the exact extended-real values.

  * An affine map applied to every row. For A (m rows of k entries), W (k by n) and a bias laid as a one-row
    matrix b, entry (p, q) of the result is  ∑ c, A(p, c) · W(c, q) + b(0, q).
  * Normalisation of each column by given statistics, an affine rescaling, and a clamp at zero. With the column
    statistics and coefficients laid as one-row matrices, entry (p, q) of the result is
      max( (z(p, q) − mean(0, q)) · rsqrt(var(0, q) + ε) · g(0, q) + be(0, q), 0 ),
    where ε is the single-precision word 0x3727C5AC read exactly (the same word wherever it appears, so it is never
    evaluated).
  Both are stated over the two coordinates of an index, so that they are read at (p, q) by computation.
-/
import Idealize.ShloMosaic.Lib.ValueIdx
import Idealize.ShloMosaic.PureOps.Ideal.Laws

noncomputable section

open scoped BigOperators

namespace Cert.KernelIdeal.RVal

open Idealize.ShloMosaic Idealize.ShloMosaic.ValueIdx

/-- The affine image of every row: entry (p, q) is ∑ c, a(p, c) · w(c, q) + b(0, q). -/
def edgeEncOf {m k n : Nat} (a : (⟨2, ![m, k]⟩ : Shape).Idx → EReal) (w : (⟨2, ![k, n]⟩ : Shape).Idx → EReal)
    (b : (⟨2, ![1, n]⟩ : Shape).Idx → EReal) : (⟨2, ![m, n]⟩ : Shape).Idx → EReal :=
  fun i => (∑ c : Fin k, a (ix2 (i 0) c) * w (ix2 c (i 1))) + b (ix2 (0 : Fin 1) (i 1))

/-- It is read at (p, q) by computation. -/
theorem edgeEncOf_apply {m k n : Nat} (a : (⟨2, ![m, k]⟩ : Shape).Idx → EReal) (w : (⟨2, ![k, n]⟩ : Shape).Idx → EReal)
    (b : (⟨2, ![1, n]⟩ : Shape).Idx → EReal) (p : Fin m) (q : Fin n) :
    edgeEncOf a w b (ix2 p q) = (∑ c : Fin k, a (ix2 p c) * w (ix2 c q)) + b (ix2 (0 : Fin 1) q) := rfl

/-- Column-wise normalisation, rescaling and clamp at zero: entry (p, q) is
    max((z(p, q) − mean(0, q)) · rsqrt(var(0, q) + ε) · g(0, q) + be(0, q), 0). -/
def bnReluOf {m n : Nat} (z : (⟨2, ![m, n]⟩ : Shape).Idx → EReal) (mean var g be : (⟨2, ![1, n]⟩ : Shape).Idx → EReal) :
    (⟨2, ![m, n]⟩ : Shape).Idx → EReal :=
  fun i => max ((z i - mean (ix2 (0 : Fin 1) (i 1))) * Ideal.rsqrt (var (ix2 (0 : Fin 1) (i 1)) + Ideal.ofBits .f32 0x3727C5AC#32)
      * g (ix2 (0 : Fin 1) (i 1)) + be (ix2 (0 : Fin 1) (i 1))) 0

/-- It is read at (p, q) by computation. -/
theorem bnReluOf_apply {m n : Nat} (z : (⟨2, ![m, n]⟩ : Shape).Idx → EReal) (mean var g be : (⟨2, ![1, n]⟩ : Shape).Idx → EReal)
    (p : Fin m) (q : Fin n) :
    bnReluOf z mean var g be (ix2 p q)
      = max ((z (ix2 p q) - mean (ix2 (0 : Fin 1) q)) * Ideal.rsqrt (var (ix2 (0 : Fin 1) q) + Ideal.ofBits .f32 0x3727C5AC#32)
          * g (ix2 (0 : Fin 1) q) + be (ix2 (0 : Fin 1) q)) 0 := rfl

end Cert.KernelIdeal.RVal

end
-- ==== Proof.ReadEncBn.lean ====
/-
  The two bodies read at an entry, at the exact extended-real values.

  * A one-row matrix copied down m rows (by aligning trailing axes) has, at (p, q), the row's entry q.
  * The affine body: both operands narrowed (the identity on extended reals), multiplied into a zero matrix, a
    one-row bias added to every row, and the sum narrowed again. At (p, q) this is ∑ c, x(p, c) · w(c, q) + b(0, q):
    the accumulator is the extended real 0 and 0 + s = s.
  * The normalising body: (z − mean) · rsqrt(var + ε) · g + be, clamped below at the zero word, the four one-row
    operands copied down the rows. At (p, q) each copy is the row's entry q, and the zero word is the extended real 0.
-/
import Idealize.ShloMosaic.Lib.StackMember
import Idealize.ShloMosaic.Lib.KernelVsHost
import Idealize.ShloMosaic.Lib.ValueLayout
import Idealize.ShloMosaic.Lib.Pipeline.Value
import proofs.«119086_j26585847562989_2_alg».proof.Proof.SpecEncBn

noncomputable section

open scoped BigOperators

namespace Cert.KernelIdeal.RVal

open Idealize.ShloMosaic Idealize.ShloMosaic.ValueIdx Idealize.ShloMosaic.StackMember

/-- A one-row matrix copied down m rows: at (p, q) it is the row's entry q. -/
theorem oneRowDown_apply {α : Type} {m n : Nat} (B : (⟨2, ![1, n]⟩ : Shape).Idx → α)
    (h : (⟨2, ![1, n]⟩ : Shape).Broadcasts ⟨2, ![m, n]⟩) (p : Fin m) (q : Fin n) :
    broadcastTo ⟨2, ![m, n]⟩ B h (ix2 p q) = B (ix2 (0 : Fin 1) q) := by
  refine broadcastTo_apply B h (ix2 p q) (ix2 (0 : Fin 1) q) fun ax => ?_
  match ax with
  | ⟨0, _⟩ => rfl
  | ⟨1, _⟩ =>
    show q.val = if n = 1 then 0 else q.val
    split
    · have := q.isLt; omega
    · rfl

/-- The affine body at (p, q): ∑ c, x(p, c) · w(c, q) + b(0, q). -/
theorem encBody_apply {m k n : Nat} (prec : Option ContractPrecision)
    (x : FVec Ideal ⟨2, ![m, k]⟩ .f32) (w : FVec Ideal ⟨2, ![k, n]⟩ .f32) (b : FVec Ideal ⟨2, ![1, n]⟩ .f32)
    (h16 : FTy.bits .bf16 < FTy.bits .f32)
    (hs : (⟨2, ![1, n]⟩ : Shape).ShapeCasts ⟨2, ![1, n]⟩) (hb : (⟨2, ![1, n]⟩ : Shape).Broadcasts ⟨2, ![m, n]⟩)
    (p : Fin m) (q : Fin n) :
    (truncf .bf16 (addf (matmul (DotDims.plain m k n) prec (truncf .bf16 x h16) (truncf .bf16 w h16)
          (constant (F := Ideal) ⟨2, ![m, n]⟩ .f32 0x00000000#32))
        (broadcastTo ⟨2, ![m, n]⟩ (shapeCast ⟨2, ![1, n]⟩ b hs) hb)) h16 : FVec Ideal ⟨2, ![m, n]⟩ .bf16) (ix2 p q)
      = edgeEncOf x w b (ix2 p q) := by
  rw [shapeCast_self, edgeEncOf_apply]
  show matmul (DotDims.plain m k n) prec (truncf .bf16 x h16) (truncf .bf16 w h16)
        (constant (F := Ideal) ⟨2, ![m, n]⟩ .f32 0x00000000#32) (ix2 p q)
      + broadcastTo ⟨2, ![m, n]⟩ b hb (ix2 p q) = _
  rw [matmul_zero_eq_dotGeneral, dotGeneral_plain_apply, oneRowDown_apply]
  rfl

/-- The normalising body at (p, q): max((z(p, q) − mean(0, q)) · rsqrt(var(0, q) + ε) · g(0, q) + be(0, q), 0). -/
theorem bnBody_apply {m n : Nat} (z : FVec Ideal ⟨2, ![m, n]⟩ .f32) (mean var g be : FVec Ideal ⟨2, ![1, n]⟩ .f32)
    (hs : (⟨2, ![1, n]⟩ : Shape).ShapeCasts ⟨2, ![1, n]⟩) (hz : (⟨2, ![m, n]⟩ : Shape).ShapeCasts ⟨2, ![m, n]⟩)
    (hb : (⟨2, ![1, n]⟩ : Shape).Broadcasts ⟨2, ![m, n]⟩) (p : Fin m) (q : Fin n) :
    maximumf (addf (mulf (mulf (subf (shapeCast ⟨2, ![m, n]⟩ z hz) (broadcastTo ⟨2, ![m, n]⟩ (shapeCast ⟨2, ![1, n]⟩ mean hs) hb))
            (broadcastTo ⟨2, ![m, n]⟩ (rsqrt (addf (shapeCast ⟨2, ![1, n]⟩ var hs)
              (broadcast ⟨2, ![1, n]⟩ (Scalar.ofBits (F := Ideal) .f32 0x3727C5AC#32)))) hb))
          (broadcastTo ⟨2, ![m, n]⟩ (shapeCast ⟨2, ![1, n]⟩ g hs) hb))
        (broadcastTo ⟨2, ![m, n]⟩ (shapeCast ⟨2, ![1, n]⟩ be hs) hb))
      (broadcast ⟨2, ![m, n]⟩ (Scalar.ofBits (F := Ideal) .f32 0x00000000#32)) (ix2 p q)
      = bnReluOf z mean var g be (ix2 p q) := by
  simp only [shapeCast_self]
  rw [bnReluOf_apply]
  show max ((z (ix2 p q) - broadcastTo ⟨2, ![m, n]⟩ mean hb (ix2 p q))
        * broadcastTo ⟨2, ![m, n]⟩ (rsqrt (addf var (broadcast ⟨2, ![1, n]⟩ (Scalar.ofBits (F := Ideal) .f32 0x3727C5AC#32)))) hb (ix2 p q)
        * broadcastTo ⟨2, ![m, n]⟩ g hb (ix2 p q) + broadcastTo ⟨2, ![m, n]⟩ be hb (ix2 p q))
      (Ideal.ofBits .f32 0x00000000#32) = _
  rw [oneRowDown_apply, oneRowDown_apply, oneRowDown_apply, oneRowDown_apply, Ideal.ofBits_zero_f32]
  rfl

end Cert.KernelIdeal.RVal

end
-- ==== Proof.Region0.lean ====
/-
  The affine region in closed form. Its grid has 80 points; point t reads rows 4000t … 4000t + 3999 of the
  [320000, 7] input, the [7, 300] weights and the one-row bias whole, and writes the same rows of the [320000, 300]
  output. An entry (p, q) of a written block is ∑ c, x(p, c) · w(c, q) + b(0, q) of the input block's row p, which is
  the array's row 4000t + p; so the output array, once all eighty blocks are written, is the one function
  (r, q) ↦ ∑ c, a(r, c) · w(c, q) + b(0, q) of the arrays the region found. The narrowing of the operands and of the
  result is the identity on extended reals, and the accumulator is the extended real 0.
-/
import proofs.«119086_j26585847562989_2_alg».proof.Proof.Gen.KernelIdeal.Frame
import Idealize.ShloMosaic.Lib.Pipeline.Value
import proofs.«119086_j26585847562989_2_alg».proof.Proof.ReadEncBn

noncomputable section

open scoped BigOperators

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem r0_hz : (![0, 0] : Fin 2 → Nat) = fun _ => 0 := funext fun a => by fin_cases a <;> rfl

/-- The product's dimension numbers are the plain ones: rows by columns, one shared coordinate. -/
theorem r0_dims : dot_S4000x7_S7x300_S4000x300_1_0_0_1_n_n = DotDims.plain 4000 7 300 := rfl

/-- The body's stored value at (p, q) is the affine image of row p of the loaded input block. -/
theorem r0_pay1_apply (v0 : Vec Ideal S4000x7 .f32) (v2 : Vec Ideal S7x300 .f32) (v5 : Vec Ideal S1x300 .f32)
    (p : Fin 4000) (q : Fin 300) :
    k0_pay1 v0 v2 v5 (ix2 p q) = edgeEncOf v0 v2 v5 (ix2 p q) := by
  unfold k0_pay1
  rw [r0_dims]
  exact encBody_apply none v0 v2 v5 _ _ _ p q

/-- One entry of a block: if row (y 0) of the input block is row (i 0) of the array and the two entries share
    their column, the body's value at y is the closed form of the array at i. -/
theorem r0_point (x0 : Vec Ideal S4000x7 .f32) (x1 : Vec Ideal S7x300 .f32) (x2 : Vec Ideal S1x300 .f32)
    (a : S320000x7.Idx → EReal) (i : S320000x300.Idx) (y : S4000x300.Idx)
    (h0 : ∀ k : Fin 7, x0 (ix2 (y 0 : Fin 4000) k) = a (ix2 (i 0 : Fin 320000) k)) (h1 : (i 1).val = (y 1).val) :
    k0_pay1 x0 x1 x2 y = edgeEncOf a x1 x2 i := by
  obtain ⟨p, q, rfl⟩ : ∃ (p : Fin 4000) (q : Fin 300), y = ix2 p q := ⟨y 0, y 1, eq_ix2 y⟩
  obtain ⟨r, b, rfl⟩ : ∃ (r : Fin 320000) (b : Fin 300), i = ix2 r b := ⟨i 0, i 1, eq_ix2 i⟩
  obtain rfl : b = q := Fin.ext h1
  rw [r0_pay1_apply, edgeEncOf_apply, edgeEncOf_apply]
  exact congrArg (· + x2 (ix2 (0 : Fin 1) b)) (Finset.sum_congr rfl fun k _ => congrArg (· * x1 (ix2 k b)) (h0 k))

/-- The printed index maps over the eighty points: the input and the output are at block (t, 0), the weights and
    the bias at block (0, 0). -/
theorem r0_idx : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The weights' block is the whole weight array, at every point. -/
theorem r0_whole1 (c : Dev nD) (t : Fin cfg0.N) :
    (iblk0 V c 1 t : Vec Ideal S7x300 .f32) = (V c (Pipeline.arrRef spec0 1) : S7x300.Idx → EReal) := by
  obtain ⟨-, -, -, -, e0, e1, -⟩ := r0_idx t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 7 + 1 * (y 0).val = (y 0).val; rw [e0]; omega
  | ⟨1, _⟩ => show win0_1.index t (1 : Fin 2) * 300 + 1 * (y 1).val = (y 1).val; rw [e1]; omega
/-- The bias's block is the whole one-row array, at every point. -/
theorem r0_whole2 (c : Dev nD) (t : Fin cfg0.N) :
    (iblk0 V c 2 t : Vec Ideal S1x300 .f32) = (V c (Pipeline.arrRef spec0 2) : S1x300.Idx → EReal) := by
  obtain ⟨-, -, -, -, -, -, e0, e1⟩ := r0_idx t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 300 + 1 * (y 1).val = (y 1).val; rw [e1]; omega

/-- The region's closed form of the arrays it finds. -/
abbrev r0_G (c : Dev nD) : S320000x300.Idx → EReal :=
  edgeEncOf (m := 320000) (k := 7) (n := 300) (V c (Pipeline.arrRef spec0 0)) (V c (Pipeline.arrRef spec0 1)) (V c (Pipeline.arrRef spec0 2))

/-- What point t writes back is block t of the closed form. -/
theorem r0_flushed3 (c : Dev nD) (t : Fin cfg0.N) :
    (dat0 V c).flushed 3 t = ((cfg0.win 3).blk t).view.read (Elt Ideal) (r0_G V c) := by
  show (cfg0.win 3).cut (grid0.coords t) ((dat0 V c).after 3 t) = _
  rw [after0_3]
  unfold out0_3
  rw [View.canon_unit_zero r0_hz]
  simp only [View.ld_unit_zero (S := S4000x7) r0_hz, View.ld_unit_zero (S := S7x300) r0_hz, View.ld_unit_zero (S := S1x300) r0_hz]
  rw [r0_whole1, r0_whole2]
  obtain ⟨a0, a1, b0, b1, -⟩ := r0_idx t
  funext j
  show k0_pay1 (iblk0 V c 0 t) (V c (Pipeline.arrRef spec0 1)) (V c (Pipeline.arrRef spec0 2)) j
      = r0_G V c (((cfg0.win 3).blk t).view.emb j)
  refine r0_point (iblk0 V c 0 t) (V c (Pipeline.arrRef spec0 1)) (V c (Pipeline.arrRef spec0 2)) (V c (Pipeline.arrRef spec0 0))
    (((cfg0.win 3).blk t).view.emb j) j ?_ ?_
  · intro k
    show V c (Pipeline.arrRef spec0 0) (((cfg0.win 0).blk t).view.emb (ix2 (j 0 : Fin 4000) k))
      = V c (Pipeline.arrRef spec0 0) (ix2 ((((cfg0.win 3).blk t).view.emb j) 0 : Fin 320000) k)
    refine congrArg _ (funext fun a => Fin.ext ?_)
    match a with
    | ⟨0, _⟩ => show win0_0.index t (0 : Fin 2) * 4000 + 1 * (j 0).val = win0_3.index t (0 : Fin 2) * 4000 + 1 * (j 0).val; rw [a0, b0]
    | ⟨1, _⟩ => show win0_0.index t (1 : Fin 2) * 7 + 1 * k.val = k.val; rw [a1]; omega
  · show win0_3.index t (1 : Fin 2) * 300 + 1 * (j 1).val = (j 1).val
    rw [b1]; omega

/-- An entry of the array is in point t's block iff each coordinate is in the block's range. -/
theorem r0_mem_blk3 (t : Fin cfg0.N) (i : S320000x300.Idx) :
    i ∈ ((cfg0.win 3).blk t).view.set ↔ ∀ a : Fin 2, win0_3.index t a * S4000x300.size a ≤ (i a).val ∧ (i a).val < win0_3.index t a * S4000x300.size a + S4000x300.size a := by
  show i ∈ ((View.whole main_v13).slice (win0_3.rect t)).set ↔ _
  rw [View.set_slice_whole, Rect.mem_set_unit]
  exact Iff.rfl

/-- Row r of the array is in the block of point r / 4000: the eighty blocks cover the array. -/
theorem r0_cover3 (i : S320000x300.Idx) :
    ∃ t : Fin cfg0.N, (cfg0.win 3).flush t = true ∧ i ∈ ((cfg0.win 3).blk t).view.set := by
  have hi0 : (i 0).val < 320000 := (i 0).isLt
  have hi1 : (i 1).val < 300 := (i 1).isLt
  obtain ⟨t, ht⟩ : ∃ t : Fin cfg0.N, t.val = (i 0).val / 4000 :=
    ⟨⟨(i 0).val / 4000, by rw [show cfg0.N = 80 from N_0]; omega⟩, rfl⟩
  obtain ⟨-, -, b0, b1, -⟩ := r0_idx t
  refine ⟨t, flush0_3 t, ?_⟩
  rw [r0_mem_blk3]
  intro a
  match a with
  | ⟨0, _⟩ => show win0_3.index t (0 : Fin 2) * 4000 ≤ (i 0).val ∧ (i 0).val < win0_3.index t (0 : Fin 2) * 4000 + 4000; rw [b0, ht]; omega
  | ⟨1, _⟩ => show win0_3.index t (1 : Fin 2) * 300 ≤ (i 1).val ∧ (i 1).val < win0_3.index t (1 : Fin 2) * 300 + 300; rw [b1]; omega

/-- THE OUTPUT after the region: the affine image of every row of the input the region found. -/
theorem arr0_3 (c : Dev nD) :
    (dat0 V c).arrAt 3 cfg0.N
      = edgeEncOf (m := 320000) (k := 7) (n := 300) (V c (Pipeline.arrRef spec0 0)) (V c (Pipeline.arrRef spec0 1)) (V c (Pipeline.arrRef spec0 2)) :=
  (dat0 V c).arrAt_eq_of_cover 3 (r0_G V c) (fun t _ => r0_flushed3 V c t) (fun i => r0_cover3 i)

end Cert.KernelIdeal.RVal

end
-- ==== Proof.KernelChainPre.lean ====
/- The kernel's buffers when its first layer begins (after the first host stretch and the edge encoder), at the exact
   extended-real values, in terms of the launch memory: the node embedding and its bf16 copy, the edge embedding (the
   affine image of the edge features), the edges' endpoints, and every argument array still as launched. -/
import proofs.«119086_j26585847562989_2_alg».proof.Proof.Gen.KernelIdeal.Frame
import Idealize.ShloMosaic.PureOps.Ideal
import proofs.«119086_j26585847562989_2_alg».proof.Proof.KernelStretch0
import proofs.«119086_j26585847562989_2_alg».proof.Proof.Region0

set_option maxRecDepth 16384

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (ρ : Dev nD → PrngReg) (c : Dev nD)

/-- An argument array that is no window of the edge encoder is, when the first layer begins, as launched. -/
theorem pre_keep (b : Ref sig .tc) (h0 : b ∉ writes0) (a0 : ∀ w, Pipeline.arrRef spec0 w ≠ b) :
    W2 (F := Ideal) m ρ c (Proc.devRef .tc b) = W0 m ρ c (Proc.devRef .tc b) :=
  (W2_of_ne m ρ c b a0).trans (st0_keep (W0 m ρ c) b h0)

/-- The node embedding. -/
theorem pre_v10 : (W2 (F := Ideal) m ρ c (Proc.devRef .tc main_v10)) = nodeEmbed (m ((c : Thread nD τ).loc main_arg4)) (m ((c : Thread nD τ).loc main_arg0)) :=
  (W2_of_ne m ρ c main_v10 (by decide)).trans (st0_v10 (W0 m ρ c))

/-- The node embedding's bf16 copy. -/
theorem pre_v11 : (W2 (F := Ideal) m ρ c (Proc.devRef .tc main_v11))
    = (truncf .bf16 (nodeEmbed (F := Ideal) (m ((c : Thread nD τ).loc main_arg4)) (m ((c : Thread nD τ).loc main_arg0))) bitsLt_bf16_f32 : FVec Ideal S20000x300 .bf16) :=
  (W2_of_ne m ρ c main_v11 (by decide)).trans (st0_v11 (W0 m ρ c))

/-- The edges' sources. -/
theorem pre_v1 : (W2 (F := Ideal) m ρ c (Proc.devRef .tc main_v1)) = edgeRow (F := Ideal) (m ((c : Thread nD τ).loc main_arg1)) ![0, 0] slices_S2x320000_S1x320000_0_0 :=
  (W2_of_ne m ρ c main_v1 (by decide)).trans (st0_v1 (W0 m ρ c))

/-- The edges' destinations. -/
theorem pre_v3 : (W2 (F := Ideal) m ρ c (Proc.devRef .tc main_v3)) = edgeRow (F := Ideal) (m ((c : Thread nD τ).loc main_arg1)) ![1, 0] slices_S2x320000_S1x320000_1_0 :=
  (W2_of_ne m ρ c main_v3 (by decide)).trans (st0_v3 (W0 m ρ c))

/-- The edge embedding: the affine image of the edge features. -/
theorem pre_v13 : (W2 (F := Ideal) m ρ c (Proc.devRef .tc main_v13))
    = RVal.edgeEncOf (m := 320000) (k := 7) (n := 300) (m ((c : Thread nD τ).loc main_arg3)) (m ((c : Thread nD τ).loc main_arg5)) (rowOf (F := Ideal) (m ((c : Thread nD τ).loc main_arg6))) := by
  have e0 : V1 (F := Ideal) m ρ c (Pipeline.arrRef spec0 0) = (m ((c : Thread nD τ).loc main_arg3)) := st0_keep (W0 m ρ c) main_arg3 (by decide)
  have e1 : V1 (F := Ideal) m ρ c (Pipeline.arrRef spec0 1) = (m ((c : Thread nD τ).loc main_arg5)) := st0_keep (W0 m ρ c) main_arg5 (by decide)
  have e2 : V1 (F := Ideal) m ρ c (Pipeline.arrRef spec0 2) = rowOf (F := Ideal) (m ((c : Thread nD τ).loc main_arg6)) := st0_v12 (W0 m ρ c)
  refine ((W2_arr m ρ c 3).trans (RVal.arr0_3 (V1 m ρ) c)).trans ?_
  rw [e0, e1, e2]

end Cert.KernelIdeal.KChain

end
-- ==== Proof.KernelStretch1.lean ====
/- The host stretch between the edge encoder and the first dense kernel of layer 0 (thirty operations), read from ANY
   contents `W` of the buffers: what it leaves in each buffer that later code reads. It gathers the bf16 node rows at
   the edge sources, adds the edge embedding, clamps at zero, scatter-adds the messages into their destination rows
   (the aggregate), and lays out the layer's scale row 1 + eps, its first weight matrix and its first bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The aggregate of the messages. -/
theorem st1_v28 (W : Valuation τ sig (Elt F)) :
    StableHlo.after hostOps1 W (Proc.devRef .tc main_v28)
      = aggregate (W (Proc.devRef .tc main_v11)) (W (Proc.devRef .tc main_v13)) (W (Proc.devRef .tc main_v1)) (W (Proc.devRef .tc main_v3)) := by
  simp only [hostOps1]; after_results_simp; rfl

/-- The scale row 1 + eps of the layer. -/
theorem st1_v33 (W : Valuation τ sig (Elt F)) :
    StableHlo.after hostOps1 W (Proc.devRef .tc main_v33)
      = scaleRow (W (Proc.devRef .tc main_arg7)) ![0] slices_S5_S1_0 := by
  simp only [hostOps1]; after_results; rfl

/-- The layer's first weight matrix. -/
theorem st1_v35 (W : Valuation τ sig (Elt F)) :
    StableHlo.after hostOps1 W (Proc.devRef .tc main_v35)
      = layerMat (W (Proc.devRef .tc main_arg8)) ![0, 0, 0] slices_S5x300x300_S1x300x300_0_0_0 := by
  simp only [hostOps1]; after_results; rfl

/-- The layer's first bias, as one row. -/
theorem st1_v38 (W : Valuation τ sig (Elt F)) :
    StableHlo.after hostOps1 W (Proc.devRef .tc main_v38)
      = rowOf (layerVec (W (Proc.devRef .tc main_arg9)) ![0, 0] slices_S5x300_S1x300_0_0) := by
  simp only [hostOps1]; after_results; rfl

/-- The references the stretch writes, in order. -/
def writes1 : List (Ref sig .tc) :=
  [main_c_1, main_v14, main_v15, main_c_2, main_v16, main_v17, main_v18, main_v19, main_v20, main_v21, main_v22, main_v23, main_cst, main_v24, main_v25, main_cst_3, main_v26, main_v27, main_v28, main_v29, main_v30, main_cst_4, main_v31, main_v32, main_v33, main_v34, main_v35, main_v36, main_v37, main_v38]

/-- A buffer the stretch does not write keeps its contents. -/
theorem st1_keep (W : Valuation τ sig (Elt F)) (r : Ref sig .tc) (hr : r ∉ writes1) :
    StableHlo.after hostOps1 W (Proc.devRef .tc r) = W (Proc.devRef .tc r) :=
  StableHlo.after_of_writes_sub hostOps1 W (by
    simp only [hostOps1, writes1, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch2.lean ====
/- The host stretch between the two dense kernels of layer 0 (thirty-two operations), read from ANY contents `W` of
   the buffers: what it leaves in each buffer that later code reads. From the first dense kernel's per-tile column sums
   and sums of squares it forms the column means and the clamped column variances, as rows, and lays out the first
   normalisation's scale and shift rows, the layer's second weight matrix and its second bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st2_v62 (W : Valuation τ sig (Elt F)) :
    StableHlo.after hostOps2 W (Proc.devRef .tc main_v62)
      = rowOf (bnMean (W (Proc.devRef .tc main_v39_1))) := by
  simp only [hostOps2]; after_results; rfl

/-- The clamped column variances, as one row. -/
theorem st2_v63 (W : Valuation τ sig (Elt F)) :
    StableHlo.after hostOps2 W (Proc.devRef .tc main_v63)
      = rowOf (bnVar (W (Proc.devRef .tc main_v39_1))) := by
  simp only [hostOps2]; after_results_simp; rfl

/-- The first normalisation's scale, as one row. -/
theorem st2_v64 (W : Valuation τ sig (Elt F)) :
    StableHlo.after hostOps2 W (Proc.devRef .tc main_v64)
      = rowOf (layerVec (W (Proc.devRef .tc main_arg10)) ![0, 0] slices_S5x300_S1x300_0_0) := by
  simp only [hostOps2]; after_results; rfl

/-- The first normalisation's shift, as one row. -/
theorem st2_v65 (W : Valuation τ sig (Elt F)) :
    StableHlo.after hostOps2 W (Proc.devRef .tc main_v65)
      = rowOf (layerVec (W (Proc.devRef .tc main_arg11)) ![0, 0] slices_S5x300_S1x300_0_0) := by
  simp only [hostOps2]; after_results; rfl

/-- The layer's second weight matrix. -/
theorem st2_v59 (W : Valuation τ sig (Elt F)) :
    StableHlo.after hostOps2 W (Proc.devRef .tc main_v59)
      = layerMat (W (Proc.devRef .tc main_arg12)) ![0, 0, 0] slices_S5x300x300_S1x300x300_0_0_0 := by
  simp only [hostOps2]; after_results; rfl

/-- The layer's second bias, as one row. -/
theorem st2_v66 (W : Valuation τ sig (Elt F)) :
    StableHlo.after hostOps2 W (Proc.devRef .tc main_v66)
      = rowOf (layerVec (W (Proc.devRef .tc main_arg13)) ![0, 0] slices_S5x300_S1x300_0_0) := by
  simp only [hostOps2]; after_results; rfl

/-- The references the stretch writes, in order. -/
def writes2 : List (Ref sig .tc) :=
  [main_v40, main_v41, main_cst_5, main_v42, main_v43, main_v44, main_cst_6, main_v45, main_cst_7, main_v46, main_v47, main_cst_8, main_v48, main_v49, main_v50, main_v51, main_cst_9, main_v52, main_v53, main_v54, main_v55, main_v56, main_v57, main_v58, main_v59, main_v60, main_v61, main_v62, main_v63, main_v64, main_v65, main_v66]

/-- A buffer the stretch does not write keeps its contents. -/
theorem st2_keep (W : Valuation τ sig (Elt F)) (r : Ref sig .tc) (hr : r ∉ writes2) :
    StableHlo.after hostOps2 W (Proc.devRef .tc r) = W (Proc.devRef .tc r) :=
  StableHlo.after_of_writes_sub hostOps2 W (by
    simp only [hostOps2, writes2, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch3.lean ====
/- The host stretch between the second dense kernel and the last kernel of layer 0 (twenty-seven operations), read from
   ANY contents `W` of the buffers: what it leaves in each buffer that later code reads. From the second dense kernel's
   per-tile column sums and sums of squares it forms the column means and the clamped column variances, as rows, and lays
   out the second normalisation's scale and shift rows. Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st3_v86 (W : Valuation τ sig (Elt F)) :
    StableHlo.after hostOps3 W (Proc.devRef .tc main_v86)
      = rowOf (bnMean (W (Proc.devRef .tc main_v67_1))) := by
  simp only [hostOps3]; after_results; rfl

/-- The clamped column variances, as one row. -/
theorem st3_v87 (W : Valuation τ sig (Elt F)) :
    StableHlo.after hostOps3 W (Proc.devRef .tc main_v87)
      = rowOf (bnVar (W (Proc.devRef .tc main_v67_1))) := by
  simp only [hostOps3]; after_results_simp; rfl

/-- The second normalisation's scale, as one row. -/
theorem st3_v88 (W : Valuation τ sig (Elt F)) :
    StableHlo.after hostOps3 W (Proc.devRef .tc main_v88)
      = rowOf (layerVec (W (Proc.devRef .tc main_arg14)) ![0, 0] slices_S5x300_S1x300_0_0) := by
  simp only [hostOps3]; after_results; rfl

/-- The second normalisation's shift, as one row. -/
theorem st3_v89 (W : Valuation τ sig (Elt F)) :
    StableHlo.after hostOps3 W (Proc.devRef .tc main_v89)
      = rowOf (layerVec (W (Proc.devRef .tc main_arg15)) ![0, 0] slices_S5x300_S1x300_0_0) := by
  simp only [hostOps3]; after_results; rfl

/-- The references the stretch writes, in order. -/
def writes3 : List (Ref sig .tc) :=
  [main_v68, main_v69, main_cst_10, main_v70, main_v71, main_v72, main_cst_11, main_v73, main_cst_12, main_v74, main_v75, main_cst_13, main_v76, main_v77, main_v78, main_v79, main_cst_14, main_v80, main_v81, main_v82, main_v83, main_v84, main_v85, main_v86, main_v87, main_v88, main_v89]

/-- A buffer the stretch does not write keeps its contents. -/
theorem st3_keep (W : Valuation τ sig (Elt F)) (r : Ref sig .tc) (hr : r ∉ writes3) :
    StableHlo.after hostOps3 W (Proc.devRef .tc r) = W (Proc.devRef .tc r) :=
  StableHlo.after_of_writes_sub hostOps3 W (by
    simp only [hostOps3, writes3, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.LibDenseRows.lean ====
/-
  A dense layer acts on a matrix one row at a time.

  For a matrix A (m rows of k entries), a weight matrix W (k by n) and a bias laid as a one-row matrix B (1 by n),
  row p of  A·W + B  is the affine image  a ↦ a·W + B  of row p of A, and nothing else of A enters it. The same
  holds after clamping at zero, after a second such layer, and after adding the input row back. So each dense
  stage of the network is a function of one row applied to every row, and a block of consecutive rows of the
  result is that function applied to the same rows of the input.

  Two spellings of one affine layer are read here at row p and column q:
  * a product accumulated into a zero matrix, plus the one-row bias copied down the rows by aligning trailing axes;
  * a plain product, plus the one-row bias copied down the rows by naming the axes.
  Both are  ∑ c, A(p, c) · W(c, q) + B(0, q): the accumulator is the extended real 0 and 0 + x = x, so no
  finiteness is used. A vector laid as a one-row matrix is the same matrix whether it is recast or broadcast.
-/
import Idealize.ShloMosaic.Lib.StackMember
import Idealize.ShloMosaic.Lib.KernelVsHost
import Idealize.ShloMosaic.Lib.ValueLayout
import Idealize.ShloMosaic.PureOps.Ideal.Laws

noncomputable section

namespace DenseRows

open Idealize.ShloMosaic Idealize.ShloMosaic.ValueIdx Idealize.ShloMosaic.StackMember

variable {m k n : Nat}

/-- A matrix of extended reals, entry by entry. -/
abbrev Mat (m n : Nat) := (⟨2, ![m, n]⟩ : Shape).Idx → EReal

/-- Row p of a matrix. -/
def row (A : Mat m k) (p : Fin m) : Fin k → EReal := fun c => A (ix2 p c)

/-- The affine image of one row: a·W + B, with B a one-row matrix. -/
def affine (W : Mat k n) (B : Mat 1 n) (a : Fin k → EReal) : Fin n → EReal :=
  fun q => (∑ c : Fin k, a c * W (ix2 c q)) + B (ix2 (0 : Fin 1) q)

/-- A row clamped below at the zero word's value. -/
def clamp (v : Fin n → EReal) : Fin n → EReal := fun q => max (v q) (Ideal.ofBits .f32 0x00000000#32)

/-- A function of one row applied to every row of a matrix. -/
def onRows (f : (Fin k → EReal) → Fin n → EReal) (A : Mat m k) : Mat m n := fun i => f (row A (i 0)) (i 1)

theorem onRows_apply (f : (Fin k → EReal) → Fin n → EReal) (A : Mat m k) (p : Fin m) (q : Fin n) :
    onRows f A (ix2 p q) = f (row A p) q := rfl

variable {α : Type}

/-- A one-row matrix copied down m rows by aligning trailing axes: at (p, q) it is the row's entry q. -/
theorem broadcastTo_oneRow_apply (B : (⟨2, ![1, n]⟩ : Shape).Idx → α)
    (h : (⟨2, ![1, n]⟩ : Shape).Broadcasts ⟨2, ![m, n]⟩) (p : Fin m) (q : Fin n) :
    broadcastTo ⟨2, ![m, n]⟩ B h (ix2 p q) = B (ix2 (0 : Fin 1) q) := by
  refine broadcastTo_apply B h (ix2 p q) (ix2 (0 : Fin 1) q) fun ax => ?_
  match ax with
  | ⟨0, _⟩ => rfl
  | ⟨1, _⟩ =>
    show q.val = if n = 1 then 0 else q.val
    split
    · have := q.isLt; omega
    · rfl

/-- A vector recast as a one-row matrix is the vector broadcast along axis 1 of a one-row matrix. -/
theorem shapeCast_row_eq_broadcastInDim (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext i
  obtain ⟨u, q, rfl⟩ : ∃ (u : Fin 1) (q : Fin n), i = ix2 u q := ⟨i 0, i 1, eq_ix2 i⟩
  have e1 := shapeCast_apply b h1 (ix2 u q) (ix1 q) (by
    rw [Shape.rowMajor_val_two, Shape.rowMajor_val_one]
    show q.val = u.val * n + q.val
    have := u.isLt; have hu : u.val = 0 := by omega
    rw [hu]; omega)
  have e2 := broadcastInDim_apply ![1] hd b (ix2 u q) (ix1 q) (by
    intro a
    match a with
    | ⟨0, _⟩ =>
      show q.val = if n = 1 then 0 else q.val
      split
      · have := q.isLt; omega
      · rfl)
  exact e1.trans e2.symm

/-- One affine layer in the accumulating spelling, on m rows: at (p, q) it is the affine image of row p. -/
theorem matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    addf (matmul (DotDims.plain m k n) prec X W (constant (F := Ideal) ⟨2, ![m, n]⟩ .f32 0x00000000#32))
        (broadcastTo ⟨2, ![m, n]⟩ B hb) (ix2 p q)
      = affine (n := n) W B (row (k := k) X p) q := by
  show matmul (DotDims.plain m k n) prec X W (constant (F := Ideal) ⟨2, ![m, n]⟩ .f32 0x00000000#32) (ix2 p q)
      + broadcastTo ⟨2, ![m, n]⟩ B hb (ix2 p q) = (∑ c : Fin k, X (ix2 p c) * W (ix2 c q)) + B (ix2 (0 : Fin 1) q)
  rw [matmul_zero_eq_dotGeneral, dotGeneral_plain_apply, broadcastTo_oneRow_apply]

/-- One affine layer in the plain spelling, on m rows: at (p, q) it is the affine image of row p. -/
theorem dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1]) (p : Fin m) (q : Fin n) :
    addf (Host.dotGeneral (DotDims.plain m k n) prec A W) (broadcastInDim ⟨2, ![m, n]⟩ ![0, 1] hbc B) (ix2 p q)
      = affine (n := n) W B (row (k := k) A p) q := by
  show Host.dotGeneral (DotDims.plain m k n) prec A W (ix2 p q) + broadcastInDim ⟨2, ![m, n]⟩ ![0, 1] hbc B (ix2 p q)
      = (∑ c : Fin k, A (ix2 p c) * W (ix2 c q)) + B (ix2 (0 : Fin 1) q)
  rw [dotGeneral_plain_apply, broadcastInDim_oneRow_apply]

/-- One clamped affine layer in the accumulating spelling: at (p, q) the clamped affine image of row p. -/
theorem clamped_matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32)) (ix2 p q)
      = clamp (affine (n := n) W B (row (k := k) X p)) q := by
  show max (addf (matmul (DotDims.plain m k n) prec X W (constant (F := Ideal) ⟨2, ![m, n]⟩ .f32 0x00000000#32))
        (broadcastTo ⟨2, ![m, n]⟩ B hb) (ix2 p q)) (Ideal.ofBits .f32 0x00000000#32) = _
  rw [matmul_bias_apply]
  rfl

/-- Row p of one clamped affine layer in the accumulating spelling, whatever float format it is then read at. -/
theorem row_clamped_matmul_bias {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) :
    row (m := m) (k := n) (maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32))) p
      = clamp (affine (n := n) W B (row (k := k) X p)) :=
  funext fun q => clamped_matmul_bias_apply prec X W B hb p q

/-- One clamped affine layer in the plain spelling, clamped against a broadcast zero constant: at (p, q) the
    clamped affine image of row p. -/
theorem clamped_dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1])
    (hz : (⟨0, ![]⟩ : Shape).BroadcastsInDim ⟨2, ![m, n]⟩ ![]) (p : Fin m) (q : Fin n) :
    maximumf (addf (Host.dotGeneral (DotDims.plain m k n) prec A W) (broadcastInDim ⟨2, ![m, n]⟩ ![0, 1] hbc B))
        (broadcastInDim ⟨2, ![m, n]⟩ ![] hz (constant (F := Ideal) ⟨0, ![]⟩ .f32 0x00000000#32)) (ix2 p q)
      = clamp (affine (n := n) W B (row (k := k) A p)) q := by
  show max (addf (Host.dotGeneral (DotDims.plain m k n) prec A W) (broadcastInDim ⟨2, ![m, n]⟩ ![0, 1] hbc B) (ix2 p q))
      (Ideal.ofBits .f32 0x00000000#32) = _
  rw [dot_bias_apply]
  rfl

/-! ## The three kinds of stage, as functions of one row -/

/-- Two clamped affine layers: the encoder. -/
def encoderRow {k h n : Nat} (W0 : Mat k h) (B0 : Mat 1 h) (W1 : Mat h n) (B1 : Mat 1 n) (a : Fin k → EReal) : Fin n → EReal :=
  clamp (affine W1 B1 (clamp (affine W0 B0 a)))

/-- One clamped affine layer with the input row added back: a hop's update. -/
def hopRow {k : Nat} (W : Mat k k) (B : Mat 1 k) (a : Fin k → EReal) : Fin k → EReal :=
  fun q => clamp (affine W B a) q + a q

/-- A clamped affine layer followed by a plain affine layer: the decoder. -/
def decoderRow {k h n : Nat} (W0 : Mat k h) (B0 : Mat 1 h) (W1 : Mat h n) (B1 : Mat 1 n) (a : Fin k → EReal) : Fin n → EReal :=
  affine W1 B1 (clamp (affine W0 B0 a))

end DenseRows

end
-- ==== Proof.RegionLemmas.lean ====
/-
  Two dense layers with column statistics, read entry by entry at the exact extended-real values.

  A graph layer acts on a matrix h of 20000 rows and 300 columns, cut into 10 tiles of 2000 consecutive rows.
  * First dense stage: row n of z1 is the affine image (s ∘ h_n + a_n)·W + b of row n of h and of the aggregated
    neighbours a, with s a row of scales applied column by column: z1(n, q) = ∑ k, (s(k)·h(n, k) + a(n, k))·W(k, q) + b(q).
  * Normalised second stage: r(n, k) = max((z1(n, k) − μ(k))·rsqrt(v(k) + ε)·γ(k) + β(k), 0), and
    z2(n, q) = ∑ k, r(n, k)·W(k, q) + b(q).
  * Tile statistics of a matrix z: for tile t and column q, the sum over the tile's 2000 rows of z(·, q) (row 0 of the
    statistics) and of z(·, q)² (row 1).
  Rounding to a narrower float format is the identity at these values, and a product accumulated into the zero matrix
  is the plain product because the zero word is the extended real 0 and 0 + x = x.
-/
import proofs.«119086_j26585847562989_2_alg».proof.Proof.LibDenseRows
import Idealize.ShloMosaic.Lib.Pipeline.FrameBody

noncomputable section

namespace Cert.KernelIdeal.RVal

open Idealize.ShloMosaic Idealize.ShloMosaic.ValueIdx Idealize.ShloMosaic.StackMember

/-! ## Zero offsets, however they are spelt -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The specification: each array as one function of the arrays it is computed from -/

/-- Row p of tile t, when 20000 rows are cut into 10 tiles of 2000 consecutive rows: row 2000·t + p. -/
def rowOf (t : Fin 10) (p : Fin 2000) : Fin 20000 := ⟨t.val * 2000 + p.val, by have := t.isLt; have := p.isLt; omega⟩

theorem rowOf_val (t : Fin 10) (p : Fin 2000) : (rowOf t p).val = t.val * 2000 + p.val := rfl

/-- The first dense stage at row n, column q: ∑ k, (s(k)·h(n, k) + a(n, k))·W(k, q) + b(q). -/
def z1At (h agg : (⟨2, ![20000, 300]⟩ : Shape).Idx → EReal) (scale : (⟨2, ![1, 300]⟩ : Shape).Idx → EReal)
    (W : (⟨2, ![300, 300]⟩ : Shape).Idx → EReal) (b : (⟨2, ![1, 300]⟩ : Shape).Idx → EReal) (n : Fin 20000) (q : Fin 300) : EReal :=
  (∑ k : Fin 300, (scale (ix2 (0 : Fin 1) k) * h (ix2 n k) + agg (ix2 n k)) * W (ix2 k q)) + b (ix2 (0 : Fin 1) q)

/-- The first dense stage as one array: z1(n, q) = ∑ k, (s(k)·h(n, k) + a(n, k))·W(k, q) + b(q). -/
def z1Of (h agg : (⟨2, ![20000, 300]⟩ : Shape).Idx → EReal) (scale : (⟨2, ![1, 300]⟩ : Shape).Idx → EReal)
    (W : (⟨2, ![300, 300]⟩ : Shape).Idx → EReal) (b : (⟨2, ![1, 300]⟩ : Shape).Idx → EReal) :
    (⟨2, ![20000, 300]⟩ : Shape).Idx → EReal :=
  fun i => z1At h agg scale W b (i 0) (i 1)

theorem z1Of_apply (h agg : (⟨2, ![20000, 300]⟩ : Shape).Idx → EReal) (scale : (⟨2, ![1, 300]⟩ : Shape).Idx → EReal)
    (W : (⟨2, ![300, 300]⟩ : Shape).Idx → EReal) (b : (⟨2, ![1, 300]⟩ : Shape).Idx → EReal) (n : Fin 20000) (q : Fin 300) :
    z1Of h agg scale W b (ix2 n q)
      = (∑ k : Fin 300, (scale (ix2 (0 : Fin 1) k) * h (ix2 n k) + agg (ix2 n k)) * W (ix2 k q)) + b (ix2 (0 : Fin 1) q) := rfl

/-- The normalised, clamped activation at row n, column k: max((z(n, k) − μ(k))·rsqrt(v(k) + ε)·γ(k) + β(k), 0), ε the
    float word 0x3727C5AC. -/
def r1At (z : (⟨2, ![20000, 300]⟩ : Shape).Idx → EReal) (mean var g be : (⟨2, ![1, 300]⟩ : Shape).Idx → EReal)
    (n : Fin 20000) (k : Fin 300) : EReal :=
  max ((z (ix2 n k) - mean (ix2 (0 : Fin 1) k)) * Ideal.rsqrt (var (ix2 (0 : Fin 1) k) + Ideal.ofBits .f32 0x3727C5AC#32)
      * g (ix2 (0 : Fin 1) k) + be (ix2 (0 : Fin 1) k)) 0

/-- The normalised, clamped activation as one array. -/
def r1Of (z : (⟨2, ![20000, 300]⟩ : Shape).Idx → EReal) (mean var g be : (⟨2, ![1, 300]⟩ : Shape).Idx → EReal) :
    (⟨2, ![20000, 300]⟩ : Shape).Idx → EReal :=
  fun i => r1At z mean var g be (i 0) (i 1)

theorem r1Of_apply (z : (⟨2, ![20000, 300]⟩ : Shape).Idx → EReal) (mean var g be : (⟨2, ![1, 300]⟩ : Shape).Idx → EReal)
    (n : Fin 20000) (k : Fin 300) :
    r1Of z mean var g be (ix2 n k)
      = max ((z (ix2 n k) - mean (ix2 (0 : Fin 1) k)) * Ideal.rsqrt (var (ix2 (0 : Fin 1) k) + Ideal.ofBits .f32 0x3727C5AC#32)
          * g (ix2 (0 : Fin 1) k) + be (ix2 (0 : Fin 1) k)) 0 := rfl

/-- The second dense stage on the normalised activation at row n, column q: ∑ k, r(n, k)·W(k, q) + b(q). -/
def z2At (z : (⟨2, ![20000, 300]⟩ : Shape).Idx → EReal) (mean var g be : (⟨2, ![1, 300]⟩ : Shape).Idx → EReal)
    (W : (⟨2, ![300, 300]⟩ : Shape).Idx → EReal) (b : (⟨2, ![1, 300]⟩ : Shape).Idx → EReal) (n : Fin 20000) (q : Fin 300) : EReal :=
  (∑ k : Fin 300, r1Of z mean var g be (ix2 n k) * W (ix2 k q)) + b (ix2 (0 : Fin 1) q)

/-- The second dense stage as one array: z2(n, q) = ∑ k, r(n, k)·W(k, q) + b(q). -/
def z2Of (z : (⟨2, ![20000, 300]⟩ : Shape).Idx → EReal) (mean var g be : (⟨2, ![1, 300]⟩ : Shape).Idx → EReal)
    (W : (⟨2, ![300, 300]⟩ : Shape).Idx → EReal) (b : (⟨2, ![1, 300]⟩ : Shape).Idx → EReal) :
    (⟨2, ![20000, 300]⟩ : Shape).Idx → EReal :=
  fun i => z2At z mean var g be W b (i 0) (i 1)

theorem z2Of_apply (z : (⟨2, ![20000, 300]⟩ : Shape).Idx → EReal) (mean var g be : (⟨2, ![1, 300]⟩ : Shape).Idx → EReal)
    (W : (⟨2, ![300, 300]⟩ : Shape).Idx → EReal) (b : (⟨2, ![1, 300]⟩ : Shape).Idx → EReal) (n : Fin 20000) (q : Fin 300) :
    z2Of z mean var g be W b (ix2 n q)
      = (∑ k : Fin 300, r1Of z mean var g be (ix2 n k) * W (ix2 k q)) + b (ix2 (0 : Fin 1) q) := rfl

/-- One statistic of one tile: for s = 0 the sum over tile t's rows of column q, otherwise the sum of its squares. -/
def statAt (z : (⟨2, ![20000, 300]⟩ : Shape).Idx → EReal) (t : Fin 10) (s : Fin 2) (q : Fin 300) : EReal :=
  if s = 0 then ∑ p : Fin 2000, z (ix2 (rowOf t p) q) else ∑ p : Fin 2000, z (ix2 (rowOf t p) q) * z (ix2 (rowOf t p) q)

/-- Tile statistics as one array: at (t, 0, q) the sum over tile t's rows of column q, at (t, 1, q) the sum of its squares. -/
def tileStats (z : (⟨2, ![20000, 300]⟩ : Shape).Idx → EReal) : (⟨3, ![10, 2, 300]⟩ : Shape).Idx → EReal :=
  fun i => statAt z (i 0) (i 1) (i 2)

theorem tileStats_zero (z : (⟨2, ![20000, 300]⟩ : Shape).Idx → EReal) (t : Fin 10) (q : Fin 300) :
    tileStats z (ix3 t (0 : Fin 2) q) = ∑ p : Fin 2000, z (ix2 (rowOf t p) q) := by
  show statAt z t (0 : Fin 2) q = _
  unfold statAt
  exact if_pos rfl

theorem tileStats_one (z : (⟨2, ![20000, 300]⟩ : Shape).Idx → EReal) (t : Fin 10) (q : Fin 300) :
    tileStats z (ix3 t (1 : Fin 2) q) = ∑ p : Fin 2000, z (ix2 (rowOf t p) q) * z (ix2 (rowOf t p) q) := by
  show statAt z t (1 : Fin 2) q = _
  unfold statAt
  exact if_neg (by decide)

/-! ## The operations of one tile, read at an entry -/

section Tile
variable {m k n : Nat}

/-- A sum over the rows of an m×n matrix, at column q. -/
theorem colsum_apply (src : FVec Ideal ⟨2, ![m, n]⟩ .f32) (h : Shape.Reduces ⟨2, ![m, n]⟩ [0] ⟨1, ![n]⟩)
    (hφ : FKind.Formats .f32) (hacc : (0x00000000#32 : BitVec 32) = FKind.add.neutral .f32 hφ) (q : Fin n) :
    multiReduction .add [0] ⟨1, ![n]⟩ src 0x00000000#32 h hφ hacc (ix1 q) = ∑ p : Fin m, src (ix2 p q) := by
  refine (Ideal.multiReduction_add_single src _ h hφ hacc (ix1 q)).trans ?_
  refine Finset.sum_congr rfl fun p _ => congrArg src (funext fun a => Fin.ext ?_)
  match a with
  | ⟨0, _⟩ => rfl
  | ⟨1, _⟩ => rfl

/-- A vector of n entries laid as a 1×n matrix and then as a 1×1×n block reads, at (u, s, q), the vector at q. -/
theorem statsRow_apply {α : Type} (v : (⟨1, ![n]⟩ : Shape).Idx → α) (h1 : (⟨1, ![n]⟩ : Shape).ShapeCasts ⟨2, ![1, n]⟩)
    (h2 : (⟨2, ![1, n]⟩ : Shape).ShapeCasts ⟨3, ![1, 1, n]⟩) (u s : Fin 1) (q : Fin n) :
    shapeCast ⟨3, ![1, 1, n]⟩ (shapeCast ⟨2, ![1, n]⟩ v h1) h2 (ix3 u s q) = v (ix1 q) :=
  (shapeCast_ab_1ab_apply _ h2 u s q).trans (shapeCast_a_1a_apply v h1 s q)

/-- The first dense stage on one tile of m rows, at (p, q): rounding is the identity, the recasts to the same shape are
    the identity, the scale row and the bias row are copied down the rows, and the product starts from the zero matrix. -/
theorem dense_apply (d : DotDims ⟨2, ![m, k]⟩ ⟨2, ![k, n]⟩ ⟨2, ![m, n]⟩) (hd : d = DotDims.plain m k n)
    (scale : FVec Ideal ⟨2, ![1, k]⟩ .f32) (h agg : FVec Ideal ⟨2, ![m, k]⟩ .f32) (W : FVec Ideal ⟨2, ![k, n]⟩ .f32)
    (b : FVec Ideal ⟨2, ![1, n]⟩ .f32)
    (c1k : (⟨2, ![1, k]⟩ : Shape).ShapeCasts ⟨2, ![1, k]⟩) (cmk : (⟨2, ![m, k]⟩ : Shape).ShapeCasts ⟨2, ![m, k]⟩)
    (ckn : (⟨2, ![k, n]⟩ : Shape).ShapeCasts ⟨2, ![k, n]⟩) (c1n : (⟨2, ![1, n]⟩ : Shape).ShapeCasts ⟨2, ![1, n]⟩)
    (bk : (⟨2, ![1, k]⟩ : Shape).Broadcasts ⟨2, ![m, k]⟩) (bn : (⟨2, ![1, n]⟩ : Shape).Broadcasts ⟨2, ![m, n]⟩)
    (t : FTy.bits .bf16 < FTy.bits .f32) (p : Fin m) (q : Fin n) :
    addf (matmul d none
          (truncf .bf16 (addf (mulf (broadcastTo ⟨2, ![m, k]⟩ (shapeCast ⟨2, ![1, k]⟩ scale c1k) bk) (shapeCast ⟨2, ![m, k]⟩ h cmk))
            (shapeCast ⟨2, ![m, k]⟩ agg cmk)) t)
          (truncf .bf16 (shapeCast ⟨2, ![k, n]⟩ W ckn) t)
          (constant (F := Ideal) ⟨2, ![m, n]⟩ .f32 0x00000000#32))
        (broadcastTo ⟨2, ![m, n]⟩ (shapeCast ⟨2, ![1, n]⟩ b c1n) bn) (ix2 p q)
      = (∑ c : Fin k, (scale (ix2 (0 : Fin 1) c) * h (ix2 p c) + agg (ix2 p c)) * W (ix2 c q)) + b (ix2 (0 : Fin 1) q) := by
  subst hd
  rw [DenseRows.matmul_bias_apply]
  simp only [shapeCast_self]
  show (∑ c : Fin k, (broadcastTo ⟨2, ![m, k]⟩ scale bk (ix2 p c) * h (ix2 p c) + agg (ix2 p c)) * W (ix2 c q))
      + b (ix2 (0 : Fin 1) q) = _
  simp only [broadcastTo_1b_ab_apply]

/-- The normalised second stage on one tile of m rows, at (p, q). -/
theorem bnrelu_dense_apply (d : DotDims ⟨2, ![m, k]⟩ ⟨2, ![k, n]⟩ ⟨2, ![m, n]⟩) (hd : d = DotDims.plain m k n)
    (var : FVec Ideal ⟨2, ![1, k]⟩ .f32) (z : FVec Ideal ⟨2, ![m, k]⟩ .f32) (mean g be : FVec Ideal ⟨2, ![1, k]⟩ .f32)
    (W : FVec Ideal ⟨2, ![k, n]⟩ .f32) (b : FVec Ideal ⟨2, ![1, n]⟩ .f32) (eps : BitVec 32)
    (c1k : (⟨2, ![1, k]⟩ : Shape).ShapeCasts ⟨2, ![1, k]⟩) (cmk : (⟨2, ![m, k]⟩ : Shape).ShapeCasts ⟨2, ![m, k]⟩)
    (ckn : (⟨2, ![k, n]⟩ : Shape).ShapeCasts ⟨2, ![k, n]⟩) (c1n : (⟨2, ![1, n]⟩ : Shape).ShapeCasts ⟨2, ![1, n]⟩)
    (bk : (⟨2, ![1, k]⟩ : Shape).Broadcasts ⟨2, ![m, k]⟩) (bn : (⟨2, ![1, n]⟩ : Shape).Broadcasts ⟨2, ![m, n]⟩)
    (t : FTy.bits .bf16 < FTy.bits .f32) (p : Fin m) (q : Fin n) :
    addf (matmul d none
          (truncf .bf16 (maximumf
            (addf (mulf (mulf (subf (shapeCast ⟨2, ![m, k]⟩ z cmk) (broadcastTo ⟨2, ![m, k]⟩ (shapeCast ⟨2, ![1, k]⟩ mean c1k) bk))
                    (broadcastTo ⟨2, ![m, k]⟩
                      (rsqrt (addf (shapeCast ⟨2, ![1, k]⟩ var c1k) (broadcast ⟨2, ![1, k]⟩ (Scalar.ofBits (F := Ideal) .f32 eps)))) bk))
                  (broadcastTo ⟨2, ![m, k]⟩ (shapeCast ⟨2, ![1, k]⟩ g c1k) bk))
              (broadcastTo ⟨2, ![m, k]⟩ (shapeCast ⟨2, ![1, k]⟩ be c1k) bk))
            (broadcast ⟨2, ![m, k]⟩ (Scalar.ofBits (F := Ideal) .f32 0x00000000#32))) t)
          (truncf .bf16 (shapeCast ⟨2, ![k, n]⟩ W ckn) t)
          (constant (F := Ideal) ⟨2, ![m, n]⟩ .f32 0x00000000#32))
        (broadcastTo ⟨2, ![m, n]⟩ (shapeCast ⟨2, ![1, n]⟩ b c1n) bn) (ix2 p q)
      = (∑ c : Fin k, max ((z (ix2 p c) - mean (ix2 (0 : Fin 1) c)) * Ideal.rsqrt (var (ix2 (0 : Fin 1) c) + Ideal.ofBits .f32 eps)
            * g (ix2 (0 : Fin 1) c) + be (ix2 (0 : Fin 1) c)) 0 * W (ix2 c q)) + b (ix2 (0 : Fin 1) q) := by
  subst hd
  rw [DenseRows.matmul_bias_apply]
  simp only [shapeCast_self]
  show (∑ c : Fin k, max ((z (ix2 p c) - broadcastTo ⟨2, ![m, k]⟩ mean bk (ix2 p c))
        * broadcastTo ⟨2, ![m, k]⟩ (rsqrt (addf var (broadcast ⟨2, ![1, k]⟩ (Scalar.ofBits (F := Ideal) .f32 eps)))) bk (ix2 p c)
        * broadcastTo ⟨2, ![m, k]⟩ g bk (ix2 p c) + broadcastTo ⟨2, ![m, k]⟩ be bk (ix2 p c)) (Ideal.ofBits .f32 0x00000000#32)
      * W (ix2 c q)) + b (ix2 (0 : Fin 1) q) = _
  simp only [broadcastTo_1b_ab_apply, Ideal.ofBits_zero_f32]
  rfl

end Tile

/-! ## A buffer of two rows written one row at a time -/

/-- A 1×2×n buffer whose row 1 was stored last and row 0 before it reads, on row 0, the first store's payload and, on row 1,
    the second's: each store covers exactly its row. -/
theorem twoRows_canon_apply {n : Nat} {Val : EltTy → Type} [∀ e, Nonempty (Val e)] {e : EltTy}
    (inb0 : ∀ a, (![0, 0, 0] : Fin 3 → Nat) a + (![1, 1, n] : Fin 3 → Nat) a ≤ (⟨3, ![1, 2, n]⟩ : Shape).size a)
    (inb1 : ∀ a, (![0, 1, 0] : Fin 3 → Nat) a + (![1, 1, n] : Fin 3 → Nat) a ≤ (⟨3, ![1, 2, n]⟩ : Shape).size a)
    (w0 w1 : (⟨3, ![1, 1, n]⟩ : Shape).Idx → Val e) (u : Fin 1) (q : Fin n) :
    View.canon [(⟨Rect.unit (s := ⟨3, ![1, 2, n]⟩) ![0, 1, 0] ![1, 1, n] inb1, w1⟩ : View.Piece Val ⟨3, ![1, 2, n]⟩ e),
        ⟨Rect.unit (s := ⟨3, ![1, 2, n]⟩) ![0, 0, 0] ![1, 1, n] inb0, w0⟩] (ix3 u (0 : Fin 2) q) = w0 (ix3 (0 : Fin 1) (0 : Fin 1) q)
    ∧ View.canon [(⟨Rect.unit (s := ⟨3, ![1, 2, n]⟩) ![0, 1, 0] ![1, 1, n] inb1, w1⟩ : View.Piece Val ⟨3, ![1, 2, n]⟩ e),
        ⟨Rect.unit (s := ⟨3, ![1, 2, n]⟩) ![0, 0, 0] ![1, 1, n] inb0, w0⟩] (ix3 u (1 : Fin 2) q) = w1 (ix3 (0 : Fin 1) (0 : Fin 1) q) := by
  have hu : u.val = 0 := by have := u.isLt; omega
  have he0 : ix3 u (0 : Fin 2) q
      = (Rect.unit (s := ⟨3, ![1, 2, n]⟩) ![0, 0, 0] ![1, 1, n] inb0).emb (ix3 (0 : Fin 1) (0 : Fin 1) q) := by
    funext a; apply Fin.ext
    match a with
    | ⟨0, _⟩ => show u.val = 0 + 1 * 0; omega
    | ⟨1, _⟩ => show (0 : Nat) = 0 + 1 * 0; rfl
    | ⟨2, _⟩ => show q.val = 0 + 1 * q.val; omega
  have he1 : ix3 u (1 : Fin 2) q
      = (Rect.unit (s := ⟨3, ![1, 2, n]⟩) ![0, 1, 0] ![1, 1, n] inb1).emb (ix3 (0 : Fin 1) (0 : Fin 1) q) := by
    funext a; apply Fin.ext
    match a with
    | ⟨0, _⟩ => show u.val = 0 + 1 * 0; omega
    | ⟨1, _⟩ => show (1 : Nat) = 1 + 1 * 0; rfl
    | ⟨2, _⟩ => show q.val = 0 + 1 * q.val; omega
  have hnot : ix3 u (0 : Fin 2) q ∉ (Rect.unit (s := ⟨3, ![1, 2, n]⟩) ![0, 1, 0] ![1, 1, n] inb1).set := by
    intro hmem
    have h := ((Rect.mem_set_unit.mp hmem) ⟨1, (by decide : (1 : Nat) < 3)⟩).1
    have h' : (1 : Nat) ≤ 0 := h
    omega
  refine ⟨?_, ?_⟩
  · refine (View.canon_cons_of_not_mem
        (⟨Rect.unit (s := ⟨3, ![1, 2, n]⟩) ![0, 1, 0] ![1, 1, n] inb1, w1⟩ : View.Piece Val ⟨3, ![1, 2, n]⟩ e)
        [⟨Rect.unit (s := ⟨3, ![1, 2, n]⟩) ![0, 0, 0] ![1, 1, n] inb0, w0⟩] hnot).trans ?_
    refine (congrArg (View.canon [(⟨Rect.unit (s := ⟨3, ![1, 2, n]⟩) ![0, 0, 0] ![1, 1, n] inb0, w0⟩ : View.Piece Val ⟨3, ![1, 2, n]⟩ e)]) he0).trans ?_
    exact View.canon_cons_emb (Rect.unit (s := ⟨3, ![1, 2, n]⟩) ![0, 0, 0] ![1, 1, n] inb0) w0 [] (ix3 (0 : Fin 1) (0 : Fin 1) q)
  · refine (congrArg (View.canon [(⟨Rect.unit (s := ⟨3, ![1, 2, n]⟩) ![0, 1, 0] ![1, 1, n] inb1, w1⟩ : View.Piece Val ⟨3, ![1, 2, n]⟩ e),
        ⟨Rect.unit (s := ⟨3, ![1, 2, n]⟩) ![0, 0, 0] ![1, 1, n] inb0, w0⟩]) he1).trans ?_
    exact View.canon_cons_emb (Rect.unit (s := ⟨3, ![1, 2, n]⟩) ![0, 1, 0] ![1, 1, n] inb1) w1
      [⟨Rect.unit (s := ⟨3, ![1, 2, n]⟩) ![0, 0, 0] ![1, 1, n] inb0, w0⟩] (ix3 (0 : Fin 1) (0 : Fin 1) q)

end Cert.KernelIdeal.RVal

end
-- ==== Proof.Region1.lean ====
/-
  The first dense stage of a graph layer, tile by tile, as one array.

  The 20000 rows are processed in 10 tiles of 2000. At tile t the stage reads rows 2000·t … 2000·t + 1999 of the node
  matrix h and of the aggregated neighbours a, and the whole of the scale row s, the weights W and the bias b, and writes
  * rows 2000·t … 2000·t + 1999 of z1, where z1(n, q) = ∑ k, (s(k)·h(n, k) + a(n, k))·W(k, q) + b(q), and
  * slab t of the statistics: row 0 the sums over the tile's rows of each column of z1, row 1 the sums of their squares.
  Each entry written depends only on the row it belongs to, so the tiles together hold z1 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of h and a and the whole of s, W, b. -/
theorem r1_pay1_apply (x2 : Vec Ideal S1x300 .f32) (x0 x1 : Vec Ideal S2000x300 .f32) (x3 : Vec Ideal S300x300 .f32)
    (x4 : Vec Ideal S1x300 .f32) (p : Fin 2000) (q : Fin 300) :
    k1_pay1 x2 x0 x1 x3 x4 (ix2 p q)
      = (∑ k : Fin 300, (x2 (ix2 (0 : Fin 1) k) * x0 (ix2 p k) + x1 (ix2 p k)) * x3 (ix2 k q)) + x4 (ix2 (0 : Fin 1) q) :=
  dense_apply dot_S2000x300_S300x300_S2000x300_1_0_0_1_n_n rfl x2 x0 x1 x3 x4
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r1_pay2_apply (x2 : Vec Ideal S1x300 .f32) (x0 x1 : Vec Ideal S2000x300 .f32) (x3 : Vec Ideal S300x300 .f32)
    (x4 : Vec Ideal S1x300 .f32) (u s : Fin 1) (q : Fin 300) :
    k1_pay2 x2 x0 x1 x3 x4 (ix3 u s q) = ∑ p : Fin 2000, k1_pay1 x2 x0 x1 x3 x4 (ix2 p q) := by
  unfold k1_pay2
  exact (statsRow_apply (n := 300)
      (multiReduction .add [0] S300 (k1_pay1 x2 x0 x1 x3 x4) 0x00000000#32 reduces_S2000x300_S300 (.inl rfl) rfl)
      shapeCasts_S300_S1x300 shapeCasts_S1x300_S1x1x300 u s q).trans
    (colsum_apply (m := 2000) (n := 300) (k1_pay1 x2 x0 x1 x3 x4) reduces_S2000x300_S300 (.inl rfl) rfl q)

/-- The tile's column sums of squares, at (u, s, q). -/
theorem r1_pay3_apply (x2 : Vec Ideal S1x300 .f32) (x0 x1 : Vec Ideal S2000x300 .f32) (x3 : Vec Ideal S300x300 .f32)
    (x4 : Vec Ideal S1x300 .f32) (u s : Fin 1) (q : Fin 300) :
    k1_pay3 x2 x0 x1 x3 x4 (ix3 u s q)
      = ∑ p : Fin 2000, k1_pay1 x2 x0 x1 x3 x4 (ix2 p q) * k1_pay1 x2 x0 x1 x3 x4 (ix2 p q) := by
  unfold k1_pay3
  exact (statsRow_apply (n := 300)
      (multiReduction .add [0] S300 (mulf (k1_pay1 x2 x0 x1 x3 x4) (k1_pay1 x2 x0 x1 x3 x4)) 0x00000000#32
        reduces_S2000x300_S300 (.inl rfl) rfl)
      shapeCasts_S300_S1x300 shapeCasts_S1x300_S1x1x300 u s q).trans
    (colsum_apply (m := 2000) (n := 300) (mulf (k1_pay1 x2 x0 x1 x3 x4) (k1_pay1 x2 x0 x1 x3 x4))
      reduces_S2000x300_S300 (.inl rfl) rfl q)

/-- If a tile's blocks of h and a hold rows 2000·T + p of the arrays and its other blocks hold the whole scale row, weights
    and bias row, the tile's value at (p, q) is z1 of the arrays at row 2000·T + p, column q. -/
theorem r1_tile_of_blocks (A0 A1 : (⟨2, ![20000, 300]⟩ : Shape).Idx → EReal) (A2 : (⟨2, ![1, 300]⟩ : Shape).Idx → EReal)
    (A3 : (⟨2, ![300, 300]⟩ : Shape).Idx → EReal) (A4 : (⟨2, ![1, 300]⟩ : Shape).Idx → EReal)
    (x0 x1 : (⟨2, ![2000, 300]⟩ : Shape).Idx → EReal) (x2 : (⟨2, ![1, 300]⟩ : Shape).Idx → EReal)
    (x3 : (⟨2, ![300, 300]⟩ : Shape).Idx → EReal) (x4 : (⟨2, ![1, 300]⟩ : Shape).Idx → EReal) (T : Fin 10)
    (h0 : ∀ (p : Fin 2000) (k : Fin 300), x0 (ix2 p k) = A0 (ix2 (rowOf T p) k))
    (h1 : ∀ (p : Fin 2000) (k : Fin 300), x1 (ix2 p k) = A1 (ix2 (rowOf T p) k))
    (h2 : ∀ k : Fin 300, x2 (ix2 (0 : Fin 1) k) = A2 (ix2 (0 : Fin 1) k))
    (h3 : ∀ k q : Fin 300, x3 (ix2 k q) = A3 (ix2 k q))
    (h4 : ∀ q : Fin 300, x4 (ix2 (0 : Fin 1) q) = A4 (ix2 (0 : Fin 1) q)) (p : Fin 2000) (q : Fin 300) :
    (∑ k : Fin 300, (x2 (ix2 (0 : Fin 1) k) * x0 (ix2 p k) + x1 (ix2 p k)) * x3 (ix2 k q)) + x4 (ix2 (0 : Fin 1) q)
      = z1Of A0 A1 A2 A3 A4 (ix2 (rowOf T p) q) := by
  rw [z1Of_apply]
  simp only [h0, h1, h2, h3, h4]

/-- What the body leaves in the z1 block, at an entry: the stage's value there. -/
theorem r1_out5_apply (x0 x1 : Vec Ideal S2000x300 .f32) (x2 : Vec Ideal S1x300 .f32) (x3 : Vec Ideal S300x300 .f32)
    (x4 : Vec Ideal S1x300 .f32) (j : S2000x300.Idx) :
    out1_5 x0 x1 x2 x3 x4 j = k1_pay1 x2 x0 x1 x3 x4 j := by
  unfold out1_5
  rw [View.canon_unit_zero hz2]
  simp only [View.ld_unit_zero (S := S1x300) hz2, View.ld_unit_zero (S := S2000x300) hz2, View.ld_unit_zero (S := S300x300) hz2]

/-- What the body leaves in its two-row statistics block at (u, s, q): row 0 the column sums of the tile's values, row 1
    the column sums of their squares. -/
theorem r1_out6_apply (x0 x1 : Vec Ideal S2000x300 .f32) (x2 : Vec Ideal S1x300 .f32) (x3 : Vec Ideal S300x300 .f32)
    (x4 : Vec Ideal S1x300 .f32) (u : Fin 1) (q : Fin 300) :
    out1_6 x0 x1 x2 x3 x4 (ix3 u (0 : Fin 2) q) = ∑ p : Fin 2000, k1_pay1 x2 x0 x1 x3 x4 (ix2 p q)
    ∧ out1_6 x0 x1 x2 x3 x4 (ix3 u (1 : Fin 2) q)
      = ∑ p : Fin 2000, k1_pay1 x2 x0 x1 x3 x4 (ix2 p q) * k1_pay1 x2 x0 x1 x3 x4 (ix2 p q) := by
  unfold out1_6
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k1_pay2 x2 x0 x1 x3 x4) (k1_pay3 x2 x0 x1 x3 x4) u q
  exact ⟨h0.trans (r1_pay2_apply x2 x0 x1 x3 x4 0 0 q), h1.trans (r1_pay3_apply x2 x0 x1 x3 x4 0 0 q)⟩

/-! ## Where each tile sits -/

/-- The tile number of a grid point. -/
def r1_tile (t : Fin cfg1.N) : Fin 10 := Fin.cast N_1 t

theorem r1_tile_val (t : Fin cfg1.N) : (r1_tile t).val = t.val := rfl

/-- The windows' block indices, decided over the 10 points: h, a, z1 and the statistics move with the tile along axis 0;
    s, W and b stay. -/
theorem r1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- The tile's rows of h: entry (p, k) of the block is entry (2000·t + p, k) of the array. -/
theorem r1_blk0 (c : Dev nD) (t : Fin cfg1.N) (p : Fin 2000) (k : Fin 300) :
    (iblk1 V c 0 t : Vec Ideal S2000x300 .f32) (ix2 p k)
      = (V c (Pipeline.arrRef spec1 0) : S20000x300.Idx → Elt Ideal .f32) (ix2 (rowOf (r1_tile t) p) k) := by
  obtain ⟨e0, e1, -⟩ := r1_idx t
  unfold iblk1
  rw [View.read_apply]
  refine congrArg (V c (Pipeline.arrRef spec1 0) : S20000x300.Idx → Elt Ideal .f32) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 300 + 1 * k.val = k.val; rw [e1]; omega

/-- The tile's rows of a. -/
theorem r1_blk1 (c : Dev nD) (t : Fin cfg1.N) (p : Fin 2000) (k : Fin 300) :
    (iblk1 V c 1 t : Vec Ideal S2000x300 .f32) (ix2 p k)
      = (V c (Pipeline.arrRef spec1 1) : S20000x300.Idx → Elt Ideal .f32) (ix2 (rowOf (r1_tile t) p) k) := by
  obtain ⟨-, -, e0, e1, -⟩ := r1_idx t
  unfold iblk1
  rw [View.read_apply]
  refine congrArg (V c (Pipeline.arrRef spec1 1) : S20000x300.Idx → Elt Ideal .f32) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 300 + 1 * k.val = k.val; rw [e1]; omega

/-- The scale row, whole at every tile. -/
theorem r1_blk2 (c : Dev nD) (t : Fin cfg1.N) (u : Fin 1) (k : Fin 300) :
    (iblk1 V c 2 t : Vec Ideal S1x300 .f32) (ix2 u k)
      = (V c (Pipeline.arrRef spec1 2) : S1x300.Idx → Elt Ideal .f32) (ix2 u k) := by
  obtain ⟨-, -, -, -, e0, e1, -⟩ := r1_idx t
  unfold iblk1
  rw [View.read_apply]
  refine congrArg (V c (Pipeline.arrRef spec1 2) : S1x300.Idx → Elt Ideal .f32) (funext fun a => Fin.ext ?_)
  match a with
  | ⟨0, _⟩ => show win1_2.index t (0 : Fin 2) * 1 + 1 * u.val = u.val; rw [e0]; omega
  | ⟨1, _⟩ => show win1_2.index t (1 : Fin 2) * 300 + 1 * k.val = k.val; rw [e1]; omega

/-- The weights, whole at every tile. -/
theorem r1_blk3 (c : Dev nD) (t : Fin cfg1.N) (k : Fin 300) (q : Fin 300) :
    (iblk1 V c 3 t : Vec Ideal S300x300 .f32) (ix2 k q)
      = (V c (Pipeline.arrRef spec1 3) : S300x300.Idx → Elt Ideal .f32) (ix2 k q) := by
  obtain ⟨-, -, -, -, -, -, e0, e1, -⟩ := r1_idx t
  unfold iblk1
  rw [View.read_apply]
  refine congrArg (V c (Pipeline.arrRef spec1 3) : S300x300.Idx → Elt Ideal .f32) (funext fun a => Fin.ext ?_)
  match a with
  | ⟨0, _⟩ => show win1_3.index t (0 : Fin 2) * 300 + 1 * k.val = k.val; rw [e0]; omega
  | ⟨1, _⟩ => show win1_3.index t (1 : Fin 2) * 300 + 1 * q.val = q.val; rw [e1]; omega

/-- The bias row, whole at every tile. -/
theorem r1_blk4 (c : Dev nD) (t : Fin cfg1.N) (u : Fin 1) (q : Fin 300) :
    (iblk1 V c 4 t : Vec Ideal S1x300 .f32) (ix2 u q)
      = (V c (Pipeline.arrRef spec1 4) : S1x300.Idx → Elt Ideal .f32) (ix2 u q) := by
  obtain ⟨-, -, -, -, -, -, -, -, e0, e1, -⟩ := r1_idx t
  unfold iblk1
  rw [View.read_apply]
  refine congrArg (V c (Pipeline.arrRef spec1 4) : S1x300.Idx → Elt Ideal .f32) (funext fun a => Fin.ext ?_)
  match a with
  | ⟨0, _⟩ => show win1_4.index t (0 : Fin 2) * 1 + 1 * u.val = u.val; rw [e0]; omega
  | ⟨1, _⟩ => show win1_4.index t (1 : Fin 2) * 300 + 1 * q.val = q.val; rw [e1]; omega

/-! ## The region's closed form and one tile's values, named once -/

/-- The first dense stage of the arrays the region finds. -/
def r1_Z (c : Dev nD) : (⟨2, ![20000, 300]⟩ : Shape).Idx → EReal :=
  z1Of (V c (Pipeline.arrRef spec1 0)) (V c (Pipeline.arrRef spec1 1)) (V c (Pipeline.arrRef spec1 2))
        (V c (Pipeline.arrRef spec1 3)) (V c (Pipeline.arrRef spec1 4))

/-- What tile t computes from its blocks. -/
def r1_P (c : Dev nD) (t : Fin cfg1.N) : (⟨2, ![2000, 300]⟩ : Shape).Idx → EReal :=
  k1_pay1 (iblk1 V c 2 t) (iblk1 V c 0 t) (iblk1 V c 1 t) (iblk1 V c 3 t) (iblk1 V c 4 t)

/-- THE TILE'S ENTRY: what tile t computes at (p, q) is z1 of the whole arrays at row 2000·t + p, column q. -/
theorem r1_tile_apply (c : Dev nD) (t : Fin cfg1.N) (p : Fin 2000) (q : Fin 300) :
    r1_P V c t (ix2 p q) = r1_Z V c (ix2 (rowOf (r1_tile t) p) q) := by
  unfold r1_P r1_Z
  refine (r1_pay1_apply (iblk1 V c 2 t) (iblk1 V c 0 t) (iblk1 V c 1 t) (iblk1 V c 3 t) (iblk1 V c 4 t) p q).trans ?_
  exact r1_tile_of_blocks (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) (r1_tile t)
    (r1_blk0 V c t) (r1_blk1 V c t) (r1_blk2 V c t 0) (r1_blk3 V c t) (r1_blk4 V c t 0) p q

/-- The z1 block the body leaves at tile t is the tile's values. -/
theorem r1_out5 (c : Dev nD) (t : Fin cfg1.N) (j : S2000x300.Idx) :
    out1_5 (iblk1 V c 0 t) (iblk1 V c 1 t) (iblk1 V c 2 t) (iblk1 V c 3 t) (iblk1 V c 4 t) j = r1_P V c t j :=
  r1_out5_apply (iblk1 V c 0 t) (iblk1 V c 1 t) (iblk1 V c 2 t) (iblk1 V c 3 t) (iblk1 V c 4 t) j

/-- The statistics block the body leaves at tile t: the column sums of the tile's values and of their squares. -/
theorem r1_out6 (c : Dev nD) (t : Fin cfg1.N) (u : Fin 1) (q : Fin 300) :
    out1_6 (iblk1 V c 0 t) (iblk1 V c 1 t) (iblk1 V c 2 t) (iblk1 V c 3 t) (iblk1 V c 4 t) (ix3 u (0 : Fin 2) q)
      = ∑ p : Fin 2000, r1_P V c t (ix2 p q)
    ∧ out1_6 (iblk1 V c 0 t) (iblk1 V c 1 t) (iblk1 V c 2 t) (iblk1 V c 3 t) (iblk1 V c 4 t) (ix3 u (1 : Fin 2) q)
      = ∑ p : Fin 2000, r1_P V c t (ix2 p q) * r1_P V c t (ix2 p q) :=
  r1_out6_apply (iblk1 V c 0 t) (iblk1 V c 1 t) (iblk1 V c 2 t) (iblk1 V c 3 t) (iblk1 V c 4 t) u q

/-! ## The z1 array -/

/-- What tile t writes back to z1 is its block of the closed form. -/
theorem r1_flushed5 (c : Dev nD) (t : Fin cfg1.N) :
    (dat1 V c).flushed 5 t = ((cfg1.win 5).blk t).view.read (Elt Ideal) (r1_Z V c) := by
  show (cfg1.win 5).cut (grid1.coords t) ((dat1 V c).after 5 t) = _
  rw [after1_5]
  funext j
  have hj0 : (j 0).val < 2000 := (j 0).isLt
  have hj1 : (j 1).val < 300 := (j 1).isLt
  -- the block's entry j, by coordinates
  have hx : (cfg1.win 5).xinj (grid1.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg1.win 5).blk t).view.emb j : S20000x300.Idx)
      = ix2 (rowOf (r1_tile t) ⟨(j 0).val, hj0⟩) (⟨(j 1).val, hj1⟩ : Fin 300) := by
    obtain ⟨-, -, -, -, -, -, -, -, -, -, e0, e1, -⟩ := r1_idx t
    funext a; apply Fin.ext
    match a with
    | ⟨0, _⟩ => show win1_5.index t (0 : Fin 2) * 2000 + 1 * (j 0).val = t.val * 2000 + (j 0).val; rw [e0]; omega
    | ⟨1, _⟩ => show win1_5.index t (1 : Fin 2) * 300 + 1 * (j 1).val = (j 1).val; rw [e1]; omega
  exact ((r1_out5 V c t _).trans (congrArg (r1_P V c t) hx)).trans
    ((r1_tile_apply V c t ⟨(j 0).val, hj0⟩ ⟨(j 1).val, hj1⟩).trans (congrArg (r1_Z V c) he).symm)

/-- Membership in tile t's block of z1, by coordinates. -/
theorem r1_mem_blk5 (t : Fin cfg1.N) (i : S20000x300.Idx) :
    i ∈ ((cfg1.win 5).blk t).view.set ↔ ∀ a : Fin 2, win1_5.index t a * S2000x300.size a ≤ (i a).val
      ∧ (i a).val < win1_5.index t a * S2000x300.size a + S2000x300.size a := by
  show i ∈ ((View.whole main_v39_0).slice (win1_5.rect t)).set ↔ _
  rw [View.set_slice_whole, Rect.mem_set_unit]
  exact Iff.rfl

/-- Every entry of z1 is in the block of the tile its row belongs to. -/
theorem r1_cover5 (i : S20000x300.Idx) :
    ∃ t : Fin cfg1.N, (cfg1.win 5).flush t = true ∧ i ∈ ((cfg1.win 5).blk t).view.set := by
  have hN : cfg1.N = 10 := N_1
  have h0 : (i 0).val < 20000 := (i 0).isLt
  have h1 : (i 1).val < 300 := (i 1).isLt
  have ht : (i 0).val / 2000 < cfg1.N := by rw [hN]; omega
  obtain ⟨-, -, -, -, -, -, -, -, -, -, e0, e1, -⟩ := r1_idx ⟨(i 0).val / 2000, ht⟩
  refine ⟨⟨(i 0).val / 2000, ht⟩, flush1_5 _, ?_⟩
  rw [r1_mem_blk5]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 300 ≤ (i 1).val
      ∧ (i 1).val < win1_5.index ⟨(i 0).val / 2000, ht⟩ (1 : Fin 2) * 300 + 300
    rw [e1]; omega

/-- THE z1 ARRAY after the region: the first dense stage of the region's inputs. -/
theorem arr1_5 (c : Dev nD) :
    (dat1 (F := Ideal) V c).arrAt 5 cfg1.N
      = z1Of (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 (r1_Z V c) (fun t _ => r1_flushed5 V c t) r1_cover5

/-! ## The statistics array -/

/-- One entry of what tile t writes back to the statistics: on row s of its slab, column q, the value v, provided the
    body left v there and the tile statistics of the closed form have v there. -/
theorem r1_flushed6_at (c : Dev nD) (t : Fin cfg1.N) (j : ((cfg1.win 6).xblock (grid1.coords t)).Idx) (s : Fin 2)
    (hs : (j 1).val = s.val) (hj2 : (j 2).val < 300) (v : EReal)
    (hout : ∀ u : Fin 1, out1_6 (iblk1 V c 0 t) (iblk1 V c 1 t) (iblk1 V c 2 t) (iblk1 V c 3 t) (iblk1 V c 4 t) (ix3 u s (⟨(j 2).val, hj2⟩ : Fin 300)) = v)
    (hstat : tileStats (r1_Z V c) (ix3 (r1_tile t) s (⟨(j 2).val, hj2⟩ : Fin 300)) = v) :
    (cfg1.win 6).cut (grid1.coords t)
        (out1_6 (iblk1 V c 0 t) (iblk1 V c 1 t) (iblk1 V c 2 t) (iblk1 V c 3 t) (iblk1 V c 4 t)) j
      = ((cfg1.win 6).blk t).view.read (Elt Ideal) (tileStats (r1_Z V c)) j := by
  have hj0 : (j 0).val < 1 := (j 0).isLt
  have hx : (cfg1.win 6).xinj (grid1.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg1.win 6).blk t).view.emb j : S10x2x300.Idx) = ix3 (r1_tile t) s (⟨(j 2).val, hj2⟩ : Fin 300) := by
    obtain ⟨-, -, -, -, -, -, -, -, -, -, -, -, e0, e1, e2⟩ := r1_idx t
    funext a; apply Fin.ext
    match a with
    | ⟨0, _⟩ => show win1_6.index t (0 : Fin 3) * 1 + 1 * (j 0).val = t.val; rw [e0]; omega
    | ⟨1, _⟩ => show win1_6.index t (1 : Fin 3) * 2 + 1 * (j 1).val = s.val; rw [e1]; omega
    | ⟨2, _⟩ => show win1_6.index t (2 : Fin 3) * 300 + 1 * (j 2).val = (j 2).val; rw [e2]; omega
  exact ((congrArg (out1_6 (iblk1 V c 0 t) (iblk1 V c 1 t) (iblk1 V c 2 t) (iblk1 V c 3 t) (iblk1 V c 4 t)) hx).trans (hout _)).trans
    (hstat.symm.trans (congrArg (tileStats (r1_Z V c)) he).symm)

/-- What tile t writes back to the statistics is its slab of the tile statistics of the closed form. -/
theorem r1_flushed6 (c : Dev nD) (t : Fin cfg1.N) :
    (dat1 V c).flushed 6 t = ((cfg1.win 6).blk t).view.read (Elt Ideal) (tileStats (r1_Z V c)) := by
  show (cfg1.win 6).cut (grid1.coords t) ((dat1 V c).after 6 t) = _
  rw [after1_6]
  funext j
  have hj1 : (j 1).val < 2 := (j 1).isLt
  have hj2 : (j 2).val < 300 := (j 2).isLt
  rcases Nat.lt_or_ge (j 1).val 1 with hs | hs
  · exact r1_flushed6_at V c t j 0 (by show (j 1).val = 0; omega) hj2 _ (fun u => (r1_out6 V c t u ⟨(j 2).val, hj2⟩).1)
      ((tileStats_zero _ (r1_tile t) ⟨(j 2).val, hj2⟩).trans
        (Finset.sum_congr rfl fun p _ => (r1_tile_apply V c t p ⟨(j 2).val, hj2⟩).symm))
  · exact r1_flushed6_at V c t j 1 (by show (j 1).val = 1; omega) hj2 _ (fun u => (r1_out6 V c t u ⟨(j 2).val, hj2⟩).2)
      ((tileStats_one _ (r1_tile t) ⟨(j 2).val, hj2⟩).trans (Finset.sum_congr rfl fun p _ =>
        (congrArg₂ (fun (a b : EReal) => a * b) (r1_tile_apply V c t p ⟨(j 2).val, hj2⟩)
          (r1_tile_apply V c t p ⟨(j 2).val, hj2⟩)).symm))

/-- Membership in tile t's slab of the statistics, by coordinates. -/
theorem r1_mem_blk6 (t : Fin cfg1.N) (i : S10x2x300.Idx) :
    i ∈ ((cfg1.win 6).blk t).view.set ↔ ∀ a : Fin 3, win1_6.index t a * S1x2x300.size a ≤ (i a).val
      ∧ (i a).val < win1_6.index t a * S1x2x300.size a + S1x2x300.size a := by
  show i ∈ ((View.whole main_v39_1).slice (win1_6.rect t)).set ↔ _
  rw [View.set_slice_whole, Rect.mem_set_unit]
  exact Iff.rfl

/-- Every entry of the statistics is in its tile's slab. -/
theorem r1_cover6 (i : S10x2x300.Idx) :
    ∃ t : Fin cfg1.N, (cfg1.win 6).flush t = true ∧ i ∈ ((cfg1.win 6).blk t).view.set := by
  have hN : cfg1.N = 10 := N_1
  have h0 : (i 0).val < 10 := (i 0).isLt
  have h1 : (i 1).val < 2 := (i 1).isLt
  have h2 : (i 2).val < 300 := (i 2).isLt
  have ht : (i 0).val < cfg1.N := by rw [hN]; exact h0
  obtain ⟨-, -, -, -, -, -, -, -, -, -, -, -, e0, e1, e2⟩ := r1_idx ⟨(i 0).val, ht⟩
  refine ⟨⟨(i 0).val, ht⟩, flush1_6 _, ?_⟩
  rw [r1_mem_blk6]
  intro a
  match a with
  | ⟨0, _⟩ =>
    show win1_6.index ⟨(i 0).val, ht⟩ (0 : Fin 3) * 1 ≤ (i 0).val ∧ (i 0).val < win1_6.index ⟨(i 0).val, ht⟩ (0 : Fin 3) * 1 + 1
    rw [e0]; show (i 0).val * 1 ≤ (i 0).val ∧ (i 0).val < (i 0).val * 1 + 1; omega
  | ⟨1, _⟩ =>
    show win1_6.index ⟨(i 0).val, ht⟩ (1 : Fin 3) * 2 ≤ (i 1).val ∧ (i 1).val < win1_6.index ⟨(i 0).val, ht⟩ (1 : Fin 3) * 2 + 2
    rw [e1]; omega
  | ⟨2, _⟩ =>
    show win1_6.index ⟨(i 0).val, ht⟩ (2 : Fin 3) * 300 ≤ (i 2).val ∧ (i 2).val < win1_6.index ⟨(i 0).val, ht⟩ (2 : Fin 3) * 300 + 300
    rw [e2]; omega

/-- THE STATISTICS ARRAY after the region: the tile statistics of the first dense stage of the region's inputs. -/
theorem arr1_6 (c : Dev nD) :
    (dat1 (F := Ideal) V c).arrAt 6 cfg1.N
      = tileStats (z1Of (V c (Pipeline.arrRef spec1 0)) (V c (Pipeline.arrRef spec1 1)) (V c (Pipeline.arrRef spec1 2))
        (V c (Pipeline.arrRef spec1 3)) (V c (Pipeline.arrRef spec1 4))) :=
  (dat1 V c).arrAt_eq_of_cover 6 (tileStats (r1_Z V c)) (fun t _ => r1_flushed6 V c t) r1_cover6

end Cert.KernelIdeal.RVal

end
-- ==== Proof.Region2.lean ====
/-
  The normalised second dense stage of a graph layer, tile by tile, as one array.

  The 20000 rows are processed in 10 tiles of 2000. At tile t the stage reads rows 2000·t … 2000·t + 1999 of z1 and the
  whole of the mean row μ, the variance row v, the scale row γ, the shift row β, the weights W and the bias b, and writes
  * rows 2000·t … 2000·t + 1999 of z2, where r(n, k) = max((z1(n, k) − μ(k))·rsqrt(v(k) + ε)·γ(k) + β(k), 0) and
    z2(n, q) = ∑ k, r(n, k)·W(k, q) + b(q), and
  * slab t of the statistics: row 0 the sums over the tile's rows of each column of z2, row 1 the sums of their squares.
  Each entry written depends only on the row it belongs to, so the tiles together hold z2 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of z1 and the whole of v, μ, γ, β, W, b. -/
theorem r2_pay3_apply (v0 : Vec Ideal S1x300 .f32) (v5 : Vec Ideal S2000x300 .f32) (v7 v13 v17 : Vec Ideal S1x300 .f32)
    (v24 : Vec Ideal S300x300 .f32) (v28 : Vec Ideal S1x300 .f32) (p : Fin 2000) (q : Fin 300) :
    k2_pay3 v0 v5 v7 v13 v17 v24 v28 (ix2 p q)
      = (∑ k : Fin 300, max ((v5 (ix2 p k) - v7 (ix2 (0 : Fin 1) k))
            * Ideal.rsqrt (v0 (ix2 (0 : Fin 1) k) + Ideal.ofBits .f32 0x3727C5AC#32)
            * v13 (ix2 (0 : Fin 1) k) + v17 (ix2 (0 : Fin 1) k)) 0 * v24 (ix2 k q)) + v28 (ix2 (0 : Fin 1) q) :=
  bnrelu_dense_apply dot_S2000x300_S300x300_S2000x300_1_0_0_1_n_n rfl v0 v5 v7 v13 v17 v24 v28 0x3727C5AC#32
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r2_sum_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k2_pay1 (k2_pay4 v0 v5 v7 v13 v17 v24 v28) (ix3 u s q) = ∑ p : Fin 2000, k2_pay3 v0 v5 v7 v13 v17 v24 v28 (ix2 p q) := by
  unfold k2_pay1 k2_pay4
  exact (statsRow_apply (n := 300)
      (multiReduction .add [0] S300 (k2_pay3 v0 v5 v7 v13 v17 v24 v28) 0x00000000#32 reduces_S2000x300_S300 (.inl rfl) rfl)
      shapeCasts_S300_S1x300 shapeCasts_S1x300_S1x1x300 u s q).trans
    (colsum_apply (m := 2000) (n := 300) (k2_pay3 v0 v5 v7 v13 v17 v24 v28) reduces_S2000x300_S300 (.inl rfl) rfl q)

/-- The tile's column sums of squares, at (u, s, q). -/
theorem r2_sumsq_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k2_pay2 (k2_pay5 v0 v5 v7 v13 v17 v24 v28) (ix3 u s q)
      = ∑ p : Fin 2000, k2_pay3 v0 v5 v7 v13 v17 v24 v28 (ix2 p q) * k2_pay3 v0 v5 v7 v13 v17 v24 v28 (ix2 p q) := by
  unfold k2_pay2 k2_pay5
  exact (statsRow_apply (n := 300)
      (multiReduction .add [0] S300 (mulf (k2_pay3 v0 v5 v7 v13 v17 v24 v28) (k2_pay3 v0 v5 v7 v13 v17 v24 v28)) 0x00000000#32
        reduces_S2000x300_S300 (.inl rfl) rfl)
      shapeCasts_S300_S1x300 shapeCasts_S1x300_S1x1x300 u s q).trans
    (colsum_apply (m := 2000) (n := 300) (mulf (k2_pay3 v0 v5 v7 v13 v17 v24 v28) (k2_pay3 v0 v5 v7 v13 v17 v24 v28))
      reduces_S2000x300_S300 (.inl rfl) rfl q)

/-- If a tile's block of z holds rows 2000·T + p of the array and its other blocks hold the whole rows and weights, the
    tile's value at (p, q) is z2 of the arrays at row 2000·T + p, column q. -/
theorem r2_tile_of_blocks (A0 : (⟨2, ![20000, 300]⟩ : Shape).Idx → EReal) (A1 A2 A3 A4 : (⟨2, ![1, 300]⟩ : Shape).Idx → EReal)
    (A5 : (⟨2, ![300, 300]⟩ : Shape).Idx → EReal) (A6 : (⟨2, ![1, 300]⟩ : Shape).Idx → EReal)
    (x0 : (⟨2, ![2000, 300]⟩ : Shape).Idx → EReal) (x1 x2 x3 x4 : (⟨2, ![1, 300]⟩ : Shape).Idx → EReal)
    (x5 : (⟨2, ![300, 300]⟩ : Shape).Idx → EReal) (x6 : (⟨2, ![1, 300]⟩ : Shape).Idx → EReal) (T : Fin 10)
    (h0 : ∀ (p : Fin 2000) (k : Fin 300), x0 (ix2 p k) = A0 (ix2 (rowOf T p) k))
    (h1 : ∀ k : Fin 300, x1 (ix2 (0 : Fin 1) k) = A1 (ix2 (0 : Fin 1) k))
    (h2 : ∀ k : Fin 300, x2 (ix2 (0 : Fin 1) k) = A2 (ix2 (0 : Fin 1) k))
    (h3 : ∀ k : Fin 300, x3 (ix2 (0 : Fin 1) k) = A3 (ix2 (0 : Fin 1) k))
    (h4 : ∀ k : Fin 300, x4 (ix2 (0 : Fin 1) k) = A4 (ix2 (0 : Fin 1) k))
    (h5 : ∀ k q : Fin 300, x5 (ix2 k q) = A5 (ix2 k q))
    (h6 : ∀ q : Fin 300, x6 (ix2 (0 : Fin 1) q) = A6 (ix2 (0 : Fin 1) q)) (p : Fin 2000) (q : Fin 300) :
    (∑ k : Fin 300, max ((x0 (ix2 p k) - x1 (ix2 (0 : Fin 1) k))
          * Ideal.rsqrt (x2 (ix2 (0 : Fin 1) k) + Ideal.ofBits .f32 0x3727C5AC#32)
          * x3 (ix2 (0 : Fin 1) k) + x4 (ix2 (0 : Fin 1) k)) 0 * x5 (ix2 k q)) + x6 (ix2 (0 : Fin 1) q)
      = z2Of A0 A1 A2 A3 A4 A5 A6 (ix2 (rowOf T p) q) := by
  rw [z2Of_apply]
  simp only [r1Of_apply, h0, h1, h2, h3, h4, h5, h6]

/-- What the body leaves in the z2 block, at (p, q): the stage's value there. -/
theorem r2_out7_apply (x0 : Vec Ideal S2000x300 .f32) (x1 x2 x3 x4 : Vec Ideal S1x300 .f32) (x5 : Vec Ideal S300x300 .f32)
    (x6 : Vec Ideal S1x300 .f32) (j : S2000x300.Idx) :
    out2_7 x0 x1 x2 x3 x4 x5 x6 j = k2_pay3 x2 x0 x1 x3 x4 x5 x6 j := by
  unfold out2_7
  rw [View.canon_unit_zero hz2]
  simp only [View.ld_unit_zero (S := S1x300) hz2, View.ld_unit_zero (S := S2000x300) hz2, View.ld_unit_zero (S := S300x300) hz2]

/-! ## Where each tile sits -/

/-- The tile number of a grid point. -/
def r2_tile (t : Fin cfg2.N) : Fin 10 := Fin.cast N_2 t

theorem r2_tile_val (t : Fin cfg2.N) : (r2_tile t).val = t.val := rfl

/-- The windows' block indices, decided over the 10 points: z1, z2 and the statistics move with the tile along axis 0;
    μ, v, γ, β, W and b stay. -/
theorem r2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 3) = t.val ∧ win2_8.index t (1 : Fin 3) = 0 ∧ win2_8.index t (2 : Fin 3) = 0 :=
  (by decide +kernel : ∀ t : Fin grid2.N, _)

/-- The tile's rows of z1: entry (p, k) of the block is entry (2000·t + p, k) of the array. -/
theorem r2_blk0 (c : Dev nD) (t : Fin cfg2.N) (p : Fin 2000) (k : Fin 300) :
    (iblk2 V c 0 t : Vec Ideal S2000x300 .f32) (ix2 p k)
      = (V c (Pipeline.arrRef spec2 0) : S20000x300.Idx → Elt Ideal .f32) (ix2 (rowOf (r2_tile t) p) k) := by
  obtain ⟨e0, e1, -⟩ := r2_idx t
  unfold iblk2
  rw [View.read_apply]
  refine congrArg (V c (Pipeline.arrRef spec2 0) : S20000x300.Idx → Elt Ideal .f32) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 300 + 1 * k.val = k.val; rw [e1]; omega

/-- The mean row, whole at every tile. -/
theorem r2_blk1 (c : Dev nD) (t : Fin cfg2.N) (u : Fin 1) (k : Fin 300) :
    (iblk2 V c 1 t : Vec Ideal S1x300 .f32) (ix2 u k)
      = (V c (Pipeline.arrRef spec2 1) : S1x300.Idx → Elt Ideal .f32) (ix2 u k) := by
  obtain ⟨-, -, e0, e1, -⟩ := r2_idx t
  unfold iblk2
  rw [View.read_apply]
  refine congrArg (V c (Pipeline.arrRef spec2 1) : S1x300.Idx → Elt Ideal .f32) (funext fun a => Fin.ext ?_)
  match a with
  | ⟨0, _⟩ => show win2_1.index t (0 : Fin 2) * 1 + 1 * u.val = u.val; rw [e0]; omega
  | ⟨1, _⟩ => show win2_1.index t (1 : Fin 2) * 300 + 1 * k.val = k.val; rw [e1]; omega

/-- The variance row, whole at every tile. -/
theorem r2_blk2 (c : Dev nD) (t : Fin cfg2.N) (u : Fin 1) (k : Fin 300) :
    (iblk2 V c 2 t : Vec Ideal S1x300 .f32) (ix2 u k)
      = (V c (Pipeline.arrRef spec2 2) : S1x300.Idx → Elt Ideal .f32) (ix2 u k) := by
  obtain ⟨-, -, -, -, e0, e1, -⟩ := r2_idx t
  unfold iblk2
  rw [View.read_apply]
  refine congrArg (V c (Pipeline.arrRef spec2 2) : S1x300.Idx → Elt Ideal .f32) (funext fun a => Fin.ext ?_)
  match a with
  | ⟨0, _⟩ => show win2_2.index t (0 : Fin 2) * 1 + 1 * u.val = u.val; rw [e0]; omega
  | ⟨1, _⟩ => show win2_2.index t (1 : Fin 2) * 300 + 1 * k.val = k.val; rw [e1]; omega

/-- The scale row, whole at every tile. -/
theorem r2_blk3 (c : Dev nD) (t : Fin cfg2.N) (u : Fin 1) (k : Fin 300) :
    (iblk2 V c 3 t : Vec Ideal S1x300 .f32) (ix2 u k)
      = (V c (Pipeline.arrRef spec2 3) : S1x300.Idx → Elt Ideal .f32) (ix2 u k) := by
  obtain ⟨-, -, -, -, -, -, e0, e1, -⟩ := r2_idx t
  unfold iblk2
  rw [View.read_apply]
  refine congrArg (V c (Pipeline.arrRef spec2 3) : S1x300.Idx → Elt Ideal .f32) (funext fun a => Fin.ext ?_)
  match a with
  | ⟨0, _⟩ => show win2_3.index t (0 : Fin 2) * 1 + 1 * u.val = u.val; rw [e0]; omega
  | ⟨1, _⟩ => show win2_3.index t (1 : Fin 2) * 300 + 1 * k.val = k.val; rw [e1]; omega

/-- The shift row, whole at every tile. -/
theorem r2_blk4 (c : Dev nD) (t : Fin cfg2.N) (u : Fin 1) (k : Fin 300) :
    (iblk2 V c 4 t : Vec Ideal S1x300 .f32) (ix2 u k)
      = (V c (Pipeline.arrRef spec2 4) : S1x300.Idx → Elt Ideal .f32) (ix2 u k) := by
  obtain ⟨-, -, -, -, -, -, -, -, e0, e1, -⟩ := r2_idx t
  unfold iblk2
  rw [View.read_apply]
  refine congrArg (V c (Pipeline.arrRef spec2 4) : S1x300.Idx → Elt Ideal .f32) (funext fun a => Fin.ext ?_)
  match a with
  | ⟨0, _⟩ => show win2_4.index t (0 : Fin 2) * 1 + 1 * u.val = u.val; rw [e0]; omega
  | ⟨1, _⟩ => show win2_4.index t (1 : Fin 2) * 300 + 1 * k.val = k.val; rw [e1]; omega

/-- The weights, whole at every tile. -/
theorem r2_blk5 (c : Dev nD) (t : Fin cfg2.N) (k : Fin 300) (q : Fin 300) :
    (iblk2 V c 5 t : Vec Ideal S300x300 .f32) (ix2 k q)
      = (V c (Pipeline.arrRef spec2 5) : S300x300.Idx → Elt Ideal .f32) (ix2 k q) := by
  obtain ⟨-, -, -, -, -, -, -, -, -, -, e0, e1, -⟩ := r2_idx t
  unfold iblk2
  rw [View.read_apply]
  refine congrArg (V c (Pipeline.arrRef spec2 5) : S300x300.Idx → Elt Ideal .f32) (funext fun a => Fin.ext ?_)
  match a with
  | ⟨0, _⟩ => show win2_5.index t (0 : Fin 2) * 300 + 1 * k.val = k.val; rw [e0]; omega
  | ⟨1, _⟩ => show win2_5.index t (1 : Fin 2) * 300 + 1 * q.val = q.val; rw [e1]; omega

/-- The bias row, whole at every tile. -/
theorem r2_blk6 (c : Dev nD) (t : Fin cfg2.N) (u : Fin 1) (k : Fin 300) :
    (iblk2 V c 6 t : Vec Ideal S1x300 .f32) (ix2 u k)
      = (V c (Pipeline.arrRef spec2 6) : S1x300.Idx → Elt Ideal .f32) (ix2 u k) := by
  obtain ⟨-, -, -, -, -, -, -, -, -, -, -, -, e0, e1, -⟩ := r2_idx t
  unfold iblk2
  rw [View.read_apply]
  refine congrArg (V c (Pipeline.arrRef spec2 6) : S1x300.Idx → Elt Ideal .f32) (funext fun a => Fin.ext ?_)
  match a with
  | ⟨0, _⟩ => show win2_6.index t (0 : Fin 2) * 1 + 1 * u.val = u.val; rw [e0]; omega
  | ⟨1, _⟩ => show win2_6.index t (1 : Fin 2) * 300 + 1 * k.val = k.val; rw [e1]; omega

/-! ## The region's closed form and one tile's values, named once -/

/-- The normalised second dense stage of the arrays the region finds. -/
def r2_Z (c : Dev nD) : (⟨2, ![20000, 300]⟩ : Shape).Idx → EReal :=
  z2Of (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))

/-- What tile t computes from its blocks. -/
def r2_P (c : Dev nD) (t : Fin cfg2.N) : (⟨2, ![2000, 300]⟩ : Shape).Idx → EReal :=
  k2_pay3 (iblk2 V c 2 t) (iblk2 V c 0 t) (iblk2 V c 1 t) (iblk2 V c 3 t) (iblk2 V c 4 t) (iblk2 V c 5 t) (iblk2 V c 6 t)

/-- THE TILE'S ENTRY: what tile t computes at (p, q) is z2 of the whole arrays at row 2000·t + p, column q. -/
theorem r2_tile_apply (c : Dev nD) (t : Fin cfg2.N) (p : Fin 2000) (q : Fin 300) :
    r2_P V c t (ix2 p q) = r2_Z V c (ix2 (rowOf (r2_tile t) p) q) := by
  unfold r2_P r2_Z
  refine (r2_pay3_apply (iblk2 V c 2 t) (iblk2 V c 0 t) (iblk2 V c 1 t) (iblk2 V c 3 t) (iblk2 V c 4 t) (iblk2 V c 5 t) (iblk2 V c 6 t) p q).trans ?_
  exact r2_tile_of_blocks (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (V c (Pipeline.arrRef spec2 6))
    (iblk2 V c 0 t) (iblk2 V c 1 t) (iblk2 V c 2 t) (iblk2 V c 3 t) (iblk2 V c 4 t) (iblk2 V c 5 t) (iblk2 V c 6 t) (r2_tile t)
    (r2_blk0 V c t) (r2_blk1 V c t 0) (r2_blk2 V c t 0) (r2_blk3 V c t 0) (r2_blk4 V c t 0) (r2_blk5 V c t) (r2_blk6 V c t 0) p q

/-- The z2 block the body leaves at tile t is the tile's values. -/
theorem r2_out7 (c : Dev nD) (t : Fin cfg2.N) (j : S2000x300.Idx) :
    out2_7 (iblk2 V c 0 t) (iblk2 V c 1 t) (iblk2 V c 2 t) (iblk2 V c 3 t) (iblk2 V c 4 t) (iblk2 V c 5 t) (iblk2 V c 6 t) j = r2_P V c t j :=
  r2_out7_apply (iblk2 V c 0 t) (iblk2 V c 1 t) (iblk2 V c 2 t) (iblk2 V c 3 t) (iblk2 V c 4 t) (iblk2 V c 5 t) (iblk2 V c 6 t) j

/-- What the body leaves in its two-row statistics block at (u, s, q): row 0 the column sums of the tile's values, row 1
    the column sums of their squares. -/
theorem r2_out8_apply (x0 : Vec Ideal S2000x300 .f32) (x1 x2 x3 x4 : Vec Ideal S1x300 .f32) (x5 : Vec Ideal S300x300 .f32)
    (x6 : Vec Ideal S1x300 .f32) (u : Fin 1) (q : Fin 300) :
    out2_8 x0 x1 x2 x3 x4 x5 x6 (ix3 u (0 : Fin 2) q) = ∑ p : Fin 2000, k2_pay3 x2 x0 x1 x3 x4 x5 x6 (ix2 p q)
    ∧ out2_8 x0 x1 x2 x3 x4 x5 x6 (ix3 u (1 : Fin 2) q)
      = ∑ p : Fin 2000, k2_pay3 x2 x0 x1 x3 x4 x5 x6 (ix2 p q) * k2_pay3 x2 x0 x1 x3 x4 x5 x6 (ix2 p q) := by
  unfold out2_8
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k2_pay1 (k2_pay4 x2 x0 x1 x3 x4 x5 x6))
    (k2_pay2 (k2_pay5 x2 x0 x1 x3 x4 x5 x6)) u q
  exact ⟨h0.trans (r2_sum_apply x2 x0 x1 x3 x4 x5 x6 0 0 q), h1.trans (r2_sumsq_apply x2 x0 x1 x3 x4 x5 x6 0 0 q)⟩

/-- The statistics block the body leaves at tile t: the column sums of the tile's values and of their squares. -/
theorem r2_out8 (c : Dev nD) (t : Fin cfg2.N) (u : Fin 1) (q : Fin 300) :
    out2_8 (iblk2 V c 0 t) (iblk2 V c 1 t) (iblk2 V c 2 t) (iblk2 V c 3 t) (iblk2 V c 4 t) (iblk2 V c 5 t) (iblk2 V c 6 t) (ix3 u (0 : Fin 2) q)
      = ∑ p : Fin 2000, r2_P V c t (ix2 p q)
    ∧ out2_8 (iblk2 V c 0 t) (iblk2 V c 1 t) (iblk2 V c 2 t) (iblk2 V c 3 t) (iblk2 V c 4 t) (iblk2 V c 5 t) (iblk2 V c 6 t) (ix3 u (1 : Fin 2) q)
      = ∑ p : Fin 2000, r2_P V c t (ix2 p q) * r2_P V c t (ix2 p q) :=
  r2_out8_apply (iblk2 V c 0 t) (iblk2 V c 1 t) (iblk2 V c 2 t) (iblk2 V c 3 t) (iblk2 V c 4 t) (iblk2 V c 5 t) (iblk2 V c 6 t) u q

/-! ## The z2 array -/

/-- What tile t writes back to z2 is its block of the closed form. -/
theorem r2_flushed7 (c : Dev nD) (t : Fin cfg2.N) :
    (dat2 V c).flushed 7 t = ((cfg2.win 7).blk t).view.read (Elt Ideal) (r2_Z V c) := by
  show (cfg2.win 7).cut (grid2.coords t) ((dat2 V c).after 7 t) = _
  rw [after2_7]
  funext j
  have hj0 : (j 0).val < 2000 := (j 0).isLt
  have hj1 : (j 1).val < 300 := (j 1).isLt
  -- the block's entry j, by coordinates
  have hx : (cfg2.win 7).xinj (grid2.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg2.win 7).blk t).view.emb j : S20000x300.Idx)
      = ix2 (rowOf (r2_tile t) ⟨(j 0).val, hj0⟩) (⟨(j 1).val, hj1⟩ : Fin 300) := by
    obtain ⟨-, -, -, -, -, -, -, -, -, -, -, -, -, -, e0, e1, -⟩ := r2_idx t
    funext a; apply Fin.ext
    match a with
    | ⟨0, _⟩ => show win2_7.index t (0 : Fin 2) * 2000 + 1 * (j 0).val = t.val * 2000 + (j 0).val; rw [e0]; omega
    | ⟨1, _⟩ => show win2_7.index t (1 : Fin 2) * 300 + 1 * (j 1).val = (j 1).val; rw [e1]; omega
  exact ((r2_out7 V c t _).trans (congrArg (r2_P V c t) hx)).trans
    ((r2_tile_apply V c t ⟨(j 0).val, hj0⟩ ⟨(j 1).val, hj1⟩).trans (congrArg (r2_Z V c) he).symm)

/-- Membership in tile t's block of z2, by coordinates. -/
theorem r2_mem_blk7 (t : Fin cfg2.N) (i : S20000x300.Idx) :
    i ∈ ((cfg2.win 7).blk t).view.set ↔ ∀ a : Fin 2, win2_7.index t a * S2000x300.size a ≤ (i a).val
      ∧ (i a).val < win2_7.index t a * S2000x300.size a + S2000x300.size a := by
  show i ∈ ((View.whole main_v67_0).slice (win2_7.rect t)).set ↔ _
  rw [View.set_slice_whole, Rect.mem_set_unit]
  exact Iff.rfl

/-- Every entry of z2 is in the block of the tile its row belongs to. -/
theorem r2_cover7 (i : S20000x300.Idx) :
    ∃ t : Fin cfg2.N, (cfg2.win 7).flush t = true ∧ i ∈ ((cfg2.win 7).blk t).view.set := by
  have hN : cfg2.N = 10 := N_2
  have h0 : (i 0).val < 20000 := (i 0).isLt
  have h1 : (i 1).val < 300 := (i 1).isLt
  have ht : (i 0).val / 2000 < cfg2.N := by rw [hN]; omega
  obtain ⟨-, -, -, -, -, -, -, -, -, -, -, -, -, -, e0, e1, -⟩ := r2_idx ⟨(i 0).val / 2000, ht⟩
  refine ⟨⟨(i 0).val / 2000, ht⟩, flush2_7 _, ?_⟩
  rw [r2_mem_blk7]
  intro a
  match a with
  | ⟨0, _⟩ =>
    show win2_7.index ⟨(i 0).val / 2000, ht⟩ (0 : Fin 2) * 2000 ≤ (i 0).val
      ∧ (i 0).val < win2_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_7.index ⟨(i 0).val / 2000, ht⟩ (1 : Fin 2) * 300 ≤ (i 1).val
      ∧ (i 1).val < win2_7.index ⟨(i 0).val / 2000, ht⟩ (1 : Fin 2) * 300 + 300
    rw [e1]; omega

/-- THE z2 ARRAY after the region: the normalised second dense stage of the region's inputs. -/
theorem arr2_7 (c : Dev nD) :
    (dat2 (F := Ideal) V c).arrAt 7 cfg2.N
      = z2Of (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)) :=
  (dat2 V c).arrAt_eq_of_cover 7 (r2_Z V c) (fun t _ => r2_flushed7 V c t) r2_cover7

/-! ## The statistics array -/

/-- One entry of what tile t writes back to the statistics: on row s of its slab, column q, the value v, provided the
    body left v there and the tile statistics of the closed form have v there. -/
theorem r2_flushed8_at (c : Dev nD) (t : Fin cfg2.N) (j : ((cfg2.win 8).xblock (grid2.coords t)).Idx) (s : Fin 2)
    (hs : (j 1).val = s.val) (hj2 : (j 2).val < 300) (v : EReal)
    (hout : ∀ u : Fin 1, out2_8 (iblk2 V c 0 t) (iblk2 V c 1 t) (iblk2 V c 2 t) (iblk2 V c 3 t) (iblk2 V c 4 t) (iblk2 V c 5 t) (iblk2 V c 6 t) (ix3 u s (⟨(j 2).val, hj2⟩ : Fin 300)) = v)
    (hstat : tileStats (r2_Z V c) (ix3 (r2_tile t) s (⟨(j 2).val, hj2⟩ : Fin 300)) = v) :
    (cfg2.win 8).cut (grid2.coords t)
        (out2_8 (iblk2 V c 0 t) (iblk2 V c 1 t) (iblk2 V c 2 t) (iblk2 V c 3 t) (iblk2 V c 4 t) (iblk2 V c 5 t) (iblk2 V c 6 t)) j
      = ((cfg2.win 8).blk t).view.read (Elt Ideal) (tileStats (r2_Z V c)) j := by
  have hj0 : (j 0).val < 1 := (j 0).isLt
  have hx : (cfg2.win 8).xinj (grid2.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg2.win 8).blk t).view.emb j : S10x2x300.Idx) = ix3 (r2_tile t) s (⟨(j 2).val, hj2⟩ : Fin 300) := by
    obtain ⟨-, -, -, -, -, -, -, -, -, -, -, -, -, -, -, -, e0, e1, e2⟩ := r2_idx t
    funext a; apply Fin.ext
    match a with
    | ⟨0, _⟩ => show win2_8.index t (0 : Fin 3) * 1 + 1 * (j 0).val = t.val; rw [e0]; omega
    | ⟨1, _⟩ => show win2_8.index t (1 : Fin 3) * 2 + 1 * (j 1).val = s.val; rw [e1]; omega
    | ⟨2, _⟩ => show win2_8.index t (2 : Fin 3) * 300 + 1 * (j 2).val = (j 2).val; rw [e2]; omega
  exact ((congrArg (out2_8 (iblk2 V c 0 t) (iblk2 V c 1 t) (iblk2 V c 2 t) (iblk2 V c 3 t) (iblk2 V c 4 t) (iblk2 V c 5 t) (iblk2 V c 6 t)) hx).trans (hout _)).trans
    (hstat.symm.trans (congrArg (tileStats (r2_Z V c)) he).symm)

/-- What tile t writes back to the statistics is its slab of the tile statistics of the closed form. -/
theorem r2_flushed8 (c : Dev nD) (t : Fin cfg2.N) :
    (dat2 V c).flushed 8 t = ((cfg2.win 8).blk t).view.read (Elt Ideal) (tileStats (r2_Z V c)) := by
  show (cfg2.win 8).cut (grid2.coords t) ((dat2 V c).after 8 t) = _
  rw [after2_8]
  funext j
  have hj1 : (j 1).val < 2 := (j 1).isLt
  have hj2 : (j 2).val < 300 := (j 2).isLt
  rcases Nat.lt_or_ge (j 1).val 1 with hs | hs
  · exact r2_flushed8_at V c t j 0 (by show (j 1).val = 0; omega) hj2 _ (fun u => (r2_out8 V c t u ⟨(j 2).val, hj2⟩).1)
      ((tileStats_zero _ (r2_tile t) ⟨(j 2).val, hj2⟩).trans
        (Finset.sum_congr rfl fun p _ => (r2_tile_apply V c t p ⟨(j 2).val, hj2⟩).symm))
  · exact r2_flushed8_at V c t j 1 (by show (j 1).val = 1; omega) hj2 _ (fun u => (r2_out8 V c t u ⟨(j 2).val, hj2⟩).2)
      ((tileStats_one _ (r2_tile t) ⟨(j 2).val, hj2⟩).trans (Finset.sum_congr rfl fun p _ =>
        (congrArg₂ (fun (a b : EReal) => a * b) (r2_tile_apply V c t p ⟨(j 2).val, hj2⟩)
          (r2_tile_apply V c t p ⟨(j 2).val, hj2⟩)).symm))

/-- Membership in tile t's slab of the statistics, by coordinates. -/
theorem r2_mem_blk8 (t : Fin cfg2.N) (i : S10x2x300.Idx) :
    i ∈ ((cfg2.win 8).blk t).view.set ↔ ∀ a : Fin 3, win2_8.index t a * S1x2x300.size a ≤ (i a).val
      ∧ (i a).val < win2_8.index t a * S1x2x300.size a + S1x2x300.size a := by
  show i ∈ ((View.whole main_v67_1).slice (win2_8.rect t)).set ↔ _
  rw [View.set_slice_whole, Rect.mem_set_unit]
  exact Iff.rfl

/-- Every entry of the statistics is in its tile's slab. -/
theorem r2_cover8 (i : S10x2x300.Idx) :
    ∃ t : Fin cfg2.N, (cfg2.win 8).flush t = true ∧ i ∈ ((cfg2.win 8).blk t).view.set := by
  have hN : cfg2.N = 10 := N_2
  have h0 : (i 0).val < 10 := (i 0).isLt
  have h1 : (i 1).val < 2 := (i 1).isLt
  have h2 : (i 2).val < 300 := (i 2).isLt
  have ht : (i 0).val < cfg2.N := by rw [hN]; exact h0
  obtain ⟨-, -, -, -, -, -, -, -, -, -, -, -, -, -, -, -, e0, e1, e2⟩ := r2_idx ⟨(i 0).val, ht⟩
  refine ⟨⟨(i 0).val, ht⟩, flush2_8 _, ?_⟩
  rw [r2_mem_blk8]
  intro a
  match a with
  | ⟨0, _⟩ =>
    show win2_8.index ⟨(i 0).val, ht⟩ (0 : Fin 3) * 1 ≤ (i 0).val ∧ (i 0).val < win2_8.index ⟨(i 0).val, ht⟩ (0 : Fin 3) * 1 + 1
    rw [e0]; show (i 0).val * 1 ≤ (i 0).val ∧ (i 0).val < (i 0).val * 1 + 1; omega
  | ⟨1, _⟩ =>
    show win2_8.index ⟨(i 0).val, ht⟩ (1 : Fin 3) * 2 ≤ (i 1).val ∧ (i 1).val < win2_8.index ⟨(i 0).val, ht⟩ (1 : Fin 3) * 2 + 2
    rw [e1]; omega
  | ⟨2, _⟩ =>
    show win2_8.index ⟨(i 0).val, ht⟩ (2 : Fin 3) * 300 ≤ (i 2).val ∧ (i 2).val < win2_8.index ⟨(i 0).val, ht⟩ (2 : Fin 3) * 300 + 300
    rw [e2]; omega

/-- THE STATISTICS ARRAY after the region: the tile statistics of the normalised second dense stage of the region's inputs. -/
theorem arr2_8 (c : Dev nD) :
    (dat2 (F := Ideal) V c).arrAt 8 cfg2.N
      = tileStats (z2Of (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))) :=
  (dat2 V c).arrAt_eq_of_cover 8 (tileStats (r2_Z V c)) (fun t _ => r2_flushed8 V c t) r2_cover8

end Cert.KernelIdeal.RVal

end
-- ==== Proof.Region3.lean ====
/-
  The normalising region in closed form. Its grid has 10 points; point t reads rows 2000t … 2000t + 1999 of the
  [20000, 300] input and the four one-row operands whole, and writes the same rows of both outputs. Every entry of a
  written block is the body's value at that entry, which depends only on the input's entry at the same place and on
  the one-row operands at the same column; so each output array, once all ten blocks are written, is the one
  function  max((z − mean) · rsqrt(var + ε) · g + be, 0)  of the arrays the region found, entry by entry. The second
  output is the first narrowed, which is the identity on extended reals.
-/
import proofs.«119086_j26585847562989_2_alg».proof.Proof.Gen.KernelIdeal.Frame
import Idealize.ShloMosaic.Lib.Pipeline.Value
import proofs.«119086_j26585847562989_2_alg».proof.Proof.ReadEncBn

-- an array's shape is found by walking the program's list of buffers up to the array; the later the region, the longer the walk
set_option maxHeartbeats 1600000

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem r3_hz : (![0, 0] : Fin 2 → Nat) = fun _ => 0 := funext fun a => by fin_cases a <;> rfl

/-- The body's first stored value at (p, q) is the closed form of its five loaded blocks there. -/
theorem r3_pay1_apply (v0 v7 v13 v17 : Vec Ideal S1x300 .f32) (v5 : Vec Ideal S2000x300 .f32) (p : Fin 2000) (q : Fin 300) :
    k3_pay1 v0 v5 v7 v13 v17 (ix2 p q) = bnReluOf v5 v7 v0 v13 v17 (ix2 p q) := by
  unfold k3_pay1
  exact bnBody_apply v5 v7 v0 v13 v17 _ _ _ p q

/-- The second stored value is the first narrowed: the same extended real. -/
theorem r3_pay2_apply (v0 v7 v13 v17 : Vec Ideal S1x300 .f32) (v5 : Vec Ideal S2000x300 .f32) (p : Fin 2000) (q : Fin 300) :
    k3_pay2 v0 v5 v7 v13 v17 (ix2 p q) = bnReluOf v5 v7 v0 v13 v17 (ix2 p q) :=
  r3_pay1_apply v0 v7 v13 v17 v5 p q

/-- One entry of a block: if the input block's entry y is the array's entry i and the two share their column, the
    body's value at y is the closed form of the array at i. -/
theorem r3_point1 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k3_pay1 x2 x0 x1 x3 x4 y = bnReluOf z x1 x2 x3 x4 i := by
  obtain ⟨p, q, rfl⟩ : ∃ (p : Fin 2000) (q : Fin 300), y = ix2 p q := ⟨y 0, y 1, eq_ix2 y⟩
  obtain ⟨a, b, rfl⟩ : ∃ (a : Fin 20000) (b : Fin 300), i = ix2 a b := ⟨i 0, i 1, eq_ix2 i⟩
  obtain rfl : b = q := Fin.ext h1
  rw [r3_pay1_apply, bnReluOf_apply, bnReluOf_apply, h0]

theorem r3_point2 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k3_pay2 x2 x0 x1 x3 x4 y = bnReluOf z x1 x2 x3 x4 i :=
  r3_point1 x0 x1 x2 x3 x4 z i y h0 h1

/-- The printed index maps over the ten points: the input and both outputs are at block (t, 0), the one-row operands
    at block (0, 0). -/
theorem r3_idx : ∀ t : Fin cfg3.N,
    win3_0.index t (0 : Fin 2) = t.val ∧ win3_0.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- A one-row operand's block is the whole one-row array, at every point. -/
theorem r3_row1 (c : Dev nD) (t : Fin cfg3.N) :
    (iblk3 V c 1 t : Vec Ideal S1x300 .f32) = (V c (Pipeline.arrRef spec3 1) : S1x300.Idx → EReal) := by
  obtain ⟨-, -, -, -, -, -, e0, e1, -⟩ := r3_idx t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 1 + 1 * (y 0).val = (y 0).val; rw [e0]; omega
  | ⟨1, _⟩ => show win3_1.index t (1 : Fin 2) * 300 + 1 * (y 1).val = (y 1).val; rw [e1]; omega
theorem r3_row2 (c : Dev nD) (t : Fin cfg3.N) :
    (iblk3 V c 2 t : Vec Ideal S1x300 .f32) = (V c (Pipeline.arrRef spec3 2) : S1x300.Idx → EReal) := by
  obtain ⟨-, -, -, -, -, -, -, -, e0, e1, -⟩ := r3_idx t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 300 + 1 * (y 1).val = (y 1).val; rw [e1]; omega
theorem r3_row3 (c : Dev nD) (t : Fin cfg3.N) :
    (iblk3 V c 3 t : Vec Ideal S1x300 .f32) = (V c (Pipeline.arrRef spec3 3) : S1x300.Idx → EReal) := by
  obtain ⟨-, -, -, -, -, -, -, -, -, -, e0, e1, -⟩ := r3_idx t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 300 + 1 * (y 1).val = (y 1).val; rw [e1]; omega
theorem r3_row4 (c : Dev nD) (t : Fin cfg3.N) :
    (iblk3 V c 4 t : Vec Ideal S1x300 .f32) = (V c (Pipeline.arrRef spec3 4) : S1x300.Idx → EReal) := by
  obtain ⟨-, -, -, -, -, -, -, -, -, -, -, -, e0, e1⟩ := r3_idx t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 300 + 1 * (y 1).val = (y 1).val; rw [e1]; omega

/-- The region's closed form of the arrays it finds. -/
abbrev r3_G (c : Dev nD) : S20000x300.Idx → EReal :=
  bnReluOf (m := 20000) (n := 300) (V c (Pipeline.arrRef spec3 0)) (V c (Pipeline.arrRef spec3 1)) (V c (Pipeline.arrRef spec3 2))
    (V c (Pipeline.arrRef spec3 3)) (V c (Pipeline.arrRef spec3 4))

/-- What point t writes back to the first output is block t of the closed form. -/
theorem r3_flushed5 (c : Dev nD) (t : Fin cfg3.N) :
    (dat3 V c).flushed 5 t = ((cfg3.win 5).blk t).view.read (Elt Ideal) (r3_G V c) := by
  show (cfg3.win 5).cut (grid3.coords t) ((dat3 V c).after 5 t) = _
  rw [after3_5]
  unfold out3_5
  rw [View.canon_unit_zero r3_hz]
  simp only [View.ld_unit_zero (S := S2000x300) r3_hz, View.ld_unit_zero (S := S1x300) r3_hz]
  rw [r3_row1, r3_row2, r3_row3, r3_row4]
  obtain ⟨a0, a1, b0, b1, -⟩ := r3_idx t
  funext j
  show k3_pay1 (V c (Pipeline.arrRef spec3 2)) (iblk3 V c 0 t) (V c (Pipeline.arrRef spec3 1)) (V c (Pipeline.arrRef spec3 3))
      (V c (Pipeline.arrRef spec3 4)) j = r3_G V c (((cfg3.win 5).blk t).view.emb j)
  refine r3_point1 (iblk3 V c 0 t) (V c (Pipeline.arrRef spec3 1)) (V c (Pipeline.arrRef spec3 2)) (V c (Pipeline.arrRef spec3 3))
    (V c (Pipeline.arrRef spec3 4)) (V c (Pipeline.arrRef spec3 0)) (((cfg3.win 5).blk t).view.emb j) j ?_ ?_
  · show V c (Pipeline.arrRef spec3 0) (((cfg3.win 0).blk t).view.emb j) = V c (Pipeline.arrRef spec3 0) (((cfg3.win 5).blk t).view.emb j)
    refine congrArg _ (funext fun a => Fin.ext ?_)
    match a with
    | ⟨0, _⟩ => show win3_0.index t (0 : Fin 2) * 2000 + 1 * (j 0).val = win3_5.index t (0 : Fin 2) * 2000 + 1 * (j 0).val; rw [a0, b0]
    | ⟨1, _⟩ => show win3_0.index t (1 : Fin 2) * 300 + 1 * (j 1).val = win3_5.index t (1 : Fin 2) * 300 + 1 * (j 1).val; rw [a1, b1]
  · show win3_5.index t (1 : Fin 2) * 300 + 1 * (j 1).val = (j 1).val
    rw [b1]; omega

/-- What point t writes back to the second output is block t of the same closed form. -/
theorem r3_flushed6 (c : Dev nD) (t : Fin cfg3.N) :
    (dat3 V c).flushed 6 t = ((cfg3.win 6).blk t).view.read (Elt Ideal) (r3_G V c) := by
  show (cfg3.win 6).cut (grid3.coords t) ((dat3 V c).after 6 t) = _
  rw [after3_6]
  unfold out3_6
  rw [View.canon_unit_zero r3_hz]
  simp only [View.ld_unit_zero (S := S2000x300) r3_hz, View.ld_unit_zero (S := S1x300) r3_hz]
  rw [r3_row1, r3_row2, r3_row3, r3_row4]
  obtain ⟨a0, a1, -, -, b0, b1, -⟩ := r3_idx t
  funext j
  show k3_pay2 (V c (Pipeline.arrRef spec3 2)) (iblk3 V c 0 t) (V c (Pipeline.arrRef spec3 1)) (V c (Pipeline.arrRef spec3 3))
      (V c (Pipeline.arrRef spec3 4)) j = r3_G V c (((cfg3.win 6).blk t).view.emb j)
  refine r3_point2 (iblk3 V c 0 t) (V c (Pipeline.arrRef spec3 1)) (V c (Pipeline.arrRef spec3 2)) (V c (Pipeline.arrRef spec3 3))
    (V c (Pipeline.arrRef spec3 4)) (V c (Pipeline.arrRef spec3 0)) (((cfg3.win 6).blk t).view.emb j) j ?_ ?_
  · show V c (Pipeline.arrRef spec3 0) (((cfg3.win 0).blk t).view.emb j) = V c (Pipeline.arrRef spec3 0) (((cfg3.win 6).blk t).view.emb j)
    refine congrArg _ (funext fun a => Fin.ext ?_)
    match a with
    | ⟨0, _⟩ => show win3_0.index t (0 : Fin 2) * 2000 + 1 * (j 0).val = win3_6.index t (0 : Fin 2) * 2000 + 1 * (j 0).val; rw [a0, b0]
    | ⟨1, _⟩ => show win3_0.index t (1 : Fin 2) * 300 + 1 * (j 1).val = win3_6.index t (1 : Fin 2) * 300 + 1 * (j 1).val; rw [a1, b1]
  · show win3_6.index t (1 : Fin 2) * 300 + 1 * (j 1).val = (j 1).val
    rw [b1]; omega

/-- An entry of the array is in point t's block of the first output iff each coordinate is in the block's range. -/
theorem r3_mem_blk5 (t : Fin cfg3.N) (i : S20000x300.Idx) :
    i ∈ ((cfg3.win 5).blk t).view.set ↔ ∀ a : Fin 2, win3_5.index t a * S2000x300.size a ≤ (i a).val ∧ (i a).val < win3_5.index t a * S2000x300.size a + S2000x300.size a := by
  show i ∈ ((View.whole main_v90_0).slice (win3_5.rect t)).set ↔ _
  rw [View.set_slice_whole, Rect.mem_set_unit]
  exact Iff.rfl
theorem r3_mem_blk6 (t : Fin cfg3.N) (i : S20000x300.Idx) :
    i ∈ ((cfg3.win 6).blk t).view.set ↔ ∀ a : Fin 2, win3_6.index t a * S2000x300.size a ≤ (i a).val ∧ (i a).val < win3_6.index t a * S2000x300.size a + S2000x300.size a := by
  show i ∈ ((View.whole main_v90_1).slice (win3_6.rect t)).set ↔ _
  rw [View.set_slice_whole, Rect.mem_set_unit]
  exact Iff.rfl

/-- Row r of the array is in the block of point r / 2000: the ten blocks cover the array. -/
theorem r3_cover5 (i : S20000x300.Idx) :
    ∃ t : Fin cfg3.N, (cfg3.win 5).flush t = true ∧ i ∈ ((cfg3.win 5).blk t).view.set := by
  have hi0 : (i 0).val < 20000 := (i 0).isLt
  have hi1 : (i 1).val < 300 := (i 1).isLt
  obtain ⟨t, ht⟩ : ∃ t : Fin cfg3.N, t.val = (i 0).val / 2000 :=
    ⟨⟨(i 0).val / 2000, by rw [show cfg3.N = 10 from N_3]; omega⟩, rfl⟩
  obtain ⟨-, -, b0, b1, -⟩ := r3_idx t
  refine ⟨t, flush3_5 t, ?_⟩
  rw [r3_mem_blk5]
  intro a
  match a with
  | ⟨0, _⟩ => show win3_5.index t (0 : Fin 2) * 2000 ≤ (i 0).val ∧ (i 0).val < win3_5.index t (0 : Fin 2) * 2000 + 2000; rw [b0, ht]; omega
  | ⟨1, _⟩ => show win3_5.index t (1 : Fin 2) * 300 ≤ (i 1).val ∧ (i 1).val < win3_5.index t (1 : Fin 2) * 300 + 300; rw [b1]; omega
theorem r3_cover6 (i : S20000x300.Idx) :
    ∃ t : Fin cfg3.N, (cfg3.win 6).flush t = true ∧ i ∈ ((cfg3.win 6).blk t).view.set := by
  have hi0 : (i 0).val < 20000 := (i 0).isLt
  have hi1 : (i 1).val < 300 := (i 1).isLt
  obtain ⟨t, ht⟩ : ∃ t : Fin cfg3.N, t.val = (i 0).val / 2000 :=
    ⟨⟨(i 0).val / 2000, by rw [show cfg3.N = 10 from N_3]; omega⟩, rfl⟩
  obtain ⟨-, -, -, -, b0, b1, -⟩ := r3_idx t
  refine ⟨t, flush3_6 t, ?_⟩
  rw [r3_mem_blk6]
  intro a
  match a with
  | ⟨0, _⟩ => show win3_6.index t (0 : Fin 2) * 2000 ≤ (i 0).val ∧ (i 0).val < win3_6.index t (0 : Fin 2) * 2000 + 2000; rw [b0, ht]; omega
  | ⟨1, _⟩ => show win3_6.index t (1 : Fin 2) * 300 ≤ (i 1).val ∧ (i 1).val < win3_6.index t (1 : Fin 2) * 300 + 300; rw [b1]; omega

/-- THE FIRST OUTPUT after the region: the closed form of the arrays the region found. -/
theorem arr3_5 (c : Dev nD) :
    (dat3 V c).arrAt 5 cfg3.N
      = bnReluOf (m := 20000) (n := 300) (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 (r3_G V c) (fun t _ => r3_flushed5 V c t) (fun i => r3_cover5 i)

/-- THE SECOND OUTPUT after the region: the same closed form. -/
theorem arr3_6 (c : Dev nD) :
    (dat3 V c).arrAt 6 cfg3.N
      = bnReluOf (m := 20000) (n := 300) (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 6 (r3_G V c) (fun t _ => r3_flushed6 V c t) (fun i => r3_cover6 i)

end Cert.KernelIdeal.RVal

end
-- ==== Proof.KernelChainDefs.lean ====
/- One graph layer of the kernel as ONE function of the arrays it reads, at the exact extended-real values: the first
   dense stage of the scaled node rows plus the aggregated messages, its column statistics from the per-tile sums, the
   normalised second dense stage, its column statistics, and the last normalisation with its clamp at zero. -/
import proofs.«119086_j26585847562989_2_alg».proof.Proof.KernelStretchDefs
import proofs.«119086_j26585847562989_2_alg».proof.Proof.RegionLemmas
import proofs.«119086_j26585847562989_2_alg».proof.Proof.SpecEncBn

set_option maxRecDepth 16384

noncomputable section

namespace Cert.KernelIdeal.KChain

open Idealize.ShloMosaic Idealize.ShloMosaic.TcCoe

/-- One layer: from the node rows `h`, their bf16 copy `hb`, the edge embedding `ea`, the edges' endpoints and the
    layer's parameters, the node rows after the layer. -/
def kerLayer (h : FVec Ideal S20000x300 .f32) (hb : FVec Ideal S20000x300 .bf16) (ea : FVec Ideal S320000x300 .bf16)
    (src dst : IVec S320000 32) (scale : FVec Ideal S1x300 .f32) (W1 : FVec Ideal S300x300 .f32)
    (b1 g1 be1 : FVec Ideal S300 .f32) (W2 : FVec Ideal S300x300 .f32) (b2 g2 be2 : FVec Ideal S300 .f32) :
    FVec Ideal S20000x300 .f32 :=
  let z1 := RVal.z1Of h (KStretch.aggregate (F := Ideal) hb ea src dst) scale W1 (KStretch.rowOf (F := Ideal) b1)
  let p1 := RVal.tileStats z1
  let z2 := RVal.z2Of z1 (KStretch.rowOf (F := Ideal) (KStretch.bnMean (F := Ideal) p1))
    (KStretch.rowOf (F := Ideal) (KStretch.bnVar (F := Ideal) p1)) (KStretch.rowOf (F := Ideal) g1)
    (KStretch.rowOf (F := Ideal) be1) W2 (KStretch.rowOf (F := Ideal) b2)
  let p2 := RVal.tileStats z2
  RVal.bnReluOf z2 (KStretch.rowOf (F := Ideal) (KStretch.bnMean (F := Ideal) p2))
    (KStretch.rowOf (F := Ideal) (KStretch.bnVar (F := Ideal) p2)) (KStretch.rowOf (F := Ideal) g2)
    (KStretch.rowOf (F := Ideal) be2)

end Cert.KernelIdeal.KChain

end
-- ==== Proof.KernelChainRefs.lean ====
/- The buffers every layer of the kernel leaves as it finds them: the edge embedding, the edges' endpoints, and the twenty
   argument arrays. -/
import proofs.«119086_j26585847562989_2_alg».proof.Proof.Gen.KernelIdeal

namespace Cert.KernelIdeal.KChain

open Idealize.ShloMosaic

/-- The edge embedding, the two endpoint vectors and the argument arrays. -/
def keptRefs : List (Ref sig .tc) :=
  [main_v13, main_v1, main_v3, main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The argument arrays the layers and the readout read: the graph numbers, and the stacked parameters. -/
def paramRefs : List (Ref sig .tc) :=
  [main_arg2, main_arg7, main_arg8, main_arg9, main_arg10, main_arg11, main_arg12, main_arg13, main_arg14, main_arg15, main_arg16, main_arg17, main_arg18, main_arg19]

theorem paramRefs_sub : ∀ b ∈ paramRefs, b ∈ keptRefs := by decide

end Cert.KernelIdeal.KChain
-- ==== Proof.KernelChainL0.lean ====
/- Layer 0 of the kernel, from the buffers as the layer finds them to the buffers as it leaves them, at the exact
   extended-real values: the three host stretches and the three kernels of the layer composed. Whatever the node rows,
   their bf16 copy, the edge embedding, the edges' endpoints and the stacked parameters are where the layer begins, the
   node rows the layer leaves are ONE function (`kerLayer`) of them; what the layer does not write it keeps. -/
import proofs.«119086_j26585847562989_2_alg».proof.Proof.Gen.KernelIdeal.Frame
import Idealize.ShloMosaic.PureOps.Ideal
import proofs.«119086_j26585847562989_2_alg».proof.Proof.KernelStretch1
import proofs.«119086_j26585847562989_2_alg».proof.Proof.KernelStretch2
import proofs.«119086_j26585847562989_2_alg».proof.Proof.KernelStretch3
import proofs.«119086_j26585847562989_2_alg».proof.Proof.Region1
import proofs.«119086_j26585847562989_2_alg».proof.Proof.Region2
import proofs.«119086_j26585847562989_2_alg».proof.Proof.Region3
import proofs.«119086_j26585847562989_2_alg».proof.Proof.KernelChainDefs
import proofs.«119086_j26585847562989_2_alg».proof.Proof.KernelChainRefs

set_option maxRecDepth 16384
set_option maxHeartbeats 2000000

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (ρ : Dev nD → PrngReg) (c : Dev nD)

/-! ## What the layer keeps -/

/-- Through the first stretch and the first kernel. -/
theorem keep0_a (b : Ref sig .tc) (h1 : b ∉ writes1) (a1 : ∀ w, Pipeline.arrRef spec1 w ≠ b) :
    W4 (F := Ideal) m ρ c (Proc.devRef .tc b) = W2 m ρ c (Proc.devRef .tc b) :=
  (W4_of_ne m ρ c b a1).trans (st1_keep (W2 m ρ c) b h1)

/-- Through the first two stretches and the first two kernels. -/
theorem keep0_b (b : Ref sig .tc) (h1 : b ∉ writes1) (h2 : b ∉ writes2)
    (a1 : ∀ w, Pipeline.arrRef spec1 w ≠ b) (a2 : ∀ w, Pipeline.arrRef spec2 w ≠ b) :
    W6 (F := Ideal) m ρ c (Proc.devRef .tc b) = W2 m ρ c (Proc.devRef .tc b) :=
  (W6_of_ne m ρ c b a2).trans ((st2_keep (W4 m ρ c) b h2).trans (keep0_a m ρ c b h1 a1))

/-- Through the whole layer. -/
theorem keep0 (b : Ref sig .tc) (h1 : b ∉ writes1) (h2 : b ∉ writes2) (h3 : b ∉ writes3)
    (a1 : ∀ w, Pipeline.arrRef spec1 w ≠ b) (a2 : ∀ w, Pipeline.arrRef spec2 w ≠ b)
    (a3 : ∀ w, Pipeline.arrRef spec3 w ≠ b) :
    W8 (F := Ideal) m ρ c (Proc.devRef .tc b) = W2 m ρ c (Proc.devRef .tc b) :=
  (W8_of_ne m ρ c b a3).trans ((st3_keep (W6 m ρ c) b h3).trans (keep0_b m ρ c b h1 h2 a1 a2))

/-- The edge embedding, the endpoints and the argument arrays are after the layer as before it. -/
theorem l0_keeps (b : Ref sig .tc) (hb : b ∈ keptRefs) : W8 (F := Ideal) m ρ c (Proc.devRef .tc b) = W2 m ρ c (Proc.devRef .tc b) := by
  simp only [keptRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl
  all_goals exact keep0 m ρ c _ (by decide) (by decide) (by decide) (by decide) (by decide) (by decide)

/-! ## The three kernels' outputs, each over whatever the buffers hold where its stage begins -/

/-- The first dense stage. -/
theorem l0_z1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W2 (F := Ideal) m ρ c (Proc.devRef .tc main_v10) = H) (hHb : W2 (F := Ideal) m ρ c (Proc.devRef .tc main_v11) = Hb) (hEa : W2 (F := Ideal) m ρ c (Proc.devRef .tc main_v13) = Ea)
    (hSr : W2 (F := Ideal) m ρ c (Proc.devRef .tc main_v1) = Sr) (hDs : W2 (F := Ideal) m ρ c (Proc.devRef .tc main_v3) = Ds) (h7 : W2 (F := Ideal) m ρ c (Proc.devRef .tc main_arg7) = a7) (h8 : W2 (F := Ideal) m ρ c (Proc.devRef .tc main_arg8) = a8)
    (h9 : W2 (F := Ideal) m ρ c (Proc.devRef .tc main_arg9) = a9) :
    W4 (F := Ideal) m ρ c (Proc.devRef .tc main_v39_0)
    = RVal.z1Of H (aggregate (F := Ideal) Hb Ea Sr Ds) (scaleRow (F := Ideal) a7 ![0] slices_S5_S1_0) (layerMat (F := Ideal) a8 ![0, 0, 0] slices_S5x300x300_S1x300x300_0_0_0)
        (rowOf (F := Ideal) (layerVec (F := Ideal) a9 ![0, 0] slices_S5x300_S1x300_0_0)) := by
  subst hH hHb hEa hSr hDs h7 h8 h9
  have e0 : V3 (F := Ideal) m ρ c (Pipeline.arrRef spec1 0) = W2 m ρ c (Proc.devRef .tc main_v10) := st1_keep (W2 m ρ c) main_v10 (by decide)
  exact ((W4_arr m ρ c 5).trans (RVal.arr1_5 (V3 m ρ) c)).trans
    (congr (congr (congr (congr (congrArg RVal.z1Of e0) (st1_v28 (W2 m ρ c))) (st1_v33 (W2 m ρ c)))
      (st1_v35 (W2 m ρ c))) (st1_v38 (W2 m ρ c)))

/-- Its per-tile column sums and sums of squares. -/
theorem l0_p1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W2 (F := Ideal) m ρ c (Proc.devRef .tc main_v10) = H) (hHb : W2 (F := Ideal) m ρ c (Proc.devRef .tc main_v11) = Hb) (hEa : W2 (F := Ideal) m ρ c (Proc.devRef .tc main_v13) = Ea)
    (hSr : W2 (F := Ideal) m ρ c (Proc.devRef .tc main_v1) = Sr) (hDs : W2 (F := Ideal) m ρ c (Proc.devRef .tc main_v3) = Ds) (h7 : W2 (F := Ideal) m ρ c (Proc.devRef .tc main_arg7) = a7) (h8 : W2 (F := Ideal) m ρ c (Proc.devRef .tc main_arg8) = a8)
    (h9 : W2 (F := Ideal) m ρ c (Proc.devRef .tc main_arg9) = a9) :
    W4 (F := Ideal) m ρ c (Proc.devRef .tc main_v39_1)
    = RVal.tileStats (RVal.z1Of H (aggregate (F := Ideal) Hb Ea Sr Ds) (scaleRow (F := Ideal) a7 ![0] slices_S5_S1_0) (layerMat (F := Ideal) a8 ![0, 0, 0] slices_S5x300x300_S1x300x300_0_0_0)
        (rowOf (F := Ideal) (layerVec (F := Ideal) a9 ![0, 0] slices_S5x300_S1x300_0_0))) :=
  (W4_arr m ρ c 6).trans ((RVal.arr1_6 (V3 m ρ) c).trans
    (congrArg RVal.tileStats ((((W4_arr m ρ c 5).trans (RVal.arr1_5 (V3 m ρ) c)).symm).trans
      (l0_z1 m ρ c hH hHb hEa hSr hDs h7 h8 h9))))

/-- The normalised second dense stage. -/
theorem l0_z2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W4 (F := Ideal) m ρ c (Proc.devRef .tc main_v39_0) = Z1) (hP1 : W4 (F := Ideal) m ρ c (Proc.devRef .tc main_v39_1) = P1)
    (h10 : W4 (F := Ideal) m ρ c (Proc.devRef .tc main_arg10) = a10) (h11 : W4 (F := Ideal) m ρ c (Proc.devRef .tc main_arg11) = a11) (h12 : W4 (F := Ideal) m ρ c (Proc.devRef .tc main_arg12) = a12)
    (h13 : W4 (F := Ideal) m ρ c (Proc.devRef .tc main_arg13) = a13) :
    W6 (F := Ideal) m ρ c (Proc.devRef .tc main_v67_0)
    = RVal.z2Of Z1 (rowOf (F := Ideal) (bnMean (F := Ideal) P1)) (rowOf (F := Ideal) (bnVar (F := Ideal) P1))
        (rowOf (F := Ideal) (layerVec (F := Ideal) a10 ![0, 0] slices_S5x300_S1x300_0_0)) (rowOf (F := Ideal) (layerVec (F := Ideal) a11 ![0, 0] slices_S5x300_S1x300_0_0))
        (layerMat (F := Ideal) a12 ![0, 0, 0] slices_S5x300x300_S1x300x300_0_0_0) (rowOf (F := Ideal) (layerVec (F := Ideal) a13 ![0, 0] slices_S5x300_S1x300_0_0)) := by
  subst hZ1 hP1 h10 h11 h12 h13
  have e0 : V5 (F := Ideal) m ρ c (Pipeline.arrRef spec2 0) = W4 m ρ c (Proc.devRef .tc main_v39_0) := st2_keep (W4 m ρ c) main_v39_0 (by decide)
  exact ((W6_arr m ρ c 7).trans (RVal.arr2_7 (V5 m ρ) c)).trans
    (congr (congr (congr (congr (congr (congr (congrArg RVal.z2Of e0) (st2_v62 (W4 m ρ c))) (st2_v63 (W4 m ρ c)))
      (st2_v64 (W4 m ρ c))) (st2_v65 (W4 m ρ c))) (st2_v59 (W4 m ρ c))) (st2_v66 (W4 m ρ c)))

/-- Its per-tile column sums and sums of squares. -/
theorem l0_p2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W4 (F := Ideal) m ρ c (Proc.devRef .tc main_v39_0) = Z1) (hP1 : W4 (F := Ideal) m ρ c (Proc.devRef .tc main_v39_1) = P1)
    (h10 : W4 (F := Ideal) m ρ c (Proc.devRef .tc main_arg10) = a10) (h11 : W4 (F := Ideal) m ρ c (Proc.devRef .tc main_arg11) = a11) (h12 : W4 (F := Ideal) m ρ c (Proc.devRef .tc main_arg12) = a12)
    (h13 : W4 (F := Ideal) m ρ c (Proc.devRef .tc main_arg13) = a13) :
    W6 (F := Ideal) m ρ c (Proc.devRef .tc main_v67_1)
    = RVal.tileStats (RVal.z2Of Z1 (rowOf (F := Ideal) (bnMean (F := Ideal) P1)) (rowOf (F := Ideal) (bnVar (F := Ideal) P1))
        (rowOf (F := Ideal) (layerVec (F := Ideal) a10 ![0, 0] slices_S5x300_S1x300_0_0)) (rowOf (F := Ideal) (layerVec (F := Ideal) a11 ![0, 0] slices_S5x300_S1x300_0_0))
        (layerMat (F := Ideal) a12 ![0, 0, 0] slices_S5x300x300_S1x300x300_0_0_0) (rowOf (F := Ideal) (layerVec (F := Ideal) a13 ![0, 0] slices_S5x300_S1x300_0_0))) :=
  (W6_arr m ρ c 8).trans ((RVal.arr2_8 (V5 m ρ) c).trans
    (congrArg RVal.tileStats ((((W6_arr m ρ c 7).trans (RVal.arr2_7 (V5 m ρ) c)).symm).trans
      (l0_z2 m ρ c hZ1 hP1 h10 h11 h12 h13))))

/-- The last normalisation and clamp: the node rows. -/
theorem l0_out0 {Z2 : FVec Ideal S20000x300 .f32} {P2 : FVec Ideal S10x2x300 .f32} {a14 a15 : FVec Ideal S5x300 .f32}
    (hZ2 : W6 (F := Ideal) m ρ c (Proc.devRef .tc main_v67_0) = Z2) (hP2 : W6 (F := Ideal) m ρ c (Proc.devRef .tc main_v67_1) = P2)
    (h14 : W6 (F := Ideal) m ρ c (Proc.devRef .tc main_arg14) = a14) (h15 : W6 (F := Ideal) m ρ c (Proc.devRef .tc main_arg15) = a15) :
    W8 (F := Ideal) m ρ c (Proc.devRef .tc main_v90_0)
    = RVal.bnReluOf (m := 20000) (n := 300) Z2 (rowOf (F := Ideal) (bnMean (F := Ideal) P2))
        (rowOf (F := Ideal) (bnVar (F := Ideal) P2)) (rowOf (F := Ideal) (layerVec (F := Ideal) a14 ![0, 0] slices_S5x300_S1x300_0_0))
        (rowOf (F := Ideal) (layerVec (F := Ideal) a15 ![0, 0] slices_S5x300_S1x300_0_0)) := by
  subst hZ2 hP2 h14 h15
  have e0 : V7 (F := Ideal) m ρ c (Pipeline.arrRef spec3 0) = W6 m ρ c (Proc.devRef .tc main_v67_0) := st3_keep (W6 m ρ c) main_v67_0 (by decide)
  exact ((W8_arr m ρ c 5).trans (RVal.arr3_5 (V7 m ρ) c)).trans
    (congr (congr (congr (congr (congrArg (RVal.bnReluOf (m := 20000) (n := 300)) e0) (st3_v86 (W6 m ρ c))) (st3_v87 (W6 m ρ c)))
      (st3_v88 (W6 m ρ c))) (st3_v89 (W6 m ρ c)))

/-- The same for the copy in the bf16-typed buffer. -/
theorem l0_out1 {Z2 : FVec Ideal S20000x300 .f32} {P2 : FVec Ideal S10x2x300 .f32} {a14 a15 : FVec Ideal S5x300 .f32}
    (hZ2 : W6 (F := Ideal) m ρ c (Proc.devRef .tc main_v67_0) = Z2) (hP2 : W6 (F := Ideal) m ρ c (Proc.devRef .tc main_v67_1) = P2)
    (h14 : W6 (F := Ideal) m ρ c (Proc.devRef .tc main_arg14) = a14) (h15 : W6 (F := Ideal) m ρ c (Proc.devRef .tc main_arg15) = a15) :
    W8 (F := Ideal) m ρ c (Proc.devRef .tc main_v90_1)
    = RVal.bnReluOf (m := 20000) (n := 300) Z2 (rowOf (F := Ideal) (bnMean (F := Ideal) P2))
        (rowOf (F := Ideal) (bnVar (F := Ideal) P2)) (rowOf (F := Ideal) (layerVec (F := Ideal) a14 ![0, 0] slices_S5x300_S1x300_0_0))
        (rowOf (F := Ideal) (layerVec (F := Ideal) a15 ![0, 0] slices_S5x300_S1x300_0_0)) := by
  subst hZ2 hP2 h14 h15
  have e0 : V7 (F := Ideal) m ρ c (Pipeline.arrRef spec3 0) = W6 m ρ c (Proc.devRef .tc main_v67_0) := st3_keep (W6 m ρ c) main_v67_0 (by decide)
  exact ((W8_arr m ρ c 6).trans (RVal.arr3_6 (V7 m ρ) c)).trans
    (congr (congr (congr (congr (congrArg (RVal.bnReluOf (m := 20000) (n := 300)) e0) (st3_v86 (W6 m ρ c))) (st3_v87 (W6 m ρ c)))
      (st3_v88 (W6 m ρ c))) (st3_v89 (W6 m ρ c)))

/-! ## The layer as one function of what the buffers hold where it begins -/

/-- The node rows the layer leaves. -/
theorem l0_h {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W2 (F := Ideal) m ρ c (Proc.devRef .tc main_v10) = H) (hHb : W2 (F := Ideal) m ρ c (Proc.devRef .tc main_v11) = Hb) (hEa : W2 (F := Ideal) m ρ c (Proc.devRef .tc main_v13) = Ea)
    (hSr : W2 (F := Ideal) m ρ c (Proc.devRef .tc main_v1) = Sr) (hDs : W2 (F := Ideal) m ρ c (Proc.devRef .tc main_v3) = Ds) (h7 : W2 (F := Ideal) m ρ c (Proc.devRef .tc main_arg7) = a7) (h8 : W2 (F := Ideal) m ρ c (Proc.devRef .tc main_arg8) = a8)
    (h9 : W2 (F := Ideal) m ρ c (Proc.devRef .tc main_arg9) = a9)
    (h10 : W2 (F := Ideal) m ρ c (Proc.devRef .tc main_arg10) = a10) (h11 : W2 (F := Ideal) m ρ c (Proc.devRef .tc main_arg11) = a11) (h12 : W2 (F := Ideal) m ρ c (Proc.devRef .tc main_arg12) = a12)
    (h13 : W2 (F := Ideal) m ρ c (Proc.devRef .tc main_arg13) = a13) (h14 : W2 (F := Ideal) m ρ c (Proc.devRef .tc main_arg14) = a14) (h15 : W2 (F := Ideal) m ρ c (Proc.devRef .tc main_arg15) = a15) :
    W8 (F := Ideal) m ρ c (Proc.devRef .tc main_v90_0)
    = kerLayer H Hb Ea Sr Ds (scaleRow (F := Ideal) a7 ![0] slices_S5_S1_0) (layerMat (F := Ideal) a8 ![0, 0, 0] slices_S5x300x300_S1x300x300_0_0_0)
        (layerVec (F := Ideal) a9 ![0, 0] slices_S5x300_S1x300_0_0) (layerVec (F := Ideal) a10 ![0, 0] slices_S5x300_S1x300_0_0) (layerVec (F := Ideal) a11 ![0, 0] slices_S5x300_S1x300_0_0)
        (layerMat (F := Ideal) a12 ![0, 0, 0] slices_S5x300x300_S1x300x300_0_0_0) (layerVec (F := Ideal) a13 ![0, 0] slices_S5x300_S1x300_0_0) (layerVec (F := Ideal) a14 ![0, 0] slices_S5x300_S1x300_0_0)
        (layerVec (F := Ideal) a15 ![0, 0] slices_S5x300_S1x300_0_0) :=
  l0_out0 m ρ c
    (l0_z2 m ρ c (l0_z1 m ρ c hH hHb hEa hSr hDs h7 h8 h9) (l0_p1 m ρ c hH hHb hEa hSr hDs h7 h8 h9)
      ((keep0_a m ρ c main_arg10 (by decide) (by decide)).trans h10) ((keep0_a m ρ c main_arg11 (by decide) (by decide)).trans h11)
      ((keep0_a m ρ c main_arg12 (by decide) (by decide)).trans h12) ((keep0_a m ρ c main_arg13 (by decide) (by decide)).trans h13))
    (l0_p2 m ρ c (l0_z1 m ρ c hH hHb hEa hSr hDs h7 h8 h9) (l0_p1 m ρ c hH hHb hEa hSr hDs h7 h8 h9)
      ((keep0_a m ρ c main_arg10 (by decide) (by decide)).trans h10) ((keep0_a m ρ c main_arg11 (by decide) (by decide)).trans h11)
      ((keep0_a m ρ c main_arg12 (by decide) (by decide)).trans h12) ((keep0_a m ρ c main_arg13 (by decide) (by decide)).trans h13))
    ((keep0_b m ρ c main_arg14 (by decide) (by decide) (by decide) (by decide)).trans h14)
    ((keep0_b m ρ c main_arg15 (by decide) (by decide) (by decide) (by decide)).trans h15)

/-- Their copy in the bf16-typed buffer: the same array. -/
theorem l0_hb {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W2 (F := Ideal) m ρ c (Proc.devRef .tc main_v10) = H) (hHb : W2 (F := Ideal) m ρ c (Proc.devRef .tc main_v11) = Hb) (hEa : W2 (F := Ideal) m ρ c (Proc.devRef .tc main_v13) = Ea)
    (hSr : W2 (F := Ideal) m ρ c (Proc.devRef .tc main_v1) = Sr) (hDs : W2 (F := Ideal) m ρ c (Proc.devRef .tc main_v3) = Ds) (h7 : W2 (F := Ideal) m ρ c (Proc.devRef .tc main_arg7) = a7) (h8 : W2 (F := Ideal) m ρ c (Proc.devRef .tc main_arg8) = a8)
    (h9 : W2 (F := Ideal) m ρ c (Proc.devRef .tc main_arg9) = a9)
    (h10 : W2 (F := Ideal) m ρ c (Proc.devRef .tc main_arg10) = a10) (h11 : W2 (F := Ideal) m ρ c (Proc.devRef .tc main_arg11) = a11) (h12 : W2 (F := Ideal) m ρ c (Proc.devRef .tc main_arg12) = a12)
    (h13 : W2 (F := Ideal) m ρ c (Proc.devRef .tc main_arg13) = a13) (h14 : W2 (F := Ideal) m ρ c (Proc.devRef .tc main_arg14) = a14) (h15 : W2 (F := Ideal) m ρ c (Proc.devRef .tc main_arg15) = a15) :
    W8 (F := Ideal) m ρ c (Proc.devRef .tc main_v90_1)
    = kerLayer H Hb Ea Sr Ds (scaleRow (F := Ideal) a7 ![0] slices_S5_S1_0) (layerMat (F := Ideal) a8 ![0, 0, 0] slices_S5x300x300_S1x300x300_0_0_0)
        (layerVec (F := Ideal) a9 ![0, 0] slices_S5x300_S1x300_0_0) (layerVec (F := Ideal) a10 ![0, 0] slices_S5x300_S1x300_0_0) (layerVec (F := Ideal) a11 ![0, 0] slices_S5x300_S1x300_0_0)
        (layerMat (F := Ideal) a12 ![0, 0, 0] slices_S5x300x300_S1x300x300_0_0_0) (layerVec (F := Ideal) a13 ![0, 0] slices_S5x300_S1x300_0_0) (layerVec (F := Ideal) a14 ![0, 0] slices_S5x300_S1x300_0_0)
        (layerVec (F := Ideal) a15 ![0, 0] slices_S5x300_S1x300_0_0) :=
  l0_out1 m ρ c
    (l0_z2 m ρ c (l0_z1 m ρ c hH hHb hEa hSr hDs h7 h8 h9) (l0_p1 m ρ c hH hHb hEa hSr hDs h7 h8 h9)
      ((keep0_a m ρ c main_arg10 (by decide) (by decide)).trans h10) ((keep0_a m ρ c main_arg11 (by decide) (by decide)).trans h11)
      ((keep0_a m ρ c main_arg12 (by decide) (by decide)).trans h12) ((keep0_a m ρ c main_arg13 (by decide) (by decide)).trans h13))
    (l0_p2 m ρ c (l0_z1 m ρ c hH hHb hEa hSr hDs h7 h8 h9) (l0_p1 m ρ c hH hHb hEa hSr hDs h7 h8 h9)
      ((keep0_a m ρ c main_arg10 (by decide) (by decide)).trans h10) ((keep0_a m ρ c main_arg11 (by decide) (by decide)).trans h11)
      ((keep0_a m ρ c main_arg12 (by decide) (by decide)).trans h12) ((keep0_a m ρ c main_arg13 (by decide) (by decide)).trans h13))
    ((keep0_b m ρ c main_arg14 (by decide) (by decide) (by decide) (by decide)).trans h14)
    ((keep0_b m ρ c main_arg15 (by decide) (by decide) (by decide) (by decide)).trans h15)

end Cert.KernelIdeal.KChain

end
-- ==== Proof.KernelStretch4.lean ====
/- The host stretch between the previous layer's last kernel and the first dense kernel of layer 1 (thirty operations), read from ANY
   contents `W` of the buffers: what it leaves in each buffer that later code reads. It gathers the bf16 node rows at
   the edge sources, adds the edge embedding, clamps at zero, scatter-adds the messages into their destination rows
   (the aggregate), and lays out the layer's scale row 1 + eps, its first weight matrix and its first bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The aggregate of the messages. -/
theorem st4_v105 (W : Valuation τ sig (Elt F)) :
    StableHlo.after hostOps4 W (Proc.devRef .tc main_v105)
      = aggregate (W (Proc.devRef .tc main_v90_1)) (W (Proc.devRef .tc main_v13)) (W (Proc.devRef .tc main_v1)) (W (Proc.devRef .tc main_v3)) := by
  simp only [hostOps4]; after_results_simp; rfl

/-- The scale row 1 + eps of the layer. -/
theorem st4_v110 (W : Valuation τ sig (Elt F)) :
    StableHlo.after hostOps4 W (Proc.devRef .tc main_v110)
      = scaleRow (W (Proc.devRef .tc main_arg7)) ![1] slices_S5_S1_1 := by
  simp only [hostOps4]; after_results; rfl

/-- The layer's first weight matrix. -/
theorem st4_v112 (W : Valuation τ sig (Elt F)) :
    StableHlo.after hostOps4 W (Proc.devRef .tc main_v112)
      = layerMat (W (Proc.devRef .tc main_arg8)) ![1, 0, 0] slices_S5x300x300_S1x300x300_1_0_0 := by
  simp only [hostOps4]; after_results; rfl

/-- The layer's first bias, as one row. -/
theorem st4_v115 (W : Valuation τ sig (Elt F)) :
    StableHlo.after hostOps4 W (Proc.devRef .tc main_v115)
      = rowOf (layerVec (W (Proc.devRef .tc main_arg9)) ![1, 0] slices_S5x300_S1x300_1_0) := by
  simp only [hostOps4]; after_results; rfl

/-- The references the stretch writes, in order. -/
def writes4 : List (Ref sig .tc) :=
  [main_c_15, main_v91, main_v92, main_c_16, main_v93, main_v94, main_v95, main_v96, main_v97, main_v98, main_v99, main_v100, main_cst_17, main_v101, main_v102, main_cst_18, main_v103, main_v104, main_v105, main_v106, main_v107, main_cst_19, main_v108, main_v109, main_v110, main_v111, main_v112, main_v113, main_v114, main_v115]

/-- A buffer the stretch does not write keeps its contents. -/
theorem st4_keep (W : Valuation τ sig (Elt F)) (r : Ref sig .tc) (hr : r ∉ writes4) :
    StableHlo.after hostOps4 W (Proc.devRef .tc r) = W (Proc.devRef .tc r) :=
  StableHlo.after_of_writes_sub hostOps4 W (by
    simp only [hostOps4, writes4, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch5.lean ====
/- The host stretch between the two dense kernels of layer 1 (thirty-two operations), read from ANY contents `W` of
   the buffers: what it leaves in each buffer that later code reads. From the first dense kernel's per-tile column sums
   and sums of squares it forms the column means and the clamped column variances, as rows, and lays out the first
   normalisation's scale and shift rows, the layer's second weight matrix and its second bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st5_v139 (W : Valuation τ sig (Elt F)) :
    StableHlo.after hostOps5 W (Proc.devRef .tc main_v139)
      = rowOf (bnMean (W (Proc.devRef .tc main_v116_1))) := by
  simp only [hostOps5]; after_results; rfl

/-- The clamped column variances, as one row. -/
theorem st5_v140 (W : Valuation τ sig (Elt F)) :
    StableHlo.after hostOps5 W (Proc.devRef .tc main_v140)
      = rowOf (bnVar (W (Proc.devRef .tc main_v116_1))) := by
  simp only [hostOps5]; after_results_simp; rfl

/-- The first normalisation's scale, as one row. -/
theorem st5_v141 (W : Valuation τ sig (Elt F)) :
    StableHlo.after hostOps5 W (Proc.devRef .tc main_v141)
      = rowOf (layerVec (W (Proc.devRef .tc main_arg10)) ![1, 0] slices_S5x300_S1x300_1_0) := by
  simp only [hostOps5]; after_results; rfl

/-- The first normalisation's shift, as one row. -/
theorem st5_v142 (W : Valuation τ sig (Elt F)) :
    StableHlo.after hostOps5 W (Proc.devRef .tc main_v142)
      = rowOf (layerVec (W (Proc.devRef .tc main_arg11)) ![1, 0] slices_S5x300_S1x300_1_0) := by
  simp only [hostOps5]; after_results; rfl

/-- The layer's second weight matrix. -/
theorem st5_v136 (W : Valuation τ sig (Elt F)) :
    StableHlo.after hostOps5 W (Proc.devRef .tc main_v136)
      = layerMat (W (Proc.devRef .tc main_arg12)) ![1, 0, 0] slices_S5x300x300_S1x300x300_1_0_0 := by
  simp only [hostOps5]; after_results; rfl

/-- The layer's second bias, as one row. -/
theorem st5_v143 (W : Valuation τ sig (Elt F)) :
    StableHlo.after hostOps5 W (Proc.devRef .tc main_v143)
      = rowOf (layerVec (W (Proc.devRef .tc main_arg13)) ![1, 0] slices_S5x300_S1x300_1_0) := by
  simp only [hostOps5]; after_results; rfl

/-- The references the stretch writes, in order. -/
def writes5 : List (Ref sig .tc) :=
  [main_v117, main_v118, main_cst_20, main_v119, main_v120, main_v121, main_cst_21, main_v122, main_cst_22, main_v123, main_v124, main_cst_23, main_v125, main_v126, main_v127, main_v128, main_cst_24, main_v129, main_v130, main_v131, main_v132, main_v133, main_v134, main_v135, main_v136, main_v137, main_v138, main_v139, main_v140, main_v141, main_v142, main_v143]

/-- A buffer the stretch does not write keeps its contents. -/
theorem st5_keep (W : Valuation τ sig (Elt F)) (r : Ref sig .tc) (hr : r ∉ writes5) :
    StableHlo.after hostOps5 W (Proc.devRef .tc r) = W (Proc.devRef .tc r) :=
  StableHlo.after_of_writes_sub hostOps5 W (by
    simp only [hostOps5, writes5, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch6.lean ====
/- The host stretch between the second dense kernel and the last kernel of layer 1 (twenty-seven operations), read from
   ANY contents `W` of the buffers: what it leaves in each buffer that later code reads. From the second dense kernel's
   per-tile column sums and sums of squares it forms the column means and the clamped column variances, as rows, and lays
   out the second normalisation's scale and shift rows. Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st6_v163 (W : Valuation τ sig (Elt F)) :
    StableHlo.after hostOps6 W (Proc.devRef .tc main_v163)
      = rowOf (bnMean (W (Proc.devRef .tc main_v144_1))) := by
  simp only [hostOps6]; after_results; rfl

/-- The clamped column variances, as one row. -/
theorem st6_v164 (W : Valuation τ sig (Elt F)) :
    StableHlo.after hostOps6 W (Proc.devRef .tc main_v164)
      = rowOf (bnVar (W (Proc.devRef .tc main_v144_1))) := by
  simp only [hostOps6]; after_results_simp; rfl

/-- The second normalisation's scale, as one row. -/
theorem st6_v165 (W : Valuation τ sig (Elt F)) :
    StableHlo.after hostOps6 W (Proc.devRef .tc main_v165)
      = rowOf (layerVec (W (Proc.devRef .tc main_arg14)) ![1, 0] slices_S5x300_S1x300_1_0) := by
  simp only [hostOps6]; after_results; rfl

/-- The second normalisation's shift, as one row. -/
theorem st6_v166 (W : Valuation τ sig (Elt F)) :
    StableHlo.after hostOps6 W (Proc.devRef .tc main_v166)
      = rowOf (layerVec (W (Proc.devRef .tc main_arg15)) ![1, 0] slices_S5x300_S1x300_1_0) := by
  simp only [hostOps6]; after_results; rfl

/-- The references the stretch writes, in order. -/
def writes6 : List (Ref sig .tc) :=
  [main_v145, main_v146, main_cst_25, main_v147, main_v148, main_v149, main_cst_26, main_v150, main_cst_27, main_v151, main_v152, main_cst_28, main_v153, main_v154, main_v155, main_v156, main_cst_29, main_v157, main_v158, main_v159, main_v160, main_v161, main_v162, main_v163, main_v164, main_v165, main_v166]

/-- A buffer the stretch does not write keeps its contents. -/
theorem st6_keep (W : Valuation τ sig (Elt F)) (r : Ref sig .tc) (hr : r ∉ writes6) :
    StableHlo.after hostOps6 W (Proc.devRef .tc r) = W (Proc.devRef .tc r) :=
  StableHlo.after_of_writes_sub hostOps6 W (by
    simp only [hostOps6, writes6, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.Region4.lean ====
/-
  The first dense stage of a graph layer, tile by tile, as one array.

  The 20000 rows are processed in 10 tiles of 2000. At tile t the stage reads rows 2000·t … 2000·t + 1999 of the node
  matrix h and of the aggregated neighbours a, and the whole of the scale row s, the weights W and the bias b, and writes
  * rows 2000·t … 2000·t + 1999 of z1, where z1(n, q) = ∑ k, (s(k)·h(n, k) + a(n, k))·W(k, q) + b(q), and
  * slab t of the statistics: row 0 the sums over the tile's rows of each column of z1, row 1 the sums of their squares.
  Each entry written depends only on the row it belongs to, so the tiles together hold z1 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of h and a and the whole of s, W, b. -/
theorem r4_pay1_apply (x2 : Vec Ideal S1x300 .f32) (x0 x1 : Vec Ideal S2000x300 .f32) (x3 : Vec Ideal S300x300 .f32)
    (x4 : Vec Ideal S1x300 .f32) (p : Fin 2000) (q : Fin 300) :
    k4_pay1 x2 x0 x1 x3 x4 (ix2 p q)
      = (∑ k : Fin 300, (x2 (ix2 (0 : Fin 1) k) * x0 (ix2 p k) + x1 (ix2 p k)) * x3 (ix2 k q)) + x4 (ix2 (0 : Fin 1) q) :=
  dense_apply dot_S2000x300_S300x300_S2000x300_1_0_0_1_n_n rfl x2 x0 x1 x3 x4
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r4_pay2_apply (x2 : Vec Ideal S1x300 .f32) (x0 x1 : Vec Ideal S2000x300 .f32) (x3 : Vec Ideal S300x300 .f32)
    (x4 : Vec Ideal S1x300 .f32) (u s : Fin 1) (q : Fin 300) :
    k4_pay2 x2 x0 x1 x3 x4 (ix3 u s q) = ∑ p : Fin 2000, k4_pay1 x2 x0 x1 x3 x4 (ix2 p q) := by
  unfold k4_pay2
  exact (statsRow_apply (n := 300)
      (multiReduction .add [0] S300 (k4_pay1 x2 x0 x1 x3 x4) 0x00000000#32 reduces_S2000x300_S300 (.inl rfl) rfl)
      shapeCasts_S300_S1x300 shapeCasts_S1x300_S1x1x300 u s q).trans
    (colsum_apply (m := 2000) (n := 300) (k4_pay1 x2 x0 x1 x3 x4) reduces_S2000x300_S300 (.inl rfl) rfl q)

/-- The tile's column sums of squares, at (u, s, q). -/
theorem r4_pay3_apply (x2 : Vec Ideal S1x300 .f32) (x0 x1 : Vec Ideal S2000x300 .f32) (x3 : Vec Ideal S300x300 .f32)
    (x4 : Vec Ideal S1x300 .f32) (u s : Fin 1) (q : Fin 300) :
    k4_pay3 x2 x0 x1 x3 x4 (ix3 u s q)
      = ∑ p : Fin 2000, k4_pay1 x2 x0 x1 x3 x4 (ix2 p q) * k4_pay1 x2 x0 x1 x3 x4 (ix2 p q) := by
  unfold k4_pay3
  exact (statsRow_apply (n := 300)
      (multiReduction .add [0] S300 (mulf (k4_pay1 x2 x0 x1 x3 x4) (k4_pay1 x2 x0 x1 x3 x4)) 0x00000000#32
        reduces_S2000x300_S300 (.inl rfl) rfl)
      shapeCasts_S300_S1x300 shapeCasts_S1x300_S1x1x300 u s q).trans
    (colsum_apply (m := 2000) (n := 300) (mulf (k4_pay1 x2 x0 x1 x3 x4) (k4_pay1 x2 x0 x1 x3 x4))
      reduces_S2000x300_S300 (.inl rfl) rfl q)

/-- If a tile's blocks of h and a hold rows 2000·T + p of the arrays and its other blocks hold the whole scale row, weights
    and bias row, the tile's value at (p, q) is z1 of the arrays at row 2000·T + p, column q. -/
theorem r4_tile_of_blocks (A0 A1 : (⟨2, ![20000, 300]⟩ : Shape).Idx → EReal) (A2 : (⟨2, ![1, 300]⟩ : Shape).Idx → EReal)
    (A3 : (⟨2, ![300, 300]⟩ : Shape).Idx → EReal) (A4 : (⟨2, ![1, 300]⟩ : Shape).Idx → EReal)
    (x0 x1 : (⟨2, ![2000, 300]⟩ : Shape).Idx → EReal) (x2 : (⟨2, ![1, 300]⟩ : Shape).Idx → EReal)
    (x3 : (⟨2, ![300, 300]⟩ : Shape).Idx → EReal) (x4 : (⟨2, ![1, 300]⟩ : Shape).Idx → EReal) (T : Fin 10)
    (h0 : ∀ (p : Fin 2000) (k : Fin 300), x0 (ix2 p k) = A0 (ix2 (rowOf T p) k))
    (h1 : ∀ (p : Fin 2000) (k : Fin 300), x1 (ix2 p k) = A1 (ix2 (rowOf T p) k))
    (h2 : ∀ k : Fin 300, x2 (ix2 (0 : Fin 1) k) = A2 (ix2 (0 : Fin 1) k))
    (h3 : ∀ k q : Fin 300, x3 (ix2 k q) = A3 (ix2 k q))
    (h4 : ∀ q : Fin 300, x4 (ix2 (0 : Fin 1) q) = A4 (ix2 (0 : Fin 1) q)) (p : Fin 2000) (q : Fin 300) :
    (∑ k : Fin 300, (x2 (ix2 (0 : Fin 1) k) * x0 (ix2 p k) + x1 (ix2 p k)) * x3 (ix2 k q)) + x4 (ix2 (0 : Fin 1) q)
      = z1Of A0 A1 A2 A3 A4 (ix2 (rowOf T p) q) := by
  rw [z1Of_apply]
  simp only [h0, h1, h2, h3, h4]

/-- What the body leaves in the z1 block, at an entry: the stage's value there. -/
theorem r4_out5_apply (x0 x1 : Vec Ideal S2000x300 .f32) (x2 : Vec Ideal S1x300 .f32) (x3 : Vec Ideal S300x300 .f32)
    (x4 : Vec Ideal S1x300 .f32) (j : S2000x300.Idx) :
    out4_5 x0 x1 x2 x3 x4 j = k4_pay1 x2 x0 x1 x3 x4 j := by
  unfold out4_5
  rw [View.canon_unit_zero hz2]
  simp only [View.ld_unit_zero (S := S1x300) hz2, View.ld_unit_zero (S := S2000x300) hz2, View.ld_unit_zero (S := S300x300) hz2]

/-- What the body leaves in its two-row statistics block at (u, s, q): row 0 the column sums of the tile's values, row 1
    the column sums of their squares. -/
theorem r4_out6_apply (x0 x1 : Vec Ideal S2000x300 .f32) (x2 : Vec Ideal S1x300 .f32) (x3 : Vec Ideal S300x300 .f32)
    (x4 : Vec Ideal S1x300 .f32) (u : Fin 1) (q : Fin 300) :
    out4_6 x0 x1 x2 x3 x4 (ix3 u (0 : Fin 2) q) = ∑ p : Fin 2000, k4_pay1 x2 x0 x1 x3 x4 (ix2 p q)
    ∧ out4_6 x0 x1 x2 x3 x4 (ix3 u (1 : Fin 2) q)
      = ∑ p : Fin 2000, k4_pay1 x2 x0 x1 x3 x4 (ix2 p q) * k4_pay1 x2 x0 x1 x3 x4 (ix2 p q) := by
  unfold out4_6
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k4_pay2 x2 x0 x1 x3 x4) (k4_pay3 x2 x0 x1 x3 x4) u q
  exact ⟨h0.trans (r4_pay2_apply x2 x0 x1 x3 x4 0 0 q), h1.trans (r4_pay3_apply x2 x0 x1 x3 x4 0 0 q)⟩

/-! ## Where each tile sits -/

/-- The tile number of a grid point. -/
def r4_tile (t : Fin cfg4.N) : Fin 10 := Fin.cast N_4 t

theorem r4_tile_val (t : Fin cfg4.N) : (r4_tile t).val = t.val := rfl

/-- The windows' block indices, decided over the 10 points: h, a, z1 and the statistics move with the tile along axis 0;
    s, W and b stay. -/
theorem r4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 3) = t.val ∧ win4_6.index t (1 : Fin 3) = 0 ∧ win4_6.index t (2 : Fin 3) = 0 :=
  (by decide +kernel : ∀ t : Fin grid4.N, _)

/-- The tile's rows of h: entry (p, k) of the block is entry (2000·t + p, k) of the array. -/
theorem r4_blk0 (c : Dev nD) (t : Fin cfg4.N) (p : Fin 2000) (k : Fin 300) :
    (iblk4 V c 0 t : Vec Ideal S2000x300 .f32) (ix2 p k)
      = (V c (Pipeline.arrRef spec4 0) : S20000x300.Idx → Elt Ideal .f32) (ix2 (rowOf (r4_tile t) p) k) := by
  obtain ⟨e0, e1, -⟩ := r4_idx t
  unfold iblk4
  rw [View.read_apply]
  refine congrArg (V c (Pipeline.arrRef spec4 0) : S20000x300.Idx → Elt Ideal .f32) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 300 + 1 * k.val = k.val; rw [e1]; omega

/-- The tile's rows of a. -/
theorem r4_blk1 (c : Dev nD) (t : Fin cfg4.N) (p : Fin 2000) (k : Fin 300) :
    (iblk4 V c 1 t : Vec Ideal S2000x300 .f32) (ix2 p k)
      = (V c (Pipeline.arrRef spec4 1) : S20000x300.Idx → Elt Ideal .f32) (ix2 (rowOf (r4_tile t) p) k) := by
  obtain ⟨-, -, e0, e1, -⟩ := r4_idx t
  unfold iblk4
  rw [View.read_apply]
  refine congrArg (V c (Pipeline.arrRef spec4 1) : S20000x300.Idx → Elt Ideal .f32) (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 300 + 1 * k.val = k.val; rw [e1]; omega

/-- The scale row, whole at every tile. -/
theorem r4_blk2 (c : Dev nD) (t : Fin cfg4.N) (u : Fin 1) (k : Fin 300) :
    (iblk4 V c 2 t : Vec Ideal S1x300 .f32) (ix2 u k)
      = (V c (Pipeline.arrRef spec4 2) : S1x300.Idx → Elt Ideal .f32) (ix2 u k) := by
  obtain ⟨-, -, -, -, e0, e1, -⟩ := r4_idx t
  unfold iblk4
  rw [View.read_apply]
  refine congrArg (V c (Pipeline.arrRef spec4 2) : S1x300.Idx → Elt Ideal .f32) (funext fun a => Fin.ext ?_)
  match a with
  | ⟨0, _⟩ => show win4_2.index t (0 : Fin 2) * 1 + 1 * u.val = u.val; rw [e0]; omega
  | ⟨1, _⟩ => show win4_2.index t (1 : Fin 2) * 300 + 1 * k.val = k.val; rw [e1]; omega

/-- The weights, whole at every tile. -/
theorem r4_blk3 (c : Dev nD) (t : Fin cfg4.N) (k : Fin 300) (q : Fin 300) :
    (iblk4 V c 3 t : Vec Ideal S300x300 .f32) (ix2 k q)
      = (V c (Pipeline.arrRef spec4 3) : S300x300.Idx → Elt Ideal .f32) (ix2 k q) := by
  obtain ⟨-, -, -, -, -, -, e0, e1, -⟩ := r4_idx t
  unfold iblk4
  rw [View.read_apply]
  refine congrArg (V c (Pipeline.arrRef spec4 3) : S300x300.Idx → Elt Ideal .f32) (funext fun a => Fin.ext ?_)
  match a with
  | ⟨0, _⟩ => show win4_3.index t (0 : Fin 2) * 300 + 1 * k.val = k.val; rw [e0]; omega
  | ⟨1, _⟩ => show win4_3.index t (1 : Fin 2) * 300 + 1 * q.val = q.val; rw [e1]; omega

/-- The bias row, whole at every tile. -/
theorem r4_blk4 (c : Dev nD) (t : Fin cfg4.N) (u : Fin 1) (q : Fin 300) :
    (iblk4 V c 4 t : Vec Ideal S1x300 .f32) (ix2 u q)
      = (V c (Pipeline.arrRef spec4 4) : S1x300.Idx → Elt Ideal .f32) (ix2 u q) := by
  obtain ⟨-, -, -, -, -, -, -, -, e0, e1, -⟩ := r4_idx t
  unfold iblk4
  rw [View.read_apply]
  refine congrArg (V c (Pipeline.arrRef spec4 4) : S1x300.Idx → Elt Ideal .f32) (funext fun a => Fin.ext ?_)
  match a with
  | ⟨0, _⟩ => show win4_4.index t (0 : Fin 2) * 1 + 1 * u.val = u.val; rw [e0]; omega
  | ⟨1, _⟩ => show win4_4.index t (1 : Fin 2) * 300 + 1 * q.val = q.val; rw [e1]; omega

/-! ## The region's closed form and one tile's values, named once -/

/-- The first dense stage of the arrays the region finds. -/
def r4_Z (c : Dev nD) : (⟨2, ![20000, 300]⟩ : Shape).Idx → EReal :=
  z1Of (V c (Pipeline.arrRef spec4 0)) (V c (Pipeline.arrRef spec4 1)) (V c (Pipeline.arrRef spec4 2))
        (V c (Pipeline.arrRef spec4 3)) (V c (Pipeline.arrRef spec4 4))

/-- What tile t computes from its blocks. -/
def r4_P (c : Dev nD) (t : Fin cfg4.N) : (⟨2, ![2000, 300]⟩ : Shape).Idx → EReal :=
  k4_pay1 (iblk4 V c 2 t) (iblk4 V c 0 t) (iblk4 V c 1 t) (iblk4 V c 3 t) (iblk4 V c 4 t)

/-- THE TILE'S ENTRY: what tile t computes at (p, q) is z1 of the whole arrays at row 2000·t + p, column q. -/
theorem r4_tile_apply (c : Dev nD) (t : Fin cfg4.N) (p : Fin 2000) (q : Fin 300) :
    r4_P V c t (ix2 p q) = r4_Z V c (ix2 (rowOf (r4_tile t) p) q) := by
  unfold r4_P r4_Z
  refine (r4_pay1_apply (iblk4 V c 2 t) (iblk4 V c 0 t) (iblk4 V c 1 t) (iblk4 V c 3 t) (iblk4 V c 4 t) p q).trans ?_
  exact r4_tile_of_blocks (V c (Pipeline.arrRef spec4 0)) (V c (Pipeline.arrRef spec4 1)) (V c (Pipeline.arrRef spec4 2))
    (V c (Pipeline.arrRef spec4 3)) (V c (Pipeline.arrRef spec4 4))
    (iblk4 V c 0 t) (iblk4 V c 1 t) (iblk4 V c 2 t) (iblk4 V c 3 t) (iblk4 V c 4 t) (r4_tile t)
    (r4_blk0 V c t) (r4_blk1 V c t) (r4_blk2 V c t 0) (r4_blk3 V c t) (r4_blk4 V c t 0) p q

/-- The z1 block the body leaves at tile t is the tile's values. -/
theorem r4_out5 (c : Dev nD) (t : Fin cfg4.N) (j : S2000x300.Idx) :
    out4_5 (iblk4 V c 0 t) (iblk4 V c 1 t) (iblk4 V c 2 t) (iblk4 V c 3 t) (iblk4 V c 4 t) j = r4_P V c t j :=
  r4_out5_apply (iblk4 V c 0 t) (iblk4 V c 1 t) (iblk4 V c 2 t) (iblk4 V c 3 t) (iblk4 V c 4 t) j

/-- The statistics block the body leaves at tile t: the column sums of the tile's values and of their squares. -/
theorem r4_out6 (c : Dev nD) (t : Fin cfg4.N) (u : Fin 1) (q : Fin 300) :
    out4_6 (iblk4 V c 0 t) (iblk4 V c 1 t) (iblk4 V c 2 t) (iblk4 V c 3 t) (iblk4 V c 4 t) (ix3 u (0 : Fin 2) q)
      = ∑ p : Fin 2000, r4_P V c t (ix2 p q)
    ∧ out4_6 (iblk4 V c 0 t) (iblk4 V c 1 t) (iblk4 V c 2 t) (iblk4 V c 3 t) (iblk4 V c 4 t) (ix3 u (1 : Fin 2) q)
      = ∑ p : Fin 2000, r4_P V c t (ix2 p q) * r4_P V c t (ix2 p q) :=
  r4_out6_apply (iblk4 V c 0 t) (iblk4 V c 1 t) (iblk4 V c 2 t) (iblk4 V c 3 t) (iblk4 V c 4 t) u q

/-! ## The z1 array -/

/-- What tile t writes back to z1 is its block of the closed form. -/
theorem r4_flushed5 (c : Dev nD) (t : Fin cfg4.N) :
    (dat4 V c).flushed 5 t = ((cfg4.win 5).blk t).view.read (Elt Ideal) (r4_Z V c) := by
  show (cfg4.win 5).cut (grid4.coords t) ((dat4 V c).after 5 t) = _
  rw [after4_5]
  funext j
  have hj0 : (j 0).val < 2000 := (j 0).isLt
  have hj1 : (j 1).val < 300 := (j 1).isLt
  -- the block's entry j, by coordinates
  have hx : (cfg4.win 5).xinj (grid4.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg4.win 5).blk t).view.emb j : S20000x300.Idx)
      = ix2 (rowOf (r4_tile t) ⟨(j 0).val, hj0⟩) (⟨(j 1).val, hj1⟩ : Fin 300) := by
    obtain ⟨-, -, -, -, -, -, -, -, -, -, e0, e1, -⟩ := r4_idx t
    funext a; apply Fin.ext
    match a with
    | ⟨0, _⟩ => show win4_5.index t (0 : Fin 2) * 2000 + 1 * (j 0).val = t.val * 2000 + (j 0).val; rw [e0]; omega
    | ⟨1, _⟩ => show win4_5.index t (1 : Fin 2) * 300 + 1 * (j 1).val = (j 1).val; rw [e1]; omega
  exact ((r4_out5 V c t _).trans (congrArg (r4_P V c t) hx)).trans
    ((r4_tile_apply V c t ⟨(j 0).val, hj0⟩ ⟨(j 1).val, hj1⟩).trans (congrArg (r4_Z V c) he).symm)

/-- Membership in tile t's block of z1, by coordinates. -/
theorem r4_mem_blk5 (t : Fin cfg4.N) (i : S20000x300.Idx) :
    i ∈ ((cfg4.win 5).blk t).view.set ↔ ∀ a : Fin 2, win4_5.index t a * S2000x300.size a ≤ (i a).val
      ∧ (i a).val < win4_5.index t a * S2000x300.size a + S2000x300.size a := by
  show i ∈ ((View.whole main_v116_0).slice (win4_5.rect t)).set ↔ _
  rw [View.set_slice_whole, Rect.mem_set_unit]
  exact Iff.rfl

/-- Every entry of z1 is in the block of the tile its row belongs to. -/
theorem r4_cover5 (i : S20000x300.Idx) :
    ∃ t : Fin cfg4.N, (cfg4.win 5).flush t = true ∧ i ∈ ((cfg4.win 5).blk t).view.set := by
  have hN : cfg4.N = 10 := N_4
  have h0 : (i 0).val < 20000 := (i 0).isLt
  have h1 : (i 1).val < 300 := (i 1).isLt
  have ht : (i 0).val / 2000 < cfg4.N := by rw [hN]; omega
  obtain ⟨-, -, -, -, -, -, -, -, -, -, e0, e1, -⟩ := r4_idx ⟨(i 0).val / 2000, ht⟩
  refine ⟨⟨(i 0).val / 2000, ht⟩, flush4_5 _, ?_⟩
  rw [r4_mem_blk5]
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_5.index ⟨(i 0).val / 2000, ht⟩ (1 : Fin 2) * 300 ≤ (i 1).val
      ∧ (i 1).val < win4_5.index ⟨(i 0).val / 2000, ht⟩ (1 : Fin 2) * 300 + 300
    rw [e1]; omega

/-- THE z1 ARRAY after the region: the first dense stage of the region's inputs. -/
theorem arr4_5 (c : Dev nD) :
    (dat4 (F := Ideal) V c).arrAt 5 cfg4.N
      = z1Of (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 (r4_Z V c) (fun t _ => r4_flushed5 V c t) r4_cover5

/-! ## The statistics array -/

/-- One entry of what tile t writes back to the statistics: on row s of its slab, column q, the value v, provided the
    body left v there and the tile statistics of the closed form have v there. -/
theorem r4_flushed6_at (c : Dev nD) (t : Fin cfg4.N) (j : ((cfg4.win 6).xblock (grid4.coords t)).Idx) (s : Fin 2)
    (hs : (j 1).val = s.val) (hj2 : (j 2).val < 300) (v : EReal)
    (hout : ∀ u : Fin 1, out4_6 (iblk4 V c 0 t) (iblk4 V c 1 t) (iblk4 V c 2 t) (iblk4 V c 3 t) (iblk4 V c 4 t) (ix3 u s (⟨(j 2).val, hj2⟩ : Fin 300)) = v)
    (hstat : tileStats (r4_Z V c) (ix3 (r4_tile t) s (⟨(j 2).val, hj2⟩ : Fin 300)) = v) :
    (cfg4.win 6).cut (grid4.coords t)
        (out4_6 (iblk4 V c 0 t) (iblk4 V c 1 t) (iblk4 V c 2 t) (iblk4 V c 3 t) (iblk4 V c 4 t)) j
      = ((cfg4.win 6).blk t).view.read (Elt Ideal) (tileStats (r4_Z V c)) j := by
  have hj0 : (j 0).val < 1 := (j 0).isLt
  have hx : (cfg4.win 6).xinj (grid4.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg4.win 6).blk t).view.emb j : S10x2x300.Idx) = ix3 (r4_tile t) s (⟨(j 2).val, hj2⟩ : Fin 300) := by
    obtain ⟨-, -, -, -, -, -, -, -, -, -, -, -, e0, e1, e2⟩ := r4_idx t
    funext a; apply Fin.ext
    match a with
    | ⟨0, _⟩ => show win4_6.index t (0 : Fin 3) * 1 + 1 * (j 0).val = t.val; rw [e0]; omega
    | ⟨1, _⟩ => show win4_6.index t (1 : Fin 3) * 2 + 1 * (j 1).val = s.val; rw [e1]; omega
    | ⟨2, _⟩ => show win4_6.index t (2 : Fin 3) * 300 + 1 * (j 2).val = (j 2).val; rw [e2]; omega
  exact ((congrArg (out4_6 (iblk4 V c 0 t) (iblk4 V c 1 t) (iblk4 V c 2 t) (iblk4 V c 3 t) (iblk4 V c 4 t)) hx).trans (hout _)).trans
    (hstat.symm.trans (congrArg (tileStats (r4_Z V c)) he).symm)

/-- What tile t writes back to the statistics is its slab of the tile statistics of the closed form. -/
theorem r4_flushed6 (c : Dev nD) (t : Fin cfg4.N) :
    (dat4 V c).flushed 6 t = ((cfg4.win 6).blk t).view.read (Elt Ideal) (tileStats (r4_Z V c)) := by
  show (cfg4.win 6).cut (grid4.coords t) ((dat4 V c).after 6 t) = _
  rw [after4_6]
  funext j
  have hj1 : (j 1).val < 2 := (j 1).isLt
  have hj2 : (j 2).val < 300 := (j 2).isLt
  rcases Nat.lt_or_ge (j 1).val 1 with hs | hs
  · exact r4_flushed6_at V c t j 0 (by show (j 1).val = 0; omega) hj2 _ (fun u => (r4_out6 V c t u ⟨(j 2).val, hj2⟩).1)
      ((tileStats_zero _ (r4_tile t) ⟨(j 2).val, hj2⟩).trans
        (Finset.sum_congr rfl fun p _ => (r4_tile_apply V c t p ⟨(j 2).val, hj2⟩).symm))
  · exact r4_flushed6_at V c t j 1 (by show (j 1).val = 1; omega) hj2 _ (fun u => (r4_out6 V c t u ⟨(j 2).val, hj2⟩).2)
      ((tileStats_one _ (r4_tile t) ⟨(j 2).val, hj2⟩).trans (Finset.sum_congr rfl fun p _ =>
        (congrArg₂ (fun (a b : EReal) => a * b) (r4_tile_apply V c t p ⟨(j 2).val, hj2⟩)
          (r4_tile_apply V c t p ⟨(j 2).val, hj2⟩)).symm))

/-- Membership in tile t's slab of the statistics, by coordinates. -/
theorem r4_mem_blk6 (t : Fin cfg4.N) (i : S10x2x300.Idx) :
    i ∈ ((cfg4.win 6).blk t).view.set ↔ ∀ a : Fin 3, win4_6.index t a * S1x2x300.size a ≤ (i a).val
      ∧ (i a).val < win4_6.index t a * S1x2x300.size a + S1x2x300.size a := by
  show i ∈ ((View.whole main_v116_1).slice (win4_6.rect t)).set ↔ _
  rw [View.set_slice_whole, Rect.mem_set_unit]
  exact Iff.rfl

/-- Every entry of the statistics is in its tile's slab. -/
theorem r4_cover6 (i : S10x2x300.Idx) :
    ∃ t : Fin cfg4.N, (cfg4.win 6).flush t = true ∧ i ∈ ((cfg4.win 6).blk t).view.set := by
  have hN : cfg4.N = 10 := N_4
  have h0 : (i 0).val < 10 := (i 0).isLt
  have h1 : (i 1).val < 2 := (i 1).isLt
  have h2 : (i 2).val < 300 := (i 2).isLt
  have ht : (i 0).val < cfg4.N := by rw [hN]; exact h0
  obtain ⟨-, -, -, -, -, -, -, -, -, -, -, -, e0, e1, e2⟩ := r4_idx ⟨(i 0).val, ht⟩
  refine ⟨⟨(i 0).val, ht⟩, flush4_6 _, ?_⟩
  rw [r4_mem_blk6]
  intro a
  match a with
  | ⟨0, _⟩ =>
    show win4_6.index ⟨(i 0).val, ht⟩ (0 : Fin 3) * 1 ≤ (i 0).val ∧ (i 0).val < win4_6.index ⟨(i 0).val, ht⟩ (0 : Fin 3) * 1 + 1
    rw [e0]; show (i 0).val * 1 ≤ (i 0).val ∧ (i 0).val < (i 0).val * 1 + 1; omega
  | ⟨1, _⟩ =>
    show win4_6.index ⟨(i 0).val, ht⟩ (1 : Fin 3) * 2 ≤ (i 1).val ∧ (i 1).val < win4_6.index ⟨(i 0).val, ht⟩ (1 : Fin 3) * 2 + 2
    rw [e1]; omega
  | ⟨2, _⟩ =>
    show win4_6.index ⟨(i 0).val, ht⟩ (2 : Fin 3) * 300 ≤ (i 2).val ∧ (i 2).val < win4_6.index ⟨(i 0).val, ht⟩ (2 : Fin 3) * 300 + 300
    rw [e2]; omega

/-- THE STATISTICS ARRAY after the region: the tile statistics of the first dense stage of the region's inputs. -/
theorem arr4_6 (c : Dev nD) :
    (dat4 (F := Ideal) V c).arrAt 6 cfg4.N
      = tileStats (z1Of (V c (Pipeline.arrRef spec4 0)) (V c (Pipeline.arrRef spec4 1)) (V c (Pipeline.arrRef spec4 2))
        (V c (Pipeline.arrRef spec4 3)) (V c (Pipeline.arrRef spec4 4))) :=
  (dat4 V c).arrAt_eq_of_cover 6 (tileStats (r4_Z V c)) (fun t _ => r4_flushed6 V c t) r4_cover6

end Cert.KernelIdeal.RVal

end
-- ==== Proof.Region5.lean ====
/-
  The normalised second dense stage of a graph layer, tile by tile, as one array.

  The 20000 rows are processed in 10 tiles of 2000. At tile t the stage reads rows 2000·t … 2000·t + 1999 of z1 and the
  whole of the mean row μ, the variance row v, the scale row γ, the shift row β, the weights W and the bias b, and writes
  * rows 2000·t … 2000·t + 1999 of z2, where r(n, k) = max((z1(n, k) − μ(k))·rsqrt(v(k) + ε)·γ(k) + β(k), 0) and
    z2(n, q) = ∑ k, r(n, k)·W(k, q) + b(q), and
  * slab t of the statistics: row 0 the sums over the tile's rows of each column of z2, row 1 the sums of their squares.
  Each entry written depends only on the row it belongs to, so the tiles together hold z2 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of z1 and the whole of v, μ, γ, β, W, b. -/
theorem r5_pay3_apply (v0 : Vec Ideal S1x300 .f32) (v5 : Vec Ideal S2000x300 .f32) (v7 v13 v17 : Vec Ideal S1x300 .f32)
    (v24 : Vec Ideal S300x300 .f32) (v28 : Vec Ideal S1x300 .f32) (p : Fin 2000) (q : Fin 300) :
    k5_pay3 v0 v5 v7 v13 v17 v24 v28 (ix2 p q)
      = (∑ k : Fin 300, max ((v5 (ix2 p k) - v7 (ix2 (0 : Fin 1) k))
            * Ideal.rsqrt (v0 (ix2 (0 : Fin 1) k) + Ideal.ofBits .f32 0x3727C5AC#32)
            * v13 (ix2 (0 : Fin 1) k) + v17 (ix2 (0 : Fin 1) k)) 0 * v24 (ix2 k q)) + v28 (ix2 (0 : Fin 1) q) :=
  bnrelu_dense_apply dot_S2000x300_S300x300_S2000x300_1_0_0_1_n_n rfl v0 v5 v7 v13 v17 v24 v28 0x3727C5AC#32
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r5_sum_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k5_pay1 (k5_pay4 v0 v5 v7 v13 v17 v24 v28) (ix3 u s q) = ∑ p : Fin 2000, k5_pay3 v0 v5 v7 v13 v17 v24 v28 (ix2 p q) := by
  unfold k5_pay1 k5_pay4
  exact (statsRow_apply (n := 300)
      (multiReduction .add [0] S300 (k5_pay3 v0 v5 v7 v13 v17 v24 v28) 0x00000000#32 reduces_S2000x300_S300 (.inl rfl) rfl)
      shapeCasts_S300_S1x300 shapeCasts_S1x300_S1x1x300 u s q).trans
    (colsum_apply (m := 2000) (n := 300) (k5_pay3 v0 v5 v7 v13 v17 v24 v28) reduces_S2000x300_S300 (.inl rfl) rfl q)

/-- The tile's column sums of squares, at (u, s, q). -/
theorem r5_sumsq_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k5_pay2 (k5_pay5 v0 v5 v7 v13 v17 v24 v28) (ix3 u s q)
      = ∑ p : Fin 2000, k5_pay3 v0 v5 v7 v13 v17 v24 v28 (ix2 p q) * k5_pay3 v0 v5 v7 v13 v17 v24 v28 (ix2 p q) := by
  unfold k5_pay2 k5_pay5
  exact (statsRow_apply (n := 300)
      (multiReduction .add [0] S300 (mulf (k5_pay3 v0 v5 v7 v13 v17 v24 v28) (k5_pay3 v0 v5 v7 v13 v17 v24 v28)) 0x00000000#32
        reduces_S2000x300_S300 (.inl rfl) rfl)
      shapeCasts_S300_S1x300 shapeCasts_S1x300_S1x1x300 u s q).trans
    (colsum_apply (m := 2000) (n := 300) (mulf (k5_pay3 v0 v5 v7 v13 v17 v24 v28) (k5_pay3 v0 v5 v7 v13 v17 v24 v28))
      reduces_S2000x300_S300 (.inl rfl) rfl q)

/-- If a tile's block of z holds rows 2000·T + p of the array and its other blocks hold the whole rows and weights, the
    tile's value at (p, q) is z2 of the arrays at row 2000·T + p, column q. -/
theorem r5_tile_of_blocks (A0 : (⟨2, ![20000, 300]⟩ : Shape).Idx → EReal) (A1 A2 A3 A4 : (⟨2, ![1, 300]⟩ : Shape).Idx → EReal)
    (A5 : (⟨2, ![300, 300]⟩ : Shape).Idx → EReal) (A6 : (⟨2, ![1, 300]⟩ : Shape).Idx → EReal)
    (x0 : (⟨2, ![2000, 300]⟩ : Shape).Idx → EReal) (x1 x2 x3 x4 : (⟨2, ![1, 300]⟩ : Shape).Idx → EReal)
    (x5 : (⟨2, ![300, 300]⟩ : Shape).Idx → EReal) (x6 : (⟨2, ![1, 300]⟩ : Shape).Idx → EReal) (T : Fin 10)
    (h0 : ∀ (p : Fin 2000) (k : Fin 300), x0 (ix2 p k) = A0 (ix2 (rowOf T p) k))
    (h1 : ∀ k : Fin 300, x1 (ix2 (0 : Fin 1) k) = A1 (ix2 (0 : Fin 1) k))
    (h2 : ∀ k : Fin 300, x2 (ix2 (0 : Fin 1) k) = A2 (ix2 (0 : Fin 1) k))
    (h3 : ∀ k : Fin 300, x3 (ix2 (0 : Fin 1) k) = A3 (ix2 (0 : Fin 1) k))
    (h4 : ∀ k : Fin 300, x4 (ix2 (0 : Fin 1) k) = A4 (ix2 (0 : Fin 1) k))
    (h5 : ∀ k q : Fin 300, x5 (ix2 k q) = A5 (ix2 k q))
    (h6 : ∀ q : Fin 300, x6 (ix2 (0 : Fin 1) q) = A6 (ix2 (0 : Fin 1) q)) (p : Fin 2000) (q : Fin 300) :
    (∑ k : Fin 300, max ((x0 (ix2 p k) - x1 (ix2 (0 : Fin 1) k))
          * Ideal.rsqrt (x2 (ix2 (0 : Fin 1) k) + Ideal.ofBits .f32 0x3727C5AC#32)
          * x3 (ix2 (0 : Fin 1) k) + x4 (ix2 (0 : Fin 1) k)) 0 * x5 (ix2 k q)) + x6 (ix2 (0 : Fin 1) q)
      = z2Of A0 A1 A2 A3 A4 A5 A6 (ix2 (rowOf T p) q) := by
  rw [z2Of_apply]
  simp only [r1Of_apply, h0, h1, h2, h3, h4, h5, h6]

/-- What the body leaves in the z2 block, at (p, q): the stage's value there. -/
theorem r5_out7_apply (x0 : Vec Ideal S2000x300 .f32) (x1 x2 x3 x4 : Vec Ideal S1x300 .f32) (x5 : Vec Ideal S300x300 .f32)
    (x6 : Vec Ideal S1x300 .f32) (j : S2000x300.Idx) :
    out5_7 x0 x1 x2 x3 x4 x5 x6 j = k5_pay3 x2 x0 x1 x3 x4 x5 x6 j := by
  unfold out5_7
  rw [View.canon_unit_zero hz2]
  simp only [View.ld_unit_zero (S := S1x300) hz2, View.ld_unit_zero (S := S2000x300) hz2, View.ld_unit_zero (S := S300x300) hz2]

/-! ## Where each tile sits -/

/-- The tile number of a grid point. -/
def r5_tile (t : Fin cfg5.N) : Fin 10 := Fin.cast N_5 t

theorem r5_tile_val (t : Fin cfg5.N) : (r5_tile t).val = t.val := rfl

/-- The windows' block indices, decided over the 10 points: z1, z2 and the statistics move with the tile along axis 0;
    μ, v, γ, β, W and b stay. -/
theorem r5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0
    ∧ win5_8.index t (0 : Fin 3) = t.val ∧ win5_8.index t (1 : Fin 3) = 0 ∧ win5_8.index t (2 : Fin 3) = 0 :=
  (by decide +kernel : ∀ t : Fin grid5.N, _)

/-- The tile's rows of z1: entry (p, k) of the block is entry (2000·t + p, k) of the array. -/
theorem r5_blk0 (c : Dev nD) (t : Fin cfg5.N) (p : Fin 2000) (k : Fin 300) :
    (iblk5 V c 0 t : Vec Ideal S2000x300 .f32) (ix2 p k)
      = (V c (Pipeline.arrRef spec5 0) : S20000x300.Idx → Elt Ideal .f32) (ix2 (rowOf (r5_tile t) p) k) := by
  obtain ⟨e0, e1, -⟩ := r5_idx t
  unfold iblk5
  rw [View.read_apply]
  refine congrArg (V c (Pipeline.arrRef spec5 0) : S20000x300.Idx → Elt Ideal .f32) (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 300 + 1 * k.val = k.val; rw [e1]; omega

/-- The mean row, whole at every tile. -/
theorem r5_blk1 (c : Dev nD) (t : Fin cfg5.N) (u : Fin 1) (k : Fin 300) :
    (iblk5 V c 1 t : Vec Ideal S1x300 .f32) (ix2 u k)
      = (V c (Pipeline.arrRef spec5 1) : S1x300.Idx → Elt Ideal .f32) (ix2 u k) := by
  obtain ⟨-, -, e0, e1, -⟩ := r5_idx t
  unfold iblk5
  rw [View.read_apply]
  refine congrArg (V c (Pipeline.arrRef spec5 1) : S1x300.Idx → Elt Ideal .f32) (funext fun a => Fin.ext ?_)
  match a with
  | ⟨0, _⟩ => show win5_1.index t (0 : Fin 2) * 1 + 1 * u.val = u.val; rw [e0]; omega
  | ⟨1, _⟩ => show win5_1.index t (1 : Fin 2) * 300 + 1 * k.val = k.val; rw [e1]; omega

/-- The variance row, whole at every tile. -/
theorem r5_blk2 (c : Dev nD) (t : Fin cfg5.N) (u : Fin 1) (k : Fin 300) :
    (iblk5 V c 2 t : Vec Ideal S1x300 .f32) (ix2 u k)
      = (V c (Pipeline.arrRef spec5 2) : S1x300.Idx → Elt Ideal .f32) (ix2 u k) := by
  obtain ⟨-, -, -, -, e0, e1, -⟩ := r5_idx t
  unfold iblk5
  rw [View.read_apply]
  refine congrArg (V c (Pipeline.arrRef spec5 2) : S1x300.Idx → Elt Ideal .f32) (funext fun a => Fin.ext ?_)
  match a with
  | ⟨0, _⟩ => show win5_2.index t (0 : Fin 2) * 1 + 1 * u.val = u.val; rw [e0]; omega
  | ⟨1, _⟩ => show win5_2.index t (1 : Fin 2) * 300 + 1 * k.val = k.val; rw [e1]; omega

/-- The scale row, whole at every tile. -/
theorem r5_blk3 (c : Dev nD) (t : Fin cfg5.N) (u : Fin 1) (k : Fin 300) :
    (iblk5 V c 3 t : Vec Ideal S1x300 .f32) (ix2 u k)
      = (V c (Pipeline.arrRef spec5 3) : S1x300.Idx → Elt Ideal .f32) (ix2 u k) := by
  obtain ⟨-, -, -, -, -, -, e0, e1, -⟩ := r5_idx t
  unfold iblk5
  rw [View.read_apply]
  refine congrArg (V c (Pipeline.arrRef spec5 3) : S1x300.Idx → Elt Ideal .f32) (funext fun a => Fin.ext ?_)
  match a with
  | ⟨0, _⟩ => show win5_3.index t (0 : Fin 2) * 1 + 1 * u.val = u.val; rw [e0]; omega
  | ⟨1, _⟩ => show win5_3.index t (1 : Fin 2) * 300 + 1 * k.val = k.val; rw [e1]; omega

/-- The shift row, whole at every tile. -/
theorem r5_blk4 (c : Dev nD) (t : Fin cfg5.N) (u : Fin 1) (k : Fin 300) :
    (iblk5 V c 4 t : Vec Ideal S1x300 .f32) (ix2 u k)
      = (V c (Pipeline.arrRef spec5 4) : S1x300.Idx → Elt Ideal .f32) (ix2 u k) := by
  obtain ⟨-, -, -, -, -, -, -, -, e0, e1, -⟩ := r5_idx t
  unfold iblk5
  rw [View.read_apply]
  refine congrArg (V c (Pipeline.arrRef spec5 4) : S1x300.Idx → Elt Ideal .f32) (funext fun a => Fin.ext ?_)
  match a with
  | ⟨0, _⟩ => show win5_4.index t (0 : Fin 2) * 1 + 1 * u.val = u.val; rw [e0]; omega
  | ⟨1, _⟩ => show win5_4.index t (1 : Fin 2) * 300 + 1 * k.val = k.val; rw [e1]; omega

/-- The weights, whole at every tile. -/
theorem r5_blk5 (c : Dev nD) (t : Fin cfg5.N) (k : Fin 300) (q : Fin 300) :
    (iblk5 V c 5 t : Vec Ideal S300x300 .f32) (ix2 k q)
      = (V c (Pipeline.arrRef spec5 5) : S300x300.Idx → Elt Ideal .f32) (ix2 k q) := by
  obtain ⟨-, -, -, -, -, -, -, -, -, -, e0, e1, -⟩ := r5_idx t
  unfold iblk5
  rw [View.read_apply]
  refine congrArg (V c (Pipeline.arrRef spec5 5) : S300x300.Idx → Elt Ideal .f32) (funext fun a => Fin.ext ?_)
  match a with
  | ⟨0, _⟩ => show win5_5.index t (0 : Fin 2) * 300 + 1 * k.val = k.val; rw [e0]; omega
  | ⟨1, _⟩ => show win5_5.index t (1 : Fin 2) * 300 + 1 * q.val = q.val; rw [e1]; omega

/-- The bias row, whole at every tile. -/
theorem r5_blk6 (c : Dev nD) (t : Fin cfg5.N) (u : Fin 1) (k : Fin 300) :
    (iblk5 V c 6 t : Vec Ideal S1x300 .f32) (ix2 u k)
      = (V c (Pipeline.arrRef spec5 6) : S1x300.Idx → Elt Ideal .f32) (ix2 u k) := by
  obtain ⟨-, -, -, -, -, -, -, -, -, -, -, -, e0, e1, -⟩ := r5_idx t
  unfold iblk5
  rw [View.read_apply]
  refine congrArg (V c (Pipeline.arrRef spec5 6) : S1x300.Idx → Elt Ideal .f32) (funext fun a => Fin.ext ?_)
  match a with
  | ⟨0, _⟩ => show win5_6.index t (0 : Fin 2) * 1 + 1 * u.val = u.val; rw [e0]; omega
  | ⟨1, _⟩ => show win5_6.index t (1 : Fin 2) * 300 + 1 * k.val = k.val; rw [e1]; omega

/-! ## The region's closed form and one tile's values, named once -/

/-- The normalised second dense stage of the arrays the region finds. -/
def r5_Z (c : Dev nD) : (⟨2, ![20000, 300]⟩ : Shape).Idx → EReal :=
  z2Of (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6))

/-- What tile t computes from its blocks. -/
def r5_P (c : Dev nD) (t : Fin cfg5.N) : (⟨2, ![2000, 300]⟩ : Shape).Idx → EReal :=
  k5_pay3 (iblk5 V c 2 t) (iblk5 V c 0 t) (iblk5 V c 1 t) (iblk5 V c 3 t) (iblk5 V c 4 t) (iblk5 V c 5 t) (iblk5 V c 6 t)

/-- THE TILE'S ENTRY: what tile t computes at (p, q) is z2 of the whole arrays at row 2000·t + p, column q. -/
theorem r5_tile_apply (c : Dev nD) (t : Fin cfg5.N) (p : Fin 2000) (q : Fin 300) :
    r5_P V c t (ix2 p q) = r5_Z V c (ix2 (rowOf (r5_tile t) p) q) := by
  unfold r5_P r5_Z
  refine (r5_pay3_apply (iblk5 V c 2 t) (iblk5 V c 0 t) (iblk5 V c 1 t) (iblk5 V c 3 t) (iblk5 V c 4 t) (iblk5 V c 5 t) (iblk5 V c 6 t) p q).trans ?_
  exact r5_tile_of_blocks (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5)) (V c (Pipeline.arrRef spec5 6))
    (iblk5 V c 0 t) (iblk5 V c 1 t) (iblk5 V c 2 t) (iblk5 V c 3 t) (iblk5 V c 4 t) (iblk5 V c 5 t) (iblk5 V c 6 t) (r5_tile t)
    (r5_blk0 V c t) (r5_blk1 V c t 0) (r5_blk2 V c t 0) (r5_blk3 V c t 0) (r5_blk4 V c t 0) (r5_blk5 V c t) (r5_blk6 V c t 0) p q

/-- The z2 block the body leaves at tile t is the tile's values. -/
theorem r5_out7 (c : Dev nD) (t : Fin cfg5.N) (j : S2000x300.Idx) :
    out5_7 (iblk5 V c 0 t) (iblk5 V c 1 t) (iblk5 V c 2 t) (iblk5 V c 3 t) (iblk5 V c 4 t) (iblk5 V c 5 t) (iblk5 V c 6 t) j = r5_P V c t j :=
  r5_out7_apply (iblk5 V c 0 t) (iblk5 V c 1 t) (iblk5 V c 2 t) (iblk5 V c 3 t) (iblk5 V c 4 t) (iblk5 V c 5 t) (iblk5 V c 6 t) j

/-- What the body leaves in its two-row statistics block at (u, s, q): row 0 the column sums of the tile's values, row 1
    the column sums of their squares. -/
theorem r5_out8_apply (x0 : Vec Ideal S2000x300 .f32) (x1 x2 x3 x4 : Vec Ideal S1x300 .f32) (x5 : Vec Ideal S300x300 .f32)
    (x6 : Vec Ideal S1x300 .f32) (u : Fin 1) (q : Fin 300) :
    out5_8 x0 x1 x2 x3 x4 x5 x6 (ix3 u (0 : Fin 2) q) = ∑ p : Fin 2000, k5_pay3 x2 x0 x1 x3 x4 x5 x6 (ix2 p q)
    ∧ out5_8 x0 x1 x2 x3 x4 x5 x6 (ix3 u (1 : Fin 2) q)
      = ∑ p : Fin 2000, k5_pay3 x2 x0 x1 x3 x4 x5 x6 (ix2 p q) * k5_pay3 x2 x0 x1 x3 x4 x5 x6 (ix2 p q) := by
  unfold out5_8
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k5_pay1 (k5_pay4 x2 x0 x1 x3 x4 x5 x6))
    (k5_pay2 (k5_pay5 x2 x0 x1 x3 x4 x5 x6)) u q
  exact ⟨h0.trans (r5_sum_apply x2 x0 x1 x3 x4 x5 x6 0 0 q), h1.trans (r5_sumsq_apply x2 x0 x1 x3 x4 x5 x6 0 0 q)⟩

/-- The statistics block the body leaves at tile t: the column sums of the tile's values and of their squares. -/
theorem r5_out8 (c : Dev nD) (t : Fin cfg5.N) (u : Fin 1) (q : Fin 300) :
    out5_8 (iblk5 V c 0 t) (iblk5 V c 1 t) (iblk5 V c 2 t) (iblk5 V c 3 t) (iblk5 V c 4 t) (iblk5 V c 5 t) (iblk5 V c 6 t) (ix3 u (0 : Fin 2) q)
      = ∑ p : Fin 2000, r5_P V c t (ix2 p q)
    ∧ out5_8 (iblk5 V c 0 t) (iblk5 V c 1 t) (iblk5 V c 2 t) (iblk5 V c 3 t) (iblk5 V c 4 t) (iblk5 V c 5 t) (iblk5 V c 6 t) (ix3 u (1 : Fin 2) q)
      = ∑ p : Fin 2000, r5_P V c t (ix2 p q) * r5_P V c t (ix2 p q) :=
  r5_out8_apply (iblk5 V c 0 t) (iblk5 V c 1 t) (iblk5 V c 2 t) (iblk5 V c 3 t) (iblk5 V c 4 t) (iblk5 V c 5 t) (iblk5 V c 6 t) u q

/-! ## The z2 array -/

/-- What tile t writes back to z2 is its block of the closed form. -/
theorem r5_flushed7 (c : Dev nD) (t : Fin cfg5.N) :
    (dat5 V c).flushed 7 t = ((cfg5.win 7).blk t).view.read (Elt Ideal) (r5_Z V c) := by
  show (cfg5.win 7).cut (grid5.coords t) ((dat5 V c).after 7 t) = _
  rw [after5_7]
  funext j
  have hj0 : (j 0).val < 2000 := (j 0).isLt
  have hj1 : (j 1).val < 300 := (j 1).isLt
  -- the block's entry j, by coordinates
  have hx : (cfg5.win 7).xinj (grid5.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg5.win 7).blk t).view.emb j : S20000x300.Idx)
      = ix2 (rowOf (r5_tile t) ⟨(j 0).val, hj0⟩) (⟨(j 1).val, hj1⟩ : Fin 300) := by
    obtain ⟨-, -, -, -, -, -, -, -, -, -, -, -, -, -, e0, e1, -⟩ := r5_idx t
    funext a; apply Fin.ext
    match a with
    | ⟨0, _⟩ => show win5_7.index t (0 : Fin 2) * 2000 + 1 * (j 0).val = t.val * 2000 + (j 0).val; rw [e0]; omega
    | ⟨1, _⟩ => show win5_7.index t (1 : Fin 2) * 300 + 1 * (j 1).val = (j 1).val; rw [e1]; omega
  exact ((r5_out7 V c t _).trans (congrArg (r5_P V c t) hx)).trans
    ((r5_tile_apply V c t ⟨(j 0).val, hj0⟩ ⟨(j 1).val, hj1⟩).trans (congrArg (r5_Z V c) he).symm)

/-- Membership in tile t's block of z2, by coordinates. -/
theorem r5_mem_blk7 (t : Fin cfg5.N) (i : S20000x300.Idx) :
    i ∈ ((cfg5.win 7).blk t).view.set ↔ ∀ a : Fin 2, win5_7.index t a * S2000x300.size a ≤ (i a).val
      ∧ (i a).val < win5_7.index t a * S2000x300.size a + S2000x300.size a := by
  show i ∈ ((View.whole main_v144_0).slice (win5_7.rect t)).set ↔ _
  rw [View.set_slice_whole, Rect.mem_set_unit]
  exact Iff.rfl

/-- Every entry of z2 is in the block of the tile its row belongs to. -/
theorem r5_cover7 (i : S20000x300.Idx) :
    ∃ t : Fin cfg5.N, (cfg5.win 7).flush t = true ∧ i ∈ ((cfg5.win 7).blk t).view.set := by
  have hN : cfg5.N = 10 := N_5
  have h0 : (i 0).val < 20000 := (i 0).isLt
  have h1 : (i 1).val < 300 := (i 1).isLt
  have ht : (i 0).val / 2000 < cfg5.N := by rw [hN]; omega
  obtain ⟨-, -, -, -, -, -, -, -, -, -, -, -, -, -, e0, e1, -⟩ := r5_idx ⟨(i 0).val / 2000, ht⟩
  refine ⟨⟨(i 0).val / 2000, ht⟩, flush5_7 _, ?_⟩
  rw [r5_mem_blk7]
  intro a
  match a with
  | ⟨0, _⟩ =>
    show win5_7.index ⟨(i 0).val / 2000, ht⟩ (0 : Fin 2) * 2000 ≤ (i 0).val
      ∧ (i 0).val < win5_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_7.index ⟨(i 0).val / 2000, ht⟩ (1 : Fin 2) * 300 ≤ (i 1).val
      ∧ (i 1).val < win5_7.index ⟨(i 0).val / 2000, ht⟩ (1 : Fin 2) * 300 + 300
    rw [e1]; omega

/-- THE z2 ARRAY after the region: the normalised second dense stage of the region's inputs. -/
theorem arr5_7 (c : Dev nD) :
    (dat5 (F := Ideal) V c).arrAt 7 cfg5.N
      = z2Of (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6)) :=
  (dat5 V c).arrAt_eq_of_cover 7 (r5_Z V c) (fun t _ => r5_flushed7 V c t) r5_cover7

/-! ## The statistics array -/

/-- One entry of what tile t writes back to the statistics: on row s of its slab, column q, the value v, provided the
    body left v there and the tile statistics of the closed form have v there. -/
theorem r5_flushed8_at (c : Dev nD) (t : Fin cfg5.N) (j : ((cfg5.win 8).xblock (grid5.coords t)).Idx) (s : Fin 2)
    (hs : (j 1).val = s.val) (hj2 : (j 2).val < 300) (v : EReal)
    (hout : ∀ u : Fin 1, out5_8 (iblk5 V c 0 t) (iblk5 V c 1 t) (iblk5 V c 2 t) (iblk5 V c 3 t) (iblk5 V c 4 t) (iblk5 V c 5 t) (iblk5 V c 6 t) (ix3 u s (⟨(j 2).val, hj2⟩ : Fin 300)) = v)
    (hstat : tileStats (r5_Z V c) (ix3 (r5_tile t) s (⟨(j 2).val, hj2⟩ : Fin 300)) = v) :
    (cfg5.win 8).cut (grid5.coords t)
        (out5_8 (iblk5 V c 0 t) (iblk5 V c 1 t) (iblk5 V c 2 t) (iblk5 V c 3 t) (iblk5 V c 4 t) (iblk5 V c 5 t) (iblk5 V c 6 t)) j
      = ((cfg5.win 8).blk t).view.read (Elt Ideal) (tileStats (r5_Z V c)) j := by
  have hj0 : (j 0).val < 1 := (j 0).isLt
  have hx : (cfg5.win 8).xinj (grid5.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg5.win 8).blk t).view.emb j : S10x2x300.Idx) = ix3 (r5_tile t) s (⟨(j 2).val, hj2⟩ : Fin 300) := by
    obtain ⟨-, -, -, -, -, -, -, -, -, -, -, -, -, -, -, -, e0, e1, e2⟩ := r5_idx t
    funext a; apply Fin.ext
    match a with
    | ⟨0, _⟩ => show win5_8.index t (0 : Fin 3) * 1 + 1 * (j 0).val = t.val; rw [e0]; omega
    | ⟨1, _⟩ => show win5_8.index t (1 : Fin 3) * 2 + 1 * (j 1).val = s.val; rw [e1]; omega
    | ⟨2, _⟩ => show win5_8.index t (2 : Fin 3) * 300 + 1 * (j 2).val = (j 2).val; rw [e2]; omega
  exact ((congrArg (out5_8 (iblk5 V c 0 t) (iblk5 V c 1 t) (iblk5 V c 2 t) (iblk5 V c 3 t) (iblk5 V c 4 t) (iblk5 V c 5 t) (iblk5 V c 6 t)) hx).trans (hout _)).trans
    (hstat.symm.trans (congrArg (tileStats (r5_Z V c)) he).symm)

/-- What tile t writes back to the statistics is its slab of the tile statistics of the closed form. -/
theorem r5_flushed8 (c : Dev nD) (t : Fin cfg5.N) :
    (dat5 V c).flushed 8 t = ((cfg5.win 8).blk t).view.read (Elt Ideal) (tileStats (r5_Z V c)) := by
  show (cfg5.win 8).cut (grid5.coords t) ((dat5 V c).after 8 t) = _
  rw [after5_8]
  funext j
  have hj1 : (j 1).val < 2 := (j 1).isLt
  have hj2 : (j 2).val < 300 := (j 2).isLt
  rcases Nat.lt_or_ge (j 1).val 1 with hs | hs
  · exact r5_flushed8_at V c t j 0 (by show (j 1).val = 0; omega) hj2 _ (fun u => (r5_out8 V c t u ⟨(j 2).val, hj2⟩).1)
      ((tileStats_zero _ (r5_tile t) ⟨(j 2).val, hj2⟩).trans
        (Finset.sum_congr rfl fun p _ => (r5_tile_apply V c t p ⟨(j 2).val, hj2⟩).symm))
  · exact r5_flushed8_at V c t j 1 (by show (j 1).val = 1; omega) hj2 _ (fun u => (r5_out8 V c t u ⟨(j 2).val, hj2⟩).2)
      ((tileStats_one _ (r5_tile t) ⟨(j 2).val, hj2⟩).trans (Finset.sum_congr rfl fun p _ =>
        (congrArg₂ (fun (a b : EReal) => a * b) (r5_tile_apply V c t p ⟨(j 2).val, hj2⟩)
          (r5_tile_apply V c t p ⟨(j 2).val, hj2⟩)).symm))

/-- Membership in tile t's slab of the statistics, by coordinates. -/
theorem r5_mem_blk8 (t : Fin cfg5.N) (i : S10x2x300.Idx) :
    i ∈ ((cfg5.win 8).blk t).view.set ↔ ∀ a : Fin 3, win5_8.index t a * S1x2x300.size a ≤ (i a).val
      ∧ (i a).val < win5_8.index t a * S1x2x300.size a + S1x2x300.size a := by
  show i ∈ ((View.whole main_v144_1).slice (win5_8.rect t)).set ↔ _
  rw [View.set_slice_whole, Rect.mem_set_unit]
  exact Iff.rfl

/-- Every entry of the statistics is in its tile's slab. -/
theorem r5_cover8 (i : S10x2x300.Idx) :
    ∃ t : Fin cfg5.N, (cfg5.win 8).flush t = true ∧ i ∈ ((cfg5.win 8).blk t).view.set := by
  have hN : cfg5.N = 10 := N_5
  have h0 : (i 0).val < 10 := (i 0).isLt
  have h1 : (i 1).val < 2 := (i 1).isLt
  have h2 : (i 2).val < 300 := (i 2).isLt
  have ht : (i 0).val < cfg5.N := by rw [hN]; exact h0
  obtain ⟨-, -, -, -, -, -, -, -, -, -, -, -, -, -, -, -, e0, e1, e2⟩ := r5_idx ⟨(i 0).val, ht⟩
  refine ⟨⟨(i 0).val, ht⟩, flush5_8 _, ?_⟩
  rw [r5_mem_blk8]
  intro a
  match a with
  | ⟨0, _⟩ =>
    show win5_8.index ⟨(i 0).val, ht⟩ (0 : Fin 3) * 1 ≤ (i 0).val ∧ (i 0).val < win5_8.index ⟨(i 0).val, ht⟩ (0 : Fin 3) * 1 + 1
    rw [e0]; show (i 0).val * 1 ≤ (i 0).val ∧ (i 0).val < (i 0).val * 1 + 1; omega
  | ⟨1, _⟩ =>
    show win5_8.index ⟨(i 0).val, ht⟩ (1 : Fin 3) * 2 ≤ (i 1).val ∧ (i 1).val < win5_8.index ⟨(i 0).val, ht⟩ (1 : Fin 3) * 2 + 2
    rw [e1]; omega
  | ⟨2, _⟩ =>
    show win5_8.index ⟨(i 0).val, ht⟩ (2 : Fin 3) * 300 ≤ (i 2).val ∧ (i 2).val < win5_8.index ⟨(i 0).val, ht⟩ (2 : Fin 3) * 300 + 300
    rw [e2]; omega

/-- THE STATISTICS ARRAY after the region: the tile statistics of the normalised second dense stage of the region's inputs. -/
theorem arr5_8 (c : Dev nD) :
    (dat5 (F := Ideal) V c).arrAt 8 cfg5.N
      = tileStats (z2Of (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6))) :=
  (dat5 V c).arrAt_eq_of_cover 8 (tileStats (r5_Z V c)) (fun t _ => r5_flushed8 V c t) r5_cover8

end Cert.KernelIdeal.RVal

end
-- ==== Proof.Region6.lean ====
/-
  The normalising region in closed form. Its grid has 10 points; point t reads rows 2000t … 2000t + 1999 of the
  [20000, 300] input and the four one-row operands whole, and writes the same rows of both outputs. Every entry of a
  written block is the body's value at that entry, which depends only on the input's entry at the same place and on
  the one-row operands at the same column; so each output array, once all ten blocks are written, is the one
  function  max((z − mean) · rsqrt(var + ε) · g + be, 0)  of the arrays the region found, entry by entry. The second
  output is the first narrowed, which is the identity on extended reals.
-/
import proofs.«119086_j26585847562989_2_alg».proof.Proof.Gen.KernelIdeal.Frame
import Idealize.ShloMosaic.Lib.Pipeline.Value
import proofs.«119086_j26585847562989_2_alg».proof.Proof.ReadEncBn

-- an array's shape is found by walking the program's list of buffers up to the array; the later the region, the longer the walk
set_option maxHeartbeats 1600000

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem r6_hz : (![0, 0] : Fin 2 → Nat) = fun _ => 0 := funext fun a => by fin_cases a <;> rfl

/-- The body's first stored value at (p, q) is the closed form of its five loaded blocks there. -/
theorem r6_pay1_apply (v0 v7 v13 v17 : Vec Ideal S1x300 .f32) (v5 : Vec Ideal S2000x300 .f32) (p : Fin 2000) (q : Fin 300) :
    k6_pay1 v0 v5 v7 v13 v17 (ix2 p q) = bnReluOf v5 v7 v0 v13 v17 (ix2 p q) := by
  unfold k6_pay1
  exact bnBody_apply v5 v7 v0 v13 v17 _ _ _ p q

/-- The second stored value is the first narrowed: the same extended real. -/
theorem r6_pay2_apply (v0 v7 v13 v17 : Vec Ideal S1x300 .f32) (v5 : Vec Ideal S2000x300 .f32) (p : Fin 2000) (q : Fin 300) :
    k6_pay2 v0 v5 v7 v13 v17 (ix2 p q) = bnReluOf v5 v7 v0 v13 v17 (ix2 p q) :=
  r6_pay1_apply v0 v7 v13 v17 v5 p q

/-- One entry of a block: if the input block's entry y is the array's entry i and the two share their column, the
    body's value at y is the closed form of the array at i. -/
theorem r6_point1 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k6_pay1 x2 x0 x1 x3 x4 y = bnReluOf z x1 x2 x3 x4 i := by
  obtain ⟨p, q, rfl⟩ : ∃ (p : Fin 2000) (q : Fin 300), y = ix2 p q := ⟨y 0, y 1, eq_ix2 y⟩
  obtain ⟨a, b, rfl⟩ : ∃ (a : Fin 20000) (b : Fin 300), i = ix2 a b := ⟨i 0, i 1, eq_ix2 i⟩
  obtain rfl : b = q := Fin.ext h1
  rw [r6_pay1_apply, bnReluOf_apply, bnReluOf_apply, h0]

theorem r6_point2 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k6_pay2 x2 x0 x1 x3 x4 y = bnReluOf z x1 x2 x3 x4 i :=
  r6_point1 x0 x1 x2 x3 x4 z i y h0 h1

/-- The printed index maps over the ten points: the input and both outputs are at block (t, 0), the one-row operands
    at block (0, 0). -/
theorem r6_idx : ∀ t : Fin cfg6.N,
    win6_0.index t (0 : Fin 2) = t.val ∧ win6_0.index t (1 : Fin 2) = 0
    ∧ win6_5.index t (0 : Fin 2) = t.val ∧ win6_5.index t (1 : Fin 2) = 0
    ∧ win6_6.index t (0 : Fin 2) = t.val ∧ win6_6.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- A one-row operand's block is the whole one-row array, at every point. -/
theorem r6_row1 (c : Dev nD) (t : Fin cfg6.N) :
    (iblk6 V c 1 t : Vec Ideal S1x300 .f32) = (V c (Pipeline.arrRef spec6 1) : S1x300.Idx → EReal) := by
  obtain ⟨-, -, -, -, -, -, e0, e1, -⟩ := r6_idx t
  funext y
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 1 + 1 * (y 0).val = (y 0).val; rw [e0]; omega
  | ⟨1, _⟩ => show win6_1.index t (1 : Fin 2) * 300 + 1 * (y 1).val = (y 1).val; rw [e1]; omega
theorem r6_row2 (c : Dev nD) (t : Fin cfg6.N) :
    (iblk6 V c 2 t : Vec Ideal S1x300 .f32) = (V c (Pipeline.arrRef spec6 2) : S1x300.Idx → EReal) := by
  obtain ⟨-, -, -, -, -, -, -, -, e0, e1, -⟩ := r6_idx t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; rw [e0]; omega
  | ⟨1, _⟩ => show win6_2.index t (1 : Fin 2) * 300 + 1 * (y 1).val = (y 1).val; rw [e1]; omega
theorem r6_row3 (c : Dev nD) (t : Fin cfg6.N) :
    (iblk6 V c 3 t : Vec Ideal S1x300 .f32) = (V c (Pipeline.arrRef spec6 3) : S1x300.Idx → EReal) := by
  obtain ⟨-, -, -, -, -, -, -, -, -, -, e0, e1, -⟩ := r6_idx t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; rw [e0]; omega
  | ⟨1, _⟩ => show win6_3.index t (1 : Fin 2) * 300 + 1 * (y 1).val = (y 1).val; rw [e1]; omega
theorem r6_row4 (c : Dev nD) (t : Fin cfg6.N) :
    (iblk6 V c 4 t : Vec Ideal S1x300 .f32) = (V c (Pipeline.arrRef spec6 4) : S1x300.Idx → EReal) := by
  obtain ⟨-, -, -, -, -, -, -, -, -, -, -, -, e0, e1⟩ := r6_idx t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; rw [e0]; omega
  | ⟨1, _⟩ => show win6_4.index t (1 : Fin 2) * 300 + 1 * (y 1).val = (y 1).val; rw [e1]; omega

/-- The region's closed form of the arrays it finds. -/
abbrev r6_G (c : Dev nD) : S20000x300.Idx → EReal :=
  bnReluOf (m := 20000) (n := 300) (V c (Pipeline.arrRef spec6 0)) (V c (Pipeline.arrRef spec6 1)) (V c (Pipeline.arrRef spec6 2))
    (V c (Pipeline.arrRef spec6 3)) (V c (Pipeline.arrRef spec6 4))

/-- What point t writes back to the first output is block t of the closed form. -/
theorem r6_flushed5 (c : Dev nD) (t : Fin cfg6.N) :
    (dat6 V c).flushed 5 t = ((cfg6.win 5).blk t).view.read (Elt Ideal) (r6_G V c) := by
  show (cfg6.win 5).cut (grid6.coords t) ((dat6 V c).after 5 t) = _
  rw [after6_5]
  unfold out6_5
  rw [View.canon_unit_zero r6_hz]
  simp only [View.ld_unit_zero (S := S2000x300) r6_hz, View.ld_unit_zero (S := S1x300) r6_hz]
  rw [r6_row1, r6_row2, r6_row3, r6_row4]
  obtain ⟨a0, a1, b0, b1, -⟩ := r6_idx t
  funext j
  show k6_pay1 (V c (Pipeline.arrRef spec6 2)) (iblk6 V c 0 t) (V c (Pipeline.arrRef spec6 1)) (V c (Pipeline.arrRef spec6 3))
      (V c (Pipeline.arrRef spec6 4)) j = r6_G V c (((cfg6.win 5).blk t).view.emb j)
  refine r6_point1 (iblk6 V c 0 t) (V c (Pipeline.arrRef spec6 1)) (V c (Pipeline.arrRef spec6 2)) (V c (Pipeline.arrRef spec6 3))
    (V c (Pipeline.arrRef spec6 4)) (V c (Pipeline.arrRef spec6 0)) (((cfg6.win 5).blk t).view.emb j) j ?_ ?_
  · show V c (Pipeline.arrRef spec6 0) (((cfg6.win 0).blk t).view.emb j) = V c (Pipeline.arrRef spec6 0) (((cfg6.win 5).blk t).view.emb j)
    refine congrArg _ (funext fun a => Fin.ext ?_)
    match a with
    | ⟨0, _⟩ => show win6_0.index t (0 : Fin 2) * 2000 + 1 * (j 0).val = win6_5.index t (0 : Fin 2) * 2000 + 1 * (j 0).val; rw [a0, b0]
    | ⟨1, _⟩ => show win6_0.index t (1 : Fin 2) * 300 + 1 * (j 1).val = win6_5.index t (1 : Fin 2) * 300 + 1 * (j 1).val; rw [a1, b1]
  · show win6_5.index t (1 : Fin 2) * 300 + 1 * (j 1).val = (j 1).val
    rw [b1]; omega

/-- What point t writes back to the second output is block t of the same closed form. -/
theorem r6_flushed6 (c : Dev nD) (t : Fin cfg6.N) :
    (dat6 V c).flushed 6 t = ((cfg6.win 6).blk t).view.read (Elt Ideal) (r6_G V c) := by
  show (cfg6.win 6).cut (grid6.coords t) ((dat6 V c).after 6 t) = _
  rw [after6_6]
  unfold out6_6
  rw [View.canon_unit_zero r6_hz]
  simp only [View.ld_unit_zero (S := S2000x300) r6_hz, View.ld_unit_zero (S := S1x300) r6_hz]
  rw [r6_row1, r6_row2, r6_row3, r6_row4]
  obtain ⟨a0, a1, -, -, b0, b1, -⟩ := r6_idx t
  funext j
  show k6_pay2 (V c (Pipeline.arrRef spec6 2)) (iblk6 V c 0 t) (V c (Pipeline.arrRef spec6 1)) (V c (Pipeline.arrRef spec6 3))
      (V c (Pipeline.arrRef spec6 4)) j = r6_G V c (((cfg6.win 6).blk t).view.emb j)
  refine r6_point2 (iblk6 V c 0 t) (V c (Pipeline.arrRef spec6 1)) (V c (Pipeline.arrRef spec6 2)) (V c (Pipeline.arrRef spec6 3))
    (V c (Pipeline.arrRef spec6 4)) (V c (Pipeline.arrRef spec6 0)) (((cfg6.win 6).blk t).view.emb j) j ?_ ?_
  · show V c (Pipeline.arrRef spec6 0) (((cfg6.win 0).blk t).view.emb j) = V c (Pipeline.arrRef spec6 0) (((cfg6.win 6).blk t).view.emb j)
    refine congrArg _ (funext fun a => Fin.ext ?_)
    match a with
    | ⟨0, _⟩ => show win6_0.index t (0 : Fin 2) * 2000 + 1 * (j 0).val = win6_6.index t (0 : Fin 2) * 2000 + 1 * (j 0).val; rw [a0, b0]
    | ⟨1, _⟩ => show win6_0.index t (1 : Fin 2) * 300 + 1 * (j 1).val = win6_6.index t (1 : Fin 2) * 300 + 1 * (j 1).val; rw [a1, b1]
  · show win6_6.index t (1 : Fin 2) * 300 + 1 * (j 1).val = (j 1).val
    rw [b1]; omega

/-- An entry of the array is in point t's block of the first output iff each coordinate is in the block's range. -/
theorem r6_mem_blk5 (t : Fin cfg6.N) (i : S20000x300.Idx) :
    i ∈ ((cfg6.win 5).blk t).view.set ↔ ∀ a : Fin 2, win6_5.index t a * S2000x300.size a ≤ (i a).val ∧ (i a).val < win6_5.index t a * S2000x300.size a + S2000x300.size a := by
  show i ∈ ((View.whole main_v167_0).slice (win6_5.rect t)).set ↔ _
  rw [View.set_slice_whole, Rect.mem_set_unit]
  exact Iff.rfl
theorem r6_mem_blk6 (t : Fin cfg6.N) (i : S20000x300.Idx) :
    i ∈ ((cfg6.win 6).blk t).view.set ↔ ∀ a : Fin 2, win6_6.index t a * S2000x300.size a ≤ (i a).val ∧ (i a).val < win6_6.index t a * S2000x300.size a + S2000x300.size a := by
  show i ∈ ((View.whole main_v167_1).slice (win6_6.rect t)).set ↔ _
  rw [View.set_slice_whole, Rect.mem_set_unit]
  exact Iff.rfl

/-- Row r of the array is in the block of point r / 2000: the ten blocks cover the array. -/
theorem r6_cover5 (i : S20000x300.Idx) :
    ∃ t : Fin cfg6.N, (cfg6.win 5).flush t = true ∧ i ∈ ((cfg6.win 5).blk t).view.set := by
  have hi0 : (i 0).val < 20000 := (i 0).isLt
  have hi1 : (i 1).val < 300 := (i 1).isLt
  obtain ⟨t, ht⟩ : ∃ t : Fin cfg6.N, t.val = (i 0).val / 2000 :=
    ⟨⟨(i 0).val / 2000, by rw [show cfg6.N = 10 from N_6]; omega⟩, rfl⟩
  obtain ⟨-, -, b0, b1, -⟩ := r6_idx t
  refine ⟨t, flush6_5 t, ?_⟩
  rw [r6_mem_blk5]
  intro a
  match a with
  | ⟨0, _⟩ => show win6_5.index t (0 : Fin 2) * 2000 ≤ (i 0).val ∧ (i 0).val < win6_5.index t (0 : Fin 2) * 2000 + 2000; rw [b0, ht]; omega
  | ⟨1, _⟩ => show win6_5.index t (1 : Fin 2) * 300 ≤ (i 1).val ∧ (i 1).val < win6_5.index t (1 : Fin 2) * 300 + 300; rw [b1]; omega
theorem r6_cover6 (i : S20000x300.Idx) :
    ∃ t : Fin cfg6.N, (cfg6.win 6).flush t = true ∧ i ∈ ((cfg6.win 6).blk t).view.set := by
  have hi0 : (i 0).val < 20000 := (i 0).isLt
  have hi1 : (i 1).val < 300 := (i 1).isLt
  obtain ⟨t, ht⟩ : ∃ t : Fin cfg6.N, t.val = (i 0).val / 2000 :=
    ⟨⟨(i 0).val / 2000, by rw [show cfg6.N = 10 from N_6]; omega⟩, rfl⟩
  obtain ⟨-, -, -, -, b0, b1, -⟩ := r6_idx t
  refine ⟨t, flush6_6 t, ?_⟩
  rw [r6_mem_blk6]
  intro a
  match a with
  | ⟨0, _⟩ => show win6_6.index t (0 : Fin 2) * 2000 ≤ (i 0).val ∧ (i 0).val < win6_6.index t (0 : Fin 2) * 2000 + 2000; rw [b0, ht]; omega
  | ⟨1, _⟩ => show win6_6.index t (1 : Fin 2) * 300 ≤ (i 1).val ∧ (i 1).val < win6_6.index t (1 : Fin 2) * 300 + 300; rw [b1]; omega

/-- THE FIRST OUTPUT after the region: the closed form of the arrays the region found. -/
theorem arr6_5 (c : Dev nD) :
    (dat6 V c).arrAt 5 cfg6.N
      = bnReluOf (m := 20000) (n := 300) (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 (r6_G V c) (fun t _ => r6_flushed5 V c t) (fun i => r6_cover5 i)

/-- THE SECOND OUTPUT after the region: the same closed form. -/
theorem arr6_6 (c : Dev nD) :
    (dat6 V c).arrAt 6 cfg6.N
      = bnReluOf (m := 20000) (n := 300) (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 6 (r6_G V c) (fun t _ => r6_flushed6 V c t) (fun i => r6_cover6 i)

end Cert.KernelIdeal.RVal

end
-- ==== Proof.KernelChainL1.lean ====
/- Layer 1 of the kernel, from the buffers as the layer finds them to the buffers as it leaves them, at the exact
   extended-real values: the three host stretches and the three kernels of the layer composed. Whatever the node rows,
   their bf16 copy, the edge embedding, the edges' endpoints and the stacked parameters are where the layer begins, the
   node rows the layer leaves are ONE function (`kerLayer`) of them; what the layer does not write it keeps. -/
import proofs.«119086_j26585847562989_2_alg».proof.Proof.Gen.KernelIdeal.Frame
import Idealize.ShloMosaic.PureOps.Ideal
import proofs.«119086_j26585847562989_2_alg».proof.Proof.KernelStretch4
import proofs.«119086_j26585847562989_2_alg».proof.Proof.KernelStretch5
import proofs.«119086_j26585847562989_2_alg».proof.Proof.KernelStretch6
import proofs.«119086_j26585847562989_2_alg».proof.Proof.Region4
import proofs.«119086_j26585847562989_2_alg».proof.Proof.Region5
import proofs.«119086_j26585847562989_2_alg».proof.Proof.Region6
import proofs.«119086_j26585847562989_2_alg».proof.Proof.KernelChainDefs
import proofs.«119086_j26585847562989_2_alg».proof.Proof.KernelChainRefs

set_option maxRecDepth 16384
set_option maxHeartbeats 2000000

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (ρ : Dev nD → PrngReg) (c : Dev nD)

/-! ## What the layer keeps -/

/-- Through the first stretch and the first kernel. -/
theorem keep1_a (b : Ref sig .tc) (h1 : b ∉ writes4) (a1 : ∀ w, Pipeline.arrRef spec4 w ≠ b) :
    W10 (F := Ideal) m ρ c (Proc.devRef .tc b) = W8 m ρ c (Proc.devRef .tc b) :=
  (W10_of_ne m ρ c b a1).trans (st4_keep (W8 m ρ c) b h1)

/-- Through the first two stretches and the first two kernels. -/
theorem keep1_b (b : Ref sig .tc) (h1 : b ∉ writes4) (h2 : b ∉ writes5)
    (a1 : ∀ w, Pipeline.arrRef spec4 w ≠ b) (a2 : ∀ w, Pipeline.arrRef spec5 w ≠ b) :
    W12 (F := Ideal) m ρ c (Proc.devRef .tc b) = W8 m ρ c (Proc.devRef .tc b) :=
  (W12_of_ne m ρ c b a2).trans ((st5_keep (W10 m ρ c) b h2).trans (keep1_a m ρ c b h1 a1))

/-- Through the whole layer. -/
theorem keep1 (b : Ref sig .tc) (h1 : b ∉ writes4) (h2 : b ∉ writes5) (h3 : b ∉ writes6)
    (a1 : ∀ w, Pipeline.arrRef spec4 w ≠ b) (a2 : ∀ w, Pipeline.arrRef spec5 w ≠ b)
    (a3 : ∀ w, Pipeline.arrRef spec6 w ≠ b) :
    W14 (F := Ideal) m ρ c (Proc.devRef .tc b) = W8 m ρ c (Proc.devRef .tc b) :=
  (W14_of_ne m ρ c b a3).trans ((st6_keep (W12 m ρ c) b h3).trans (keep1_b m ρ c b h1 h2 a1 a2))

/-- The edge embedding, the endpoints and the argument arrays are after the layer as before it. -/
theorem l1_keeps (b : Ref sig .tc) (hb : b ∈ keptRefs) : W14 (F := Ideal) m ρ c (Proc.devRef .tc b) = W8 m ρ c (Proc.devRef .tc b) := by
  simp only [keptRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl
  all_goals exact keep1 m ρ c _ (by decide) (by decide) (by decide) (by decide) (by decide) (by decide)

/-! ## The three kernels' outputs, each over whatever the buffers hold where its stage begins -/

/-- The first dense stage. -/
theorem l1_z1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W8 (F := Ideal) m ρ c (Proc.devRef .tc main_v90_0) = H) (hHb : W8 (F := Ideal) m ρ c (Proc.devRef .tc main_v90_1) = Hb) (hEa : W8 (F := Ideal) m ρ c (Proc.devRef .tc main_v13) = Ea)
    (hSr : W8 (F := Ideal) m ρ c (Proc.devRef .tc main_v1) = Sr) (hDs : W8 (F := Ideal) m ρ c (Proc.devRef .tc main_v3) = Ds) (h7 : W8 (F := Ideal) m ρ c (Proc.devRef .tc main_arg7) = a7) (h8 : W8 (F := Ideal) m ρ c (Proc.devRef .tc main_arg8) = a8)
    (h9 : W8 (F := Ideal) m ρ c (Proc.devRef .tc main_arg9) = a9) :
    W10 (F := Ideal) m ρ c (Proc.devRef .tc main_v116_0)
    = RVal.z1Of H (aggregate (F := Ideal) Hb Ea Sr Ds) (scaleRow (F := Ideal) a7 ![1] slices_S5_S1_1) (layerMat (F := Ideal) a8 ![1, 0, 0] slices_S5x300x300_S1x300x300_1_0_0)
        (rowOf (F := Ideal) (layerVec (F := Ideal) a9 ![1, 0] slices_S5x300_S1x300_1_0)) := by
  subst hH hHb hEa hSr hDs h7 h8 h9
  have e0 : V9 (F := Ideal) m ρ c (Pipeline.arrRef spec4 0) = W8 m ρ c (Proc.devRef .tc main_v90_0) := st4_keep (W8 m ρ c) main_v90_0 (by decide)
  exact ((W10_arr m ρ c 5).trans (RVal.arr4_5 (V9 m ρ) c)).trans
    (congr (congr (congr (congr (congrArg RVal.z1Of e0) (st4_v105 (W8 m ρ c))) (st4_v110 (W8 m ρ c)))
      (st4_v112 (W8 m ρ c))) (st4_v115 (W8 m ρ c)))

/-- Its per-tile column sums and sums of squares. -/
theorem l1_p1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W8 (F := Ideal) m ρ c (Proc.devRef .tc main_v90_0) = H) (hHb : W8 (F := Ideal) m ρ c (Proc.devRef .tc main_v90_1) = Hb) (hEa : W8 (F := Ideal) m ρ c (Proc.devRef .tc main_v13) = Ea)
    (hSr : W8 (F := Ideal) m ρ c (Proc.devRef .tc main_v1) = Sr) (hDs : W8 (F := Ideal) m ρ c (Proc.devRef .tc main_v3) = Ds) (h7 : W8 (F := Ideal) m ρ c (Proc.devRef .tc main_arg7) = a7) (h8 : W8 (F := Ideal) m ρ c (Proc.devRef .tc main_arg8) = a8)
    (h9 : W8 (F := Ideal) m ρ c (Proc.devRef .tc main_arg9) = a9) :
    W10 (F := Ideal) m ρ c (Proc.devRef .tc main_v116_1)
    = RVal.tileStats (RVal.z1Of H (aggregate (F := Ideal) Hb Ea Sr Ds) (scaleRow (F := Ideal) a7 ![1] slices_S5_S1_1) (layerMat (F := Ideal) a8 ![1, 0, 0] slices_S5x300x300_S1x300x300_1_0_0)
        (rowOf (F := Ideal) (layerVec (F := Ideal) a9 ![1, 0] slices_S5x300_S1x300_1_0))) :=
  (W10_arr m ρ c 6).trans ((RVal.arr4_6 (V9 m ρ) c).trans
    (congrArg RVal.tileStats ((((W10_arr m ρ c 5).trans (RVal.arr4_5 (V9 m ρ) c)).symm).trans
      (l1_z1 m ρ c hH hHb hEa hSr hDs h7 h8 h9))))

/-- The normalised second dense stage. -/
theorem l1_z2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W10 (F := Ideal) m ρ c (Proc.devRef .tc main_v116_0) = Z1) (hP1 : W10 (F := Ideal) m ρ c (Proc.devRef .tc main_v116_1) = P1)
    (h10 : W10 (F := Ideal) m ρ c (Proc.devRef .tc main_arg10) = a10) (h11 : W10 (F := Ideal) m ρ c (Proc.devRef .tc main_arg11) = a11) (h12 : W10 (F := Ideal) m ρ c (Proc.devRef .tc main_arg12) = a12)
    (h13 : W10 (F := Ideal) m ρ c (Proc.devRef .tc main_arg13) = a13) :
    W12 (F := Ideal) m ρ c (Proc.devRef .tc main_v144_0)
    = RVal.z2Of Z1 (rowOf (F := Ideal) (bnMean (F := Ideal) P1)) (rowOf (F := Ideal) (bnVar (F := Ideal) P1))
        (rowOf (F := Ideal) (layerVec (F := Ideal) a10 ![1, 0] slices_S5x300_S1x300_1_0)) (rowOf (F := Ideal) (layerVec (F := Ideal) a11 ![1, 0] slices_S5x300_S1x300_1_0))
        (layerMat (F := Ideal) a12 ![1, 0, 0] slices_S5x300x300_S1x300x300_1_0_0) (rowOf (F := Ideal) (layerVec (F := Ideal) a13 ![1, 0] slices_S5x300_S1x300_1_0)) := by
  subst hZ1 hP1 h10 h11 h12 h13
  have e0 : V11 (F := Ideal) m ρ c (Pipeline.arrRef spec5 0) = W10 m ρ c (Proc.devRef .tc main_v116_0) := st5_keep (W10 m ρ c) main_v116_0 (by decide)
  exact ((W12_arr m ρ c 7).trans (RVal.arr5_7 (V11 m ρ) c)).trans
    (congr (congr (congr (congr (congr (congr (congrArg RVal.z2Of e0) (st5_v139 (W10 m ρ c))) (st5_v140 (W10 m ρ c)))
      (st5_v141 (W10 m ρ c))) (st5_v142 (W10 m ρ c))) (st5_v136 (W10 m ρ c))) (st5_v143 (W10 m ρ c)))

/-- Its per-tile column sums and sums of squares. -/
theorem l1_p2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W10 (F := Ideal) m ρ c (Proc.devRef .tc main_v116_0) = Z1) (hP1 : W10 (F := Ideal) m ρ c (Proc.devRef .tc main_v116_1) = P1)
    (h10 : W10 (F := Ideal) m ρ c (Proc.devRef .tc main_arg10) = a10) (h11 : W10 (F := Ideal) m ρ c (Proc.devRef .tc main_arg11) = a11) (h12 : W10 (F := Ideal) m ρ c (Proc.devRef .tc main_arg12) = a12)
    (h13 : W10 (F := Ideal) m ρ c (Proc.devRef .tc main_arg13) = a13) :
    W12 (F := Ideal) m ρ c (Proc.devRef .tc main_v144_1)
    = RVal.tileStats (RVal.z2Of Z1 (rowOf (F := Ideal) (bnMean (F := Ideal) P1)) (rowOf (F := Ideal) (bnVar (F := Ideal) P1))
        (rowOf (F := Ideal) (layerVec (F := Ideal) a10 ![1, 0] slices_S5x300_S1x300_1_0)) (rowOf (F := Ideal) (layerVec (F := Ideal) a11 ![1, 0] slices_S5x300_S1x300_1_0))
        (layerMat (F := Ideal) a12 ![1, 0, 0] slices_S5x300x300_S1x300x300_1_0_0) (rowOf (F := Ideal) (layerVec (F := Ideal) a13 ![1, 0] slices_S5x300_S1x300_1_0))) :=
  (W12_arr m ρ c 8).trans ((RVal.arr5_8 (V11 m ρ) c).trans
    (congrArg RVal.tileStats ((((W12_arr m ρ c 7).trans (RVal.arr5_7 (V11 m ρ) c)).symm).trans
      (l1_z2 m ρ c hZ1 hP1 h10 h11 h12 h13))))

/-- The last normalisation and clamp: the node rows. -/
theorem l1_out0 {Z2 : FVec Ideal S20000x300 .f32} {P2 : FVec Ideal S10x2x300 .f32} {a14 a15 : FVec Ideal S5x300 .f32}
    (hZ2 : W12 (F := Ideal) m ρ c (Proc.devRef .tc main_v144_0) = Z2) (hP2 : W12 (F := Ideal) m ρ c (Proc.devRef .tc main_v144_1) = P2)
    (h14 : W12 (F := Ideal) m ρ c (Proc.devRef .tc main_arg14) = a14) (h15 : W12 (F := Ideal) m ρ c (Proc.devRef .tc main_arg15) = a15) :
    W14 (F := Ideal) m ρ c (Proc.devRef .tc main_v167_0)
    = RVal.bnReluOf (m := 20000) (n := 300) Z2 (rowOf (F := Ideal) (bnMean (F := Ideal) P2))
        (rowOf (F := Ideal) (bnVar (F := Ideal) P2)) (rowOf (F := Ideal) (layerVec (F := Ideal) a14 ![1, 0] slices_S5x300_S1x300_1_0))
        (rowOf (F := Ideal) (layerVec (F := Ideal) a15 ![1, 0] slices_S5x300_S1x300_1_0)) := by
  subst hZ2 hP2 h14 h15
  have e0 : V13 (F := Ideal) m ρ c (Pipeline.arrRef spec6 0) = W12 m ρ c (Proc.devRef .tc main_v144_0) := st6_keep (W12 m ρ c) main_v144_0 (by decide)
  exact ((W14_arr m ρ c 5).trans (RVal.arr6_5 (V13 m ρ) c)).trans
    (congr (congr (congr (congr (congrArg (RVal.bnReluOf (m := 20000) (n := 300)) e0) (st6_v163 (W12 m ρ c))) (st6_v164 (W12 m ρ c)))
      (st6_v165 (W12 m ρ c))) (st6_v166 (W12 m ρ c)))

/-- The same for the copy in the bf16-typed buffer. -/
theorem l1_out1 {Z2 : FVec Ideal S20000x300 .f32} {P2 : FVec Ideal S10x2x300 .f32} {a14 a15 : FVec Ideal S5x300 .f32}
    (hZ2 : W12 (F := Ideal) m ρ c (Proc.devRef .tc main_v144_0) = Z2) (hP2 : W12 (F := Ideal) m ρ c (Proc.devRef .tc main_v144_1) = P2)
    (h14 : W12 (F := Ideal) m ρ c (Proc.devRef .tc main_arg14) = a14) (h15 : W12 (F := Ideal) m ρ c (Proc.devRef .tc main_arg15) = a15) :
    W14 (F := Ideal) m ρ c (Proc.devRef .tc main_v167_1)
    = RVal.bnReluOf (m := 20000) (n := 300) Z2 (rowOf (F := Ideal) (bnMean (F := Ideal) P2))
        (rowOf (F := Ideal) (bnVar (F := Ideal) P2)) (rowOf (F := Ideal) (layerVec (F := Ideal) a14 ![1, 0] slices_S5x300_S1x300_1_0))
        (rowOf (F := Ideal) (layerVec (F := Ideal) a15 ![1, 0] slices_S5x300_S1x300_1_0)) := by
  subst hZ2 hP2 h14 h15
  have e0 : V13 (F := Ideal) m ρ c (Pipeline.arrRef spec6 0) = W12 m ρ c (Proc.devRef .tc main_v144_0) := st6_keep (W12 m ρ c) main_v144_0 (by decide)
  exact ((W14_arr m ρ c 6).trans (RVal.arr6_6 (V13 m ρ) c)).trans
    (congr (congr (congr (congr (congrArg (RVal.bnReluOf (m := 20000) (n := 300)) e0) (st6_v163 (W12 m ρ c))) (st6_v164 (W12 m ρ c)))
      (st6_v165 (W12 m ρ c))) (st6_v166 (W12 m ρ c)))

/-! ## The layer as one function of what the buffers hold where it begins -/

/-- The node rows the layer leaves. -/
theorem l1_h {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W8 (F := Ideal) m ρ c (Proc.devRef .tc main_v90_0) = H) (hHb : W8 (F := Ideal) m ρ c (Proc.devRef .tc main_v90_1) = Hb) (hEa : W8 (F := Ideal) m ρ c (Proc.devRef .tc main_v13) = Ea)
    (hSr : W8 (F := Ideal) m ρ c (Proc.devRef .tc main_v1) = Sr) (hDs : W8 (F := Ideal) m ρ c (Proc.devRef .tc main_v3) = Ds) (h7 : W8 (F := Ideal) m ρ c (Proc.devRef .tc main_arg7) = a7) (h8 : W8 (F := Ideal) m ρ c (Proc.devRef .tc main_arg8) = a8)
    (h9 : W8 (F := Ideal) m ρ c (Proc.devRef .tc main_arg9) = a9)
    (h10 : W8 (F := Ideal) m ρ c (Proc.devRef .tc main_arg10) = a10) (h11 : W8 (F := Ideal) m ρ c (Proc.devRef .tc main_arg11) = a11) (h12 : W8 (F := Ideal) m ρ c (Proc.devRef .tc main_arg12) = a12)
    (h13 : W8 (F := Ideal) m ρ c (Proc.devRef .tc main_arg13) = a13) (h14 : W8 (F := Ideal) m ρ c (Proc.devRef .tc main_arg14) = a14) (h15 : W8 (F := Ideal) m ρ c (Proc.devRef .tc main_arg15) = a15) :
    W14 (F := Ideal) m ρ c (Proc.devRef .tc main_v167_0)
    = kerLayer H Hb Ea Sr Ds (scaleRow (F := Ideal) a7 ![1] slices_S5_S1_1) (layerMat (F := Ideal) a8 ![1, 0, 0] slices_S5x300x300_S1x300x300_1_0_0)
        (layerVec (F := Ideal) a9 ![1, 0] slices_S5x300_S1x300_1_0) (layerVec (F := Ideal) a10 ![1, 0] slices_S5x300_S1x300_1_0) (layerVec (F := Ideal) a11 ![1, 0] slices_S5x300_S1x300_1_0)
        (layerMat (F := Ideal) a12 ![1, 0, 0] slices_S5x300x300_S1x300x300_1_0_0) (layerVec (F := Ideal) a13 ![1, 0] slices_S5x300_S1x300_1_0) (layerVec (F := Ideal) a14 ![1, 0] slices_S5x300_S1x300_1_0)
        (layerVec (F := Ideal) a15 ![1, 0] slices_S5x300_S1x300_1_0) :=
  l1_out0 m ρ c
    (l1_z2 m ρ c (l1_z1 m ρ c hH hHb hEa hSr hDs h7 h8 h9) (l1_p1 m ρ c hH hHb hEa hSr hDs h7 h8 h9)
      ((keep1_a m ρ c main_arg10 (by decide) (by decide)).trans h10) ((keep1_a m ρ c main_arg11 (by decide) (by decide)).trans h11)
      ((keep1_a m ρ c main_arg12 (by decide) (by decide)).trans h12) ((keep1_a m ρ c main_arg13 (by decide) (by decide)).trans h13))
    (l1_p2 m ρ c (l1_z1 m ρ c hH hHb hEa hSr hDs h7 h8 h9) (l1_p1 m ρ c hH hHb hEa hSr hDs h7 h8 h9)
      ((keep1_a m ρ c main_arg10 (by decide) (by decide)).trans h10) ((keep1_a m ρ c main_arg11 (by decide) (by decide)).trans h11)
      ((keep1_a m ρ c main_arg12 (by decide) (by decide)).trans h12) ((keep1_a m ρ c main_arg13 (by decide) (by decide)).trans h13))
    ((keep1_b m ρ c main_arg14 (by decide) (by decide) (by decide) (by decide)).trans h14)
    ((keep1_b m ρ c main_arg15 (by decide) (by decide) (by decide) (by decide)).trans h15)

/-- Their copy in the bf16-typed buffer: the same array. -/
theorem l1_hb {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W8 (F := Ideal) m ρ c (Proc.devRef .tc main_v90_0) = H) (hHb : W8 (F := Ideal) m ρ c (Proc.devRef .tc main_v90_1) = Hb) (hEa : W8 (F := Ideal) m ρ c (Proc.devRef .tc main_v13) = Ea)
    (hSr : W8 (F := Ideal) m ρ c (Proc.devRef .tc main_v1) = Sr) (hDs : W8 (F := Ideal) m ρ c (Proc.devRef .tc main_v3) = Ds) (h7 : W8 (F := Ideal) m ρ c (Proc.devRef .tc main_arg7) = a7) (h8 : W8 (F := Ideal) m ρ c (Proc.devRef .tc main_arg8) = a8)
    (h9 : W8 (F := Ideal) m ρ c (Proc.devRef .tc main_arg9) = a9)
    (h10 : W8 (F := Ideal) m ρ c (Proc.devRef .tc main_arg10) = a10) (h11 : W8 (F := Ideal) m ρ c (Proc.devRef .tc main_arg11) = a11) (h12 : W8 (F := Ideal) m ρ c (Proc.devRef .tc main_arg12) = a12)
    (h13 : W8 (F := Ideal) m ρ c (Proc.devRef .tc main_arg13) = a13) (h14 : W8 (F := Ideal) m ρ c (Proc.devRef .tc main_arg14) = a14) (h15 : W8 (F := Ideal) m ρ c (Proc.devRef .tc main_arg15) = a15) :
    W14 (F := Ideal) m ρ c (Proc.devRef .tc main_v167_1)
    = kerLayer H Hb Ea Sr Ds (scaleRow (F := Ideal) a7 ![1] slices_S5_S1_1) (layerMat (F := Ideal) a8 ![1, 0, 0] slices_S5x300x300_S1x300x300_1_0_0)
        (layerVec (F := Ideal) a9 ![1, 0] slices_S5x300_S1x300_1_0) (layerVec (F := Ideal) a10 ![1, 0] slices_S5x300_S1x300_1_0) (layerVec (F := Ideal) a11 ![1, 0] slices_S5x300_S1x300_1_0)
        (layerMat (F := Ideal) a12 ![1, 0, 0] slices_S5x300x300_S1x300x300_1_0_0) (layerVec (F := Ideal) a13 ![1, 0] slices_S5x300_S1x300_1_0) (layerVec (F := Ideal) a14 ![1, 0] slices_S5x300_S1x300_1_0)
        (layerVec (F := Ideal) a15 ![1, 0] slices_S5x300_S1x300_1_0) :=
  l1_out1 m ρ c
    (l1_z2 m ρ c (l1_z1 m ρ c hH hHb hEa hSr hDs h7 h8 h9) (l1_p1 m ρ c hH hHb hEa hSr hDs h7 h8 h9)
      ((keep1_a m ρ c main_arg10 (by decide) (by decide)).trans h10) ((keep1_a m ρ c main_arg11 (by decide) (by decide)).trans h11)
      ((keep1_a m ρ c main_arg12 (by decide) (by decide)).trans h12) ((keep1_a m ρ c main_arg13 (by decide) (by decide)).trans h13))
    (l1_p2 m ρ c (l1_z1 m ρ c hH hHb hEa hSr hDs h7 h8 h9) (l1_p1 m ρ c hH hHb hEa hSr hDs h7 h8 h9)
      ((keep1_a m ρ c main_arg10 (by decide) (by decide)).trans h10) ((keep1_a m ρ c main_arg11 (by decide) (by decide)).trans h11)
      ((keep1_a m ρ c main_arg12 (by decide) (by decide)).trans h12) ((keep1_a m ρ c main_arg13 (by decide) (by decide)).trans h13))
    ((keep1_b m ρ c main_arg14 (by decide) (by decide) (by decide) (by decide)).trans h14)
    ((keep1_b m ρ c main_arg15 (by decide) (by decide) (by decide) (by decide)).trans h15)

end Cert.KernelIdeal.KChain

end
-- ==== Proof.KernelStretch7.lean ====
/- The host stretch between the previous layer's last kernel and the first dense kernel of layer 2 (thirty operations), read from ANY
   contents `W` of the buffers: what it leaves in each buffer that later code reads. It gathers the bf16 node rows at
   the edge sources, adds the edge embedding, clamps at zero, scatter-adds the messages into their destination rows
   (the aggregate), and lays out the layer's scale row 1 + eps, its first weight matrix and its first bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The aggregate of the messages. -/
theorem st7_v182 (W : Valuation τ sig (Elt F)) :
    StableHlo.after hostOps7 W (Proc.devRef .tc main_v182)
      = aggregate (W (Proc.devRef .tc main_v167_1)) (W (Proc.devRef .tc main_v13)) (W (Proc.devRef .tc main_v1)) (W (Proc.devRef .tc main_v3)) := by
  simp only [hostOps7]; after_results_simp; rfl

/-- The scale row 1 + eps of the layer. -/
theorem st7_v187 (W : Valuation τ sig (Elt F)) :
    StableHlo.after hostOps7 W (Proc.devRef .tc main_v187)
      = scaleRow (W (Proc.devRef .tc main_arg7)) ![2] slices_S5_S1_2 := by
  simp only [hostOps7]; after_results; rfl

/-- The layer's first weight matrix. -/
theorem st7_v189 (W : Valuation τ sig (Elt F)) :
    StableHlo.after hostOps7 W (Proc.devRef .tc main_v189)
      = layerMat (W (Proc.devRef .tc main_arg8)) ![2, 0, 0] slices_S5x300x300_S1x300x300_2_0_0 := by
  simp only [hostOps7]; after_results; rfl

/-- The layer's first bias, as one row. -/
theorem st7_v192 (W : Valuation τ sig (Elt F)) :
    StableHlo.after hostOps7 W (Proc.devRef .tc main_v192)
      = rowOf (layerVec (W (Proc.devRef .tc main_arg9)) ![2, 0] slices_S5x300_S1x300_2_0) := by
  simp only [hostOps7]; after_results; rfl

/-- The references the stretch writes, in order. -/
def writes7 : List (Ref sig .tc) :=
  [main_c_30, main_v168, main_v169, main_c_31, main_v170, main_v171, main_v172, main_v173, main_v174, main_v175, main_v176, main_v177, main_cst_32, main_v178, main_v179, main_cst_33, main_v180, main_v181, main_v182, main_v183, main_v184, main_cst_34, main_v185, main_v186, main_v187, main_v188, main_v189, main_v190, main_v191, main_v192]

/-- A buffer the stretch does not write keeps its contents. -/
theorem st7_keep (W : Valuation τ sig (Elt F)) (r : Ref sig .tc) (hr : r ∉ writes7) :
    StableHlo.after hostOps7 W (Proc.devRef .tc r) = W (Proc.devRef .tc r) :=
  StableHlo.after_of_writes_sub hostOps7 W (by
    simp only [hostOps7, writes7, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch8.lean ====
/- The host stretch between the two dense kernels of layer 2 (thirty-two operations), read from ANY contents `W` of
   the buffers: what it leaves in each buffer that later code reads. From the first dense kernel's per-tile column sums
   and sums of squares it forms the column means and the clamped column variances, as rows, and lays out the first
   normalisation's scale and shift rows, the layer's second weight matrix and its second bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st8_v216 (W : Valuation τ sig (Elt F)) :
    StableHlo.after hostOps8 W (Proc.devRef .tc main_v216)
      = rowOf (bnMean (W (Proc.devRef .tc main_v193_1))) := by
  simp only [hostOps8]; after_results; rfl

/-- The clamped column variances, as one row. -/
theorem st8_v217 (W : Valuation τ sig (Elt F)) :
    StableHlo.after hostOps8 W (Proc.devRef .tc main_v217)
      = rowOf (bnVar (W (Proc.devRef .tc main_v193_1))) := by
  simp only [hostOps8]; after_results_simp; rfl

/-- The first normalisation's scale, as one row. -/
theorem st8_v218 (W : Valuation τ sig (Elt F)) :
    StableHlo.after hostOps8 W (Proc.devRef .tc main_v218)
      = rowOf (layerVec (W (Proc.devRef .tc main_arg10)) ![2, 0] slices_S5x300_S1x300_2_0) := by
  simp only [hostOps8]; after_results; rfl

/-- The first normalisation's shift, as one row. -/
theorem st8_v219 (W : Valuation τ sig (Elt F)) :
    StableHlo.after hostOps8 W (Proc.devRef .tc main_v219)
      = rowOf (layerVec (W (Proc.devRef .tc main_arg11)) ![2, 0] slices_S5x300_S1x300_2_0) := by
  simp only [hostOps8]; after_results; rfl

/-- The layer's second weight matrix. -/
theorem st8_v213 (W : Valuation τ sig (Elt F)) :
    StableHlo.after hostOps8 W (Proc.devRef .tc main_v213)
      = layerMat (W (Proc.devRef .tc main_arg12)) ![2, 0, 0] slices_S5x300x300_S1x300x300_2_0_0 := by
  simp only [hostOps8]; after_results; rfl

/-- The layer's second bias, as one row. -/
theorem st8_v220 (W : Valuation τ sig (Elt F)) :
    StableHlo.after hostOps8 W (Proc.devRef .tc main_v220)
      = rowOf (layerVec (W (Proc.devRef .tc main_arg13)) ![2, 0] slices_S5x300_S1x300_2_0) := by
  simp only [hostOps8]; after_results; rfl

/-- The references the stretch writes, in order. -/
def writes8 : List (Ref sig .tc) :=
  [main_v194, main_v195, main_cst_35, main_v196, main_v197, main_v198, main_cst_36, main_v199, main_cst_37, main_v200, main_v201, main_cst_38, main_v202, main_v203, main_v204, main_v205, main_cst_39, main_v206, main_v207, main_v208, main_v209, main_v210, main_v211, main_v212, main_v213, main_v214, main_v215, main_v216, main_v217, main_v218, main_v219, main_v220]

/-- A buffer the stretch does not write keeps its contents. -/
theorem st8_keep (W : Valuation τ sig (Elt F)) (r : Ref sig .tc) (hr : r ∉ writes8) :
    StableHlo.after hostOps8 W (Proc.devRef .tc r) = W (Proc.devRef .tc r) :=
  StableHlo.after_of_writes_sub hostOps8 W (by
    simp only [hostOps8, writes8, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch9.lean ====
/- The host stretch between the second dense kernel and the last kernel of layer 2 (twenty-seven operations), read from
   ANY contents `W` of the buffers: what it leaves in each buffer that later code reads. From the second dense kernel's
   per-tile column sums and sums of squares it forms the column means and the clamped column variances, as rows, and lays
   out the second normalisation's scale and shift rows. Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st9_v240 (W : Valuation τ sig (Elt F)) :
    StableHlo.after hostOps9 W (Proc.devRef .tc main_v240)
      = rowOf (bnMean (W (Proc.devRef .tc main_v221_1))) := by
  simp only [hostOps9]; after_results; rfl

/-- The clamped column variances, as one row. -/
theorem st9_v241 (W : Valuation τ sig (Elt F)) :
    StableHlo.after hostOps9 W (Proc.devRef .tc main_v241)
      = rowOf (bnVar (W (Proc.devRef .tc main_v221_1))) := by
  simp only [hostOps9]; after_results_simp; rfl

/-- The second normalisation's scale, as one row. -/
theorem st9_v242 (W : Valuation τ sig (Elt F)) :
    StableHlo.after hostOps9 W (Proc.devRef .tc main_v242)
      = rowOf (layerVec (W (Proc.devRef .tc main_arg14)) ![2, 0] slices_S5x300_S1x300_2_0) := by
  simp only [hostOps9]; after_results; rfl

/-- The second normalisation's shift, as one row. -/
theorem st9_v243 (W : Valuation τ sig (Elt F)) :
    StableHlo.after hostOps9 W (Proc.devRef .tc main_v243)
      = rowOf (layerVec (W (Proc.devRef .tc main_arg15)) ![2, 0] slices_S5x300_S1x300_2_0) := by
  simp only [hostOps9]; after_results; rfl

/-- The references the stretch writes, in order. -/
def writes9 : List (Ref sig .tc) :=
  [main_v222, main_v223, main_cst_40, main_v224, main_v225, main_v226, main_cst_41, main_v227, main_cst_42, main_v228, main_v229, main_cst_43, main_v230, main_v231, main_v232, main_v233, main_cst_44, main_v234, main_v235, main_v236, main_v237, main_v238, main_v239, main_v240, main_v241, main_v242, main_v243]

/-- A buffer the stretch does not write keeps its contents. -/
theorem st9_keep (W : Valuation τ sig (Elt F)) (r : Ref sig .tc) (hr : r ∉ writes9) :
    StableHlo.after hostOps9 W (Proc.devRef .tc r) = W (Proc.devRef .tc r) :=
  StableHlo.after_of_writes_sub hostOps9 W (by
    simp only [hostOps9, writes9, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.Region7.lean ====
/-
  The first dense stage of a graph layer, tile by tile, as one array.

  The 20000 rows are processed in 10 tiles of 2000. At tile t the stage reads rows 2000·t … 2000·t + 1999 of the node
  matrix h and of the aggregated neighbours a, and the whole of the scale row s, the weights W and the bias b, and writes
  * rows 2000·t … 2000·t + 1999 of z1, where z1(n, q) = ∑ k, (s(k)·h(n, k) + a(n, k))·W(k, q) + b(q), and
  * slab t of the statistics: row 0 the sums over the tile's rows of each column of z1, row 1 the sums of their squares.
  Each entry written depends only on the row it belongs to, so the tiles together hold z1 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of h and a and the whole of s, W, b. -/
theorem r7_pay1_apply (x2 : Vec Ideal S1x300 .f32) (x0 x1 : Vec Ideal S2000x300 .f32) (x3 : Vec Ideal S300x300 .f32)
    (x4 : Vec Ideal S1x300 .f32) (p : Fin 2000) (q : Fin 300) :
    k7_pay1 x2 x0 x1 x3 x4 (ix2 p q)
      = (∑ k : Fin 300, (x2 (ix2 (0 : Fin 1) k) * x0 (ix2 p k) + x1 (ix2 p k)) * x3 (ix2 k q)) + x4 (ix2 (0 : Fin 1) q) :=
  dense_apply dot_S2000x300_S300x300_S2000x300_1_0_0_1_n_n rfl x2 x0 x1 x3 x4
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r7_pay2_apply (x2 : Vec Ideal S1x300 .f32) (x0 x1 : Vec Ideal S2000x300 .f32) (x3 : Vec Ideal S300x300 .f32)
    (x4 : Vec Ideal S1x300 .f32) (u s : Fin 1) (q : Fin 300) :
    k7_pay2 x2 x0 x1 x3 x4 (ix3 u s q) = ∑ p : Fin 2000, k7_pay1 x2 x0 x1 x3 x4 (ix2 p q) := by
  unfold k7_pay2
  exact (statsRow_apply (n := 300)
      (multiReduction .add [0] S300 (k7_pay1 x2 x0 x1 x3 x4) 0x00000000#32 reduces_S2000x300_S300 (.inl rfl) rfl)
      shapeCasts_S300_S1x300 shapeCasts_S1x300_S1x1x300 u s q).trans
    (colsum_apply (m := 2000) (n := 300) (k7_pay1 x2 x0 x1 x3 x4) reduces_S2000x300_S300 (.inl rfl) rfl q)

/-- The tile's column sums of squares, at (u, s, q). -/
theorem r7_pay3_apply (x2 : Vec Ideal S1x300 .f32) (x0 x1 : Vec Ideal S2000x300 .f32) (x3 : Vec Ideal S300x300 .f32)
    (x4 : Vec Ideal S1x300 .f32) (u s : Fin 1) (q : Fin 300) :
    k7_pay3 x2 x0 x1 x3 x4 (ix3 u s q)
      = ∑ p : Fin 2000, k7_pay1 x2 x0 x1 x3 x4 (ix2 p q) * k7_pay1 x2 x0 x1 x3 x4 (ix2 p q) := by
  unfold k7_pay3
  exact (statsRow_apply (n := 300)
      (multiReduction .add [0] S300 (mulf (k7_pay1 x2 x0 x1 x3 x4) (k7_pay1 x2 x0 x1 x3 x4)) 0x00000000#32
        reduces_S2000x300_S300 (.inl rfl) rfl)
      shapeCasts_S300_S1x300 shapeCasts_S1x300_S1x1x300 u s q).trans
    (colsum_apply (m := 2000) (n := 300) (mulf (k7_pay1 x2 x0 x1 x3 x4) (k7_pay1 x2 x0 x1 x3 x4))
      reduces_S2000x300_S300 (.inl rfl) rfl q)

/-- If a tile's blocks of h and a hold rows 2000·T + p of the arrays and its other blocks hold the whole scale row, weights
    and bias row, the tile's value at (p, q) is z1 of the arrays at row 2000·T + p, column q. -/
theorem r7_tile_of_blocks (A0 A1 : (⟨2, ![20000, 300]⟩ : Shape).Idx → EReal) (A2 : (⟨2, ![1, 300]⟩ : Shape).Idx → EReal)
    (A3 : (⟨2, ![300, 300]⟩ : Shape).Idx → EReal) (A4 : (⟨2, ![1, 300]⟩ : Shape).Idx → EReal)
    (x0 x1 : (⟨2, ![2000, 300]⟩ : Shape).Idx → EReal) (x2 : (⟨2, ![1, 300]⟩ : Shape).Idx → EReal)
    (x3 : (⟨2, ![300, 300]⟩ : Shape).Idx → EReal) (x4 : (⟨2, ![1, 300]⟩ : Shape).Idx → EReal) (T : Fin 10)
    (h0 : ∀ (p : Fin 2000) (k : Fin 300), x0 (ix2 p k) = A0 (ix2 (rowOf T p) k))
    (h1 : ∀ (p : Fin 2000) (k : Fin 300), x1 (ix2 p k) = A1 (ix2 (rowOf T p) k))
    (h2 : ∀ k : Fin 300, x2 (ix2 (0 : Fin 1) k) = A2 (ix2 (0 : Fin 1) k))
    (h3 : ∀ k q : Fin 300, x3 (ix2 k q) = A3 (ix2 k q))
    (h4 : ∀ q : Fin 300, x4 (ix2 (0 : Fin 1) q) = A4 (ix2 (0 : Fin 1) q)) (p : Fin 2000) (q : Fin 300) :
    (∑ k : Fin 300, (x2 (ix2 (0 : Fin 1) k) * x0 (ix2 p k) + x1 (ix2 p k)) * x3 (ix2 k q)) + x4 (ix2 (0 : Fin 1) q)
      = z1Of A0 A1 A2 A3 A4 (ix2 (rowOf T p) q) := by
  rw [z1Of_apply]
  simp only [h0, h1, h2, h3, h4]

/-- What the body leaves in the z1 block, at an entry: the stage's value there. -/
theorem r7_out5_apply (x0 x1 : Vec Ideal S2000x300 .f32) (x2 : Vec Ideal S1x300 .f32) (x3 : Vec Ideal S300x300 .f32)
    (x4 : Vec Ideal S1x300 .f32) (j : S2000x300.Idx) :
    out7_5 x0 x1 x2 x3 x4 j = k7_pay1 x2 x0 x1 x3 x4 j := by
  unfold out7_5
  rw [View.canon_unit_zero hz2]
  simp only [View.ld_unit_zero (S := S1x300) hz2, View.ld_unit_zero (S := S2000x300) hz2, View.ld_unit_zero (S := S300x300) hz2]

/-- What the body leaves in its two-row statistics block at (u, s, q): row 0 the column sums of the tile's values, row 1
    the column sums of their squares. -/
theorem r7_out6_apply (x0 x1 : Vec Ideal S2000x300 .f32) (x2 : Vec Ideal S1x300 .f32) (x3 : Vec Ideal S300x300 .f32)
    (x4 : Vec Ideal S1x300 .f32) (u : Fin 1) (q : Fin 300) :
    out7_6 x0 x1 x2 x3 x4 (ix3 u (0 : Fin 2) q) = ∑ p : Fin 2000, k7_pay1 x2 x0 x1 x3 x4 (ix2 p q)
    ∧ out7_6 x0 x1 x2 x3 x4 (ix3 u (1 : Fin 2) q)
      = ∑ p : Fin 2000, k7_pay1 x2 x0 x1 x3 x4 (ix2 p q) * k7_pay1 x2 x0 x1 x3 x4 (ix2 p q) := by
  unfold out7_6
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k7_pay2 x2 x0 x1 x3 x4) (k7_pay3 x2 x0 x1 x3 x4) u q
  exact ⟨h0.trans (r7_pay2_apply x2 x0 x1 x3 x4 0 0 q), h1.trans (r7_pay3_apply x2 x0 x1 x3 x4 0 0 q)⟩

/-! ## Where each tile sits -/

/-- The tile number of a grid point. -/
def r7_tile (t : Fin cfg7.N) : Fin 10 := Fin.cast N_7 t

theorem r7_tile_val (t : Fin cfg7.N) : (r7_tile t).val = t.val := rfl

/-- The windows' block indices, decided over the 10 points: h, a, z1 and the statistics move with the tile along axis 0;
    s, W and b stay. -/
theorem r7_idx : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 3) = t.val ∧ win7_6.index t (1 : Fin 3) = 0 ∧ win7_6.index t (2 : Fin 3) = 0 :=
  (by decide +kernel : ∀ t : Fin grid7.N, _)

/-- The tile's rows of h: entry (p, k) of the block is entry (2000·t + p, k) of the array. -/
theorem r7_blk0 (c : Dev nD) (t : Fin cfg7.N) (p : Fin 2000) (k : Fin 300) :
    (iblk7 V c 0 t : Vec Ideal S2000x300 .f32) (ix2 p k)
      = (V c (Pipeline.arrRef spec7 0) : S20000x300.Idx → Elt Ideal .f32) (ix2 (rowOf (r7_tile t) p) k) := by
  obtain ⟨e0, e1, -⟩ := r7_idx t
  unfold iblk7
  rw [View.read_apply]
  refine congrArg (V c (Pipeline.arrRef spec7 0) : S20000x300.Idx → Elt Ideal .f32) (funext fun a => Fin.ext ?_)
  match a with
  | ⟨0, _⟩ => show win7_0.index t (0 : Fin 2) * 2000 + 1 * p.val = t.val * 2000 + p.val; rw [e0]; omega
  | ⟨1, _⟩ => show win7_0.index t (1 : Fin 2) * 300 + 1 * k.val = k.val; rw [e1]; omega

/-- The tile's rows of a. -/
theorem r7_blk1 (c : Dev nD) (t : Fin cfg7.N) (p : Fin 2000) (k : Fin 300) :
    (iblk7 V c 1 t : Vec Ideal S2000x300 .f32) (ix2 p k)
      = (V c (Pipeline.arrRef spec7 1) : S20000x300.Idx → Elt Ideal .f32) (ix2 (rowOf (r7_tile t) p) k) := by
  obtain ⟨-, -, e0, e1, -⟩ := r7_idx t
  unfold iblk7
  rw [View.read_apply]
  refine congrArg (V c (Pipeline.arrRef spec7 1) : S20000x300.Idx → Elt Ideal .f32) (funext fun a => Fin.ext ?_)
  match a with
  | ⟨0, _⟩ => show win7_1.index t (0 : Fin 2) * 2000 + 1 * p.val = t.val * 2000 + p.val; rw [e0]; omega
  | ⟨1, _⟩ => show win7_1.index t (1 : Fin 2) * 300 + 1 * k.val = k.val; rw [e1]; omega

/-- The scale row, whole at every tile. -/
theorem r7_blk2 (c : Dev nD) (t : Fin cfg7.N) (u : Fin 1) (k : Fin 300) :
    (iblk7 V c 2 t : Vec Ideal S1x300 .f32) (ix2 u k)
      = (V c (Pipeline.arrRef spec7 2) : S1x300.Idx → Elt Ideal .f32) (ix2 u k) := by
  obtain ⟨-, -, -, -, e0, e1, -⟩ := r7_idx t
  unfold iblk7
  rw [View.read_apply]
  refine congrArg (V c (Pipeline.arrRef spec7 2) : S1x300.Idx → Elt Ideal .f32) (funext fun a => Fin.ext ?_)
  match a with
  | ⟨0, _⟩ => show win7_2.index t (0 : Fin 2) * 1 + 1 * u.val = u.val; rw [e0]; omega
  | ⟨1, _⟩ => show win7_2.index t (1 : Fin 2) * 300 + 1 * k.val = k.val; rw [e1]; omega

/-- The weights, whole at every tile. -/
theorem r7_blk3 (c : Dev nD) (t : Fin cfg7.N) (k : Fin 300) (q : Fin 300) :
    (iblk7 V c 3 t : Vec Ideal S300x300 .f32) (ix2 k q)
      = (V c (Pipeline.arrRef spec7 3) : S300x300.Idx → Elt Ideal .f32) (ix2 k q) := by
  obtain ⟨-, -, -, -, -, -, e0, e1, -⟩ := r7_idx t
  unfold iblk7
  rw [View.read_apply]
  refine congrArg (V c (Pipeline.arrRef spec7 3) : S300x300.Idx → Elt Ideal .f32) (funext fun a => Fin.ext ?_)
  match a with
  | ⟨0, _⟩ => show win7_3.index t (0 : Fin 2) * 300 + 1 * k.val = k.val; rw [e0]; omega
  | ⟨1, _⟩ => show win7_3.index t (1 : Fin 2) * 300 + 1 * q.val = q.val; rw [e1]; omega

/-- The bias row, whole at every tile. -/
theorem r7_blk4 (c : Dev nD) (t : Fin cfg7.N) (u : Fin 1) (q : Fin 300) :
    (iblk7 V c 4 t : Vec Ideal S1x300 .f32) (ix2 u q)
      = (V c (Pipeline.arrRef spec7 4) : S1x300.Idx → Elt Ideal .f32) (ix2 u q) := by
  obtain ⟨-, -, -, -, -, -, -, -, e0, e1, -⟩ := r7_idx t
  unfold iblk7
  rw [View.read_apply]
  refine congrArg (V c (Pipeline.arrRef spec7 4) : S1x300.Idx → Elt Ideal .f32) (funext fun a => Fin.ext ?_)
  match a with
  | ⟨0, _⟩ => show win7_4.index t (0 : Fin 2) * 1 + 1 * u.val = u.val; rw [e0]; omega
  | ⟨1, _⟩ => show win7_4.index t (1 : Fin 2) * 300 + 1 * q.val = q.val; rw [e1]; omega

/-! ## The region's closed form and one tile's values, named once -/

/-- The first dense stage of the arrays the region finds. -/
def r7_Z (c : Dev nD) : (⟨2, ![20000, 300]⟩ : Shape).Idx → EReal :=
  z1Of (V c (Pipeline.arrRef spec7 0)) (V c (Pipeline.arrRef spec7 1)) (V c (Pipeline.arrRef spec7 2))
        (V c (Pipeline.arrRef spec7 3)) (V c (Pipeline.arrRef spec7 4))

/-- What tile t computes from its blocks. -/
def r7_P (c : Dev nD) (t : Fin cfg7.N) : (⟨2, ![2000, 300]⟩ : Shape).Idx → EReal :=
  k7_pay1 (iblk7 V c 2 t) (iblk7 V c 0 t) (iblk7 V c 1 t) (iblk7 V c 3 t) (iblk7 V c 4 t)

/-- THE TILE'S ENTRY: what tile t computes at (p, q) is z1 of the whole arrays at row 2000·t + p, column q. -/
theorem r7_tile_apply (c : Dev nD) (t : Fin cfg7.N) (p : Fin 2000) (q : Fin 300) :
    r7_P V c t (ix2 p q) = r7_Z V c (ix2 (rowOf (r7_tile t) p) q) := by
  unfold r7_P r7_Z
  refine (r7_pay1_apply (iblk7 V c 2 t) (iblk7 V c 0 t) (iblk7 V c 1 t) (iblk7 V c 3 t) (iblk7 V c 4 t) p q).trans ?_
  exact r7_tile_of_blocks (V c (Pipeline.arrRef spec7 0)) (V c (Pipeline.arrRef spec7 1)) (V c (Pipeline.arrRef spec7 2))
    (V c (Pipeline.arrRef spec7 3)) (V c (Pipeline.arrRef spec7 4))
    (iblk7 V c 0 t) (iblk7 V c 1 t) (iblk7 V c 2 t) (iblk7 V c 3 t) (iblk7 V c 4 t) (r7_tile t)
    (r7_blk0 V c t) (r7_blk1 V c t) (r7_blk2 V c t 0) (r7_blk3 V c t) (r7_blk4 V c t 0) p q

/-- The z1 block the body leaves at tile t is the tile's values. -/
theorem r7_out5 (c : Dev nD) (t : Fin cfg7.N) (j : S2000x300.Idx) :
    out7_5 (iblk7 V c 0 t) (iblk7 V c 1 t) (iblk7 V c 2 t) (iblk7 V c 3 t) (iblk7 V c 4 t) j = r7_P V c t j :=
  r7_out5_apply (iblk7 V c 0 t) (iblk7 V c 1 t) (iblk7 V c 2 t) (iblk7 V c 3 t) (iblk7 V c 4 t) j

/-- The statistics block the body leaves at tile t: the column sums of the tile's values and of their squares. -/
theorem r7_out6 (c : Dev nD) (t : Fin cfg7.N) (u : Fin 1) (q : Fin 300) :
    out7_6 (iblk7 V c 0 t) (iblk7 V c 1 t) (iblk7 V c 2 t) (iblk7 V c 3 t) (iblk7 V c 4 t) (ix3 u (0 : Fin 2) q)
      = ∑ p : Fin 2000, r7_P V c t (ix2 p q)
    ∧ out7_6 (iblk7 V c 0 t) (iblk7 V c 1 t) (iblk7 V c 2 t) (iblk7 V c 3 t) (iblk7 V c 4 t) (ix3 u (1 : Fin 2) q)
      = ∑ p : Fin 2000, r7_P V c t (ix2 p q) * r7_P V c t (ix2 p q) :=
  r7_out6_apply (iblk7 V c 0 t) (iblk7 V c 1 t) (iblk7 V c 2 t) (iblk7 V c 3 t) (iblk7 V c 4 t) u q

/-! ## The z1 array -/

/-- What tile t writes back to z1 is its block of the closed form. -/
theorem r7_flushed5 (c : Dev nD) (t : Fin cfg7.N) :
    (dat7 V c).flushed 5 t = ((cfg7.win 5).blk t).view.read (Elt Ideal) (r7_Z V c) := by
  show (cfg7.win 5).cut (grid7.coords t) ((dat7 V c).after 5 t) = _
  rw [after7_5]
  funext j
  have hj0 : (j 0).val < 2000 := (j 0).isLt
  have hj1 : (j 1).val < 300 := (j 1).isLt
  -- the block's entry j, by coordinates
  have hx : (cfg7.win 5).xinj (grid7.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg7.win 5).blk t).view.emb j : S20000x300.Idx)
      = ix2 (rowOf (r7_tile t) ⟨(j 0).val, hj0⟩) (⟨(j 1).val, hj1⟩ : Fin 300) := by
    obtain ⟨-, -, -, -, -, -, -, -, -, -, e0, e1, -⟩ := r7_idx t
    funext a; apply Fin.ext
    match a with
    | ⟨0, _⟩ => show win7_5.index t (0 : Fin 2) * 2000 + 1 * (j 0).val = t.val * 2000 + (j 0).val; rw [e0]; omega
    | ⟨1, _⟩ => show win7_5.index t (1 : Fin 2) * 300 + 1 * (j 1).val = (j 1).val; rw [e1]; omega
  exact ((r7_out5 V c t _).trans (congrArg (r7_P V c t) hx)).trans
    ((r7_tile_apply V c t ⟨(j 0).val, hj0⟩ ⟨(j 1).val, hj1⟩).trans (congrArg (r7_Z V c) he).symm)

/-- Membership in tile t's block of z1, by coordinates. -/
theorem r7_mem_blk5 (t : Fin cfg7.N) (i : S20000x300.Idx) :
    i ∈ ((cfg7.win 5).blk t).view.set ↔ ∀ a : Fin 2, win7_5.index t a * S2000x300.size a ≤ (i a).val
      ∧ (i a).val < win7_5.index t a * S2000x300.size a + S2000x300.size a := by
  show i ∈ ((View.whole main_v193_0).slice (win7_5.rect t)).set ↔ _
  rw [View.set_slice_whole, Rect.mem_set_unit]
  exact Iff.rfl

/-- Every entry of z1 is in the block of the tile its row belongs to. -/
theorem r7_cover5 (i : S20000x300.Idx) :
    ∃ t : Fin cfg7.N, (cfg7.win 5).flush t = true ∧ i ∈ ((cfg7.win 5).blk t).view.set := by
  have hN : cfg7.N = 10 := N_7
  have h0 : (i 0).val < 20000 := (i 0).isLt
  have h1 : (i 1).val < 300 := (i 1).isLt
  have ht : (i 0).val / 2000 < cfg7.N := by rw [hN]; omega
  obtain ⟨-, -, -, -, -, -, -, -, -, -, e0, e1, -⟩ := r7_idx ⟨(i 0).val / 2000, ht⟩
  refine ⟨⟨(i 0).val / 2000, ht⟩, flush7_5 _, ?_⟩
  rw [r7_mem_blk5]
  intro a
  match a with
  | ⟨0, _⟩ =>
    show win7_5.index ⟨(i 0).val / 2000, ht⟩ (0 : Fin 2) * 2000 ≤ (i 0).val
      ∧ (i 0).val < win7_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win7_5.index ⟨(i 0).val / 2000, ht⟩ (1 : Fin 2) * 300 ≤ (i 1).val
      ∧ (i 1).val < win7_5.index ⟨(i 0).val / 2000, ht⟩ (1 : Fin 2) * 300 + 300
    rw [e1]; omega

/-- THE z1 ARRAY after the region: the first dense stage of the region's inputs. -/
theorem arr7_5 (c : Dev nD) :
    (dat7 (F := Ideal) V c).arrAt 5 cfg7.N
      = z1Of (V c (Pipeline.arrRef spec7 0)) (V c (Pipeline.arrRef spec7 1)) (V c (Pipeline.arrRef spec7 2))
        (V c (Pipeline.arrRef spec7 3)) (V c (Pipeline.arrRef spec7 4)) :=
  (dat7 V c).arrAt_eq_of_cover 5 (r7_Z V c) (fun t _ => r7_flushed5 V c t) r7_cover5

/-! ## The statistics array -/

/-- One entry of what tile t writes back to the statistics: on row s of its slab, column q, the value v, provided the
    body left v there and the tile statistics of the closed form have v there. -/
theorem r7_flushed6_at (c : Dev nD) (t : Fin cfg7.N) (j : ((cfg7.win 6).xblock (grid7.coords t)).Idx) (s : Fin 2)
    (hs : (j 1).val = s.val) (hj2 : (j 2).val < 300) (v : EReal)
    (hout : ∀ u : Fin 1, out7_6 (iblk7 V c 0 t) (iblk7 V c 1 t) (iblk7 V c 2 t) (iblk7 V c 3 t) (iblk7 V c 4 t) (ix3 u s (⟨(j 2).val, hj2⟩ : Fin 300)) = v)
    (hstat : tileStats (r7_Z V c) (ix3 (r7_tile t) s (⟨(j 2).val, hj2⟩ : Fin 300)) = v) :
    (cfg7.win 6).cut (grid7.coords t)
        (out7_6 (iblk7 V c 0 t) (iblk7 V c 1 t) (iblk7 V c 2 t) (iblk7 V c 3 t) (iblk7 V c 4 t)) j
      = ((cfg7.win 6).blk t).view.read (Elt Ideal) (tileStats (r7_Z V c)) j := by
  have hj0 : (j 0).val < 1 := (j 0).isLt
  have hx : (cfg7.win 6).xinj (grid7.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg7.win 6).blk t).view.emb j : S10x2x300.Idx) = ix3 (r7_tile t) s (⟨(j 2).val, hj2⟩ : Fin 300) := by
    obtain ⟨-, -, -, -, -, -, -, -, -, -, -, -, e0, e1, e2⟩ := r7_idx t
    funext a; apply Fin.ext
    match a with
    | ⟨0, _⟩ => show win7_6.index t (0 : Fin 3) * 1 + 1 * (j 0).val = t.val; rw [e0]; omega
    | ⟨1, _⟩ => show win7_6.index t (1 : Fin 3) * 2 + 1 * (j 1).val = s.val; rw [e1]; omega
    | ⟨2, _⟩ => show win7_6.index t (2 : Fin 3) * 300 + 1 * (j 2).val = (j 2).val; rw [e2]; omega
  exact ((congrArg (out7_6 (iblk7 V c 0 t) (iblk7 V c 1 t) (iblk7 V c 2 t) (iblk7 V c 3 t) (iblk7 V c 4 t)) hx).trans (hout _)).trans
    (hstat.symm.trans (congrArg (tileStats (r7_Z V c)) he).symm)

/-- What tile t writes back to the statistics is its slab of the tile statistics of the closed form. -/
theorem r7_flushed6 (c : Dev nD) (t : Fin cfg7.N) :
    (dat7 V c).flushed 6 t = ((cfg7.win 6).blk t).view.read (Elt Ideal) (tileStats (r7_Z V c)) := by
  show (cfg7.win 6).cut (grid7.coords t) ((dat7 V c).after 6 t) = _
  rw [after7_6]
  funext j
  have hj1 : (j 1).val < 2 := (j 1).isLt
  have hj2 : (j 2).val < 300 := (j 2).isLt
  rcases Nat.lt_or_ge (j 1).val 1 with hs | hs
  · exact r7_flushed6_at V c t j 0 (by show (j 1).val = 0; omega) hj2 _ (fun u => (r7_out6 V c t u ⟨(j 2).val, hj2⟩).1)
      ((tileStats_zero _ (r7_tile t) ⟨(j 2).val, hj2⟩).trans
        (Finset.sum_congr rfl fun p _ => (r7_tile_apply V c t p ⟨(j 2).val, hj2⟩).symm))
  · exact r7_flushed6_at V c t j 1 (by show (j 1).val = 1; omega) hj2 _ (fun u => (r7_out6 V c t u ⟨(j 2).val, hj2⟩).2)
      ((tileStats_one _ (r7_tile t) ⟨(j 2).val, hj2⟩).trans (Finset.sum_congr rfl fun p _ =>
        (congrArg₂ (fun (a b : EReal) => a * b) (r7_tile_apply V c t p ⟨(j 2).val, hj2⟩)
          (r7_tile_apply V c t p ⟨(j 2).val, hj2⟩)).symm))

/-- Membership in tile t's slab of the statistics, by coordinates. -/
theorem r7_mem_blk6 (t : Fin cfg7.N) (i : S10x2x300.Idx) :
    i ∈ ((cfg7.win 6).blk t).view.set ↔ ∀ a : Fin 3, win7_6.index t a * S1x2x300.size a ≤ (i a).val
      ∧ (i a).val < win7_6.index t a * S1x2x300.size a + S1x2x300.size a := by
  show i ∈ ((View.whole main_v193_1).slice (win7_6.rect t)).set ↔ _
  rw [View.set_slice_whole, Rect.mem_set_unit]
  exact Iff.rfl

/-- Every entry of the statistics is in its tile's slab. -/
theorem r7_cover6 (i : S10x2x300.Idx) :
    ∃ t : Fin cfg7.N, (cfg7.win 6).flush t = true ∧ i ∈ ((cfg7.win 6).blk t).view.set := by
  have hN : cfg7.N = 10 := N_7
  have h0 : (i 0).val < 10 := (i 0).isLt
  have h1 : (i 1).val < 2 := (i 1).isLt
  have h2 : (i 2).val < 300 := (i 2).isLt
  have ht : (i 0).val < cfg7.N := by rw [hN]; exact h0
  obtain ⟨-, -, -, -, -, -, -, -, -, -, -, -, e0, e1, e2⟩ := r7_idx ⟨(i 0).val, ht⟩
  refine ⟨⟨(i 0).val, ht⟩, flush7_6 _, ?_⟩
  rw [r7_mem_blk6]
  intro a
  match a with
  | ⟨0, _⟩ =>
    show win7_6.index ⟨(i 0).val, ht⟩ (0 : Fin 3) * 1 ≤ (i 0).val ∧ (i 0).val < win7_6.index ⟨(i 0).val, ht⟩ (0 : Fin 3) * 1 + 1
    rw [e0]; show (i 0).val * 1 ≤ (i 0).val ∧ (i 0).val < (i 0).val * 1 + 1; omega
  | ⟨1, _⟩ =>
    show win7_6.index ⟨(i 0).val, ht⟩ (1 : Fin 3) * 2 ≤ (i 1).val ∧ (i 1).val < win7_6.index ⟨(i 0).val, ht⟩ (1 : Fin 3) * 2 + 2
    rw [e1]; omega
  | ⟨2, _⟩ =>
    show win7_6.index ⟨(i 0).val, ht⟩ (2 : Fin 3) * 300 ≤ (i 2).val ∧ (i 2).val < win7_6.index ⟨(i 0).val, ht⟩ (2 : Fin 3) * 300 + 300
    rw [e2]; omega

/-- THE STATISTICS ARRAY after the region: the tile statistics of the first dense stage of the region's inputs. -/
theorem arr7_6 (c : Dev nD) :
    (dat7 (F := Ideal) V c).arrAt 6 cfg7.N
      = tileStats (z1Of (V c (Pipeline.arrRef spec7 0)) (V c (Pipeline.arrRef spec7 1)) (V c (Pipeline.arrRef spec7 2))
        (V c (Pipeline.arrRef spec7 3)) (V c (Pipeline.arrRef spec7 4))) :=
  (dat7 V c).arrAt_eq_of_cover 6 (tileStats (r7_Z V c)) (fun t _ => r7_flushed6 V c t) r7_cover6

end Cert.KernelIdeal.RVal

end
-- ==== Proof.Region8.lean ====
/-
  The normalised second dense stage of a graph layer, tile by tile, as one array.

  The 20000 rows are processed in 10 tiles of 2000. At tile t the stage reads rows 2000·t … 2000·t + 1999 of z1 and the
  whole of the mean row μ, the variance row v, the scale row γ, the shift row β, the weights W and the bias b, and writes
  * rows 2000·t … 2000·t + 1999 of z2, where r(n, k) = max((z1(n, k) − μ(k))·rsqrt(v(k) + ε)·γ(k) + β(k), 0) and
    z2(n, q) = ∑ k, r(n, k)·W(k, q) + b(q), and
  * slab t of the statistics: row 0 the sums over the tile's rows of each column of z2, row 1 the sums of their squares.
  Each entry written depends only on the row it belongs to, so the tiles together hold z2 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of z1 and the whole of v, μ, γ, β, W, b. -/
theorem r8_pay3_apply (v0 : Vec Ideal S1x300 .f32) (v5 : Vec Ideal S2000x300 .f32) (v7 v13 v17 : Vec Ideal S1x300 .f32)
    (v24 : Vec Ideal S300x300 .f32) (v28 : Vec Ideal S1x300 .f32) (p : Fin 2000) (q : Fin 300) :
    k8_pay3 v0 v5 v7 v13 v17 v24 v28 (ix2 p q)
      = (∑ k : Fin 300, max ((v5 (ix2 p k) - v7 (ix2 (0 : Fin 1) k))
            * Ideal.rsqrt (v0 (ix2 (0 : Fin 1) k) + Ideal.ofBits .f32 0x3727C5AC#32)
            * v13 (ix2 (0 : Fin 1) k) + v17 (ix2 (0 : Fin 1) k)) 0 * v24 (ix2 k q)) + v28 (ix2 (0 : Fin 1) q) :=
  bnrelu_dense_apply dot_S2000x300_S300x300_S2000x300_1_0_0_1_n_n rfl v0 v5 v7 v13 v17 v24 v28 0x3727C5AC#32
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r8_sum_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k8_pay1 (k8_pay4 v0 v5 v7 v13 v17 v24 v28) (ix3 u s q) = ∑ p : Fin 2000, k8_pay3 v0 v5 v7 v13 v17 v24 v28 (ix2 p q) := by
  unfold k8_pay1 k8_pay4
  exact (statsRow_apply (n := 300)
      (multiReduction .add [0] S300 (k8_pay3 v0 v5 v7 v13 v17 v24 v28) 0x00000000#32 reduces_S2000x300_S300 (.inl rfl) rfl)
      shapeCasts_S300_S1x300 shapeCasts_S1x300_S1x1x300 u s q).trans
    (colsum_apply (m := 2000) (n := 300) (k8_pay3 v0 v5 v7 v13 v17 v24 v28) reduces_S2000x300_S300 (.inl rfl) rfl q)

/-- The tile's column sums of squares, at (u, s, q). -/
theorem r8_sumsq_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k8_pay2 (k8_pay5 v0 v5 v7 v13 v17 v24 v28) (ix3 u s q)
      = ∑ p : Fin 2000, k8_pay3 v0 v5 v7 v13 v17 v24 v28 (ix2 p q) * k8_pay3 v0 v5 v7 v13 v17 v24 v28 (ix2 p q) := by
  unfold k8_pay2 k8_pay5
  exact (statsRow_apply (n := 300)
      (multiReduction .add [0] S300 (mulf (k8_pay3 v0 v5 v7 v13 v17 v24 v28) (k8_pay3 v0 v5 v7 v13 v17 v24 v28)) 0x00000000#32
        reduces_S2000x300_S300 (.inl rfl) rfl)
      shapeCasts_S300_S1x300 shapeCasts_S1x300_S1x1x300 u s q).trans
    (colsum_apply (m := 2000) (n := 300) (mulf (k8_pay3 v0 v5 v7 v13 v17 v24 v28) (k8_pay3 v0 v5 v7 v13 v17 v24 v28))
      reduces_S2000x300_S300 (.inl rfl) rfl q)

/-- If a tile's block of z holds rows 2000·T + p of the array and its other blocks hold the whole rows and weights, the
    tile's value at (p, q) is z2 of the arrays at row 2000·T + p, column q. -/
theorem r8_tile_of_blocks (A0 : (⟨2, ![20000, 300]⟩ : Shape).Idx → EReal) (A1 A2 A3 A4 : (⟨2, ![1, 300]⟩ : Shape).Idx → EReal)
    (A5 : (⟨2, ![300, 300]⟩ : Shape).Idx → EReal) (A6 : (⟨2, ![1, 300]⟩ : Shape).Idx → EReal)
    (x0 : (⟨2, ![2000, 300]⟩ : Shape).Idx → EReal) (x1 x2 x3 x4 : (⟨2, ![1, 300]⟩ : Shape).Idx → EReal)
    (x5 : (⟨2, ![300, 300]⟩ : Shape).Idx → EReal) (x6 : (⟨2, ![1, 300]⟩ : Shape).Idx → EReal) (T : Fin 10)
    (h0 : ∀ (p : Fin 2000) (k : Fin 300), x0 (ix2 p k) = A0 (ix2 (rowOf T p) k))
    (h1 : ∀ k : Fin 300, x1 (ix2 (0 : Fin 1) k) = A1 (ix2 (0 : Fin 1) k))
    (h2 : ∀ k : Fin 300, x2 (ix2 (0 : Fin 1) k) = A2 (ix2 (0 : Fin 1) k))
    (h3 : ∀ k : Fin 300, x3 (ix2 (0 : Fin 1) k) = A3 (ix2 (0 : Fin 1) k))
    (h4 : ∀ k : Fin 300, x4 (ix2 (0 : Fin 1) k) = A4 (ix2 (0 : Fin 1) k))
    (h5 : ∀ k q : Fin 300, x5 (ix2 k q) = A5 (ix2 k q))
    (h6 : ∀ q : Fin 300, x6 (ix2 (0 : Fin 1) q) = A6 (ix2 (0 : Fin 1) q)) (p : Fin 2000) (q : Fin 300) :
    (∑ k : Fin 300, max ((x0 (ix2 p k) - x1 (ix2 (0 : Fin 1) k))
          * Ideal.rsqrt (x2 (ix2 (0 : Fin 1) k) + Ideal.ofBits .f32 0x3727C5AC#32)
          * x3 (ix2 (0 : Fin 1) k) + x4 (ix2 (0 : Fin 1) k)) 0 * x5 (ix2 k q)) + x6 (ix2 (0 : Fin 1) q)
      = z2Of A0 A1 A2 A3 A4 A5 A6 (ix2 (rowOf T p) q) := by
  rw [z2Of_apply]
  simp only [r1Of_apply, h0, h1, h2, h3, h4, h5, h6]

/-- What the body leaves in the z2 block, at (p, q): the stage's value there. -/
theorem r8_out7_apply (x0 : Vec Ideal S2000x300 .f32) (x1 x2 x3 x4 : Vec Ideal S1x300 .f32) (x5 : Vec Ideal S300x300 .f32)
    (x6 : Vec Ideal S1x300 .f32) (j : S2000x300.Idx) :
    out8_7 x0 x1 x2 x3 x4 x5 x6 j = k8_pay3 x2 x0 x1 x3 x4 x5 x6 j := by
  unfold out8_7
  rw [View.canon_unit_zero hz2]
  simp only [View.ld_unit_zero (S := S1x300) hz2, View.ld_unit_zero (S := S2000x300) hz2, View.ld_unit_zero (S := S300x300) hz2]

/-! ## Where each tile sits -/

/-- The tile number of a grid point. -/
def r8_tile (t : Fin cfg8.N) : Fin 10 := Fin.cast N_8 t

theorem r8_tile_val (t : Fin cfg8.N) : (r8_tile t).val = t.val := rfl

/-- The windows' block indices, decided over the 10 points: z1, z2 and the statistics move with the tile along axis 0;
    μ, v, γ, β, W and b stay. -/
theorem r8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0
    ∧ win8_8.index t (0 : Fin 3) = t.val ∧ win8_8.index t (1 : Fin 3) = 0 ∧ win8_8.index t (2 : Fin 3) = 0 :=
  (by decide +kernel : ∀ t : Fin grid8.N, _)

/-- The tile's rows of z1: entry (p, k) of the block is entry (2000·t + p, k) of the array. -/
theorem r8_blk0 (c : Dev nD) (t : Fin cfg8.N) (p : Fin 2000) (k : Fin 300) :
    (iblk8 V c 0 t : Vec Ideal S2000x300 .f32) (ix2 p k)
      = (V c (Pipeline.arrRef spec8 0) : S20000x300.Idx → Elt Ideal .f32) (ix2 (rowOf (r8_tile t) p) k) := by
  obtain ⟨e0, e1, -⟩ := r8_idx t
  unfold iblk8
  rw [View.read_apply]
  refine congrArg (V c (Pipeline.arrRef spec8 0) : S20000x300.Idx → Elt Ideal .f32) (funext fun a => Fin.ext ?_)
  match a with
  | ⟨0, _⟩ => show win8_0.index t (0 : Fin 2) * 2000 + 1 * p.val = t.val * 2000 + p.val; rw [e0]; omega
  | ⟨1, _⟩ => show win8_0.index t (1 : Fin 2) * 300 + 1 * k.val = k.val; rw [e1]; omega

/-- The mean row, whole at every tile. -/
theorem r8_blk1 (c : Dev nD) (t : Fin cfg8.N) (u : Fin 1) (k : Fin 300) :
    (iblk8 V c 1 t : Vec Ideal S1x300 .f32) (ix2 u k)
      = (V c (Pipeline.arrRef spec8 1) : S1x300.Idx → Elt Ideal .f32) (ix2 u k) := by
  obtain ⟨-, -, e0, e1, -⟩ := r8_idx t
  unfold iblk8
  rw [View.read_apply]
  refine congrArg (V c (Pipeline.arrRef spec8 1) : S1x300.Idx → Elt Ideal .f32) (funext fun a => Fin.ext ?_)
  match a with
  | ⟨0, _⟩ => show win8_1.index t (0 : Fin 2) * 1 + 1 * u.val = u.val; rw [e0]; omega
  | ⟨1, _⟩ => show win8_1.index t (1 : Fin 2) * 300 + 1 * k.val = k.val; rw [e1]; omega

/-- The variance row, whole at every tile. -/
theorem r8_blk2 (c : Dev nD) (t : Fin cfg8.N) (u : Fin 1) (k : Fin 300) :
    (iblk8 V c 2 t : Vec Ideal S1x300 .f32) (ix2 u k)
      = (V c (Pipeline.arrRef spec8 2) : S1x300.Idx → Elt Ideal .f32) (ix2 u k) := by
  obtain ⟨-, -, -, -, e0, e1, -⟩ := r8_idx t
  unfold iblk8
  rw [View.read_apply]
  refine congrArg (V c (Pipeline.arrRef spec8 2) : S1x300.Idx → Elt Ideal .f32) (funext fun a => Fin.ext ?_)
  match a with
  | ⟨0, _⟩ => show win8_2.index t (0 : Fin 2) * 1 + 1 * u.val = u.val; rw [e0]; omega
  | ⟨1, _⟩ => show win8_2.index t (1 : Fin 2) * 300 + 1 * k.val = k.val; rw [e1]; omega

/-- The scale row, whole at every tile. -/
theorem r8_blk3 (c : Dev nD) (t : Fin cfg8.N) (u : Fin 1) (k : Fin 300) :
    (iblk8 V c 3 t : Vec Ideal S1x300 .f32) (ix2 u k)
      = (V c (Pipeline.arrRef spec8 3) : S1x300.Idx → Elt Ideal .f32) (ix2 u k) := by
  obtain ⟨-, -, -, -, -, -, e0, e1, -⟩ := r8_idx t
  unfold iblk8
  rw [View.read_apply]
  refine congrArg (V c (Pipeline.arrRef spec8 3) : S1x300.Idx → Elt Ideal .f32) (funext fun a => Fin.ext ?_)
  match a with
  | ⟨0, _⟩ => show win8_3.index t (0 : Fin 2) * 1 + 1 * u.val = u.val; rw [e0]; omega
  | ⟨1, _⟩ => show win8_3.index t (1 : Fin 2) * 300 + 1 * k.val = k.val; rw [e1]; omega

/-- The shift row, whole at every tile. -/
theorem r8_blk4 (c : Dev nD) (t : Fin cfg8.N) (u : Fin 1) (k : Fin 300) :
    (iblk8 V c 4 t : Vec Ideal S1x300 .f32) (ix2 u k)
      = (V c (Pipeline.arrRef spec8 4) : S1x300.Idx → Elt Ideal .f32) (ix2 u k) := by
  obtain ⟨-, -, -, -, -, -, -, -, e0, e1, -⟩ := r8_idx t
  unfold iblk8
  rw [View.read_apply]
  refine congrArg (V c (Pipeline.arrRef spec8 4) : S1x300.Idx → Elt Ideal .f32) (funext fun a => Fin.ext ?_)
  match a with
  | ⟨0, _⟩ => show win8_4.index t (0 : Fin 2) * 1 + 1 * u.val = u.val; rw [e0]; omega
  | ⟨1, _⟩ => show win8_4.index t (1 : Fin 2) * 300 + 1 * k.val = k.val; rw [e1]; omega

/-- The weights, whole at every tile. -/
theorem r8_blk5 (c : Dev nD) (t : Fin cfg8.N) (k : Fin 300) (q : Fin 300) :
    (iblk8 V c 5 t : Vec Ideal S300x300 .f32) (ix2 k q)
      = (V c (Pipeline.arrRef spec8 5) : S300x300.Idx → Elt Ideal .f32) (ix2 k q) := by
  obtain ⟨-, -, -, -, -, -, -, -, -, -, e0, e1, -⟩ := r8_idx t
  unfold iblk8
  rw [View.read_apply]
  refine congrArg (V c (Pipeline.arrRef spec8 5) : S300x300.Idx → Elt Ideal .f32) (funext fun a => Fin.ext ?_)
  match a with
  | ⟨0, _⟩ => show win8_5.index t (0 : Fin 2) * 300 + 1 * k.val = k.val; rw [e0]; omega
  | ⟨1, _⟩ => show win8_5.index t (1 : Fin 2) * 300 + 1 * q.val = q.val; rw [e1]; omega

/-- The bias row, whole at every tile. -/
theorem r8_blk6 (c : Dev nD) (t : Fin cfg8.N) (u : Fin 1) (k : Fin 300) :
    (iblk8 V c 6 t : Vec Ideal S1x300 .f32) (ix2 u k)
      = (V c (Pipeline.arrRef spec8 6) : S1x300.Idx → Elt Ideal .f32) (ix2 u k) := by
  obtain ⟨-, -, -, -, -, -, -, -, -, -, -, -, e0, e1, -⟩ := r8_idx t
  unfold iblk8
  rw [View.read_apply]
  refine congrArg (V c (Pipeline.arrRef spec8 6) : S1x300.Idx → Elt Ideal .f32) (funext fun a => Fin.ext ?_)
  match a with
  | ⟨0, _⟩ => show win8_6.index t (0 : Fin 2) * 1 + 1 * u.val = u.val; rw [e0]; omega
  | ⟨1, _⟩ => show win8_6.index t (1 : Fin 2) * 300 + 1 * k.val = k.val; rw [e1]; omega

/-! ## The region's closed form and one tile's values, named once -/

/-- The normalised second dense stage of the arrays the region finds. -/
def r8_Z (c : Dev nD) : (⟨2, ![20000, 300]⟩ : Shape).Idx → EReal :=
  z2Of (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) (V c (Pipeline.arrRef spec8 6))

/-- What tile t computes from its blocks. -/
def r8_P (c : Dev nD) (t : Fin cfg8.N) : (⟨2, ![2000, 300]⟩ : Shape).Idx → EReal :=
  k8_pay3 (iblk8 V c 2 t) (iblk8 V c 0 t) (iblk8 V c 1 t) (iblk8 V c 3 t) (iblk8 V c 4 t) (iblk8 V c 5 t) (iblk8 V c 6 t)

/-- THE TILE'S ENTRY: what tile t computes at (p, q) is z2 of the whole arrays at row 2000·t + p, column q. -/
theorem r8_tile_apply (c : Dev nD) (t : Fin cfg8.N) (p : Fin 2000) (q : Fin 300) :
    r8_P V c t (ix2 p q) = r8_Z V c (ix2 (rowOf (r8_tile t) p) q) := by
  unfold r8_P r8_Z
  refine (r8_pay3_apply (iblk8 V c 2 t) (iblk8 V c 0 t) (iblk8 V c 1 t) (iblk8 V c 3 t) (iblk8 V c 4 t) (iblk8 V c 5 t) (iblk8 V c 6 t) p q).trans ?_
  exact r8_tile_of_blocks (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5)) (V c (Pipeline.arrRef spec8 6))
    (iblk8 V c 0 t) (iblk8 V c 1 t) (iblk8 V c 2 t) (iblk8 V c 3 t) (iblk8 V c 4 t) (iblk8 V c 5 t) (iblk8 V c 6 t) (r8_tile t)
    (r8_blk0 V c t) (r8_blk1 V c t 0) (r8_blk2 V c t 0) (r8_blk3 V c t 0) (r8_blk4 V c t 0) (r8_blk5 V c t) (r8_blk6 V c t 0) p q

/-- The z2 block the body leaves at tile t is the tile's values. -/
theorem r8_out7 (c : Dev nD) (t : Fin cfg8.N) (j : S2000x300.Idx) :
    out8_7 (iblk8 V c 0 t) (iblk8 V c 1 t) (iblk8 V c 2 t) (iblk8 V c 3 t) (iblk8 V c 4 t) (iblk8 V c 5 t) (iblk8 V c 6 t) j = r8_P V c t j :=
  r8_out7_apply (iblk8 V c 0 t) (iblk8 V c 1 t) (iblk8 V c 2 t) (iblk8 V c 3 t) (iblk8 V c 4 t) (iblk8 V c 5 t) (iblk8 V c 6 t) j

/-- What the body leaves in its two-row statistics block at (u, s, q): row 0 the column sums of the tile's values, row 1
    the column sums of their squares. -/
theorem r8_out8_apply (x0 : Vec Ideal S2000x300 .f32) (x1 x2 x3 x4 : Vec Ideal S1x300 .f32) (x5 : Vec Ideal S300x300 .f32)
    (x6 : Vec Ideal S1x300 .f32) (u : Fin 1) (q : Fin 300) :
    out8_8 x0 x1 x2 x3 x4 x5 x6 (ix3 u (0 : Fin 2) q) = ∑ p : Fin 2000, k8_pay3 x2 x0 x1 x3 x4 x5 x6 (ix2 p q)
    ∧ out8_8 x0 x1 x2 x3 x4 x5 x6 (ix3 u (1 : Fin 2) q)
      = ∑ p : Fin 2000, k8_pay3 x2 x0 x1 x3 x4 x5 x6 (ix2 p q) * k8_pay3 x2 x0 x1 x3 x4 x5 x6 (ix2 p q) := by
  unfold out8_8
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k8_pay1 (k8_pay4 x2 x0 x1 x3 x4 x5 x6))
    (k8_pay2 (k8_pay5 x2 x0 x1 x3 x4 x5 x6)) u q
  exact ⟨h0.trans (r8_sum_apply x2 x0 x1 x3 x4 x5 x6 0 0 q), h1.trans (r8_sumsq_apply x2 x0 x1 x3 x4 x5 x6 0 0 q)⟩

/-- The statistics block the body leaves at tile t: the column sums of the tile's values and of their squares. -/
theorem r8_out8 (c : Dev nD) (t : Fin cfg8.N) (u : Fin 1) (q : Fin 300) :
    out8_8 (iblk8 V c 0 t) (iblk8 V c 1 t) (iblk8 V c 2 t) (iblk8 V c 3 t) (iblk8 V c 4 t) (iblk8 V c 5 t) (iblk8 V c 6 t) (ix3 u (0 : Fin 2) q)
      = ∑ p : Fin 2000, r8_P V c t (ix2 p q)
    ∧ out8_8 (iblk8 V c 0 t) (iblk8 V c 1 t) (iblk8 V c 2 t) (iblk8 V c 3 t) (iblk8 V c 4 t) (iblk8 V c 5 t) (iblk8 V c 6 t) (ix3 u (1 : Fin 2) q)
      = ∑ p : Fin 2000, r8_P V c t (ix2 p q) * r8_P V c t (ix2 p q) :=
  r8_out8_apply (iblk8 V c 0 t) (iblk8 V c 1 t) (iblk8 V c 2 t) (iblk8 V c 3 t) (iblk8 V c 4 t) (iblk8 V c 5 t) (iblk8 V c 6 t) u q

/-! ## The z2 array -/

/-- What tile t writes back to z2 is its block of the closed form. -/
theorem r8_flushed7 (c : Dev nD) (t : Fin cfg8.N) :
    (dat8 V c).flushed 7 t = ((cfg8.win 7).blk t).view.read (Elt Ideal) (r8_Z V c) := by
  show (cfg8.win 7).cut (grid8.coords t) ((dat8 V c).after 7 t) = _
  rw [after8_7]
  funext j
  have hj0 : (j 0).val < 2000 := (j 0).isLt
  have hj1 : (j 1).val < 300 := (j 1).isLt
  -- the block's entry j, by coordinates
  have hx : (cfg8.win 7).xinj (grid8.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg8.win 7).blk t).view.emb j : S20000x300.Idx)
      = ix2 (rowOf (r8_tile t) ⟨(j 0).val, hj0⟩) (⟨(j 1).val, hj1⟩ : Fin 300) := by
    obtain ⟨-, -, -, -, -, -, -, -, -, -, -, -, -, -, e0, e1, -⟩ := r8_idx t
    funext a; apply Fin.ext
    match a with
    | ⟨0, _⟩ => show win8_7.index t (0 : Fin 2) * 2000 + 1 * (j 0).val = t.val * 2000 + (j 0).val; rw [e0]; omega
    | ⟨1, _⟩ => show win8_7.index t (1 : Fin 2) * 300 + 1 * (j 1).val = (j 1).val; rw [e1]; omega
  exact ((r8_out7 V c t _).trans (congrArg (r8_P V c t) hx)).trans
    ((r8_tile_apply V c t ⟨(j 0).val, hj0⟩ ⟨(j 1).val, hj1⟩).trans (congrArg (r8_Z V c) he).symm)

/-- Membership in tile t's block of z2, by coordinates. -/
theorem r8_mem_blk7 (t : Fin cfg8.N) (i : S20000x300.Idx) :
    i ∈ ((cfg8.win 7).blk t).view.set ↔ ∀ a : Fin 2, win8_7.index t a * S2000x300.size a ≤ (i a).val
      ∧ (i a).val < win8_7.index t a * S2000x300.size a + S2000x300.size a := by
  show i ∈ ((View.whole main_v221_0).slice (win8_7.rect t)).set ↔ _
  rw [View.set_slice_whole, Rect.mem_set_unit]
  exact Iff.rfl

/-- Every entry of z2 is in the block of the tile its row belongs to. -/
theorem r8_cover7 (i : S20000x300.Idx) :
    ∃ t : Fin cfg8.N, (cfg8.win 7).flush t = true ∧ i ∈ ((cfg8.win 7).blk t).view.set := by
  have hN : cfg8.N = 10 := N_8
  have h0 : (i 0).val < 20000 := (i 0).isLt
  have h1 : (i 1).val < 300 := (i 1).isLt
  have ht : (i 0).val / 2000 < cfg8.N := by rw [hN]; omega
  obtain ⟨-, -, -, -, -, -, -, -, -, -, -, -, -, -, e0, e1, -⟩ := r8_idx ⟨(i 0).val / 2000, ht⟩
  refine ⟨⟨(i 0).val / 2000, ht⟩, flush8_7 _, ?_⟩
  rw [r8_mem_blk7]
  intro a
  match a with
  | ⟨0, _⟩ =>
    show win8_7.index ⟨(i 0).val / 2000, ht⟩ (0 : Fin 2) * 2000 ≤ (i 0).val
      ∧ (i 0).val < win8_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win8_7.index ⟨(i 0).val / 2000, ht⟩ (1 : Fin 2) * 300 ≤ (i 1).val
      ∧ (i 1).val < win8_7.index ⟨(i 0).val / 2000, ht⟩ (1 : Fin 2) * 300 + 300
    rw [e1]; omega

/-- THE z2 ARRAY after the region: the normalised second dense stage of the region's inputs. -/
theorem arr8_7 (c : Dev nD) :
    (dat8 (F := Ideal) V c).arrAt 7 cfg8.N
      = z2Of (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) (V c (Pipeline.arrRef spec8 6)) :=
  (dat8 V c).arrAt_eq_of_cover 7 (r8_Z V c) (fun t _ => r8_flushed7 V c t) r8_cover7

/-! ## The statistics array -/

/-- One entry of what tile t writes back to the statistics: on row s of its slab, column q, the value v, provided the
    body left v there and the tile statistics of the closed form have v there. -/
theorem r8_flushed8_at (c : Dev nD) (t : Fin cfg8.N) (j : ((cfg8.win 8).xblock (grid8.coords t)).Idx) (s : Fin 2)
    (hs : (j 1).val = s.val) (hj2 : (j 2).val < 300) (v : EReal)
    (hout : ∀ u : Fin 1, out8_8 (iblk8 V c 0 t) (iblk8 V c 1 t) (iblk8 V c 2 t) (iblk8 V c 3 t) (iblk8 V c 4 t) (iblk8 V c 5 t) (iblk8 V c 6 t) (ix3 u s (⟨(j 2).val, hj2⟩ : Fin 300)) = v)
    (hstat : tileStats (r8_Z V c) (ix3 (r8_tile t) s (⟨(j 2).val, hj2⟩ : Fin 300)) = v) :
    (cfg8.win 8).cut (grid8.coords t)
        (out8_8 (iblk8 V c 0 t) (iblk8 V c 1 t) (iblk8 V c 2 t) (iblk8 V c 3 t) (iblk8 V c 4 t) (iblk8 V c 5 t) (iblk8 V c 6 t)) j
      = ((cfg8.win 8).blk t).view.read (Elt Ideal) (tileStats (r8_Z V c)) j := by
  have hj0 : (j 0).val < 1 := (j 0).isLt
  have hx : (cfg8.win 8).xinj (grid8.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg8.win 8).blk t).view.emb j : S10x2x300.Idx) = ix3 (r8_tile t) s (⟨(j 2).val, hj2⟩ : Fin 300) := by
    obtain ⟨-, -, -, -, -, -, -, -, -, -, -, -, -, -, -, -, e0, e1, e2⟩ := r8_idx t
    funext a; apply Fin.ext
    match a with
    | ⟨0, _⟩ => show win8_8.index t (0 : Fin 3) * 1 + 1 * (j 0).val = t.val; rw [e0]; omega
    | ⟨1, _⟩ => show win8_8.index t (1 : Fin 3) * 2 + 1 * (j 1).val = s.val; rw [e1]; omega
    | ⟨2, _⟩ => show win8_8.index t (2 : Fin 3) * 300 + 1 * (j 2).val = (j 2).val; rw [e2]; omega
  exact ((congrArg (out8_8 (iblk8 V c 0 t) (iblk8 V c 1 t) (iblk8 V c 2 t) (iblk8 V c 3 t) (iblk8 V c 4 t) (iblk8 V c 5 t) (iblk8 V c 6 t)) hx).trans (hout _)).trans
    (hstat.symm.trans (congrArg (tileStats (r8_Z V c)) he).symm)

/-- What tile t writes back to the statistics is its slab of the tile statistics of the closed form. -/
theorem r8_flushed8 (c : Dev nD) (t : Fin cfg8.N) :
    (dat8 V c).flushed 8 t = ((cfg8.win 8).blk t).view.read (Elt Ideal) (tileStats (r8_Z V c)) := by
  show (cfg8.win 8).cut (grid8.coords t) ((dat8 V c).after 8 t) = _
  rw [after8_8]
  funext j
  have hj1 : (j 1).val < 2 := (j 1).isLt
  have hj2 : (j 2).val < 300 := (j 2).isLt
  rcases Nat.lt_or_ge (j 1).val 1 with hs | hs
  · exact r8_flushed8_at V c t j 0 (by show (j 1).val = 0; omega) hj2 _ (fun u => (r8_out8 V c t u ⟨(j 2).val, hj2⟩).1)
      ((tileStats_zero _ (r8_tile t) ⟨(j 2).val, hj2⟩).trans
        (Finset.sum_congr rfl fun p _ => (r8_tile_apply V c t p ⟨(j 2).val, hj2⟩).symm))
  · exact r8_flushed8_at V c t j 1 (by show (j 1).val = 1; omega) hj2 _ (fun u => (r8_out8 V c t u ⟨(j 2).val, hj2⟩).2)
      ((tileStats_one _ (r8_tile t) ⟨(j 2).val, hj2⟩).trans (Finset.sum_congr rfl fun p _ =>
        (congrArg₂ (fun (a b : EReal) => a * b) (r8_tile_apply V c t p ⟨(j 2).val, hj2⟩)
          (r8_tile_apply V c t p ⟨(j 2).val, hj2⟩)).symm))

/-- Membership in tile t's slab of the statistics, by coordinates. -/
theorem r8_mem_blk8 (t : Fin cfg8.N) (i : S10x2x300.Idx) :
    i ∈ ((cfg8.win 8).blk t).view.set ↔ ∀ a : Fin 3, win8_8.index t a * S1x2x300.size a ≤ (i a).val
      ∧ (i a).val < win8_8.index t a * S1x2x300.size a + S1x2x300.size a := by
  show i ∈ ((View.whole main_v221_1).slice (win8_8.rect t)).set ↔ _
  rw [View.set_slice_whole, Rect.mem_set_unit]
  exact Iff.rfl

/-- Every entry of the statistics is in its tile's slab. -/
theorem r8_cover8 (i : S10x2x300.Idx) :
    ∃ t : Fin cfg8.N, (cfg8.win 8).flush t = true ∧ i ∈ ((cfg8.win 8).blk t).view.set := by
  have hN : cfg8.N = 10 := N_8
  have h0 : (i 0).val < 10 := (i 0).isLt
  have h1 : (i 1).val < 2 := (i 1).isLt
  have h2 : (i 2).val < 300 := (i 2).isLt
  have ht : (i 0).val < cfg8.N := by rw [hN]; exact h0
  obtain ⟨-, -, -, -, -, -, -, -, -, -, -, -, -, -, -, -, e0, e1, e2⟩ := r8_idx ⟨(i 0).val, ht⟩
  refine ⟨⟨(i 0).val, ht⟩, flush8_8 _, ?_⟩
  rw [r8_mem_blk8]
  intro a
  match a with
  | ⟨0, _⟩ =>
    show win8_8.index ⟨(i 0).val, ht⟩ (0 : Fin 3) * 1 ≤ (i 0).val ∧ (i 0).val < win8_8.index ⟨(i 0).val, ht⟩ (0 : Fin 3) * 1 + 1
    rw [e0]; show (i 0).val * 1 ≤ (i 0).val ∧ (i 0).val < (i 0).val * 1 + 1; omega
  | ⟨1, _⟩ =>
    show win8_8.index ⟨(i 0).val, ht⟩ (1 : Fin 3) * 2 ≤ (i 1).val ∧ (i 1).val < win8_8.index ⟨(i 0).val, ht⟩ (1 : Fin 3) * 2 + 2
    rw [e1]; omega
  | ⟨2, _⟩ =>
    show win8_8.index ⟨(i 0).val, ht⟩ (2 : Fin 3) * 300 ≤ (i 2).val ∧ (i 2).val < win8_8.index ⟨(i 0).val, ht⟩ (2 : Fin 3) * 300 + 300
    rw [e2]; omega

/-- THE STATISTICS ARRAY after the region: the tile statistics of the normalised second dense stage of the region's inputs. -/
theorem arr8_8 (c : Dev nD) :
    (dat8 (F := Ideal) V c).arrAt 8 cfg8.N
      = tileStats (z2Of (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) (V c (Pipeline.arrRef spec8 6))) :=
  (dat8 V c).arrAt_eq_of_cover 8 (tileStats (r8_Z V c)) (fun t _ => r8_flushed8 V c t) r8_cover8

end Cert.KernelIdeal.RVal

end
-- ==== Proof.Region9.lean ====
/-
  The normalising region in closed form. Its grid has 10 points; point t reads rows 2000t … 2000t + 1999 of the
  [20000, 300] input and the four one-row operands whole, and writes the same rows of both outputs. Every entry of a
  written block is the body's value at that entry, which depends only on the input's entry at the same place and on
  the one-row operands at the same column; so each output array, once all ten blocks are written, is the one
  function  max((z − mean) · rsqrt(var + ε) · g + be, 0)  of the arrays the region found, entry by entry. The second
  output is the first narrowed, which is the identity on extended reals.
-/
import proofs.«119086_j26585847562989_2_alg».proof.Proof.Gen.KernelIdeal.Frame
import Idealize.ShloMosaic.Lib.Pipeline.Value
import proofs.«119086_j26585847562989_2_alg».proof.Proof.ReadEncBn

-- an array's shape is found by walking the program's list of buffers up to the array; the later the region, the longer the walk
set_option maxHeartbeats 1600000

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem r9_hz : (![0, 0] : Fin 2 → Nat) = fun _ => 0 := funext fun a => by fin_cases a <;> rfl

/-- The body's first stored value at (p, q) is the closed form of its five loaded blocks there. -/
theorem r9_pay1_apply (v0 v7 v13 v17 : Vec Ideal S1x300 .f32) (v5 : Vec Ideal S2000x300 .f32) (p : Fin 2000) (q : Fin 300) :
    k9_pay1 v0 v5 v7 v13 v17 (ix2 p q) = bnReluOf v5 v7 v0 v13 v17 (ix2 p q) := by
  unfold k9_pay1
  exact bnBody_apply v5 v7 v0 v13 v17 _ _ _ p q

/-- The second stored value is the first narrowed: the same extended real. -/
theorem r9_pay2_apply (v0 v7 v13 v17 : Vec Ideal S1x300 .f32) (v5 : Vec Ideal S2000x300 .f32) (p : Fin 2000) (q : Fin 300) :
    k9_pay2 v0 v5 v7 v13 v17 (ix2 p q) = bnReluOf v5 v7 v0 v13 v17 (ix2 p q) :=
  r9_pay1_apply v0 v7 v13 v17 v5 p q

/-- One entry of a block: if the input block's entry y is the array's entry i and the two share their column, the
    body's value at y is the closed form of the array at i. -/
theorem r9_point1 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k9_pay1 x2 x0 x1 x3 x4 y = bnReluOf z x1 x2 x3 x4 i := by
  obtain ⟨p, q, rfl⟩ : ∃ (p : Fin 2000) (q : Fin 300), y = ix2 p q := ⟨y 0, y 1, eq_ix2 y⟩
  obtain ⟨a, b, rfl⟩ : ∃ (a : Fin 20000) (b : Fin 300), i = ix2 a b := ⟨i 0, i 1, eq_ix2 i⟩
  obtain rfl : b = q := Fin.ext h1
  rw [r9_pay1_apply, bnReluOf_apply, bnReluOf_apply, h0]

theorem r9_point2 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k9_pay2 x2 x0 x1 x3 x4 y = bnReluOf z x1 x2 x3 x4 i :=
  r9_point1 x0 x1 x2 x3 x4 z i y h0 h1

/-- The printed index maps over the ten points: the input and both outputs are at block (t, 0), the one-row operands
    at block (0, 0). -/
theorem r9_idx : ∀ t : Fin cfg9.N,
    win9_0.index t (0 : Fin 2) = t.val ∧ win9_0.index t (1 : Fin 2) = 0
    ∧ win9_5.index t (0 : Fin 2) = t.val ∧ win9_5.index t (1 : Fin 2) = 0
    ∧ win9_6.index t (0 : Fin 2) = t.val ∧ win9_6.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- A one-row operand's block is the whole one-row array, at every point. -/
theorem r9_row1 (c : Dev nD) (t : Fin cfg9.N) :
    (iblk9 V c 1 t : Vec Ideal S1x300 .f32) = (V c (Pipeline.arrRef spec9 1) : S1x300.Idx → EReal) := by
  obtain ⟨-, -, -, -, -, -, e0, e1, -⟩ := r9_idx t
  funext y
  show V c (Pipeline.arrRef spec9 1) (((cfg9.win 1).blk t).view.emb y) = V c (Pipeline.arrRef spec9 1) y
  refine congrArg _ (funext fun a => Fin.ext ?_)
  match a with
  | ⟨0, _⟩ => show win9_1.index t (0 : Fin 2) * 1 + 1 * (y 0).val = (y 0).val; rw [e0]; omega
  | ⟨1, _⟩ => show win9_1.index t (1 : Fin 2) * 300 + 1 * (y 1).val = (y 1).val; rw [e1]; omega
theorem r9_row2 (c : Dev nD) (t : Fin cfg9.N) :
    (iblk9 V c 2 t : Vec Ideal S1x300 .f32) = (V c (Pipeline.arrRef spec9 2) : S1x300.Idx → EReal) := by
  obtain ⟨-, -, -, -, -, -, -, -, e0, e1, -⟩ := r9_idx t
  funext y
  show V c (Pipeline.arrRef spec9 2) (((cfg9.win 2).blk t).view.emb y) = V c (Pipeline.arrRef spec9 2) y
  refine congrArg _ (funext fun a => Fin.ext ?_)
  match a with
  | ⟨0, _⟩ => show win9_2.index t (0 : Fin 2) * 1 + 1 * (y 0).val = (y 0).val; rw [e0]; omega
  | ⟨1, _⟩ => show win9_2.index t (1 : Fin 2) * 300 + 1 * (y 1).val = (y 1).val; rw [e1]; omega
theorem r9_row3 (c : Dev nD) (t : Fin cfg9.N) :
    (iblk9 V c 3 t : Vec Ideal S1x300 .f32) = (V c (Pipeline.arrRef spec9 3) : S1x300.Idx → EReal) := by
  obtain ⟨-, -, -, -, -, -, -, -, -, -, e0, e1, -⟩ := r9_idx t
  funext y
  show V c (Pipeline.arrRef spec9 3) (((cfg9.win 3).blk t).view.emb y) = V c (Pipeline.arrRef spec9 3) y
  refine congrArg _ (funext fun a => Fin.ext ?_)
  match a with
  | ⟨0, _⟩ => show win9_3.index t (0 : Fin 2) * 1 + 1 * (y 0).val = (y 0).val; rw [e0]; omega
  | ⟨1, _⟩ => show win9_3.index t (1 : Fin 2) * 300 + 1 * (y 1).val = (y 1).val; rw [e1]; omega
theorem r9_row4 (c : Dev nD) (t : Fin cfg9.N) :
    (iblk9 V c 4 t : Vec Ideal S1x300 .f32) = (V c (Pipeline.arrRef spec9 4) : S1x300.Idx → EReal) := by
  obtain ⟨-, -, -, -, -, -, -, -, -, -, -, -, e0, e1⟩ := r9_idx t
  funext y
  show V c (Pipeline.arrRef spec9 4) (((cfg9.win 4).blk t).view.emb y) = V c (Pipeline.arrRef spec9 4) y
  refine congrArg _ (funext fun a => Fin.ext ?_)
  match a with
  | ⟨0, _⟩ => show win9_4.index t (0 : Fin 2) * 1 + 1 * (y 0).val = (y 0).val; rw [e0]; omega
  | ⟨1, _⟩ => show win9_4.index t (1 : Fin 2) * 300 + 1 * (y 1).val = (y 1).val; rw [e1]; omega

/-- The region's closed form of the arrays it finds. -/
abbrev r9_G (c : Dev nD) : S20000x300.Idx → EReal :=
  bnReluOf (m := 20000) (n := 300) (V c (Pipeline.arrRef spec9 0)) (V c (Pipeline.arrRef spec9 1)) (V c (Pipeline.arrRef spec9 2))
    (V c (Pipeline.arrRef spec9 3)) (V c (Pipeline.arrRef spec9 4))

/-- What point t writes back to the first output is block t of the closed form. -/
theorem r9_flushed5 (c : Dev nD) (t : Fin cfg9.N) :
    (dat9 V c).flushed 5 t = ((cfg9.win 5).blk t).view.read (Elt Ideal) (r9_G V c) := by
  show (cfg9.win 5).cut (grid9.coords t) ((dat9 V c).after 5 t) = _
  rw [after9_5]
  unfold out9_5
  rw [View.canon_unit_zero r9_hz]
  simp only [View.ld_unit_zero (S := S2000x300) r9_hz, View.ld_unit_zero (S := S1x300) r9_hz]
  rw [r9_row1, r9_row2, r9_row3, r9_row4]
  obtain ⟨a0, a1, b0, b1, -⟩ := r9_idx t
  funext j
  show k9_pay1 (V c (Pipeline.arrRef spec9 2)) (iblk9 V c 0 t) (V c (Pipeline.arrRef spec9 1)) (V c (Pipeline.arrRef spec9 3))
      (V c (Pipeline.arrRef spec9 4)) j = r9_G V c (((cfg9.win 5).blk t).view.emb j)
  refine r9_point1 (iblk9 V c 0 t) (V c (Pipeline.arrRef spec9 1)) (V c (Pipeline.arrRef spec9 2)) (V c (Pipeline.arrRef spec9 3))
    (V c (Pipeline.arrRef spec9 4)) (V c (Pipeline.arrRef spec9 0)) (((cfg9.win 5).blk t).view.emb j) j ?_ ?_
  · show V c (Pipeline.arrRef spec9 0) (((cfg9.win 0).blk t).view.emb j) = V c (Pipeline.arrRef spec9 0) (((cfg9.win 5).blk t).view.emb j)
    refine congrArg _ (funext fun a => Fin.ext ?_)
    match a with
    | ⟨0, _⟩ => show win9_0.index t (0 : Fin 2) * 2000 + 1 * (j 0).val = win9_5.index t (0 : Fin 2) * 2000 + 1 * (j 0).val; rw [a0, b0]
    | ⟨1, _⟩ => show win9_0.index t (1 : Fin 2) * 300 + 1 * (j 1).val = win9_5.index t (1 : Fin 2) * 300 + 1 * (j 1).val; rw [a1, b1]
  · show win9_5.index t (1 : Fin 2) * 300 + 1 * (j 1).val = (j 1).val
    rw [b1]; omega

/-- What point t writes back to the second output is block t of the same closed form. -/
theorem r9_flushed6 (c : Dev nD) (t : Fin cfg9.N) :
    (dat9 V c).flushed 6 t = ((cfg9.win 6).blk t).view.read (Elt Ideal) (r9_G V c) := by
  show (cfg9.win 6).cut (grid9.coords t) ((dat9 V c).after 6 t) = _
  rw [after9_6]
  unfold out9_6
  rw [View.canon_unit_zero r9_hz]
  simp only [View.ld_unit_zero (S := S2000x300) r9_hz, View.ld_unit_zero (S := S1x300) r9_hz]
  rw [r9_row1, r9_row2, r9_row3, r9_row4]
  obtain ⟨a0, a1, -, -, b0, b1, -⟩ := r9_idx t
  funext j
  show k9_pay2 (V c (Pipeline.arrRef spec9 2)) (iblk9 V c 0 t) (V c (Pipeline.arrRef spec9 1)) (V c (Pipeline.arrRef spec9 3))
      (V c (Pipeline.arrRef spec9 4)) j = r9_G V c (((cfg9.win 6).blk t).view.emb j)
  refine r9_point2 (iblk9 V c 0 t) (V c (Pipeline.arrRef spec9 1)) (V c (Pipeline.arrRef spec9 2)) (V c (Pipeline.arrRef spec9 3))
    (V c (Pipeline.arrRef spec9 4)) (V c (Pipeline.arrRef spec9 0)) (((cfg9.win 6).blk t).view.emb j) j ?_ ?_
  · show V c (Pipeline.arrRef spec9 0) (((cfg9.win 0).blk t).view.emb j) = V c (Pipeline.arrRef spec9 0) (((cfg9.win 6).blk t).view.emb j)
    refine congrArg _ (funext fun a => Fin.ext ?_)
    match a with
    | ⟨0, _⟩ => show win9_0.index t (0 : Fin 2) * 2000 + 1 * (j 0).val = win9_6.index t (0 : Fin 2) * 2000 + 1 * (j 0).val; rw [a0, b0]
    | ⟨1, _⟩ => show win9_0.index t (1 : Fin 2) * 300 + 1 * (j 1).val = win9_6.index t (1 : Fin 2) * 300 + 1 * (j 1).val; rw [a1, b1]
  · show win9_6.index t (1 : Fin 2) * 300 + 1 * (j 1).val = (j 1).val
    rw [b1]; omega

/-- An entry of the array is in point t's block of the first output iff each coordinate is in the block's range. -/
theorem r9_mem_blk5 (t : Fin cfg9.N) (i : S20000x300.Idx) :
    i ∈ ((cfg9.win 5).blk t).view.set ↔ ∀ a : Fin 2, win9_5.index t a * S2000x300.size a ≤ (i a).val ∧ (i a).val < win9_5.index t a * S2000x300.size a + S2000x300.size a := by
  show i ∈ ((View.whole main_v244_0).slice (win9_5.rect t)).set ↔ _
  rw [View.set_slice_whole, Rect.mem_set_unit]
  exact Iff.rfl
theorem r9_mem_blk6 (t : Fin cfg9.N) (i : S20000x300.Idx) :
    i ∈ ((cfg9.win 6).blk t).view.set ↔ ∀ a : Fin 2, win9_6.index t a * S2000x300.size a ≤ (i a).val ∧ (i a).val < win9_6.index t a * S2000x300.size a + S2000x300.size a := by
  show i ∈ ((View.whole main_v244_1).slice (win9_6.rect t)).set ↔ _
  rw [View.set_slice_whole, Rect.mem_set_unit]
  exact Iff.rfl

/-- Row r of the array is in the block of point r / 2000: the ten blocks cover the array. -/
theorem r9_cover5 (i : S20000x300.Idx) :
    ∃ t : Fin cfg9.N, (cfg9.win 5).flush t = true ∧ i ∈ ((cfg9.win 5).blk t).view.set := by
  have hi0 : (i 0).val < 20000 := (i 0).isLt
  have hi1 : (i 1).val < 300 := (i 1).isLt
  obtain ⟨t, ht⟩ : ∃ t : Fin cfg9.N, t.val = (i 0).val / 2000 :=
    ⟨⟨(i 0).val / 2000, by rw [show cfg9.N = 10 from N_9]; omega⟩, rfl⟩
  obtain ⟨-, -, b0, b1, -⟩ := r9_idx t
  refine ⟨t, flush9_5 t, ?_⟩
  rw [r9_mem_blk5]
  intro a
  match a with
  | ⟨0, _⟩ => show win9_5.index t (0 : Fin 2) * 2000 ≤ (i 0).val ∧ (i 0).val < win9_5.index t (0 : Fin 2) * 2000 + 2000; rw [b0, ht]; omega
  | ⟨1, _⟩ => show win9_5.index t (1 : Fin 2) * 300 ≤ (i 1).val ∧ (i 1).val < win9_5.index t (1 : Fin 2) * 300 + 300; rw [b1]; omega
theorem r9_cover6 (i : S20000x300.Idx) :
    ∃ t : Fin cfg9.N, (cfg9.win 6).flush t = true ∧ i ∈ ((cfg9.win 6).blk t).view.set := by
  have hi0 : (i 0).val < 20000 := (i 0).isLt
  have hi1 : (i 1).val < 300 := (i 1).isLt
  obtain ⟨t, ht⟩ : ∃ t : Fin cfg9.N, t.val = (i 0).val / 2000 :=
    ⟨⟨(i 0).val / 2000, by rw [show cfg9.N = 10 from N_9]; omega⟩, rfl⟩
  obtain ⟨-, -, -, -, b0, b1, -⟩ := r9_idx t
  refine ⟨t, flush9_6 t, ?_⟩
  rw [r9_mem_blk6]
  intro a
  match a with
  | ⟨0, _⟩ => show win9_6.index t (0 : Fin 2) * 2000 ≤ (i 0).val ∧ (i 0).val < win9_6.index t (0 : Fin 2) * 2000 + 2000; rw [b0, ht]; omega
  | ⟨1, _⟩ => show win9_6.index t (1 : Fin 2) * 300 ≤ (i 1).val ∧ (i 1).val < win9_6.index t (1 : Fin 2) * 300 + 300; rw [b1]; omega

/-- THE FIRST OUTPUT after the region: the closed form of the arrays the region found. -/
theorem arr9_5 (c : Dev nD) :
    (dat9 V c).arrAt 5 cfg9.N
      = bnReluOf (m := 20000) (n := 300) (V c (Pipeline.arrRef spec9 0)) (V c (Pipeline.arrRef spec9 1)) (V c (Pipeline.arrRef spec9 2))
          (V c (Pipeline.arrRef spec9 3)) (V c (Pipeline.arrRef spec9 4)) :=
  (dat9 V c).arrAt_eq_of_cover 5 (r9_G V c) (fun t _ => r9_flushed5 V c t) (fun i => r9_cover5 i)

/-- THE SECOND OUTPUT after the region: the same closed form. -/
theorem arr9_6 (c : Dev nD) :
    (dat9 V c).arrAt 6 cfg9.N
      = bnReluOf (m := 20000) (n := 300) (V c (Pipeline.arrRef spec9 0)) (V c (Pipeline.arrRef spec9 1)) (V c (Pipeline.arrRef spec9 2))
          (V c (Pipeline.arrRef spec9 3)) (V c (Pipeline.arrRef spec9 4)) :=
  (dat9 V c).arrAt_eq_of_cover 6 (r9_G V c) (fun t _ => r9_flushed6 V c t) (fun i => r9_cover6 i)

end Cert.KernelIdeal.RVal

end
-- ==== Proof.KernelChainL2.lean ====
/- Layer 2 of the kernel, from the buffers as the layer finds them to the buffers as it leaves them, at the exact
   extended-real values: the three host stretches and the three kernels of the layer composed. Whatever the node rows,
   their bf16 copy, the edge embedding, the edges' endpoints and the stacked parameters are where the layer begins, the
   node rows the layer leaves are ONE function (`kerLayer`) of them; what the layer does not write it keeps. -/
import proofs.«119086_j26585847562989_2_alg».proof.Proof.Gen.KernelIdeal.Frame
import Idealize.ShloMosaic.PureOps.Ideal
import proofs.«119086_j26585847562989_2_alg».proof.Proof.KernelStretch7
import proofs.«119086_j26585847562989_2_alg».proof.Proof.KernelStretch8
import proofs.«119086_j26585847562989_2_alg».proof.Proof.KernelStretch9
import proofs.«119086_j26585847562989_2_alg».proof.Proof.Region7
import proofs.«119086_j26585847562989_2_alg».proof.Proof.Region8
import proofs.«119086_j26585847562989_2_alg».proof.Proof.Region9
import proofs.«119086_j26585847562989_2_alg».proof.Proof.KernelChainDefs
import proofs.«119086_j26585847562989_2_alg».proof.Proof.KernelChainRefs

set_option maxRecDepth 16384
set_option maxHeartbeats 2000000

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (ρ : Dev nD → PrngReg) (c : Dev nD)

/-! ## What the layer keeps -/

/-- Through the first stretch and the first kernel. -/
theorem keep2_a (b : Ref sig .tc) (h1 : b ∉ writes7) (a1 : ∀ w, Pipeline.arrRef spec7 w ≠ b) :
    W16 (F := Ideal) m ρ c (Proc.devRef .tc b) = W14 m ρ c (Proc.devRef .tc b) :=
  (W16_of_ne m ρ c b a1).trans (st7_keep (W14 m ρ c) b h1)

/-- Through the first two stretches and the first two kernels. -/
theorem keep2_b (b : Ref sig .tc) (h1 : b ∉ writes7) (h2 : b ∉ writes8)
    (a1 : ∀ w, Pipeline.arrRef spec7 w ≠ b) (a2 : ∀ w, Pipeline.arrRef spec8 w ≠ b) :
    W18 (F := Ideal) m ρ c (Proc.devRef .tc b) = W14 m ρ c (Proc.devRef .tc b) :=
  (W18_of_ne m ρ c b a2).trans ((st8_keep (W16 m ρ c) b h2).trans (keep2_a m ρ c b h1 a1))

/-- Through the whole layer. -/
theorem keep2 (b : Ref sig .tc) (h1 : b ∉ writes7) (h2 : b ∉ writes8) (h3 : b ∉ writes9)
    (a1 : ∀ w, Pipeline.arrRef spec7 w ≠ b) (a2 : ∀ w, Pipeline.arrRef spec8 w ≠ b)
    (a3 : ∀ w, Pipeline.arrRef spec9 w ≠ b) :
    W20 (F := Ideal) m ρ c (Proc.devRef .tc b) = W14 m ρ c (Proc.devRef .tc b) :=
  (W20_of_ne m ρ c b a3).trans ((st9_keep (W18 m ρ c) b h3).trans (keep2_b m ρ c b h1 h2 a1 a2))

/-- The edge embedding, the endpoints and the argument arrays are after the layer as before it. -/
theorem l2_keeps (b : Ref sig .tc) (hb : b ∈ keptRefs) : W20 (F := Ideal) m ρ c (Proc.devRef .tc b) = W14 m ρ c (Proc.devRef .tc b) := by
  simp only [keptRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl
  all_goals exact keep2 m ρ c _ (by decide) (by decide) (by decide) (by decide) (by decide) (by decide)

/-! ## The three kernels' outputs, each over whatever the buffers hold where its stage begins -/

/-- The first dense stage. -/
theorem l2_z1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W14 (F := Ideal) m ρ c (Proc.devRef .tc main_v167_0) = H) (hHb : W14 (F := Ideal) m ρ c (Proc.devRef .tc main_v167_1) = Hb) (hEa : W14 (F := Ideal) m ρ c (Proc.devRef .tc main_v13) = Ea)
    (hSr : W14 (F := Ideal) m ρ c (Proc.devRef .tc main_v1) = Sr) (hDs : W14 (F := Ideal) m ρ c (Proc.devRef .tc main_v3) = Ds) (h7 : W14 (F := Ideal) m ρ c (Proc.devRef .tc main_arg7) = a7) (h8 : W14 (F := Ideal) m ρ c (Proc.devRef .tc main_arg8) = a8)
    (h9 : W14 (F := Ideal) m ρ c (Proc.devRef .tc main_arg9) = a9) :
    W16 (F := Ideal) m ρ c (Proc.devRef .tc main_v193_0)
    = RVal.z1Of H (aggregate (F := Ideal) Hb Ea Sr Ds) (scaleRow (F := Ideal) a7 ![2] slices_S5_S1_2) (layerMat (F := Ideal) a8 ![2, 0, 0] slices_S5x300x300_S1x300x300_2_0_0)
        (rowOf (F := Ideal) (layerVec (F := Ideal) a9 ![2, 0] slices_S5x300_S1x300_2_0)) := by
  subst hH hHb hEa hSr hDs h7 h8 h9
  have e0 : V15 (F := Ideal) m ρ c (Pipeline.arrRef spec7 0) = W14 m ρ c (Proc.devRef .tc main_v167_0) := st7_keep (W14 m ρ c) main_v167_0 (by decide)
  exact ((W16_arr m ρ c 5).trans (RVal.arr7_5 (V15 m ρ) c)).trans
    (congr (congr (congr (congr (congrArg RVal.z1Of e0) (st7_v182 (W14 m ρ c))) (st7_v187 (W14 m ρ c)))
      (st7_v189 (W14 m ρ c))) (st7_v192 (W14 m ρ c)))

/-- Its per-tile column sums and sums of squares. -/
theorem l2_p1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W14 (F := Ideal) m ρ c (Proc.devRef .tc main_v167_0) = H) (hHb : W14 (F := Ideal) m ρ c (Proc.devRef .tc main_v167_1) = Hb) (hEa : W14 (F := Ideal) m ρ c (Proc.devRef .tc main_v13) = Ea)
    (hSr : W14 (F := Ideal) m ρ c (Proc.devRef .tc main_v1) = Sr) (hDs : W14 (F := Ideal) m ρ c (Proc.devRef .tc main_v3) = Ds) (h7 : W14 (F := Ideal) m ρ c (Proc.devRef .tc main_arg7) = a7) (h8 : W14 (F := Ideal) m ρ c (Proc.devRef .tc main_arg8) = a8)
    (h9 : W14 (F := Ideal) m ρ c (Proc.devRef .tc main_arg9) = a9) :
    W16 (F := Ideal) m ρ c (Proc.devRef .tc main_v193_1)
    = RVal.tileStats (RVal.z1Of H (aggregate (F := Ideal) Hb Ea Sr Ds) (scaleRow (F := Ideal) a7 ![2] slices_S5_S1_2) (layerMat (F := Ideal) a8 ![2, 0, 0] slices_S5x300x300_S1x300x300_2_0_0)
        (rowOf (F := Ideal) (layerVec (F := Ideal) a9 ![2, 0] slices_S5x300_S1x300_2_0))) :=
  (W16_arr m ρ c 6).trans ((RVal.arr7_6 (V15 m ρ) c).trans
    (congrArg RVal.tileStats ((((W16_arr m ρ c 5).trans (RVal.arr7_5 (V15 m ρ) c)).symm).trans
      (l2_z1 m ρ c hH hHb hEa hSr hDs h7 h8 h9))))

/-- The normalised second dense stage. -/
theorem l2_z2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W16 (F := Ideal) m ρ c (Proc.devRef .tc main_v193_0) = Z1) (hP1 : W16 (F := Ideal) m ρ c (Proc.devRef .tc main_v193_1) = P1)
    (h10 : W16 (F := Ideal) m ρ c (Proc.devRef .tc main_arg10) = a10) (h11 : W16 (F := Ideal) m ρ c (Proc.devRef .tc main_arg11) = a11) (h12 : W16 (F := Ideal) m ρ c (Proc.devRef .tc main_arg12) = a12)
    (h13 : W16 (F := Ideal) m ρ c (Proc.devRef .tc main_arg13) = a13) :
    W18 (F := Ideal) m ρ c (Proc.devRef .tc main_v221_0)
    = RVal.z2Of Z1 (rowOf (F := Ideal) (bnMean (F := Ideal) P1)) (rowOf (F := Ideal) (bnVar (F := Ideal) P1))
        (rowOf (F := Ideal) (layerVec (F := Ideal) a10 ![2, 0] slices_S5x300_S1x300_2_0)) (rowOf (F := Ideal) (layerVec (F := Ideal) a11 ![2, 0] slices_S5x300_S1x300_2_0))
        (layerMat (F := Ideal) a12 ![2, 0, 0] slices_S5x300x300_S1x300x300_2_0_0) (rowOf (F := Ideal) (layerVec (F := Ideal) a13 ![2, 0] slices_S5x300_S1x300_2_0)) := by
  subst hZ1 hP1 h10 h11 h12 h13
  have e0 : V17 (F := Ideal) m ρ c (Pipeline.arrRef spec8 0) = W16 m ρ c (Proc.devRef .tc main_v193_0) := st8_keep (W16 m ρ c) main_v193_0 (by decide)
  exact ((W18_arr m ρ c 7).trans (RVal.arr8_7 (V17 m ρ) c)).trans
    (congr (congr (congr (congr (congr (congr (congrArg RVal.z2Of e0) (st8_v216 (W16 m ρ c))) (st8_v217 (W16 m ρ c)))
      (st8_v218 (W16 m ρ c))) (st8_v219 (W16 m ρ c))) (st8_v213 (W16 m ρ c))) (st8_v220 (W16 m ρ c)))

/-- Its per-tile column sums and sums of squares. -/
theorem l2_p2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W16 (F := Ideal) m ρ c (Proc.devRef .tc main_v193_0) = Z1) (hP1 : W16 (F := Ideal) m ρ c (Proc.devRef .tc main_v193_1) = P1)
    (h10 : W16 (F := Ideal) m ρ c (Proc.devRef .tc main_arg10) = a10) (h11 : W16 (F := Ideal) m ρ c (Proc.devRef .tc main_arg11) = a11) (h12 : W16 (F := Ideal) m ρ c (Proc.devRef .tc main_arg12) = a12)
    (h13 : W16 (F := Ideal) m ρ c (Proc.devRef .tc main_arg13) = a13) :
    W18 (F := Ideal) m ρ c (Proc.devRef .tc main_v221_1)
    = RVal.tileStats (RVal.z2Of Z1 (rowOf (F := Ideal) (bnMean (F := Ideal) P1)) (rowOf (F := Ideal) (bnVar (F := Ideal) P1))
        (rowOf (F := Ideal) (layerVec (F := Ideal) a10 ![2, 0] slices_S5x300_S1x300_2_0)) (rowOf (F := Ideal) (layerVec (F := Ideal) a11 ![2, 0] slices_S5x300_S1x300_2_0))
        (layerMat (F := Ideal) a12 ![2, 0, 0] slices_S5x300x300_S1x300x300_2_0_0) (rowOf (F := Ideal) (layerVec (F := Ideal) a13 ![2, 0] slices_S5x300_S1x300_2_0))) :=
  (W18_arr m ρ c 8).trans ((RVal.arr8_8 (V17 m ρ) c).trans
    (congrArg RVal.tileStats ((((W18_arr m ρ c 7).trans (RVal.arr8_7 (V17 m ρ) c)).symm).trans
      (l2_z2 m ρ c hZ1 hP1 h10 h11 h12 h13))))

/-- The last normalisation and clamp: the node rows. -/
theorem l2_out0 {Z2 : FVec Ideal S20000x300 .f32} {P2 : FVec Ideal S10x2x300 .f32} {a14 a15 : FVec Ideal S5x300 .f32}
    (hZ2 : W18 (F := Ideal) m ρ c (Proc.devRef .tc main_v221_0) = Z2) (hP2 : W18 (F := Ideal) m ρ c (Proc.devRef .tc main_v221_1) = P2)
    (h14 : W18 (F := Ideal) m ρ c (Proc.devRef .tc main_arg14) = a14) (h15 : W18 (F := Ideal) m ρ c (Proc.devRef .tc main_arg15) = a15) :
    W20 (F := Ideal) m ρ c (Proc.devRef .tc main_v244_0)
    = RVal.bnReluOf (m := 20000) (n := 300) Z2 (rowOf (F := Ideal) (bnMean (F := Ideal) P2))
        (rowOf (F := Ideal) (bnVar (F := Ideal) P2)) (rowOf (F := Ideal) (layerVec (F := Ideal) a14 ![2, 0] slices_S5x300_S1x300_2_0))
        (rowOf (F := Ideal) (layerVec (F := Ideal) a15 ![2, 0] slices_S5x300_S1x300_2_0)) := by
  subst hZ2 hP2 h14 h15
  have e0 : V19 (F := Ideal) m ρ c (Pipeline.arrRef spec9 0) = W18 m ρ c (Proc.devRef .tc main_v221_0) := st9_keep (W18 m ρ c) main_v221_0 (by decide)
  exact ((W20_arr m ρ c 5).trans (RVal.arr9_5 (V19 m ρ) c)).trans
    (congr (congr (congr (congr (congrArg (RVal.bnReluOf (m := 20000) (n := 300)) e0) (st9_v240 (W18 m ρ c))) (st9_v241 (W18 m ρ c)))
      (st9_v242 (W18 m ρ c))) (st9_v243 (W18 m ρ c)))

/-- The same for the copy in the bf16-typed buffer. -/
theorem l2_out1 {Z2 : FVec Ideal S20000x300 .f32} {P2 : FVec Ideal S10x2x300 .f32} {a14 a15 : FVec Ideal S5x300 .f32}
    (hZ2 : W18 (F := Ideal) m ρ c (Proc.devRef .tc main_v221_0) = Z2) (hP2 : W18 (F := Ideal) m ρ c (Proc.devRef .tc main_v221_1) = P2)
    (h14 : W18 (F := Ideal) m ρ c (Proc.devRef .tc main_arg14) = a14) (h15 : W18 (F := Ideal) m ρ c (Proc.devRef .tc main_arg15) = a15) :
    W20 (F := Ideal) m ρ c (Proc.devRef .tc main_v244_1)
    = RVal.bnReluOf (m := 20000) (n := 300) Z2 (rowOf (F := Ideal) (bnMean (F := Ideal) P2))
        (rowOf (F := Ideal) (bnVar (F := Ideal) P2)) (rowOf (F := Ideal) (layerVec (F := Ideal) a14 ![2, 0] slices_S5x300_S1x300_2_0))
        (rowOf (F := Ideal) (layerVec (F := Ideal) a15 ![2, 0] slices_S5x300_S1x300_2_0)) := by
  subst hZ2 hP2 h14 h15
  have e0 : V19 (F := Ideal) m ρ c (Pipeline.arrRef spec9 0) = W18 m ρ c (Proc.devRef .tc main_v221_0) := st9_keep (W18 m ρ c) main_v221_0 (by decide)
  exact ((W20_arr m ρ c 6).trans (RVal.arr9_6 (V19 m ρ) c)).trans
    (congr (congr (congr (congr (congrArg (RVal.bnReluOf (m := 20000) (n := 300)) e0) (st9_v240 (W18 m ρ c))) (st9_v241 (W18 m ρ c)))
      (st9_v242 (W18 m ρ c))) (st9_v243 (W18 m ρ c)))

/-! ## The layer as one function of what the buffers hold where it begins -/

/-- The node rows the layer leaves. -/
theorem l2_h {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W14 (F := Ideal) m ρ c (Proc.devRef .tc main_v167_0) = H) (hHb : W14 (F := Ideal) m ρ c (Proc.devRef .tc main_v167_1) = Hb) (hEa : W14 (F := Ideal) m ρ c (Proc.devRef .tc main_v13) = Ea)
    (hSr : W14 (F := Ideal) m ρ c (Proc.devRef .tc main_v1) = Sr) (hDs : W14 (F := Ideal) m ρ c (Proc.devRef .tc main_v3) = Ds) (h7 : W14 (F := Ideal) m ρ c (Proc.devRef .tc main_arg7) = a7) (h8 : W14 (F := Ideal) m ρ c (Proc.devRef .tc main_arg8) = a8)
    (h9 : W14 (F := Ideal) m ρ c (Proc.devRef .tc main_arg9) = a9)
    (h10 : W14 (F := Ideal) m ρ c (Proc.devRef .tc main_arg10) = a10) (h11 : W14 (F := Ideal) m ρ c (Proc.devRef .tc main_arg11) = a11) (h12 : W14 (F := Ideal) m ρ c (Proc.devRef .tc main_arg12) = a12)
    (h13 : W14 (F := Ideal) m ρ c (Proc.devRef .tc main_arg13) = a13) (h14 : W14 (F := Ideal) m ρ c (Proc.devRef .tc main_arg14) = a14) (h15 : W14 (F := Ideal) m ρ c (Proc.devRef .tc main_arg15) = a15) :
    W20 (F := Ideal) m ρ c (Proc.devRef .tc main_v244_0)
    = kerLayer H Hb Ea Sr Ds (scaleRow (F := Ideal) a7 ![2] slices_S5_S1_2) (layerMat (F := Ideal) a8 ![2, 0, 0] slices_S5x300x300_S1x300x300_2_0_0)
        (layerVec (F := Ideal) a9 ![2, 0] slices_S5x300_S1x300_2_0) (layerVec (F := Ideal) a10 ![2, 0] slices_S5x300_S1x300_2_0) (layerVec (F := Ideal) a11 ![2, 0] slices_S5x300_S1x300_2_0)
        (layerMat (F := Ideal) a12 ![2, 0, 0] slices_S5x300x300_S1x300x300_2_0_0) (layerVec (F := Ideal) a13 ![2, 0] slices_S5x300_S1x300_2_0) (layerVec (F := Ideal) a14 ![2, 0] slices_S5x300_S1x300_2_0)
        (layerVec (F := Ideal) a15 ![2, 0] slices_S5x300_S1x300_2_0) :=
  l2_out0 m ρ c
    (l2_z2 m ρ c (l2_z1 m ρ c hH hHb hEa hSr hDs h7 h8 h9) (l2_p1 m ρ c hH hHb hEa hSr hDs h7 h8 h9)
      ((keep2_a m ρ c main_arg10 (by decide) (by decide)).trans h10) ((keep2_a m ρ c main_arg11 (by decide) (by decide)).trans h11)
      ((keep2_a m ρ c main_arg12 (by decide) (by decide)).trans h12) ((keep2_a m ρ c main_arg13 (by decide) (by decide)).trans h13))
    (l2_p2 m ρ c (l2_z1 m ρ c hH hHb hEa hSr hDs h7 h8 h9) (l2_p1 m ρ c hH hHb hEa hSr hDs h7 h8 h9)
      ((keep2_a m ρ c main_arg10 (by decide) (by decide)).trans h10) ((keep2_a m ρ c main_arg11 (by decide) (by decide)).trans h11)
      ((keep2_a m ρ c main_arg12 (by decide) (by decide)).trans h12) ((keep2_a m ρ c main_arg13 (by decide) (by decide)).trans h13))
    ((keep2_b m ρ c main_arg14 (by decide) (by decide) (by decide) (by decide)).trans h14)
    ((keep2_b m ρ c main_arg15 (by decide) (by decide) (by decide) (by decide)).trans h15)

/-- Their copy in the bf16-typed buffer: the same array. -/
theorem l2_hb {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W14 (F := Ideal) m ρ c (Proc.devRef .tc main_v167_0) = H) (hHb : W14 (F := Ideal) m ρ c (Proc.devRef .tc main_v167_1) = Hb) (hEa : W14 (F := Ideal) m ρ c (Proc.devRef .tc main_v13) = Ea)
    (hSr : W14 (F := Ideal) m ρ c (Proc.devRef .tc main_v1) = Sr) (hDs : W14 (F := Ideal) m ρ c (Proc.devRef .tc main_v3) = Ds) (h7 : W14 (F := Ideal) m ρ c (Proc.devRef .tc main_arg7) = a7) (h8 : W14 (F := Ideal) m ρ c (Proc.devRef .tc main_arg8) = a8)
    (h9 : W14 (F := Ideal) m ρ c (Proc.devRef .tc main_arg9) = a9)
    (h10 : W14 (F := Ideal) m ρ c (Proc.devRef .tc main_arg10) = a10) (h11 : W14 (F := Ideal) m ρ c (Proc.devRef .tc main_arg11) = a11) (h12 : W14 (F := Ideal) m ρ c (Proc.devRef .tc main_arg12) = a12)
    (h13 : W14 (F := Ideal) m ρ c (Proc.devRef .tc main_arg13) = a13) (h14 : W14 (F := Ideal) m ρ c (Proc.devRef .tc main_arg14) = a14) (h15 : W14 (F := Ideal) m ρ c (Proc.devRef .tc main_arg15) = a15) :
    W20 (F := Ideal) m ρ c (Proc.devRef .tc main_v244_1)
    = kerLayer H Hb Ea Sr Ds (scaleRow (F := Ideal) a7 ![2] slices_S5_S1_2) (layerMat (F := Ideal) a8 ![2, 0, 0] slices_S5x300x300_S1x300x300_2_0_0)
        (layerVec (F := Ideal) a9 ![2, 0] slices_S5x300_S1x300_2_0) (layerVec (F := Ideal) a10 ![2, 0] slices_S5x300_S1x300_2_0) (layerVec (F := Ideal) a11 ![2, 0] slices_S5x300_S1x300_2_0)
        (layerMat (F := Ideal) a12 ![2, 0, 0] slices_S5x300x300_S1x300x300_2_0_0) (layerVec (F := Ideal) a13 ![2, 0] slices_S5x300_S1x300_2_0) (layerVec (F := Ideal) a14 ![2, 0] slices_S5x300_S1x300_2_0)
        (layerVec (F := Ideal) a15 ![2, 0] slices_S5x300_S1x300_2_0) :=
  l2_out1 m ρ c
    (l2_z2 m ρ c (l2_z1 m ρ c hH hHb hEa hSr hDs h7 h8 h9) (l2_p1 m ρ c hH hHb hEa hSr hDs h7 h8 h9)
      ((keep2_a m ρ c main_arg10 (by decide) (by decide)).trans h10) ((keep2_a m ρ c main_arg11 (by decide) (by decide)).trans h11)
      ((keep2_a m ρ c main_arg12 (by decide) (by decide)).trans h12) ((keep2_a m ρ c main_arg13 (by decide) (by decide)).trans h13))
    (l2_p2 m ρ c (l2_z1 m ρ c hH hHb hEa hSr hDs h7 h8 h9) (l2_p1 m ρ c hH hHb hEa hSr hDs h7 h8 h9)
      ((keep2_a m ρ c main_arg10 (by decide) (by decide)).trans h10) ((keep2_a m ρ c main_arg11 (by decide) (by decide)).trans h11)
      ((keep2_a m ρ c main_arg12 (by decide) (by decide)).trans h12) ((keep2_a m ρ c main_arg13 (by decide) (by decide)).trans h13))
    ((keep2_b m ρ c main_arg14 (by decide) (by decide) (by decide) (by decide)).trans h14)
    ((keep2_b m ρ c main_arg15 (by decide) (by decide) (by decide) (by decide)).trans h15)

end Cert.KernelIdeal.KChain

end
-- ==== Proof.KernelStretch10.lean ====
/- The host stretch between the previous layer's last kernel and the first dense kernel of layer 3 (thirty operations), read from ANY
   contents `W` of the buffers: what it leaves in each buffer that later code reads. It gathers the bf16 node rows at
   the edge sources, adds the edge embedding, clamps at zero, scatter-adds the messages into their destination rows
   (the aggregate), and lays out the layer's scale row 1 + eps, its first weight matrix and its first bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The aggregate of the messages. -/
theorem st10_v259 (W : Valuation τ sig (Elt F)) :
    StableHlo.after hostOps10 W (Proc.devRef .tc main_v259)
      = aggregate (W (Proc.devRef .tc main_v244_1)) (W (Proc.devRef .tc main_v13)) (W (Proc.devRef .tc main_v1)) (W (Proc.devRef .tc main_v3)) := by
  simp only [hostOps10]; after_results_simp; rfl

/-- The scale row 1 + eps of the layer. -/
theorem st10_v264 (W : Valuation τ sig (Elt F)) :
    StableHlo.after hostOps10 W (Proc.devRef .tc main_v264)
      = scaleRow (W (Proc.devRef .tc main_arg7)) ![3] slices_S5_S1_3 := by
  simp only [hostOps10]; after_results; rfl

/-- The layer's first weight matrix. -/
theorem st10_v266 (W : Valuation τ sig (Elt F)) :
    StableHlo.after hostOps10 W (Proc.devRef .tc main_v266)
      = layerMat (W (Proc.devRef .tc main_arg8)) ![3, 0, 0] slices_S5x300x300_S1x300x300_3_0_0 := by
  simp only [hostOps10]; after_results; rfl

/-- The layer's first bias, as one row. -/
theorem st10_v269 (W : Valuation τ sig (Elt F)) :
    StableHlo.after hostOps10 W (Proc.devRef .tc main_v269)
      = rowOf (layerVec (W (Proc.devRef .tc main_arg9)) ![3, 0] slices_S5x300_S1x300_3_0) := by
  simp only [hostOps10]; after_results; rfl

/-- The references the stretch writes, in order. -/
def writes10 : List (Ref sig .tc) :=
  [main_c_45, main_v245, main_v246, main_c_46, main_v247, main_v248, main_v249, main_v250, main_v251, main_v252, main_v253, main_v254, main_cst_47, main_v255, main_v256, main_cst_48, main_v257, main_v258, main_v259, main_v260, main_v261, main_cst_49, main_v262, main_v263, main_v264, main_v265, main_v266, main_v267, main_v268, main_v269]

/-- A buffer the stretch does not write keeps its contents. -/
theorem st10_keep (W : Valuation τ sig (Elt F)) (r : Ref sig .tc) (hr : r ∉ writes10) :
    StableHlo.after hostOps10 W (Proc.devRef .tc r) = W (Proc.devRef .tc r) :=
  StableHlo.after_of_writes_sub hostOps10 W (by
    simp only [hostOps10, writes10, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch11.lean ====
/- The host stretch between the two dense kernels of layer 3 (thirty-two operations), read from ANY contents `W` of
   the buffers: what it leaves in each buffer that later code reads. From the first dense kernel's per-tile column sums
   and sums of squares it forms the column means and the clamped column variances, as rows, and lays out the first
   normalisation's scale and shift rows, the layer's second weight matrix and its second bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st11_v293 (W : Valuation τ sig (Elt F)) :
    StableHlo.after hostOps11 W (Proc.devRef .tc main_v293)
      = rowOf (bnMean (W (Proc.devRef .tc main_v270_1))) := by
  simp only [hostOps11]; after_results; rfl

/-- The clamped column variances, as one row. -/
theorem st11_v294 (W : Valuation τ sig (Elt F)) :
    StableHlo.after hostOps11 W (Proc.devRef .tc main_v294)
      = rowOf (bnVar (W (Proc.devRef .tc main_v270_1))) := by
  simp only [hostOps11]; after_results_simp; rfl

/-- The first normalisation's scale, as one row. -/
theorem st11_v295 (W : Valuation τ sig (Elt F)) :
    StableHlo.after hostOps11 W (Proc.devRef .tc main_v295)
      = rowOf (layerVec (W (Proc.devRef .tc main_arg10)) ![3, 0] slices_S5x300_S1x300_3_0) := by
  simp only [hostOps11]; after_results; rfl

/-- The first normalisation's shift, as one row. -/
theorem st11_v296 (W : Valuation τ sig (Elt F)) :
    StableHlo.after hostOps11 W (Proc.devRef .tc main_v296)
      = rowOf (layerVec (W (Proc.devRef .tc main_arg11)) ![3, 0] slices_S5x300_S1x300_3_0) := by
  simp only [hostOps11]; after_results; rfl

/-- The layer's second weight matrix. -/
theorem st11_v290 (W : Valuation τ sig (Elt F)) :
    StableHlo.after hostOps11 W (Proc.devRef .tc main_v290)
      = layerMat (W (Proc.devRef .tc main_arg12)) ![3, 0, 0] slices_S5x300x300_S1x300x300_3_0_0 := by
  simp only [hostOps11]; after_results; rfl

/-- The layer's second bias, as one row. -/
theorem st11_v297 (W : Valuation τ sig (Elt F)) :
    StableHlo.after hostOps11 W (Proc.devRef .tc main_v297)
      = rowOf (layerVec (W (Proc.devRef .tc main_arg13)) ![3, 0] slices_S5x300_S1x300_3_0) := by
  simp only [hostOps11]; after_results; rfl

/-- The references the stretch writes, in order. -/
def writes11 : List (Ref sig .tc) :=
  [main_v271, main_v272, main_cst_50, main_v273, main_v274, main_v275, main_cst_51, main_v276, main_cst_52, main_v277, main_v278, main_cst_53, main_v279, main_v280, main_v281, main_v282, main_cst_54, main_v283, main_v284, main_v285, main_v286, main_v287, main_v288, main_v289, main_v290, main_v291, main_v292, main_v293, main_v294, main_v295, main_v296, main_v297]

/-- A buffer the stretch does not write keeps its contents. -/
theorem st11_keep (W : Valuation τ sig (Elt F)) (r : Ref sig .tc) (hr : r ∉ writes11) :
    StableHlo.after hostOps11 W (Proc.devRef .tc r) = W (Proc.devRef .tc r) :=
  StableHlo.after_of_writes_sub hostOps11 W (by
    simp only [hostOps11, writes11, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch12.lean ====
/- The host stretch between the second dense kernel and the last kernel of layer 3 (twenty-seven operations), read from
   ANY contents `W` of the buffers: what it leaves in each buffer that later code reads. From the second dense kernel's
   per-tile column sums and sums of squares it forms the column means and the clamped column variances, as rows, and lays
   out the second normalisation's scale and shift rows. Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st12_v317 (W : Valuation τ sig (Elt F)) :
    StableHlo.after hostOps12 W (Proc.devRef .tc main_v317)
      = rowOf (bnMean (W (Proc.devRef .tc main_v298_1))) := by
  simp only [hostOps12]; after_results; rfl

/-- The clamped column variances, as one row. -/
theorem st12_v318 (W : Valuation τ sig (Elt F)) :
    StableHlo.after hostOps12 W (Proc.devRef .tc main_v318)
      = rowOf (bnVar (W (Proc.devRef .tc main_v298_1))) := by
  simp only [hostOps12]; after_results_simp; rfl

/-- The second normalisation's scale, as one row. -/
theorem st12_v319 (W : Valuation τ sig (Elt F)) :
    StableHlo.after hostOps12 W (Proc.devRef .tc main_v319)
      = rowOf (layerVec (W (Proc.devRef .tc main_arg14)) ![3, 0] slices_S5x300_S1x300_3_0) := by
  simp only [hostOps12]; after_results; rfl

/-- The second normalisation's shift, as one row. -/
theorem st12_v320 (W : Valuation τ sig (Elt F)) :
    StableHlo.after hostOps12 W (Proc.devRef .tc main_v320)
      = rowOf (layerVec (W (Proc.devRef .tc main_arg15)) ![3, 0] slices_S5x300_S1x300_3_0) := by
  simp only [hostOps12]; after_results; rfl

/-- The references the stretch writes, in order. -/
def writes12 : List (Ref sig .tc) :=
  [main_v299, main_v300, main_cst_55, main_v301, main_v302, main_v303, main_cst_56, main_v304, main_cst_57, main_v305, main_v306, main_cst_58, main_v307, main_v308, main_v309, main_v310, main_cst_59, main_v311, main_v312, main_v313, main_v314, main_v315, main_v316, main_v317, main_v318, main_v319, main_v320]

/-- A buffer the stretch does not write keeps its contents. -/
theorem st12_keep (W : Valuation τ sig (Elt F)) (r : Ref sig .tc) (hr : r ∉ writes12) :
    StableHlo.after hostOps12 W (Proc.devRef .tc r) = W (Proc.devRef .tc r) :=
  StableHlo.after_of_writes_sub hostOps12 W (by
    simp only [hostOps12, writes12, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.Region10.lean ====
/-
  The first dense stage of a graph layer, tile by tile, as one array.

  The 20000 rows are processed in 10 tiles of 2000. At tile t the stage reads rows 2000·t … 2000·t + 1999 of the node
  matrix h and of the aggregated neighbours a, and the whole of the scale row s, the weights W and the bias b, and writes
  * rows 2000·t … 2000·t + 1999 of z1, where z1(n, q) = ∑ k, (s(k)·h(n, k) + a(n, k))·W(k, q) + b(q), and
  * slab t of the statistics: row 0 the sums over the tile's rows of each column of z1, row 1 the sums of their squares.
  Each entry written depends only on the row it belongs to, so the tiles together hold z1 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of h and a and the whole of s, W, b. -/
theorem r10_pay1_apply (x2 : Vec Ideal S1x300 .f32) (x0 x1 : Vec Ideal S2000x300 .f32) (x3 : Vec Ideal S300x300 .f32)
    (x4 : Vec Ideal S1x300 .f32) (p : Fin 2000) (q : Fin 300) :
    k10_pay1 x2 x0 x1 x3 x4 (ix2 p q)
      = (∑ k : Fin 300, (x2 (ix2 (0 : Fin 1) k) * x0 (ix2 p k) + x1 (ix2 p k)) * x3 (ix2 k q)) + x4 (ix2 (0 : Fin 1) q) :=
  dense_apply dot_S2000x300_S300x300_S2000x300_1_0_0_1_n_n rfl x2 x0 x1 x3 x4
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r10_pay2_apply (x2 : Vec Ideal S1x300 .f32) (x0 x1 : Vec Ideal S2000x300 .f32) (x3 : Vec Ideal S300x300 .f32)
    (x4 : Vec Ideal S1x300 .f32) (u s : Fin 1) (q : Fin 300) :
    k10_pay2 x2 x0 x1 x3 x4 (ix3 u s q) = ∑ p : Fin 2000, k10_pay1 x2 x0 x1 x3 x4 (ix2 p q) := by
  unfold k10_pay2
  exact (statsRow_apply (n := 300)
      (multiReduction .add [0] S300 (k10_pay1 x2 x0 x1 x3 x4) 0x00000000#32 reduces_S2000x300_S300 (.inl rfl) rfl)
      shapeCasts_S300_S1x300 shapeCasts_S1x300_S1x1x300 u s q).trans
    (colsum_apply (m := 2000) (n := 300) (k10_pay1 x2 x0 x1 x3 x4) reduces_S2000x300_S300 (.inl rfl) rfl q)

/-- The tile's column sums of squares, at (u, s, q). -/
theorem r10_pay3_apply (x2 : Vec Ideal S1x300 .f32) (x0 x1 : Vec Ideal S2000x300 .f32) (x3 : Vec Ideal S300x300 .f32)
    (x4 : Vec Ideal S1x300 .f32) (u s : Fin 1) (q : Fin 300) :
    k10_pay3 x2 x0 x1 x3 x4 (ix3 u s q)
      = ∑ p : Fin 2000, k10_pay1 x2 x0 x1 x3 x4 (ix2 p q) * k10_pay1 x2 x0 x1 x3 x4 (ix2 p q) := by
  unfold k10_pay3
  exact (statsRow_apply (n := 300)
      (multiReduction .add [0] S300 (mulf (k10_pay1 x2 x0 x1 x3 x4) (k10_pay1 x2 x0 x1 x3 x4)) 0x00000000#32
        reduces_S2000x300_S300 (.inl rfl) rfl)
      shapeCasts_S300_S1x300 shapeCasts_S1x300_S1x1x300 u s q).trans
    (colsum_apply (m := 2000) (n := 300) (mulf (k10_pay1 x2 x0 x1 x3 x4) (k10_pay1 x2 x0 x1 x3 x4))
      reduces_S2000x300_S300 (.inl rfl) rfl q)

/-- If a tile's blocks of h and a hold rows 2000·T + p of the arrays and its other blocks hold the whole scale row, weights
    and bias row, the tile's value at (p, q) is z1 of the arrays at row 2000·T + p, column q. -/
theorem r10_tile_of_blocks (A0 A1 : (⟨2, ![20000, 300]⟩ : Shape).Idx → EReal) (A2 : (⟨2, ![1, 300]⟩ : Shape).Idx → EReal)
    (A3 : (⟨2, ![300, 300]⟩ : Shape).Idx → EReal) (A4 : (⟨2, ![1, 300]⟩ : Shape).Idx → EReal)
    (x0 x1 : (⟨2, ![2000, 300]⟩ : Shape).Idx → EReal) (x2 : (⟨2, ![1, 300]⟩ : Shape).Idx → EReal)
    (x3 : (⟨2, ![300, 300]⟩ : Shape).Idx → EReal) (x4 : (⟨2, ![1, 300]⟩ : Shape).Idx → EReal) (T : Fin 10)
    (h0 : ∀ (p : Fin 2000) (k : Fin 300), x0 (ix2 p k) = A0 (ix2 (rowOf T p) k))
    (h1 : ∀ (p : Fin 2000) (k : Fin 300), x1 (ix2 p k) = A1 (ix2 (rowOf T p) k))
    (h2 : ∀ k : Fin 300, x2 (ix2 (0 : Fin 1) k) = A2 (ix2 (0 : Fin 1) k))
    (h3 : ∀ k q : Fin 300, x3 (ix2 k q) = A3 (ix2 k q))
    (h4 : ∀ q : Fin 300, x4 (ix2 (0 : Fin 1) q) = A4 (ix2 (0 : Fin 1) q)) (p : Fin 2000) (q : Fin 300) :
    (∑ k : Fin 300, (x2 (ix2 (0 : Fin 1) k) * x0 (ix2 p k) + x1 (ix2 p k)) * x3 (ix2 k q)) + x4 (ix2 (0 : Fin 1) q)
      = z1Of A0 A1 A2 A3 A4 (ix2 (rowOf T p) q) := by
  rw [z1Of_apply]
  simp only [h0, h1, h2, h3, h4]

/-- What the body leaves in the z1 block, at an entry: the stage's value there. -/
theorem r10_out5_apply (x0 x1 : Vec Ideal S2000x300 .f32) (x2 : Vec Ideal S1x300 .f32) (x3 : Vec Ideal S300x300 .f32)
    (x4 : Vec Ideal S1x300 .f32) (j : S2000x300.Idx) :
    out10_5 x0 x1 x2 x3 x4 j = k10_pay1 x2 x0 x1 x3 x4 j := by
  unfold out10_5
  rw [View.canon_unit_zero hz2]
  simp only [View.ld_unit_zero (S := S1x300) hz2, View.ld_unit_zero (S := S2000x300) hz2, View.ld_unit_zero (S := S300x300) hz2]

/-- What the body leaves in its two-row statistics block at (u, s, q): row 0 the column sums of the tile's values, row 1
    the column sums of their squares. -/
theorem r10_out6_apply (x0 x1 : Vec Ideal S2000x300 .f32) (x2 : Vec Ideal S1x300 .f32) (x3 : Vec Ideal S300x300 .f32)
    (x4 : Vec Ideal S1x300 .f32) (u : Fin 1) (q : Fin 300) :
    out10_6 x0 x1 x2 x3 x4 (ix3 u (0 : Fin 2) q) = ∑ p : Fin 2000, k10_pay1 x2 x0 x1 x3 x4 (ix2 p q)
    ∧ out10_6 x0 x1 x2 x3 x4 (ix3 u (1 : Fin 2) q)
      = ∑ p : Fin 2000, k10_pay1 x2 x0 x1 x3 x4 (ix2 p q) * k10_pay1 x2 x0 x1 x3 x4 (ix2 p q) := by
  unfold out10_6
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k10_pay2 x2 x0 x1 x3 x4) (k10_pay3 x2 x0 x1 x3 x4) u q
  exact ⟨h0.trans (r10_pay2_apply x2 x0 x1 x3 x4 0 0 q), h1.trans (r10_pay3_apply x2 x0 x1 x3 x4 0 0 q)⟩

/-! ## Where each tile sits -/

/-- The tile number of a grid point. -/
def r10_tile (t : Fin cfg10.N) : Fin 10 := Fin.cast N_10 t

theorem r10_tile_val (t : Fin cfg10.N) : (r10_tile t).val = t.val := rfl

/-- The windows' block indices, decided over the 10 points: h, a, z1 and the statistics move with the tile along axis 0;
    s, W and b stay. -/
theorem r10_idx : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0
    ∧ win10_6.index t (0 : Fin 3) = t.val ∧ win10_6.index t (1 : Fin 3) = 0 ∧ win10_6.index t (2 : Fin 3) = 0 :=
  (by decide +kernel : ∀ t : Fin grid10.N, _)

/-- The tile's rows of h: entry (p, k) of the block is entry (2000·t + p, k) of the array. -/
theorem r10_blk0 (c : Dev nD) (t : Fin cfg10.N) (p : Fin 2000) (k : Fin 300) :
    (iblk10 V c 0 t : Vec Ideal S2000x300 .f32) (ix2 p k)
      = (V c (Pipeline.arrRef spec10 0) : S20000x300.Idx → Elt Ideal .f32) (ix2 (rowOf (r10_tile t) p) k) := by
  obtain ⟨e0, e1, -⟩ := r10_idx t
  unfold iblk10
  rw [View.read_apply]
  refine congrArg (V c (Pipeline.arrRef spec10 0) : S20000x300.Idx → Elt Ideal .f32) (funext fun a => Fin.ext ?_)
  match a with
  | ⟨0, _⟩ => show win10_0.index t (0 : Fin 2) * 2000 + 1 * p.val = t.val * 2000 + p.val; rw [e0]; omega
  | ⟨1, _⟩ => show win10_0.index t (1 : Fin 2) * 300 + 1 * k.val = k.val; rw [e1]; omega

/-- The tile's rows of a. -/
theorem r10_blk1 (c : Dev nD) (t : Fin cfg10.N) (p : Fin 2000) (k : Fin 300) :
    (iblk10 V c 1 t : Vec Ideal S2000x300 .f32) (ix2 p k)
      = (V c (Pipeline.arrRef spec10 1) : S20000x300.Idx → Elt Ideal .f32) (ix2 (rowOf (r10_tile t) p) k) := by
  obtain ⟨-, -, e0, e1, -⟩ := r10_idx t
  unfold iblk10
  rw [View.read_apply]
  refine congrArg (V c (Pipeline.arrRef spec10 1) : S20000x300.Idx → Elt Ideal .f32) (funext fun a => Fin.ext ?_)
  match a with
  | ⟨0, _⟩ => show win10_1.index t (0 : Fin 2) * 2000 + 1 * p.val = t.val * 2000 + p.val; rw [e0]; omega
  | ⟨1, _⟩ => show win10_1.index t (1 : Fin 2) * 300 + 1 * k.val = k.val; rw [e1]; omega

/-- The scale row, whole at every tile. -/
theorem r10_blk2 (c : Dev nD) (t : Fin cfg10.N) (u : Fin 1) (k : Fin 300) :
    (iblk10 V c 2 t : Vec Ideal S1x300 .f32) (ix2 u k)
      = (V c (Pipeline.arrRef spec10 2) : S1x300.Idx → Elt Ideal .f32) (ix2 u k) := by
  obtain ⟨-, -, -, -, e0, e1, -⟩ := r10_idx t
  unfold iblk10
  rw [View.read_apply]
  refine congrArg (V c (Pipeline.arrRef spec10 2) : S1x300.Idx → Elt Ideal .f32) (funext fun a => Fin.ext ?_)
  match a with
  | ⟨0, _⟩ => show win10_2.index t (0 : Fin 2) * 1 + 1 * u.val = u.val; rw [e0]; omega
  | ⟨1, _⟩ => show win10_2.index t (1 : Fin 2) * 300 + 1 * k.val = k.val; rw [e1]; omega

/-- The weights, whole at every tile. -/
theorem r10_blk3 (c : Dev nD) (t : Fin cfg10.N) (k : Fin 300) (q : Fin 300) :
    (iblk10 V c 3 t : Vec Ideal S300x300 .f32) (ix2 k q)
      = (V c (Pipeline.arrRef spec10 3) : S300x300.Idx → Elt Ideal .f32) (ix2 k q) := by
  obtain ⟨-, -, -, -, -, -, e0, e1, -⟩ := r10_idx t
  unfold iblk10
  rw [View.read_apply]
  refine congrArg (V c (Pipeline.arrRef spec10 3) : S300x300.Idx → Elt Ideal .f32) (funext fun a => Fin.ext ?_)
  match a with
  | ⟨0, _⟩ => show win10_3.index t (0 : Fin 2) * 300 + 1 * k.val = k.val; rw [e0]; omega
  | ⟨1, _⟩ => show win10_3.index t (1 : Fin 2) * 300 + 1 * q.val = q.val; rw [e1]; omega

/-- The bias row, whole at every tile. -/
theorem r10_blk4 (c : Dev nD) (t : Fin cfg10.N) (u : Fin 1) (q : Fin 300) :
    (iblk10 V c 4 t : Vec Ideal S1x300 .f32) (ix2 u q)
      = (V c (Pipeline.arrRef spec10 4) : S1x300.Idx → Elt Ideal .f32) (ix2 u q) := by
  obtain ⟨-, -, -, -, -, -, -, -, e0, e1, -⟩ := r10_idx t
  unfold iblk10
  rw [View.read_apply]
  refine congrArg (V c (Pipeline.arrRef spec10 4) : S1x300.Idx → Elt Ideal .f32) (funext fun a => Fin.ext ?_)
  match a with
  | ⟨0, _⟩ => show win10_4.index t (0 : Fin 2) * 1 + 1 * u.val = u.val; rw [e0]; omega
  | ⟨1, _⟩ => show win10_4.index t (1 : Fin 2) * 300 + 1 * q.val = q.val; rw [e1]; omega

/-! ## The region's closed form and one tile's values, named once -/

/-- The first dense stage of the arrays the region finds. -/
def r10_Z (c : Dev nD) : (⟨2, ![20000, 300]⟩ : Shape).Idx → EReal :=
  z1Of (V c (Pipeline.arrRef spec10 0)) (V c (Pipeline.arrRef spec10 1)) (V c (Pipeline.arrRef spec10 2))
        (V c (Pipeline.arrRef spec10 3)) (V c (Pipeline.arrRef spec10 4))

/-- What tile t computes from its blocks. -/
def r10_P (c : Dev nD) (t : Fin cfg10.N) : (⟨2, ![2000, 300]⟩ : Shape).Idx → EReal :=
  k10_pay1 (iblk10 V c 2 t) (iblk10 V c 0 t) (iblk10 V c 1 t) (iblk10 V c 3 t) (iblk10 V c 4 t)

/-- THE TILE'S ENTRY: what tile t computes at (p, q) is z1 of the whole arrays at row 2000·t + p, column q. -/
theorem r10_tile_apply (c : Dev nD) (t : Fin cfg10.N) (p : Fin 2000) (q : Fin 300) :
    r10_P V c t (ix2 p q) = r10_Z V c (ix2 (rowOf (r10_tile t) p) q) := by
  unfold r10_P r10_Z
  refine (r10_pay1_apply (iblk10 V c 2 t) (iblk10 V c 0 t) (iblk10 V c 1 t) (iblk10 V c 3 t) (iblk10 V c 4 t) p q).trans ?_
  exact r10_tile_of_blocks (V c (Pipeline.arrRef spec10 0)) (V c (Pipeline.arrRef spec10 1)) (V c (Pipeline.arrRef spec10 2))
    (V c (Pipeline.arrRef spec10 3)) (V c (Pipeline.arrRef spec10 4))
    (iblk10 V c 0 t) (iblk10 V c 1 t) (iblk10 V c 2 t) (iblk10 V c 3 t) (iblk10 V c 4 t) (r10_tile t)
    (r10_blk0 V c t) (r10_blk1 V c t) (r10_blk2 V c t 0) (r10_blk3 V c t) (r10_blk4 V c t 0) p q

/-- The z1 block the body leaves at tile t is the tile's values. -/
theorem r10_out5 (c : Dev nD) (t : Fin cfg10.N) (j : S2000x300.Idx) :
    out10_5 (iblk10 V c 0 t) (iblk10 V c 1 t) (iblk10 V c 2 t) (iblk10 V c 3 t) (iblk10 V c 4 t) j = r10_P V c t j :=
  r10_out5_apply (iblk10 V c 0 t) (iblk10 V c 1 t) (iblk10 V c 2 t) (iblk10 V c 3 t) (iblk10 V c 4 t) j

/-- The statistics block the body leaves at tile t: the column sums of the tile's values and of their squares. -/
theorem r10_out6 (c : Dev nD) (t : Fin cfg10.N) (u : Fin 1) (q : Fin 300) :
    out10_6 (iblk10 V c 0 t) (iblk10 V c 1 t) (iblk10 V c 2 t) (iblk10 V c 3 t) (iblk10 V c 4 t) (ix3 u (0 : Fin 2) q)
      = ∑ p : Fin 2000, r10_P V c t (ix2 p q)
    ∧ out10_6 (iblk10 V c 0 t) (iblk10 V c 1 t) (iblk10 V c 2 t) (iblk10 V c 3 t) (iblk10 V c 4 t) (ix3 u (1 : Fin 2) q)
      = ∑ p : Fin 2000, r10_P V c t (ix2 p q) * r10_P V c t (ix2 p q) :=
  r10_out6_apply (iblk10 V c 0 t) (iblk10 V c 1 t) (iblk10 V c 2 t) (iblk10 V c 3 t) (iblk10 V c 4 t) u q

/-! ## The z1 array -/

/-- What tile t writes back to z1 is its block of the closed form. -/
theorem r10_flushed5 (c : Dev nD) (t : Fin cfg10.N) :
    (dat10 V c).flushed 5 t = ((cfg10.win 5).blk t).view.read (Elt Ideal) (r10_Z V c) := by
  show (cfg10.win 5).cut (grid10.coords t) ((dat10 V c).after 5 t) = _
  rw [after10_5]
  funext j
  have hj0 : (j 0).val < 2000 := (j 0).isLt
  have hj1 : (j 1).val < 300 := (j 1).isLt
  -- the block's entry j, by coordinates
  have hx : (cfg10.win 5).xinj (grid10.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg10.win 5).blk t).view.emb j : S20000x300.Idx)
      = ix2 (rowOf (r10_tile t) ⟨(j 0).val, hj0⟩) (⟨(j 1).val, hj1⟩ : Fin 300) := by
    obtain ⟨-, -, -, -, -, -, -, -, -, -, e0, e1, -⟩ := r10_idx t
    funext a; apply Fin.ext
    match a with
    | ⟨0, _⟩ => show win10_5.index t (0 : Fin 2) * 2000 + 1 * (j 0).val = t.val * 2000 + (j 0).val; rw [e0]; omega
    | ⟨1, _⟩ => show win10_5.index t (1 : Fin 2) * 300 + 1 * (j 1).val = (j 1).val; rw [e1]; omega
  exact ((r10_out5 V c t _).trans (congrArg (r10_P V c t) hx)).trans
    ((r10_tile_apply V c t ⟨(j 0).val, hj0⟩ ⟨(j 1).val, hj1⟩).trans (congrArg (r10_Z V c) he).symm)

/-- Membership in tile t's block of z1, by coordinates. -/
theorem r10_mem_blk5 (t : Fin cfg10.N) (i : S20000x300.Idx) :
    i ∈ ((cfg10.win 5).blk t).view.set ↔ ∀ a : Fin 2, win10_5.index t a * S2000x300.size a ≤ (i a).val
      ∧ (i a).val < win10_5.index t a * S2000x300.size a + S2000x300.size a := by
  show i ∈ ((View.whole main_v270_0).slice (win10_5.rect t)).set ↔ _
  rw [View.set_slice_whole, Rect.mem_set_unit]
  exact Iff.rfl

/-- Every entry of z1 is in the block of the tile its row belongs to. -/
theorem r10_cover5 (i : S20000x300.Idx) :
    ∃ t : Fin cfg10.N, (cfg10.win 5).flush t = true ∧ i ∈ ((cfg10.win 5).blk t).view.set := by
  have hN : cfg10.N = 10 := N_10
  have h0 : (i 0).val < 20000 := (i 0).isLt
  have h1 : (i 1).val < 300 := (i 1).isLt
  have ht : (i 0).val / 2000 < cfg10.N := by rw [hN]; omega
  obtain ⟨-, -, -, -, -, -, -, -, -, -, e0, e1, -⟩ := r10_idx ⟨(i 0).val / 2000, ht⟩
  refine ⟨⟨(i 0).val / 2000, ht⟩, flush10_5 _, ?_⟩
  rw [r10_mem_blk5]
  intro a
  match a with
  | ⟨0, _⟩ =>
    show win10_5.index ⟨(i 0).val / 2000, ht⟩ (0 : Fin 2) * 2000 ≤ (i 0).val
      ∧ (i 0).val < win10_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win10_5.index ⟨(i 0).val / 2000, ht⟩ (1 : Fin 2) * 300 ≤ (i 1).val
      ∧ (i 1).val < win10_5.index ⟨(i 0).val / 2000, ht⟩ (1 : Fin 2) * 300 + 300
    rw [e1]; omega

/-- THE z1 ARRAY after the region: the first dense stage of the region's inputs. -/
theorem arr10_5 (c : Dev nD) :
    (dat10 (F := Ideal) V c).arrAt 5 cfg10.N
      = z1Of (V c (Pipeline.arrRef spec10 0)) (V c (Pipeline.arrRef spec10 1)) (V c (Pipeline.arrRef spec10 2))
        (V c (Pipeline.arrRef spec10 3)) (V c (Pipeline.arrRef spec10 4)) :=
  (dat10 V c).arrAt_eq_of_cover 5 (r10_Z V c) (fun t _ => r10_flushed5 V c t) r10_cover5

/-! ## The statistics array -/

/-- One entry of what tile t writes back to the statistics: on row s of its slab, column q, the value v, provided the
    body left v there and the tile statistics of the closed form have v there. -/
theorem r10_flushed6_at (c : Dev nD) (t : Fin cfg10.N) (j : ((cfg10.win 6).xblock (grid10.coords t)).Idx) (s : Fin 2)
    (hs : (j 1).val = s.val) (hj2 : (j 2).val < 300) (v : EReal)
    (hout : ∀ u : Fin 1, out10_6 (iblk10 V c 0 t) (iblk10 V c 1 t) (iblk10 V c 2 t) (iblk10 V c 3 t) (iblk10 V c 4 t) (ix3 u s (⟨(j 2).val, hj2⟩ : Fin 300)) = v)
    (hstat : tileStats (r10_Z V c) (ix3 (r10_tile t) s (⟨(j 2).val, hj2⟩ : Fin 300)) = v) :
    (cfg10.win 6).cut (grid10.coords t)
        (out10_6 (iblk10 V c 0 t) (iblk10 V c 1 t) (iblk10 V c 2 t) (iblk10 V c 3 t) (iblk10 V c 4 t)) j
      = ((cfg10.win 6).blk t).view.read (Elt Ideal) (tileStats (r10_Z V c)) j := by
  have hj0 : (j 0).val < 1 := (j 0).isLt
  have hx : (cfg10.win 6).xinj (grid10.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg10.win 6).blk t).view.emb j : S10x2x300.Idx) = ix3 (r10_tile t) s (⟨(j 2).val, hj2⟩ : Fin 300) := by
    obtain ⟨-, -, -, -, -, -, -, -, -, -, -, -, e0, e1, e2⟩ := r10_idx t
    funext a; apply Fin.ext
    match a with
    | ⟨0, _⟩ => show win10_6.index t (0 : Fin 3) * 1 + 1 * (j 0).val = t.val; rw [e0]; omega
    | ⟨1, _⟩ => show win10_6.index t (1 : Fin 3) * 2 + 1 * (j 1).val = s.val; rw [e1]; omega
    | ⟨2, _⟩ => show win10_6.index t (2 : Fin 3) * 300 + 1 * (j 2).val = (j 2).val; rw [e2]; omega
  exact ((congrArg (out10_6 (iblk10 V c 0 t) (iblk10 V c 1 t) (iblk10 V c 2 t) (iblk10 V c 3 t) (iblk10 V c 4 t)) hx).trans (hout _)).trans
    (hstat.symm.trans (congrArg (tileStats (r10_Z V c)) he).symm)

/-- What tile t writes back to the statistics is its slab of the tile statistics of the closed form. -/
theorem r10_flushed6 (c : Dev nD) (t : Fin cfg10.N) :
    (dat10 V c).flushed 6 t = ((cfg10.win 6).blk t).view.read (Elt Ideal) (tileStats (r10_Z V c)) := by
  show (cfg10.win 6).cut (grid10.coords t) ((dat10 V c).after 6 t) = _
  rw [after10_6]
  funext j
  have hj1 : (j 1).val < 2 := (j 1).isLt
  have hj2 : (j 2).val < 300 := (j 2).isLt
  rcases Nat.lt_or_ge (j 1).val 1 with hs | hs
  · exact r10_flushed6_at V c t j 0 (by show (j 1).val = 0; omega) hj2 _ (fun u => (r10_out6 V c t u ⟨(j 2).val, hj2⟩).1)
      ((tileStats_zero _ (r10_tile t) ⟨(j 2).val, hj2⟩).trans
        (Finset.sum_congr rfl fun p _ => (r10_tile_apply V c t p ⟨(j 2).val, hj2⟩).symm))
  · exact r10_flushed6_at V c t j 1 (by show (j 1).val = 1; omega) hj2 _ (fun u => (r10_out6 V c t u ⟨(j 2).val, hj2⟩).2)
      ((tileStats_one _ (r10_tile t) ⟨(j 2).val, hj2⟩).trans (Finset.sum_congr rfl fun p _ =>
        (congrArg₂ (fun (a b : EReal) => a * b) (r10_tile_apply V c t p ⟨(j 2).val, hj2⟩)
          (r10_tile_apply V c t p ⟨(j 2).val, hj2⟩)).symm))

/-- Membership in tile t's slab of the statistics, by coordinates. -/
theorem r10_mem_blk6 (t : Fin cfg10.N) (i : S10x2x300.Idx) :
    i ∈ ((cfg10.win 6).blk t).view.set ↔ ∀ a : Fin 3, win10_6.index t a * S1x2x300.size a ≤ (i a).val
      ∧ (i a).val < win10_6.index t a * S1x2x300.size a + S1x2x300.size a := by
  show i ∈ ((View.whole main_v270_1).slice (win10_6.rect t)).set ↔ _
  rw [View.set_slice_whole, Rect.mem_set_unit]
  exact Iff.rfl

/-- Every entry of the statistics is in its tile's slab. -/
theorem r10_cover6 (i : S10x2x300.Idx) :
    ∃ t : Fin cfg10.N, (cfg10.win 6).flush t = true ∧ i ∈ ((cfg10.win 6).blk t).view.set := by
  have hN : cfg10.N = 10 := N_10
  have h0 : (i 0).val < 10 := (i 0).isLt
  have h1 : (i 1).val < 2 := (i 1).isLt
  have h2 : (i 2).val < 300 := (i 2).isLt
  have ht : (i 0).val < cfg10.N := by rw [hN]; exact h0
  obtain ⟨-, -, -, -, -, -, -, -, -, -, -, -, e0, e1, e2⟩ := r10_idx ⟨(i 0).val, ht⟩
  refine ⟨⟨(i 0).val, ht⟩, flush10_6 _, ?_⟩
  rw [r10_mem_blk6]
  intro a
  match a with
  | ⟨0, _⟩ =>
    show win10_6.index ⟨(i 0).val, ht⟩ (0 : Fin 3) * 1 ≤ (i 0).val ∧ (i 0).val < win10_6.index ⟨(i 0).val, ht⟩ (0 : Fin 3) * 1 + 1
    rw [e0]; show (i 0).val * 1 ≤ (i 0).val ∧ (i 0).val < (i 0).val * 1 + 1; omega
  | ⟨1, _⟩ =>
    show win10_6.index ⟨(i 0).val, ht⟩ (1 : Fin 3) * 2 ≤ (i 1).val ∧ (i 1).val < win10_6.index ⟨(i 0).val, ht⟩ (1 : Fin 3) * 2 + 2
    rw [e1]; omega
  | ⟨2, _⟩ =>
    show win10_6.index ⟨(i 0).val, ht⟩ (2 : Fin 3) * 300 ≤ (i 2).val ∧ (i 2).val < win10_6.index ⟨(i 0).val, ht⟩ (2 : Fin 3) * 300 + 300
    rw [e2]; omega

/-- THE STATISTICS ARRAY after the region: the tile statistics of the first dense stage of the region's inputs. -/
theorem arr10_6 (c : Dev nD) :
    (dat10 (F := Ideal) V c).arrAt 6 cfg10.N
      = tileStats (z1Of (V c (Pipeline.arrRef spec10 0)) (V c (Pipeline.arrRef spec10 1)) (V c (Pipeline.arrRef spec10 2))
        (V c (Pipeline.arrRef spec10 3)) (V c (Pipeline.arrRef spec10 4))) :=
  (dat10 V c).arrAt_eq_of_cover 6 (tileStats (r10_Z V c)) (fun t _ => r10_flushed6 V c t) r10_cover6

end Cert.KernelIdeal.RVal

end
-- ==== Proof.Region11.lean ====
/-
  The normalised second dense stage of a graph layer, tile by tile, as one array.

  The 20000 rows are processed in 10 tiles of 2000. At tile t the stage reads rows 2000·t … 2000·t + 1999 of z1 and the
  whole of the mean row μ, the variance row v, the scale row γ, the shift row β, the weights W and the bias b, and writes
  * rows 2000·t … 2000·t + 1999 of z2, where r(n, k) = max((z1(n, k) − μ(k))·rsqrt(v(k) + ε)·γ(k) + β(k), 0) and
    z2(n, q) = ∑ k, r(n, k)·W(k, q) + b(q), and
  * slab t of the statistics: row 0 the sums over the tile's rows of each column of z2, row 1 the sums of their squares.
  Each entry written depends only on the row it belongs to, so the tiles together hold z2 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of z1 and the whole of v, μ, γ, β, W, b. -/
theorem r11_pay3_apply (v0 : Vec Ideal S1x300 .f32) (v5 : Vec Ideal S2000x300 .f32) (v7 v13 v17 : Vec Ideal S1x300 .f32)
    (v24 : Vec Ideal S300x300 .f32) (v28 : Vec Ideal S1x300 .f32) (p : Fin 2000) (q : Fin 300) :
    k11_pay3 v0 v5 v7 v13 v17 v24 v28 (ix2 p q)
      = (∑ k : Fin 300, max ((v5 (ix2 p k) - v7 (ix2 (0 : Fin 1) k))
            * Ideal.rsqrt (v0 (ix2 (0 : Fin 1) k) + Ideal.ofBits .f32 0x3727C5AC#32)
            * v13 (ix2 (0 : Fin 1) k) + v17 (ix2 (0 : Fin 1) k)) 0 * v24 (ix2 k q)) + v28 (ix2 (0 : Fin 1) q) :=
  bnrelu_dense_apply dot_S2000x300_S300x300_S2000x300_1_0_0_1_n_n rfl v0 v5 v7 v13 v17 v24 v28 0x3727C5AC#32
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r11_sum_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k11_pay1 (k11_pay4 v0 v5 v7 v13 v17 v24 v28) (ix3 u s q) = ∑ p : Fin 2000, k11_pay3 v0 v5 v7 v13 v17 v24 v28 (ix2 p q) := by
  unfold k11_pay1 k11_pay4
  exact (statsRow_apply (n := 300)
      (multiReduction .add [0] S300 (k11_pay3 v0 v5 v7 v13 v17 v24 v28) 0x00000000#32 reduces_S2000x300_S300 (.inl rfl) rfl)
      shapeCasts_S300_S1x300 shapeCasts_S1x300_S1x1x300 u s q).trans
    (colsum_apply (m := 2000) (n := 300) (k11_pay3 v0 v5 v7 v13 v17 v24 v28) reduces_S2000x300_S300 (.inl rfl) rfl q)

/-- The tile's column sums of squares, at (u, s, q). -/
theorem r11_sumsq_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k11_pay2 (k11_pay5 v0 v5 v7 v13 v17 v24 v28) (ix3 u s q)
      = ∑ p : Fin 2000, k11_pay3 v0 v5 v7 v13 v17 v24 v28 (ix2 p q) * k11_pay3 v0 v5 v7 v13 v17 v24 v28 (ix2 p q) := by
  unfold k11_pay2 k11_pay5
  exact (statsRow_apply (n := 300)
      (multiReduction .add [0] S300 (mulf (k11_pay3 v0 v5 v7 v13 v17 v24 v28) (k11_pay3 v0 v5 v7 v13 v17 v24 v28)) 0x00000000#32
        reduces_S2000x300_S300 (.inl rfl) rfl)
      shapeCasts_S300_S1x300 shapeCasts_S1x300_S1x1x300 u s q).trans
    (colsum_apply (m := 2000) (n := 300) (mulf (k11_pay3 v0 v5 v7 v13 v17 v24 v28) (k11_pay3 v0 v5 v7 v13 v17 v24 v28))
      reduces_S2000x300_S300 (.inl rfl) rfl q)

/-- If a tile's block of z holds rows 2000·T + p of the array and its other blocks hold the whole rows and weights, the
    tile's value at (p, q) is z2 of the arrays at row 2000·T + p, column q. -/
theorem r11_tile_of_blocks (A0 : (⟨2, ![20000, 300]⟩ : Shape).Idx → EReal) (A1 A2 A3 A4 : (⟨2, ![1, 300]⟩ : Shape).Idx → EReal)
    (A5 : (⟨2, ![300, 300]⟩ : Shape).Idx → EReal) (A6 : (⟨2, ![1, 300]⟩ : Shape).Idx → EReal)
    (x0 : (⟨2, ![2000, 300]⟩ : Shape).Idx → EReal) (x1 x2 x3 x4 : (⟨2, ![1, 300]⟩ : Shape).Idx → EReal)
    (x5 : (⟨2, ![300, 300]⟩ : Shape).Idx → EReal) (x6 : (⟨2, ![1, 300]⟩ : Shape).Idx → EReal) (T : Fin 10)
    (h0 : ∀ (p : Fin 2000) (k : Fin 300), x0 (ix2 p k) = A0 (ix2 (rowOf T p) k))
    (h1 : ∀ k : Fin 300, x1 (ix2 (0 : Fin 1) k) = A1 (ix2 (0 : Fin 1) k))
    (h2 : ∀ k : Fin 300, x2 (ix2 (0 : Fin 1) k) = A2 (ix2 (0 : Fin 1) k))
    (h3 : ∀ k : Fin 300, x3 (ix2 (0 : Fin 1) k) = A3 (ix2 (0 : Fin 1) k))
    (h4 : ∀ k : Fin 300, x4 (ix2 (0 : Fin 1) k) = A4 (ix2 (0 : Fin 1) k))
    (h5 : ∀ k q : Fin 300, x5 (ix2 k q) = A5 (ix2 k q))
    (h6 : ∀ q : Fin 300, x6 (ix2 (0 : Fin 1) q) = A6 (ix2 (0 : Fin 1) q)) (p : Fin 2000) (q : Fin 300) :
    (∑ k : Fin 300, max ((x0 (ix2 p k) - x1 (ix2 (0 : Fin 1) k))
          * Ideal.rsqrt (x2 (ix2 (0 : Fin 1) k) + Ideal.ofBits .f32 0x3727C5AC#32)
          * x3 (ix2 (0 : Fin 1) k) + x4 (ix2 (0 : Fin 1) k)) 0 * x5 (ix2 k q)) + x6 (ix2 (0 : Fin 1) q)
      = z2Of A0 A1 A2 A3 A4 A5 A6 (ix2 (rowOf T p) q) := by
  rw [z2Of_apply]
  simp only [r1Of_apply, h0, h1, h2, h3, h4, h5, h6]

/-- What the body leaves in the z2 block, at (p, q): the stage's value there. -/
theorem r11_out7_apply (x0 : Vec Ideal S2000x300 .f32) (x1 x2 x3 x4 : Vec Ideal S1x300 .f32) (x5 : Vec Ideal S300x300 .f32)
    (x6 : Vec Ideal S1x300 .f32) (j : S2000x300.Idx) :
    out11_7 x0 x1 x2 x3 x4 x5 x6 j = k11_pay3 x2 x0 x1 x3 x4 x5 x6 j := by
  unfold out11_7
  rw [View.canon_unit_zero hz2]
  simp only [View.ld_unit_zero (S := S1x300) hz2, View.ld_unit_zero (S := S2000x300) hz2, View.ld_unit_zero (S := S300x300) hz2]

/-! ## Where each tile sits -/

/-- The tile number of a grid point. -/
def r11_tile (t : Fin cfg11.N) : Fin 10 := Fin.cast N_11 t

theorem r11_tile_val (t : Fin cfg11.N) : (r11_tile t).val = t.val := rfl

/-- The windows' block indices, decided over the 10 points: z1, z2 and the statistics move with the tile along axis 0;
    μ, v, γ, β, W and b stay. -/
theorem r11_idx : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = t.val ∧ win11_7.index t (1 : Fin 2) = 0
    ∧ win11_8.index t (0 : Fin 3) = t.val ∧ win11_8.index t (1 : Fin 3) = 0 ∧ win11_8.index t (2 : Fin 3) = 0 :=
  (by decide +kernel : ∀ t : Fin grid11.N, _)

/-- The tile's rows of z1: entry (p, k) of the block is entry (2000·t + p, k) of the array. -/
theorem r11_blk0 (c : Dev nD) (t : Fin cfg11.N) (p : Fin 2000) (k : Fin 300) :
    (iblk11 V c 0 t : Vec Ideal S2000x300 .f32) (ix2 p k)
      = (V c (Pipeline.arrRef spec11 0) : S20000x300.Idx → Elt Ideal .f32) (ix2 (rowOf (r11_tile t) p) k) := by
  obtain ⟨e0, e1, -⟩ := r11_idx t
  unfold iblk11
  rw [View.read_apply]
  refine congrArg (V c (Pipeline.arrRef spec11 0) : S20000x300.Idx → Elt Ideal .f32) (funext fun a => Fin.ext ?_)
  match a with
  | ⟨0, _⟩ => show win11_0.index t (0 : Fin 2) * 2000 + 1 * p.val = t.val * 2000 + p.val; rw [e0]; omega
  | ⟨1, _⟩ => show win11_0.index t (1 : Fin 2) * 300 + 1 * k.val = k.val; rw [e1]; omega

/-- The mean row, whole at every tile. -/
theorem r11_blk1 (c : Dev nD) (t : Fin cfg11.N) (u : Fin 1) (k : Fin 300) :
    (iblk11 V c 1 t : Vec Ideal S1x300 .f32) (ix2 u k)
      = (V c (Pipeline.arrRef spec11 1) : S1x300.Idx → Elt Ideal .f32) (ix2 u k) := by
  obtain ⟨-, -, e0, e1, -⟩ := r11_idx t
  unfold iblk11
  rw [View.read_apply]
  refine congrArg (V c (Pipeline.arrRef spec11 1) : S1x300.Idx → Elt Ideal .f32) (funext fun a => Fin.ext ?_)
  match a with
  | ⟨0, _⟩ => show win11_1.index t (0 : Fin 2) * 1 + 1 * u.val = u.val; rw [e0]; omega
  | ⟨1, _⟩ => show win11_1.index t (1 : Fin 2) * 300 + 1 * k.val = k.val; rw [e1]; omega

/-- The variance row, whole at every tile. -/
theorem r11_blk2 (c : Dev nD) (t : Fin cfg11.N) (u : Fin 1) (k : Fin 300) :
    (iblk11 V c 2 t : Vec Ideal S1x300 .f32) (ix2 u k)
      = (V c (Pipeline.arrRef spec11 2) : S1x300.Idx → Elt Ideal .f32) (ix2 u k) := by
  obtain ⟨-, -, -, -, e0, e1, -⟩ := r11_idx t
  unfold iblk11
  rw [View.read_apply]
  refine congrArg (V c (Pipeline.arrRef spec11 2) : S1x300.Idx → Elt Ideal .f32) (funext fun a => Fin.ext ?_)
  match a with
  | ⟨0, _⟩ => show win11_2.index t (0 : Fin 2) * 1 + 1 * u.val = u.val; rw [e0]; omega
  | ⟨1, _⟩ => show win11_2.index t (1 : Fin 2) * 300 + 1 * k.val = k.val; rw [e1]; omega

/-- The scale row, whole at every tile. -/
theorem r11_blk3 (c : Dev nD) (t : Fin cfg11.N) (u : Fin 1) (k : Fin 300) :
    (iblk11 V c 3 t : Vec Ideal S1x300 .f32) (ix2 u k)
      = (V c (Pipeline.arrRef spec11 3) : S1x300.Idx → Elt Ideal .f32) (ix2 u k) := by
  obtain ⟨-, -, -, -, -, -, e0, e1, -⟩ := r11_idx t
  unfold iblk11
  rw [View.read_apply]
  refine congrArg (V c (Pipeline.arrRef spec11 3) : S1x300.Idx → Elt Ideal .f32) (funext fun a => Fin.ext ?_)
  match a with
  | ⟨0, _⟩ => show win11_3.index t (0 : Fin 2) * 1 + 1 * u.val = u.val; rw [e0]; omega
  | ⟨1, _⟩ => show win11_3.index t (1 : Fin 2) * 300 + 1 * k.val = k.val; rw [e1]; omega

/-- The shift row, whole at every tile. -/
theorem r11_blk4 (c : Dev nD) (t : Fin cfg11.N) (u : Fin 1) (k : Fin 300) :
    (iblk11 V c 4 t : Vec Ideal S1x300 .f32) (ix2 u k)
      = (V c (Pipeline.arrRef spec11 4) : S1x300.Idx → Elt Ideal .f32) (ix2 u k) := by
  obtain ⟨-, -, -, -, -, -, -, -, e0, e1, -⟩ := r11_idx t
  unfold iblk11
  rw [View.read_apply]
  refine congrArg (V c (Pipeline.arrRef spec11 4) : S1x300.Idx → Elt Ideal .f32) (funext fun a => Fin.ext ?_)
  match a with
  | ⟨0, _⟩ => show win11_4.index t (0 : Fin 2) * 1 + 1 * u.val = u.val; rw [e0]; omega
  | ⟨1, _⟩ => show win11_4.index t (1 : Fin 2) * 300 + 1 * k.val = k.val; rw [e1]; omega

/-- The weights, whole at every tile. -/
theorem r11_blk5 (c : Dev nD) (t : Fin cfg11.N) (k : Fin 300) (q : Fin 300) :
    (iblk11 V c 5 t : Vec Ideal S300x300 .f32) (ix2 k q)
      = (V c (Pipeline.arrRef spec11 5) : S300x300.Idx → Elt Ideal .f32) (ix2 k q) := by
  obtain ⟨-, -, -, -, -, -, -, -, -, -, e0, e1, -⟩ := r11_idx t
  unfold iblk11
  rw [View.read_apply]
  refine congrArg (V c (Pipeline.arrRef spec11 5) : S300x300.Idx → Elt Ideal .f32) (funext fun a => Fin.ext ?_)
  match a with
  | ⟨0, _⟩ => show win11_5.index t (0 : Fin 2) * 300 + 1 * k.val = k.val; rw [e0]; omega
  | ⟨1, _⟩ => show win11_5.index t (1 : Fin 2) * 300 + 1 * q.val = q.val; rw [e1]; omega

/-- The bias row, whole at every tile. -/
theorem r11_blk6 (c : Dev nD) (t : Fin cfg11.N) (u : Fin 1) (k : Fin 300) :
    (iblk11 V c 6 t : Vec Ideal S1x300 .f32) (ix2 u k)
      = (V c (Pipeline.arrRef spec11 6) : S1x300.Idx → Elt Ideal .f32) (ix2 u k) := by
  obtain ⟨-, -, -, -, -, -, -, -, -, -, -, -, e0, e1, -⟩ := r11_idx t
  unfold iblk11
  rw [View.read_apply]
  refine congrArg (V c (Pipeline.arrRef spec11 6) : S1x300.Idx → Elt Ideal .f32) (funext fun a => Fin.ext ?_)
  match a with
  | ⟨0, _⟩ => show win11_6.index t (0 : Fin 2) * 1 + 1 * u.val = u.val; rw [e0]; omega
  | ⟨1, _⟩ => show win11_6.index t (1 : Fin 2) * 300 + 1 * k.val = k.val; rw [e1]; omega

/-! ## The region's closed form and one tile's values, named once -/

/-- The normalised second dense stage of the arrays the region finds. -/
def r11_Z (c : Dev nD) : (⟨2, ![20000, 300]⟩ : Shape).Idx → EReal :=
  z2Of (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) (V c (Pipeline.arrRef spec11 6))

/-- What tile t computes from its blocks. -/
def r11_P (c : Dev nD) (t : Fin cfg11.N) : (⟨2, ![2000, 300]⟩ : Shape).Idx → EReal :=
  k11_pay3 (iblk11 V c 2 t) (iblk11 V c 0 t) (iblk11 V c 1 t) (iblk11 V c 3 t) (iblk11 V c 4 t) (iblk11 V c 5 t) (iblk11 V c 6 t)

/-- THE TILE'S ENTRY: what tile t computes at (p, q) is z2 of the whole arrays at row 2000·t + p, column q. -/
theorem r11_tile_apply (c : Dev nD) (t : Fin cfg11.N) (p : Fin 2000) (q : Fin 300) :
    r11_P V c t (ix2 p q) = r11_Z V c (ix2 (rowOf (r11_tile t) p) q) := by
  unfold r11_P r11_Z
  refine (r11_pay3_apply (iblk11 V c 2 t) (iblk11 V c 0 t) (iblk11 V c 1 t) (iblk11 V c 3 t) (iblk11 V c 4 t) (iblk11 V c 5 t) (iblk11 V c 6 t) p q).trans ?_
  exact r11_tile_of_blocks (V c (Pipeline.arrRef spec11 0)) (V c (Pipeline.arrRef spec11 1)) (V c (Pipeline.arrRef spec11 2))
    (V c (Pipeline.arrRef spec11 3)) (V c (Pipeline.arrRef spec11 4)) (V c (Pipeline.arrRef spec11 5)) (V c (Pipeline.arrRef spec11 6))
    (iblk11 V c 0 t) (iblk11 V c 1 t) (iblk11 V c 2 t) (iblk11 V c 3 t) (iblk11 V c 4 t) (iblk11 V c 5 t) (iblk11 V c 6 t) (r11_tile t)
    (r11_blk0 V c t) (r11_blk1 V c t 0) (r11_blk2 V c t 0) (r11_blk3 V c t 0) (r11_blk4 V c t 0) (r11_blk5 V c t) (r11_blk6 V c t 0) p q

/-- The z2 block the body leaves at tile t is the tile's values. -/
theorem r11_out7 (c : Dev nD) (t : Fin cfg11.N) (j : S2000x300.Idx) :
    out11_7 (iblk11 V c 0 t) (iblk11 V c 1 t) (iblk11 V c 2 t) (iblk11 V c 3 t) (iblk11 V c 4 t) (iblk11 V c 5 t) (iblk11 V c 6 t) j = r11_P V c t j :=
  r11_out7_apply (iblk11 V c 0 t) (iblk11 V c 1 t) (iblk11 V c 2 t) (iblk11 V c 3 t) (iblk11 V c 4 t) (iblk11 V c 5 t) (iblk11 V c 6 t) j

/-- What the body leaves in its two-row statistics block at (u, s, q): row 0 the column sums of the tile's values, row 1
    the column sums of their squares. -/
theorem r11_out8_apply (x0 : Vec Ideal S2000x300 .f32) (x1 x2 x3 x4 : Vec Ideal S1x300 .f32) (x5 : Vec Ideal S300x300 .f32)
    (x6 : Vec Ideal S1x300 .f32) (u : Fin 1) (q : Fin 300) :
    out11_8 x0 x1 x2 x3 x4 x5 x6 (ix3 u (0 : Fin 2) q) = ∑ p : Fin 2000, k11_pay3 x2 x0 x1 x3 x4 x5 x6 (ix2 p q)
    ∧ out11_8 x0 x1 x2 x3 x4 x5 x6 (ix3 u (1 : Fin 2) q)
      = ∑ p : Fin 2000, k11_pay3 x2 x0 x1 x3 x4 x5 x6 (ix2 p q) * k11_pay3 x2 x0 x1 x3 x4 x5 x6 (ix2 p q) := by
  unfold out11_8
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k11_pay1 (k11_pay4 x2 x0 x1 x3 x4 x5 x6))
    (k11_pay2 (k11_pay5 x2 x0 x1 x3 x4 x5 x6)) u q
  exact ⟨h0.trans (r11_sum_apply x2 x0 x1 x3 x4 x5 x6 0 0 q), h1.trans (r11_sumsq_apply x2 x0 x1 x3 x4 x5 x6 0 0 q)⟩

/-- The statistics block the body leaves at tile t: the column sums of the tile's values and of their squares. -/
theorem r11_out8 (c : Dev nD) (t : Fin cfg11.N) (u : Fin 1) (q : Fin 300) :
    out11_8 (iblk11 V c 0 t) (iblk11 V c 1 t) (iblk11 V c 2 t) (iblk11 V c 3 t) (iblk11 V c 4 t) (iblk11 V c 5 t) (iblk11 V c 6 t) (ix3 u (0 : Fin 2) q)
      = ∑ p : Fin 2000, r11_P V c t (ix2 p q)
    ∧ out11_8 (iblk11 V c 0 t) (iblk11 V c 1 t) (iblk11 V c 2 t) (iblk11 V c 3 t) (iblk11 V c 4 t) (iblk11 V c 5 t) (iblk11 V c 6 t) (ix3 u (1 : Fin 2) q)
      = ∑ p : Fin 2000, r11_P V c t (ix2 p q) * r11_P V c t (ix2 p q) :=
  r11_out8_apply (iblk11 V c 0 t) (iblk11 V c 1 t) (iblk11 V c 2 t) (iblk11 V c 3 t) (iblk11 V c 4 t) (iblk11 V c 5 t) (iblk11 V c 6 t) u q

/-! ## The z2 array -/

/-- What tile t writes back to z2 is its block of the closed form. -/
theorem r11_flushed7 (c : Dev nD) (t : Fin cfg11.N) :
    (dat11 V c).flushed 7 t = ((cfg11.win 7).blk t).view.read (Elt Ideal) (r11_Z V c) := by
  show (cfg11.win 7).cut (grid11.coords t) ((dat11 V c).after 7 t) = _
  rw [after11_7]
  funext j
  have hj0 : (j 0).val < 2000 := (j 0).isLt
  have hj1 : (j 1).val < 300 := (j 1).isLt
  -- the block's entry j, by coordinates
  have hx : (cfg11.win 7).xinj (grid11.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg11.win 7).blk t).view.emb j : S20000x300.Idx)
      = ix2 (rowOf (r11_tile t) ⟨(j 0).val, hj0⟩) (⟨(j 1).val, hj1⟩ : Fin 300) := by
    obtain ⟨-, -, -, -, -, -, -, -, -, -, -, -, -, -, e0, e1, -⟩ := r11_idx t
    funext a; apply Fin.ext
    match a with
    | ⟨0, _⟩ => show win11_7.index t (0 : Fin 2) * 2000 + 1 * (j 0).val = t.val * 2000 + (j 0).val; rw [e0]; omega
    | ⟨1, _⟩ => show win11_7.index t (1 : Fin 2) * 300 + 1 * (j 1).val = (j 1).val; rw [e1]; omega
  exact ((r11_out7 V c t _).trans (congrArg (r11_P V c t) hx)).trans
    ((r11_tile_apply V c t ⟨(j 0).val, hj0⟩ ⟨(j 1).val, hj1⟩).trans (congrArg (r11_Z V c) he).symm)

/-- Membership in tile t's block of z2, by coordinates. -/
theorem r11_mem_blk7 (t : Fin cfg11.N) (i : S20000x300.Idx) :
    i ∈ ((cfg11.win 7).blk t).view.set ↔ ∀ a : Fin 2, win11_7.index t a * S2000x300.size a ≤ (i a).val
      ∧ (i a).val < win11_7.index t a * S2000x300.size a + S2000x300.size a := by
  show i ∈ ((View.whole main_v298_0).slice (win11_7.rect t)).set ↔ _
  rw [View.set_slice_whole, Rect.mem_set_unit]
  exact Iff.rfl

/-- Every entry of z2 is in the block of the tile its row belongs to. -/
theorem r11_cover7 (i : S20000x300.Idx) :
    ∃ t : Fin cfg11.N, (cfg11.win 7).flush t = true ∧ i ∈ ((cfg11.win 7).blk t).view.set := by
  have hN : cfg11.N = 10 := N_11
  have h0 : (i 0).val < 20000 := (i 0).isLt
  have h1 : (i 1).val < 300 := (i 1).isLt
  have ht : (i 0).val / 2000 < cfg11.N := by rw [hN]; omega
  obtain ⟨-, -, -, -, -, -, -, -, -, -, -, -, -, -, e0, e1, -⟩ := r11_idx ⟨(i 0).val / 2000, ht⟩
  refine ⟨⟨(i 0).val / 2000, ht⟩, flush11_7 _, ?_⟩
  rw [r11_mem_blk7]
  intro a
  match a with
  | ⟨0, _⟩ =>
    show win11_7.index ⟨(i 0).val / 2000, ht⟩ (0 : Fin 2) * 2000 ≤ (i 0).val
      ∧ (i 0).val < win11_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win11_7.index ⟨(i 0).val / 2000, ht⟩ (1 : Fin 2) * 300 ≤ (i 1).val
      ∧ (i 1).val < win11_7.index ⟨(i 0).val / 2000, ht⟩ (1 : Fin 2) * 300 + 300
    rw [e1]; omega

/-- THE z2 ARRAY after the region: the normalised second dense stage of the region's inputs. -/
theorem arr11_7 (c : Dev nD) :
    (dat11 (F := Ideal) V c).arrAt 7 cfg11.N
      = z2Of (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) (V c (Pipeline.arrRef spec11 6)) :=
  (dat11 V c).arrAt_eq_of_cover 7 (r11_Z V c) (fun t _ => r11_flushed7 V c t) r11_cover7

/-! ## The statistics array -/

/-- One entry of what tile t writes back to the statistics: on row s of its slab, column q, the value v, provided the
    body left v there and the tile statistics of the closed form have v there. -/
theorem r11_flushed8_at (c : Dev nD) (t : Fin cfg11.N) (j : ((cfg11.win 8).xblock (grid11.coords t)).Idx) (s : Fin 2)
    (hs : (j 1).val = s.val) (hj2 : (j 2).val < 300) (v : EReal)
    (hout : ∀ u : Fin 1, out11_8 (iblk11 V c 0 t) (iblk11 V c 1 t) (iblk11 V c 2 t) (iblk11 V c 3 t) (iblk11 V c 4 t) (iblk11 V c 5 t) (iblk11 V c 6 t) (ix3 u s (⟨(j 2).val, hj2⟩ : Fin 300)) = v)
    (hstat : tileStats (r11_Z V c) (ix3 (r11_tile t) s (⟨(j 2).val, hj2⟩ : Fin 300)) = v) :
    (cfg11.win 8).cut (grid11.coords t)
        (out11_8 (iblk11 V c 0 t) (iblk11 V c 1 t) (iblk11 V c 2 t) (iblk11 V c 3 t) (iblk11 V c 4 t) (iblk11 V c 5 t) (iblk11 V c 6 t)) j
      = ((cfg11.win 8).blk t).view.read (Elt Ideal) (tileStats (r11_Z V c)) j := by
  have hj0 : (j 0).val < 1 := (j 0).isLt
  have hx : (cfg11.win 8).xinj (grid11.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg11.win 8).blk t).view.emb j : S10x2x300.Idx) = ix3 (r11_tile t) s (⟨(j 2).val, hj2⟩ : Fin 300) := by
    obtain ⟨-, -, -, -, -, -, -, -, -, -, -, -, -, -, -, -, e0, e1, e2⟩ := r11_idx t
    funext a; apply Fin.ext
    match a with
    | ⟨0, _⟩ => show win11_8.index t (0 : Fin 3) * 1 + 1 * (j 0).val = t.val; rw [e0]; omega
    | ⟨1, _⟩ => show win11_8.index t (1 : Fin 3) * 2 + 1 * (j 1).val = s.val; rw [e1]; omega
    | ⟨2, _⟩ => show win11_8.index t (2 : Fin 3) * 300 + 1 * (j 2).val = (j 2).val; rw [e2]; omega
  exact ((congrArg (out11_8 (iblk11 V c 0 t) (iblk11 V c 1 t) (iblk11 V c 2 t) (iblk11 V c 3 t) (iblk11 V c 4 t) (iblk11 V c 5 t) (iblk11 V c 6 t)) hx).trans (hout _)).trans
    (hstat.symm.trans (congrArg (tileStats (r11_Z V c)) he).symm)

/-- What tile t writes back to the statistics is its slab of the tile statistics of the closed form. -/
theorem r11_flushed8 (c : Dev nD) (t : Fin cfg11.N) :
    (dat11 V c).flushed 8 t = ((cfg11.win 8).blk t).view.read (Elt Ideal) (tileStats (r11_Z V c)) := by
  show (cfg11.win 8).cut (grid11.coords t) ((dat11 V c).after 8 t) = _
  rw [after11_8]
  funext j
  have hj1 : (j 1).val < 2 := (j 1).isLt
  have hj2 : (j 2).val < 300 := (j 2).isLt
  rcases Nat.lt_or_ge (j 1).val 1 with hs | hs
  · exact r11_flushed8_at V c t j 0 (by show (j 1).val = 0; omega) hj2 _ (fun u => (r11_out8 V c t u ⟨(j 2).val, hj2⟩).1)
      ((tileStats_zero _ (r11_tile t) ⟨(j 2).val, hj2⟩).trans
        (Finset.sum_congr rfl fun p _ => (r11_tile_apply V c t p ⟨(j 2).val, hj2⟩).symm))
  · exact r11_flushed8_at V c t j 1 (by show (j 1).val = 1; omega) hj2 _ (fun u => (r11_out8 V c t u ⟨(j 2).val, hj2⟩).2)
      ((tileStats_one _ (r11_tile t) ⟨(j 2).val, hj2⟩).trans (Finset.sum_congr rfl fun p _ =>
        (congrArg₂ (fun (a b : EReal) => a * b) (r11_tile_apply V c t p ⟨(j 2).val, hj2⟩)
          (r11_tile_apply V c t p ⟨(j 2).val, hj2⟩)).symm))

/-- Membership in tile t's slab of the statistics, by coordinates. -/
theorem r11_mem_blk8 (t : Fin cfg11.N) (i : S10x2x300.Idx) :
    i ∈ ((cfg11.win 8).blk t).view.set ↔ ∀ a : Fin 3, win11_8.index t a * S1x2x300.size a ≤ (i a).val
      ∧ (i a).val < win11_8.index t a * S1x2x300.size a + S1x2x300.size a := by
  show i ∈ ((View.whole main_v298_1).slice (win11_8.rect t)).set ↔ _
  rw [View.set_slice_whole, Rect.mem_set_unit]
  exact Iff.rfl

/-- Every entry of the statistics is in its tile's slab. -/
theorem r11_cover8 (i : S10x2x300.Idx) :
    ∃ t : Fin cfg11.N, (cfg11.win 8).flush t = true ∧ i ∈ ((cfg11.win 8).blk t).view.set := by
  have hN : cfg11.N = 10 := N_11
  have h0 : (i 0).val < 10 := (i 0).isLt
  have h1 : (i 1).val < 2 := (i 1).isLt
  have h2 : (i 2).val < 300 := (i 2).isLt
  have ht : (i 0).val < cfg11.N := by rw [hN]; exact h0
  obtain ⟨-, -, -, -, -, -, -, -, -, -, -, -, -, -, -, -, e0, e1, e2⟩ := r11_idx ⟨(i 0).val, ht⟩
  refine ⟨⟨(i 0).val, ht⟩, flush11_8 _, ?_⟩
  rw [r11_mem_blk8]
  intro a
  match a with
  | ⟨0, _⟩ =>
    show win11_8.index ⟨(i 0).val, ht⟩ (0 : Fin 3) * 1 ≤ (i 0).val ∧ (i 0).val < win11_8.index ⟨(i 0).val, ht⟩ (0 : Fin 3) * 1 + 1
    rw [e0]; show (i 0).val * 1 ≤ (i 0).val ∧ (i 0).val < (i 0).val * 1 + 1; omega
  | ⟨1, _⟩ =>
    show win11_8.index ⟨(i 0).val, ht⟩ (1 : Fin 3) * 2 ≤ (i 1).val ∧ (i 1).val < win11_8.index ⟨(i 0).val, ht⟩ (1 : Fin 3) * 2 + 2
    rw [e1]; omega
  | ⟨2, _⟩ =>
    show win11_8.index ⟨(i 0).val, ht⟩ (2 : Fin 3) * 300 ≤ (i 2).val ∧ (i 2).val < win11_8.index ⟨(i 0).val, ht⟩ (2 : Fin 3) * 300 + 300
    rw [e2]; omega

/-- THE STATISTICS ARRAY after the region: the tile statistics of the normalised second dense stage of the region's inputs. -/
theorem arr11_8 (c : Dev nD) :
    (dat11 (F := Ideal) V c).arrAt 8 cfg11.N
      = tileStats (z2Of (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) (V c (Pipeline.arrRef spec11 6))) :=
  (dat11 V c).arrAt_eq_of_cover 8 (tileStats (r11_Z V c)) (fun t _ => r11_flushed8 V c t) r11_cover8

end Cert.KernelIdeal.RVal

end
-- ==== Proof.Region12.lean ====
/-
  The normalising region in closed form. Its grid has 10 points; point t reads rows 2000t … 2000t + 1999 of the
  [20000, 300] input and the four one-row operands whole, and writes the same rows of both outputs. Every entry of a
  written block is the body's value at that entry, which depends only on the input's entry at the same place and on
  the one-row operands at the same column; so each output array, once all ten blocks are written, is the one
  function  max((z − mean) · rsqrt(var + ε) · g + be, 0)  of the arrays the region found, entry by entry. The second
  output is the first narrowed, which is the identity on extended reals.
-/
import proofs.«119086_j26585847562989_2_alg».proof.Proof.Gen.KernelIdeal.Frame
import Idealize.ShloMosaic.Lib.Pipeline.Value
import proofs.«119086_j26585847562989_2_alg».proof.Proof.ReadEncBn

-- an array's shape is found by walking the program's list of buffers up to the array; the later the region, the longer the walk
set_option maxHeartbeats 1600000

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem r12_hz : (![0, 0] : Fin 2 → Nat) = fun _ => 0 := funext fun a => by fin_cases a <;> rfl

/-- The body's first stored value at (p, q) is the closed form of its five loaded blocks there. -/
theorem r12_pay1_apply (v0 v7 v13 v17 : Vec Ideal S1x300 .f32) (v5 : Vec Ideal S2000x300 .f32) (p : Fin 2000) (q : Fin 300) :
    k12_pay1 v0 v5 v7 v13 v17 (ix2 p q) = bnReluOf v5 v7 v0 v13 v17 (ix2 p q) := by
  unfold k12_pay1
  exact bnBody_apply v5 v7 v0 v13 v17 _ _ _ p q

/-- The second stored value is the first narrowed: the same extended real. -/
theorem r12_pay2_apply (v0 v7 v13 v17 : Vec Ideal S1x300 .f32) (v5 : Vec Ideal S2000x300 .f32) (p : Fin 2000) (q : Fin 300) :
    k12_pay2 v0 v5 v7 v13 v17 (ix2 p q) = bnReluOf v5 v7 v0 v13 v17 (ix2 p q) :=
  r12_pay1_apply v0 v7 v13 v17 v5 p q

/-- One entry of a block: if the input block's entry y is the array's entry i and the two share their column, the
    body's value at y is the closed form of the array at i. -/
theorem r12_point1 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k12_pay1 x2 x0 x1 x3 x4 y = bnReluOf z x1 x2 x3 x4 i := by
  obtain ⟨p, q, rfl⟩ : ∃ (p : Fin 2000) (q : Fin 300), y = ix2 p q := ⟨y 0, y 1, eq_ix2 y⟩
  obtain ⟨a, b, rfl⟩ : ∃ (a : Fin 20000) (b : Fin 300), i = ix2 a b := ⟨i 0, i 1, eq_ix2 i⟩
  obtain rfl : b = q := Fin.ext h1
  rw [r12_pay1_apply, bnReluOf_apply, bnReluOf_apply, h0]

theorem r12_point2 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k12_pay2 x2 x0 x1 x3 x4 y = bnReluOf z x1 x2 x3 x4 i :=
  r12_point1 x0 x1 x2 x3 x4 z i y h0 h1

/-- The printed index maps over the ten points: the input and both outputs are at block (t, 0), the one-row operands
    at block (0, 0). -/
theorem r12_idx : ∀ t : Fin cfg12.N,
    win12_0.index t (0 : Fin 2) = t.val ∧ win12_0.index t (1 : Fin 2) = 0
    ∧ win12_5.index t (0 : Fin 2) = t.val ∧ win12_5.index t (1 : Fin 2) = 0
    ∧ win12_6.index t (0 : Fin 2) = t.val ∧ win12_6.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0 :=
  (by decide +kernel : ∀ t : Fin grid12.N, _)

/-- A one-row operand's block is the whole one-row array, at every point. -/
theorem r12_row1 (c : Dev nD) (t : Fin cfg12.N) :
    (iblk12 V c 1 t : Vec Ideal S1x300 .f32) = (V c (Pipeline.arrRef spec12 1) : S1x300.Idx → EReal) := by
  obtain ⟨-, -, -, -, -, -, e0, e1, -⟩ := r12_idx t
  funext y
  show V c (Pipeline.arrRef spec12 1) (((cfg12.win 1).blk t).view.emb y) = V c (Pipeline.arrRef spec12 1) y
  refine congrArg _ (funext fun a => Fin.ext ?_)
  match a with
  | ⟨0, _⟩ => show win12_1.index t (0 : Fin 2) * 1 + 1 * (y 0).val = (y 0).val; rw [e0]; omega
  | ⟨1, _⟩ => show win12_1.index t (1 : Fin 2) * 300 + 1 * (y 1).val = (y 1).val; rw [e1]; omega
theorem r12_row2 (c : Dev nD) (t : Fin cfg12.N) :
    (iblk12 V c 2 t : Vec Ideal S1x300 .f32) = (V c (Pipeline.arrRef spec12 2) : S1x300.Idx → EReal) := by
  obtain ⟨-, -, -, -, -, -, -, -, e0, e1, -⟩ := r12_idx t
  funext y
  show V c (Pipeline.arrRef spec12 2) (((cfg12.win 2).blk t).view.emb y) = V c (Pipeline.arrRef spec12 2) y
  refine congrArg _ (funext fun a => Fin.ext ?_)
  match a with
  | ⟨0, _⟩ => show win12_2.index t (0 : Fin 2) * 1 + 1 * (y 0).val = (y 0).val; rw [e0]; omega
  | ⟨1, _⟩ => show win12_2.index t (1 : Fin 2) * 300 + 1 * (y 1).val = (y 1).val; rw [e1]; omega
theorem r12_row3 (c : Dev nD) (t : Fin cfg12.N) :
    (iblk12 V c 3 t : Vec Ideal S1x300 .f32) = (V c (Pipeline.arrRef spec12 3) : S1x300.Idx → EReal) := by
  obtain ⟨-, -, -, -, -, -, -, -, -, -, e0, e1, -⟩ := r12_idx t
  funext y
  show V c (Pipeline.arrRef spec12 3) (((cfg12.win 3).blk t).view.emb y) = V c (Pipeline.arrRef spec12 3) y
  refine congrArg _ (funext fun a => Fin.ext ?_)
  match a with
  | ⟨0, _⟩ => show win12_3.index t (0 : Fin 2) * 1 + 1 * (y 0).val = (y 0).val; rw [e0]; omega
  | ⟨1, _⟩ => show win12_3.index t (1 : Fin 2) * 300 + 1 * (y 1).val = (y 1).val; rw [e1]; omega
theorem r12_row4 (c : Dev nD) (t : Fin cfg12.N) :
    (iblk12 V c 4 t : Vec Ideal S1x300 .f32) = (V c (Pipeline.arrRef spec12 4) : S1x300.Idx → EReal) := by
  obtain ⟨-, -, -, -, -, -, -, -, -, -, -, -, e0, e1⟩ := r12_idx t
  funext y
  show V c (Pipeline.arrRef spec12 4) (((cfg12.win 4).blk t).view.emb y) = V c (Pipeline.arrRef spec12 4) y
  refine congrArg _ (funext fun a => Fin.ext ?_)
  match a with
  | ⟨0, _⟩ => show win12_4.index t (0 : Fin 2) * 1 + 1 * (y 0).val = (y 0).val; rw [e0]; omega
  | ⟨1, _⟩ => show win12_4.index t (1 : Fin 2) * 300 + 1 * (y 1).val = (y 1).val; rw [e1]; omega

/-- The region's closed form of the arrays it finds. -/
abbrev r12_G (c : Dev nD) : S20000x300.Idx → EReal :=
  bnReluOf (m := 20000) (n := 300) (V c (Pipeline.arrRef spec12 0)) (V c (Pipeline.arrRef spec12 1)) (V c (Pipeline.arrRef spec12 2))
    (V c (Pipeline.arrRef spec12 3)) (V c (Pipeline.arrRef spec12 4))

/-- What point t writes back to the first output is block t of the closed form. -/
theorem r12_flushed5 (c : Dev nD) (t : Fin cfg12.N) :
    (dat12 V c).flushed 5 t = ((cfg12.win 5).blk t).view.read (Elt Ideal) (r12_G V c) := by
  show (cfg12.win 5).cut (grid12.coords t) ((dat12 V c).after 5 t) = _
  rw [after12_5]
  unfold out12_5
  rw [View.canon_unit_zero r12_hz]
  simp only [View.ld_unit_zero (S := S2000x300) r12_hz, View.ld_unit_zero (S := S1x300) r12_hz]
  rw [r12_row1, r12_row2, r12_row3, r12_row4]
  obtain ⟨a0, a1, b0, b1, -⟩ := r12_idx t
  funext j
  show k12_pay1 (V c (Pipeline.arrRef spec12 2)) (iblk12 V c 0 t) (V c (Pipeline.arrRef spec12 1)) (V c (Pipeline.arrRef spec12 3))
      (V c (Pipeline.arrRef spec12 4)) j = r12_G V c (((cfg12.win 5).blk t).view.emb j)
  refine r12_point1 (iblk12 V c 0 t) (V c (Pipeline.arrRef spec12 1)) (V c (Pipeline.arrRef spec12 2)) (V c (Pipeline.arrRef spec12 3))
    (V c (Pipeline.arrRef spec12 4)) (V c (Pipeline.arrRef spec12 0)) (((cfg12.win 5).blk t).view.emb j) j ?_ ?_
  · show V c (Pipeline.arrRef spec12 0) (((cfg12.win 0).blk t).view.emb j) = V c (Pipeline.arrRef spec12 0) (((cfg12.win 5).blk t).view.emb j)
    refine congrArg _ (funext fun a => Fin.ext ?_)
    match a with
    | ⟨0, _⟩ => show win12_0.index t (0 : Fin 2) * 2000 + 1 * (j 0).val = win12_5.index t (0 : Fin 2) * 2000 + 1 * (j 0).val; rw [a0, b0]
    | ⟨1, _⟩ => show win12_0.index t (1 : Fin 2) * 300 + 1 * (j 1).val = win12_5.index t (1 : Fin 2) * 300 + 1 * (j 1).val; rw [a1, b1]
  · show win12_5.index t (1 : Fin 2) * 300 + 1 * (j 1).val = (j 1).val
    rw [b1]; omega

/-- What point t writes back to the second output is block t of the same closed form. -/
theorem r12_flushed6 (c : Dev nD) (t : Fin cfg12.N) :
    (dat12 V c).flushed 6 t = ((cfg12.win 6).blk t).view.read (Elt Ideal) (r12_G V c) := by
  show (cfg12.win 6).cut (grid12.coords t) ((dat12 V c).after 6 t) = _
  rw [after12_6]
  unfold out12_6
  rw [View.canon_unit_zero r12_hz]
  simp only [View.ld_unit_zero (S := S2000x300) r12_hz, View.ld_unit_zero (S := S1x300) r12_hz]
  rw [r12_row1, r12_row2, r12_row3, r12_row4]
  obtain ⟨a0, a1, -, -, b0, b1, -⟩ := r12_idx t
  funext j
  show k12_pay2 (V c (Pipeline.arrRef spec12 2)) (iblk12 V c 0 t) (V c (Pipeline.arrRef spec12 1)) (V c (Pipeline.arrRef spec12 3))
      (V c (Pipeline.arrRef spec12 4)) j = r12_G V c (((cfg12.win 6).blk t).view.emb j)
  refine r12_point2 (iblk12 V c 0 t) (V c (Pipeline.arrRef spec12 1)) (V c (Pipeline.arrRef spec12 2)) (V c (Pipeline.arrRef spec12 3))
    (V c (Pipeline.arrRef spec12 4)) (V c (Pipeline.arrRef spec12 0)) (((cfg12.win 6).blk t).view.emb j) j ?_ ?_
  · show V c (Pipeline.arrRef spec12 0) (((cfg12.win 0).blk t).view.emb j) = V c (Pipeline.arrRef spec12 0) (((cfg12.win 6).blk t).view.emb j)
    refine congrArg _ (funext fun a => Fin.ext ?_)
    match a with
    | ⟨0, _⟩ => show win12_0.index t (0 : Fin 2) * 2000 + 1 * (j 0).val = win12_6.index t (0 : Fin 2) * 2000 + 1 * (j 0).val; rw [a0, b0]
    | ⟨1, _⟩ => show win12_0.index t (1 : Fin 2) * 300 + 1 * (j 1).val = win12_6.index t (1 : Fin 2) * 300 + 1 * (j 1).val; rw [a1, b1]
  · show win12_6.index t (1 : Fin 2) * 300 + 1 * (j 1).val = (j 1).val
    rw [b1]; omega

/-- An entry of the array is in point t's block of the first output iff each coordinate is in the block's range. -/
theorem r12_mem_blk5 (t : Fin cfg12.N) (i : S20000x300.Idx) :
    i ∈ ((cfg12.win 5).blk t).view.set ↔ ∀ a : Fin 2, win12_5.index t a * S2000x300.size a ≤ (i a).val ∧ (i a).val < win12_5.index t a * S2000x300.size a + S2000x300.size a := by
  show i ∈ ((View.whole main_v321_0).slice (win12_5.rect t)).set ↔ _
  rw [View.set_slice_whole, Rect.mem_set_unit]
  exact Iff.rfl
theorem r12_mem_blk6 (t : Fin cfg12.N) (i : S20000x300.Idx) :
    i ∈ ((cfg12.win 6).blk t).view.set ↔ ∀ a : Fin 2, win12_6.index t a * S2000x300.size a ≤ (i a).val ∧ (i a).val < win12_6.index t a * S2000x300.size a + S2000x300.size a := by
  show i ∈ ((View.whole main_v321_1).slice (win12_6.rect t)).set ↔ _
  rw [View.set_slice_whole, Rect.mem_set_unit]
  exact Iff.rfl

/-- Row r of the array is in the block of point r / 2000: the ten blocks cover the array. -/
theorem r12_cover5 (i : S20000x300.Idx) :
    ∃ t : Fin cfg12.N, (cfg12.win 5).flush t = true ∧ i ∈ ((cfg12.win 5).blk t).view.set := by
  have hi0 : (i 0).val < 20000 := (i 0).isLt
  have hi1 : (i 1).val < 300 := (i 1).isLt
  obtain ⟨t, ht⟩ : ∃ t : Fin cfg12.N, t.val = (i 0).val / 2000 :=
    ⟨⟨(i 0).val / 2000, by rw [show cfg12.N = 10 from N_12]; omega⟩, rfl⟩
  obtain ⟨-, -, b0, b1, -⟩ := r12_idx t
  refine ⟨t, flush12_5 t, ?_⟩
  rw [r12_mem_blk5]
  intro a
  match a with
  | ⟨0, _⟩ => show win12_5.index t (0 : Fin 2) * 2000 ≤ (i 0).val ∧ (i 0).val < win12_5.index t (0 : Fin 2) * 2000 + 2000; rw [b0, ht]; omega
  | ⟨1, _⟩ => show win12_5.index t (1 : Fin 2) * 300 ≤ (i 1).val ∧ (i 1).val < win12_5.index t (1 : Fin 2) * 300 + 300; rw [b1]; omega
theorem r12_cover6 (i : S20000x300.Idx) :
    ∃ t : Fin cfg12.N, (cfg12.win 6).flush t = true ∧ i ∈ ((cfg12.win 6).blk t).view.set := by
  have hi0 : (i 0).val < 20000 := (i 0).isLt
  have hi1 : (i 1).val < 300 := (i 1).isLt
  obtain ⟨t, ht⟩ : ∃ t : Fin cfg12.N, t.val = (i 0).val / 2000 :=
    ⟨⟨(i 0).val / 2000, by rw [show cfg12.N = 10 from N_12]; omega⟩, rfl⟩
  obtain ⟨-, -, -, -, b0, b1, -⟩ := r12_idx t
  refine ⟨t, flush12_6 t, ?_⟩
  rw [r12_mem_blk6]
  intro a
  match a with
  | ⟨0, _⟩ => show win12_6.index t (0 : Fin 2) * 2000 ≤ (i 0).val ∧ (i 0).val < win12_6.index t (0 : Fin 2) * 2000 + 2000; rw [b0, ht]; omega
  | ⟨1, _⟩ => show win12_6.index t (1 : Fin 2) * 300 ≤ (i 1).val ∧ (i 1).val < win12_6.index t (1 : Fin 2) * 300 + 300; rw [b1]; omega

/-- THE FIRST OUTPUT after the region: the closed form of the arrays the region found. -/
theorem arr12_5 (c : Dev nD) :
    (dat12 V c).arrAt 5 cfg12.N
      = bnReluOf (m := 20000) (n := 300) (V c (Pipeline.arrRef spec12 0)) (V c (Pipeline.arrRef spec12 1)) (V c (Pipeline.arrRef spec12 2))
          (V c (Pipeline.arrRef spec12 3)) (V c (Pipeline.arrRef spec12 4)) :=
  (dat12 V c).arrAt_eq_of_cover 5 (r12_G V c) (fun t _ => r12_flushed5 V c t) (fun i => r12_cover5 i)

/-- THE SECOND OUTPUT after the region: the same closed form. -/
theorem arr12_6 (c : Dev nD) :
    (dat12 V c).arrAt 6 cfg12.N
      = bnReluOf (m := 20000) (n := 300) (V c (Pipeline.arrRef spec12 0)) (V c (Pipeline.arrRef spec12 1)) (V c (Pipeline.arrRef spec12 2))
          (V c (Pipeline.arrRef spec12 3)) (V c (Pipeline.arrRef spec12 4)) :=
  (dat12 V c).arrAt_eq_of_cover 6 (r12_G V c) (fun t _ => r12_flushed6 V c t) (fun i => r12_cover6 i)

end Cert.KernelIdeal.RVal

end
-- ==== Proof.KernelChainL3.lean ====
/- Layer 3 of the kernel, from the buffers as the layer finds them to the buffers as it leaves them, at the exact
   extended-real values: the three host stretches and the three kernels of the layer composed. Whatever the node rows,
   their bf16 copy, the edge embedding, the edges' endpoints and the stacked parameters are where the layer begins, the
   node rows the layer leaves are ONE function (`kerLayer`) of them; what the layer does not write it keeps. -/
import proofs.«119086_j26585847562989_2_alg».proof.Proof.Gen.KernelIdeal.Frame
import Idealize.ShloMosaic.PureOps.Ideal
import proofs.«119086_j26585847562989_2_alg».proof.Proof.KernelStretch10
import proofs.«119086_j26585847562989_2_alg».proof.Proof.KernelStretch11
import proofs.«119086_j26585847562989_2_alg».proof.Proof.KernelStretch12
import proofs.«119086_j26585847562989_2_alg».proof.Proof.Region10
import proofs.«119086_j26585847562989_2_alg».proof.Proof.Region11
import proofs.«119086_j26585847562989_2_alg».proof.Proof.Region12
import proofs.«119086_j26585847562989_2_alg».proof.Proof.KernelChainDefs
import proofs.«119086_j26585847562989_2_alg».proof.Proof.KernelChainRefs

set_option maxRecDepth 16384
set_option maxHeartbeats 2000000

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (ρ : Dev nD → PrngReg) (c : Dev nD)

/-! ## What the layer keeps -/

/-- Through the first stretch and the first kernel. -/
theorem keep3_a (b : Ref sig .tc) (h1 : b ∉ writes10) (a1 : ∀ w, Pipeline.arrRef spec10 w ≠ b) :
    W22 (F := Ideal) m ρ c (Proc.devRef .tc b) = W20 m ρ c (Proc.devRef .tc b) :=
  (W22_of_ne m ρ c b a1).trans (st10_keep (W20 m ρ c) b h1)

/-- Through the first two stretches and the first two kernels. -/
theorem keep3_b (b : Ref sig .tc) (h1 : b ∉ writes10) (h2 : b ∉ writes11)
    (a1 : ∀ w, Pipeline.arrRef spec10 w ≠ b) (a2 : ∀ w, Pipeline.arrRef spec11 w ≠ b) :
    W24 (F := Ideal) m ρ c (Proc.devRef .tc b) = W20 m ρ c (Proc.devRef .tc b) :=
  (W24_of_ne m ρ c b a2).trans ((st11_keep (W22 m ρ c) b h2).trans (keep3_a m ρ c b h1 a1))

/-- Through the whole layer. -/
theorem keep3 (b : Ref sig .tc) (h1 : b ∉ writes10) (h2 : b ∉ writes11) (h3 : b ∉ writes12)
    (a1 : ∀ w, Pipeline.arrRef spec10 w ≠ b) (a2 : ∀ w, Pipeline.arrRef spec11 w ≠ b)
    (a3 : ∀ w, Pipeline.arrRef spec12 w ≠ b) :
    W26 (F := Ideal) m ρ c (Proc.devRef .tc b) = W20 m ρ c (Proc.devRef .tc b) :=
  (W26_of_ne m ρ c b a3).trans ((st12_keep (W24 m ρ c) b h3).trans (keep3_b m ρ c b h1 h2 a1 a2))

/-- The edge embedding, the endpoints and the argument arrays are after the layer as before it. -/
theorem l3_keeps (b : Ref sig .tc) (hb : b ∈ keptRefs) : W26 (F := Ideal) m ρ c (Proc.devRef .tc b) = W20 m ρ c (Proc.devRef .tc b) := by
  simp only [keptRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl
  all_goals exact keep3 m ρ c _ (by decide) (by decide) (by decide) (by decide) (by decide) (by decide)

/-! ## The three kernels' outputs, each over whatever the buffers hold where its stage begins -/

/-- The first dense stage. -/
theorem l3_z1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W20 (F := Ideal) m ρ c (Proc.devRef .tc main_v244_0) = H) (hHb : W20 (F := Ideal) m ρ c (Proc.devRef .tc main_v244_1) = Hb) (hEa : W20 (F := Ideal) m ρ c (Proc.devRef .tc main_v13) = Ea)
    (hSr : W20 (F := Ideal) m ρ c (Proc.devRef .tc main_v1) = Sr) (hDs : W20 (F := Ideal) m ρ c (Proc.devRef .tc main_v3) = Ds) (h7 : W20 (F := Ideal) m ρ c (Proc.devRef .tc main_arg7) = a7) (h8 : W20 (F := Ideal) m ρ c (Proc.devRef .tc main_arg8) = a8)
    (h9 : W20 (F := Ideal) m ρ c (Proc.devRef .tc main_arg9) = a9) :
    W22 (F := Ideal) m ρ c (Proc.devRef .tc main_v270_0)
    = RVal.z1Of H (aggregate (F := Ideal) Hb Ea Sr Ds) (scaleRow (F := Ideal) a7 ![3] slices_S5_S1_3) (layerMat (F := Ideal) a8 ![3, 0, 0] slices_S5x300x300_S1x300x300_3_0_0)
        (rowOf (F := Ideal) (layerVec (F := Ideal) a9 ![3, 0] slices_S5x300_S1x300_3_0)) := by
  subst hH hHb hEa hSr hDs h7 h8 h9
  have e0 : V21 (F := Ideal) m ρ c (Pipeline.arrRef spec10 0) = W20 m ρ c (Proc.devRef .tc main_v244_0) := st10_keep (W20 m ρ c) main_v244_0 (by decide)
  exact ((W22_arr m ρ c 5).trans (RVal.arr10_5 (V21 m ρ) c)).trans
    (congr (congr (congr (congr (congrArg RVal.z1Of e0) (st10_v259 (W20 m ρ c))) (st10_v264 (W20 m ρ c)))
      (st10_v266 (W20 m ρ c))) (st10_v269 (W20 m ρ c)))

/-- Its per-tile column sums and sums of squares. -/
theorem l3_p1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W20 (F := Ideal) m ρ c (Proc.devRef .tc main_v244_0) = H) (hHb : W20 (F := Ideal) m ρ c (Proc.devRef .tc main_v244_1) = Hb) (hEa : W20 (F := Ideal) m ρ c (Proc.devRef .tc main_v13) = Ea)
    (hSr : W20 (F := Ideal) m ρ c (Proc.devRef .tc main_v1) = Sr) (hDs : W20 (F := Ideal) m ρ c (Proc.devRef .tc main_v3) = Ds) (h7 : W20 (F := Ideal) m ρ c (Proc.devRef .tc main_arg7) = a7) (h8 : W20 (F := Ideal) m ρ c (Proc.devRef .tc main_arg8) = a8)
    (h9 : W20 (F := Ideal) m ρ c (Proc.devRef .tc main_arg9) = a9) :
    W22 (F := Ideal) m ρ c (Proc.devRef .tc main_v270_1)
    = RVal.tileStats (RVal.z1Of H (aggregate (F := Ideal) Hb Ea Sr Ds) (scaleRow (F := Ideal) a7 ![3] slices_S5_S1_3) (layerMat (F := Ideal) a8 ![3, 0, 0] slices_S5x300x300_S1x300x300_3_0_0)
        (rowOf (F := Ideal) (layerVec (F := Ideal) a9 ![3, 0] slices_S5x300_S1x300_3_0))) :=
  (W22_arr m ρ c 6).trans ((RVal.arr10_6 (V21 m ρ) c).trans
    (congrArg RVal.tileStats ((((W22_arr m ρ c 5).trans (RVal.arr10_5 (V21 m ρ) c)).symm).trans
      (l3_z1 m ρ c hH hHb hEa hSr hDs h7 h8 h9))))

/-- The normalised second dense stage. -/
theorem l3_z2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W22 (F := Ideal) m ρ c (Proc.devRef .tc main_v270_0) = Z1) (hP1 : W22 (F := Ideal) m ρ c (Proc.devRef .tc main_v270_1) = P1)
    (h10 : W22 (F := Ideal) m ρ c (Proc.devRef .tc main_arg10) = a10) (h11 : W22 (F := Ideal) m ρ c (Proc.devRef .tc main_arg11) = a11) (h12 : W22 (F := Ideal) m ρ c (Proc.devRef .tc main_arg12) = a12)
    (h13 : W22 (F := Ideal) m ρ c (Proc.devRef .tc main_arg13) = a13) :
    W24 (F := Ideal) m ρ c (Proc.devRef .tc main_v298_0)
    = RVal.z2Of Z1 (rowOf (F := Ideal) (bnMean (F := Ideal) P1)) (rowOf (F := Ideal) (bnVar (F := Ideal) P1))
        (rowOf (F := Ideal) (layerVec (F := Ideal) a10 ![3, 0] slices_S5x300_S1x300_3_0)) (rowOf (F := Ideal) (layerVec (F := Ideal) a11 ![3, 0] slices_S5x300_S1x300_3_0))
        (layerMat (F := Ideal) a12 ![3, 0, 0] slices_S5x300x300_S1x300x300_3_0_0) (rowOf (F := Ideal) (layerVec (F := Ideal) a13 ![3, 0] slices_S5x300_S1x300_3_0)) := by
  subst hZ1 hP1 h10 h11 h12 h13
  have e0 : V23 (F := Ideal) m ρ c (Pipeline.arrRef spec11 0) = W22 m ρ c (Proc.devRef .tc main_v270_0) := st11_keep (W22 m ρ c) main_v270_0 (by decide)
  exact ((W24_arr m ρ c 7).trans (RVal.arr11_7 (V23 m ρ) c)).trans
    (congr (congr (congr (congr (congr (congr (congrArg RVal.z2Of e0) (st11_v293 (W22 m ρ c))) (st11_v294 (W22 m ρ c)))
      (st11_v295 (W22 m ρ c))) (st11_v296 (W22 m ρ c))) (st11_v290 (W22 m ρ c))) (st11_v297 (W22 m ρ c)))

/-- Its per-tile column sums and sums of squares. -/
theorem l3_p2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W22 (F := Ideal) m ρ c (Proc.devRef .tc main_v270_0) = Z1) (hP1 : W22 (F := Ideal) m ρ c (Proc.devRef .tc main_v270_1) = P1)
    (h10 : W22 (F := Ideal) m ρ c (Proc.devRef .tc main_arg10) = a10) (h11 : W22 (F := Ideal) m ρ c (Proc.devRef .tc main_arg11) = a11) (h12 : W22 (F := Ideal) m ρ c (Proc.devRef .tc main_arg12) = a12)
    (h13 : W22 (F := Ideal) m ρ c (Proc.devRef .tc main_arg13) = a13) :
    W24 (F := Ideal) m ρ c (Proc.devRef .tc main_v298_1)
    = RVal.tileStats (RVal.z2Of Z1 (rowOf (F := Ideal) (bnMean (F := Ideal) P1)) (rowOf (F := Ideal) (bnVar (F := Ideal) P1))
        (rowOf (F := Ideal) (layerVec (F := Ideal) a10 ![3, 0] slices_S5x300_S1x300_3_0)) (rowOf (F := Ideal) (layerVec (F := Ideal) a11 ![3, 0] slices_S5x300_S1x300_3_0))
        (layerMat (F := Ideal) a12 ![3, 0, 0] slices_S5x300x300_S1x300x300_3_0_0) (rowOf (F := Ideal) (layerVec (F := Ideal) a13 ![3, 0] slices_S5x300_S1x300_3_0))) :=
  (W24_arr m ρ c 8).trans ((RVal.arr11_8 (V23 m ρ) c).trans
    (congrArg RVal.tileStats ((((W24_arr m ρ c 7).trans (RVal.arr11_7 (V23 m ρ) c)).symm).trans
      (l3_z2 m ρ c hZ1 hP1 h10 h11 h12 h13))))

/-- The last normalisation and clamp: the node rows. -/
theorem l3_out0 {Z2 : FVec Ideal S20000x300 .f32} {P2 : FVec Ideal S10x2x300 .f32} {a14 a15 : FVec Ideal S5x300 .f32}
    (hZ2 : W24 (F := Ideal) m ρ c (Proc.devRef .tc main_v298_0) = Z2) (hP2 : W24 (F := Ideal) m ρ c (Proc.devRef .tc main_v298_1) = P2)
    (h14 : W24 (F := Ideal) m ρ c (Proc.devRef .tc main_arg14) = a14) (h15 : W24 (F := Ideal) m ρ c (Proc.devRef .tc main_arg15) = a15) :
    W26 (F := Ideal) m ρ c (Proc.devRef .tc main_v321_0)
    = RVal.bnReluOf (m := 20000) (n := 300) Z2 (rowOf (F := Ideal) (bnMean (F := Ideal) P2))
        (rowOf (F := Ideal) (bnVar (F := Ideal) P2)) (rowOf (F := Ideal) (layerVec (F := Ideal) a14 ![3, 0] slices_S5x300_S1x300_3_0))
        (rowOf (F := Ideal) (layerVec (F := Ideal) a15 ![3, 0] slices_S5x300_S1x300_3_0)) := by
  subst hZ2 hP2 h14 h15
  have e0 : V25 (F := Ideal) m ρ c (Pipeline.arrRef spec12 0) = W24 m ρ c (Proc.devRef .tc main_v298_0) := st12_keep (W24 m ρ c) main_v298_0 (by decide)
  exact ((W26_arr m ρ c 5).trans (RVal.arr12_5 (V25 m ρ) c)).trans
    (congr (congr (congr (congr (congrArg (RVal.bnReluOf (m := 20000) (n := 300)) e0) (st12_v317 (W24 m ρ c))) (st12_v318 (W24 m ρ c)))
      (st12_v319 (W24 m ρ c))) (st12_v320 (W24 m ρ c)))

/-- The same for the copy in the bf16-typed buffer. -/
theorem l3_out1 {Z2 : FVec Ideal S20000x300 .f32} {P2 : FVec Ideal S10x2x300 .f32} {a14 a15 : FVec Ideal S5x300 .f32}
    (hZ2 : W24 (F := Ideal) m ρ c (Proc.devRef .tc main_v298_0) = Z2) (hP2 : W24 (F := Ideal) m ρ c (Proc.devRef .tc main_v298_1) = P2)
    (h14 : W24 (F := Ideal) m ρ c (Proc.devRef .tc main_arg14) = a14) (h15 : W24 (F := Ideal) m ρ c (Proc.devRef .tc main_arg15) = a15) :
    W26 (F := Ideal) m ρ c (Proc.devRef .tc main_v321_1)
    = RVal.bnReluOf (m := 20000) (n := 300) Z2 (rowOf (F := Ideal) (bnMean (F := Ideal) P2))
        (rowOf (F := Ideal) (bnVar (F := Ideal) P2)) (rowOf (F := Ideal) (layerVec (F := Ideal) a14 ![3, 0] slices_S5x300_S1x300_3_0))
        (rowOf (F := Ideal) (layerVec (F := Ideal) a15 ![3, 0] slices_S5x300_S1x300_3_0)) := by
  subst hZ2 hP2 h14 h15
  have e0 : V25 (F := Ideal) m ρ c (Pipeline.arrRef spec12 0) = W24 m ρ c (Proc.devRef .tc main_v298_0) := st12_keep (W24 m ρ c) main_v298_0 (by decide)
  exact ((W26_arr m ρ c 6).trans (RVal.arr12_6 (V25 m ρ) c)).trans
    (congr (congr (congr (congr (congrArg (RVal.bnReluOf (m := 20000) (n := 300)) e0) (st12_v317 (W24 m ρ c))) (st12_v318 (W24 m ρ c)))
      (st12_v319 (W24 m ρ c))) (st12_v320 (W24 m ρ c)))

/-! ## The layer as one function of what the buffers hold where it begins -/

/-- The node rows the layer leaves. -/
theorem l3_h {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W20 (F := Ideal) m ρ c (Proc.devRef .tc main_v244_0) = H) (hHb : W20 (F := Ideal) m ρ c (Proc.devRef .tc main_v244_1) = Hb) (hEa : W20 (F := Ideal) m ρ c (Proc.devRef .tc main_v13) = Ea)
    (hSr : W20 (F := Ideal) m ρ c (Proc.devRef .tc main_v1) = Sr) (hDs : W20 (F := Ideal) m ρ c (Proc.devRef .tc main_v3) = Ds) (h7 : W20 (F := Ideal) m ρ c (Proc.devRef .tc main_arg7) = a7) (h8 : W20 (F := Ideal) m ρ c (Proc.devRef .tc main_arg8) = a8)
    (h9 : W20 (F := Ideal) m ρ c (Proc.devRef .tc main_arg9) = a9)
    (h10 : W20 (F := Ideal) m ρ c (Proc.devRef .tc main_arg10) = a10) (h11 : W20 (F := Ideal) m ρ c (Proc.devRef .tc main_arg11) = a11) (h12 : W20 (F := Ideal) m ρ c (Proc.devRef .tc main_arg12) = a12)
    (h13 : W20 (F := Ideal) m ρ c (Proc.devRef .tc main_arg13) = a13) (h14 : W20 (F := Ideal) m ρ c (Proc.devRef .tc main_arg14) = a14) (h15 : W20 (F := Ideal) m ρ c (Proc.devRef .tc main_arg15) = a15) :
    W26 (F := Ideal) m ρ c (Proc.devRef .tc main_v321_0)
    = kerLayer H Hb Ea Sr Ds (scaleRow (F := Ideal) a7 ![3] slices_S5_S1_3) (layerMat (F := Ideal) a8 ![3, 0, 0] slices_S5x300x300_S1x300x300_3_0_0)
        (layerVec (F := Ideal) a9 ![3, 0] slices_S5x300_S1x300_3_0) (layerVec (F := Ideal) a10 ![3, 0] slices_S5x300_S1x300_3_0) (layerVec (F := Ideal) a11 ![3, 0] slices_S5x300_S1x300_3_0)
        (layerMat (F := Ideal) a12 ![3, 0, 0] slices_S5x300x300_S1x300x300_3_0_0) (layerVec (F := Ideal) a13 ![3, 0] slices_S5x300_S1x300_3_0) (layerVec (F := Ideal) a14 ![3, 0] slices_S5x300_S1x300_3_0)
        (layerVec (F := Ideal) a15 ![3, 0] slices_S5x300_S1x300_3_0) :=
  l3_out0 m ρ c
    (l3_z2 m ρ c (l3_z1 m ρ c hH hHb hEa hSr hDs h7 h8 h9) (l3_p1 m ρ c hH hHb hEa hSr hDs h7 h8 h9)
      ((keep3_a m ρ c main_arg10 (by decide) (by decide)).trans h10) ((keep3_a m ρ c main_arg11 (by decide) (by decide)).trans h11)
      ((keep3_a m ρ c main_arg12 (by decide) (by decide)).trans h12) ((keep3_a m ρ c main_arg13 (by decide) (by decide)).trans h13))
    (l3_p2 m ρ c (l3_z1 m ρ c hH hHb hEa hSr hDs h7 h8 h9) (l3_p1 m ρ c hH hHb hEa hSr hDs h7 h8 h9)
      ((keep3_a m ρ c main_arg10 (by decide) (by decide)).trans h10) ((keep3_a m ρ c main_arg11 (by decide) (by decide)).trans h11)
      ((keep3_a m ρ c main_arg12 (by decide) (by decide)).trans h12) ((keep3_a m ρ c main_arg13 (by decide) (by decide)).trans h13))
    ((keep3_b m ρ c main_arg14 (by decide) (by decide) (by decide) (by decide)).trans h14)
    ((keep3_b m ρ c main_arg15 (by decide) (by decide) (by decide) (by decide)).trans h15)

/-- Their copy in the bf16-typed buffer: the same array. -/
theorem l3_hb {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W20 (F := Ideal) m ρ c (Proc.devRef .tc main_v244_0) = H) (hHb : W20 (F := Ideal) m ρ c (Proc.devRef .tc main_v244_1) = Hb) (hEa : W20 (F := Ideal) m ρ c (Proc.devRef .tc main_v13) = Ea)
    (hSr : W20 (F := Ideal) m ρ c (Proc.devRef .tc main_v1) = Sr) (hDs : W20 (F := Ideal) m ρ c (Proc.devRef .tc main_v3) = Ds) (h7 : W20 (F := Ideal) m ρ c (Proc.devRef .tc main_arg7) = a7) (h8 : W20 (F := Ideal) m ρ c (Proc.devRef .tc main_arg8) = a8)
    (h9 : W20 (F := Ideal) m ρ c (Proc.devRef .tc main_arg9) = a9)
    (h10 : W20 (F := Ideal) m ρ c (Proc.devRef .tc main_arg10) = a10) (h11 : W20 (F := Ideal) m ρ c (Proc.devRef .tc main_arg11) = a11) (h12 : W20 (F := Ideal) m ρ c (Proc.devRef .tc main_arg12) = a12)
    (h13 : W20 (F := Ideal) m ρ c (Proc.devRef .tc main_arg13) = a13) (h14 : W20 (F := Ideal) m ρ c (Proc.devRef .tc main_arg14) = a14) (h15 : W20 (F := Ideal) m ρ c (Proc.devRef .tc main_arg15) = a15) :
    W26 (F := Ideal) m ρ c (Proc.devRef .tc main_v321_1)
    = kerLayer H Hb Ea Sr Ds (scaleRow (F := Ideal) a7 ![3] slices_S5_S1_3) (layerMat (F := Ideal) a8 ![3, 0, 0] slices_S5x300x300_S1x300x300_3_0_0)
        (layerVec (F := Ideal) a9 ![3, 0] slices_S5x300_S1x300_3_0) (layerVec (F := Ideal) a10 ![3, 0] slices_S5x300_S1x300_3_0) (layerVec (F := Ideal) a11 ![3, 0] slices_S5x300_S1x300_3_0)
        (layerMat (F := Ideal) a12 ![3, 0, 0] slices_S5x300x300_S1x300x300_3_0_0) (layerVec (F := Ideal) a13 ![3, 0] slices_S5x300_S1x300_3_0) (layerVec (F := Ideal) a14 ![3, 0] slices_S5x300_S1x300_3_0)
        (layerVec (F := Ideal) a15 ![3, 0] slices_S5x300_S1x300_3_0) :=
  l3_out1 m ρ c
    (l3_z2 m ρ c (l3_z1 m ρ c hH hHb hEa hSr hDs h7 h8 h9) (l3_p1 m ρ c hH hHb hEa hSr hDs h7 h8 h9)
      ((keep3_a m ρ c main_arg10 (by decide) (by decide)).trans h10) ((keep3_a m ρ c main_arg11 (by decide) (by decide)).trans h11)
      ((keep3_a m ρ c main_arg12 (by decide) (by decide)).trans h12) ((keep3_a m ρ c main_arg13 (by decide) (by decide)).trans h13))
    (l3_p2 m ρ c (l3_z1 m ρ c hH hHb hEa hSr hDs h7 h8 h9) (l3_p1 m ρ c hH hHb hEa hSr hDs h7 h8 h9)
      ((keep3_a m ρ c main_arg10 (by decide) (by decide)).trans h10) ((keep3_a m ρ c main_arg11 (by decide) (by decide)).trans h11)
      ((keep3_a m ρ c main_arg12 (by decide) (by decide)).trans h12) ((keep3_a m ρ c main_arg13 (by decide) (by decide)).trans h13))
    ((keep3_b m ρ c main_arg14 (by decide) (by decide) (by decide) (by decide)).trans h14)
    ((keep3_b m ρ c main_arg15 (by decide) (by decide) (by decide) (by decide)).trans h15)

end Cert.KernelIdeal.KChain

end
-- ==== Proof.KernelStretch13.lean ====
/- The host stretch between the previous layer's last kernel and the first dense kernel of layer 4 (thirty operations), read from ANY
   contents `W` of the buffers: what it leaves in each buffer that later code reads. It gathers the bf16 node rows at
   the edge sources, adds the edge embedding, clamps at zero, scatter-adds the messages into their destination rows
   (the aggregate), and lays out the layer's scale row 1 + eps, its first weight matrix and its first bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The aggregate of the messages. -/
theorem st13_v336 (W : Valuation τ sig (Elt F)) :
    StableHlo.after hostOps13 W (Proc.devRef .tc main_v336)
      = aggregate (W (Proc.devRef .tc main_v321_1)) (W (Proc.devRef .tc main_v13)) (W (Proc.devRef .tc main_v1)) (W (Proc.devRef .tc main_v3)) := by
  simp only [hostOps13]; after_results_simp; rfl

/-- The scale row 1 + eps of the layer. -/
theorem st13_v341 (W : Valuation τ sig (Elt F)) :
    StableHlo.after hostOps13 W (Proc.devRef .tc main_v341)
      = scaleRow (W (Proc.devRef .tc main_arg7)) ![4] slices_S5_S1_4 := by
  simp only [hostOps13]; after_results; rfl

/-- The layer's first weight matrix. -/
theorem st13_v343 (W : Valuation τ sig (Elt F)) :
    StableHlo.after hostOps13 W (Proc.devRef .tc main_v343)
      = layerMat (W (Proc.devRef .tc main_arg8)) ![4, 0, 0] slices_S5x300x300_S1x300x300_4_0_0 := by
  simp only [hostOps13]; after_results; rfl

/-- The layer's first bias, as one row. -/
theorem st13_v346 (W : Valuation τ sig (Elt F)) :
    StableHlo.after hostOps13 W (Proc.devRef .tc main_v346)
      = rowOf (layerVec (W (Proc.devRef .tc main_arg9)) ![4, 0] slices_S5x300_S1x300_4_0) := by
  simp only [hostOps13]; after_results; rfl

/-- The references the stretch writes, in order. -/
def writes13 : List (Ref sig .tc) :=
  [main_c_60, main_v322, main_v323, main_c_61, main_v324, main_v325, main_v326, main_v327, main_v328, main_v329, main_v330, main_v331, main_cst_62, main_v332, main_v333, main_cst_63, main_v334, main_v335, main_v336, main_v337, main_v338, main_cst_64, main_v339, main_v340, main_v341, main_v342, main_v343, main_v344, main_v345, main_v346]

/-- A buffer the stretch does not write keeps its contents. -/
theorem st13_keep (W : Valuation τ sig (Elt F)) (r : Ref sig .tc) (hr : r ∉ writes13) :
    StableHlo.after hostOps13 W (Proc.devRef .tc r) = W (Proc.devRef .tc r) :=
  StableHlo.after_of_writes_sub hostOps13 W (by
    simp only [hostOps13, writes13, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch14.lean ====
/- The host stretch between the two dense kernels of layer 4 (thirty-two operations), read from ANY contents `W` of
   the buffers: what it leaves in each buffer that later code reads. From the first dense kernel's per-tile column sums
   and sums of squares it forms the column means and the clamped column variances, as rows, and lays out the first
   normalisation's scale and shift rows, the layer's second weight matrix and its second bias row.
   Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st14_v370 (W : Valuation τ sig (Elt F)) :
    StableHlo.after hostOps14 W (Proc.devRef .tc main_v370)
      = rowOf (bnMean (W (Proc.devRef .tc main_v347_1))) := by
  simp only [hostOps14]; after_results; rfl

/-- The clamped column variances, as one row. -/
theorem st14_v371 (W : Valuation τ sig (Elt F)) :
    StableHlo.after hostOps14 W (Proc.devRef .tc main_v371)
      = rowOf (bnVar (W (Proc.devRef .tc main_v347_1))) := by
  simp only [hostOps14]; after_results_simp; rfl

/-- The first normalisation's scale, as one row. -/
theorem st14_v372 (W : Valuation τ sig (Elt F)) :
    StableHlo.after hostOps14 W (Proc.devRef .tc main_v372)
      = rowOf (layerVec (W (Proc.devRef .tc main_arg10)) ![4, 0] slices_S5x300_S1x300_4_0) := by
  simp only [hostOps14]; after_results; rfl

/-- The first normalisation's shift, as one row. -/
theorem st14_v373 (W : Valuation τ sig (Elt F)) :
    StableHlo.after hostOps14 W (Proc.devRef .tc main_v373)
      = rowOf (layerVec (W (Proc.devRef .tc main_arg11)) ![4, 0] slices_S5x300_S1x300_4_0) := by
  simp only [hostOps14]; after_results; rfl

/-- The layer's second weight matrix. -/
theorem st14_v367 (W : Valuation τ sig (Elt F)) :
    StableHlo.after hostOps14 W (Proc.devRef .tc main_v367)
      = layerMat (W (Proc.devRef .tc main_arg12)) ![4, 0, 0] slices_S5x300x300_S1x300x300_4_0_0 := by
  simp only [hostOps14]; after_results; rfl

/-- The layer's second bias, as one row. -/
theorem st14_v374 (W : Valuation τ sig (Elt F)) :
    StableHlo.after hostOps14 W (Proc.devRef .tc main_v374)
      = rowOf (layerVec (W (Proc.devRef .tc main_arg13)) ![4, 0] slices_S5x300_S1x300_4_0) := by
  simp only [hostOps14]; after_results; rfl

/-- The references the stretch writes, in order. -/
def writes14 : List (Ref sig .tc) :=
  [main_v348, main_v349, main_cst_65, main_v350, main_v351, main_v352, main_cst_66, main_v353, main_cst_67, main_v354, main_v355, main_cst_68, main_v356, main_v357, main_v358, main_v359, main_cst_69, main_v360, main_v361, main_v362, main_v363, main_v364, main_v365, main_v366, main_v367, main_v368, main_v369, main_v370, main_v371, main_v372, main_v373, main_v374]

/-- A buffer the stretch does not write keeps its contents. -/
theorem st14_keep (W : Valuation τ sig (Elt F)) (r : Ref sig .tc) (hr : r ∉ writes14) :
    StableHlo.after hostOps14 W (Proc.devRef .tc r) = W (Proc.devRef .tc r) :=
  StableHlo.after_of_writes_sub hostOps14 W (by
    simp only [hostOps14, writes14, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelStretch15.lean ====
/- The host stretch between the second dense kernel and the last kernel of layer 4 (twenty-seven operations), read from
   ANY contents `W` of the buffers: what it leaves in each buffer that later code reads. From the second dense kernel's
   per-tile column sums and sums of squares it forms the column means and the clamped column variances, as rows, and lays
   out the second normalisation's scale and shift rows. Every buffer it does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The column means, as one row. -/
theorem st15_v394 (W : Valuation τ sig (Elt F)) :
    StableHlo.after hostOps15 W (Proc.devRef .tc main_v394)
      = rowOf (bnMean (W (Proc.devRef .tc main_v375_1))) := by
  simp only [hostOps15]; after_results; rfl

/-- The clamped column variances, as one row. -/
theorem st15_v395 (W : Valuation τ sig (Elt F)) :
    StableHlo.after hostOps15 W (Proc.devRef .tc main_v395)
      = rowOf (bnVar (W (Proc.devRef .tc main_v375_1))) := by
  simp only [hostOps15]; after_results_simp; rfl

/-- The second normalisation's scale, as one row. -/
theorem st15_v396 (W : Valuation τ sig (Elt F)) :
    StableHlo.after hostOps15 W (Proc.devRef .tc main_v396)
      = rowOf (layerVec (W (Proc.devRef .tc main_arg14)) ![4, 0] slices_S5x300_S1x300_4_0) := by
  simp only [hostOps15]; after_results; rfl

/-- The second normalisation's shift, as one row. -/
theorem st15_v397 (W : Valuation τ sig (Elt F)) :
    StableHlo.after hostOps15 W (Proc.devRef .tc main_v397)
      = rowOf (layerVec (W (Proc.devRef .tc main_arg15)) ![4, 0] slices_S5x300_S1x300_4_0) := by
  simp only [hostOps15]; after_results; rfl

/-- The references the stretch writes, in order. -/
def writes15 : List (Ref sig .tc) :=
  [main_v376, main_v377, main_cst_70, main_v378, main_v379, main_v380, main_cst_71, main_v381, main_cst_72, main_v382, main_v383, main_cst_73, main_v384, main_v385, main_v386, main_v387, main_cst_74, main_v388, main_v389, main_v390, main_v391, main_v392, main_v393, main_v394, main_v395, main_v396, main_v397]

/-- A buffer the stretch does not write keeps its contents. -/
theorem st15_keep (W : Valuation τ sig (Elt F)) (r : Ref sig .tc) (hr : r ∉ writes15) :
    StableHlo.after hostOps15 W (Proc.devRef .tc r) = W (Proc.devRef .tc r) :=
  StableHlo.after_of_writes_sub hostOps15 W (by
    simp only [hostOps15, writes15, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.Region13.lean ====
/-
  The first dense stage of a graph layer, tile by tile, as one array.

  The 20000 rows are processed in 10 tiles of 2000. At tile t the stage reads rows 2000·t … 2000·t + 1999 of the node
  matrix h and of the aggregated neighbours a, and the whole of the scale row s, the weights W and the bias b, and writes
  * rows 2000·t … 2000·t + 1999 of z1, where z1(n, q) = ∑ k, (s(k)·h(n, k) + a(n, k))·W(k, q) + b(q), and
  * slab t of the statistics: row 0 the sums over the tile's rows of each column of z1, row 1 the sums of their squares.
  Each entry written depends only on the row it belongs to, so the tiles together hold z1 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of h and a and the whole of s, W, b. -/
theorem r13_pay1_apply (x2 : Vec Ideal S1x300 .f32) (x0 x1 : Vec Ideal S2000x300 .f32) (x3 : Vec Ideal S300x300 .f32)
    (x4 : Vec Ideal S1x300 .f32) (p : Fin 2000) (q : Fin 300) :
    k13_pay1 x2 x0 x1 x3 x4 (ix2 p q)
      = (∑ k : Fin 300, (x2 (ix2 (0 : Fin 1) k) * x0 (ix2 p k) + x1 (ix2 p k)) * x3 (ix2 k q)) + x4 (ix2 (0 : Fin 1) q) :=
  dense_apply dot_S2000x300_S300x300_S2000x300_1_0_0_1_n_n rfl x2 x0 x1 x3 x4
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r13_pay2_apply (x2 : Vec Ideal S1x300 .f32) (x0 x1 : Vec Ideal S2000x300 .f32) (x3 : Vec Ideal S300x300 .f32)
    (x4 : Vec Ideal S1x300 .f32) (u s : Fin 1) (q : Fin 300) :
    k13_pay2 x2 x0 x1 x3 x4 (ix3 u s q) = ∑ p : Fin 2000, k13_pay1 x2 x0 x1 x3 x4 (ix2 p q) := by
  unfold k13_pay2
  exact (statsRow_apply (n := 300)
      (multiReduction .add [0] S300 (k13_pay1 x2 x0 x1 x3 x4) 0x00000000#32 reduces_S2000x300_S300 (.inl rfl) rfl)
      shapeCasts_S300_S1x300 shapeCasts_S1x300_S1x1x300 u s q).trans
    (colsum_apply (m := 2000) (n := 300) (k13_pay1 x2 x0 x1 x3 x4) reduces_S2000x300_S300 (.inl rfl) rfl q)

/-- The tile's column sums of squares, at (u, s, q). -/
theorem r13_pay3_apply (x2 : Vec Ideal S1x300 .f32) (x0 x1 : Vec Ideal S2000x300 .f32) (x3 : Vec Ideal S300x300 .f32)
    (x4 : Vec Ideal S1x300 .f32) (u s : Fin 1) (q : Fin 300) :
    k13_pay3 x2 x0 x1 x3 x4 (ix3 u s q)
      = ∑ p : Fin 2000, k13_pay1 x2 x0 x1 x3 x4 (ix2 p q) * k13_pay1 x2 x0 x1 x3 x4 (ix2 p q) := by
  unfold k13_pay3
  exact (statsRow_apply (n := 300)
      (multiReduction .add [0] S300 (mulf (k13_pay1 x2 x0 x1 x3 x4) (k13_pay1 x2 x0 x1 x3 x4)) 0x00000000#32
        reduces_S2000x300_S300 (.inl rfl) rfl)
      shapeCasts_S300_S1x300 shapeCasts_S1x300_S1x1x300 u s q).trans
    (colsum_apply (m := 2000) (n := 300) (mulf (k13_pay1 x2 x0 x1 x3 x4) (k13_pay1 x2 x0 x1 x3 x4))
      reduces_S2000x300_S300 (.inl rfl) rfl q)

/-- If a tile's blocks of h and a hold rows 2000·T + p of the arrays and its other blocks hold the whole scale row, weights
    and bias row, the tile's value at (p, q) is z1 of the arrays at row 2000·T + p, column q. -/
theorem r13_tile_of_blocks (A0 A1 : (⟨2, ![20000, 300]⟩ : Shape).Idx → EReal) (A2 : (⟨2, ![1, 300]⟩ : Shape).Idx → EReal)
    (A3 : (⟨2, ![300, 300]⟩ : Shape).Idx → EReal) (A4 : (⟨2, ![1, 300]⟩ : Shape).Idx → EReal)
    (x0 x1 : (⟨2, ![2000, 300]⟩ : Shape).Idx → EReal) (x2 : (⟨2, ![1, 300]⟩ : Shape).Idx → EReal)
    (x3 : (⟨2, ![300, 300]⟩ : Shape).Idx → EReal) (x4 : (⟨2, ![1, 300]⟩ : Shape).Idx → EReal) (T : Fin 10)
    (h0 : ∀ (p : Fin 2000) (k : Fin 300), x0 (ix2 p k) = A0 (ix2 (rowOf T p) k))
    (h1 : ∀ (p : Fin 2000) (k : Fin 300), x1 (ix2 p k) = A1 (ix2 (rowOf T p) k))
    (h2 : ∀ k : Fin 300, x2 (ix2 (0 : Fin 1) k) = A2 (ix2 (0 : Fin 1) k))
    (h3 : ∀ k q : Fin 300, x3 (ix2 k q) = A3 (ix2 k q))
    (h4 : ∀ q : Fin 300, x4 (ix2 (0 : Fin 1) q) = A4 (ix2 (0 : Fin 1) q)) (p : Fin 2000) (q : Fin 300) :
    (∑ k : Fin 300, (x2 (ix2 (0 : Fin 1) k) * x0 (ix2 p k) + x1 (ix2 p k)) * x3 (ix2 k q)) + x4 (ix2 (0 : Fin 1) q)
      = z1Of A0 A1 A2 A3 A4 (ix2 (rowOf T p) q) := by
  rw [z1Of_apply]
  simp only [h0, h1, h2, h3, h4]

/-- What the body leaves in the z1 block, at an entry: the stage's value there. -/
theorem r13_out5_apply (x0 x1 : Vec Ideal S2000x300 .f32) (x2 : Vec Ideal S1x300 .f32) (x3 : Vec Ideal S300x300 .f32)
    (x4 : Vec Ideal S1x300 .f32) (j : S2000x300.Idx) :
    out13_5 x0 x1 x2 x3 x4 j = k13_pay1 x2 x0 x1 x3 x4 j := by
  unfold out13_5
  rw [View.canon_unit_zero hz2]
  simp only [View.ld_unit_zero (S := S1x300) hz2, View.ld_unit_zero (S := S2000x300) hz2, View.ld_unit_zero (S := S300x300) hz2]

/-- What the body leaves in its two-row statistics block at (u, s, q): row 0 the column sums of the tile's values, row 1
    the column sums of their squares. -/
theorem r13_out6_apply (x0 x1 : Vec Ideal S2000x300 .f32) (x2 : Vec Ideal S1x300 .f32) (x3 : Vec Ideal S300x300 .f32)
    (x4 : Vec Ideal S1x300 .f32) (u : Fin 1) (q : Fin 300) :
    out13_6 x0 x1 x2 x3 x4 (ix3 u (0 : Fin 2) q) = ∑ p : Fin 2000, k13_pay1 x2 x0 x1 x3 x4 (ix2 p q)
    ∧ out13_6 x0 x1 x2 x3 x4 (ix3 u (1 : Fin 2) q)
      = ∑ p : Fin 2000, k13_pay1 x2 x0 x1 x3 x4 (ix2 p q) * k13_pay1 x2 x0 x1 x3 x4 (ix2 p q) := by
  unfold out13_6
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k13_pay2 x2 x0 x1 x3 x4) (k13_pay3 x2 x0 x1 x3 x4) u q
  exact ⟨h0.trans (r13_pay2_apply x2 x0 x1 x3 x4 0 0 q), h1.trans (r13_pay3_apply x2 x0 x1 x3 x4 0 0 q)⟩

/-! ## Where each tile sits -/

/-- The tile number of a grid point. -/
def r13_tile (t : Fin cfg13.N) : Fin 10 := Fin.cast N_13 t

theorem r13_tile_val (t : Fin cfg13.N) : (r13_tile t).val = t.val := rfl

/-- The windows' block indices, decided over the 10 points: h, a, z1 and the statistics move with the tile along axis 0;
    s, W and b stay. -/
theorem r13_idx : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0
    ∧ win13_6.index t (0 : Fin 3) = t.val ∧ win13_6.index t (1 : Fin 3) = 0 ∧ win13_6.index t (2 : Fin 3) = 0 :=
  (by decide +kernel : ∀ t : Fin grid13.N, _)

/-- The tile's rows of h: entry (p, k) of the block is entry (2000·t + p, k) of the array. -/
theorem r13_blk0 (c : Dev nD) (t : Fin cfg13.N) (p : Fin 2000) (k : Fin 300) :
    (iblk13 V c 0 t : Vec Ideal S2000x300 .f32) (ix2 p k)
      = (V c (Pipeline.arrRef spec13 0) : S20000x300.Idx → Elt Ideal .f32) (ix2 (rowOf (r13_tile t) p) k) := by
  obtain ⟨e0, e1, -⟩ := r13_idx t
  unfold iblk13
  rw [View.read_apply]
  refine congrArg (V c (Pipeline.arrRef spec13 0) : S20000x300.Idx → Elt Ideal .f32) (funext fun a => Fin.ext ?_)
  match a with
  | ⟨0, _⟩ => show win13_0.index t (0 : Fin 2) * 2000 + 1 * p.val = t.val * 2000 + p.val; rw [e0]; omega
  | ⟨1, _⟩ => show win13_0.index t (1 : Fin 2) * 300 + 1 * k.val = k.val; rw [e1]; omega

/-- The tile's rows of a. -/
theorem r13_blk1 (c : Dev nD) (t : Fin cfg13.N) (p : Fin 2000) (k : Fin 300) :
    (iblk13 V c 1 t : Vec Ideal S2000x300 .f32) (ix2 p k)
      = (V c (Pipeline.arrRef spec13 1) : S20000x300.Idx → Elt Ideal .f32) (ix2 (rowOf (r13_tile t) p) k) := by
  obtain ⟨-, -, e0, e1, -⟩ := r13_idx t
  unfold iblk13
  rw [View.read_apply]
  refine congrArg (V c (Pipeline.arrRef spec13 1) : S20000x300.Idx → Elt Ideal .f32) (funext fun a => Fin.ext ?_)
  match a with
  | ⟨0, _⟩ => show win13_1.index t (0 : Fin 2) * 2000 + 1 * p.val = t.val * 2000 + p.val; rw [e0]; omega
  | ⟨1, _⟩ => show win13_1.index t (1 : Fin 2) * 300 + 1 * k.val = k.val; rw [e1]; omega

/-- The scale row, whole at every tile. -/
theorem r13_blk2 (c : Dev nD) (t : Fin cfg13.N) (u : Fin 1) (k : Fin 300) :
    (iblk13 V c 2 t : Vec Ideal S1x300 .f32) (ix2 u k)
      = (V c (Pipeline.arrRef spec13 2) : S1x300.Idx → Elt Ideal .f32) (ix2 u k) := by
  obtain ⟨-, -, -, -, e0, e1, -⟩ := r13_idx t
  unfold iblk13
  rw [View.read_apply]
  refine congrArg (V c (Pipeline.arrRef spec13 2) : S1x300.Idx → Elt Ideal .f32) (funext fun a => Fin.ext ?_)
  match a with
  | ⟨0, _⟩ => show win13_2.index t (0 : Fin 2) * 1 + 1 * u.val = u.val; rw [e0]; omega
  | ⟨1, _⟩ => show win13_2.index t (1 : Fin 2) * 300 + 1 * k.val = k.val; rw [e1]; omega

/-- The weights, whole at every tile. -/
theorem r13_blk3 (c : Dev nD) (t : Fin cfg13.N) (k : Fin 300) (q : Fin 300) :
    (iblk13 V c 3 t : Vec Ideal S300x300 .f32) (ix2 k q)
      = (V c (Pipeline.arrRef spec13 3) : S300x300.Idx → Elt Ideal .f32) (ix2 k q) := by
  obtain ⟨-, -, -, -, -, -, e0, e1, -⟩ := r13_idx t
  unfold iblk13
  rw [View.read_apply]
  refine congrArg (V c (Pipeline.arrRef spec13 3) : S300x300.Idx → Elt Ideal .f32) (funext fun a => Fin.ext ?_)
  match a with
  | ⟨0, _⟩ => show win13_3.index t (0 : Fin 2) * 300 + 1 * k.val = k.val; rw [e0]; omega
  | ⟨1, _⟩ => show win13_3.index t (1 : Fin 2) * 300 + 1 * q.val = q.val; rw [e1]; omega

/-- The bias row, whole at every tile. -/
theorem r13_blk4 (c : Dev nD) (t : Fin cfg13.N) (u : Fin 1) (q : Fin 300) :
    (iblk13 V c 4 t : Vec Ideal S1x300 .f32) (ix2 u q)
      = (V c (Pipeline.arrRef spec13 4) : S1x300.Idx → Elt Ideal .f32) (ix2 u q) := by
  obtain ⟨-, -, -, -, -, -, -, -, e0, e1, -⟩ := r13_idx t
  unfold iblk13
  rw [View.read_apply]
  refine congrArg (V c (Pipeline.arrRef spec13 4) : S1x300.Idx → Elt Ideal .f32) (funext fun a => Fin.ext ?_)
  match a with
  | ⟨0, _⟩ => show win13_4.index t (0 : Fin 2) * 1 + 1 * u.val = u.val; rw [e0]; omega
  | ⟨1, _⟩ => show win13_4.index t (1 : Fin 2) * 300 + 1 * q.val = q.val; rw [e1]; omega

/-! ## The region's closed form and one tile's values, named once -/

/-- The first dense stage of the arrays the region finds. -/
def r13_Z (c : Dev nD) : (⟨2, ![20000, 300]⟩ : Shape).Idx → EReal :=
  z1Of (V c (Pipeline.arrRef spec13 0)) (V c (Pipeline.arrRef spec13 1)) (V c (Pipeline.arrRef spec13 2))
        (V c (Pipeline.arrRef spec13 3)) (V c (Pipeline.arrRef spec13 4))

/-- What tile t computes from its blocks. -/
def r13_P (c : Dev nD) (t : Fin cfg13.N) : (⟨2, ![2000, 300]⟩ : Shape).Idx → EReal :=
  k13_pay1 (iblk13 V c 2 t) (iblk13 V c 0 t) (iblk13 V c 1 t) (iblk13 V c 3 t) (iblk13 V c 4 t)

/-- THE TILE'S ENTRY: what tile t computes at (p, q) is z1 of the whole arrays at row 2000·t + p, column q. -/
theorem r13_tile_apply (c : Dev nD) (t : Fin cfg13.N) (p : Fin 2000) (q : Fin 300) :
    r13_P V c t (ix2 p q) = r13_Z V c (ix2 (rowOf (r13_tile t) p) q) := by
  unfold r13_P r13_Z
  refine (r13_pay1_apply (iblk13 V c 2 t) (iblk13 V c 0 t) (iblk13 V c 1 t) (iblk13 V c 3 t) (iblk13 V c 4 t) p q).trans ?_
  exact r13_tile_of_blocks (V c (Pipeline.arrRef spec13 0)) (V c (Pipeline.arrRef spec13 1)) (V c (Pipeline.arrRef spec13 2))
    (V c (Pipeline.arrRef spec13 3)) (V c (Pipeline.arrRef spec13 4))
    (iblk13 V c 0 t) (iblk13 V c 1 t) (iblk13 V c 2 t) (iblk13 V c 3 t) (iblk13 V c 4 t) (r13_tile t)
    (r13_blk0 V c t) (r13_blk1 V c t) (r13_blk2 V c t 0) (r13_blk3 V c t) (r13_blk4 V c t 0) p q

/-- The z1 block the body leaves at tile t is the tile's values. -/
theorem r13_out5 (c : Dev nD) (t : Fin cfg13.N) (j : S2000x300.Idx) :
    out13_5 (iblk13 V c 0 t) (iblk13 V c 1 t) (iblk13 V c 2 t) (iblk13 V c 3 t) (iblk13 V c 4 t) j = r13_P V c t j :=
  r13_out5_apply (iblk13 V c 0 t) (iblk13 V c 1 t) (iblk13 V c 2 t) (iblk13 V c 3 t) (iblk13 V c 4 t) j

/-- The statistics block the body leaves at tile t: the column sums of the tile's values and of their squares. -/
theorem r13_out6 (c : Dev nD) (t : Fin cfg13.N) (u : Fin 1) (q : Fin 300) :
    out13_6 (iblk13 V c 0 t) (iblk13 V c 1 t) (iblk13 V c 2 t) (iblk13 V c 3 t) (iblk13 V c 4 t) (ix3 u (0 : Fin 2) q)
      = ∑ p : Fin 2000, r13_P V c t (ix2 p q)
    ∧ out13_6 (iblk13 V c 0 t) (iblk13 V c 1 t) (iblk13 V c 2 t) (iblk13 V c 3 t) (iblk13 V c 4 t) (ix3 u (1 : Fin 2) q)
      = ∑ p : Fin 2000, r13_P V c t (ix2 p q) * r13_P V c t (ix2 p q) :=
  r13_out6_apply (iblk13 V c 0 t) (iblk13 V c 1 t) (iblk13 V c 2 t) (iblk13 V c 3 t) (iblk13 V c 4 t) u q

/-! ## The z1 array -/

/-- What tile t writes back to z1 is its block of the closed form. -/
theorem r13_flushed5 (c : Dev nD) (t : Fin cfg13.N) :
    (dat13 V c).flushed 5 t = ((cfg13.win 5).blk t).view.read (Elt Ideal) (r13_Z V c) := by
  show (cfg13.win 5).cut (grid13.coords t) ((dat13 V c).after 5 t) = _
  rw [after13_5]
  funext j
  have hj0 : (j 0).val < 2000 := (j 0).isLt
  have hj1 : (j 1).val < 300 := (j 1).isLt
  -- the block's entry j, by coordinates
  have hx : (cfg13.win 5).xinj (grid13.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg13.win 5).blk t).view.emb j : S20000x300.Idx)
      = ix2 (rowOf (r13_tile t) ⟨(j 0).val, hj0⟩) (⟨(j 1).val, hj1⟩ : Fin 300) := by
    obtain ⟨-, -, -, -, -, -, -, -, -, -, e0, e1, -⟩ := r13_idx t
    funext a; apply Fin.ext
    match a with
    | ⟨0, _⟩ => show win13_5.index t (0 : Fin 2) * 2000 + 1 * (j 0).val = t.val * 2000 + (j 0).val; rw [e0]; omega
    | ⟨1, _⟩ => show win13_5.index t (1 : Fin 2) * 300 + 1 * (j 1).val = (j 1).val; rw [e1]; omega
  exact ((r13_out5 V c t _).trans (congrArg (r13_P V c t) hx)).trans
    ((r13_tile_apply V c t ⟨(j 0).val, hj0⟩ ⟨(j 1).val, hj1⟩).trans (congrArg (r13_Z V c) he).symm)

/-- Membership in tile t's block of z1, by coordinates. -/
theorem r13_mem_blk5 (t : Fin cfg13.N) (i : S20000x300.Idx) :
    i ∈ ((cfg13.win 5).blk t).view.set ↔ ∀ a : Fin 2, win13_5.index t a * S2000x300.size a ≤ (i a).val
      ∧ (i a).val < win13_5.index t a * S2000x300.size a + S2000x300.size a := by
  show i ∈ ((View.whole main_v347_0).slice (win13_5.rect t)).set ↔ _
  rw [View.set_slice_whole, Rect.mem_set_unit]
  exact Iff.rfl

/-- Every entry of z1 is in the block of the tile its row belongs to. -/
theorem r13_cover5 (i : S20000x300.Idx) :
    ∃ t : Fin cfg13.N, (cfg13.win 5).flush t = true ∧ i ∈ ((cfg13.win 5).blk t).view.set := by
  have hN : cfg13.N = 10 := N_13
  have h0 : (i 0).val < 20000 := (i 0).isLt
  have h1 : (i 1).val < 300 := (i 1).isLt
  have ht : (i 0).val / 2000 < cfg13.N := by rw [hN]; omega
  obtain ⟨-, -, -, -, -, -, -, -, -, -, e0, e1, -⟩ := r13_idx ⟨(i 0).val / 2000, ht⟩
  refine ⟨⟨(i 0).val / 2000, ht⟩, flush13_5 _, ?_⟩
  rw [r13_mem_blk5]
  intro a
  match a with
  | ⟨0, _⟩ =>
    show win13_5.index ⟨(i 0).val / 2000, ht⟩ (0 : Fin 2) * 2000 ≤ (i 0).val
      ∧ (i 0).val < win13_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win13_5.index ⟨(i 0).val / 2000, ht⟩ (1 : Fin 2) * 300 ≤ (i 1).val
      ∧ (i 1).val < win13_5.index ⟨(i 0).val / 2000, ht⟩ (1 : Fin 2) * 300 + 300
    rw [e1]; omega

/-- THE z1 ARRAY after the region: the first dense stage of the region's inputs. -/
theorem arr13_5 (c : Dev nD) :
    (dat13 (F := Ideal) V c).arrAt 5 cfg13.N
      = z1Of (V c (Pipeline.arrRef spec13 0)) (V c (Pipeline.arrRef spec13 1)) (V c (Pipeline.arrRef spec13 2))
        (V c (Pipeline.arrRef spec13 3)) (V c (Pipeline.arrRef spec13 4)) :=
  (dat13 V c).arrAt_eq_of_cover 5 (r13_Z V c) (fun t _ => r13_flushed5 V c t) r13_cover5

/-! ## The statistics array -/

/-- One entry of what tile t writes back to the statistics: on row s of its slab, column q, the value v, provided the
    body left v there and the tile statistics of the closed form have v there. -/
theorem r13_flushed6_at (c : Dev nD) (t : Fin cfg13.N) (j : ((cfg13.win 6).xblock (grid13.coords t)).Idx) (s : Fin 2)
    (hs : (j 1).val = s.val) (hj2 : (j 2).val < 300) (v : EReal)
    (hout : ∀ u : Fin 1, out13_6 (iblk13 V c 0 t) (iblk13 V c 1 t) (iblk13 V c 2 t) (iblk13 V c 3 t) (iblk13 V c 4 t) (ix3 u s (⟨(j 2).val, hj2⟩ : Fin 300)) = v)
    (hstat : tileStats (r13_Z V c) (ix3 (r13_tile t) s (⟨(j 2).val, hj2⟩ : Fin 300)) = v) :
    (cfg13.win 6).cut (grid13.coords t)
        (out13_6 (iblk13 V c 0 t) (iblk13 V c 1 t) (iblk13 V c 2 t) (iblk13 V c 3 t) (iblk13 V c 4 t)) j
      = ((cfg13.win 6).blk t).view.read (Elt Ideal) (tileStats (r13_Z V c)) j := by
  have hj0 : (j 0).val < 1 := (j 0).isLt
  have hx : (cfg13.win 6).xinj (grid13.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg13.win 6).blk t).view.emb j : S10x2x300.Idx) = ix3 (r13_tile t) s (⟨(j 2).val, hj2⟩ : Fin 300) := by
    obtain ⟨-, -, -, -, -, -, -, -, -, -, -, -, e0, e1, e2⟩ := r13_idx t
    funext a; apply Fin.ext
    match a with
    | ⟨0, _⟩ => show win13_6.index t (0 : Fin 3) * 1 + 1 * (j 0).val = t.val; rw [e0]; omega
    | ⟨1, _⟩ => show win13_6.index t (1 : Fin 3) * 2 + 1 * (j 1).val = s.val; rw [e1]; omega
    | ⟨2, _⟩ => show win13_6.index t (2 : Fin 3) * 300 + 1 * (j 2).val = (j 2).val; rw [e2]; omega
  exact ((congrArg (out13_6 (iblk13 V c 0 t) (iblk13 V c 1 t) (iblk13 V c 2 t) (iblk13 V c 3 t) (iblk13 V c 4 t)) hx).trans (hout _)).trans
    (hstat.symm.trans (congrArg (tileStats (r13_Z V c)) he).symm)

/-- What tile t writes back to the statistics is its slab of the tile statistics of the closed form. -/
theorem r13_flushed6 (c : Dev nD) (t : Fin cfg13.N) :
    (dat13 V c).flushed 6 t = ((cfg13.win 6).blk t).view.read (Elt Ideal) (tileStats (r13_Z V c)) := by
  show (cfg13.win 6).cut (grid13.coords t) ((dat13 V c).after 6 t) = _
  rw [after13_6]
  funext j
  have hj1 : (j 1).val < 2 := (j 1).isLt
  have hj2 : (j 2).val < 300 := (j 2).isLt
  rcases Nat.lt_or_ge (j 1).val 1 with hs | hs
  · exact r13_flushed6_at V c t j 0 (by show (j 1).val = 0; omega) hj2 _ (fun u => (r13_out6 V c t u ⟨(j 2).val, hj2⟩).1)
      ((tileStats_zero _ (r13_tile t) ⟨(j 2).val, hj2⟩).trans
        (Finset.sum_congr rfl fun p _ => (r13_tile_apply V c t p ⟨(j 2).val, hj2⟩).symm))
  · exact r13_flushed6_at V c t j 1 (by show (j 1).val = 1; omega) hj2 _ (fun u => (r13_out6 V c t u ⟨(j 2).val, hj2⟩).2)
      ((tileStats_one _ (r13_tile t) ⟨(j 2).val, hj2⟩).trans (Finset.sum_congr rfl fun p _ =>
        (congrArg₂ (fun (a b : EReal) => a * b) (r13_tile_apply V c t p ⟨(j 2).val, hj2⟩)
          (r13_tile_apply V c t p ⟨(j 2).val, hj2⟩)).symm))

/-- Membership in tile t's slab of the statistics, by coordinates. -/
theorem r13_mem_blk6 (t : Fin cfg13.N) (i : S10x2x300.Idx) :
    i ∈ ((cfg13.win 6).blk t).view.set ↔ ∀ a : Fin 3, win13_6.index t a * S1x2x300.size a ≤ (i a).val
      ∧ (i a).val < win13_6.index t a * S1x2x300.size a + S1x2x300.size a := by
  show i ∈ ((View.whole main_v347_1).slice (win13_6.rect t)).set ↔ _
  rw [View.set_slice_whole, Rect.mem_set_unit]
  exact Iff.rfl

/-- Every entry of the statistics is in its tile's slab. -/
theorem r13_cover6 (i : S10x2x300.Idx) :
    ∃ t : Fin cfg13.N, (cfg13.win 6).flush t = true ∧ i ∈ ((cfg13.win 6).blk t).view.set := by
  have hN : cfg13.N = 10 := N_13
  have h0 : (i 0).val < 10 := (i 0).isLt
  have h1 : (i 1).val < 2 := (i 1).isLt
  have h2 : (i 2).val < 300 := (i 2).isLt
  have ht : (i 0).val < cfg13.N := by rw [hN]; exact h0
  obtain ⟨-, -, -, -, -, -, -, -, -, -, -, -, e0, e1, e2⟩ := r13_idx ⟨(i 0).val, ht⟩
  refine ⟨⟨(i 0).val, ht⟩, flush13_6 _, ?_⟩
  rw [r13_mem_blk6]
  intro a
  match a with
  | ⟨0, _⟩ =>
    show win13_6.index ⟨(i 0).val, ht⟩ (0 : Fin 3) * 1 ≤ (i 0).val ∧ (i 0).val < win13_6.index ⟨(i 0).val, ht⟩ (0 : Fin 3) * 1 + 1
    rw [e0]; show (i 0).val * 1 ≤ (i 0).val ∧ (i 0).val < (i 0).val * 1 + 1; omega
  | ⟨1, _⟩ =>
    show win13_6.index ⟨(i 0).val, ht⟩ (1 : Fin 3) * 2 ≤ (i 1).val ∧ (i 1).val < win13_6.index ⟨(i 0).val, ht⟩ (1 : Fin 3) * 2 + 2
    rw [e1]; omega
  | ⟨2, _⟩ =>
    show win13_6.index ⟨(i 0).val, ht⟩ (2 : Fin 3) * 300 ≤ (i 2).val ∧ (i 2).val < win13_6.index ⟨(i 0).val, ht⟩ (2 : Fin 3) * 300 + 300
    rw [e2]; omega

/-- THE STATISTICS ARRAY after the region: the tile statistics of the first dense stage of the region's inputs. -/
theorem arr13_6 (c : Dev nD) :
    (dat13 (F := Ideal) V c).arrAt 6 cfg13.N
      = tileStats (z1Of (V c (Pipeline.arrRef spec13 0)) (V c (Pipeline.arrRef spec13 1)) (V c (Pipeline.arrRef spec13 2))
        (V c (Pipeline.arrRef spec13 3)) (V c (Pipeline.arrRef spec13 4))) :=
  (dat13 V c).arrAt_eq_of_cover 6 (tileStats (r13_Z V c)) (fun t _ => r13_flushed6 V c t) r13_cover6

end Cert.KernelIdeal.RVal

end
-- ==== Proof.Region14.lean ====
/-
  The normalised second dense stage of a graph layer, tile by tile, as one array.

  The 20000 rows are processed in 10 tiles of 2000. At tile t the stage reads rows 2000·t … 2000·t + 1999 of z1 and the
  whole of the mean row μ, the variance row v, the scale row γ, the shift row β, the weights W and the bias b, and writes
  * rows 2000·t … 2000·t + 1999 of z2, where r(n, k) = max((z1(n, k) − μ(k))·rsqrt(v(k) + ε)·γ(k) + β(k), 0) and
    z2(n, q) = ∑ k, r(n, k)·W(k, q) + b(q), and
  * slab t of the statistics: row 0 the sums over the tile's rows of each column of z2, row 1 the sums of their squares.
  Each entry written depends only on the row it belongs to, so the tiles together hold z2 itself and its tile statistics.
-/
import proofs.«119086_j26585847562989_2_alg».proof.Proof.Gen.KernelIdeal.Frame
import proofs.«119086_j26585847562989_2_alg».proof.Proof.RegionLemmas
import Idealize.ShloMosaic.Lib.Pipeline.Value

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One tile's entries -/

/-- The stage's value on one tile at (p, q), from the tile's rows of z1 and the whole of v, μ, γ, β, W, b. -/
theorem r14_pay3_apply (v0 : Vec Ideal S1x300 .f32) (v5 : Vec Ideal S2000x300 .f32) (v7 v13 v17 : Vec Ideal S1x300 .f32)
    (v24 : Vec Ideal S300x300 .f32) (v28 : Vec Ideal S1x300 .f32) (p : Fin 2000) (q : Fin 300) :
    k14_pay3 v0 v5 v7 v13 v17 v24 v28 (ix2 p q)
      = (∑ k : Fin 300, max ((v5 (ix2 p k) - v7 (ix2 (0 : Fin 1) k))
            * Ideal.rsqrt (v0 (ix2 (0 : Fin 1) k) + Ideal.ofBits .f32 0x3727C5AC#32)
            * v13 (ix2 (0 : Fin 1) k) + v17 (ix2 (0 : Fin 1) k)) 0 * v24 (ix2 k q)) + v28 (ix2 (0 : Fin 1) q) :=
  bnrelu_dense_apply dot_S2000x300_S300x300_S2000x300_1_0_0_1_n_n rfl v0 v5 v7 v13 v17 v24 v28 0x3727C5AC#32
    shapeCasts_S1x300_S1x300 shapeCasts_S2000x300_S2000x300 shapeCasts_S300x300_S300x300 shapeCasts_S1x300_S1x300
    broadcasts_S1x300_S2000x300 broadcasts_S1x300_S2000x300 bitsLt_bf16_f32 p q

/-- The tile's column sums, at (u, s, q): the sum over the tile's rows of the stage's value in column q. -/
theorem r14_sum_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k14_pay1 (k14_pay4 v0 v5 v7 v13 v17 v24 v28) (ix3 u s q) = ∑ p : Fin 2000, k14_pay3 v0 v5 v7 v13 v17 v24 v28 (ix2 p q) := by
  unfold k14_pay1 k14_pay4
  exact (statsRow_apply (n := 300)
      (multiReduction .add [0] S300 (k14_pay3 v0 v5 v7 v13 v17 v24 v28) 0x00000000#32 reduces_S2000x300_S300 (.inl rfl) rfl)
      shapeCasts_S300_S1x300 shapeCasts_S1x300_S1x1x300 u s q).trans
    (colsum_apply (m := 2000) (n := 300) (k14_pay3 v0 v5 v7 v13 v17 v24 v28) reduces_S2000x300_S300 (.inl rfl) rfl q)

/-- The tile's column sums of squares, at (u, s, q). -/
theorem r14_sumsq_apply (v0 : Vec Ideal S1x300 .f32) (v5 : Vec Ideal S2000x300 .f32) (v7 v13 v17 : Vec Ideal S1x300 .f32)
    (v24 : Vec Ideal S300x300 .f32) (v28 : Vec Ideal S1x300 .f32) (u s : Fin 1) (q : Fin 300) :
    k14_pay2 (k14_pay5 v0 v5 v7 v13 v17 v24 v28) (ix3 u s q)
      = ∑ p : Fin 2000, k14_pay3 v0 v5 v7 v13 v17 v24 v28 (ix2 p q) * k14_pay3 v0 v5 v7 v13 v17 v24 v28 (ix2 p q) := by
  unfold k14_pay2 k14_pay5
  exact (statsRow_apply (n := 300)
      (multiReduction .add [0] S300 (mulf (k14_pay3 v0 v5 v7 v13 v17 v24 v28) (k14_pay3 v0 v5 v7 v13 v17 v24 v28)) 0x00000000#32
        reduces_S2000x300_S300 (.inl rfl) rfl)
      shapeCasts_S300_S1x300 shapeCasts_S1x300_S1x1x300 u s q).trans
    (colsum_apply (m := 2000) (n := 300) (mulf (k14_pay3 v0 v5 v7 v13 v17 v24 v28) (k14_pay3 v0 v5 v7 v13 v17 v24 v28))
      reduces_S2000x300_S300 (.inl rfl) rfl q)

/-- If a tile's block of z holds rows 2000·T + p of the array and its other blocks hold the whole rows and weights, the
    tile's value at (p, q) is z2 of the arrays at row 2000·T + p, column q. -/
theorem r14_tile_of_blocks (A0 : (⟨2, ![20000, 300]⟩ : Shape).Idx → EReal) (A1 A2 A3 A4 : (⟨2, ![1, 300]⟩ : Shape).Idx → EReal)
    (A5 : (⟨2, ![300, 300]⟩ : Shape).Idx → EReal) (A6 : (⟨2, ![1, 300]⟩ : Shape).Idx → EReal)
    (x0 : (⟨2, ![2000, 300]⟩ : Shape).Idx → EReal) (x1 x2 x3 x4 : (⟨2, ![1, 300]⟩ : Shape).Idx → EReal)
    (x5 : (⟨2, ![300, 300]⟩ : Shape).Idx → EReal) (x6 : (⟨2, ![1, 300]⟩ : Shape).Idx → EReal) (T : Fin 10)
    (h0 : ∀ (p : Fin 2000) (k : Fin 300), x0 (ix2 p k) = A0 (ix2 (rowOf T p) k))
    (h1 : ∀ k : Fin 300, x1 (ix2 (0 : Fin 1) k) = A1 (ix2 (0 : Fin 1) k))
    (h2 : ∀ k : Fin 300, x2 (ix2 (0 : Fin 1) k) = A2 (ix2 (0 : Fin 1) k))
    (h3 : ∀ k : Fin 300, x3 (ix2 (0 : Fin 1) k) = A3 (ix2 (0 : Fin 1) k))
    (h4 : ∀ k : Fin 300, x4 (ix2 (0 : Fin 1) k) = A4 (ix2 (0 : Fin 1) k))
    (h5 : ∀ k q : Fin 300, x5 (ix2 k q) = A5 (ix2 k q))
    (h6 : ∀ q : Fin 300, x6 (ix2 (0 : Fin 1) q) = A6 (ix2 (0 : Fin 1) q)) (p : Fin 2000) (q : Fin 300) :
    (∑ k : Fin 300, max ((x0 (ix2 p k) - x1 (ix2 (0 : Fin 1) k))
          * Ideal.rsqrt (x2 (ix2 (0 : Fin 1) k) + Ideal.ofBits .f32 0x3727C5AC#32)
          * x3 (ix2 (0 : Fin 1) k) + x4 (ix2 (0 : Fin 1) k)) 0 * x5 (ix2 k q)) + x6 (ix2 (0 : Fin 1) q)
      = z2Of A0 A1 A2 A3 A4 A5 A6 (ix2 (rowOf T p) q) := by
  rw [z2Of_apply]
  simp only [r1Of_apply, h0, h1, h2, h3, h4, h5, h6]

/-- What the body leaves in the z2 block, at (p, q): the stage's value there. -/
theorem r14_out7_apply (x0 : Vec Ideal S2000x300 .f32) (x1 x2 x3 x4 : Vec Ideal S1x300 .f32) (x5 : Vec Ideal S300x300 .f32)
    (x6 : Vec Ideal S1x300 .f32) (j : S2000x300.Idx) :
    out14_7 x0 x1 x2 x3 x4 x5 x6 j = k14_pay3 x2 x0 x1 x3 x4 x5 x6 j := by
  unfold out14_7
  rw [View.canon_unit_zero hz2]
  simp only [View.ld_unit_zero (S := S1x300) hz2, View.ld_unit_zero (S := S2000x300) hz2, View.ld_unit_zero (S := S300x300) hz2]

/-! ## Where each tile sits -/

/-- The tile number of a grid point. -/
def r14_tile (t : Fin cfg14.N) : Fin 10 := Fin.cast N_14 t

theorem r14_tile_val (t : Fin cfg14.N) : (r14_tile t).val = t.val := rfl

/-- The windows' block indices, decided over the 10 points: z1, z2 and the statistics move with the tile along axis 0;
    μ, v, γ, β, W and b stay. -/
theorem r14_idx : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0
    ∧ win14_7.index t (0 : Fin 2) = t.val ∧ win14_7.index t (1 : Fin 2) = 0
    ∧ win14_8.index t (0 : Fin 3) = t.val ∧ win14_8.index t (1 : Fin 3) = 0 ∧ win14_8.index t (2 : Fin 3) = 0 :=
  (by decide +kernel : ∀ t : Fin grid14.N, _)

/-- The tile's rows of z1: entry (p, k) of the block is entry (2000·t + p, k) of the array. -/
theorem r14_blk0 (c : Dev nD) (t : Fin cfg14.N) (p : Fin 2000) (k : Fin 300) :
    (iblk14 V c 0 t : Vec Ideal S2000x300 .f32) (ix2 p k)
      = (V c (Pipeline.arrRef spec14 0) : S20000x300.Idx → Elt Ideal .f32) (ix2 (rowOf (r14_tile t) p) k) := by
  obtain ⟨e0, e1, -⟩ := r14_idx t
  unfold iblk14
  rw [View.read_apply]
  refine congrArg (V c (Pipeline.arrRef spec14 0) : S20000x300.Idx → Elt Ideal .f32) (funext fun a => Fin.ext ?_)
  match a with
  | ⟨0, _⟩ => show win14_0.index t (0 : Fin 2) * 2000 + 1 * p.val = t.val * 2000 + p.val; rw [e0]; omega
  | ⟨1, _⟩ => show win14_0.index t (1 : Fin 2) * 300 + 1 * k.val = k.val; rw [e1]; omega

/-- The mean row, whole at every tile. -/
theorem r14_blk1 (c : Dev nD) (t : Fin cfg14.N) (u : Fin 1) (k : Fin 300) :
    (iblk14 V c 1 t : Vec Ideal S1x300 .f32) (ix2 u k)
      = (V c (Pipeline.arrRef spec14 1) : S1x300.Idx → Elt Ideal .f32) (ix2 u k) := by
  obtain ⟨-, -, e0, e1, -⟩ := r14_idx t
  unfold iblk14
  rw [View.read_apply]
  refine congrArg (V c (Pipeline.arrRef spec14 1) : S1x300.Idx → Elt Ideal .f32) (funext fun a => Fin.ext ?_)
  match a with
  | ⟨0, _⟩ => show win14_1.index t (0 : Fin 2) * 1 + 1 * u.val = u.val; rw [e0]; omega
  | ⟨1, _⟩ => show win14_1.index t (1 : Fin 2) * 300 + 1 * k.val = k.val; rw [e1]; omega

/-- The variance row, whole at every tile. -/
theorem r14_blk2 (c : Dev nD) (t : Fin cfg14.N) (u : Fin 1) (k : Fin 300) :
    (iblk14 V c 2 t : Vec Ideal S1x300 .f32) (ix2 u k)
      = (V c (Pipeline.arrRef spec14 2) : S1x300.Idx → Elt Ideal .f32) (ix2 u k) := by
  obtain ⟨-, -, -, -, e0, e1, -⟩ := r14_idx t
  unfold iblk14
  rw [View.read_apply]
  refine congrArg (V c (Pipeline.arrRef spec14 2) : S1x300.Idx → Elt Ideal .f32) (funext fun a => Fin.ext ?_)
  match a with
  | ⟨0, _⟩ => show win14_2.index t (0 : Fin 2) * 1 + 1 * u.val = u.val; rw [e0]; omega
  | ⟨1, _⟩ => show win14_2.index t (1 : Fin 2) * 300 + 1 * k.val = k.val; rw [e1]; omega

/-- The scale row, whole at every tile. -/
theorem r14_blk3 (c : Dev nD) (t : Fin cfg14.N) (u : Fin 1) (k : Fin 300) :
    (iblk14 V c 3 t : Vec Ideal S1x300 .f32) (ix2 u k)
      = (V c (Pipeline.arrRef spec14 3) : S1x300.Idx → Elt Ideal .f32) (ix2 u k) := by
  obtain ⟨-, -, -, -, -, -, e0, e1, -⟩ := r14_idx t
  unfold iblk14
  rw [View.read_apply]
  refine congrArg (V c (Pipeline.arrRef spec14 3) : S1x300.Idx → Elt Ideal .f32) (funext fun a => Fin.ext ?_)
  match a with
  | ⟨0, _⟩ => show win14_3.index t (0 : Fin 2) * 1 + 1 * u.val = u.val; rw [e0]; omega
  | ⟨1, _⟩ => show win14_3.index t (1 : Fin 2) * 300 + 1 * k.val = k.val; rw [e1]; omega

/-- The shift row, whole at every tile. -/
theorem r14_blk4 (c : Dev nD) (t : Fin cfg14.N) (u : Fin 1) (k : Fin 300) :
    (iblk14 V c 4 t : Vec Ideal S1x300 .f32) (ix2 u k)
      = (V c (Pipeline.arrRef spec14 4) : S1x300.Idx → Elt Ideal .f32) (ix2 u k) := by
  obtain ⟨-, -, -, -, -, -, -, -, e0, e1, -⟩ := r14_idx t
  unfold iblk14
  rw [View.read_apply]
  refine congrArg (V c (Pipeline.arrRef spec14 4) : S1x300.Idx → Elt Ideal .f32) (funext fun a => Fin.ext ?_)
  match a with
  | ⟨0, _⟩ => show win14_4.index t (0 : Fin 2) * 1 + 1 * u.val = u.val; rw [e0]; omega
  | ⟨1, _⟩ => show win14_4.index t (1 : Fin 2) * 300 + 1 * k.val = k.val; rw [e1]; omega

/-- The weights, whole at every tile. -/
theorem r14_blk5 (c : Dev nD) (t : Fin cfg14.N) (k : Fin 300) (q : Fin 300) :
    (iblk14 V c 5 t : Vec Ideal S300x300 .f32) (ix2 k q)
      = (V c (Pipeline.arrRef spec14 5) : S300x300.Idx → Elt Ideal .f32) (ix2 k q) := by
  obtain ⟨-, -, -, -, -, -, -, -, -, -, e0, e1, -⟩ := r14_idx t
  unfold iblk14
  rw [View.read_apply]
  refine congrArg (V c (Pipeline.arrRef spec14 5) : S300x300.Idx → Elt Ideal .f32) (funext fun a => Fin.ext ?_)
  match a with
  | ⟨0, _⟩ => show win14_5.index t (0 : Fin 2) * 300 + 1 * k.val = k.val; rw [e0]; omega
  | ⟨1, _⟩ => show win14_5.index t (1 : Fin 2) * 300 + 1 * q.val = q.val; rw [e1]; omega

/-- The bias row, whole at every tile. -/
theorem r14_blk6 (c : Dev nD) (t : Fin cfg14.N) (u : Fin 1) (k : Fin 300) :
    (iblk14 V c 6 t : Vec Ideal S1x300 .f32) (ix2 u k)
      = (V c (Pipeline.arrRef spec14 6) : S1x300.Idx → Elt Ideal .f32) (ix2 u k) := by
  obtain ⟨-, -, -, -, -, -, -, -, -, -, -, -, e0, e1, -⟩ := r14_idx t
  unfold iblk14
  rw [View.read_apply]
  refine congrArg (V c (Pipeline.arrRef spec14 6) : S1x300.Idx → Elt Ideal .f32) (funext fun a => Fin.ext ?_)
  match a with
  | ⟨0, _⟩ => show win14_6.index t (0 : Fin 2) * 1 + 1 * u.val = u.val; rw [e0]; omega
  | ⟨1, _⟩ => show win14_6.index t (1 : Fin 2) * 300 + 1 * k.val = k.val; rw [e1]; omega

/-! ## The region's closed form and one tile's values, named once -/

/-- The normalised second dense stage of the arrays the region finds. -/
def r14_Z (c : Dev nD) : (⟨2, ![20000, 300]⟩ : Shape).Idx → EReal :=
  z2Of (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5)) (V c (Pipeline.arrRef spec14 6))

/-- What tile t computes from its blocks. -/
def r14_P (c : Dev nD) (t : Fin cfg14.N) : (⟨2, ![2000, 300]⟩ : Shape).Idx → EReal :=
  k14_pay3 (iblk14 V c 2 t) (iblk14 V c 0 t) (iblk14 V c 1 t) (iblk14 V c 3 t) (iblk14 V c 4 t) (iblk14 V c 5 t) (iblk14 V c 6 t)

/-- THE TILE'S ENTRY: what tile t computes at (p, q) is z2 of the whole arrays at row 2000·t + p, column q. -/
theorem r14_tile_apply (c : Dev nD) (t : Fin cfg14.N) (p : Fin 2000) (q : Fin 300) :
    r14_P V c t (ix2 p q) = r14_Z V c (ix2 (rowOf (r14_tile t) p) q) := by
  unfold r14_P r14_Z
  refine (r14_pay3_apply (iblk14 V c 2 t) (iblk14 V c 0 t) (iblk14 V c 1 t) (iblk14 V c 3 t) (iblk14 V c 4 t) (iblk14 V c 5 t) (iblk14 V c 6 t) p q).trans ?_
  exact r14_tile_of_blocks (V c (Pipeline.arrRef spec14 0)) (V c (Pipeline.arrRef spec14 1)) (V c (Pipeline.arrRef spec14 2))
    (V c (Pipeline.arrRef spec14 3)) (V c (Pipeline.arrRef spec14 4)) (V c (Pipeline.arrRef spec14 5)) (V c (Pipeline.arrRef spec14 6))
    (iblk14 V c 0 t) (iblk14 V c 1 t) (iblk14 V c 2 t) (iblk14 V c 3 t) (iblk14 V c 4 t) (iblk14 V c 5 t) (iblk14 V c 6 t) (r14_tile t)
    (r14_blk0 V c t) (r14_blk1 V c t 0) (r14_blk2 V c t 0) (r14_blk3 V c t 0) (r14_blk4 V c t 0) (r14_blk5 V c t) (r14_blk6 V c t 0) p q

/-- The z2 block the body leaves at tile t is the tile's values. -/
theorem r14_out7 (c : Dev nD) (t : Fin cfg14.N) (j : S2000x300.Idx) :
    out14_7 (iblk14 V c 0 t) (iblk14 V c 1 t) (iblk14 V c 2 t) (iblk14 V c 3 t) (iblk14 V c 4 t) (iblk14 V c 5 t) (iblk14 V c 6 t) j = r14_P V c t j :=
  r14_out7_apply (iblk14 V c 0 t) (iblk14 V c 1 t) (iblk14 V c 2 t) (iblk14 V c 3 t) (iblk14 V c 4 t) (iblk14 V c 5 t) (iblk14 V c 6 t) j

/-- What the body leaves in its two-row statistics block at (u, s, q): row 0 the column sums of the tile's values, row 1
    the column sums of their squares. -/
theorem r14_out8_apply (x0 : Vec Ideal S2000x300 .f32) (x1 x2 x3 x4 : Vec Ideal S1x300 .f32) (x5 : Vec Ideal S300x300 .f32)
    (x6 : Vec Ideal S1x300 .f32) (u : Fin 1) (q : Fin 300) :
    out14_8 x0 x1 x2 x3 x4 x5 x6 (ix3 u (0 : Fin 2) q) = ∑ p : Fin 2000, k14_pay3 x2 x0 x1 x3 x4 x5 x6 (ix2 p q)
    ∧ out14_8 x0 x1 x2 x3 x4 x5 x6 (ix3 u (1 : Fin 2) q)
      = ∑ p : Fin 2000, k14_pay3 x2 x0 x1 x3 x4 x5 x6 (ix2 p q) * k14_pay3 x2 x0 x1 x3 x4 x5 x6 (ix2 p q) := by
  unfold out14_8
  simp only [View.ld_unit_zero (S := S1x300) hz2, View.ld_unit_zero (S := S2000x300) hz2, View.ld_unit_zero (S := S300x300) hz2]
  obtain ⟨h0, h1⟩ := twoRows_canon_apply (n := 300) (Val := Elt Ideal) (e := .f32)
    inb_S1x2x300_S1x1x300_0_0_0 inb_S1x2x300_S1x1x300_0_1_0 (k14_pay1 (k14_pay4 x2 x0 x1 x3 x4 x5 x6))
    (k14_pay2 (k14_pay5 x2 x0 x1 x3 x4 x5 x6)) u q
  exact ⟨h0.trans (r14_sum_apply x2 x0 x1 x3 x4 x5 x6 0 0 q), h1.trans (r14_sumsq_apply x2 x0 x1 x3 x4 x5 x6 0 0 q)⟩

/-- The statistics block the body leaves at tile t: the column sums of the tile's values and of their squares. -/
theorem r14_out8 (c : Dev nD) (t : Fin cfg14.N) (u : Fin 1) (q : Fin 300) :
    out14_8 (iblk14 V c 0 t) (iblk14 V c 1 t) (iblk14 V c 2 t) (iblk14 V c 3 t) (iblk14 V c 4 t) (iblk14 V c 5 t) (iblk14 V c 6 t) (ix3 u (0 : Fin 2) q)
      = ∑ p : Fin 2000, r14_P V c t (ix2 p q)
    ∧ out14_8 (iblk14 V c 0 t) (iblk14 V c 1 t) (iblk14 V c 2 t) (iblk14 V c 3 t) (iblk14 V c 4 t) (iblk14 V c 5 t) (iblk14 V c 6 t) (ix3 u (1 : Fin 2) q)
      = ∑ p : Fin 2000, r14_P V c t (ix2 p q) * r14_P V c t (ix2 p q) :=
  r14_out8_apply (iblk14 V c 0 t) (iblk14 V c 1 t) (iblk14 V c 2 t) (iblk14 V c 3 t) (iblk14 V c 4 t) (iblk14 V c 5 t) (iblk14 V c 6 t) u q

/-! ## The z2 array -/

/-- What tile t writes back to z2 is its block of the closed form. -/
theorem r14_flushed7 (c : Dev nD) (t : Fin cfg14.N) :
    (dat14 V c).flushed 7 t = ((cfg14.win 7).blk t).view.read (Elt Ideal) (r14_Z V c) := by
  show (cfg14.win 7).cut (grid14.coords t) ((dat14 V c).after 7 t) = _
  rw [after14_7]
  funext j
  have hj0 : (j 0).val < 2000 := (j 0).isLt
  have hj1 : (j 1).val < 300 := (j 1).isLt
  -- the block's entry j, by coordinates
  have hx : (cfg14.win 7).xinj (grid14.coords t) j = (ix2 (⟨(j 0).val, hj0⟩ : Fin 2000) (⟨(j 1).val, hj1⟩ : Fin 300) : S2000x300.Idx) := by
    funext a; apply Fin.ext
    match a with
    | ⟨0, _⟩ => rfl
    | ⟨1, _⟩ => rfl
  -- and where it sits in the array: row 2000·t + (j 0)
  have he : (((cfg14.win 7).blk t).view.emb j : S20000x300.Idx)
      = ix2 (rowOf (r14_tile t) ⟨(j 0).val, hj0⟩) (⟨(j 1).val, hj1⟩ : Fin 300) := by
    obtain ⟨-, -, -, -, -, -, -, -, -, -, -, -, -, -, e0, e1, -⟩ := r14_idx t
    funext a; apply Fin.ext
    match a with
    | ⟨0, _⟩ => show win14_7.index t (0 : Fin 2) * 2000 + 1 * (j 0).val = t.val * 2000 + (j 0).val; rw [e0]; omega
    | ⟨1, _⟩ => show win14_7.index t (1 : Fin 2) * 300 + 1 * (j 1).val = (j 1).val; rw [e1]; omega
  exact ((r14_out7 V c t _).trans (congrArg (r14_P V c t) hx)).trans
    ((r14_tile_apply V c t ⟨(j 0).val, hj0⟩ ⟨(j 1).val, hj1⟩).trans (congrArg (r14_Z V c) he).symm)

/-- Membership in tile t's block of z2, by coordinates. -/
theorem r14_mem_blk7 (t : Fin cfg14.N) (i : S20000x300.Idx) :
    i ∈ ((cfg14.win 7).blk t).view.set ↔ ∀ a : Fin 2, win14_7.index t a * S2000x300.size a ≤ (i a).val
      ∧ (i a).val < win14_7.index t a * S2000x300.size a + S2000x300.size a := by
  show i ∈ ((View.whole main_v375_0).slice (win14_7.rect t)).set ↔ _
  rw [View.set_slice_whole, Rect.mem_set_unit]
  exact Iff.rfl

/-- Every entry of z2 is in the block of the tile its row belongs to. -/
theorem r14_cover7 (i : S20000x300.Idx) :
    ∃ t : Fin cfg14.N, (cfg14.win 7).flush t = true ∧ i ∈ ((cfg14.win 7).blk t).view.set := by
  have hN : cfg14.N = 10 := N_14
  have h0 : (i 0).val < 20000 := (i 0).isLt
  have h1 : (i 1).val < 300 := (i 1).isLt
  have ht : (i 0).val / 2000 < cfg14.N := by rw [hN]; omega
  obtain ⟨-, -, -, -, -, -, -, -, -, -, -, -, -, -, e0, e1, -⟩ := r14_idx ⟨(i 0).val / 2000, ht⟩
  refine ⟨⟨(i 0).val / 2000, ht⟩, flush14_7 _, ?_⟩
  rw [r14_mem_blk7]
  intro a
  match a with
  | ⟨0, _⟩ =>
    show win14_7.index ⟨(i 0).val / 2000, ht⟩ (0 : Fin 2) * 2000 ≤ (i 0).val
      ∧ (i 0).val < win14_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win14_7.index ⟨(i 0).val / 2000, ht⟩ (1 : Fin 2) * 300 ≤ (i 1).val
      ∧ (i 1).val < win14_7.index ⟨(i 0).val / 2000, ht⟩ (1 : Fin 2) * 300 + 300
    rw [e1]; omega

/-- THE z2 ARRAY after the region: the normalised second dense stage of the region's inputs. -/
theorem arr14_7 (c : Dev nD) :
    (dat14 (F := Ideal) V c).arrAt 7 cfg14.N
      = z2Of (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5)) (V c (Pipeline.arrRef spec14 6)) :=
  (dat14 V c).arrAt_eq_of_cover 7 (r14_Z V c) (fun t _ => r14_flushed7 V c t) r14_cover7

/-! ## The statistics array -/

/-- One entry of what tile t writes back to the statistics: on row s of its slab, column q, the value v, provided the
    body left v there and the tile statistics of the closed form have v there. -/
theorem r14_flushed8_at (c : Dev nD) (t : Fin cfg14.N) (j : ((cfg14.win 8).xblock (grid14.coords t)).Idx) (s : Fin 2)
    (hs : (j 1).val = s.val) (hj2 : (j 2).val < 300) (v : EReal)
    (hout : ∀ u : Fin 1, out14_8 (iblk14 V c 0 t) (iblk14 V c 1 t) (iblk14 V c 2 t) (iblk14 V c 3 t) (iblk14 V c 4 t) (iblk14 V c 5 t) (iblk14 V c 6 t) (ix3 u s (⟨(j 2).val, hj2⟩ : Fin 300)) = v)
    (hstat : tileStats (r14_Z V c) (ix3 (r14_tile t) s (⟨(j 2).val, hj2⟩ : Fin 300)) = v) :
    (cfg14.win 8).cut (grid14.coords t)
        (out14_8 (iblk14 V c 0 t) (iblk14 V c 1 t) (iblk14 V c 2 t) (iblk14 V c 3 t) (iblk14 V c 4 t) (iblk14 V c 5 t) (iblk14 V c 6 t)) j
      = ((cfg14.win 8).blk t).view.read (Elt Ideal) (tileStats (r14_Z V c)) j := by
  have hj0 : (j 0).val < 1 := (j 0).isLt
  have hx : (cfg14.win 8).xinj (grid14.coords t) j
      = (ix3 (⟨(j 0).val, hj0⟩ : Fin 1) s (⟨(j 2).val, hj2⟩ : Fin 300) : S1x2x300.Idx) := by
    funext a; apply Fin.ext
    match a with
    | ⟨0, _⟩ => rfl
    | ⟨1, _⟩ => exact hs
    | ⟨2, _⟩ => rfl
  have he : (((cfg14.win 8).blk t).view.emb j : S10x2x300.Idx) = ix3 (r14_tile t) s (⟨(j 2).val, hj2⟩ : Fin 300) := by
    obtain ⟨-, -, -, -, -, -, -, -, -, -, -, -, -, -, -, -, e0, e1, e2⟩ := r14_idx t
    funext a; apply Fin.ext
    match a with
    | ⟨0, _⟩ => show win14_8.index t (0 : Fin 3) * 1 + 1 * (j 0).val = t.val; rw [e0]; omega
    | ⟨1, _⟩ => show win14_8.index t (1 : Fin 3) * 2 + 1 * (j 1).val = s.val; rw [e1]; omega
    | ⟨2, _⟩ => show win14_8.index t (2 : Fin 3) * 300 + 1 * (j 2).val = (j 2).val; rw [e2]; omega
  exact ((congrArg (out14_8 (iblk14 V c 0 t) (iblk14 V c 1 t) (iblk14 V c 2 t) (iblk14 V c 3 t) (iblk14 V c 4 t) (iblk14 V c 5 t) (iblk14 V c 6 t)) hx).trans (hout _)).trans
    (hstat.symm.trans (congrArg (tileStats (r14_Z V c)) he).symm)

/-- What tile t writes back to the statistics is its slab of the tile statistics of the closed form. -/
theorem r14_flushed8 (c : Dev nD) (t : Fin cfg14.N) :
    (dat14 V c).flushed 8 t = ((cfg14.win 8).blk t).view.read (Elt Ideal) (tileStats (r14_Z V c)) := by
  show (cfg14.win 8).cut (grid14.coords t) ((dat14 V c).after 8 t) = _
  rw [after14_8]
  funext j
  have hj1 : (j 1).val < 2 := (j 1).isLt
  have hj2 : (j 2).val < 300 := (j 2).isLt
  rcases Nat.lt_or_ge (j 1).val 1 with hs | hs
  · exact r14_flushed8_at V c t j 0 (by show (j 1).val = 0; omega) hj2 _ (fun u => (r14_out8 V c t u ⟨(j 2).val, hj2⟩).1)
      ((tileStats_zero _ (r14_tile t) ⟨(j 2).val, hj2⟩).trans
        (Finset.sum_congr rfl fun p _ => (r14_tile_apply V c t p ⟨(j 2).val, hj2⟩).symm))
  · exact r14_flushed8_at V c t j 1 (by show (j 1).val = 1; omega) hj2 _ (fun u => (r14_out8 V c t u ⟨(j 2).val, hj2⟩).2)
      ((tileStats_one _ (r14_tile t) ⟨(j 2).val, hj2⟩).trans (Finset.sum_congr rfl fun p _ =>
        (congrArg₂ (fun (a b : EReal) => a * b) (r14_tile_apply V c t p ⟨(j 2).val, hj2⟩)
          (r14_tile_apply V c t p ⟨(j 2).val, hj2⟩)).symm))

/-- Membership in tile t's slab of the statistics, by coordinates. -/
theorem r14_mem_blk8 (t : Fin cfg14.N) (i : S10x2x300.Idx) :
    i ∈ ((cfg14.win 8).blk t).view.set ↔ ∀ a : Fin 3, win14_8.index t a * S1x2x300.size a ≤ (i a).val
      ∧ (i a).val < win14_8.index t a * S1x2x300.size a + S1x2x300.size a := by
  show i ∈ ((View.whole main_v375_1).slice (win14_8.rect t)).set ↔ _
  rw [View.set_slice_whole, Rect.mem_set_unit]
  exact Iff.rfl

/-- Every entry of the statistics is in its tile's slab. -/
theorem r14_cover8 (i : S10x2x300.Idx) :
    ∃ t : Fin cfg14.N, (cfg14.win 8).flush t = true ∧ i ∈ ((cfg14.win 8).blk t).view.set := by
  have hN : cfg14.N = 10 := N_14
  have h0 : (i 0).val < 10 := (i 0).isLt
  have h1 : (i 1).val < 2 := (i 1).isLt
  have h2 : (i 2).val < 300 := (i 2).isLt
  have ht : (i 0).val < cfg14.N := by rw [hN]; exact h0
  obtain ⟨-, -, -, -, -, -, -, -, -, -, -, -, -, -, -, -, e0, e1, e2⟩ := r14_idx ⟨(i 0).val, ht⟩
  refine ⟨⟨(i 0).val, ht⟩, flush14_8 _, ?_⟩
  rw [r14_mem_blk8]
  intro a
  match a with
  | ⟨0, _⟩ =>
    show win14_8.index ⟨(i 0).val, ht⟩ (0 : Fin 3) * 1 ≤ (i 0).val ∧ (i 0).val < win14_8.index ⟨(i 0).val, ht⟩ (0 : Fin 3) * 1 + 1
    rw [e0]; show (i 0).val * 1 ≤ (i 0).val ∧ (i 0).val < (i 0).val * 1 + 1; omega
  | ⟨1, _⟩ =>
    show win14_8.index ⟨(i 0).val, ht⟩ (1 : Fin 3) * 2 ≤ (i 1).val ∧ (i 1).val < win14_8.index ⟨(i 0).val, ht⟩ (1 : Fin 3) * 2 + 2
    rw [e1]; omega
  | ⟨2, _⟩ =>
    show win14_8.index ⟨(i 0).val, ht⟩ (2 : Fin 3) * 300 ≤ (i 2).val ∧ (i 2).val < win14_8.index ⟨(i 0).val, ht⟩ (2 : Fin 3) * 300 + 300
    rw [e2]; omega

/-- THE STATISTICS ARRAY after the region: the tile statistics of the normalised second dense stage of the region's inputs. -/
theorem arr14_8 (c : Dev nD) :
    (dat14 (F := Ideal) V c).arrAt 8 cfg14.N
      = tileStats (z2Of (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5)) (V c (Pipeline.arrRef spec14 6))) :=
  (dat14 V c).arrAt_eq_of_cover 8 (tileStats (r14_Z V c)) (fun t _ => r14_flushed8 V c t) r14_cover8

end Cert.KernelIdeal.RVal

end
-- ==== Proof.Region15.lean ====
/-
  The normalising region in closed form. Its grid has 10 points; point t reads rows 2000t … 2000t + 1999 of the
  [20000, 300] input and the four one-row operands whole, and writes the same rows of both outputs. Every entry of a
  written block is the body's value at that entry, which depends only on the input's entry at the same place and on
  the one-row operands at the same column; so each output array, once all ten blocks are written, is the one
  function  max((z − mean) · rsqrt(var + ε) · g + be, 0)  of the arrays the region found, entry by entry. The second
  output is the first narrowed, which is the identity on extended reals.
-/
import proofs.«119086_j26585847562989_2_alg».proof.Proof.Gen.KernelIdeal.Frame
import Idealize.ShloMosaic.Lib.Pipeline.Value
import proofs.«119086_j26585847562989_2_alg».proof.Proof.ReadEncBn

-- an array's shape is found by walking the program's list of buffers up to the array; the later the region, the longer the walk
set_option maxHeartbeats 1600000

noncomputable section

namespace Cert.KernelIdeal.RVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem r15_hz : (![0, 0] : Fin 2 → Nat) = fun _ => 0 := funext fun a => by fin_cases a <;> rfl

/-- The body's first stored value at (p, q) is the closed form of its five loaded blocks there. -/
theorem r15_pay1_apply (v0 v7 v13 v17 : Vec Ideal S1x300 .f32) (v5 : Vec Ideal S2000x300 .f32) (p : Fin 2000) (q : Fin 300) :
    k15_pay1 v0 v5 v7 v13 v17 (ix2 p q) = bnReluOf v5 v7 v0 v13 v17 (ix2 p q) := by
  unfold k15_pay1
  exact bnBody_apply v5 v7 v0 v13 v17 _ _ _ p q

/-- The second stored value is the first narrowed: the same extended real. -/
theorem r15_pay2_apply (v0 v7 v13 v17 : Vec Ideal S1x300 .f32) (v5 : Vec Ideal S2000x300 .f32) (p : Fin 2000) (q : Fin 300) :
    k15_pay2 v0 v5 v7 v13 v17 (ix2 p q) = bnReluOf v5 v7 v0 v13 v17 (ix2 p q) :=
  r15_pay1_apply v0 v7 v13 v17 v5 p q

/-- One entry of a block: if the input block's entry y is the array's entry i and the two share their column, the
    body's value at y is the closed form of the array at i. -/
theorem r15_point1 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k15_pay1 x2 x0 x1 x3 x4 y = bnReluOf z x1 x2 x3 x4 i := by
  obtain ⟨p, q, rfl⟩ : ∃ (p : Fin 2000) (q : Fin 300), y = ix2 p q := ⟨y 0, y 1, eq_ix2 y⟩
  obtain ⟨a, b, rfl⟩ : ∃ (a : Fin 20000) (b : Fin 300), i = ix2 a b := ⟨i 0, i 1, eq_ix2 i⟩
  obtain rfl : b = q := Fin.ext h1
  rw [r15_pay1_apply, bnReluOf_apply, bnReluOf_apply, h0]

theorem r15_point2 (x0 : Vec Ideal S2000x300 .f32) (x1 x2 x3 x4 : Vec Ideal S1x300 .f32)
    (z : S20000x300.Idx → EReal) (i : S20000x300.Idx) (y : S2000x300.Idx)
    (h0 : x0 y = z i) (h1 : (i 1).val = (y 1).val) :
    k15_pay2 x2 x0 x1 x3 x4 y = bnReluOf z x1 x2 x3 x4 i :=
  r15_point1 x0 x1 x2 x3 x4 z i y h0 h1

/-- The printed index maps over the ten points: the input and both outputs are at block (t, 0), the one-row operands
    at block (0, 0). -/
theorem r15_idx : ∀ t : Fin cfg15.N,
    win15_0.index t (0 : Fin 2) = t.val ∧ win15_0.index t (1 : Fin 2) = 0
    ∧ win15_5.index t (0 : Fin 2) = t.val ∧ win15_5.index t (1 : Fin 2) = 0
    ∧ win15_6.index t (0 : Fin 2) = t.val ∧ win15_6.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0 :=
  (by decide +kernel : ∀ t : Fin grid15.N, _)

/-- A one-row operand's block is the whole one-row array, at every point. -/
theorem r15_row1 (c : Dev nD) (t : Fin cfg15.N) :
    (iblk15 V c 1 t : Vec Ideal S1x300 .f32) = (V c (Pipeline.arrRef spec15 1) : S1x300.Idx → EReal) := by
  obtain ⟨-, -, -, -, -, -, e0, e1, -⟩ := r15_idx t
  funext y
  show V c (Pipeline.arrRef spec15 1) (((cfg15.win 1).blk t).view.emb y) = V c (Pipeline.arrRef spec15 1) y
  refine congrArg _ (funext fun a => Fin.ext ?_)
  match a with
  | ⟨0, _⟩ => show win15_1.index t (0 : Fin 2) * 1 + 1 * (y 0).val = (y 0).val; rw [e0]; omega
  | ⟨1, _⟩ => show win15_1.index t (1 : Fin 2) * 300 + 1 * (y 1).val = (y 1).val; rw [e1]; omega
theorem r15_row2 (c : Dev nD) (t : Fin cfg15.N) :
    (iblk15 V c 2 t : Vec Ideal S1x300 .f32) = (V c (Pipeline.arrRef spec15 2) : S1x300.Idx → EReal) := by
  obtain ⟨-, -, -, -, -, -, -, -, e0, e1, -⟩ := r15_idx t
  funext y
  show V c (Pipeline.arrRef spec15 2) (((cfg15.win 2).blk t).view.emb y) = V c (Pipeline.arrRef spec15 2) y
  refine congrArg _ (funext fun a => Fin.ext ?_)
  match a with
  | ⟨0, _⟩ => show win15_2.index t (0 : Fin 2) * 1 + 1 * (y 0).val = (y 0).val; rw [e0]; omega
  | ⟨1, _⟩ => show win15_2.index t (1 : Fin 2) * 300 + 1 * (y 1).val = (y 1).val; rw [e1]; omega
theorem r15_row3 (c : Dev nD) (t : Fin cfg15.N) :
    (iblk15 V c 3 t : Vec Ideal S1x300 .f32) = (V c (Pipeline.arrRef spec15 3) : S1x300.Idx → EReal) := by
  obtain ⟨-, -, -, -, -, -, -, -, -, -, e0, e1, -⟩ := r15_idx t
  funext y
  show V c (Pipeline.arrRef spec15 3) (((cfg15.win 3).blk t).view.emb y) = V c (Pipeline.arrRef spec15 3) y
  refine congrArg _ (funext fun a => Fin.ext ?_)
  match a with
  | ⟨0, _⟩ => show win15_3.index t (0 : Fin 2) * 1 + 1 * (y 0).val = (y 0).val; rw [e0]; omega
  | ⟨1, _⟩ => show win15_3.index t (1 : Fin 2) * 300 + 1 * (y 1).val = (y 1).val; rw [e1]; omega
theorem r15_row4 (c : Dev nD) (t : Fin cfg15.N) :
    (iblk15 V c 4 t : Vec Ideal S1x300 .f32) = (V c (Pipeline.arrRef spec15 4) : S1x300.Idx → EReal) := by
  obtain ⟨-, -, -, -, -, -, -, -, -, -, -, -, e0, e1⟩ := r15_idx t
  funext y
  show V c (Pipeline.arrRef spec15 4) (((cfg15.win 4).blk t).view.emb y) = V c (Pipeline.arrRef spec15 4) y
  refine congrArg _ (funext fun a => Fin.ext ?_)
  match a with
  | ⟨0, _⟩ => show win15_4.index t (0 : Fin 2) * 1 + 1 * (y 0).val = (y 0).val; rw [e0]; omega
  | ⟨1, _⟩ => show win15_4.index t (1 : Fin 2) * 300 + 1 * (y 1).val = (y 1).val; rw [e1]; omega

/-- The region's closed form of the arrays it finds. -/
abbrev r15_G (c : Dev nD) : S20000x300.Idx → EReal :=
  bnReluOf (m := 20000) (n := 300) (V c (Pipeline.arrRef spec15 0)) (V c (Pipeline.arrRef spec15 1)) (V c (Pipeline.arrRef spec15 2))
    (V c (Pipeline.arrRef spec15 3)) (V c (Pipeline.arrRef spec15 4))

/-- What point t writes back to the first output is block t of the closed form. -/
theorem r15_flushed5 (c : Dev nD) (t : Fin cfg15.N) :
    (dat15 V c).flushed 5 t = ((cfg15.win 5).blk t).view.read (Elt Ideal) (r15_G V c) := by
  show (cfg15.win 5).cut (grid15.coords t) ((dat15 V c).after 5 t) = _
  rw [after15_5]
  unfold out15_5
  rw [View.canon_unit_zero r15_hz]
  simp only [View.ld_unit_zero (S := S2000x300) r15_hz, View.ld_unit_zero (S := S1x300) r15_hz]
  rw [r15_row1, r15_row2, r15_row3, r15_row4]
  obtain ⟨a0, a1, b0, b1, -⟩ := r15_idx t
  funext j
  show k15_pay1 (V c (Pipeline.arrRef spec15 2)) (iblk15 V c 0 t) (V c (Pipeline.arrRef spec15 1)) (V c (Pipeline.arrRef spec15 3))
      (V c (Pipeline.arrRef spec15 4)) j = r15_G V c (((cfg15.win 5).blk t).view.emb j)
  refine r15_point1 (iblk15 V c 0 t) (V c (Pipeline.arrRef spec15 1)) (V c (Pipeline.arrRef spec15 2)) (V c (Pipeline.arrRef spec15 3))
    (V c (Pipeline.arrRef spec15 4)) (V c (Pipeline.arrRef spec15 0)) (((cfg15.win 5).blk t).view.emb j) j ?_ ?_
  · show V c (Pipeline.arrRef spec15 0) (((cfg15.win 0).blk t).view.emb j) = V c (Pipeline.arrRef spec15 0) (((cfg15.win 5).blk t).view.emb j)
    refine congrArg _ (funext fun a => Fin.ext ?_)
    match a with
    | ⟨0, _⟩ => show win15_0.index t (0 : Fin 2) * 2000 + 1 * (j 0).val = win15_5.index t (0 : Fin 2) * 2000 + 1 * (j 0).val; rw [a0, b0]
    | ⟨1, _⟩ => show win15_0.index t (1 : Fin 2) * 300 + 1 * (j 1).val = win15_5.index t (1 : Fin 2) * 300 + 1 * (j 1).val; rw [a1, b1]
  · show win15_5.index t (1 : Fin 2) * 300 + 1 * (j 1).val = (j 1).val
    rw [b1]; omega

/-- What point t writes back to the second output is block t of the same closed form. -/
theorem r15_flushed6 (c : Dev nD) (t : Fin cfg15.N) :
    (dat15 V c).flushed 6 t = ((cfg15.win 6).blk t).view.read (Elt Ideal) (r15_G V c) := by
  show (cfg15.win 6).cut (grid15.coords t) ((dat15 V c).after 6 t) = _
  rw [after15_6]
  unfold out15_6
  rw [View.canon_unit_zero r15_hz]
  simp only [View.ld_unit_zero (S := S2000x300) r15_hz, View.ld_unit_zero (S := S1x300) r15_hz]
  rw [r15_row1, r15_row2, r15_row3, r15_row4]
  obtain ⟨a0, a1, -, -, b0, b1, -⟩ := r15_idx t
  funext j
  show k15_pay2 (V c (Pipeline.arrRef spec15 2)) (iblk15 V c 0 t) (V c (Pipeline.arrRef spec15 1)) (V c (Pipeline.arrRef spec15 3))
      (V c (Pipeline.arrRef spec15 4)) j = r15_G V c (((cfg15.win 6).blk t).view.emb j)
  refine r15_point2 (iblk15 V c 0 t) (V c (Pipeline.arrRef spec15 1)) (V c (Pipeline.arrRef spec15 2)) (V c (Pipeline.arrRef spec15 3))
    (V c (Pipeline.arrRef spec15 4)) (V c (Pipeline.arrRef spec15 0)) (((cfg15.win 6).blk t).view.emb j) j ?_ ?_
  · show V c (Pipeline.arrRef spec15 0) (((cfg15.win 0).blk t).view.emb j) = V c (Pipeline.arrRef spec15 0) (((cfg15.win 6).blk t).view.emb j)
    refine congrArg _ (funext fun a => Fin.ext ?_)
    match a with
    | ⟨0, _⟩ => show win15_0.index t (0 : Fin 2) * 2000 + 1 * (j 0).val = win15_6.index t (0 : Fin 2) * 2000 + 1 * (j 0).val; rw [a0, b0]
    | ⟨1, _⟩ => show win15_0.index t (1 : Fin 2) * 300 + 1 * (j 1).val = win15_6.index t (1 : Fin 2) * 300 + 1 * (j 1).val; rw [a1, b1]
  · show win15_6.index t (1 : Fin 2) * 300 + 1 * (j 1).val = (j 1).val
    rw [b1]; omega

/-- An entry of the array is in point t's block of the first output iff each coordinate is in the block's range. -/
theorem r15_mem_blk5 (t : Fin cfg15.N) (i : S20000x300.Idx) :
    i ∈ ((cfg15.win 5).blk t).view.set ↔ ∀ a : Fin 2, win15_5.index t a * S2000x300.size a ≤ (i a).val ∧ (i a).val < win15_5.index t a * S2000x300.size a + S2000x300.size a := by
  show i ∈ ((View.whole main_v398_0).slice (win15_5.rect t)).set ↔ _
  rw [View.set_slice_whole, Rect.mem_set_unit]
  exact Iff.rfl
theorem r15_mem_blk6 (t : Fin cfg15.N) (i : S20000x300.Idx) :
    i ∈ ((cfg15.win 6).blk t).view.set ↔ ∀ a : Fin 2, win15_6.index t a * S2000x300.size a ≤ (i a).val ∧ (i a).val < win15_6.index t a * S2000x300.size a + S2000x300.size a := by
  show i ∈ ((View.whole main_v398_1).slice (win15_6.rect t)).set ↔ _
  rw [View.set_slice_whole, Rect.mem_set_unit]
  exact Iff.rfl

/-- Row r of the array is in the block of point r / 2000: the ten blocks cover the array. -/
theorem r15_cover5 (i : S20000x300.Idx) :
    ∃ t : Fin cfg15.N, (cfg15.win 5).flush t = true ∧ i ∈ ((cfg15.win 5).blk t).view.set := by
  have hi0 : (i 0).val < 20000 := (i 0).isLt
  have hi1 : (i 1).val < 300 := (i 1).isLt
  obtain ⟨t, ht⟩ : ∃ t : Fin cfg15.N, t.val = (i 0).val / 2000 :=
    ⟨⟨(i 0).val / 2000, by rw [show cfg15.N = 10 from N_15]; omega⟩, rfl⟩
  obtain ⟨-, -, b0, b1, -⟩ := r15_idx t
  refine ⟨t, flush15_5 t, ?_⟩
  rw [r15_mem_blk5]
  intro a
  match a with
  | ⟨0, _⟩ => show win15_5.index t (0 : Fin 2) * 2000 ≤ (i 0).val ∧ (i 0).val < win15_5.index t (0 : Fin 2) * 2000 + 2000; rw [b0, ht]; omega
  | ⟨1, _⟩ => show win15_5.index t (1 : Fin 2) * 300 ≤ (i 1).val ∧ (i 1).val < win15_5.index t (1 : Fin 2) * 300 + 300; rw [b1]; omega
theorem r15_cover6 (i : S20000x300.Idx) :
    ∃ t : Fin cfg15.N, (cfg15.win 6).flush t = true ∧ i ∈ ((cfg15.win 6).blk t).view.set := by
  have hi0 : (i 0).val < 20000 := (i 0).isLt
  have hi1 : (i 1).val < 300 := (i 1).isLt
  obtain ⟨t, ht⟩ : ∃ t : Fin cfg15.N, t.val = (i 0).val / 2000 :=
    ⟨⟨(i 0).val / 2000, by rw [show cfg15.N = 10 from N_15]; omega⟩, rfl⟩
  obtain ⟨-, -, -, -, b0, b1, -⟩ := r15_idx t
  refine ⟨t, flush15_6 t, ?_⟩
  rw [r15_mem_blk6]
  intro a
  match a with
  | ⟨0, _⟩ => show win15_6.index t (0 : Fin 2) * 2000 ≤ (i 0).val ∧ (i 0).val < win15_6.index t (0 : Fin 2) * 2000 + 2000; rw [b0, ht]; omega
  | ⟨1, _⟩ => show win15_6.index t (1 : Fin 2) * 300 ≤ (i 1).val ∧ (i 1).val < win15_6.index t (1 : Fin 2) * 300 + 300; rw [b1]; omega

/-- THE FIRST OUTPUT after the region: the closed form of the arrays the region found. -/
theorem arr15_5 (c : Dev nD) :
    (dat15 V c).arrAt 5 cfg15.N
      = bnReluOf (m := 20000) (n := 300) (V c (Pipeline.arrRef spec15 0)) (V c (Pipeline.arrRef spec15 1)) (V c (Pipeline.arrRef spec15 2))
          (V c (Pipeline.arrRef spec15 3)) (V c (Pipeline.arrRef spec15 4)) :=
  (dat15 V c).arrAt_eq_of_cover 5 (r15_G V c) (fun t _ => r15_flushed5 V c t) (fun i => r15_cover5 i)

/-- THE SECOND OUTPUT after the region: the same closed form. -/
theorem arr15_6 (c : Dev nD) :
    (dat15 V c).arrAt 6 cfg15.N
      = bnReluOf (m := 20000) (n := 300) (V c (Pipeline.arrRef spec15 0)) (V c (Pipeline.arrRef spec15 1)) (V c (Pipeline.arrRef spec15 2))
          (V c (Pipeline.arrRef spec15 3)) (V c (Pipeline.arrRef spec15 4)) :=
  (dat15 V c).arrAt_eq_of_cover 6 (r15_G V c) (fun t _ => r15_flushed6 V c t) (fun i => r15_cover6 i)

end Cert.KernelIdeal.RVal

end
-- ==== Proof.KernelChainL4.lean ====
/- Layer 4 of the kernel, from the buffers as the layer finds them to the buffers as it leaves them, at the exact
   extended-real values: the three host stretches and the three kernels of the layer composed. Whatever the node rows,
   their bf16 copy, the edge embedding, the edges' endpoints and the stacked parameters are where the layer begins, the
   node rows the layer leaves are ONE function (`kerLayer`) of them; what the layer does not write it keeps. -/
import proofs.«119086_j26585847562989_2_alg».proof.Proof.Gen.KernelIdeal.Frame
import Idealize.ShloMosaic.PureOps.Ideal
import proofs.«119086_j26585847562989_2_alg».proof.Proof.KernelStretch13
import proofs.«119086_j26585847562989_2_alg».proof.Proof.KernelStretch14
import proofs.«119086_j26585847562989_2_alg».proof.Proof.KernelStretch15
import proofs.«119086_j26585847562989_2_alg».proof.Proof.Region13
import proofs.«119086_j26585847562989_2_alg».proof.Proof.Region14
import proofs.«119086_j26585847562989_2_alg».proof.Proof.Region15
import proofs.«119086_j26585847562989_2_alg».proof.Proof.KernelChainDefs
import proofs.«119086_j26585847562989_2_alg».proof.Proof.KernelChainRefs

set_option maxRecDepth 16384
set_option maxHeartbeats 2000000

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (ρ : Dev nD → PrngReg) (c : Dev nD)

/-! ## What the layer keeps -/

/-- Through the first stretch and the first kernel. -/
theorem keep4_a (b : Ref sig .tc) (h1 : b ∉ writes13) (a1 : ∀ w, Pipeline.arrRef spec13 w ≠ b) :
    W28 (F := Ideal) m ρ c (Proc.devRef .tc b) = W26 m ρ c (Proc.devRef .tc b) :=
  (W28_of_ne m ρ c b a1).trans (st13_keep (W26 m ρ c) b h1)

/-- Through the first two stretches and the first two kernels. -/
theorem keep4_b (b : Ref sig .tc) (h1 : b ∉ writes13) (h2 : b ∉ writes14)
    (a1 : ∀ w, Pipeline.arrRef spec13 w ≠ b) (a2 : ∀ w, Pipeline.arrRef spec14 w ≠ b) :
    W30 (F := Ideal) m ρ c (Proc.devRef .tc b) = W26 m ρ c (Proc.devRef .tc b) :=
  (W30_of_ne m ρ c b a2).trans ((st14_keep (W28 m ρ c) b h2).trans (keep4_a m ρ c b h1 a1))

/-- Through the whole layer. -/
theorem keep4 (b : Ref sig .tc) (h1 : b ∉ writes13) (h2 : b ∉ writes14) (h3 : b ∉ writes15)
    (a1 : ∀ w, Pipeline.arrRef spec13 w ≠ b) (a2 : ∀ w, Pipeline.arrRef spec14 w ≠ b)
    (a3 : ∀ w, Pipeline.arrRef spec15 w ≠ b) :
    W32 (F := Ideal) m ρ c (Proc.devRef .tc b) = W26 m ρ c (Proc.devRef .tc b) :=
  (W32_of_ne m ρ c b a3).trans ((st15_keep (W30 m ρ c) b h3).trans (keep4_b m ρ c b h1 h2 a1 a2))

/-- The edge embedding, the endpoints and the argument arrays are after the layer as before it. -/
theorem l4_keeps (b : Ref sig .tc) (hb : b ∈ keptRefs) : W32 (F := Ideal) m ρ c (Proc.devRef .tc b) = W26 m ρ c (Proc.devRef .tc b) := by
  simp only [keptRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl
  all_goals exact keep4 m ρ c _ (by decide) (by decide) (by decide) (by decide) (by decide) (by decide)

/-! ## The three kernels' outputs, each over whatever the buffers hold where its stage begins -/

/-- The first dense stage. -/
theorem l4_z1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W26 (F := Ideal) m ρ c (Proc.devRef .tc main_v321_0) = H) (hHb : W26 (F := Ideal) m ρ c (Proc.devRef .tc main_v321_1) = Hb) (hEa : W26 (F := Ideal) m ρ c (Proc.devRef .tc main_v13) = Ea)
    (hSr : W26 (F := Ideal) m ρ c (Proc.devRef .tc main_v1) = Sr) (hDs : W26 (F := Ideal) m ρ c (Proc.devRef .tc main_v3) = Ds) (h7 : W26 (F := Ideal) m ρ c (Proc.devRef .tc main_arg7) = a7) (h8 : W26 (F := Ideal) m ρ c (Proc.devRef .tc main_arg8) = a8)
    (h9 : W26 (F := Ideal) m ρ c (Proc.devRef .tc main_arg9) = a9) :
    W28 (F := Ideal) m ρ c (Proc.devRef .tc main_v347_0)
    = RVal.z1Of H (aggregate (F := Ideal) Hb Ea Sr Ds) (scaleRow (F := Ideal) a7 ![4] slices_S5_S1_4) (layerMat (F := Ideal) a8 ![4, 0, 0] slices_S5x300x300_S1x300x300_4_0_0)
        (rowOf (F := Ideal) (layerVec (F := Ideal) a9 ![4, 0] slices_S5x300_S1x300_4_0)) := by
  subst hH hHb hEa hSr hDs h7 h8 h9
  have e0 : V27 (F := Ideal) m ρ c (Pipeline.arrRef spec13 0) = W26 m ρ c (Proc.devRef .tc main_v321_0) := st13_keep (W26 m ρ c) main_v321_0 (by decide)
  exact ((W28_arr m ρ c 5).trans (RVal.arr13_5 (V27 m ρ) c)).trans
    (congr (congr (congr (congr (congrArg RVal.z1Of e0) (st13_v336 (W26 m ρ c))) (st13_v341 (W26 m ρ c)))
      (st13_v343 (W26 m ρ c))) (st13_v346 (W26 m ρ c)))

/-- Its per-tile column sums and sums of squares. -/
theorem l4_p1 {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    (hH : W26 (F := Ideal) m ρ c (Proc.devRef .tc main_v321_0) = H) (hHb : W26 (F := Ideal) m ρ c (Proc.devRef .tc main_v321_1) = Hb) (hEa : W26 (F := Ideal) m ρ c (Proc.devRef .tc main_v13) = Ea)
    (hSr : W26 (F := Ideal) m ρ c (Proc.devRef .tc main_v1) = Sr) (hDs : W26 (F := Ideal) m ρ c (Proc.devRef .tc main_v3) = Ds) (h7 : W26 (F := Ideal) m ρ c (Proc.devRef .tc main_arg7) = a7) (h8 : W26 (F := Ideal) m ρ c (Proc.devRef .tc main_arg8) = a8)
    (h9 : W26 (F := Ideal) m ρ c (Proc.devRef .tc main_arg9) = a9) :
    W28 (F := Ideal) m ρ c (Proc.devRef .tc main_v347_1)
    = RVal.tileStats (RVal.z1Of H (aggregate (F := Ideal) Hb Ea Sr Ds) (scaleRow (F := Ideal) a7 ![4] slices_S5_S1_4) (layerMat (F := Ideal) a8 ![4, 0, 0] slices_S5x300x300_S1x300x300_4_0_0)
        (rowOf (F := Ideal) (layerVec (F := Ideal) a9 ![4, 0] slices_S5x300_S1x300_4_0))) :=
  (W28_arr m ρ c 6).trans ((RVal.arr13_6 (V27 m ρ) c).trans
    (congrArg RVal.tileStats ((((W28_arr m ρ c 5).trans (RVal.arr13_5 (V27 m ρ) c)).symm).trans
      (l4_z1 m ρ c hH hHb hEa hSr hDs h7 h8 h9))))

/-- The normalised second dense stage. -/
theorem l4_z2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W28 (F := Ideal) m ρ c (Proc.devRef .tc main_v347_0) = Z1) (hP1 : W28 (F := Ideal) m ρ c (Proc.devRef .tc main_v347_1) = P1)
    (h10 : W28 (F := Ideal) m ρ c (Proc.devRef .tc main_arg10) = a10) (h11 : W28 (F := Ideal) m ρ c (Proc.devRef .tc main_arg11) = a11) (h12 : W28 (F := Ideal) m ρ c (Proc.devRef .tc main_arg12) = a12)
    (h13 : W28 (F := Ideal) m ρ c (Proc.devRef .tc main_arg13) = a13) :
    W30 (F := Ideal) m ρ c (Proc.devRef .tc main_v375_0)
    = RVal.z2Of Z1 (rowOf (F := Ideal) (bnMean (F := Ideal) P1)) (rowOf (F := Ideal) (bnVar (F := Ideal) P1))
        (rowOf (F := Ideal) (layerVec (F := Ideal) a10 ![4, 0] slices_S5x300_S1x300_4_0)) (rowOf (F := Ideal) (layerVec (F := Ideal) a11 ![4, 0] slices_S5x300_S1x300_4_0))
        (layerMat (F := Ideal) a12 ![4, 0, 0] slices_S5x300x300_S1x300x300_4_0_0) (rowOf (F := Ideal) (layerVec (F := Ideal) a13 ![4, 0] slices_S5x300_S1x300_4_0)) := by
  subst hZ1 hP1 h10 h11 h12 h13
  have e0 : V29 (F := Ideal) m ρ c (Pipeline.arrRef spec14 0) = W28 m ρ c (Proc.devRef .tc main_v347_0) := st14_keep (W28 m ρ c) main_v347_0 (by decide)
  exact ((W30_arr m ρ c 7).trans (RVal.arr14_7 (V29 m ρ) c)).trans
    (congr (congr (congr (congr (congr (congr (congrArg RVal.z2Of e0) (st14_v370 (W28 m ρ c))) (st14_v371 (W28 m ρ c)))
      (st14_v372 (W28 m ρ c))) (st14_v373 (W28 m ρ c))) (st14_v367 (W28 m ρ c))) (st14_v374 (W28 m ρ c)))

/-- Its per-tile column sums and sums of squares. -/
theorem l4_p2 {Z1 : FVec Ideal S20000x300 .f32} {P1 : FVec Ideal S10x2x300 .f32} {a10 a11 : FVec Ideal S5x300 .f32} {a12 : FVec Ideal S5x300x300 .f32} {a13 : FVec Ideal S5x300 .f32}
    (hZ1 : W28 (F := Ideal) m ρ c (Proc.devRef .tc main_v347_0) = Z1) (hP1 : W28 (F := Ideal) m ρ c (Proc.devRef .tc main_v347_1) = P1)
    (h10 : W28 (F := Ideal) m ρ c (Proc.devRef .tc main_arg10) = a10) (h11 : W28 (F := Ideal) m ρ c (Proc.devRef .tc main_arg11) = a11) (h12 : W28 (F := Ideal) m ρ c (Proc.devRef .tc main_arg12) = a12)
    (h13 : W28 (F := Ideal) m ρ c (Proc.devRef .tc main_arg13) = a13) :
    W30 (F := Ideal) m ρ c (Proc.devRef .tc main_v375_1)
    = RVal.tileStats (RVal.z2Of Z1 (rowOf (F := Ideal) (bnMean (F := Ideal) P1)) (rowOf (F := Ideal) (bnVar (F := Ideal) P1))
        (rowOf (F := Ideal) (layerVec (F := Ideal) a10 ![4, 0] slices_S5x300_S1x300_4_0)) (rowOf (F := Ideal) (layerVec (F := Ideal) a11 ![4, 0] slices_S5x300_S1x300_4_0))
        (layerMat (F := Ideal) a12 ![4, 0, 0] slices_S5x300x300_S1x300x300_4_0_0) (rowOf (F := Ideal) (layerVec (F := Ideal) a13 ![4, 0] slices_S5x300_S1x300_4_0))) :=
  (W30_arr m ρ c 8).trans ((RVal.arr14_8 (V29 m ρ) c).trans
    (congrArg RVal.tileStats ((((W30_arr m ρ c 7).trans (RVal.arr14_7 (V29 m ρ) c)).symm).trans
      (l4_z2 m ρ c hZ1 hP1 h10 h11 h12 h13))))

/-- The last normalisation and clamp: the node rows. -/
theorem l4_out0 {Z2 : FVec Ideal S20000x300 .f32} {P2 : FVec Ideal S10x2x300 .f32} {a14 a15 : FVec Ideal S5x300 .f32}
    (hZ2 : W30 (F := Ideal) m ρ c (Proc.devRef .tc main_v375_0) = Z2) (hP2 : W30 (F := Ideal) m ρ c (Proc.devRef .tc main_v375_1) = P2)
    (h14 : W30 (F := Ideal) m ρ c (Proc.devRef .tc main_arg14) = a14) (h15 : W30 (F := Ideal) m ρ c (Proc.devRef .tc main_arg15) = a15) :
    W32 (F := Ideal) m ρ c (Proc.devRef .tc main_v398_0)
    = RVal.bnReluOf (m := 20000) (n := 300) Z2 (rowOf (F := Ideal) (bnMean (F := Ideal) P2))
        (rowOf (F := Ideal) (bnVar (F := Ideal) P2)) (rowOf (F := Ideal) (layerVec (F := Ideal) a14 ![4, 0] slices_S5x300_S1x300_4_0))
        (rowOf (F := Ideal) (layerVec (F := Ideal) a15 ![4, 0] slices_S5x300_S1x300_4_0)) := by
  subst hZ2 hP2 h14 h15
  have e0 : V31 (F := Ideal) m ρ c (Pipeline.arrRef spec15 0) = W30 m ρ c (Proc.devRef .tc main_v375_0) := st15_keep (W30 m ρ c) main_v375_0 (by decide)
  exact ((W32_arr m ρ c 5).trans (RVal.arr15_5 (V31 m ρ) c)).trans
    (congr (congr (congr (congr (congrArg (RVal.bnReluOf (m := 20000) (n := 300)) e0) (st15_v394 (W30 m ρ c))) (st15_v395 (W30 m ρ c)))
      (st15_v396 (W30 m ρ c))) (st15_v397 (W30 m ρ c)))

/-- The same for the copy in the bf16-typed buffer. -/
theorem l4_out1 {Z2 : FVec Ideal S20000x300 .f32} {P2 : FVec Ideal S10x2x300 .f32} {a14 a15 : FVec Ideal S5x300 .f32}
    (hZ2 : W30 (F := Ideal) m ρ c (Proc.devRef .tc main_v375_0) = Z2) (hP2 : W30 (F := Ideal) m ρ c (Proc.devRef .tc main_v375_1) = P2)
    (h14 : W30 (F := Ideal) m ρ c (Proc.devRef .tc main_arg14) = a14) (h15 : W30 (F := Ideal) m ρ c (Proc.devRef .tc main_arg15) = a15) :
    W32 (F := Ideal) m ρ c (Proc.devRef .tc main_v398_1)
    = RVal.bnReluOf (m := 20000) (n := 300) Z2 (rowOf (F := Ideal) (bnMean (F := Ideal) P2))
        (rowOf (F := Ideal) (bnVar (F := Ideal) P2)) (rowOf (F := Ideal) (layerVec (F := Ideal) a14 ![4, 0] slices_S5x300_S1x300_4_0))
        (rowOf (F := Ideal) (layerVec (F := Ideal) a15 ![4, 0] slices_S5x300_S1x300_4_0)) := by
  subst hZ2 hP2 h14 h15
  have e0 : V31 (F := Ideal) m ρ c (Pipeline.arrRef spec15 0) = W30 m ρ c (Proc.devRef .tc main_v375_0) := st15_keep (W30 m ρ c) main_v375_0 (by decide)
  exact ((W32_arr m ρ c 6).trans (RVal.arr15_6 (V31 m ρ) c)).trans
    (congr (congr (congr (congr (congrArg (RVal.bnReluOf (m := 20000) (n := 300)) e0) (st15_v394 (W30 m ρ c))) (st15_v395 (W30 m ρ c)))
      (st15_v396 (W30 m ρ c))) (st15_v397 (W30 m ρ c)))

/-! ## The layer as one function of what the buffers hold where it begins -/

/-- The node rows the layer leaves. -/
theorem l4_h {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W26 (F := Ideal) m ρ c (Proc.devRef .tc main_v321_0) = H) (hHb : W26 (F := Ideal) m ρ c (Proc.devRef .tc main_v321_1) = Hb) (hEa : W26 (F := Ideal) m ρ c (Proc.devRef .tc main_v13) = Ea)
    (hSr : W26 (F := Ideal) m ρ c (Proc.devRef .tc main_v1) = Sr) (hDs : W26 (F := Ideal) m ρ c (Proc.devRef .tc main_v3) = Ds) (h7 : W26 (F := Ideal) m ρ c (Proc.devRef .tc main_arg7) = a7) (h8 : W26 (F := Ideal) m ρ c (Proc.devRef .tc main_arg8) = a8)
    (h9 : W26 (F := Ideal) m ρ c (Proc.devRef .tc main_arg9) = a9)
    (h10 : W26 (F := Ideal) m ρ c (Proc.devRef .tc main_arg10) = a10) (h11 : W26 (F := Ideal) m ρ c (Proc.devRef .tc main_arg11) = a11) (h12 : W26 (F := Ideal) m ρ c (Proc.devRef .tc main_arg12) = a12)
    (h13 : W26 (F := Ideal) m ρ c (Proc.devRef .tc main_arg13) = a13) (h14 : W26 (F := Ideal) m ρ c (Proc.devRef .tc main_arg14) = a14) (h15 : W26 (F := Ideal) m ρ c (Proc.devRef .tc main_arg15) = a15) :
    W32 (F := Ideal) m ρ c (Proc.devRef .tc main_v398_0)
    = kerLayer H Hb Ea Sr Ds (scaleRow (F := Ideal) a7 ![4] slices_S5_S1_4) (layerMat (F := Ideal) a8 ![4, 0, 0] slices_S5x300x300_S1x300x300_4_0_0)
        (layerVec (F := Ideal) a9 ![4, 0] slices_S5x300_S1x300_4_0) (layerVec (F := Ideal) a10 ![4, 0] slices_S5x300_S1x300_4_0) (layerVec (F := Ideal) a11 ![4, 0] slices_S5x300_S1x300_4_0)
        (layerMat (F := Ideal) a12 ![4, 0, 0] slices_S5x300x300_S1x300x300_4_0_0) (layerVec (F := Ideal) a13 ![4, 0] slices_S5x300_S1x300_4_0) (layerVec (F := Ideal) a14 ![4, 0] slices_S5x300_S1x300_4_0)
        (layerVec (F := Ideal) a15 ![4, 0] slices_S5x300_S1x300_4_0) :=
  l4_out0 m ρ c
    (l4_z2 m ρ c (l4_z1 m ρ c hH hHb hEa hSr hDs h7 h8 h9) (l4_p1 m ρ c hH hHb hEa hSr hDs h7 h8 h9)
      ((keep4_a m ρ c main_arg10 (by decide) (by decide)).trans h10) ((keep4_a m ρ c main_arg11 (by decide) (by decide)).trans h11)
      ((keep4_a m ρ c main_arg12 (by decide) (by decide)).trans h12) ((keep4_a m ρ c main_arg13 (by decide) (by decide)).trans h13))
    (l4_p2 m ρ c (l4_z1 m ρ c hH hHb hEa hSr hDs h7 h8 h9) (l4_p1 m ρ c hH hHb hEa hSr hDs h7 h8 h9)
      ((keep4_a m ρ c main_arg10 (by decide) (by decide)).trans h10) ((keep4_a m ρ c main_arg11 (by decide) (by decide)).trans h11)
      ((keep4_a m ρ c main_arg12 (by decide) (by decide)).trans h12) ((keep4_a m ρ c main_arg13 (by decide) (by decide)).trans h13))
    ((keep4_b m ρ c main_arg14 (by decide) (by decide) (by decide) (by decide)).trans h14)
    ((keep4_b m ρ c main_arg15 (by decide) (by decide) (by decide) (by decide)).trans h15)

/-- Their copy in the bf16-typed buffer: the same array. -/
theorem l4_hb {H : FVec Ideal S20000x300 .f32} {Hb : FVec Ideal S20000x300 .bf16} {Ea : FVec Ideal S320000x300 .bf16} {Sr Ds : IVec S320000 32} {a7 : FVec Ideal S5 .f32} {a8 : FVec Ideal S5x300x300 .f32} {a9 : FVec Ideal S5x300 .f32}
    {a10 a11 : FVec Ideal S5x300 .f32} {a12 : FVec Ideal S5x300x300 .f32} {a13 a14 a15 : FVec Ideal S5x300 .f32}
    (hH : W26 (F := Ideal) m ρ c (Proc.devRef .tc main_v321_0) = H) (hHb : W26 (F := Ideal) m ρ c (Proc.devRef .tc main_v321_1) = Hb) (hEa : W26 (F := Ideal) m ρ c (Proc.devRef .tc main_v13) = Ea)
    (hSr : W26 (F := Ideal) m ρ c (Proc.devRef .tc main_v1) = Sr) (hDs : W26 (F := Ideal) m ρ c (Proc.devRef .tc main_v3) = Ds) (h7 : W26 (F := Ideal) m ρ c (Proc.devRef .tc main_arg7) = a7) (h8 : W26 (F := Ideal) m ρ c (Proc.devRef .tc main_arg8) = a8)
    (h9 : W26 (F := Ideal) m ρ c (Proc.devRef .tc main_arg9) = a9)
    (h10 : W26 (F := Ideal) m ρ c (Proc.devRef .tc main_arg10) = a10) (h11 : W26 (F := Ideal) m ρ c (Proc.devRef .tc main_arg11) = a11) (h12 : W26 (F := Ideal) m ρ c (Proc.devRef .tc main_arg12) = a12)
    (h13 : W26 (F := Ideal) m ρ c (Proc.devRef .tc main_arg13) = a13) (h14 : W26 (F := Ideal) m ρ c (Proc.devRef .tc main_arg14) = a14) (h15 : W26 (F := Ideal) m ρ c (Proc.devRef .tc main_arg15) = a15) :
    W32 (F := Ideal) m ρ c (Proc.devRef .tc main_v398_1)
    = kerLayer H Hb Ea Sr Ds (scaleRow (F := Ideal) a7 ![4] slices_S5_S1_4) (layerMat (F := Ideal) a8 ![4, 0, 0] slices_S5x300x300_S1x300x300_4_0_0)
        (layerVec (F := Ideal) a9 ![4, 0] slices_S5x300_S1x300_4_0) (layerVec (F := Ideal) a10 ![4, 0] slices_S5x300_S1x300_4_0) (layerVec (F := Ideal) a11 ![4, 0] slices_S5x300_S1x300_4_0)
        (layerMat (F := Ideal) a12 ![4, 0, 0] slices_S5x300x300_S1x300x300_4_0_0) (layerVec (F := Ideal) a13 ![4, 0] slices_S5x300_S1x300_4_0) (layerVec (F := Ideal) a14 ![4, 0] slices_S5x300_S1x300_4_0)
        (layerVec (F := Ideal) a15 ![4, 0] slices_S5x300_S1x300_4_0) :=
  l4_out1 m ρ c
    (l4_z2 m ρ c (l4_z1 m ρ c hH hHb hEa hSr hDs h7 h8 h9) (l4_p1 m ρ c hH hHb hEa hSr hDs h7 h8 h9)
      ((keep4_a m ρ c main_arg10 (by decide) (by decide)).trans h10) ((keep4_a m ρ c main_arg11 (by decide) (by decide)).trans h11)
      ((keep4_a m ρ c main_arg12 (by decide) (by decide)).trans h12) ((keep4_a m ρ c main_arg13 (by decide) (by decide)).trans h13))
    (l4_p2 m ρ c (l4_z1 m ρ c hH hHb hEa hSr hDs h7 h8 h9) (l4_p1 m ρ c hH hHb hEa hSr hDs h7 h8 h9)
      ((keep4_a m ρ c main_arg10 (by decide) (by decide)).trans h10) ((keep4_a m ρ c main_arg11 (by decide) (by decide)).trans h11)
      ((keep4_a m ρ c main_arg12 (by decide) (by decide)).trans h12) ((keep4_a m ρ c main_arg13 (by decide) (by decide)).trans h13))
    ((keep4_b m ρ c main_arg14 (by decide) (by decide) (by decide) (by decide)).trans h14)
    ((keep4_b m ρ c main_arg15 (by decide) (by decide) (by decide) (by decide)).trans h15)

end Cert.KernelIdeal.KChain

end
-- ==== Proof.KernelStretch16.lean ====
/- The last three host stretches of the kernel's @main (after the last kernel), read from ANY contents `W` of the
   buffers: the mean of the node rows per graph followed by the hidden dense layer; its clamp at zero; the last dense
   layer, whose value is the program's result. Every buffer a stretch does not write it leaves as it found it. -/
import proofs.«119086_j26585847562989_2_alg».proof.Proof.Gen.KernelIdeal.Launch
import proofs.«119086_j26585847562989_2_alg».proof.Proof.KernelStretchDefs
import Idealize.ShloMosaic.Lib.StableHlo.Run

set_option maxRecDepth 16384

noncomputable section

namespace Cert.KernelIdeal.KStretch

open Idealize.ShloMosaic Idealize.ShloMosaic.TcCoe
open Cert.KernelIdeal.Gen

variable {F : FTy → Type} [FloatOps F]

/-- The hidden layer of the readout, before its clamp. -/
theorem st16_v414 (W : Valuation τ sig (Elt F)) :
    StableHlo.after hostOps16 W (Proc.devRef .tc main_v414)
      = headHidden (W (Proc.devRef .tc main_v398_0)) (W (Proc.devRef .tc main_arg2)) (W (Proc.devRef .tc main_arg16)) (W (Proc.devRef .tc main_arg17)) := by
  simp only [hostOps16]; after_results; rfl

/-- The references the stretch writes, in order. -/
def writes16 : List (Ref sig .tc) :=
  [main_cst_75, main_v399, main_cst_76, main_v400, main_v401, main_v402, main_cst_77, main_v403, main_v404, main_v405, main_cst_78, main_v406, main_v407, main_v408, main_v409, main_v410, main_v411, main_v412, main_v413, main_v414]

/-- A buffer the stretch does not write keeps its contents. -/
theorem st16_keep (W : Valuation τ sig (Elt F)) (r : Ref sig .tc) (hr : r ∉ writes16) :
    StableHlo.after hostOps16 W (Proc.devRef .tc r) = W (Proc.devRef .tc r) :=
  StableHlo.after_of_writes_sub hostOps16 W (by
    simp only [hostOps16, writes16, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

/-- The clamped hidden layer. -/
theorem st16_1_v415 (W : Valuation τ sig (Elt F)) :
    StableHlo.after hostOps16_1 W (Proc.devRef .tc main_v415)
      = headClamp (W (Proc.devRef .tc main_v414)) := by
  simp only [hostOps16_1]; after_results; rfl

/-- The references the stretch writes, in order. -/
def writes16_1 : List (Ref sig .tc) :=
  [main_call0_cst, main_call0_v0, main_v415]

/-- A buffer the stretch does not write keeps its contents. -/
theorem st16_1_keep (W : Valuation τ sig (Elt F)) (r : Ref sig .tc) (hr : r ∉ writes16_1) :
    StableHlo.after hostOps16_1 W (Proc.devRef .tc r) = W (Proc.devRef .tc r) :=
  StableHlo.after_of_writes_sub hostOps16_1 W (by
    simp only [hostOps16_1, writes16_1, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

/-- The result: the last dense layer. -/
theorem st16_2_v419 (W : Valuation τ sig (Elt F)) :
    StableHlo.after hostOps16_2 W (Proc.devRef .tc main_v419)
      = headOut (W (Proc.devRef .tc main_v415)) (W (Proc.devRef .tc main_arg18)) (W (Proc.devRef .tc main_arg19)) := by
  simp only [hostOps16_2]; after_results; rfl

/-- The references the stretch writes, in order. -/
def writes16_2 : List (Ref sig .tc) :=
  [main_v416, main_v417, main_v418, main_v419]

/-- A buffer the stretch does not write keeps its contents. -/
theorem st16_2_keep (W : Valuation τ sig (Elt F)) (r : Ref sig .tc) (hr : r ∉ writes16_2) :
    StableHlo.after hostOps16_2 W (Proc.devRef .tc r) = W (Proc.devRef .tc r) :=
  StableHlo.after_of_writes_sub hostOps16_2 W (by
    simp only [hostOps16_2, writes16_2, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map.mpr ⟨_, by decide, rfl⟩))) hr

end Cert.KernelIdeal.KStretch

end
-- ==== Proof.KernelChainTail.lean ====
/- The end of the kernel's @main, at the exact extended-real values: the program's result in terms of the buffers as the last
   layer leaves them — the mean of the node rows per graph, the hidden dense layer, its clamp at zero, the last dense layer. -/
import proofs.«119086_j26585847562989_2_alg».proof.Proof.Gen.KernelIdeal.Frame
import Idealize.ShloMosaic.PureOps.Ideal
import proofs.«119086_j26585847562989_2_alg».proof.Proof.KernelStretch16

set_option maxRecDepth 16384

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (ρ : Dev nD → PrngReg) (c : Dev nD)

/-- A buffer none of the last three stretches writes is at the end as the last layer left it. -/
theorem tail_keep (b : Ref sig .tc) (h : b ∉ writes16) (h1 : b ∉ writes16_1) (h2 : b ∉ writes16_2) :
    W35 (F := Ideal) m ρ c (Proc.devRef .tc b) = W32 m ρ c (Proc.devRef .tc b) :=
  (st16_2_keep (W34 m ρ c) b h2).trans ((st16_1_keep (W33 m ρ c) b h1).trans (st16_keep (W32 m ρ c) b h))

/-- The program's result. -/
theorem tail_result : W35 (F := Ideal) m ρ c (Proc.devRef .tc main_v419)
    = headOut (F := Ideal)
        (headClamp (F := Ideal) (headHidden (F := Ideal) (W32 m ρ c (Proc.devRef .tc main_v398_0)) (W32 m ρ c (Proc.devRef .tc main_arg2)) (W32 m ρ c (Proc.devRef .tc main_arg16)) (W32 m ρ c (Proc.devRef .tc main_arg17))))
        (W32 m ρ c (Proc.devRef .tc main_arg18)) (W32 m ρ c (Proc.devRef .tc main_arg19)) := by
  have e1 : W33 (F := Ideal) m ρ c (Proc.devRef .tc main_v414)
      = headHidden (F := Ideal) (W32 m ρ c (Proc.devRef .tc main_v398_0)) (W32 m ρ c (Proc.devRef .tc main_arg2)) (W32 m ρ c (Proc.devRef .tc main_arg16)) (W32 m ρ c (Proc.devRef .tc main_arg17)) := st16_v414 (W32 m ρ c)
  have e2 : W34 (F := Ideal) m ρ c (Proc.devRef .tc main_v415) = headClamp (F := Ideal) (W33 m ρ c (Proc.devRef .tc main_v414)) := st16_1_v415 (W33 m ρ c)
  have e3 : W35 (F := Ideal) m ρ c (Proc.devRef .tc main_v419)
      = headOut (F := Ideal) (W34 m ρ c (Proc.devRef .tc main_v415)) (W34 m ρ c (Proc.devRef .tc main_arg18)) (W34 m ρ c (Proc.devRef .tc main_arg19)) := st16_2_v419 (W34 m ρ c)
  have k18 : W34 (F := Ideal) m ρ c (Proc.devRef .tc main_arg18) = W32 m ρ c (Proc.devRef .tc main_arg18) :=
    (st16_1_keep (W33 m ρ c) main_arg18 (by decide)).trans (st16_keep (W32 m ρ c) main_arg18 (by decide))
  have k19 : W34 (F := Ideal) m ρ c (Proc.devRef .tc main_arg19) = W32 m ρ c (Proc.devRef .tc main_arg19) :=
    (st16_1_keep (W33 m ρ c) main_arg19 (by decide)).trans (st16_keep (W32 m ρ c) main_arg19 (by decide))
  rw [e3, e2, e1, k18, k19]

/-- The program's result over whatever the last layer's node rows and the readout's parameters are where the readout begins. -/
theorem tail_value {H5 : FVec Ideal S20000x300 .f32} {g : IVec S20000 32} {w1 : FVec Ideal S300x150 .f32} {b1 : FVec Ideal S150 .f32}
    {w2 : FVec Ideal S150x6 .f32} {b2 : FVec Ideal S6 .f32}
    (hH : W32 (F := Ideal) m ρ c (Proc.devRef .tc main_v398_0) = H5) (hg : W32 (F := Ideal) m ρ c (Proc.devRef .tc main_arg2) = g)
    (h16 : W32 (F := Ideal) m ρ c (Proc.devRef .tc main_arg16) = w1) (h17 : W32 (F := Ideal) m ρ c (Proc.devRef .tc main_arg17) = b1)
    (h18 : W32 (F := Ideal) m ρ c (Proc.devRef .tc main_arg18) = w2) (h19 : W32 (F := Ideal) m ρ c (Proc.devRef .tc main_arg19) = b2) :
    W35 (F := Ideal) m ρ c (Proc.devRef .tc main_v419)
    = headOut (F := Ideal) (headClamp (F := Ideal) (headHidden (F := Ideal) H5 g w1 b1)) w2 b2 := by
  subst hH hg h16 h17 h18 h19
  exact tail_result m ρ c

end Cert.KernelIdeal.KChain

end
-- ==== Proof.KernelValueDefs.lean ====
/- The kernel's result as ONE function of the launch memory's argument arrays, at the exact extended-real values: the node
   embedding, five graph layers (each the function `kerLayer` at the layer's slices of the stacked parameters, over the
   one edge embedding and the edges' endpoints), and the readout. -/
import proofs.«119086_j26585847562989_2_alg».proof.Proof.KernelChainDefs

set_option maxRecDepth 16384

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (c : Dev nD)

/-- The edge embedding: the affine image of the edge features. -/
def kerEdge : FVec Ideal S320000x300 .bf16 :=
  RVal.edgeEncOf (m := 320000) (k := 7) (n := 300) (m ((c : Thread nD τ).loc main_arg3)) (m ((c : Thread nD τ).loc main_arg5)) (rowOf (F := Ideal) (m ((c : Thread nD τ).loc main_arg6)))

/-- The edges' sources and destinations. -/
def kerSrc : IVec S320000 32 := edgeRow (F := Ideal) (m ((c : Thread nD τ).loc main_arg1)) ![0, 0] slices_S2x320000_S1x320000_0_0
def kerDst : IVec S320000 32 := edgeRow (F := Ideal) (m ((c : Thread nD τ).loc main_arg1)) ![1, 0] slices_S2x320000_S1x320000_1_0

/-- One layer at given slices of the stacked parameters. -/
def kerLayerAt (o1 : Fin S5.rank → Nat) (p1 : S5.Slices o1 S1) (o2 : Fin S5x300.rank → Nat) (p2 : S5x300.Slices o2 S1x300)
    (o3 : Fin S5x300x300.rank → Nat) (p3 : S5x300x300.Slices o3 S1x300x300)
    (h : FVec Ideal S20000x300 .f32) (hb : FVec Ideal S20000x300 .bf16) : FVec Ideal S20000x300 .f32 :=
  kerLayer h hb (kerEdge m c) (kerSrc m c) (kerDst m c)
    (scaleRow (F := Ideal) (m ((c : Thread nD τ).loc main_arg7)) o1 p1) (layerMat (F := Ideal) (m ((c : Thread nD τ).loc main_arg8)) o3 p3)
    (layerVec (F := Ideal) (m ((c : Thread nD τ).loc main_arg9)) o2 p2) (layerVec (F := Ideal) (m ((c : Thread nD τ).loc main_arg10)) o2 p2)
    (layerVec (F := Ideal) (m ((c : Thread nD τ).loc main_arg11)) o2 p2) (layerMat (F := Ideal) (m ((c : Thread nD τ).loc main_arg12)) o3 p3)
    (layerVec (F := Ideal) (m ((c : Thread nD τ).loc main_arg13)) o2 p2) (layerVec (F := Ideal) (m ((c : Thread nD τ).loc main_arg14)) o2 p2)
    (layerVec (F := Ideal) (m ((c : Thread nD τ).loc main_arg15)) o2 p2)

/-- The node rows before the first layer (the embedding) and after each of the five layers. From the second layer on, the
    bf16-typed copy a layer reads is the same array. -/
def kerH0 : FVec Ideal S20000x300 .f32 := nodeEmbed (F := Ideal) (m ((c : Thread nD τ).loc main_arg4)) (m ((c : Thread nD τ).loc main_arg0))
def kerH1 : FVec Ideal S20000x300 .f32 :=
  kerLayerAt m c ![0] slices_S5_S1_0 ![0, 0] slices_S5x300_S1x300_0_0 ![0, 0, 0] slices_S5x300x300_S1x300x300_0_0_0 (kerH0 m c) (truncf .bf16 (kerH0 m c) bitsLt_bf16_f32)
def kerH2 : FVec Ideal S20000x300 .f32 := kerLayerAt m c ![1] slices_S5_S1_1 ![1, 0] slices_S5x300_S1x300_1_0 ![1, 0, 0] slices_S5x300x300_S1x300x300_1_0_0 (kerH1 m c) (kerH1 m c)
def kerH3 : FVec Ideal S20000x300 .f32 := kerLayerAt m c ![2] slices_S5_S1_2 ![2, 0] slices_S5x300_S1x300_2_0 ![2, 0, 0] slices_S5x300x300_S1x300x300_2_0_0 (kerH2 m c) (kerH2 m c)
def kerH4 : FVec Ideal S20000x300 .f32 := kerLayerAt m c ![3] slices_S5_S1_3 ![3, 0] slices_S5x300_S1x300_3_0 ![3, 0, 0] slices_S5x300x300_S1x300x300_3_0_0 (kerH3 m c) (kerH3 m c)
def kerH5 : FVec Ideal S20000x300 .f32 := kerLayerAt m c ![4] slices_S5_S1_4 ![4, 0] slices_S5x300_S1x300_4_0 ![4, 0, 0] slices_S5x300x300_S1x300x300_4_0_0 (kerH4 m c) (kerH4 m c)

/-- The kernel's result: the readout of the node rows after the fifth layer. -/
def kerResult : FVec Ideal S128x6 .f32 :=
  headOut (F := Ideal) (headClamp (F := Ideal) (headHidden (F := Ideal) (kerH5 m c) (m ((c : Thread nD τ).loc main_arg2)) (m ((c : Thread nD τ).loc main_arg16)) (m ((c : Thread nD τ).loc main_arg17)))) (m ((c : Thread nD τ).loc main_arg18)) (m ((c : Thread nD τ).loc main_arg19))

end Cert.KernelIdeal.KChain

end
-- ==== Proof.KernelValue.lean ====
/- The kernel's result in terms of the launch memory, at the exact extended-real values: the contents of the result buffer
   where @main ends are the readout of five graph layers applied to the node embedding, every quantity read from the
   argument arrays as launched. Layer by layer: where a layer begins, the node rows are the previous layers' function of
   the launch memory, and the edge embedding, the endpoints and the argument arrays are as the first layer found them. -/
import proofs.«119086_j26585847562989_2_alg».proof.Proof.Gen.KernelIdeal.Frame
import Idealize.ShloMosaic.PureOps.Ideal
import proofs.«119086_j26585847562989_2_alg».proof.Proof.KernelChainPre
import proofs.«119086_j26585847562989_2_alg».proof.Proof.KernelChainL0
import proofs.«119086_j26585847562989_2_alg».proof.Proof.KernelChainL1
import proofs.«119086_j26585847562989_2_alg».proof.Proof.KernelChainL2
import proofs.«119086_j26585847562989_2_alg».proof.Proof.KernelChainL3
import proofs.«119086_j26585847562989_2_alg».proof.Proof.KernelChainL4
import proofs.«119086_j26585847562989_2_alg».proof.Proof.KernelChainTail
import proofs.«119086_j26585847562989_2_alg».proof.Proof.KernelValueDefs

set_option maxRecDepth 16384
set_option maxHeartbeats 2000000

noncomputable section

namespace Cert.KernelIdeal.KChain

open Idealize.ShloMosaic Idealize.ShloMosaic.TcCoe Idealize.SL.Sem
open Cert.KernelIdeal.Gen Cert.KernelIdeal.KStretch

variable (m : (ℓ : Loc nD τ sig) → Buf (Elt Ideal) ℓ) (ρ : Dev nD → PrngReg) (c : Dev nD)

/-! ## The argument arrays, the edge embedding and the endpoints at each layer boundary -/

/-- Where the first layer begins, the parameters are as launched. -/
theorem at2 (b : Ref sig .tc) (hb : b ∈ paramRefs) : W2 (F := Ideal) m ρ c (Proc.devRef .tc b) = m ((c : Thread nD τ).loc b) := by
  simp only [paramRefs, List.mem_cons, List.not_mem_nil, or_false] at hb
  rcases hb with rfl | rfl | rfl | rfl | rfl | rfl | rfl | rfl | rfl | rfl | rfl | rfl | rfl | rfl
  all_goals exact pre_keep m ρ c _ (by decide) (by decide)
theorem e2 : W2 (F := Ideal) m ρ c (Proc.devRef .tc main_v13) = kerEdge m c := pre_v13 m ρ c
theorem s2 : W2 (F := Ideal) m ρ c (Proc.devRef .tc main_v1) = kerSrc m c := pre_v1 m ρ c
theorem d2 : W2 (F := Ideal) m ρ c (Proc.devRef .tc main_v3) = kerDst m c := pre_v3 m ρ c

/-- Where layer 0 ends. -/
theorem at8 (b : Ref sig .tc) (hb : b ∈ paramRefs) : W8 (F := Ideal) m ρ c (Proc.devRef .tc b) = m ((c : Thread nD τ).loc b) :=
  (l0_keeps m ρ c b (paramRefs_sub b hb)).trans (at2 m ρ c b hb)
theorem e8 : W8 (F := Ideal) m ρ c (Proc.devRef .tc main_v13) = kerEdge m c := (l0_keeps m ρ c main_v13 (by decide)).trans (e2 m ρ c)
theorem s8 : W8 (F := Ideal) m ρ c (Proc.devRef .tc main_v1) = kerSrc m c := (l0_keeps m ρ c main_v1 (by decide)).trans (s2 m ρ c)
theorem d8 : W8 (F := Ideal) m ρ c (Proc.devRef .tc main_v3) = kerDst m c := (l0_keeps m ρ c main_v3 (by decide)).trans (d2 m ρ c)

/-- Where layer 1 ends. -/
theorem at14 (b : Ref sig .tc) (hb : b ∈ paramRefs) : W14 (F := Ideal) m ρ c (Proc.devRef .tc b) = m ((c : Thread nD τ).loc b) :=
  (l1_keeps m ρ c b (paramRefs_sub b hb)).trans (at8 m ρ c b hb)
theorem e14 : W14 (F := Ideal) m ρ c (Proc.devRef .tc main_v13) = kerEdge m c := (l1_keeps m ρ c main_v13 (by decide)).trans (e8 m ρ c)
theorem s14 : W14 (F := Ideal) m ρ c (Proc.devRef .tc main_v1) = kerSrc m c := (l1_keeps m ρ c main_v1 (by decide)).trans (s8 m ρ c)
theorem d14 : W14 (F := Ideal) m ρ c (Proc.devRef .tc main_v3) = kerDst m c := (l1_keeps m ρ c main_v3 (by decide)).trans (d8 m ρ c)

/-- Where layer 2 ends. -/
theorem at20 (b : Ref sig .tc) (hb : b ∈ paramRefs) : W20 (F := Ideal) m ρ c (Proc.devRef .tc b) = m ((c : Thread nD τ).loc b) :=
  (l2_keeps m ρ c b (paramRefs_sub b hb)).trans (at14 m ρ c b hb)
theorem e20 : W20 (F := Ideal) m ρ c (Proc.devRef .tc main_v13) = kerEdge m c := (l2_keeps m ρ c main_v13 (by decide)).trans (e14 m ρ c)
theorem s20 : W20 (F := Ideal) m ρ c (Proc.devRef .tc main_v1) = kerSrc m c := (l2_keeps m ρ c main_v1 (by decide)).trans (s14 m ρ c)
theorem d20 : W20 (F := Ideal) m ρ c (Proc.devRef .tc main_v3) = kerDst m c := (l2_keeps m ρ c main_v3 (by decide)).trans (d14 m ρ c)

/-- Where layer 3 ends. -/
theorem at26 (b : Ref sig .tc) (hb : b ∈ paramRefs) : W26 (F := Ideal) m ρ c (Proc.devRef .tc b) = m ((c : Thread nD τ).loc b) :=
  (l3_keeps m ρ c b (paramRefs_sub b hb)).trans (at20 m ρ c b hb)
theorem e26 : W26 (F := Ideal) m ρ c (Proc.devRef .tc main_v13) = kerEdge m c := (l3_keeps m ρ c main_v13 (by decide)).trans (e20 m ρ c)
theorem s26 : W26 (F := Ideal) m ρ c (Proc.devRef .tc main_v1) = kerSrc m c := (l3_keeps m ρ c main_v1 (by decide)).trans (s20 m ρ c)
theorem d26 : W26 (F := Ideal) m ρ c (Proc.devRef .tc main_v3) = kerDst m c := (l3_keeps m ρ c main_v3 (by decide)).trans (d20 m ρ c)

/-- Where layer 4 ends. -/
theorem at32 (b : Ref sig .tc) (hb : b ∈ paramRefs) : W32 (F := Ideal) m ρ c (Proc.devRef .tc b) = m ((c : Thread nD τ).loc b) :=
  (l4_keeps m ρ c b (paramRefs_sub b hb)).trans (at26 m ρ c b hb)
theorem e32 : W32 (F := Ideal) m ρ c (Proc.devRef .tc main_v13) = kerEdge m c := (l4_keeps m ρ c main_v13 (by decide)).trans (e26 m ρ c)
theorem s32 : W32 (F := Ideal) m ρ c (Proc.devRef .tc main_v1) = kerSrc m c := (l4_keeps m ρ c main_v1 (by decide)).trans (s26 m ρ c)
theorem d32 : W32 (F := Ideal) m ρ c (Proc.devRef .tc main_v3) = kerDst m c := (l4_keeps m ρ c main_v3 (by decide)).trans (d26 m ρ c)

/-! ## The node rows at each layer boundary -/

theorem h2 : W2 (F := Ideal) m ρ c (Proc.devRef .tc main_v10) = kerH0 m c := pre_v10 m ρ c
theorem hb2 : W2 (F := Ideal) m ρ c (Proc.devRef .tc main_v11) = (truncf .bf16 (kerH0 m c) bitsLt_bf16_f32 : FVec Ideal S20000x300 .bf16) := pre_v11 m ρ c

/-- After layer 0: the node rows, and their copy in the bf16-typed buffer. -/
theorem h8 : W8 (F := Ideal) m ρ c (Proc.devRef .tc main_v90_0) = kerH1 m c :=
  l0_h m ρ c (h2 m ρ c) (hb2 m ρ c) (e2 m ρ c) (s2 m ρ c) (d2 m ρ c)
    (at2 m ρ c main_arg7 (by decide))
    (at2 m ρ c main_arg8 (by decide))
    (at2 m ρ c main_arg9 (by decide))
    (at2 m ρ c main_arg10 (by decide))
    (at2 m ρ c main_arg11 (by decide))
    (at2 m ρ c main_arg12 (by decide))
    (at2 m ρ c main_arg13 (by decide))
    (at2 m ρ c main_arg14 (by decide))
    (at2 m ρ c main_arg15 (by decide))
theorem hb8 : W8 (F := Ideal) m ρ c (Proc.devRef .tc main_v90_1) = kerH1 m c :=
  l0_hb m ρ c (h2 m ρ c) (hb2 m ρ c) (e2 m ρ c) (s2 m ρ c) (d2 m ρ c)
    (at2 m ρ c main_arg7 (by decide))
    (at2 m ρ c main_arg8 (by decide))
    (at2 m ρ c main_arg9 (by decide))
    (at2 m ρ c main_arg10 (by decide))
    (at2 m ρ c main_arg11 (by decide))
    (at2 m ρ c main_arg12 (by decide))
    (at2 m ρ c main_arg13 (by decide))
    (at2 m ρ c main_arg14 (by decide))
    (at2 m ρ c main_arg15 (by decide))

/-- After layer 1: the node rows, and their copy in the bf16-typed buffer. -/
theorem h14 : W14 (F := Ideal) m ρ c (Proc.devRef .tc main_v167_0) = kerH2 m c :=
  l1_h m ρ c (h8 m ρ c) (hb8 m ρ c) (e8 m ρ c) (s8 m ρ c) (d8 m ρ c)
    (at8 m ρ c main_arg7 (by decide))
    (at8 m ρ c main_arg8 (by decide))
    (at8 m ρ c main_arg9 (by decide))
    (at8 m ρ c main_arg10 (by decide))
    (at8 m ρ c main_arg11 (by decide))
    (at8 m ρ c main_arg12 (by decide))
    (at8 m ρ c main_arg13 (by decide))
    (at8 m ρ c main_arg14 (by decide))
    (at8 m ρ c main_arg15 (by decide))
theorem hb14 : W14 (F := Ideal) m ρ c (Proc.devRef .tc main_v167_1) = kerH2 m c :=
  l1_hb m ρ c (h8 m ρ c) (hb8 m ρ c) (e8 m ρ c) (s8 m ρ c) (d8 m ρ c)
    (at8 m ρ c main_arg7 (by decide))
    (at8 m ρ c main_arg8 (by decide))
    (at8 m ρ c main_arg9 (by decide))
    (at8 m ρ c main_arg10 (by decide))
    (at8 m ρ c main_arg11 (by decide))
    (at8 m ρ c main_arg12 (by decide))
    (at8 m ρ c main_arg13 (by decide))
    (at8 m ρ c main_arg14 (by decide))
    (at8 m ρ c main_arg15 (by decide))

/-- After layer 2: the node rows, and their copy in the bf16-typed buffer. -/
theorem h20 : W20 (F := Ideal) m ρ c (Proc.devRef .tc main_v244_0) = kerH3 m c :=
  l2_h m ρ c (h14 m ρ c) (hb14 m ρ c) (e14 m ρ c) (s14 m ρ c) (d14 m ρ c)
    (at14 m ρ c main_arg7 (by decide))
    (at14 m ρ c main_arg8 (by decide))
    (at14 m ρ c main_arg9 (by decide))
    (at14 m ρ c main_arg10 (by decide))
    (at14 m ρ c main_arg11 (by decide))
    (at14 m ρ c main_arg12 (by decide))
    (at14 m ρ c main_arg13 (by decide))
    (at14 m ρ c main_arg14 (by decide))
    (at14 m ρ c main_arg15 (by decide))
theorem hb20 : W20 (F := Ideal) m ρ c (Proc.devRef .tc main_v244_1) = kerH3 m c :=
  l2_hb m ρ c (h14 m ρ c) (hb14 m ρ c) (e14 m ρ c) (s14 m ρ c) (d14 m ρ c)
    (at14 m ρ c main_arg7 (by decide))
    (at14 m ρ c main_arg8 (by decide))
    (at14 m ρ c main_arg9 (by decide))
    (at14 m ρ c main_arg10 (by decide))
    (at14 m ρ c main_arg11 (by decide))
    (at14 m ρ c main_arg12 (by decide))
    (at14 m ρ c main_arg13 (by decide))
    (at14 m ρ c main_arg14 (by decide))
    (at14 m ρ c main_arg15 (by decide))

/-- After layer 3: the node rows, and their copy in the bf16-typed buffer. -/
theorem h26 : W26 (F := Ideal) m ρ c (Proc.devRef .tc main_v321_0) = kerH4 m c :=
  l3_h m ρ c (h20 m ρ c) (hb20 m ρ c) (e20 m ρ c) (s20 m ρ c) (d20 m ρ c)
    (at20 m ρ c main_arg7 (by decide))
    (at20 m ρ c main_arg8 (by decide))
    (at20 m ρ c main_arg9 (by decide))
    (at20 m ρ c main_arg10 (by decide))
    (at20 m ρ c main_arg11 (by decide))
    (at20 m ρ c main_arg12 (by decide))
    (at20 m ρ c main_arg13 (by decide))
    (at20 m ρ c main_arg14 (by decide))
    (at20 m ρ c main_arg15 (by decide))
theorem hb26 : W26 (F := Ideal) m ρ c (Proc.devRef .tc main_v321_1) = kerH4 m c :=
  l3_hb m ρ c (h20 m ρ c) (hb20 m ρ c) (e20 m ρ c) (s20 m ρ c) (d20 m ρ c)
    (at20 m ρ c main_arg7 (by decide))
    (at20 m ρ c main_arg8 (by decide))
    (at20 m ρ c main_arg9 (by decide))
    (at20 m ρ c main_arg10 (by decide))
    (at20 m ρ c main_arg11 (by decide))
    (at20 m ρ c main_arg12 (by decide))
    (at20 m ρ c main_arg13 (by decide))
    (at20 m ρ c main_arg14 (by decide))
    (at20 m ρ c main_arg15 (by decide))

/-- After layer 4: the node rows, and their copy in the bf16-typed buffer. -/
theorem h32 : W32 (F := Ideal) m ρ c (Proc.devRef .tc main_v398_0) = kerH5 m c :=
  l4_h m ρ c (h26 m ρ c) (hb26 m ρ c) (e26 m ρ c) (s26 m ρ c) (d26 m ρ c)
    (at26 m ρ c main_arg7 (by decide))
    (at26 m ρ c main_arg8 (by decide))
    (at26 m ρ c main_arg9 (by decide))
    (at26 m ρ c main_arg10 (by decide))
    (at26 m ρ c main_arg11 (by decide))
    (at26 m ρ c main_arg12 (by decide))
    (at26 m ρ c main_arg13 (by decide))
    (at26 m ρ c main_arg14 (by decide))
    (at26 m ρ c main_arg15 (by decide))
theorem hb32 : W32 (F := Ideal) m ρ c (Proc.devRef .tc main_v398_1) = kerH5 m c :=
  l4_hb m ρ c (h26 m ρ c) (hb26 m ρ c) (e26 m ρ c) (s26 m ρ c) (d26 m ρ c)
    (at26 m ρ c main_arg7 (by decide))
    (at26 m ρ c main_arg8 (by decide))
    (at26 m ρ c main_arg9 (by decide))
    (at26 m ρ c main_arg10 (by decide))
    (at26 m ρ c main_arg11 (by decide))
    (at26 m ρ c main_arg12 (by decide))
    (at26 m ρ c main_arg13 (by decide))
    (at26 m ρ c main_arg14 (by decide))
    (at26 m ρ c main_arg15 (by decide))

/-! ## The result -/

/-- The result buffer where @main ends holds the kernel's function of the launch memory. -/
theorem kernel_value : W35 (F := Ideal) m ρ c (Proc.devRef .tc main_v419) = kerResult m c :=
  tail_value m ρ c (h32 m ρ c) (at32 m ρ c main_arg2 (by decide)) (at32 m ρ c main_arg16 (by decide)) (at32 m ρ c main_arg17 (by decide)) (at32 m ρ c main_arg18 (by decide)) (at32 m ρ c main_arg19 (by decide))

end Cert.KernelIdeal.KChain

end
-- ==== Proof.RefValueDefs.lean ====
/- What one stage of the reference network computes, as functions of the arrays it reads (definitions only; that the
   program's stages leave these values in their result buffers is RefValue.lean).

   A message-passing layer takes the node features h (20000 × 300), the edge encoding ea (320000 × 300) and the edges' endpoint
   lists src, dst. Each edge's message is max (h[src] + ea, 0), a negative source index counting from the end; the messages are
   summed at their targets into a zero array; the sum joins (1 + eps) · h; a dense layer x · W + b follows; then batch
   normalisation over the 20000 rows — the column mean Σ z / 20000, the column variance as the mean of the squared deviations
   from the mean (its divisor 20000 − 0 guarded by a test that it is positive, the not-a-number word otherwise), the
   normalised value (z − mean) · rsqrt (var + 1e-5) · g + be — and a clamp at zero; then a second dense layer, normalisation
   and clamp. The parameters of layer L are row L of the stacked parameter arrays. -/
import proofs.«119086_j26585847562989_2_alg».proof.Proof.Gen.ReferenceIdeal

noncomputable section

namespace Cert.ReferenceIdeal.RVal

open Cert.ReferenceIdeal Cert.ReferenceIdeal.Gen Idealize.ShloMosaic

variable {F : FTy → Type} [FloatOps F]

-- the contents of a buffer of shape S and element type e
set_option quotPrecheck false in
local notation "C[" S ", " e "]" => (⟨S, e⟩ : BufTy).Contents (Elt F)

/-! ## The prologue -/

/-- Row 0 of the edge list: the source of each edge. -/
def srcOf (ei : C[S2x320000, .i32]) : C[S320000, .i32] :=
  shapeCast S320000 (extractStridedSlice S1x320000 ![0, 0] ei slices_S2x320000_S1x320000_0_0) shapeCasts_S1x320000_S320000

/-- Row 1 of the edge list: the target of each edge. -/
def dstOf (ei : C[S2x320000, .i32]) : C[S320000, .i32] :=
  shapeCast S320000 (extractStridedSlice S1x320000 ![1, 0] ei slices_S2x320000_S1x320000_1_0) shapeCasts_S1x320000_S320000

/-- The node embedding: row x[n] of the 119-row table, a negative index counting from the end. -/
def embed (tbl : C[S119x300, .f32]) (x : C[S20000, .i32]) : C[S20000x300, .f32] :=
  Host.gather gather_S119x300_S20000x1_S20000x300_1_0_n_n_0_1_1300 tbl
    (broadcastInDim S20000x1 ![0] bcast_S20000_S20000x1_0
      (select (cmpi .slt x (broadcastInDim S20000 ![] bcast_S_S20000 (constantI S_ 32 0#32)))
        (addi x (broadcastInDim S20000 ![] bcast_S_S20000 (constantI S_ 32 119#32))) x))

/-- The edge encoding: the edge attributes through a dense layer 7 → 300. -/
def encodeEdges (attr : C[S320000x7, .f32]) (We : C[S7x300, .f32]) (be : C[S300, .f32]) : C[S320000x300, .f32] :=
  addf (Host.dotGeneral dot_S320000x7_S7x300_S320000x300_1_0_0_1_n_n none attr We)
    (broadcastInDim S320000x300 ![0, 1] bcast_S1x300_S320000x300_0_1 (broadcastInDim S1x300 ![1] bcast_S300_S1x300_1 be))

/-! ## One layer -/

/-- The clamp at zero, on node arrays and on edge arrays. -/
def reluN (x : C[S20000x300, .f32]) : C[S20000x300, .f32] :=
  maximumf x (broadcastInDim S20000x300 ![] bcast_S_S20000x300 (constant S_ .f32 0x00000000#32))

@[inherit_doc reluN]
def reluE (x : C[S320000x300, .f32]) : C[S320000x300, .f32] :=
  maximumf x (broadcastInDim S320000x300 ![] bcast_S_S320000x300 (constant S_ .f32 0x00000000#32))

/-- The source indices as a column of gather indices, a negative one counting from the end. -/
def wrapSrc (src : C[S320000, .i32]) : C[S320000x1, .i32] :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 20000#32))) src)

/-- The messages: the source's features plus the edge's encoding, clamped. -/
def messages (h : C[S20000x300, .f32]) (ea : C[S320000x300, .f32]) (src : C[S320000, .i32]) : C[S320000x300, .f32] :=
  reluE (addf (Host.gather gather_S20000x300_S320000x1_S320000x300_1_0_n_n_0_1_1300 h (wrapSrc src)) ea)

/-- The messages summed at their targets, into a zero array. -/
def aggregate (h : C[S20000x300, .f32]) (ea : C[S320000x300, .f32]) (src dst : C[S320000, .i32]) : C[S20000x300, .f32] :=
  Host.scatterAdd scatter_S20000x300_S320000x1_S320000x300_1_0_0_1
    (broadcastInDim S20000x300 ![] bcast_S_S20000x300 (constant S_ .f32 0x00000000#32))
    (broadcastInDim S320000x1 ![0] bcast_S320000_S320000x1_0 dst) (messages h ea src)

/-- (1 + eps) · h + agg. -/
def combine (eps : C[S_, .f32]) (h agg : C[S20000x300, .f32]) : C[S20000x300, .f32] :=
  addf (mulf (broadcastInDim S20000x300 ![] bcast_S_S20000x300 (addf (constant S_ .f32 0x3F800000#32) eps)) h) agg

/-- A 300-vector copied down the 20000 rows. -/
def downRows (b : C[S300, .f32]) : C[S20000x300, .f32] :=
  broadcastInDim S20000x300 ![0, 1] bcast_S1x300_S20000x300_0_1 (broadcastInDim S1x300 ![1] bcast_S300_S1x300_1 b)

/-- A dense layer x · W + b. -/
def dense (x : C[S20000x300, .f32]) (W : C[S300x300, .f32]) (b : C[S300, .f32]) : C[S20000x300, .f32] :=
  addf (Host.dotGeneral dot_S20000x300_S300x300_S20000x300_1_0_0_1_n_n none x W) (downRows b)

/-- The column mean: the sum down the rows over the row count. -/
def colMean (z : C[S20000x300, .f32]) : C[S300, .f32] :=
  Host.divf (Host.reduceAdd z (constant S_ .f32 0x00000000#32) reducesTo_S20000x300_S300_d0 h_S_)
    (broadcastInDim S300 ![] bcast_S_S300 (constant S_ .f32 0x469C4000#32))

/-- The deviations from the column mean, as the variance routine forms them. -/
def deviations (z : C[S20000x300, .f32]) : C[S20000x300, .f32] :=
  subf z (broadcastInDim S20000x300 ![0, 1] bcast_S1x300_S20000x300_0_1
    (Host.divf (broadcastInDim S1x300 ![1] bcast_S300_S1x300_1 (Host.reduceAdd z (constant S_ .f32 0x00000000#32) reducesTo_S20000x300_S300_d0 h_S_))
      (broadcastInDim S1x300 ![] bcast_S_S1x300 (constant S_ .f32 0x469C4000#32))))

/-- The column variance: the mean of the squared deviations, the divisor the row count less the integer zero, the quotient
    guarded by a test that this divisor is positive. -/
def colVar (z : C[S20000x300, .f32]) : C[S300, .f32] :=
  select (broadcastInDim S300 ![] bcast_S_S300
      (cmpf .ogt (subf (constant (F := F) S_ .f32 0x469C4000#32) (sitofp .f32 (constantI S_ 32 0#32))) (constant (F := F) S_ .f32 0x00000000#32)))
    (Host.divf (Host.reduceAdd (mulf (deviations z) (deviations z)) (constant S_ .f32 0x00000000#32) reducesTo_S20000x300_S300_d0 h_S_)
      (broadcastInDim S300 ![] bcast_S_S300 (subf (constant S_ .f32 0x469C4000#32) (sitofp .f32 (constantI S_ 32 0#32)))))
    (broadcastInDim S300 ![] bcast_S_S300 (constant S_ .f32 0x7FC00000#32))

/-- Batch normalisation with scale g and shift be, then the clamp at zero. -/
def bnRelu (z : C[S20000x300, .f32]) (g be : C[S300, .f32]) : C[S20000x300, .f32] :=
  maximumf
    (addf (mulf (mulf (subf z (downRows (colMean z)))
        (downRows (Host.rsqrt (addf (colVar z) (broadcastInDim S300 ![] bcast_S_S300 (constant S_ .f32 0x3727C5AC#32))))))
      (downRows g)) (downRows be))
    (broadcastInDim S20000x300 ![] bcast_S_S20000x300 (constant S_ .f32 0x00000000#32))

/-- One layer: aggregate, combine, dense, normalise and clamp, dense, normalise and clamp. -/
def refLayer (h : C[S20000x300, .f32]) (ea : C[S320000x300, .f32]) (src dst : C[S320000, .i32]) (eps : C[S_, .f32])
    (W1 : C[S300x300, .f32]) (b1 g1 be1 : C[S300, .f32]) (W2 : C[S300x300, .f32]) (b2 g2 be2 : C[S300, .f32]) : C[S20000x300, .f32] :=
  bnRelu (dense (bnRelu (dense (combine eps h (aggregate h ea src dst)) W1 b1) g1 be1) W2 b2) g2 be2

/-! ## A layer's parameters: one row of the stacked arrays -/

/-- Entry o of the five eps values, as a scalar. -/
def epsAt (o : Nat) (a : C[S5, .f32]) (hs : S5.Slices ![o] S1) : C[S_, .f32] :=
  shapeCast S_ (extractStridedSlice S1 ![o] a hs) shapeCasts_S1_S_

/-- Matrix o of the five stacked 300 × 300 matrices. -/
def matAt (o : Nat) (a : C[S5x300x300, .f32]) (hs : S5x300x300.Slices ![o, 0, 0] S1x300x300) : C[S300x300, .f32] :=
  shapeCast S300x300 (extractStridedSlice S1x300x300 ![o, 0, 0] a hs) shapeCasts_S1x300x300_S300x300

/-- Row o of the five stacked 300-vectors. -/
def rowAt (o : Nat) (a : C[S5x300, .f32]) (hs : S5x300.Slices ![o, 0] S1x300) : C[S300, .f32] :=
  shapeCast S300 (extractStridedSlice S1x300 ![o, 0] a hs) shapeCasts_S1x300_S300

/-! ## The pooling and classifier -/

/-- The mean of the node features over each of the 128 graphs (a graph's node count at least one), through a dense layer
    300 → 150, the clamp, and a dense layer 150 → 6. -/
def refTail (h : C[S20000x300, .f32]) (batch : C[S20000, .i32]) (Wa : C[S300x150, .f32]) (ba : C[S150, .f32])
    (Wb : C[S150x6, .f32]) (bb : C[S6, .f32]) : C[S128x6, .f32] :=
  addf
    (Host.dotGeneral dot_S128x150_S150x6_S128x6_1_0_0_1_n_n none
      (maximumf
        (addf
          (Host.dotGeneral dot_S128x300_S300x150_S128x150_1_0_0_1_n_n none
            (Host.divf
              (Host.scatterAdd scatter_S128x300_S20000x1_S20000x300_1_0_0_1
                (broadcastInDim S128x300 ![] bcast_S_S128x300 (constant S_ .f32 0x00000000#32))
                (broadcastInDim S20000x1 ![0] bcast_S20000_S20000x1_0 batch) h)
              (broadcastInDim S128x300 ![0, 1] bcast_S128x1_S128x300_0_1
                (broadcastInDim S128x1 ![0] bcast_S128_S128x1_0
                  (maximumf
                    (Host.scatterAdd scatter_S128_S20000x1_S20000_n_0_0_1
                      (broadcastInDim S128 ![] bcast_S_S128 (constant S_ .f32 0x00000000#32))
                      (broadcastInDim S20000x1 ![0] bcast_S20000_S20000x1_0 batch)
                      (broadcastInDim S20000 ![] bcast_S_S20000 (constant S_ .f32 0x3F800000#32)))
                    (broadcastInDim S128 ![] bcast_S_S128 (constant S_ .f32 0x3F800000#32))))))
            Wa)
          (broadcastInDim S128x150 ![0, 1] bcast_S1x150_S128x150_0_1 (broadcastInDim S1x150 ![1] bcast_S150_S1x150_1 ba)))
        (broadcastInDim S128x150 ![] bcast_S_S128x150 (constant S_ .f32 0x00000000#32)))
      Wb)
    (broadcastInDim S128x6 ![0, 1] bcast_S1x6_S128x6_0_1 (broadcastInDim S1x6 ![1] bcast_S6_S1x6_1 bb))

end Cert.ReferenceIdeal.RVal

end
-- ==== Proof.RefValueDefs2.lean ====
/- The reference network as one function of the contents of @main's argument buffers (definitions only; that the program
   leaves this value in its result buffer is RefValue.lean): the endpoint lists, the node embedding and the edge encoding read
   off the arguments; five layers, layer L taking row L of each stacked parameter array; the pooling and classifier. -/
import proofs.«119086_j26585847562989_2_alg».proof.Proof.RefValueDefs

noncomputable section

namespace Cert.ReferenceIdeal.RVal

open Cert.ReferenceIdeal Cert.ReferenceIdeal.Gen Idealize.ShloMosaic Idealize.ShloMosaic.TcCoe

variable {F : FTy → Type} [FloatOps F]

/-- The edges' sources, read off the edge list. -/
def refSrc (V : Valuation τ sig (Elt F)) : (⟨S320000, .i32⟩ : BufTy).Contents (Elt F) := srcOf (V (main_arg1 : DevRef τ sig))

/-- The edges' targets, read off the edge list. -/
def refDst (V : Valuation τ sig (Elt F)) : (⟨S320000, .i32⟩ : BufTy).Contents (Elt F) := dstOf (V (main_arg1 : DevRef τ sig))

/-- The node embedding. -/
def refH0 (V : Valuation τ sig (Elt F)) : (⟨S20000x300, .f32⟩ : BufTy).Contents (Elt F) :=
  embed (V (main_arg4 : DevRef τ sig)) (V (main_arg0 : DevRef τ sig))

/-- The edge encoding. -/
def refEdge (V : Valuation τ sig (Elt F)) : (⟨S320000x300, .f32⟩ : BufTy).Contents (Elt F) :=
  encodeEdges (V (main_arg3 : DevRef τ sig)) (V (main_arg5 : DevRef τ sig)) (V (main_arg6 : DevRef τ sig))

/-- Layer o on node features h: the layer function at the arguments' edge data and at row o of each stacked parameter array. -/
def refLayerAt (V : Valuation τ sig (Elt F)) (o : Nat) (h1 : S5.Slices ![o] S1) (h2 : S5x300.Slices ![o, 0] S1x300)
    (h3 : S5x300x300.Slices ![o, 0, 0] S1x300x300) (h : (⟨S20000x300, .f32⟩ : BufTy).Contents (Elt F)) :
    (⟨S20000x300, .f32⟩ : BufTy).Contents (Elt F) :=
  refLayer h (refEdge V) (refSrc V) (refDst V) (epsAt o (V (main_arg7 : DevRef τ sig)) h1)
    (matAt o (V (main_arg8 : DevRef τ sig)) h3) (rowAt o (V (main_arg9 : DevRef τ sig)) h2)
    (rowAt o (V (main_arg10 : DevRef τ sig)) h2) (rowAt o (V (main_arg11 : DevRef τ sig)) h2)
    (matAt o (V (main_arg12 : DevRef τ sig)) h3) (rowAt o (V (main_arg13 : DevRef τ sig)) h2)
    (rowAt o (V (main_arg14 : DevRef τ sig)) h2) (rowAt o (V (main_arg15 : DevRef τ sig)) h2)

/-- The node features after layers 0, …, 4. -/
def refH1 (V : Valuation τ sig (Elt F)) : (⟨S20000x300, .f32⟩ : BufTy).Contents (Elt F) :=
  refLayerAt V 0 slices_S5_S1_0 slices_S5x300_S1x300_0_0 slices_S5x300x300_S1x300x300_0_0_0 (refH0 V)
@[inherit_doc refH1]
def refH2 (V : Valuation τ sig (Elt F)) : (⟨S20000x300, .f32⟩ : BufTy).Contents (Elt F) :=
  refLayerAt V 1 slices_S5_S1_1 slices_S5x300_S1x300_1_0 slices_S5x300x300_S1x300x300_1_0_0 (refH1 V)
@[inherit_doc refH1]
def refH3 (V : Valuation τ sig (Elt F)) : (⟨S20000x300, .f32⟩ : BufTy).Contents (Elt F) :=
  refLayerAt V 2 slices_S5_S1_2 slices_S5x300_S1x300_2_0 slices_S5x300x300_S1x300x300_2_0_0 (refH2 V)
@[inherit_doc refH1]
def refH4 (V : Valuation τ sig (Elt F)) : (⟨S20000x300, .f32⟩ : BufTy).Contents (Elt F) :=
  refLayerAt V 3 slices_S5_S1_3 slices_S5x300_S1x300_3_0 slices_S5x300x300_S1x300x300_3_0_0 (refH3 V)
@[inherit_doc refH1]
def refH5 (V : Valuation τ sig (Elt F)) : (⟨S20000x300, .f32⟩ : BufTy).Contents (Elt F) :=
  refLayerAt V 4 slices_S5_S1_4 slices_S5x300_S1x300_4_0 slices_S5x300x300_S1x300x300_4_0_0 (refH4 V)

/-- The network's result: the pooling and classifier on the last layer's features. -/
def refResult (V : Valuation τ sig (Elt F)) : (⟨S128x6, .f32⟩ : BufTy).Contents (Elt F) :=
  refTail (refH5 V) (V (main_arg2 : DevRef τ sig)) (V (main_arg16 : DevRef τ sig)) (V (main_arg17 : DevRef τ sig))
    (V (main_arg18 : DevRef τ sig)) (V (main_arg19 : DevRef τ sig))

end Cert.ReferenceIdeal.RVal

end
-- ==== Proof.RefValuePre.lean ====
/- What the reference's prologue leaves in the four buffers the layers read: the edges' sources and targets (the two rows of the
   edge list), the node embedding (a row of the table per node, a negative index counting from the end) and the edge encoding
   (a dense layer on the edge attributes). The fold of the prologue's operations unrolls into the composed term of the
   arguments' contents. -/
import proofs.«119086_j26585847562989_2_alg».proof.Proof.RefOpsPre
import proofs.«119086_j26585847562989_2_alg».proof.Proof.RefValueDefs
import Idealize.ShloMosaic.Lib.StableHlo.Run

noncomputable section

namespace Cert.ReferenceIdeal.RVal

open Cert.ReferenceIdeal Cert.ReferenceIdeal.Gen Cert.ReferenceIdeal.RRun Idealize.ShloMosaic Idealize.ShloMosaic.TcCoe Idealize.SL.Sem Idealize.ShloMosaic.StableHlo

variable {F : FTy → Type} [FloatOps F]

theorem pre_src (W : Valuation τ sig (Elt F)) :
    after opsPre W (main_v1 : DevRef τ sig) = srcOf (W (main_arg1 : DevRef τ sig)) := by
  simp only [opsPre, seg0]
  after_results_simp
  rfl

theorem pre_dst (W : Valuation τ sig (Elt F)) :
    after opsPre W (main_v3 : DevRef τ sig) = dstOf (W (main_arg1 : DevRef τ sig)) := by
  simp only [opsPre, seg0]
  after_results_simp
  rfl

attribute [local irreducible] Host.gather in
theorem pre_h0 (W : Valuation τ sig (Elt F)) :
    after opsPre W (main_v10 : DevRef τ sig) = embed (W (main_arg4 : DevRef τ sig)) (W (main_arg0 : DevRef τ sig)) := by
  simp only [opsPre, seg0]
  after_results_simp
  rfl

theorem pre_ea (W : Valuation τ sig (Elt F)) :
    after opsPre W (main_v14 : DevRef τ sig)
      = encodeEdges (W (main_arg3 : DevRef τ sig)) (W (main_arg5 : DevRef τ sig)) (W (main_arg6 : DevRef τ sig)) := by
  simp only [opsPre, seg0]
  after_results_simp
  rfl

end Cert.ReferenceIdeal.RVal

end
-- ==== Proof.RefValueL0.lean ====
/- What layer 0 of the reference leaves in its result buffer: the fold of the layer's operations, read at the buffer of its last
   clamp, is the layer function of RefValueDefs.lean applied to what the valuation holds at the buffers the layer reads — the
   incoming node features, the edge encoding, the endpoint lists, and row 0 of each stacked parameter array. Each operation's
   result at its own buffer is its function of its operands' contents and every other buffer is untouched, so the fold unrolls
   into the composed term; the typed references' casts are the identity at literal references, and the rest is the definitions
   unfolded. -/
import proofs.«119086_j26585847562989_2_alg».proof.Proof.RefOpsL0
import proofs.«119086_j26585847562989_2_alg».proof.Proof.RefValueDefs
import Idealize.ShloMosaic.Lib.StableHlo.Run

noncomputable section

namespace Cert.ReferenceIdeal.RVal

open Cert.ReferenceIdeal Cert.ReferenceIdeal.Gen Cert.ReferenceIdeal.RRun Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 1600000 in
theorem layer0_h (W : Valuation τ sig (Elt F)) :
    after opsLayer0 W (main_v96 : DevRef τ sig)
      = refLayer (W (main_v10 : DevRef τ sig)) (W (main_v14 : DevRef τ sig)) (W (main_v1 : DevRef τ sig)) (W (main_v3 : DevRef τ sig))
          (epsAt 0 (W (main_arg7 : DevRef τ sig)) slices_S5_S1_0)
          (matAt 0 (W (main_arg8 : DevRef τ sig)) slices_S5x300x300_S1x300x300_0_0_0)
          (rowAt 0 (W (main_arg9 : DevRef τ sig)) slices_S5x300_S1x300_0_0)
          (rowAt 0 (W (main_arg10 : DevRef τ sig)) slices_S5x300_S1x300_0_0)
          (rowAt 0 (W (main_arg11 : DevRef τ sig)) slices_S5x300_S1x300_0_0)
          (matAt 0 (W (main_arg12 : DevRef τ sig)) slices_S5x300x300_S1x300x300_0_0_0)
          (rowAt 0 (W (main_arg13 : DevRef τ sig)) slices_S5x300_S1x300_0_0)
          (rowAt 0 (W (main_arg14 : DevRef τ sig)) slices_S5x300_S1x300_0_0)
          (rowAt 0 (W (main_arg15 : DevRef τ sig)) slices_S5x300_S1x300_0_0) := by
  simp only [opsLayer0, seg1, seg2, List.cons_append, List.nil_append]
  after_results_simp
  rfl

end Cert.ReferenceIdeal.RVal

end
-- ==== Proof.RefValueL1.lean ====
/- What layer 1 of the reference leaves in its result buffer: the fold of the layer's operations, read at the buffer of its last
   clamp, is the layer function of RefValueDefs.lean applied to what the valuation holds at the buffers the layer reads — the
   incoming node features, the edge encoding, the endpoint lists, and row 1 of each stacked parameter array. Each operation's
   result at its own buffer is its function of its operands' contents and every other buffer is untouched, so the fold unrolls
   into the composed term; the typed references' casts are the identity at literal references, and the rest is the definitions
   unfolded. -/
import proofs.«119086_j26585847562989_2_alg».proof.Proof.RefOpsL1
import proofs.«119086_j26585847562989_2_alg».proof.Proof.RefValueDefs
import Idealize.ShloMosaic.Lib.StableHlo.Run

noncomputable section

namespace Cert.ReferenceIdeal.RVal

open Cert.ReferenceIdeal Cert.ReferenceIdeal.Gen Cert.ReferenceIdeal.RRun Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 1600000 in
theorem layer1_h (W : Valuation τ sig (Elt F)) :
    after opsLayer1 W (main_v178 : DevRef τ sig)
      = refLayer (W (main_v96 : DevRef τ sig)) (W (main_v14 : DevRef τ sig)) (W (main_v1 : DevRef τ sig)) (W (main_v3 : DevRef τ sig))
          (epsAt 1 (W (main_arg7 : DevRef τ sig)) slices_S5_S1_1)
          (matAt 1 (W (main_arg8 : DevRef τ sig)) slices_S5x300x300_S1x300x300_1_0_0)
          (rowAt 1 (W (main_arg9 : DevRef τ sig)) slices_S5x300_S1x300_1_0)
          (rowAt 1 (W (main_arg10 : DevRef τ sig)) slices_S5x300_S1x300_1_0)
          (rowAt 1 (W (main_arg11 : DevRef τ sig)) slices_S5x300_S1x300_1_0)
          (matAt 1 (W (main_arg12 : DevRef τ sig)) slices_S5x300x300_S1x300x300_1_0_0)
          (rowAt 1 (W (main_arg13 : DevRef τ sig)) slices_S5x300_S1x300_1_0)
          (rowAt 1 (W (main_arg14 : DevRef τ sig)) slices_S5x300_S1x300_1_0)
          (rowAt 1 (W (main_arg15 : DevRef τ sig)) slices_S5x300_S1x300_1_0) := by
  simp only [opsLayer1, seg3, seg4, seg5, List.cons_append, List.nil_append]
  after_results_simp
  rfl

end Cert.ReferenceIdeal.RVal

end
-- ==== Proof.RefValueL2.lean ====
/- What layer 2 of the reference leaves in its result buffer: the fold of the layer's operations, read at the buffer of its last
   clamp, is the layer function of RefValueDefs.lean applied to what the valuation holds at the buffers the layer reads — the
   incoming node features, the edge encoding, the endpoint lists, and row 2 of each stacked parameter array. Each operation's
   result at its own buffer is its function of its operands' contents and every other buffer is untouched, so the fold unrolls
   into the composed term; the typed references' casts are the identity at literal references, and the rest is the definitions
   unfolded. -/
import proofs.«119086_j26585847562989_2_alg».proof.Proof.RefOpsL2
import proofs.«119086_j26585847562989_2_alg».proof.Proof.RefValueDefs
import Idealize.ShloMosaic.Lib.StableHlo.Run

noncomputable section

namespace Cert.ReferenceIdeal.RVal

open Cert.ReferenceIdeal Cert.ReferenceIdeal.Gen Cert.ReferenceIdeal.RRun Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 1600000 in
theorem layer2_h (W : Valuation τ sig (Elt F)) :
    after opsLayer2 W (main_v260 : DevRef τ sig)
      = refLayer (W (main_v178 : DevRef τ sig)) (W (main_v14 : DevRef τ sig)) (W (main_v1 : DevRef τ sig)) (W (main_v3 : DevRef τ sig))
          (epsAt 2 (W (main_arg7 : DevRef τ sig)) slices_S5_S1_2)
          (matAt 2 (W (main_arg8 : DevRef τ sig)) slices_S5x300x300_S1x300x300_2_0_0)
          (rowAt 2 (W (main_arg9 : DevRef τ sig)) slices_S5x300_S1x300_2_0)
          (rowAt 2 (W (main_arg10 : DevRef τ sig)) slices_S5x300_S1x300_2_0)
          (rowAt 2 (W (main_arg11 : DevRef τ sig)) slices_S5x300_S1x300_2_0)
          (matAt 2 (W (main_arg12 : DevRef τ sig)) slices_S5x300x300_S1x300x300_2_0_0)
          (rowAt 2 (W (main_arg13 : DevRef τ sig)) slices_S5x300_S1x300_2_0)
          (rowAt 2 (W (main_arg14 : DevRef τ sig)) slices_S5x300_S1x300_2_0)
          (rowAt 2 (W (main_arg15 : DevRef τ sig)) slices_S5x300_S1x300_2_0) := by
  simp only [opsLayer2, seg6, seg7, List.cons_append, List.nil_append]
  after_results_simp
  rfl

end Cert.ReferenceIdeal.RVal

end
-- ==== Proof.RefValueL3.lean ====
/- What layer 3 of the reference leaves in its result buffer: the fold of the layer's operations, read at the buffer of its last
   clamp, is the layer function of RefValueDefs.lean applied to what the valuation holds at the buffers the layer reads — the
   incoming node features, the edge encoding, the endpoint lists, and row 3 of each stacked parameter array. Each operation's
   result at its own buffer is its function of its operands' contents and every other buffer is untouched, so the fold unrolls
   into the composed term; the typed references' casts are the identity at literal references, and the rest is the definitions
   unfolded. -/
import proofs.«119086_j26585847562989_2_alg».proof.Proof.RefOpsL3
import proofs.«119086_j26585847562989_2_alg».proof.Proof.RefValueDefs
import Idealize.ShloMosaic.Lib.StableHlo.Run

noncomputable section

namespace Cert.ReferenceIdeal.RVal

open Cert.ReferenceIdeal Cert.ReferenceIdeal.Gen Cert.ReferenceIdeal.RRun Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 1600000 in
theorem layer3_h (W : Valuation τ sig (Elt F)) :
    after opsLayer3 W (main_v342 : DevRef τ sig)
      = refLayer (W (main_v260 : DevRef τ sig)) (W (main_v14 : DevRef τ sig)) (W (main_v1 : DevRef τ sig)) (W (main_v3 : DevRef τ sig))
          (epsAt 3 (W (main_arg7 : DevRef τ sig)) slices_S5_S1_3)
          (matAt 3 (W (main_arg8 : DevRef τ sig)) slices_S5x300x300_S1x300x300_3_0_0)
          (rowAt 3 (W (main_arg9 : DevRef τ sig)) slices_S5x300_S1x300_3_0)
          (rowAt 3 (W (main_arg10 : DevRef τ sig)) slices_S5x300_S1x300_3_0)
          (rowAt 3 (W (main_arg11 : DevRef τ sig)) slices_S5x300_S1x300_3_0)
          (matAt 3 (W (main_arg12 : DevRef τ sig)) slices_S5x300x300_S1x300x300_3_0_0)
          (rowAt 3 (W (main_arg13 : DevRef τ sig)) slices_S5x300_S1x300_3_0)
          (rowAt 3 (W (main_arg14 : DevRef τ sig)) slices_S5x300_S1x300_3_0)
          (rowAt 3 (W (main_arg15 : DevRef τ sig)) slices_S5x300_S1x300_3_0) := by
  simp only [opsLayer3, seg8, seg9, seg10, List.cons_append, List.nil_append]
  after_results_simp
  rfl

end Cert.ReferenceIdeal.RVal

end
-- ==== Proof.RefValueL4.lean ====
/- What layer 4 of the reference leaves in its result buffer: the fold of the layer's operations, read at the buffer of its last
   clamp, is the layer function of RefValueDefs.lean applied to what the valuation holds at the buffers the layer reads — the
   incoming node features, the edge encoding, the endpoint lists, and row 4 of each stacked parameter array. Each operation's
   result at its own buffer is its function of its operands' contents and every other buffer is untouched, so the fold unrolls
   into the composed term; the typed references' casts are the identity at literal references, and the rest is the definitions
   unfolded. -/
import proofs.«119086_j26585847562989_2_alg».proof.Proof.RefOpsL4
import proofs.«119086_j26585847562989_2_alg».proof.Proof.RefValueDefs
import Idealize.ShloMosaic.Lib.StableHlo.Run

noncomputable section

namespace Cert.ReferenceIdeal.RVal

open Cert.ReferenceIdeal Cert.ReferenceIdeal.Gen Cert.ReferenceIdeal.RRun Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 1600000 in
theorem layer4_h (W : Valuation τ sig (Elt F)) :
    after opsLayer4 W (main_v424 : DevRef τ sig)
      = refLayer (W (main_v342 : DevRef τ sig)) (W (main_v14 : DevRef τ sig)) (W (main_v1 : DevRef τ sig)) (W (main_v3 : DevRef τ sig))
          (epsAt 4 (W (main_arg7 : DevRef τ sig)) slices_S5_S1_4)
          (matAt 4 (W (main_arg8 : DevRef τ sig)) slices_S5x300x300_S1x300x300_4_0_0)
          (rowAt 4 (W (main_arg9 : DevRef τ sig)) slices_S5x300_S1x300_4_0)
          (rowAt 4 (W (main_arg10 : DevRef τ sig)) slices_S5x300_S1x300_4_0)
          (rowAt 4 (W (main_arg11 : DevRef τ sig)) slices_S5x300_S1x300_4_0)
          (matAt 4 (W (main_arg12 : DevRef τ sig)) slices_S5x300x300_S1x300x300_4_0_0)
          (rowAt 4 (W (main_arg13 : DevRef τ sig)) slices_S5x300_S1x300_4_0)
          (rowAt 4 (W (main_arg14 : DevRef τ sig)) slices_S5x300_S1x300_4_0)
          (rowAt 4 (W (main_arg15 : DevRef τ sig)) slices_S5x300_S1x300_4_0) := by
  simp only [opsLayer4, seg11, seg12, seg13, List.cons_append, List.nil_append]
  after_results_simp
  rfl

end Cert.ReferenceIdeal.RVal

end
-- ==== Proof.RefValueTail.lean ====
/- What the reference's last stage leaves in the result buffer: the per-graph mean of the last layer's node features through
   the two-layer classifier, as the composed term of the last layer's buffer and the arguments. -/
import proofs.«119086_j26585847562989_2_alg».proof.Proof.RefOpsTail
import proofs.«119086_j26585847562989_2_alg».proof.Proof.RefValueDefs
import Idealize.ShloMosaic.Lib.StableHlo.Run

noncomputable section

namespace Cert.ReferenceIdeal.RVal

open Cert.ReferenceIdeal Cert.ReferenceIdeal.Gen Cert.ReferenceIdeal.RRun Idealize.ShloMosaic Idealize.ShloMosaic.TcCoe Idealize.SL.Sem Idealize.ShloMosaic.StableHlo

variable {F : FTy → Type} [FloatOps F]

attribute [local irreducible] Host.scatterAdd in
set_option maxRecDepth 8192 in
theorem tail_out (W : Valuation τ sig (Elt F)) :
    after opsTail W (main_v445 : DevRef τ sig)
      = refTail (W (main_v424 : DevRef τ sig)) (W (main_arg2 : DevRef τ sig)) (W (main_arg16 : DevRef τ sig))
          (W (main_arg17 : DevRef τ sig)) (W (main_arg18 : DevRef τ sig)) (W (main_arg19 : DevRef τ sig)) := by
  simp only [opsTail, seg14]
  after_results_simp
  rfl

end Cert.ReferenceIdeal.RVal

end
-- ==== Proof.RefValue.lean ====
/- The reference program's result as a function of its arguments.

   The fold of @main's operations is the fold of its stages in turn. The prologue leaves the endpoint lists, the node embedding
   and the edge encoding in four buffers; no later stage writes the first, second and fourth of these, and no stage writes an
   argument, so every layer finds them — and row L of the stacked parameters — where the stage lemmas read them: a valuation
   "holds" the arguments and the edge data, the prologue's result does, and each layer keeps it so. Layer L then maps the
   previous layer's buffer to its own by the layer function, and the last stage maps the fifth layer's buffer to the result. -/
import proofs.«119086_j26585847562989_2_alg».proof.Proof.RefRun
import proofs.«119086_j26585847562989_2_alg».proof.Proof.RefValueDefs2
import proofs.«119086_j26585847562989_2_alg».proof.Proof.RefValuePre
import proofs.«119086_j26585847562989_2_alg».proof.Proof.RefValueL0
import proofs.«119086_j26585847562989_2_alg».proof.Proof.RefValueL1
import proofs.«119086_j26585847562989_2_alg».proof.Proof.RefValueL2
import proofs.«119086_j26585847562989_2_alg».proof.Proof.RefValueL3
import proofs.«119086_j26585847562989_2_alg».proof.Proof.RefValueL4
import proofs.«119086_j26585847562989_2_alg».proof.Proof.RefValueTail
import Idealize.ShloMosaic.Lib.StableHlo.Run

noncomputable section

namespace Cert.ReferenceIdeal.RVal

open Cert.LineReads Cert.ReferenceIdeal Cert.ReferenceIdeal.Gen Cert.ReferenceIdeal.RRun Idealize.ShloMosaic Idealize.ShloMosaic.TcCoe Idealize.SL.Sem Idealize.ShloMosaic.StableHlo

variable {F : FTy → Type} [FloatOps F]

theorem nw_arg2 : main_arg2 ∉ (wrs : List (Ref sig .tc)) := by decide
theorem nw_arg7 : main_arg7 ∉ (wrs : List (Ref sig .tc)) := by decide
theorem nw_arg8 : main_arg8 ∉ (wrs : List (Ref sig .tc)) := by decide
theorem nw_arg9 : main_arg9 ∉ (wrs : List (Ref sig .tc)) := by decide
theorem nw_arg10 : main_arg10 ∉ (wrs : List (Ref sig .tc)) := by decide
theorem nw_arg11 : main_arg11 ∉ (wrs : List (Ref sig .tc)) := by decide
theorem nw_arg12 : main_arg12 ∉ (wrs : List (Ref sig .tc)) := by decide
theorem nw_arg13 : main_arg13 ∉ (wrs : List (Ref sig .tc)) := by decide
theorem nw_arg14 : main_arg14 ∉ (wrs : List (Ref sig .tc)) := by decide
theorem nw_arg15 : main_arg15 ∉ (wrs : List (Ref sig .tc)) := by decide
theorem nw_arg16 : main_arg16 ∉ (wrs : List (Ref sig .tc)) := by decide
theorem nw_arg17 : main_arg17 ∉ (wrs : List (Ref sig .tc)) := by decide
theorem nw_arg18 : main_arg18 ∉ (wrs : List (Ref sig .tc)) := by decide
theorem nw_arg19 : main_arg19 ∉ (wrs : List (Ref sig .tc)) := by decide

variable (V : Valuation τ sig (Elt F))

/-- A valuation holds the launch's data: every reference no operation writes is as in V, and the three buffers of the prologue
    that the layers read hold the edge encoding and the endpoint lists computed from V's arguments. -/
structure Holds (W : Valuation τ sig (Elt F)) : Prop where
  args : ∀ r : Ref sig .tc, r ∉ (wrs : List (Ref sig .tc)) → W (r : DevRef τ sig) = V (r : DevRef τ sig)
  ea : W (main_v14 : DevRef τ sig) = refEdge V
  src : W (main_v1 : DevRef τ sig) = refSrc V
  dst : W (main_v3 : DevRef τ sig) = refDst V

/-- The prologue's result holds the launch's data. -/
theorem Holds.pre : Holds V (after opsPre V) where
  args r hr := opsPre_writes.keep (fun h => hr (by simp only [wrs, List.mem_append, h, true_or])) V
  ea := pre_ea V
  src := pre_src V
  dst := pre_dst V

/-- A line that writes neither an argument nor the prologue's edge data keeps a valuation holding the launch's data. -/
theorem Holds.step {l : List (HloOp τ sig (Elt F))} {Wl : List (Ref sig .tc)} (hl : WritesAt l Wl)
    (hsub : ∀ r ∈ Wl, r ∈ (wrs : List (Ref sig .tc))) (h14 : main_v14 ∉ Wl) (h1 : main_v1 ∉ Wl) (h3 : main_v3 ∉ Wl)
    {W : Valuation τ sig (Elt F)} (hW : Holds V W) : Holds V (after l W) where
  args r hr := (hl.keep (fun h => hr (hsub r h)) W).trans (hW.args r hr)
  ea := (hl.keep h14 W).trans hW.ea
  src := (hl.keep h1 W).trans hW.src
  dst := (hl.keep h3 W).trans hW.dst

/-- Layer 0 from a valuation that holds the arguments and the prologue's edge data, its incoming features x. -/
theorem step0 {W : Valuation τ sig (Elt F)} (hW : Holds V W) {x : (⟨S20000x300, .f32⟩ : BufTy).Contents (Elt F)}
    (hx : W (main_v10 : DevRef τ sig) = x) :
    after opsLayer0 W (main_v96 : DevRef τ sig)
      = refLayerAt V 0 slices_S5_S1_0 slices_S5x300_S1x300_0_0 slices_S5x300x300_S1x300x300_0_0_0 x := by
  rw [layer0_h, hx, hW.ea, hW.src, hW.dst, hW.args main_arg7 nw_arg7, hW.args main_arg8 nw_arg8, hW.args main_arg9 nw_arg9,
    hW.args main_arg10 nw_arg10, hW.args main_arg11 nw_arg11, hW.args main_arg12 nw_arg12, hW.args main_arg13 nw_arg13,
    hW.args main_arg14 nw_arg14, hW.args main_arg15 nw_arg15]
  rfl

/-- Layer 0 writes none of the arguments nor the prologue's edge data. -/
theorem Holds.layer0 {W : Valuation τ sig (Elt F)} (hW : Holds V W) : Holds V (after opsLayer0 W) :=
  hW.step V opsLayer0_writes (fun r h => by simp only [wrs, List.mem_append, h, true_or, or_true]) (by decide) (by decide) (by decide)

/-- Layer 1 from a valuation that holds the arguments and the prologue's edge data, its incoming features x. -/
theorem step1 {W : Valuation τ sig (Elt F)} (hW : Holds V W) {x : (⟨S20000x300, .f32⟩ : BufTy).Contents (Elt F)}
    (hx : W (main_v96 : DevRef τ sig) = x) :
    after opsLayer1 W (main_v178 : DevRef τ sig)
      = refLayerAt V 1 slices_S5_S1_1 slices_S5x300_S1x300_1_0 slices_S5x300x300_S1x300x300_1_0_0 x := by
  rw [layer1_h, hx, hW.ea, hW.src, hW.dst, hW.args main_arg7 nw_arg7, hW.args main_arg8 nw_arg8, hW.args main_arg9 nw_arg9,
    hW.args main_arg10 nw_arg10, hW.args main_arg11 nw_arg11, hW.args main_arg12 nw_arg12, hW.args main_arg13 nw_arg13,
    hW.args main_arg14 nw_arg14, hW.args main_arg15 nw_arg15]
  rfl

/-- Layer 1 writes none of the arguments nor the prologue's edge data. -/
theorem Holds.layer1 {W : Valuation τ sig (Elt F)} (hW : Holds V W) : Holds V (after opsLayer1 W) :=
  hW.step V opsLayer1_writes (fun r h => by simp only [wrs, List.mem_append, h, true_or, or_true]) (by decide) (by decide) (by decide)

/-- Layer 2 from a valuation that holds the arguments and the prologue's edge data, its incoming features x. -/
theorem step2 {W : Valuation τ sig (Elt F)} (hW : Holds V W) {x : (⟨S20000x300, .f32⟩ : BufTy).Contents (Elt F)}
    (hx : W (main_v178 : DevRef τ sig) = x) :
    after opsLayer2 W (main_v260 : DevRef τ sig)
      = refLayerAt V 2 slices_S5_S1_2 slices_S5x300_S1x300_2_0 slices_S5x300x300_S1x300x300_2_0_0 x := by
  rw [layer2_h, hx, hW.ea, hW.src, hW.dst, hW.args main_arg7 nw_arg7, hW.args main_arg8 nw_arg8, hW.args main_arg9 nw_arg9,
    hW.args main_arg10 nw_arg10, hW.args main_arg11 nw_arg11, hW.args main_arg12 nw_arg12, hW.args main_arg13 nw_arg13,
    hW.args main_arg14 nw_arg14, hW.args main_arg15 nw_arg15]
  rfl

/-- Layer 2 writes none of the arguments nor the prologue's edge data. -/
theorem Holds.layer2 {W : Valuation τ sig (Elt F)} (hW : Holds V W) : Holds V (after opsLayer2 W) :=
  hW.step V opsLayer2_writes (fun r h => by simp only [wrs, List.mem_append, h, true_or, or_true]) (by decide) (by decide) (by decide)

/-- Layer 3 from a valuation that holds the arguments and the prologue's edge data, its incoming features x. -/
theorem step3 {W : Valuation τ sig (Elt F)} (hW : Holds V W) {x : (⟨S20000x300, .f32⟩ : BufTy).Contents (Elt F)}
    (hx : W (main_v260 : DevRef τ sig) = x) :
    after opsLayer3 W (main_v342 : DevRef τ sig)
      = refLayerAt V 3 slices_S5_S1_3 slices_S5x300_S1x300_3_0 slices_S5x300x300_S1x300x300_3_0_0 x := by
  rw [layer3_h, hx, hW.ea, hW.src, hW.dst, hW.args main_arg7 nw_arg7, hW.args main_arg8 nw_arg8, hW.args main_arg9 nw_arg9,
    hW.args main_arg10 nw_arg10, hW.args main_arg11 nw_arg11, hW.args main_arg12 nw_arg12, hW.args main_arg13 nw_arg13,
    hW.args main_arg14 nw_arg14, hW.args main_arg15 nw_arg15]
  rfl

/-- Layer 3 writes none of the arguments nor the prologue's edge data. -/
theorem Holds.layer3 {W : Valuation τ sig (Elt F)} (hW : Holds V W) : Holds V (after opsLayer3 W) :=
  hW.step V opsLayer3_writes (fun r h => by simp only [wrs, List.mem_append, h, true_or, or_true]) (by decide) (by decide) (by decide)

/-- Layer 4 from a valuation that holds the arguments and the prologue's edge data, its incoming features x. -/
theorem step4 {W : Valuation τ sig (Elt F)} (hW : Holds V W) {x : (⟨S20000x300, .f32⟩ : BufTy).Contents (Elt F)}
    (hx : W (main_v342 : DevRef τ sig) = x) :
    after opsLayer4 W (main_v424 : DevRef τ sig)
      = refLayerAt V 4 slices_S5_S1_4 slices_S5x300_S1x300_4_0 slices_S5x300x300_S1x300x300_4_0_0 x := by
  rw [layer4_h, hx, hW.ea, hW.src, hW.dst, hW.args main_arg7 nw_arg7, hW.args main_arg8 nw_arg8, hW.args main_arg9 nw_arg9,
    hW.args main_arg10 nw_arg10, hW.args main_arg11 nw_arg11, hW.args main_arg12 nw_arg12, hW.args main_arg13 nw_arg13,
    hW.args main_arg14 nw_arg14, hW.args main_arg15 nw_arg15]
  rfl

/-- Layer 4 writes none of the arguments nor the prologue's edge data. -/
theorem Holds.layer4 {W : Valuation τ sig (Elt F)} (hW : Holds V W) : Holds V (after opsLayer4 W) :=
  hW.step V opsLayer4_writes (fun r h => by simp only [wrs, List.mem_append, h, true_or, or_true]) (by decide) (by decide) (by decide)

/-- @main's result buffer holds the network function of the arguments' contents. -/
theorem ref_value : after ops V (main_v445 : DevRef τ sig) = refResult V := by
  rw [after_ops]
  have h0 := Holds.pre V
  have e1 := step0 V h0 (pre_h0 V)
  have h1 := h0.layer0 V
  have e2 := step1 V h1 e1
  have h2 := h1.layer1 V
  have e3 := step2 V h2 e2
  have h3 := h2.layer2 V
  have e4 := step3 V h3 e3
  have h4 := h3.layer3 V
  have e5 := step4 V h4 e4
  have h5 := h4.layer4 V
  rw [tail_out, e5, h5.args main_arg2 nw_arg2, h5.args main_arg16 nw_arg16, h5.args main_arg17 nw_arg17,
    h5.args main_arg18 nw_arg18, h5.args main_arg19 nw_arg19]
  rfl

end Cert.ReferenceIdeal.RVal

end
-- ==== Proof.BatchStats.lean ====
/-
  The batch statistics of a 20000 × 300 matrix, as each program takes them, and the normalise-and-clamp stage.
  The reference sums a column over all 20000 rows; the tiled program first sums each tile of 2000 rows and then the ten
  tile sums. It takes the variance as the mean of squares minus the square of the mean, clamped at zero, where the
  reference takes the mean of the squared deviations. On real entries these are one number.
-/
import Idealize.ShloMosaic.Lib.ValueIdx
import Idealize.ShloMosaic.PureOps.Ideal.Laws

noncomputable section

namespace Cert.BatchStats

open Idealize.ShloMosaic Idealize.ShloMosaic.ValueIdx

/-- A matrix of extended reals over a literal two-axis shape. -/
abbrev Mat (m n : Nat) := (⟨2, ![m, n]⟩ : Shape).Idx → EReal

/-- The float zero, the row count 20000 and the variance offset, as the programs spell them. -/
abbrev zeroW : EReal := Ideal.ofBits .f32 0x00000000#32
abbrev rowsW : EReal := Ideal.ofBits .f32 0x469C4000#32
abbrev epsW : EReal := Ideal.ofBits .f32 0x3727C5AC#32

/-- Row `2000 t + p` of the matrix: row `p` of tile `t`. -/
def tileRow (t : Fin 10) (p : Fin 2000) : Fin 20000 := ⟨2000 * t.val + p.val, by omega⟩

/-- The column mean as the reference takes it: the whole column sum, started at zero, over the row count. -/
def meanWhole (z : Mat 20000 300) (q : Fin 300) : EReal :=
  Ideal.div (zeroW + ∑ n : Fin 20000, z (ix2 n q)) rowsW

/-- The column variance as the reference takes it: the mean of the squared deviations from the mean. -/
def varWhole (z : Mat 20000 300) (q : Fin 300) : EReal :=
  Ideal.div (zeroW + ∑ n : Fin 20000, (z (ix2 n q) - meanWhole z q) * (z (ix2 n q) - meanWhole z q)) rowsW

/-- One tile's column sum, and its column sum of squares, each started at zero. -/
def tileSum (z : Mat 20000 300) (t : Fin 10) (q : Fin 300) : EReal := zeroW + ∑ p : Fin 2000, z (ix2 (tileRow t p) q)
def tileSumSq (z : Mat 20000 300) (t : Fin 10) (q : Fin 300) : EReal :=
  zeroW + ∑ p : Fin 2000, z (ix2 (tileRow t p) q) * z (ix2 (tileRow t p) q)

/-- The column mean as the tiled program takes it: the ten tile sums added from zero, over the row count. -/
def meanTiled (z : Mat 20000 300) (q : Fin 300) : EReal :=
  Ideal.div (zeroW + ∑ t : Fin 10, tileSum z t q) rowsW

/-- The column variance as the tiled program takes it: mean of squares minus squared mean, clamped at zero. -/
def varTiled (z : Mat 20000 300) (q : Fin 300) : EReal :=
  max (Ideal.div (zeroW + ∑ t : Fin 10, tileSumSq z t q) rowsW - meanTiled z q * meanTiled z q) zeroW

/-- Normalise by given column statistics, scale, shift, clamp at zero. -/
def normClamp (z : Mat 20000 300) (mean var g be : Fin 300 → EReal) : Mat 20000 300 := fun i =>
  max ((z i - mean (i 1)) * Ideal.rsqrt (var (i 1) + epsW) * g (i 1) + be (i 1)) zeroW

end Cert.BatchStats

end
-- ==== Proof.LibBatchNorm.lean ====
/-
  Batch normalisation on the extended reals.

  A float is read as an extended real (a real number, +∞ or −∞). Every statement below is about
  entries that are REAL numbers: on those, the sums, products and quotients by a nonzero real of a
  batch normalisation stay real, and the two textbook spellings of the variance of a column
  z₀ … z_{N−1} with mean μ = (Σ z)/N agree:

      max (Σ z² / N − μ², 0) = Σ (z − μ)² / N          (N = 20000).

  In the reals Σ (z − μ)² = Σ z² − 2 μ Σ z + N μ² = Σ z² − N μ², so both sides are Σ z² / N − μ², and
  that number is a sum of squares over a positive N, hence nonnegative, so the outer max is the
  identity. The file also reads the float literals that such a program carries (20000, 1, 0 and the
  small positive constant added to the variance), splits a sum over 20000 rows into 10 tiles of
  2000 rows, and shows that normalisation followed by max(·, 0), and a dense row Σ x w + b, keep
  real entries real.
-/
import Idealize.ShloMosaic.PureOps.Ideal.Laws
import Mathlib.Algebra.BigOperators.Fin
import Mathlib.Algebra.Order.BigOperators.Ring.Finset
import Mathlib.Tactic

noncomputable section

namespace Cert.BatchNorm

open Idealize.ShloMosaic
open scoped BigOperators

/-! ### Real entries -/

/-- An extended real that is a real number (neither infinity). -/
def IsReal (x : EReal) : Prop := ∃ r : ℝ, x = (r : EReal)

/-- The embedding of a real number is real. -/
theorem IsReal.coe (r : ℝ) : IsReal (r : EReal) := ⟨r, rfl⟩

/-- Zero is real. -/
theorem IsReal.zero : IsReal 0 := ⟨0, rfl⟩

/-- One is real. -/
theorem IsReal.one : IsReal 1 := ⟨1, rfl⟩

/-- A real entry is not +∞. -/
theorem IsReal.ne_top {x : EReal} (hx : IsReal x) : x ≠ ⊤ := by
  obtain ⟨r, rfl⟩ := hx; exact EReal.coe_ne_top r

/-- A real entry is not −∞. -/
theorem IsReal.ne_bot {x : EReal} (hx : IsReal x) : x ≠ ⊥ := by
  obtain ⟨r, rfl⟩ := hx; exact EReal.coe_ne_bot r

/-- An extended real that is neither infinity is real. -/
theorem isReal_of_ne {x : EReal} (ht : x ≠ ⊤) (hb : x ≠ ⊥) : IsReal x :=
  ⟨x.toReal, (EReal.coe_toReal ht hb).symm⟩

/-- The sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negation of a real entry is real. -/
theorem IsReal.neg {x : EReal} (hx : IsReal x) : IsReal (-x) := by
  obtain ⟨a, rfl⟩ := hx; exact ⟨-a, (EReal.coe_neg a).symm⟩

/-- The difference of two real entries is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with the maximum of two numbers. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The maximum of two real entries is real. -/
theorem IsReal.max {x y : EReal} (hx : IsReal x) (hy : IsReal y) : IsReal (max x y) := by
  obtain ⟨a, rfl⟩ := hx; obtain ⟨b, rfl⟩ := hy; exact ⟨Max.max a b, (coe_max a b).symm⟩

/-- The embedding of the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A real entry divided by a nonzero real number is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A real entry divided by a nonzero real entry is real. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h, EReal.coe_zero])
  exact ⟨a / b, div_coe_coe a hb⟩

/-- The reciprocal square root of a positive real number is the real reciprocal square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real entry is real. -/
theorem IsReal.rsqrt {x : EReal} (hx : IsReal x) (hpos : 0 < x) : IsReal (Ideal.rsqrt x) := by
  obtain ⟨a, rfl⟩ := hx
  exact ⟨(Real.sqrt a)⁻¹, rsqrt_coe_pos (EReal.coe_pos.mp hpos)⟩

/-! ### The float literals of a batch normalisation over 20000 rows -/

/-- The single-precision word 0x469C4000 is the number 20000. -/
theorem ofBits_20000 : Ideal.ofBits .f32 0x469C4000#32 = ((20000 : ℝ) : EReal) := by
  simp [Ideal.ofBits, Ideal.ieee]
  rw [← EReal.coe_mul]
  congr 1
  norm_num

/-- The single-precision word 0x3F800000 is the number 1. -/
theorem ofBits_one : Ideal.ofBits .f32 0x3F800000#32 = ((1 : ℝ) : EReal) := by
  simp [Ideal.ofBits, Ideal.ieee]
  rw [← EReal.coe_mul, ← EReal.coe_one]
  congr 1
  norm_num

/-- The single-precision zero word is the real number 0. -/
theorem ofBits_zero : Ideal.ofBits .f32 0x00000000#32 = ((0 : ℝ) : EReal) := by
  rw [Ideal.ofBits_zero_f32, EReal.coe_zero]

/-- The single-precision word 0x3727C5AC (the constant added to a variance) is a positive real number. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee]

/-! ### Tiles of rows -/

/-- A sum over m·n consecutive positions is the sum over m tiles of the sums over the n positions of each tile. -/
theorem sum_fin_mul {M : Type*} [AddCommMonoid M] (m n : ℕ) (f : Fin (m * n) → M) :
    ∑ i, f i = ∑ t : Fin m, ∑ p : Fin n, f (finProdFinEquiv (t, p)) := by
  rw [← Fintype.sum_prod_type']
  exact (Fintype.sum_equiv finProdFinEquiv (fun x : Fin m × Fin n => f (finProdFinEquiv (x.1, x.2))) f (fun _ => rfl)).symm

/-- A sum over 20000 rows is the sum over 10 tiles of the sums over the 2000 rows of each tile. -/
theorem sum_tiles {M : Type*} [AddCommMonoid M] (f : Fin 20000 → M) :
    ∑ n, f n = ∑ t : Fin 10, ∑ p : Fin 2000, f ⟨2000 * t.val + p.val, by omega⟩ := by
  refine (sum_fin_mul 10 2000 f).trans ?_
  refine Finset.sum_congr rfl fun t _ => Finset.sum_congr rfl fun p _ => congrArg f (Fin.ext ?_)
  show p.val + 2000 * t.val = 2000 * t.val + p.val
  omega

/-! ### The variance law -/

/-- In the reals: the mean of the squares minus the square of the mean is the mean of the squared deviations. -/
theorem real_var {ι : Type*} [Fintype ι] (z : ι → ℝ) (N : ℝ) (hcard : (Fintype.card ι : ℝ) = N) (hN : N ≠ 0) :
    (∑ i, z i * z i) / N - (∑ i, z i) / N * ((∑ i, z i) / N)
      = (∑ i, (z i - (∑ i, z i) / N) * (z i - (∑ i, z i) / N)) / N := by
  set S := ∑ i, z i with hS
  have h1 : ∑ i, (z i - S / N) * (z i - S / N) = (∑ i, z i * z i) - 2 * (S / N) * S + N * (S / N * (S / N)) := by
    have : ∀ i, (z i - S / N) * (z i - S / N) = z i * z i - 2 * (S / N) * z i + S / N * (S / N) := fun i => by ring
    simp only [this, Finset.sum_add_distrib, Finset.sum_sub_distrib, ← Finset.mul_sum, Finset.sum_const,
      Finset.card_univ, nsmul_eq_mul, hcard, ← hS]
    ring
  rw [h1]
  field_simp
  ring

/-- In the reals: the mean of the squared deviations is nonnegative. -/
theorem real_var_nonneg {ι : Type*} [Fintype ι] (z : ι → ℝ) (μ N : ℝ) (hN : 0 < N) :
    0 ≤ (∑ i, (z i - μ) * (z i - μ)) / N :=
  div_nonneg (Finset.sum_nonneg fun i _ => mul_self_nonneg _) hN.le

/-- The variance law over 20000 real entries: max (Σz²/N − mean², 0) = Σ (z − mean)²/N with mean = Σz/N. -/
theorem var_law (z : Fin 20000 → ℝ) :
    max (Ideal.div (∑ n, (z n : EReal) * (z n : EReal)) ((20000 : ℝ) : EReal)
          - Ideal.div (∑ n, (z n : EReal)) ((20000 : ℝ) : EReal) * Ideal.div (∑ n, (z n : EReal)) ((20000 : ℝ) : EReal)) 0
      = Ideal.div (∑ n, ((z n : EReal) - Ideal.div (∑ n, (z n : EReal)) ((20000 : ℝ) : EReal))
                        * ((z n : EReal) - Ideal.div (∑ n, (z n : EReal)) ((20000 : ℝ) : EReal))) ((20000 : ℝ) : EReal) := by
  have hN : (20000 : ℝ) ≠ 0 := by norm_num
  have hmean : Ideal.div (∑ n, (z n : EReal)) ((20000 : ℝ) : EReal) = (((∑ n, z n) / 20000 : ℝ) : EReal) := by
    rw [← coe_sum, div_coe_coe _ hN]
  have hQ : (∑ n, (z n : EReal) * (z n : EReal)) = ((∑ n, z n * z n : ℝ) : EReal) := by
    rw [coe_sum]; exact Finset.sum_congr rfl fun n _ => (EReal.coe_mul _ _).symm
  have hD : (∑ n, ((z n : EReal) - (((∑ n, z n) / 20000 : ℝ) : EReal)) * ((z n : EReal) - (((∑ n, z n) / 20000 : ℝ) : EReal)))
      = ((∑ n, (z n - (∑ n, z n) / 20000) * (z n - (∑ n, z n) / 20000) : ℝ) : EReal) := by
    rw [coe_sum]; exact Finset.sum_congr rfl fun n _ => by rw [EReal.coe_mul, EReal.coe_sub]
  rw [hmean, hQ, hD, div_coe_coe _ hN, div_coe_coe _ hN, ← EReal.coe_mul, ← EReal.coe_sub, ← EReal.coe_zero, ← coe_max]
  refine congrArg (fun r : ℝ => (r : EReal)) ?_
  rw [real_var z 20000 (by simp) hN]
  exact max_eq_left (real_var_nonneg z _ 20000 (by norm_num))

/-! ### The variance in the form a host program spells it

A host variance divides by N − d, where d is an integer zero converted to a float, and keeps the
quotient only where N − d > 0. Here N − d is N and the comparison holds, so the guard is the identity. -/

/-- The integer zero converted to a float is the real number 0. -/
theorem sitofp_zero : FloatOps.sitofp (F := Ideal) .f32 (0x00000000#32 : BitVec 32) = ((0 : ℝ) : EReal) := by
  show (((0x00000000#32 : BitVec 32).toInt : ℝ) : EReal) = ((0 : ℝ) : EReal)
  refine congrArg (fun r : ℝ => (r : EReal)) ?_
  simp

/-- 20000 minus the converted integer zero is 20000. -/
theorem n_sub_zero :
    Ideal.ofBits .f32 0x469C4000#32 - FloatOps.sitofp (F := Ideal) .f32 (0x00000000#32 : BitVec 32) = ((20000 : ℝ) : EReal) := by
  rw [ofBits_20000, sitofp_zero, ← EReal.coe_sub, sub_zero]

/-- 20000 is greater than the zero word: the comparison answers 1. -/
theorem cmp_ogt_20000 : Ideal.cmp .ogt ((20000 : ℝ) : EReal) (Ideal.ofBits .f32 0x00000000#32) = 1#1 := by
  have h : (Ideal.ofBits .f32 0x00000000#32 : EReal) < ((20000 : ℝ) : EReal) := by
    rw [Ideal.ofBits_zero_f32]; exact EReal.coe_pos.mpr (by norm_num)
  simp [Ideal.cmp, h]

/-- The guard of a host variance, as printed: (20000 − converted zero) > zero word answers 1. -/
theorem cmpf_ogt_n_sub_zero :
    FloatOps.cmpf (F := Ideal) (φ := .f32) .ogt
      (Ideal.ofBits .f32 0x469C4000#32 - FloatOps.sitofp (F := Ideal) .f32 (0x00000000#32 : BitVec 32))
      (Ideal.ofBits .f32 0x00000000#32) = 1#1 := by
  rw [n_sub_zero]; exact cmp_ogt_20000

/-- A sum that starts from the zero word is the sum. -/
theorem zero_word_add (x : EReal) : Ideal.ofBits .f32 0x00000000#32 + x = x := by
  rw [Ideal.ofBits_zero_f32, zero_add]

/-- The mean of 20000 real entries, divided by the word 0x469C4000, is the real mean. -/
theorem mean_eq (z : Fin 20000 → ℝ) :
    Ideal.div (∑ n, (z n : EReal)) (Ideal.ofBits .f32 0x469C4000#32) = (((∑ n, z n) / 20000 : ℝ) : EReal) := by
  rw [ofBits_20000, ← coe_sum, div_coe_coe _ (by norm_num)]

/-- The mean of the squared deviations of 20000 real entries is a nonnegative real number. -/
theorem var_dev_real (z : Fin 20000 → ℝ) (μ : ℝ) :
    ∃ v : ℝ, 0 ≤ v ∧
      Ideal.div (∑ n, ((z n : EReal) - (μ : EReal)) * ((z n : EReal) - (μ : EReal))) ((20000 : ℝ) : EReal) = (v : EReal) := by
  refine ⟨(∑ n, (z n - μ) * (z n - μ)) / 20000, real_var_nonneg z μ 20000 (by norm_num), ?_⟩
  rw [← div_coe_coe _ (by norm_num : (20000 : ℝ) ≠ 0), coe_sum]
  refine congrArg (fun s => Ideal.div s ((20000 : ℝ) : EReal)) (Finset.sum_congr rfl fun n _ => ?_)
  rw [EReal.coe_mul, EReal.coe_sub]

/-- The variance law with every 20000 spelt as its float word, the right side divided by 20000 minus the converted integer zero. -/
theorem var_law_words (z : Fin 20000 → ℝ) :
    max (Ideal.div (∑ n, (z n : EReal) * (z n : EReal)) (Ideal.ofBits .f32 0x469C4000#32)
          - Ideal.div (∑ n, (z n : EReal)) (Ideal.ofBits .f32 0x469C4000#32)
            * Ideal.div (∑ n, (z n : EReal)) (Ideal.ofBits .f32 0x469C4000#32)) 0
      = Ideal.div (∑ n, ((z n : EReal) - Ideal.div (∑ n, (z n : EReal)) (Ideal.ofBits .f32 0x469C4000#32))
                        * ((z n : EReal) - Ideal.div (∑ n, (z n : EReal)) (Ideal.ofBits .f32 0x469C4000#32)))
          (Ideal.ofBits .f32 0x469C4000#32 - FloatOps.sitofp (F := Ideal) .f32 (0x00000000#32 : BitVec 32)) := by
  rw [n_sub_zero, ofBits_20000]; exact var_law z

/-! ### Normalisation, max with zero, and a dense row keep real entries real -/

/-- A nonnegative real entry plus a positive real entry is a positive real number. -/
theorem var_add_eps {var eps : EReal} (hv : IsReal var) (hv0 : 0 ≤ var) (he : IsReal eps) (he0 : 0 < eps) :
    ∃ r : ℝ, 0 < r ∧ var + eps = (r : EReal) := by
  obtain ⟨v, rfl⟩ := hv; obtain ⟨e, rfl⟩ := he
  exact ⟨v + e, add_pos_of_nonneg_of_pos (EReal.coe_nonneg.mp hv0) (EReal.coe_pos.mp he0), (EReal.coe_add v e).symm⟩

/-- The reciprocal square root of a nonnegative real variance plus a positive real constant is real. -/
theorem IsReal.rsqrt_var_add_eps {var eps : EReal} (hv : IsReal var) (hv0 : 0 ≤ var) (he : IsReal eps) (he0 : 0 < eps) :
    IsReal (Ideal.rsqrt (var + eps)) := by
  obtain ⟨r, hr, h⟩ := var_add_eps hv hv0 he he0
  rw [h]; exact ⟨_, rsqrt_coe_pos hr⟩

/-- Batch normalisation followed by max with zero keeps real entries real. -/
theorem bn_relu_isReal {z mean var g be eps : EReal} (hz : IsReal z) (hm : IsReal mean) (hv : IsReal var) (hv0 : 0 ≤ var)
    (hg : IsReal g) (hb : IsReal be) (he : IsReal eps) (he0 : 0 < eps) :
    IsReal (max ((z - mean) * Ideal.rsqrt (var + eps) * g + be) 0) :=
  ((((hz.sub hm).mul (IsReal.rsqrt_var_add_eps hv hv0 he he0)).mul hg).add hb).max IsReal.zero

/-- The same with the constant added to the variance spelt as its float word 0x3727C5AC. -/
theorem bn_relu_word_isReal {z mean var g be : EReal} (hz : IsReal z) (hm : IsReal mean) (hv : IsReal var) (hv0 : 0 ≤ var)
    (hg : IsReal g) (hb : IsReal be) :
    IsReal (max ((z - mean) * Ideal.rsqrt (var + Ideal.ofBits .f32 0x3727C5AC#32) * g + be) 0) := by
  obtain ⟨e, he0, he⟩ := ofBits_eps
  rw [he]
  exact bn_relu_isReal hz hm hv hv0 hg hb (IsReal.coe e) (EReal.coe_pos.mpr he0)

/-- A dense row Σ x w + b of real entries is real. -/
theorem IsReal.dense {ι : Type*} [Fintype ι] (x w : ι → EReal) (b : EReal) (hx : ∀ k, IsReal (x k)) (hw : ∀ k, IsReal (w k))
    (hb : IsReal b) : IsReal ((∑ k, x k * w k) + b) :=
  (IsReal.sum _ _ fun k _ => (hx k).mul (hw k)).add hb

/-! ### The same facts over entries known only to be real, every literal spelt as its float word -/

/-- 20000 minus the integer zero read as a real number is 20000 (the converted zero written out). -/
theorem n_sub_toInt_zero :
    Ideal.ofBits .f32 0x469C4000#32 - ((((0#32 : BitVec 32).toInt : ℝ)) : EReal) = Ideal.ofBits .f32 0x469C4000#32 := by
  have h : (((0#32 : BitVec 32).toInt : ℝ)) = 0 := by simp
  rw [h, EReal.coe_zero, sub_zero]

/-- The word 0x469C4000 is greater than the zero word: the comparison answers 1. -/
theorem cmp_ogt_words : Ideal.cmp .ogt (Ideal.ofBits .f32 0x469C4000#32) (Ideal.ofBits .f32 0x00000000#32) = 1#1 := by
  rw [ofBits_20000]; exact cmp_ogt_20000

/-- A sum of 20000 entries taken tile by tile, every partial sum started from the zero word, is the plain sum. -/
theorem sum_tiles_words (f : Fin 20000 → EReal) :
    Ideal.ofBits .f32 0x00000000#32
        + ∑ t : Fin 10, (Ideal.ofBits .f32 0x00000000#32 + ∑ p : Fin 2000, f ⟨2000 * t.val + p.val, by omega⟩)
      = ∑ n, f n := by
  simp only [zero_word_add]
  exact (sum_tiles f).symm

/-- Real entries are the embeddings of a family of real numbers. -/
theorem exists_real_family {ι : Type*} (z : ι → EReal) (hz : ∀ n, IsReal (z n)) : ∃ r : ι → ℝ, z = fun n => (r n : EReal) := by
  choose r hr using hz
  exact ⟨r, funext hr⟩

/-- The variance law over 20000 real entries as the programs spell it: every 20000 and 0 a float word, every sum started from the zero word. -/
theorem var_law_host (z : Fin 20000 → EReal) (hz : ∀ n, IsReal (z n)) :
    max (Ideal.div (Ideal.ofBits .f32 0x00000000#32 + ∑ n, z n * z n) (Ideal.ofBits .f32 0x469C4000#32)
          - Ideal.div (Ideal.ofBits .f32 0x00000000#32 + ∑ n, z n) (Ideal.ofBits .f32 0x469C4000#32)
            * Ideal.div (Ideal.ofBits .f32 0x00000000#32 + ∑ n, z n) (Ideal.ofBits .f32 0x469C4000#32))
        (Ideal.ofBits .f32 0x00000000#32)
      = Ideal.div (Ideal.ofBits .f32 0x00000000#32
                    + ∑ n, (z n - Ideal.div (Ideal.ofBits .f32 0x00000000#32 + ∑ n, z n) (Ideal.ofBits .f32 0x469C4000#32))
                          * (z n - Ideal.div (Ideal.ofBits .f32 0x00000000#32 + ∑ n, z n) (Ideal.ofBits .f32 0x469C4000#32)))
          (Ideal.ofBits .f32 0x469C4000#32) := by
  obtain ⟨r, rfl⟩ := exists_real_family z hz
  simp only [zero_word_add]
  rw [Ideal.ofBits_zero_f32, ofBits_20000]
  exact var_law r

/-- The mean of 20000 real entries (sum started from the zero word, divided by the word 0x469C4000) is real. -/
theorem mean_host_isReal (z : Fin 20000 → EReal) (hz : ∀ n, IsReal (z n)) :
    IsReal (Ideal.div (Ideal.ofBits .f32 0x00000000#32 + ∑ n, z n) (Ideal.ofBits .f32 0x469C4000#32)) := by
  obtain ⟨r, rfl⟩ := exists_real_family z hz
  rw [zero_word_add, mean_eq]; exact IsReal.coe _

/-- The variance of 20000 real entries in the host spelling is a nonnegative real entry. -/
theorem var_host_real (z : Fin 20000 → EReal) (hz : ∀ n, IsReal (z n)) :
    IsReal (Ideal.div (Ideal.ofBits .f32 0x00000000#32
                    + ∑ n, (z n - Ideal.div (Ideal.ofBits .f32 0x00000000#32 + ∑ n, z n) (Ideal.ofBits .f32 0x469C4000#32))
                          * (z n - Ideal.div (Ideal.ofBits .f32 0x00000000#32 + ∑ n, z n) (Ideal.ofBits .f32 0x469C4000#32)))
          (Ideal.ofBits .f32 0x469C4000#32))
    ∧ 0 ≤ Ideal.div (Ideal.ofBits .f32 0x00000000#32
                    + ∑ n, (z n - Ideal.div (Ideal.ofBits .f32 0x00000000#32 + ∑ n, z n) (Ideal.ofBits .f32 0x469C4000#32))
                          * (z n - Ideal.div (Ideal.ofBits .f32 0x00000000#32 + ∑ n, z n) (Ideal.ofBits .f32 0x469C4000#32)))
          (Ideal.ofBits .f32 0x469C4000#32) := by
  obtain ⟨r, rfl⟩ := exists_real_family z hz
  simp only [zero_word_add]
  rw [mean_eq, ofBits_20000]
  obtain ⟨v, hv0, hv⟩ := var_dev_real r ((∑ n, r n) / 20000)
  rw [hv]
  exact ⟨IsReal.coe v, EReal.coe_nonneg.mpr hv0⟩

end Cert.BatchNorm
-- ==== Proof.HostReads.lean ====
import Idealize.ShloMosaic.Lib.ValueIdx
import Idealize.ShloMosaic.Lib.Pipeline.Value
import Idealize.ShloMosaic.PureOps.Ideal.Laws
import proofs.«119086_j26585847562989_2_alg».proof.Proof.BatchStats
import proofs.«119086_j26585847562989_2_alg».proof.Proof.LibBatchNorm

noncomputable section
namespace Cert.HostReads
open Idealize.ShloMosaic Idealize.ShloMosaic.ValueIdx

/-- A host sum down the rows of an m × n matrix, read at column q: the initial value plus the column's entries. -/
theorem colSum_apply {m n : Nat} {φ : FTy} (z : FVec Ideal ⟨2, ![m, n]⟩ φ) (init : (⟨0, ![]⟩ : Shape).Idx → Ideal φ)
    (h' : (⟨2, ![m, n]⟩ : Shape).ReducesTo [0] ⟨1, ![n]⟩) (h : (⟨2, ![m, n]⟩ : Shape).Reduces [0] ⟨1, ![n]⟩)
    (hu : 0 < (⟨0, ![]⟩ : Shape).numel) (q : Fin n) :
    Host.reduceAdd z init h' hu (ix1 q) = (init (Shape.Idx.first hu) + ∑ p : Fin m, z (ix2 p q) : EReal) := by
  unfold Host.reduceAdd
  rw [Ideal.hostReduceAdd_def]
  refine (Ideal.hostReduceAdd_single h' h z _ (ix1 q)).trans ?_
  refine congrArg (_ + ·) (Finset.sum_congr rfl fun p _ => congrArg z ?_)
  funext a
  refine Fin.ext ?_
  match a with
  | ⟨0, _⟩ => rfl
  | ⟨1, _⟩ => rfl

/-- A scalar laid along a vector: every entry is the scalar. -/
theorem bcastScalar_apply {α : Type} {t : Shape} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

/-- A vector laid as the one row of a 1 × n matrix and that row copied down m rows: entry (p, q) is entry q. -/
theorem bcastRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (p : Fin m) (q : Fin n) :
    broadcastInDim ⟨2, ![m, n]⟩ ![0, 1] h2 (broadcastInDim ⟨2, ![1, n]⟩ ![1] h1 x) (ix2 p q) = x (ix1 q) := by
  rw [broadcastInDim_apply ![0, 1] h2 _ (ix2 p q) (ix2 (⟨0, Nat.one_pos⟩ : Fin 1) q) (fun a => by
    match a with
    | ⟨0, _⟩ => simp
    | ⟨1, _⟩ =>
      show q.val = if n = 1 then 0 else q.val
      split
      · omega
      · rfl)]
  exact broadcastInDim_apply ![1] h1 x (ix2 (⟨0, Nat.one_pos⟩ : Fin 1) q) (ix1 q) (fun a => by
    match a with
    | ⟨0, _⟩ =>
      show q.val = if n = 1 then 0 else q.val
      split
      · omega
      · rfl)

open Cert.BatchStats in
/-- The reference's column mean: the host sum down the rows, started at the zero word, over the row count laid along the
    columns, read at column q. -/
theorem mean_apply (z : FVec Ideal ⟨2, ![20000, 300]⟩ .f32)
    (h' : (⟨2, ![20000, 300]⟩ : Shape).ReducesTo [0] ⟨1, ![300]⟩) (hu : 0 < (⟨0, ![]⟩ : Shape).numel)
    (hb : (⟨0, ![]⟩ : Shape).BroadcastsInDim ⟨1, ![300]⟩ ![]) (q : Fin 300) :
    Host.divf (Host.reduceAdd z (constant (F := Ideal) ⟨0, ![]⟩ .f32 0x00000000#32) h' hu)
        (broadcastInDim ⟨1, ![300]⟩ ![] hb (constant (F := Ideal) ⟨0, ![]⟩ .f32 0x469C4000#32)) (ix1 q)
      = meanWhole z q := by
  show Ideal.div (Host.reduceAdd z _ h' hu (ix1 q)) (broadcastInDim (s := ⟨0, ![]⟩) ⟨1, ![300]⟩ ![] hb _ (ix1 q)) = _
  rw [colSum_apply z _ h' (by decide) hu q, bcastScalar_apply]
  rfl

section Variance
open Cert.BatchStats Cert.BatchNorm

variable (z : FVec Ideal ⟨2, ![20000, 300]⟩ .f32)
  (h' : (⟨2, ![20000, 300]⟩ : Shape).ReducesTo [0] ⟨1, ![300]⟩) (hu : 0 < (⟨0, ![]⟩ : Shape).numel)
  (hb1 : (⟨1, ![300]⟩ : Shape).BroadcastsInDim ⟨2, ![1, 300]⟩ ![1])
  (hb0 : (⟨0, ![]⟩ : Shape).BroadcastsInDim ⟨2, ![1, 300]⟩ ![])
  (hb2 : (⟨2, ![1, 300]⟩ : Shape).BroadcastsInDim ⟨2, ![20000, 300]⟩ ![0, 1])
  (hbv : (⟨0, ![]⟩ : Shape).BroadcastsInDim ⟨1, ![300]⟩ ![])

/-- The deviations from the column mean, as the reference's variance routine forms them: the column sums laid as one row,
    divided by the row count, copied down the rows and subtracted. -/
def deviations : FVec Ideal ⟨2, ![20000, 300]⟩ .f32 :=
  subf z (broadcastInDim ⟨2, ![20000, 300]⟩ ![0, 1] hb2
    (Host.divf (broadcastInDim ⟨2, ![1, 300]⟩ ![1] hb1 (Host.reduceAdd z (constant (F := Ideal) ⟨0, ![]⟩ .f32 0x00000000#32) h' hu))
      (broadcastInDim ⟨2, ![1, 300]⟩ ![] hb0 (constant (F := Ideal) ⟨0, ![]⟩ .f32 0x469C4000#32))))

theorem deviations_apply (n : Fin 20000) (q : Fin 300) :
    deviations z h' hu hb1 hb0 hb2 (ix2 n q) = z (ix2 n q) - meanWhole z q := by
  unfold deviations
  show z (ix2 n q) - broadcastInDim (s := ⟨2, ![1, 300]⟩) ⟨2, ![20000, 300]⟩ ![0, 1] hb2 _ (ix2 n q) = _
  rw [broadcastInDim_apply ![0, 1] hb2 _ (ix2 n q) (ix2 (⟨0, Nat.one_pos⟩ : Fin 1) q) (fun a => by
    match a with
    | ⟨0, _⟩ => simp
    | ⟨1, _⟩ => rfl)]
  show z (ix2 n q) - Ideal.div (broadcastInDim (s := ⟨1, ![300]⟩) ⟨2, ![1, 300]⟩ ![1] hb1 _ (ix2 (⟨0, Nat.one_pos⟩ : Fin 1) q))
      (broadcastInDim (s := ⟨0, ![]⟩) ⟨2, ![1, 300]⟩ ![] hb0 _ (ix2 (⟨0, Nat.one_pos⟩ : Fin 1) q)) = _
  rw [broadcastInDim_apply ![1] hb1 _ (ix2 (⟨0, Nat.one_pos⟩ : Fin 1) q) (ix1 q) (fun a => by
    match a with
    | ⟨0, _⟩ => rfl), colSum_apply z _ h' (by decide) hu q, bcastScalar_apply]
  rfl

/-- The reference's column variance: the mean of the squared deviations, the divisor the row count less a correction that
    is the integer zero, the quotient guarded by a test that this divisor is positive — which it is. -/
theorem var_apply (ddof : IVec ⟨0, ![]⟩ 32) (hd : ddof ix0 = 0x00000000#32) (nan : FVec Ideal ⟨0, ![]⟩ .f32) (q : Fin 300) :
    select (broadcastInDim ⟨1, ![300]⟩ ![] hbv
        (cmpf .ogt (subf (constant (F := Ideal) ⟨0, ![]⟩ .f32 0x469C4000#32) (sitofp .f32 ddof)) (constant (F := Ideal) ⟨0, ![]⟩ .f32 0x00000000#32)))
      (Host.divf
        (Host.reduceAdd (mulf (deviations z h' hu hb1 hb0 hb2) (deviations z h' hu hb1 hb0 hb2)) (constant (F := Ideal) ⟨0, ![]⟩ .f32 0x00000000#32) h' hu)
        (broadcastInDim ⟨1, ![300]⟩ ![] hbv (subf (constant (F := Ideal) ⟨0, ![]⟩ .f32 0x469C4000#32) (sitofp .f32 ddof))))
      (broadcastInDim ⟨1, ![300]⟩ ![] hbv nan) (ix1 q)
      = varWhole z q := by
  unfold select Host.divf
  dsimp only
  rw [bcastScalar_apply, bcastScalar_apply, colSum_apply _ _ h' (by decide) hu q, Ideal.hostDivf_def]
  have hg : cmpf .ogt (subf (constant (F := Ideal) ⟨0, ![]⟩ .f32 0x469C4000#32) (sitofp .f32 ddof))
      (constant (F := Ideal) ⟨0, ![]⟩ .f32 0x00000000#32) ix0 = 1#1 := by
    show FloatOps.cmpf (F := Ideal) (φ := .f32) .ogt (Ideal.ofBits .f32 0x469C4000#32 - FloatOps.sitofp (F := Ideal) .f32 (ddof ix0)) (Ideal.ofBits .f32 0x00000000#32) = 1#1
    rw [hd]; exact cmpf_ogt_n_sub_zero
  have hn : subf (constant (F := Ideal) ⟨0, ![]⟩ .f32 0x469C4000#32) (sitofp .f32 ddof) ix0 = rowsW := by
    show Ideal.ofBits .f32 0x469C4000#32 - FloatOps.sitofp (F := Ideal) .f32 (ddof ix0) = _
    rw [hd, n_sub_zero, ← ofBits_20000]
  rw [hg, hn, select_one]
  unfold varWhole
  refine congrArg (fun s => Ideal.div (_ + s) rowsW) (Finset.sum_congr rfl fun n _ => ?_)
  show deviations z h' hu hb1 hb0 hb2 (ix2 n q) * deviations z h' hu hb1 hb0 hb2 (ix2 n q) = _
  rw [deviations_apply]

end Variance

section Tiles
open Cert.BatchStats

variable (part : FVec Ideal ⟨3, ![10, 2, 300]⟩ .f32)
  (hu : 0 < (⟨0, ![]⟩ : Shape).numel)
  (hc : (⟨3, ![10, 1, 300]⟩ : Shape).ShapeCasts ⟨2, ![10, 300]⟩)
  (hr : (⟨2, ![10, 300]⟩ : Shape).ReducesTo [0] ⟨1, ![300]⟩)

/-- Row `r` of every tile's statistics, read as a 10 × 300 matrix and summed over the tiles from the zero word: at column
    `q` the zero word plus the ten entries (t, r, q). -/
theorem tilesSum_apply (r : Fin 2) (hs : (⟨3, ![10, 2, 300]⟩ : Shape).Slices ![0, r.val, 0] ⟨3, ![10, 1, 300]⟩) (q : Fin 300) :
    Host.reduceAdd (shapeCast ⟨2, ![10, 300]⟩ (extractStridedSlice ⟨3, ![10, 1, 300]⟩ ![0, r.val, 0] part hs) hc)
        (constant (F := Ideal) ⟨0, ![]⟩ .f32 0x00000000#32) hr hu (ix1 q)
      = zeroW + ∑ t : Fin 10, part (ix3 t r q) := by
  rw [colSum_apply _ _ hr (by decide) hu q]
  refine congrArg (zeroW + ·) (Finset.sum_congr rfl fun t _ => ?_)
  rw [shapeCast_apply _ hc (ix2 t q) (ix3 t (⟨0, Nat.one_pos⟩ : Fin 1) q) (by
    simp [Shape.rowMajor_val_two, Shape.rowMajor_val_three])]
  exact extractStridedSlice_apply _ part hs _ (ix3 t r q) (fun a => by
    match a with
    | ⟨0, _⟩ => simp
    | ⟨1, _⟩ => simp
    | ⟨2, _⟩ => simp)

end Tiles

end Cert.HostReads
end
-- ==== Proof.StatsLaw.lean ====
/-
  The two ways of taking a column's batch statistics give one mean, and on real entries one variance.
-/
import proofs.«119086_j26585847562989_2_alg».proof.Proof.BatchStats
import proofs.«119086_j26585847562989_2_alg».proof.Proof.LibBatchNorm

noncomputable section
namespace Cert.BatchStats
open Idealize.ShloMosaic Idealize.ShloMosaic.ValueIdx Cert.BatchNorm

/-- Ten tile sums, each started at zero, added from zero: the whole column sum started at zero. Sums regroup freely. -/
theorem tiles_regroup (f : Fin 20000 → EReal) :
    zeroW + ∑ t : Fin 10, (zeroW + ∑ p : Fin 2000, f (tileRow t p)) = zeroW + ∑ n : Fin 20000, f n := by
  rw [zero_word_add (∑ n : Fin 20000, f n)]
  exact sum_tiles_words f

/-- The same with the tile sums not started at zero, the row of tile `t` at offset `p` spelt `t · 2000 + p`. -/
theorem tiles_regroup_plain (f : Fin 20000 → EReal) :
    zeroW + ∑ t : Fin 10, ∑ p : Fin 2000, f ⟨t.val * 2000 + p.val, by omega⟩ = zeroW + ∑ n : Fin 20000, f n := by
  rw [sum_tiles f]
  refine congrArg (zeroW + ·) (Finset.sum_congr rfl fun t _ => Finset.sum_congr rfl fun p _ => congrArg f (Fin.ext ?_))
  show t.val * 2000 + p.val = 2000 * t.val + p.val
  omega

/-- The tiled mean is the whole mean. -/
theorem meanTiled_eq (z : Mat 20000 300) (q : Fin 300) : meanTiled z q = meanWhole z q := by
  unfold meanTiled meanWhole tileSum
  exact congrArg (Ideal.div · rowsW) (tiles_regroup fun n => z (ix2 n q))

/-- On real entries the mean of squares less the squared mean, clamped at zero, is the mean of the squared deviations:
    the difference is a mean of squares, so it is not negative and the clamp does nothing. -/
theorem varTiled_eq (z : Mat 20000 300) (hz : ∀ i, IsReal (z i)) (q : Fin 300) : varTiled z q = varWhole z q := by
  unfold varTiled varWhole tileSumSq
  rw [meanTiled_eq, tiles_regroup fun n => z (ix2 n q) * z (ix2 n q)]
  unfold meanWhole
  exact var_law_host (fun n => z (ix2 n q)) (fun n => hz _)

/-- The whole mean of real entries is real; the whole variance of real entries is real and not negative. -/
theorem meanWhole_isReal (z : Mat 20000 300) (hz : ∀ i, IsReal (z i)) (q : Fin 300) : IsReal (meanWhole z q) :=
  mean_host_isReal (fun n => z (ix2 n q)) (fun n => hz _)

theorem varWhole_isReal (z : Mat 20000 300) (hz : ∀ i, IsReal (z i)) (q : Fin 300) :
    IsReal (varWhole z q) ∧ 0 ≤ varWhole z q :=
  var_host_real (fun n => z (ix2 n q)) (fun n => hz _)

end Cert.BatchStats
end
-- ==== Proof.KernelStats.lean ====
/-
  The statistics the tiled program recovers from its per-tile column sums are the whole-column mean and, on real entries,
  the whole-column variance.
-/
import proofs.«119086_j26585847562989_2_alg».proof.Proof.KernelStretchDefs
import proofs.«119086_j26585847562989_2_alg».proof.Proof.RegionLemmas
import proofs.«119086_j26585847562989_2_alg».proof.Proof.HostReads
import proofs.«119086_j26585847562989_2_alg».proof.Proof.StatsLaw

noncomputable section
namespace Cert.KernelIdeal.KJoin
open Idealize.ShloMosaic Idealize.ShloMosaic.ValueIdx
open Cert.KernelIdeal Cert.KernelIdeal.Gen Cert.BatchStats Cert.BatchNorm Cert.HostReads

/-- The tile sums of column `q`, added over the ten tiles from the zero word, are the whole column sum from the zero word. -/
theorem partSum_zero (z : Mat 20000 300) (q : Fin 300) :
    KStretch.partSum (F := Ideal) (RVal.tileStats z) ![0, 0, 0] slices_S10x2x300_S10x1x300_0_0_0 (ix1 q)
      = zeroW + ∑ n : Fin 20000, z (ix2 n q) := by
  unfold KStretch.partSum
  refine (tilesSum_apply (RVal.tileStats z) h_S_ shapeCasts_S10x1x300_S10x300 reducesTo_S10x300_S300_d0 (0 : Fin 2)
    slices_S10x2x300_S10x1x300_0_0_0 q).trans ?_
  simp only [RVal.tileStats_zero]
  exact tiles_regroup_plain fun n => z (ix2 n q)

/-- Likewise for the tile sums of squares. -/
theorem partSum_one (z : Mat 20000 300) (q : Fin 300) :
    KStretch.partSum (F := Ideal) (RVal.tileStats z) ![0, 1, 0] slices_S10x2x300_S10x1x300_0_1_0 (ix1 q)
      = zeroW + ∑ n : Fin 20000, z (ix2 n q) * z (ix2 n q) := by
  unfold KStretch.partSum
  refine (tilesSum_apply (RVal.tileStats z) h_S_ shapeCasts_S10x1x300_S10x300 reducesTo_S10x300_S300_d0 (1 : Fin 2)
    slices_S10x2x300_S10x1x300_0_1_0 q).trans ?_
  simp only [RVal.tileStats_one]
  exact tiles_regroup_plain fun n => z (ix2 n q) * z (ix2 n q)

/-- The recovered mean is the whole-column mean. -/
theorem bnMean_tileStats (z : Mat 20000 300) (q : Fin 300) :
    KStretch.bnMean (F := Ideal) (RVal.tileStats z) (ix1 q) = meanWhole z q := by
  unfold KStretch.bnMean KStretch.nodeCount Host.divf
  dsimp only
  rw [partSum_zero, bcastScalar_apply]
  rfl

/-- On real entries the recovered variance is the whole-column variance. -/
theorem bnVar_tileStats (z : Mat 20000 300) (hz : ∀ i, IsReal (z i)) (q : Fin 300) :
    KStretch.bnVar (F := Ideal) (RVal.tileStats z) (ix1 q) = varWhole z q := by
  unfold KStretch.bnVar maximumf subf mulf
  dsimp only
  rw [bnMean_tileStats, bcastScalar_apply]
  unfold KStretch.nodeCount Host.divf
  dsimp only
  rw [partSum_one, bcastScalar_apply]
  refine Eq.trans ?_ (varTiled_eq z hz q)
  unfold varTiled tileSumSq
  rw [meanTiled_eq, tiles_regroup fun n => z (ix2 n q) * z (ix2 n q)]
  rfl

end Cert.KernelIdeal.KJoin
end
-- ==== Proof.KernelLayerSpec.lean ====
/-
  The tiled program's second and third stage of a layer, fed with the statistics it recovers from its own tile sums,
  entry by entry: the whole-column mean and variance appear in them, as in the reference.
-/
import proofs.«119086_j26585847562989_2_alg».proof.Proof.KernelStats
import proofs.«119086_j26585847562989_2_alg».proof.Proof.SpecEncBn

noncomputable section
namespace Cert.KernelIdeal.KJoin
open Idealize.ShloMosaic Idealize.ShloMosaic.ValueIdx
open Cert.KernelIdeal Cert.KernelIdeal.Gen Cert.BatchStats Cert.BatchNorm Cert.HostReads

/-- A 300-vector laid as one row: entry (0, q) is entry q. -/
theorem rowOf_apply (x : FVec Ideal S300 .f32) (q : Fin 300) :
    KStretch.rowOf (F := Ideal) x (ix2 (0 : Fin 1) q) = x (ix1 q) := by
  unfold KStretch.rowOf
  exact shapeCast_apply x shapeCasts_S300_S1x300 (ix2 (0 : Fin 1) q) (ix1 q)
    (by simp [Shape.rowMajor_val_one, Shape.rowMajor_val_two])

/-- The normalised, clamped entry with the recovered statistics of `z` itself. -/
theorem r1Of_stats (z : Mat 20000 300) (hz : ∀ i, IsReal (z i)) (g be : FVec Ideal S300 .f32) (n : Fin 20000) (k : Fin 300) :
    RVal.r1Of z (KStretch.rowOf (F := Ideal) (KStretch.bnMean (RVal.tileStats z)))
        (KStretch.rowOf (F := Ideal) (KStretch.bnVar (RVal.tileStats z))) (KStretch.rowOf (F := Ideal) g) (KStretch.rowOf (F := Ideal) be) (ix2 n k)
      = max ((z (ix2 n k) - meanWhole z k) * Ideal.rsqrt (varWhole z k + epsW) * g (ix1 k) + be (ix1 k)) 0 := by
  rw [RVal.r1Of_apply, rowOf_apply, rowOf_apply, rowOf_apply, rowOf_apply, bnMean_tileStats, bnVar_tileStats z hz]

/-- The second dense stage with the recovered statistics of its input. -/
theorem z2Of_stats (z : Mat 20000 300) (hz : ∀ i, IsReal (z i)) (g be : FVec Ideal S300 .f32)
    (W : FVec Ideal S300x300 .f32) (b : FVec Ideal S300 .f32) (n : Fin 20000) (q : Fin 300) :
    RVal.z2Of z (KStretch.rowOf (F := Ideal) (KStretch.bnMean (RVal.tileStats z)))
        (KStretch.rowOf (F := Ideal) (KStretch.bnVar (RVal.tileStats z))) (KStretch.rowOf (F := Ideal) g) (KStretch.rowOf (F := Ideal) be)
        W (KStretch.rowOf (F := Ideal) b) (ix2 n q)
      = (∑ k : Fin 300, max ((z (ix2 n k) - meanWhole z k) * Ideal.rsqrt (varWhole z k + epsW) * g (ix1 k) + be (ix1 k)) 0
            * W (ix2 k q)) + b (ix1 q) := by
  rw [RVal.z2Of_apply, rowOf_apply]
  refine congrArg (· + b (ix1 q)) (Finset.sum_congr rfl fun k _ => ?_)
  rw [r1Of_stats z hz]

/-- The last stage with the recovered statistics of its input. -/
theorem bnReluOf_stats (z : Mat 20000 300) (hz : ∀ i, IsReal (z i)) (g be : FVec Ideal S300 .f32) (n : Fin 20000) (q : Fin 300) :
    RVal.bnReluOf z (KStretch.rowOf (F := Ideal) (KStretch.bnMean (RVal.tileStats z)))
        (KStretch.rowOf (F := Ideal) (KStretch.bnVar (RVal.tileStats z))) (KStretch.rowOf (F := Ideal) g) (KStretch.rowOf (F := Ideal) be) (ix2 n q)
      = max ((z (ix2 n q) - meanWhole z q) * Ideal.rsqrt (varWhole z q + epsW) * g (ix1 q) + be (ix1 q)) 0 := by
  rw [RVal.bnReluOf_apply, rowOf_apply, rowOf_apply, rowOf_apply, rowOf_apply, bnMean_tileStats, bnVar_tileStats z hz]

end Cert.KernelIdeal.KJoin
end
-- ==== Proof.HostNorm.lean ====
/-
  The reference's normalise-and-clamp expression and its dense stages, read at one entry (n, q).
-/
import proofs.«119086_j26585847562989_2_alg».proof.Proof.HostReads

noncomputable section
namespace Cert.HostReads
open Idealize.ShloMosaic Idealize.ShloMosaic.ValueIdx Cert.BatchStats

section Norm

variable (hb1 : (⟨1, ![300]⟩ : Shape).BroadcastsInDim ⟨2, ![1, 300]⟩ ![1])
  (hb2 : (⟨2, ![1, 300]⟩ : Shape).BroadcastsInDim ⟨2, ![20000, 300]⟩ ![0, 1])
  (hbv : (⟨0, ![]⟩ : Shape).BroadcastsInDim ⟨1, ![300]⟩ ![])
  (hbm : (⟨0, ![]⟩ : Shape).BroadcastsInDim ⟨2, ![20000, 300]⟩ ![])

/-- A 300-vector copied down the 20000 rows. -/
abbrev downRows (x : FVec Ideal ⟨1, ![300]⟩ .f32) : FVec Ideal ⟨2, ![20000, 300]⟩ .f32 :=
  broadcastInDim ⟨2, ![20000, 300]⟩ ![0, 1] hb2 (broadcastInDim ⟨2, ![1, 300]⟩ ![1] hb1 x)

theorem downRows_apply (x : FVec Ideal ⟨1, ![300]⟩ .f32) (n : Fin 20000) (q : Fin 300) :
    downRows hb1 hb2 x (ix2 n q) = x (ix1 q) := bcastRows_apply hb1 hb2 x n q

/-- The reference's normalise, scale, shift and clamp at entry (n, q):
    max ((z − mean) · rsqrt (var + eps) · g + be, 0) with the column's statistics and parameters. -/
theorem normClamp_apply (z : FVec Ideal ⟨2, ![20000, 300]⟩ .f32) (mean var g be : FVec Ideal ⟨1, ![300]⟩ .f32)
    (n : Fin 20000) (q : Fin 300) :
    maximumf
        (addf (mulf (mulf (subf z (downRows hb1 hb2 mean))
            (downRows hb1 hb2 (Host.rsqrt (addf var (broadcastInDim ⟨1, ![300]⟩ ![] hbv (constant (F := Ideal) ⟨0, ![]⟩ .f32 0x3727C5AC#32))))))
          (downRows hb1 hb2 g)) (downRows hb1 hb2 be))
        (broadcastInDim ⟨2, ![20000, 300]⟩ ![] hbm (constant (F := Ideal) ⟨0, ![]⟩ .f32 0x00000000#32)) (ix2 n q)
      = max ((z (ix2 n q) - mean (ix1 q)) * Ideal.rsqrt (var (ix1 q) + epsW) * g (ix1 q) + be (ix1 q)) zeroW := by
  unfold maximumf addf mulf subf
  dsimp only
  rw [downRows_apply, downRows_apply, downRows_apply, downRows_apply, bcastScalar_apply]
  unfold Host.rsqrt
  dsimp only
  rw [bcastScalar_apply]
  rfl

end Norm

end Cert.HostReads
end
-- ==== Proof.LibRealArrays.lean ====
/-
  Arrays of real entries.

  A float is read as an extended real. An array is ENTRYWISE REAL when each of its entries is a real
  number (neither +∞ nor −∞). The operations of a layer of a graph network keep arrays entrywise real:
  • a re-indexing (a gather, a broadcast, a reshaping, a slice, a transposition, a change of float
    format) — each entry of the result is an entry of the operand;
  • an entrywise sum, difference, product or maximum, a quotient by nonzero reals, and the
    reciprocal square root of positive reals;
  • a splat of a literal that is a real number;
  • a finite sum of entries: a reduction along axes (with its initial value), a contraction
    Σ lhs · rhs (with or without an accumulator), and an accumulating scatter (each operand entry
    plus the sum of the update entries that land on it).
-/
import Idealize.ShloMosaic.PureOps.Ideal.Laws
import proofs.«119086_j26585847562989_2_alg».proof.Proof.LibBatchNorm

noncomputable section

namespace Cert.RealArrays

open Idealize.ShloMosaic Cert.BatchNorm
open scoped BigOperators

variable {s t : Shape} {φ : FTy}

/-! ### Re-indexings: each entry of the result is an entry of the operand -/

/-- A gather of an entrywise-real array is entrywise real: each entry read is an entry of the operand. -/
theorem gather_isReal {si : Shape} {w : Nat} (d : GatherDims s si t) (x : s.Idx → EReal) (idx : IVec si w)
    (hx : ∀ k, IsReal (x k)) : ∀ j, IsReal (Host.gather d x idx j) :=
  fun j => hx (d.operandIdx j idx)

/-- A broadcast along named axes of an entrywise-real array is entrywise real. -/
theorem broadcastInDim_isReal (dims : Fin s.rank → Fin t.rank) (h : s.BroadcastsInDim t dims) (x : s.Idx → EReal)
    (hx : ∀ k, IsReal (x k)) : ∀ j, IsReal (broadcastInDim t dims h x j) :=
  fun _ => hx _

/-- A broadcast along leading axes of an entrywise-real array is entrywise real. -/
theorem broadcastTo_isReal (x : s.Idx → EReal) (h : s.Broadcasts t) (hx : ∀ k, IsReal (x k)) :
    ∀ j, IsReal (broadcastTo t x h j) :=
  fun _ => hx _

/-- The splat of a real number is entrywise real. -/
theorem broadcast_isReal (x : EReal) (hx : IsReal x) : ∀ j, IsReal (broadcast t x j) :=
  fun _ => hx

/-- A reshaping of an entrywise-real array is entrywise real. -/
theorem shapeCast_isReal (x : s.Idx → EReal) (h : s.ShapeCasts t) (hx : ∀ k, IsReal (x k)) :
    ∀ j, IsReal (shapeCast t x h j) :=
  fun _ => hx _

/-- A block cut out of an entrywise-real array is entrywise real. -/
theorem extractStridedSlice_isReal (off : Fin s.rank → Nat) (x : s.Idx → EReal) (h : s.Slices off t)
    (hx : ∀ k, IsReal (x k)) : ∀ j, IsReal (extractStridedSlice t off x h j) :=
  fun _ => hx _

/-- A strided slice of an entrywise-real array is entrywise real. -/
theorem slice_isReal (start strides : Fin s.rank → Nat) (x : s.Idx → EReal) (h : s.SlicesBy start strides t)
    (hx : ∀ k, IsReal (x k)) : ∀ j, IsReal (Host.slice t start strides x h j) :=
  fun _ => hx _

/-- A transposition of an entrywise-real array is entrywise real. -/
theorem transpose_isReal (perm : List (Fin s.rank)) (x : s.Idx → EReal) (h : s.Transposes perm t)
    (hx : ∀ k, IsReal (x k)) : ∀ j, IsReal (transpose t perm x h j) :=
  fun _ => hx _

/-- Narrowing the float format of an entrywise-real array leaves it entrywise real (the change is the identity). -/
theorem truncf_isReal (ψ : FTy) (x : FVec Ideal s φ) (h : ψ.bits < φ.bits) (hx : ∀ k, IsReal (x k)) :
    ∀ j, IsReal (truncf ψ x h j) :=
  fun j => hx j

/-- Widening the float format of an entrywise-real array leaves it entrywise real (the change is the identity). -/
theorem extf_isReal (ψ : FTy) (x : FVec Ideal s φ) (h : φ.bits < ψ.bits) (hx : ∀ k, IsReal (x k)) :
    ∀ j, IsReal (extf ψ x h j) :=
  fun j => hx j

/-! ### Entrywise arithmetic -/

/-- The entrywise sum of entrywise-real arrays is entrywise real. -/
theorem addf_isReal (x y : FVec Ideal s φ) (hx : ∀ k, IsReal (x k)) (hy : ∀ k, IsReal (y k)) : ∀ j, IsReal (addf x y j) :=
  fun j => (hx j).add (hy j)

/-- The entrywise difference of entrywise-real arrays is entrywise real. -/
theorem subf_isReal (x y : FVec Ideal s φ) (hx : ∀ k, IsReal (x k)) (hy : ∀ k, IsReal (y k)) : ∀ j, IsReal (subf x y j) :=
  fun j => (hx j).sub (hy j)

/-- The entrywise product of entrywise-real arrays is entrywise real. -/
theorem mulf_isReal (x y : FVec Ideal s φ) (hx : ∀ k, IsReal (x k)) (hy : ∀ k, IsReal (y k)) : ∀ j, IsReal (mulf x y j) :=
  fun j => (hx j).mul (hy j)

/-- The entrywise maximum of entrywise-real arrays is entrywise real. -/
theorem maximumf_isReal (x y : FVec Ideal s φ) (hx : ∀ k, IsReal (x k)) (hy : ∀ k, IsReal (y k)) :
    ∀ j, IsReal (maximumf x y j) :=
  fun j => (hx j).max (hy j)

/-- The entrywise quotient of an entrywise-real array by an entrywise-real array without zeros is entrywise real. -/
theorem hostDivf_isReal (x y : FVec Ideal s φ) (hx : ∀ k, IsReal (x k)) (hy : ∀ k, IsReal (y k)) (hy0 : ∀ k, y k ≠ 0) :
    ∀ j, IsReal (Host.divf x y j) :=
  fun j => (hx j).div (hy j) (hy0 j)

/-- The same for the quotient computed inside a tile. -/
theorem divf_isReal (x y : FVec Ideal s φ) (hx : ∀ k, IsReal (x k)) (hy : ∀ k, IsReal (y k)) (hy0 : ∀ k, y k ≠ 0) :
    ∀ j, IsReal (divf x y j) :=
  fun j => (hx j).div (hy j) (hy0 j)

/-- The entrywise reciprocal square root of an entrywise-real array with positive entries is entrywise real. -/
theorem rsqrt_isReal (x : FVec Ideal s φ) (hx : ∀ k, IsReal (x k)) (hpos : ∀ k, 0 < x k) : ∀ j, IsReal (rsqrt x j) :=
  fun j => (hx j).rsqrt (hpos j)

/-- The same for the reciprocal square root computed outside a tile. -/
theorem hostRsqrt_isReal (x : FVec Ideal s φ) (hx : ∀ k, IsReal (x k)) (hpos : ∀ k, 0 < x k) :
    ∀ j, IsReal (Host.rsqrt x j) :=
  fun j => (hx j).rsqrt (hpos j)

/-! ### Splats of literals -/

/-- The splat of a float word that denotes a real number is entrywise real. -/
theorem constant_isReal (b : BitVec φ.bits) (hb : IsReal (Ideal.ofBits φ b)) : ∀ j : s.Idx, IsReal (constant (F := Ideal) s φ b j) :=
  fun _ => hb

/-- The splat of the zero word is entrywise real. -/
theorem constant_zero_isReal : ∀ j : s.Idx, IsReal (constant (F := Ideal) s .f32 0x00000000#32 j) :=
  constant_isReal _ ⟨0, ofBits_zero⟩

/-- The splat of the word of the number 1 is entrywise real. -/
theorem constant_one_isReal : ∀ j : s.Idx, IsReal (constant (F := Ideal) s .f32 0x3F800000#32 j) :=
  constant_isReal _ ⟨1, ofBits_one⟩

/-- The splat of the word of the number 20000 is entrywise real. -/
theorem constant_20000_isReal : ∀ j : s.Idx, IsReal (constant (F := Ideal) s .f32 0x469C4000#32 j) :=
  constant_isReal _ ⟨20000, ofBits_20000⟩

/-- The splat of the small positive word 0x3727C5AC is entrywise real. -/
theorem constant_eps_isReal : ∀ j : s.Idx, IsReal (constant (F := Ideal) s .f32 0x3727C5AC#32 j) :=
  constant_isReal _ (by obtain ⟨e, _, he⟩ := ofBits_eps; exact ⟨e, he⟩)

/-- The small positive word 0x3727C5AC is a positive real entry. -/
theorem eps_isReal_pos : IsReal (Ideal.ofBits .f32 0x3727C5AC#32) ∧ 0 < Ideal.ofBits .f32 0x3727C5AC#32 := by
  obtain ⟨e, he0, he⟩ := ofBits_eps
  rw [he]; exact ⟨IsReal.coe e, EReal.coe_pos.mpr he0⟩

/-! ### Finite sums of entries -/

/-- A reduction by sum along axes, started from a real value, of an entrywise-real array is entrywise real. -/
theorem hostReduceAdd_isReal {axes : List (Fin s.rank)} {u : Shape} (x : FVec Ideal s φ) (init : u.Idx → Ideal φ)
    (h : s.ReducesTo axes t) (hu : 0 < u.numel) (hx : ∀ k, IsReal (x k)) (hi : ∀ k, IsReal (init k)) :
    ∀ j, IsReal (Host.reduceAdd x init h hu j) := by
  intro j
  show IsReal (Ideal.hostReduceAdd h x (init (Shape.Idx.first hu)) j)
  unfold Ideal.hostReduceAdd
  exact (hi _).add (IsReal.sum _ _ fun i _ => hx i)

/-- A reduction by sum along axes inside a tile of an entrywise-real array is entrywise real. -/
theorem reduceAdd_isReal {axes : List (Fin s.rank)} (x : FVec Ideal s φ) (h : s.Reduces axes t) (hx : ∀ k, IsReal (x k)) :
    ∀ j, IsReal (FloatOps.reduceAdd axes h x j) := by
  intro j
  show IsReal (Ideal.reduceAdd h x j)
  unfold Ideal.reduceAdd
  exact IsReal.sum _ _ fun i _ => hx i

/-- A contraction Σ lhs · rhs of entrywise-real arrays is entrywise real. -/
theorem dotGeneral_isReal {sl sr so : Shape} {φ₁ φ₂ : FTy} (d : DotDims sl sr so) (prec : Option ContractPrecision)
    (sched : HostSchedule) (lhs : FVec Ideal sl φ₁) (rhs : FVec Ideal sr φ₂) (hl : ∀ k, IsReal (lhs k)) (hr : ∀ k, IsReal (rhs k)) :
    ∀ j, IsReal (FloatOps.dotGeneral d prec sched lhs rhs j) := by
  intro j
  rw [Ideal.dotGeneral_apply]
  exact IsReal.sum _ _ fun k _ => (hl _).mul (hr _)

/-- A contraction added to an accumulator, acc + Σ lhs · rhs, of entrywise-real arrays is entrywise real. -/
theorem matmul_isReal {sl sr so : Shape} {φ₁ φ₂ : FTy} (d : DotDims sl sr so) (prec : Option ContractPrecision)
    (lhs : FVec Ideal sl φ₁) (rhs : FVec Ideal sr φ₂) (acc : FVec Ideal so .f32) (hl : ∀ k, IsReal (lhs k))
    (hr : ∀ k, IsReal (rhs k)) (ha : ∀ k, IsReal (acc k)) : ∀ j, IsReal (FloatOps.matmul d prec lhs rhs acc j) := by
  intro j
  rw [Ideal.matmul_apply]
  exact (ha j).add (IsReal.sum _ _ fun k _ => (hl _).mul (hr _))

/-- An accumulating scatter (each operand entry plus the sum of the update entries landing on it) of entrywise-real arrays is entrywise real. -/
theorem scatterAdd_isReal {si u : Shape} {w : Nat} (d : ScatterDims s si u) (x : FVec Ideal s φ) (idx : IVec si w)
    (upd : FVec Ideal u φ) (hx : ∀ k, IsReal (x k)) (hupd : ∀ k, IsReal (upd k)) :
    ∀ i, IsReal (Host.scatterAdd d x idx upd i) := by
  intro i
  show IsReal (Ideal.hostScatterAdd d x idx upd i)
  unfold Ideal.hostScatterAdd
  exact (hx i).add (IsReal.sum _ _ fun j _ => hupd j)

end Cert.RealArrays
-- ==== Proof.RefLayerSpec.lean ====
/-
  One layer of the reference network, entry by entry.

  The layer's stages are compositions of whole-array operations. Read at one entry they are plain formulas:
  • the column mean at column q is (Σ_n z(n, q)) / 20000, and the column variance is the mean of the squared
    deviations from it;
  • normalisation, scale, shift and clamp at (n, q) is
      max((z(n, q) − mean(q)) · rsqrt(var(q) + ε) · g(q) + be(q), 0);
  • a dense stage at (n, q) is Σ_k x(n, k) · W(k, q) + b(q), and the first one is applied to
    (1 + eps) · h(n, k) + agg(n, k).
  Every stage maps arrays of real entries to arrays of real entries (the variance of real entries is a
  nonnegative real, so the reciprocal square root of variance plus ε is real), hence so does the whole layer.
-/
import proofs.«119086_j26585847562989_2_alg».proof.Proof.RefValueDefs
import proofs.«119086_j26585847562989_2_alg».proof.Proof.HostNorm
import proofs.«119086_j26585847562989_2_alg».proof.Proof.LibDenseRows
import proofs.«119086_j26585847562989_2_alg».proof.Proof.StatsLaw
import proofs.«119086_j26585847562989_2_alg».proof.Proof.LibRealArrays

noncomputable section

namespace Cert.RefLayerSpec
open Idealize.ShloMosaic Idealize.ShloMosaic.ValueIdx Cert.BatchStats Cert.BatchNorm Cert.HostReads Cert.RealArrays
open Cert.ReferenceIdeal Cert.ReferenceIdeal.Gen Cert.ReferenceIdeal.RVal
open scoped BigOperators

/-- The float word of the number 1. -/
abbrev oneW : EReal := Ideal.ofBits .f32 0x3F800000#32

/-- A matrix index is the pair of its two coordinates. -/
theorem idx_eq (i : S20000x300.Idx) : i = ix2 (i 0) (i 1) := eq_ix2 i

/-! ### The column statistics -/

/-- The column mean at column q is the whole-column mean. -/
theorem colMean_apply (z : FVec Ideal S20000x300 .f32) (q : Fin 300) :
    colMean (F := Ideal) z (ix1 q) = meanWhole z q :=
  mean_apply z reducesTo_S20000x300_S300_d0 h_S_ bcast_S_S300 q

/-- The column variance at column q is the mean of the squared deviations from the whole-column mean. -/
theorem colVar_apply (z : FVec Ideal S20000x300 .f32) (q : Fin 300) :
    colVar (F := Ideal) z (ix1 q) = varWhole z q :=
  var_apply z reducesTo_S20000x300_S300_d0 h_S_ bcast_S300_S1x300_1 bcast_S_S1x300 bcast_S1x300_S20000x300_0_1 bcast_S_S300
    (constantI S_ 32 0#32) rfl (constant S_ .f32 0x7FC00000#32) q

/-! ### Normalisation and clamp -/

/-- Batch normalisation, scale, shift and clamp at entry (n, q), in the column's whole mean and variance. -/
theorem bnRelu_apply (z : FVec Ideal S20000x300 .f32) (g be : FVec Ideal S300 .f32) (n : Fin 20000) (q : Fin 300) :
    bnRelu (F := Ideal) z g be (ix2 n q)
      = max ((z (ix2 n q) - meanWhole z q) * Ideal.rsqrt (varWhole z q + epsW) * g (ix1 q) + be (ix1 q)) zeroW := by
  refine (normClamp_apply bcast_S300_S1x300_1 bcast_S1x300_S20000x300_0_1 bcast_S_S300 bcast_S_S20000x300 z
    (colMean (F := Ideal) z) (colVar (F := Ideal) z) g be n q).trans ?_
  rw [colMean_apply, colVar_apply]

/-! ### The dense stages -/

/-- (1 + eps) · h + agg at entry (n, k). -/
theorem combine_apply (eps : FVec Ideal S_ .f32) (h agg : FVec Ideal S20000x300 .f32) (n : Fin 20000) (k : Fin 300) :
    combine (F := Ideal) eps h agg (ix2 n k) = (oneW + eps ix0) * h (ix2 n k) + agg (ix2 n k) := by
  show broadcastInDim S20000x300 ![] bcast_S_S20000x300 (addf (constant (F := Ideal) S_ .f32 0x3F800000#32) eps) (ix2 n k)
      * h (ix2 n k) + agg (ix2 n k) = _
  rw [bcastScalar_apply]
  rfl

/-- A dense stage x · W + b at entry (n, q): Σ x(n, k) · W(k, q) + b(q). -/
theorem dense_apply (x : FVec Ideal S20000x300 .f32) (W : FVec Ideal S300x300 .f32) (b : FVec Ideal S300 .f32)
    (n : Fin 20000) (q : Fin 300) :
    dense (F := Ideal) x W b (ix2 n q) = (∑ k : Fin 300, x (ix2 n k) * W (ix2 k q)) + b (ix1 q) := by
  refine (DenseRows.dot_bias_apply (m := 20000) (k := 300) (n := 300) none x W
    (broadcastInDim S1x300 ![1] bcast_S300_S1x300_1 b) bcast_S1x300_S20000x300_0_1 n q).trans ?_
  show (∑ c : Fin 300, x (ix2 n c) * W (ix2 c q)) + broadcastInDim S1x300 ![1] bcast_S300_S1x300_1 b (ix2 (0 : Fin 1) q) = _
  rw [broadcastInDim_apply ![1] bcast_S300_S1x300_1 b (ix2 (0 : Fin 1) q) (ix1 q) (fun a => by
    match a with
    | ⟨0, _⟩ => rfl)]

/-- The first dense stage of a layer at entry (n, q): Σ ((1 + eps) · h(n, k) + agg(n, k)) · W(k, q) + b(q). -/
theorem dense_combine_apply (eps : FVec Ideal S_ .f32) (h agg : FVec Ideal S20000x300 .f32) (W : FVec Ideal S300x300 .f32)
    (b : FVec Ideal S300 .f32) (n : Fin 20000) (q : Fin 300) :
    dense (F := Ideal) (combine (F := Ideal) eps h agg) W b (ix2 n q)
      = (∑ k : Fin 300, ((oneW + eps ix0) * h (ix2 n k) + agg (ix2 n k)) * W (ix2 k q)) + b (ix1 q) := by
  rw [dense_apply]
  refine congrArg (· + b (ix1 q)) (Finset.sum_congr rfl fun k _ => ?_)
  rw [combine_apply]

/-! ### Real entries stay real through a layer -/

/-- The column means of an entrywise-real matrix are real. -/
theorem colMean_isReal (z : FVec Ideal S20000x300 .f32) (hz : ∀ i, IsReal (z i)) : ∀ j, IsReal (colMean (F := Ideal) z j) := by
  intro j
  obtain ⟨q, rfl⟩ : ∃ q, j = ix1 q := ⟨j 0, eq_ix1 j⟩
  rw [colMean_apply]
  exact meanWhole_isReal z hz q

/-- The column variances of an entrywise-real matrix are real and not negative. -/
theorem colVar_isReal (z : FVec Ideal S20000x300 .f32) (hz : ∀ i, IsReal (z i)) :
    ∀ j, IsReal (colVar (F := Ideal) z j) ∧ 0 ≤ colVar (F := Ideal) z j := by
  intro j
  obtain ⟨q, rfl⟩ : ∃ q, j = ix1 q := ⟨j 0, eq_ix1 j⟩
  rw [colVar_apply]
  exact varWhole_isReal z hz q

/-- Batch normalisation and clamp of an entrywise-real matrix with real scale and shift is entrywise real. -/
theorem bnRelu_isReal (z : FVec Ideal S20000x300 .f32) (g be : FVec Ideal S300 .f32) (hz : ∀ i, IsReal (z i))
    (hg : ∀ j, IsReal (g j)) (hbe : ∀ j, IsReal (be j)) : ∀ i, IsReal (bnRelu (F := Ideal) z g be i) := by
  intro i
  obtain ⟨n, q, rfl⟩ : ∃ n q, i = ix2 n q := ⟨i 0, i 1, eq_ix2 i⟩
  rw [bnRelu_apply]
  have hv := varWhole_isReal z hz q
  rw [show (zeroW : EReal) = 0 from Ideal.ofBits_zero_f32]
  exact bn_relu_word_isReal (hz _) (meanWhole_isReal z hz q) hv.1 hv.2 (hg _) (hbe _)

/-- (1 + eps) · h + agg of entrywise-real arrays is entrywise real. -/
theorem combine_isReal (eps : FVec Ideal S_ .f32) (h agg : FVec Ideal S20000x300 .f32) (heps : ∀ i, IsReal (eps i))
    (hh : ∀ i, IsReal (h i)) (hagg : ∀ i, IsReal (agg i)) : ∀ i, IsReal (combine (F := Ideal) eps h agg i) :=
  addf_isReal _ _ (mulf_isReal _ _ (broadcastInDim_isReal _ _ _ (addf_isReal _ _ constant_one_isReal heps)) hh) hagg

/-- A dense stage of entrywise-real arrays is entrywise real. -/
theorem dense_isReal (x : FVec Ideal S20000x300 .f32) (W : FVec Ideal S300x300 .f32) (b : FVec Ideal S300 .f32)
    (hx : ∀ i, IsReal (x i)) (hW : ∀ i, IsReal (W i)) (hb : ∀ i, IsReal (b i)) : ∀ i, IsReal (dense (F := Ideal) x W b i) := by
  intro i
  obtain ⟨n, q, rfl⟩ : ∃ n q, i = ix2 n q := ⟨i 0, i 1, eq_ix2 i⟩
  rw [dense_apply]
  exact IsReal.dense _ _ _ (fun _ => hx _) (fun _ => hW _) (hb _)

/-- The clamped messages of entrywise-real node features and edge encodings are entrywise real. -/
theorem messages_isReal (h : FVec Ideal S20000x300 .f32) (ea : FVec Ideal S320000x300 .f32) (src : IVec S320000 32)
    (hh : ∀ i, IsReal (h i)) (hea : ∀ i, IsReal (ea i)) : ∀ i, IsReal (messages (F := Ideal) h ea src i) :=
  maximumf_isReal _ _ (addf_isReal _ _ (gather_isReal _ _ _ hh) hea) (broadcastInDim_isReal _ _ _ constant_zero_isReal)

/-- The messages summed at their targets are entrywise real. -/
theorem aggregate_isReal (h : FVec Ideal S20000x300 .f32) (ea : FVec Ideal S320000x300 .f32) (src dst : IVec S320000 32)
    (hh : ∀ i, IsReal (h i)) (hea : ∀ i, IsReal (ea i)) : ∀ i, IsReal (aggregate (F := Ideal) h ea src dst i) :=
  scatterAdd_isReal _ _ _ _ (broadcastInDim_isReal _ _ _ constant_zero_isReal) (messages_isReal h ea src hh hea)

/-- One whole layer of entrywise-real arrays and parameters is entrywise real. -/
theorem refLayer_isReal (h : FVec Ideal S20000x300 .f32) (ea : FVec Ideal S320000x300 .f32) (src dst : IVec S320000 32)
    (eps : FVec Ideal S_ .f32) (W1 : FVec Ideal S300x300 .f32) (b1 g1 be1 : FVec Ideal S300 .f32) (W2 : FVec Ideal S300x300 .f32)
    (b2 g2 be2 : FVec Ideal S300 .f32) (hh : ∀ i, IsReal (h i)) (hea : ∀ i, IsReal (ea i)) (heps : ∀ i, IsReal (eps i))
    (hW1 : ∀ i, IsReal (W1 i)) (hb1 : ∀ i, IsReal (b1 i)) (hg1 : ∀ i, IsReal (g1 i)) (hbe1 : ∀ i, IsReal (be1 i))
    (hW2 : ∀ i, IsReal (W2 i)) (hb2 : ∀ i, IsReal (b2 i)) (hg2 : ∀ i, IsReal (g2 i)) (hbe2 : ∀ i, IsReal (be2 i)) :
    ∀ i, IsReal (refLayer (F := Ideal) h ea src dst eps W1 b1 g1 be1 W2 b2 g2 be2 i) :=
  bnRelu_isReal _ _ _
    (dense_isReal _ _ _
      (bnRelu_isReal _ _ _
        (dense_isReal _ _ _ (combine_isReal _ _ _ heps hh (aggregate_isReal h ea src dst hh hea)) hW1 hb1) hg1 hbe1)
      hW2 hb2) hg2 hbe2

/-- A layer's parameters cut out of entrywise-real stacked arrays are entrywise real. -/
theorem epsAt_isReal (o : Nat) (a : FVec Ideal S5 .f32) (hs : S5.Slices ![o] S1) (ha : ∀ i, IsReal (a i)) :
    ∀ i, IsReal (epsAt (F := Ideal) o a hs i) :=
  shapeCast_isReal _ _ (extractStridedSlice_isReal _ _ _ ha)

@[inherit_doc epsAt_isReal]
theorem matAt_isReal (o : Nat) (a : FVec Ideal S5x300x300 .f32) (hs : S5x300x300.Slices ![o, 0, 0] S1x300x300)
    (ha : ∀ i, IsReal (a i)) : ∀ i, IsReal (matAt (F := Ideal) o a hs i) :=
  shapeCast_isReal _ _ (extractStridedSlice_isReal _ _ _ ha)

@[inherit_doc epsAt_isReal]
theorem rowAt_isReal (o : Nat) (a : FVec Ideal S5x300 .f32) (hs : S5x300.Slices ![o, 0] S1x300) (ha : ∀ i, IsReal (a i)) :
    ∀ i, IsReal (rowAt (F := Ideal) o a hs i) :=
  shapeCast_isReal _ _ (extractStridedSlice_isReal _ _ _ ha)

/-- The node embedding read out of an entrywise-real table is entrywise real. -/
theorem embed_isReal (tbl : FVec Ideal S119x300 .f32) (x : IVec S20000 32) (ht : ∀ i, IsReal (tbl i)) :
    ∀ i, IsReal (embed (F := Ideal) tbl x i) :=
  gather_isReal _ _ _ ht

/-- The edge encoding of entrywise-real attributes and parameters is entrywise real. -/
theorem encodeEdges_isReal (attr : FVec Ideal S320000x7 .f32) (We : FVec Ideal S7x300 .f32) (be : FVec Ideal S300 .f32)
    (ha : ∀ i, IsReal (attr i)) (hW : ∀ i, IsReal (We i)) (hb : ∀ i, IsReal (be i)) :
    ∀ i, IsReal (encodeEdges (F := Ideal) attr We be i) :=
  addf_isReal _ _ (dotGeneral_isReal _ _ _ _ _ ha hW) (broadcastInDim_isReal _ _ _ (broadcastInDim_isReal _ _ _ hb))

end Cert.RefLayerSpec
end
-- ==== Proof.GlueJoin.lean ====
/-
  The two programs' glue is the same arithmetic.

  Outside the layers the tiled program and the reference apply the same operations to the same arrays: the node
  embedding is one gather, the edges' endpoints are the two rows of the edge list, a layer's parameters are one slice
  of each stacked array, and the pooling and classifier are one composition of a scatter-sum, a quotient and two dense
  stages. The edge encoding is written once as the affine image of every row, Σ a(p, c) · w(c, q) + b(q), and once as a
  matrix product plus the bias copied down the rows; entry by entry these are the same sum. The scale row of a layer is
  1 + eps in every column. A change of float format is the identity at the exact values.
-/
import proofs.«119086_j26585847562989_2_alg».proof.Proof.KernelStretchDefs
import proofs.«119086_j26585847562989_2_alg».proof.Proof.KernelLayerSpec
import proofs.«119086_j26585847562989_2_alg».proof.Proof.RefValueDefs
import proofs.«119086_j26585847562989_2_alg».proof.Proof.RefLayerSpec
import proofs.«119086_j26585847562989_2_alg».proof.Proof.SpecEncBn
import proofs.«119086_j26585847562989_2_alg».proof.Proof.LibDenseRows

set_option maxRecDepth 16384

noncomputable section

namespace Cert.Glue

open Idealize.ShloMosaic Idealize.ShloMosaic.ValueIdx
open Cert.BatchStats Cert.BatchNorm Cert.HostReads Cert.RealArrays Cert.RefLayerSpec
open scoped BigOperators

/-- The node embedding is the same gather in both programs. -/
theorem embed_eq (tbl : FVec Ideal ⟨2, ![119, 300]⟩ .f32) (x : IVec ⟨1, ![20000]⟩ 32) :
    Cert.KernelIdeal.KStretch.nodeEmbed (F := Ideal) tbl x = Cert.ReferenceIdeal.RVal.embed (F := Ideal) tbl x := by
  unfold Cert.KernelIdeal.KStretch.nodeEmbed Cert.KernelIdeal.KStretch.nodeIdx Cert.ReferenceIdeal.RVal.embed
  rfl

/-- The edges' sources are the same row of the edge list in both programs. -/
theorem src_eq (ei : IVec ⟨2, ![2, 320000]⟩ 32) :
    Cert.KernelIdeal.KStretch.edgeRow (F := Ideal) ei ![0, 0] Cert.KernelIdeal.Gen.slices_S2x320000_S1x320000_0_0
      = Cert.ReferenceIdeal.RVal.srcOf (F := Ideal) ei := by
  unfold Cert.KernelIdeal.KStretch.edgeRow Cert.ReferenceIdeal.RVal.srcOf
  rfl

/-- The edges' targets are the same row of the edge list in both programs. -/
theorem dst_eq (ei : IVec ⟨2, ![2, 320000]⟩ 32) :
    Cert.KernelIdeal.KStretch.edgeRow (F := Ideal) ei ![1, 0] Cert.KernelIdeal.Gen.slices_S2x320000_S1x320000_1_0
      = Cert.ReferenceIdeal.RVal.dstOf (F := Ideal) ei := by
  unfold Cert.KernelIdeal.KStretch.edgeRow Cert.ReferenceIdeal.RVal.dstOf
  rfl

/-- The edge encoding: the affine image of every row of the edge attributes is the dense stage of the reference. -/
theorem edgeEnc_eq (a : FVec Ideal ⟨2, ![320000, 7]⟩ .f32) (w : FVec Ideal ⟨2, ![7, 300]⟩ .f32) (b : FVec Ideal ⟨1, ![300]⟩ .f32) :
    Cert.KernelIdeal.RVal.edgeEncOf (m := 320000) (k := 7) (n := 300) a w (Cert.KernelIdeal.KStretch.rowOf (F := Ideal) b)
      = Cert.ReferenceIdeal.RVal.encodeEdges (F := Ideal) a w b := by
  funext i
  obtain ⟨p, q, rfl⟩ : ∃ (p : Fin 320000) (q : Fin 300), i = ix2 p q := ⟨i 0, i 1, eq_ix2 i⟩
  rw [Cert.KernelIdeal.RVal.edgeEncOf_apply, Cert.KernelIdeal.KJoin.rowOf_apply]
  unfold Cert.ReferenceIdeal.RVal.encodeEdges
  symm
  refine (DenseRows.dot_bias_apply (m := 320000) (k := 7) (n := 300) none a w
    (broadcastInDim Cert.ReferenceIdeal.S1x300 ![1] Cert.ReferenceIdeal.Gen.bcast_S300_S1x300_1 b)
    Cert.ReferenceIdeal.Gen.bcast_S1x300_S320000x300_0_1 p q).trans ?_
  show (∑ c : Fin 7, a (ix2 p c) * w (ix2 c q))
      + broadcastInDim Cert.ReferenceIdeal.S1x300 ![1] Cert.ReferenceIdeal.Gen.bcast_S300_S1x300_1 b (ix2 (0 : Fin 1) q) = _
  rw [broadcastInDim_apply ![1] Cert.ReferenceIdeal.Gen.bcast_S300_S1x300_1 b (ix2 (0 : Fin 1) q) (ix1 q) (fun a => by
    match a with
    | ⟨0, _⟩ => rfl)]

/-- The scale row of layer o is 1 + eps(o) in every column. -/
theorem scale_eq (o : Nat) (a : FVec Ideal ⟨1, ![5]⟩ .f32) (hsK : Cert.KernelIdeal.S5.Slices ![o] Cert.KernelIdeal.S1)
    (hsR : Cert.ReferenceIdeal.S5.Slices ![o] Cert.ReferenceIdeal.S1) (k : Fin 300) :
    Cert.KernelIdeal.KStretch.scaleRow (F := Ideal) a ![o] hsK (ix2 (0 : Fin 1) k)
      = oneW + Cert.ReferenceIdeal.RVal.epsAt (F := Ideal) o a hsR ix0 := by
  unfold Cert.KernelIdeal.KStretch.scaleRow Cert.ReferenceIdeal.RVal.epsAt
  rw [broadcastInDim_apply ![0, 1] Cert.KernelIdeal.Gen.bcast_S1x1_S1x300_0_1 _ (ix2 (0 : Fin 1) k) (ix2 (0 : Fin 1) (0 : Fin 1)) (fun a => by
    match a with
    | ⟨0, _⟩ => rfl
    | ⟨1, _⟩ => rfl), bcastScalar_apply]
  rfl

/-- Matrix o of a stack of five is the same slice in both programs. -/
theorem mat_eq (o : Nat) (a : FVec Ideal ⟨3, ![5, 300, 300]⟩ .f32)
    (hsK : Cert.KernelIdeal.S5x300x300.Slices ![o, 0, 0] Cert.KernelIdeal.S1x300x300)
    (hsR : Cert.ReferenceIdeal.S5x300x300.Slices ![o, 0, 0] Cert.ReferenceIdeal.S1x300x300) :
    Cert.KernelIdeal.KStretch.layerMat (F := Ideal) a ![o, 0, 0] hsK = Cert.ReferenceIdeal.RVal.matAt (F := Ideal) o a hsR := by
  unfold Cert.KernelIdeal.KStretch.layerMat Cert.ReferenceIdeal.RVal.matAt
  rfl

/-- Row o of a stack of five is the same slice in both programs. -/
theorem vec_eq (o : Nat) (a : FVec Ideal ⟨2, ![5, 300]⟩ .f32)
    (hsK : Cert.KernelIdeal.S5x300.Slices ![o, 0] Cert.KernelIdeal.S1x300)
    (hsR : Cert.ReferenceIdeal.S5x300.Slices ![o, 0] Cert.ReferenceIdeal.S1x300) :
    Cert.KernelIdeal.KStretch.layerVec (F := Ideal) a ![o, 0] hsK = Cert.ReferenceIdeal.RVal.rowAt (F := Ideal) o a hsR := by
  unfold Cert.KernelIdeal.KStretch.layerVec Cert.ReferenceIdeal.RVal.rowAt
  rfl

/-- The pooling and classifier are the same composition of operations in both programs. -/
theorem tail_eq (h : FVec Ideal ⟨2, ![20000, 300]⟩ .f32) (g : IVec ⟨1, ![20000]⟩ 32) (wa : FVec Ideal ⟨2, ![300, 150]⟩ .f32)
    (ba : FVec Ideal ⟨1, ![150]⟩ .f32) (wb : FVec Ideal ⟨2, ![150, 6]⟩ .f32) (bb : FVec Ideal ⟨1, ![6]⟩ .f32) :
    Cert.KernelIdeal.KStretch.headOut (F := Ideal)
        (Cert.KernelIdeal.KStretch.headClamp (F := Ideal) (Cert.KernelIdeal.KStretch.headHidden (F := Ideal) h g wa ba)) wb bb
      = Cert.ReferenceIdeal.RVal.refTail (F := Ideal) h g wa ba wb bb := by
  unfold Cert.KernelIdeal.KStretch.headOut Cert.KernelIdeal.KStretch.headClamp Cert.KernelIdeal.KStretch.headHidden
    Cert.KernelIdeal.KStretch.graphMean Cert.KernelIdeal.KStretch.graphSum Cert.KernelIdeal.KStretch.graphCount
    Cert.KernelIdeal.KStretch.graphCol Cert.ReferenceIdeal.RVal.refTail
  rfl

/-- Narrowing the float format is the identity at the exact values. -/
theorem truncf_eq {s : Shape} (x : FVec Ideal s .f32) (h : FTy.bf16.bits < FTy.f32.bits) : truncf .bf16 x h = x := rfl

end Cert.Glue
end
-- ==== Proof.LayerJoin.lean ====
/-
  One layer of the tiled program is one layer of the reference, entry by entry, when every entry that goes in is real.
  The edge messages and their scatter-sum are the same host operations on both sides. The first dense stage is the same
  sum of products row by row. Its tile sums give back the whole-column mean and, the entries being real, the whole-column
  variance, so the normalised, clamped activation is the reference's; the second dense stage and the last normalisation
  follow in the same way. Realness passes from stage to stage: sums and products of reals are real, and the inverse square
  root is taken of a variance that is not negative plus a positive offset.
-/
import proofs.«119086_j26585847562989_2_alg».proof.Proof.KernelChainDefs
import proofs.«119086_j26585847562989_2_alg».proof.Proof.RefValueDefs
import proofs.«119086_j26585847562989_2_alg».proof.Proof.KernelLayerSpec
import proofs.«119086_j26585847562989_2_alg».proof.Proof.RefLayerSpec

noncomputable section
namespace Cert.Join
open Idealize.ShloMosaic Idealize.ShloMosaic.ValueIdx
open Cert.BatchStats Cert.BatchNorm Cert.HostReads Cert.RealArrays Cert.RefLayerSpec

abbrev SN : Shape := ⟨2, ![20000, 300]⟩
abbrev SE : Shape := ⟨2, ![320000, 300]⟩
abbrev SV : Shape := ⟨1, ![300]⟩
abbrev SW : Shape := ⟨2, ![300, 300]⟩

/-- The messages' scatter-sum is the same composition of host operations in both programs. -/
theorem aggregate_eq (h : FVec Ideal SN .f32) (ea : FVec Ideal SE .f32) (src dst : IVec ⟨1, ![320000]⟩ 32) :
    Cert.KernelIdeal.KStretch.aggregate (F := Ideal) h ea src dst = Cert.ReferenceIdeal.RVal.aggregate (F := Ideal) h ea src dst := by
  unfold Cert.KernelIdeal.KStretch.aggregate Cert.KernelIdeal.KStretch.messages Cert.KernelIdeal.KStretch.edgeIdx
    Cert.ReferenceIdeal.RVal.aggregate Cert.ReferenceIdeal.RVal.messages Cert.ReferenceIdeal.RVal.reluE Cert.ReferenceIdeal.RVal.wrapSrc
  rfl

/-- A matrix index is the pair of its coordinates. -/
theorem idx_pair (i : SN.Idx) : ∃ (n : Fin 20000) (q : Fin 300), i = ix2 n q := ⟨i 0, i 1, eq_ix2 i⟩

section Layer

variable (h : FVec Ideal SN .f32) (ea : FVec Ideal SE .f32) (src dst : IVec ⟨1, ![320000]⟩ 32)
  (eps : FVec Ideal ⟨0, ![]⟩ .f32) (scale : FVec Ideal ⟨2, ![1, 300]⟩ .f32)
  (W1 : FVec Ideal SW .f32) (b1 g1 be1 : FVec Ideal SV .f32) (W2 : FVec Ideal SW .f32) (b2 g2 be2 : FVec Ideal SV .f32)

/-- The first dense stage of the two programs is one array, when the scale row is 1 + eps in every column. -/
theorem stage1_eq (agg : FVec Ideal SN .f32) (hscale : ∀ k : Fin 300, scale (ix2 (0 : Fin 1) k) = oneW + eps ix0) :
    Cert.KernelIdeal.RVal.z1Of h agg scale W1 (Cert.KernelIdeal.KStretch.rowOf (F := Ideal) b1)
      = Cert.ReferenceIdeal.RVal.dense (F := Ideal) (Cert.ReferenceIdeal.RVal.combine (F := Ideal) eps h agg) W1 b1 := by
  funext i
  obtain ⟨n, q, rfl⟩ := idx_pair i
  rw [Cert.KernelIdeal.RVal.z1Of_apply, dense_combine_apply, Cert.KernelIdeal.KJoin.rowOf_apply]
  refine congrArg (· + b1 (ix1 q)) (Finset.sum_congr rfl fun k _ => ?_)
  rw [hscale]

/-- The second dense stage, fed by the statistics recovered from the tile sums of a real array, is the reference's. -/
theorem stage2_eq (z : FVec Ideal SN .f32) (hz : ∀ i, IsReal (z i)) :
    Cert.KernelIdeal.RVal.z2Of z
        (Cert.KernelIdeal.KStretch.rowOf (F := Ideal) (Cert.KernelIdeal.KStretch.bnMean (Cert.KernelIdeal.RVal.tileStats z)))
        (Cert.KernelIdeal.KStretch.rowOf (F := Ideal) (Cert.KernelIdeal.KStretch.bnVar (Cert.KernelIdeal.RVal.tileStats z)))
        (Cert.KernelIdeal.KStretch.rowOf (F := Ideal) g1) (Cert.KernelIdeal.KStretch.rowOf (F := Ideal) be1) W2
        (Cert.KernelIdeal.KStretch.rowOf (F := Ideal) b2)
      = Cert.ReferenceIdeal.RVal.dense (F := Ideal) (Cert.ReferenceIdeal.RVal.bnRelu (F := Ideal) z g1 be1) W2 b2 := by
  funext i
  obtain ⟨n, q, rfl⟩ := idx_pair i
  rw [Cert.KernelIdeal.KJoin.z2Of_stats z hz, dense_apply]
  refine congrArg (· + b2 (ix1 q)) (Finset.sum_congr rfl fun k _ => ?_)
  rw [bnRelu_apply]
  show _ = max _ (Ideal.ofBits .f32 0x00000000#32) * _
  rw [Ideal.ofBits_zero_f32]

/-- The last normalisation and clamp, likewise. -/
theorem stage3_eq (z : FVec Ideal SN .f32) (hz : ∀ i, IsReal (z i)) :
    Cert.KernelIdeal.RVal.bnReluOf z
        (Cert.KernelIdeal.KStretch.rowOf (F := Ideal) (Cert.KernelIdeal.KStretch.bnMean (Cert.KernelIdeal.RVal.tileStats z)))
        (Cert.KernelIdeal.KStretch.rowOf (F := Ideal) (Cert.KernelIdeal.KStretch.bnVar (Cert.KernelIdeal.RVal.tileStats z)))
        (Cert.KernelIdeal.KStretch.rowOf (F := Ideal) g2) (Cert.KernelIdeal.KStretch.rowOf (F := Ideal) be2)
      = Cert.ReferenceIdeal.RVal.bnRelu (F := Ideal) z g2 be2 := by
  funext i
  obtain ⟨n, q, rfl⟩ := idx_pair i
  rw [Cert.KernelIdeal.KJoin.bnReluOf_stats z hz, bnRelu_apply]
  show _ = max _ (Ideal.ofBits .f32 0x00000000#32)
  rw [Ideal.ofBits_zero_f32]

/-- One whole layer. The tiled program gathers the messages from its narrow copy of the node features, which at the exact
    values is the array itself. -/
theorem layer_eq (hscale : ∀ k : Fin 300, scale (ix2 (0 : Fin 1) k) = oneW + eps ix0)
    (hh : ∀ i, IsReal (h i)) (hea : ∀ i, IsReal (ea i)) (heps : ∀ i, IsReal (eps i))
    (hW1 : ∀ i, IsReal (W1 i)) (hb1 : ∀ i, IsReal (b1 i)) (hg1 : ∀ i, IsReal (g1 i)) (hbe1 : ∀ i, IsReal (be1 i))
    (hW2 : ∀ i, IsReal (W2 i)) (hb2 : ∀ i, IsReal (b2 i)) :
    Cert.KernelIdeal.KChain.kerLayer h h ea src dst scale W1 b1 g1 be1 W2 b2 g2 be2
      = Cert.ReferenceIdeal.RVal.refLayer (F := Ideal) h ea src dst eps W1 b1 g1 be1 W2 b2 g2 be2 := by
  unfold Cert.KernelIdeal.KChain.kerLayer Cert.ReferenceIdeal.RVal.refLayer
  dsimp only
  rw [aggregate_eq h ea src dst, stage1_eq h eps scale W1 b1 _ hscale]
  have r1 : ∀ i, IsReal (Cert.ReferenceIdeal.RVal.dense (F := Ideal)
      (Cert.ReferenceIdeal.RVal.combine (F := Ideal) eps h (Cert.ReferenceIdeal.RVal.aggregate (F := Ideal) h ea src dst)) W1 b1 i) :=
    dense_isReal _ _ _ (combine_isReal _ _ _ heps hh (aggregate_isReal h ea src dst hh hea)) hW1 hb1
  rw [stage2_eq g1 be1 W2 b2 _ r1]
  have r2 : ∀ i, IsReal (Cert.ReferenceIdeal.RVal.dense (F := Ideal) (Cert.ReferenceIdeal.RVal.bnRelu (F := Ideal)
      (Cert.ReferenceIdeal.RVal.dense (F := Ideal)
        (Cert.ReferenceIdeal.RVal.combine (F := Ideal) eps h (Cert.ReferenceIdeal.RVal.aggregate (F := Ideal) h ea src dst)) W1 b1) g1 be1) W2 b2 i) :=
    dense_isReal _ _ _ (bnRelu_isReal _ _ _ r1 hg1 hbe1) hW2 hb2
  exact stage3_eq g2 be2 _ r2

end Layer

end Cert.Join
end
-- ==== Proof.PreReal.lean ====
/-
  The precondition read back. The precondition of the claim says that a test of all the float
  arguments answers 1: for each argument array x, every entry passes |x| < +∞, the answers of one array
  are folded by "and" from 1, and the folds of the seventeen arrays are joined by "and". Read backwards:
  the join is 1, so each fold is 1, so each entry passed its test, so no entry is +∞ or −∞ — every
  entry of every float argument is a real number.
-/
import Idealize.ShloMosaic.Lib.ReduceAll
import Idealize.ShloMosaic.Lib.ValueIdx
import Idealize.ShloMosaic.PureOps.Ideal.Laws
import proofs.«119086_j26585847562989_2_alg».proof.Defs
import proofs.«119086_j26585847562989_2_alg».proof.Proof.LibBatchNorm

noncomputable section

namespace Cert.PreReal

open Idealize.ShloMosaic Idealize.SL.Sem Cert.BatchNorm

/-- The shape with no axes has one index. -/
instance subsingleton_idx0 : Subsingleton (⟨0, ![]⟩ : Shape).Idx := ⟨fun a b => funext fun d => d.elim0⟩

/-- The single-precision word 0x7F800000 is +∞. -/
theorem ofBits_inf : Ideal.ofBits .f32 0x7F800000#32 = ⊤ := by
  simp [Ideal.ofBits, Ideal.ieee]

/-- An entry whose absolute value is below +∞ is a real number. -/
theorem isReal_of_abs_lt (x : EReal) (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- An array all of whose entries pass the test |x| < +∞ (the answers folded by "and" into 1) has only real entries. -/
theorem all_real {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel) (init : IVec ⟨0, ![]⟩ 1)
    (e : Host.reduce IntOp.andi (cmpf .olt (Host.absf x) (broadcastInDim S ![] hb (constant ⟨0, ![]⟩ .f32 0x7F800000#32))) init hr hu
          ValueIdx.ix0 = 1#1) (i : S.Idx) : IsReal (x i) :=
  isReal_of_abs_lt (x i) (Host.reduce_andi_all _ init hr hu ValueIdx.ix0 e i)

/-- If the finiteness test of all the float arguments answers 1, every entry of every float argument is a real number. -/
theorem fn_real [Cert.Pre_finite_inputs.Facts] (a0 : IVec Cert.Pre_finite_inputs.S20000 32) (a1 : IVec Cert.Pre_finite_inputs.S2x320000 32) (a2 : IVec Cert.Pre_finite_inputs.S20000 32)
    (a3 : FVec Ideal Cert.Pre_finite_inputs.S320000x7 .f32) (a4 : FVec Ideal Cert.Pre_finite_inputs.S119x300 .f32) (a5 : FVec Ideal Cert.Pre_finite_inputs.S7x300 .f32) (a6 : FVec Ideal Cert.Pre_finite_inputs.S300 .f32) (a7 : FVec Ideal Cert.Pre_finite_inputs.S5 .f32) (a8 : FVec Ideal Cert.Pre_finite_inputs.S5x300x300 .f32) (a9 : FVec Ideal Cert.Pre_finite_inputs.S5x300 .f32) (a10 : FVec Ideal Cert.Pre_finite_inputs.S5x300 .f32) (a11 : FVec Ideal Cert.Pre_finite_inputs.S5x300 .f32) (a12 : FVec Ideal Cert.Pre_finite_inputs.S5x300x300 .f32) (a13 : FVec Ideal Cert.Pre_finite_inputs.S5x300 .f32) (a14 : FVec Ideal Cert.Pre_finite_inputs.S5x300 .f32) (a15 : FVec Ideal Cert.Pre_finite_inputs.S5x300 .f32) (a16 : FVec Ideal Cert.Pre_finite_inputs.S300x150 .f32) (a17 : FVec Ideal Cert.Pre_finite_inputs.S150 .f32) (a18 : FVec Ideal Cert.Pre_finite_inputs.S150x6 .f32) (a19 : FVec Ideal Cert.Pre_finite_inputs.S6 .f32)
    (h : Cert.Pre_finite_inputs.fn (F := Ideal) a0 a1 a2 a3 a4 a5 a6 a7 a8 a9 a10 a11 a12 a13 a14 a15 a16 a17 a18 a19 = fun _ => 1#1) :
    (∀ i, IsReal (a3 i)) ∧
    (∀ i, IsReal (a4 i)) ∧
    (∀ i, IsReal (a5 i)) ∧
    (∀ i, IsReal (a6 i)) ∧
    (∀ i, IsReal (a7 i)) ∧
    (∀ i, IsReal (a8 i)) ∧
    (∀ i, IsReal (a9 i)) ∧
    (∀ i, IsReal (a10 i)) ∧
    (∀ i, IsReal (a11 i)) ∧
    (∀ i, IsReal (a12 i)) ∧
    (∀ i, IsReal (a13 i)) ∧
    (∀ i, IsReal (a14 i)) ∧
    (∀ i, IsReal (a15 i)) ∧
    (∀ i, IsReal (a16 i)) ∧
    (∀ i, IsReal (a17 i)) ∧
    (∀ i, IsReal (a18 i)) ∧
    (∀ i, IsReal (a19 i)) := by
  have h0 := congrFun h ValueIdx.ix0
  simp only [Cert.Pre_finite_inputs.fn, Cert.Pre_finite_inputs.fn_part1, Cert.Pre_finite_inputs.fn_part2,
    Cert.Pre_finite_inputs.fn_part3, Cert.Pre_finite_inputs.fn_part4, Idealize.ShloMosaic.andi, IntOp.andi_eq_one, and_assoc] at h0
  obtain ⟨h3, h4, h5, h6, h7, h8, h9, h10, h11, h12, h13, h14, h15, h16, h17, h18, h19⟩ := h0
  exact ⟨all_real _ _ _ _ _ h3, all_real _ _ _ _ _ h4, all_real _ _ _ _ _ h5, all_real _ _ _ _ _ h6, all_real _ _ _ _ _ h7, all_real _ _ _ _ _ h8, all_real _ _ _ _ _ h9, all_real _ _ _ _ _ h10, all_real _ _ _ _ _ h11, all_real _ _ _ _ _ h12, all_real _ _ _ _ _ h13, all_real _ _ _ _ _ h14, all_real _ _ _ _ _ h15, all_real _ _ _ _ _ h16, all_real _ _ _ _ _ h17, all_real _ _ _ _ _ h18, all_real _ _ _ _ _ h19⟩

/-- Under the precondition, on every device, every entry of every float argument array of the launch memory is a real number. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (((m ((c.tc : Thread Cert.KernelIdeal.nD Cert.KernelIdeal.τ).loc Cert.KernelIdeal.main_arg3)) : FVec Ideal Cert.Pre_finite_inputs.S320000x7 .f32) i)) ∧
    (∀ i, IsReal (((m ((c.tc : Thread Cert.KernelIdeal.nD Cert.KernelIdeal.τ).loc Cert.KernelIdeal.main_arg4)) : FVec Ideal Cert.Pre_finite_inputs.S119x300 .f32) i)) ∧
    (∀ i, IsReal (((m ((c.tc : Thread Cert.KernelIdeal.nD Cert.KernelIdeal.τ).loc Cert.KernelIdeal.main_arg5)) : FVec Ideal Cert.Pre_finite_inputs.S7x300 .f32) i)) ∧
    (∀ i, IsReal (((m ((c.tc : Thread Cert.KernelIdeal.nD Cert.KernelIdeal.τ).loc Cert.KernelIdeal.main_arg6)) : FVec Ideal Cert.Pre_finite_inputs.S300 .f32) i)) ∧
    (∀ i, IsReal (((m ((c.tc : Thread Cert.KernelIdeal.nD Cert.KernelIdeal.τ).loc Cert.KernelIdeal.main_arg7)) : FVec Ideal Cert.Pre_finite_inputs.S5 .f32) i)) ∧
    (∀ i, IsReal (((m ((c.tc : Thread Cert.KernelIdeal.nD Cert.KernelIdeal.τ).loc Cert.KernelIdeal.main_arg8)) : FVec Ideal Cert.Pre_finite_inputs.S5x300x300 .f32) i)) ∧
    (∀ i, IsReal (((m ((c.tc : Thread Cert.KernelIdeal.nD Cert.KernelIdeal.τ).loc Cert.KernelIdeal.main_arg9)) : FVec Ideal Cert.Pre_finite_inputs.S5x300 .f32) i)) ∧
    (∀ i, IsReal (((m ((c.tc : Thread Cert.KernelIdeal.nD Cert.KernelIdeal.τ).loc Cert.KernelIdeal.main_arg10)) : FVec Ideal Cert.Pre_finite_inputs.S5x300 .f32) i)) ∧
    (∀ i, IsReal (((m ((c.tc : Thread Cert.KernelIdeal.nD Cert.KernelIdeal.τ).loc Cert.KernelIdeal.main_arg11)) : FVec Ideal Cert.Pre_finite_inputs.S5x300 .f32) i)) ∧
    (∀ i, IsReal (((m ((c.tc : Thread Cert.KernelIdeal.nD Cert.KernelIdeal.τ).loc Cert.KernelIdeal.main_arg12)) : FVec Ideal Cert.Pre_finite_inputs.S5x300x300 .f32) i)) ∧
    (∀ i, IsReal (((m ((c.tc : Thread Cert.KernelIdeal.nD Cert.KernelIdeal.τ).loc Cert.KernelIdeal.main_arg13)) : FVec Ideal Cert.Pre_finite_inputs.S5x300 .f32) i)) ∧
    (∀ i, IsReal (((m ((c.tc : Thread Cert.KernelIdeal.nD Cert.KernelIdeal.τ).loc Cert.KernelIdeal.main_arg14)) : FVec Ideal Cert.Pre_finite_inputs.S5x300 .f32) i)) ∧
    (∀ i, IsReal (((m ((c.tc : Thread Cert.KernelIdeal.nD Cert.KernelIdeal.τ).loc Cert.KernelIdeal.main_arg15)) : FVec Ideal Cert.Pre_finite_inputs.S5x300 .f32) i)) ∧
    (∀ i, IsReal (((m ((c.tc : Thread Cert.KernelIdeal.nD Cert.KernelIdeal.τ).loc Cert.KernelIdeal.main_arg16)) : FVec Ideal Cert.Pre_finite_inputs.S300x150 .f32) i)) ∧
    (∀ i, IsReal (((m ((c.tc : Thread Cert.KernelIdeal.nD Cert.KernelIdeal.τ).loc Cert.KernelIdeal.main_arg17)) : FVec Ideal Cert.Pre_finite_inputs.S150 .f32) i)) ∧
    (∀ i, IsReal (((m ((c.tc : Thread Cert.KernelIdeal.nD Cert.KernelIdeal.τ).loc Cert.KernelIdeal.main_arg18)) : FVec Ideal Cert.Pre_finite_inputs.S150x6 .f32) i)) ∧
    (∀ i, IsReal (((m ((c.tc : Thread Cert.KernelIdeal.nD Cert.KernelIdeal.τ).loc Cert.KernelIdeal.main_arg19)) : FVec Ideal Cert.Pre_finite_inputs.S6 .f32) i)) :=
  fn_real _ _ _ _ _ _ _ _ _ _ _ _ _ _ _ _ _ _ _ _ (h c)

/-- Under the precondition every entry of float argument 3 is a real number. -/
theorem arg3_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg3)) i) :=
  fun i => (args_real m h c).1 i

/-- Under the precondition every entry of float argument 4 is a real number. -/
theorem arg4_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg4)) i) :=
  fun i => (args_real m h c).2.1 i

/-- Under the precondition every entry of float argument 5 is a real number. -/
theorem arg5_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg5)) i) :=
  fun i => (args_real m h c).2.2.1 i

/-- Under the precondition every entry of float argument 6 is a real number. -/
theorem arg6_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg6)) i) :=
  fun i => (args_real m h c).2.2.2.1 i

/-- Under the precondition every entry of float argument 7 is a real number. -/
theorem arg7_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg7)) i) :=
  fun i => (args_real m h c).2.2.2.2.1 i

/-- Under the precondition every entry of float argument 8 is a real number. -/
theorem arg8_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg8)) i) :=
  fun i => (args_real m h c).2.2.2.2.2.1 i

/-- Under the precondition every entry of float argument 9 is a real number. -/
theorem arg9_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg9)) i) :=
  fun i => (args_real m h c).2.2.2.2.2.2.1 i

/-- Under the precondition every entry of float argument 10 is a real number. -/
theorem arg10_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg10)) i) :=
  fun i => (args_real m h c).2.2.2.2.2.2.2.1 i

/-- Under the precondition every entry of float argument 11 is a real number. -/
theorem arg11_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg11)) i) :=
  fun i => (args_real m h c).2.2.2.2.2.2.2.2.1 i

/-- Under the precondition every entry of float argument 12 is a real number. -/
theorem arg12_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg12)) i) :=
  fun i => (args_real m h c).2.2.2.2.2.2.2.2.2.1 i

/-- Under the precondition every entry of float argument 13 is a real number. -/
theorem arg13_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg13)) i) :=
  fun i => (args_real m h c).2.2.2.2.2.2.2.2.2.2.1 i

/-- Under the precondition every entry of float argument 14 is a real number. -/
theorem arg14_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg14)) i) :=
  fun i => (args_real m h c).2.2.2.2.2.2.2.2.2.2.2.1 i

/-- Under the precondition every entry of float argument 15 is a real number. -/
theorem arg15_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg15)) i) :=
  fun i => (args_real m h c).2.2.2.2.2.2.2.2.2.2.2.2.1 i

/-- Under the precondition every entry of float argument 16 is a real number. -/
theorem arg16_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg16)) i) :=
  fun i => (args_real m h c).2.2.2.2.2.2.2.2.2.2.2.2.2.1 i

/-- Under the precondition every entry of float argument 17 is a real number. -/
theorem arg17_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg17)) i) :=
  fun i => (args_real m h c).2.2.2.2.2.2.2.2.2.2.2.2.2.2.1 i

/-- Under the precondition every entry of float argument 18 is a real number. -/
theorem arg18_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg18)) i) :=
  fun i => (args_real m h c).2.2.2.2.2.2.2.2.2.2.2.2.2.2.2.1 i

/-- Under the precondition every entry of float argument 19 is a real number. -/
theorem arg19_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg19)) i) :=
  fun i => (args_real m h c).2.2.2.2.2.2.2.2.2.2.2.2.2.2.2.2 i

end Cert.PreReal
-- ==== Proof.ResultJoin.lean ====
/-
  The tiled program's result and the reference's result are one array.

  Both are the pooling and classifier applied to the node features after five layers. The embedding, the edge encoding,
  the edges' endpoints and every layer's parameters are the same arrays on both sides (the launch memories agree on the
  arguments), every float argument has only real entries (the precondition), and a layer of the tiled program equals a
  layer of the reference on real entries; a layer of real entries has real entries, so the five layers agree one after
  the other.
-/
import proofs.«119086_j26585847562989_2_alg».proof.Proof.GlueJoin
import proofs.«119086_j26585847562989_2_alg».proof.Proof.LayerJoin
import proofs.«119086_j26585847562989_2_alg».proof.Proof.KernelValueDefs
import proofs.«119086_j26585847562989_2_alg».proof.Proof.RefValueDefs2
import proofs.«119086_j26585847562989_2_alg».proof.Proof.PreReal

set_option maxRecDepth 16384

noncomputable section

namespace Cert.Glue

open Idealize.ShloMosaic Idealize.ShloMosaic.ValueIdx Idealize.ShloMosaic.TcCoe Idealize.SL.Sem Idealize.ShloMosaic.StableHlo
open Cert.BatchNorm Cert.RealArrays Cert.RefLayerSpec
open Cert.KernelIdeal.KChain Cert.ReferenceIdeal.RVal

section Join

variable [Cert.Pre_finite_inputs.Facts]
  (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- One layer at row o of the stacked parameters: the tiled program's layer on real node features h (read also as its
    narrow copy) is the reference's layer on h, and its entries are real. -/
theorem layerAt_eq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (c : Dev Cert.KernelIdeal.nD) (o : Nat)
    (p1 : Cert.KernelIdeal.S5.Slices ![o] Cert.KernelIdeal.S1) (p2 : Cert.KernelIdeal.S5x300.Slices ![o, 0] Cert.KernelIdeal.S1x300)
    (p3 : Cert.KernelIdeal.S5x300x300.Slices ![o, 0, 0] Cert.KernelIdeal.S1x300x300)
    (q1 : Cert.ReferenceIdeal.S5.Slices ![o] Cert.ReferenceIdeal.S1) (q2 : Cert.ReferenceIdeal.S5x300.Slices ![o, 0] Cert.ReferenceIdeal.S1x300)
    (q3 : Cert.ReferenceIdeal.S5x300x300.Slices ![o, 0, 0] Cert.ReferenceIdeal.S1x300x300)
    (h : FVec Ideal ⟨2, ![20000, 300]⟩ .f32) (hh : ∀ i, IsReal (h i)) :
    kerLayerAt m c ![o] p1 ![o, 0] p2 ![o, 0, 0] p3 h h = refLayerAt (F := Ideal) (launchContents m' c) o q1 q2 q3 h
    ∧ ∀ i, IsReal (refLayerAt (F := Ideal) (launchContents m' c) o q1 q2 q3 h i) := by
  have a0 : (launchContents m' c (Cert.ReferenceIdeal.main_arg0 : DevRef Cert.ReferenceIdeal.τ Cert.ReferenceIdeal.sig)) = (m ((c : Thread Cert.KernelIdeal.nD Cert.KernelIdeal.τ).loc Cert.KernelIdeal.main_arg0)) := (hagree c).1
  have a1 : (launchContents m' c (Cert.ReferenceIdeal.main_arg1 : DevRef Cert.ReferenceIdeal.τ Cert.ReferenceIdeal.sig)) = (m ((c : Thread Cert.KernelIdeal.nD Cert.KernelIdeal.τ).loc Cert.KernelIdeal.main_arg1)) := (hagree c).2.1
  have a2 : (launchContents m' c (Cert.ReferenceIdeal.main_arg2 : DevRef Cert.ReferenceIdeal.τ Cert.ReferenceIdeal.sig)) = (m ((c : Thread Cert.KernelIdeal.nD Cert.KernelIdeal.τ).loc Cert.KernelIdeal.main_arg2)) := (hagree c).2.2.1
  have a3 : (launchContents m' c (Cert.ReferenceIdeal.main_arg3 : DevRef Cert.ReferenceIdeal.τ Cert.ReferenceIdeal.sig)) = (m ((c : Thread Cert.KernelIdeal.nD Cert.KernelIdeal.τ).loc Cert.KernelIdeal.main_arg3)) := (hagree c).2.2.2.1
  have a4 : (launchContents m' c (Cert.ReferenceIdeal.main_arg4 : DevRef Cert.ReferenceIdeal.τ Cert.ReferenceIdeal.sig)) = (m ((c : Thread Cert.KernelIdeal.nD Cert.KernelIdeal.τ).loc Cert.KernelIdeal.main_arg4)) := (hagree c).2.2.2.2.1
  have a5 : (launchContents m' c (Cert.ReferenceIdeal.main_arg5 : DevRef Cert.ReferenceIdeal.τ Cert.ReferenceIdeal.sig)) = (m ((c : Thread Cert.KernelIdeal.nD Cert.KernelIdeal.τ).loc Cert.KernelIdeal.main_arg5)) := (hagree c).2.2.2.2.2.1
  have a6 : (launchContents m' c (Cert.ReferenceIdeal.main_arg6 : DevRef Cert.ReferenceIdeal.τ Cert.ReferenceIdeal.sig)) = (m ((c : Thread Cert.KernelIdeal.nD Cert.KernelIdeal.τ).loc Cert.KernelIdeal.main_arg6)) := (hagree c).2.2.2.2.2.2.1
  have a7 : (launchContents m' c (Cert.ReferenceIdeal.main_arg7 : DevRef Cert.ReferenceIdeal.τ Cert.ReferenceIdeal.sig)) = (m ((c : Thread Cert.KernelIdeal.nD Cert.KernelIdeal.τ).loc Cert.KernelIdeal.main_arg7)) := (hagree c).2.2.2.2.2.2.2.1
  have a8 : (launchContents m' c (Cert.ReferenceIdeal.main_arg8 : DevRef Cert.ReferenceIdeal.τ Cert.ReferenceIdeal.sig)) = (m ((c : Thread Cert.KernelIdeal.nD Cert.KernelIdeal.τ).loc Cert.KernelIdeal.main_arg8)) := (hagree c).2.2.2.2.2.2.2.2.1
  have a9 : (launchContents m' c (Cert.ReferenceIdeal.main_arg9 : DevRef Cert.ReferenceIdeal.τ Cert.ReferenceIdeal.sig)) = (m ((c : Thread Cert.KernelIdeal.nD Cert.KernelIdeal.τ).loc Cert.KernelIdeal.main_arg9)) := (hagree c).2.2.2.2.2.2.2.2.2.1
  have a10 : (launchContents m' c (Cert.ReferenceIdeal.main_arg10 : DevRef Cert.ReferenceIdeal.τ Cert.ReferenceIdeal.sig)) = (m ((c : Thread Cert.KernelIdeal.nD Cert.KernelIdeal.τ).loc Cert.KernelIdeal.main_arg10)) := (hagree c).2.2.2.2.2.2.2.2.2.2.1
  have a11 : (launchContents m' c (Cert.ReferenceIdeal.main_arg11 : DevRef Cert.ReferenceIdeal.τ Cert.ReferenceIdeal.sig)) = (m ((c : Thread Cert.KernelIdeal.nD Cert.KernelIdeal.τ).loc Cert.KernelIdeal.main_arg11)) := (hagree c).2.2.2.2.2.2.2.2.2.2.2.1
  have a12 : (launchContents m' c (Cert.ReferenceIdeal.main_arg12 : DevRef Cert.ReferenceIdeal.τ Cert.ReferenceIdeal.sig)) = (m ((c : Thread Cert.KernelIdeal.nD Cert.KernelIdeal.τ).loc Cert.KernelIdeal.main_arg12)) := (hagree c).2.2.2.2.2.2.2.2.2.2.2.2.1
  have a13 : (launchContents m' c (Cert.ReferenceIdeal.main_arg13 : DevRef Cert.ReferenceIdeal.τ Cert.ReferenceIdeal.sig)) = (m ((c : Thread Cert.KernelIdeal.nD Cert.KernelIdeal.τ).loc Cert.KernelIdeal.main_arg13)) := (hagree c).2.2.2.2.2.2.2.2.2.2.2.2.2.1
  have a14 : (launchContents m' c (Cert.ReferenceIdeal.main_arg14 : DevRef Cert.ReferenceIdeal.τ Cert.ReferenceIdeal.sig)) = (m ((c : Thread Cert.KernelIdeal.nD Cert.KernelIdeal.τ).loc Cert.KernelIdeal.main_arg14)) := (hagree c).2.2.2.2.2.2.2.2.2.2.2.2.2.2.1
  have a15 : (launchContents m' c (Cert.ReferenceIdeal.main_arg15 : DevRef Cert.ReferenceIdeal.τ Cert.ReferenceIdeal.sig)) = (m ((c : Thread Cert.KernelIdeal.nD Cert.KernelIdeal.τ).loc Cert.KernelIdeal.main_arg15)) := (hagree c).2.2.2.2.2.2.2.2.2.2.2.2.2.2.2.1
  have a16 : (launchContents m' c (Cert.ReferenceIdeal.main_arg16 : DevRef Cert.ReferenceIdeal.τ Cert.ReferenceIdeal.sig)) = (m ((c : Thread Cert.KernelIdeal.nD Cert.KernelIdeal.τ).loc Cert.KernelIdeal.main_arg16)) := (hagree c).2.2.2.2.2.2.2.2.2.2.2.2.2.2.2.2.1
  have a17 : (launchContents m' c (Cert.ReferenceIdeal.main_arg17 : DevRef Cert.ReferenceIdeal.τ Cert.ReferenceIdeal.sig)) = (m ((c : Thread Cert.KernelIdeal.nD Cert.KernelIdeal.τ).loc Cert.KernelIdeal.main_arg17)) := (hagree c).2.2.2.2.2.2.2.2.2.2.2.2.2.2.2.2.2.1
  have a18 : (launchContents m' c (Cert.ReferenceIdeal.main_arg18 : DevRef Cert.ReferenceIdeal.τ Cert.ReferenceIdeal.sig)) = (m ((c : Thread Cert.KernelIdeal.nD Cert.KernelIdeal.τ).loc Cert.KernelIdeal.main_arg18)) := (hagree c).2.2.2.2.2.2.2.2.2.2.2.2.2.2.2.2.2.2.1
  have a19 : (launchContents m' c (Cert.ReferenceIdeal.main_arg19 : DevRef Cert.ReferenceIdeal.τ Cert.ReferenceIdeal.sig)) = (m ((c : Thread Cert.KernelIdeal.nD Cert.KernelIdeal.τ).loc Cert.KernelIdeal.main_arg19)) := (hagree c).2.2.2.2.2.2.2.2.2.2.2.2.2.2.2.2.2.2.2
  have r3 := Cert.PreReal.arg3_real m hpre c
  have r4 := Cert.PreReal.arg4_real m hpre c
  have r5 := Cert.PreReal.arg5_real m hpre c
  have r6 := Cert.PreReal.arg6_real m hpre c
  have r7 := Cert.PreReal.arg7_real m hpre c
  have r8 := Cert.PreReal.arg8_real m hpre c
  have r9 := Cert.PreReal.arg9_real m hpre c
  have r10 := Cert.PreReal.arg10_real m hpre c
  have r11 := Cert.PreReal.arg11_real m hpre c
  have r12 := Cert.PreReal.arg12_real m hpre c
  have r13 := Cert.PreReal.arg13_real m hpre c
  have r14 := Cert.PreReal.arg14_real m hpre c
  have r15 := Cert.PreReal.arg15_real m hpre c
  have r16 := Cert.PreReal.arg16_real m hpre c
  have r17 := Cert.PreReal.arg17_real m hpre c
  have r18 := Cert.PreReal.arg18_real m hpre c
  have r19 := Cert.PreReal.arg19_real m hpre c
  have eEdge : kerEdge m c = refEdge (F := Ideal) (launchContents m' c) := by
    unfold kerEdge refEdge
    rw [a3, a5, a6]
    exact edgeEnc_eq _ _ _
  have eSrc : kerSrc m c = refSrc (F := Ideal) (launchContents m' c) := by
    unfold kerSrc refSrc
    rw [a1]
    exact src_eq _
  have eDst : kerDst m c = refDst (F := Ideal) (launchContents m' c) := by
    unfold kerDst refDst
    rw [a1]
    exact dst_eq _
  have rEdge : ∀ i, IsReal (refEdge (F := Ideal) (launchContents m' c) i) := by
    unfold refEdge
    rw [a3, a5, a6]
    exact encodeEdges_isReal _ _ _ r3 r5 r6
  unfold kerLayerAt refLayerAt
  rw [eEdge, eSrc, eDst, a7, a8, a9, a10, a11, a12, a13, a14, a15,
    mat_eq o _ p3 q3, mat_eq o _ p3 q3, vec_eq o _ p2 q2, vec_eq o _ p2 q2, vec_eq o _ p2 q2, vec_eq o _ p2 q2,
    vec_eq o _ p2 q2, vec_eq o _ p2 q2]
  refine ⟨Cert.Join.layer_eq h _ _ _ _ _ _ _ _ _ _ _ _ _ (fun k => scale_eq o _ p1 q1 k) hh rEdge
      (epsAt_isReal o _ q1 r7) (matAt_isReal o _ q3 r8) (rowAt_isReal o _ q2 r9) (rowAt_isReal o _ q2 r10)
      (rowAt_isReal o _ q2 r11) (matAt_isReal o _ q3 r12) (rowAt_isReal o _ q2 r13), ?_⟩
  exact refLayer_isReal _ _ _ _ _ _ _ _ _ _ _ _ _ hh rEdge (epsAt_isReal o _ q1 r7) (matAt_isReal o _ q3 r8)
    (rowAt_isReal o _ q2 r9) (rowAt_isReal o _ q2 r10) (rowAt_isReal o _ q2 r11) (matAt_isReal o _ q3 r12)
    (rowAt_isReal o _ q2 r13) (rowAt_isReal o _ q2 r14) (rowAt_isReal o _ q2 r15)

/-- The two results are one array. -/
theorem result_join (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (c : Dev Cert.KernelIdeal.nD) :
    kerResult m c = refResult (F := Ideal) (launchContents m' c) := by
  have a0 : (launchContents m' c (Cert.ReferenceIdeal.main_arg0 : DevRef Cert.ReferenceIdeal.τ Cert.ReferenceIdeal.sig)) = (m ((c : Thread Cert.KernelIdeal.nD Cert.KernelIdeal.τ).loc Cert.KernelIdeal.main_arg0)) := (hagree c).1
  have a1 : (launchContents m' c (Cert.ReferenceIdeal.main_arg1 : DevRef Cert.ReferenceIdeal.τ Cert.ReferenceIdeal.sig)) = (m ((c : Thread Cert.KernelIdeal.nD Cert.KernelIdeal.τ).loc Cert.KernelIdeal.main_arg1)) := (hagree c).2.1
  have a2 : (launchContents m' c (Cert.ReferenceIdeal.main_arg2 : DevRef Cert.ReferenceIdeal.τ Cert.ReferenceIdeal.sig)) = (m ((c : Thread Cert.KernelIdeal.nD Cert.KernelIdeal.τ).loc Cert.KernelIdeal.main_arg2)) := (hagree c).2.2.1
  have a3 : (launchContents m' c (Cert.ReferenceIdeal.main_arg3 : DevRef Cert.ReferenceIdeal.τ Cert.ReferenceIdeal.sig)) = (m ((c : Thread Cert.KernelIdeal.nD Cert.KernelIdeal.τ).loc Cert.KernelIdeal.main_arg3)) := (hagree c).2.2.2.1
  have a4 : (launchContents m' c (Cert.ReferenceIdeal.main_arg4 : DevRef Cert.ReferenceIdeal.τ Cert.ReferenceIdeal.sig)) = (m ((c : Thread Cert.KernelIdeal.nD Cert.KernelIdeal.τ).loc Cert.KernelIdeal.main_arg4)) := (hagree c).2.2.2.2.1
  have a5 : (launchContents m' c (Cert.ReferenceIdeal.main_arg5 : DevRef Cert.ReferenceIdeal.τ Cert.ReferenceIdeal.sig)) = (m ((c : Thread Cert.KernelIdeal.nD Cert.KernelIdeal.τ).loc Cert.KernelIdeal.main_arg5)) := (hagree c).2.2.2.2.2.1
  have a6 : (launchContents m' c (Cert.ReferenceIdeal.main_arg6 : DevRef Cert.ReferenceIdeal.τ Cert.ReferenceIdeal.sig)) = (m ((c : Thread Cert.KernelIdeal.nD Cert.KernelIdeal.τ).loc Cert.KernelIdeal.main_arg6)) := (hagree c).2.2.2.2.2.2.1
  have a7 : (launchContents m' c (Cert.ReferenceIdeal.main_arg7 : DevRef Cert.ReferenceIdeal.τ Cert.ReferenceIdeal.sig)) = (m ((c : Thread Cert.KernelIdeal.nD Cert.KernelIdeal.τ).loc Cert.KernelIdeal.main_arg7)) := (hagree c).2.2.2.2.2.2.2.1
  have a8 : (launchContents m' c (Cert.ReferenceIdeal.main_arg8 : DevRef Cert.ReferenceIdeal.τ Cert.ReferenceIdeal.sig)) = (m ((c : Thread Cert.KernelIdeal.nD Cert.KernelIdeal.τ).loc Cert.KernelIdeal.main_arg8)) := (hagree c).2.2.2.2.2.2.2.2.1
  have a9 : (launchContents m' c (Cert.ReferenceIdeal.main_arg9 : DevRef Cert.ReferenceIdeal.τ Cert.ReferenceIdeal.sig)) = (m ((c : Thread Cert.KernelIdeal.nD Cert.KernelIdeal.τ).loc Cert.KernelIdeal.main_arg9)) := (hagree c).2.2.2.2.2.2.2.2.2.1
  have a10 : (launchContents m' c (Cert.ReferenceIdeal.main_arg10 : DevRef Cert.ReferenceIdeal.τ Cert.ReferenceIdeal.sig)) = (m ((c : Thread Cert.KernelIdeal.nD Cert.KernelIdeal.τ).loc Cert.KernelIdeal.main_arg10)) := (hagree c).2.2.2.2.2.2.2.2.2.2.1
  have a11 : (launchContents m' c (Cert.ReferenceIdeal.main_arg11 : DevRef Cert.ReferenceIdeal.τ Cert.ReferenceIdeal.sig)) = (m ((c : Thread Cert.KernelIdeal.nD Cert.KernelIdeal.τ).loc Cert.KernelIdeal.main_arg11)) := (hagree c).2.2.2.2.2.2.2.2.2.2.2.1
  have a12 : (launchContents m' c (Cert.ReferenceIdeal.main_arg12 : DevRef Cert.ReferenceIdeal.τ Cert.ReferenceIdeal.sig)) = (m ((c : Thread Cert.KernelIdeal.nD Cert.KernelIdeal.τ).loc Cert.KernelIdeal.main_arg12)) := (hagree c).2.2.2.2.2.2.2.2.2.2.2.2.1
  have a13 : (launchContents m' c (Cert.ReferenceIdeal.main_arg13 : DevRef Cert.ReferenceIdeal.τ Cert.ReferenceIdeal.sig)) = (m ((c : Thread Cert.KernelIdeal.nD Cert.KernelIdeal.τ).loc Cert.KernelIdeal.main_arg13)) := (hagree c).2.2.2.2.2.2.2.2.2.2.2.2.2.1
  have a14 : (launchContents m' c (Cert.ReferenceIdeal.main_arg14 : DevRef Cert.ReferenceIdeal.τ Cert.ReferenceIdeal.sig)) = (m ((c : Thread Cert.KernelIdeal.nD Cert.KernelIdeal.τ).loc Cert.KernelIdeal.main_arg14)) := (hagree c).2.2.2.2.2.2.2.2.2.2.2.2.2.2.1
  have a15 : (launchContents m' c (Cert.ReferenceIdeal.main_arg15 : DevRef Cert.ReferenceIdeal.τ Cert.ReferenceIdeal.sig)) = (m ((c : Thread Cert.KernelIdeal.nD Cert.KernelIdeal.τ).loc Cert.KernelIdeal.main_arg15)) := (hagree c).2.2.2.2.2.2.2.2.2.2.2.2.2.2.2.1
  have a16 : (launchContents m' c (Cert.ReferenceIdeal.main_arg16 : DevRef Cert.ReferenceIdeal.τ Cert.ReferenceIdeal.sig)) = (m ((c : Thread Cert.KernelIdeal.nD Cert.KernelIdeal.τ).loc Cert.KernelIdeal.main_arg16)) := (hagree c).2.2.2.2.2.2.2.2.2.2.2.2.2.2.2.2.1
  have a17 : (launchContents m' c (Cert.ReferenceIdeal.main_arg17 : DevRef Cert.ReferenceIdeal.τ Cert.ReferenceIdeal.sig)) = (m ((c : Thread Cert.KernelIdeal.nD Cert.KernelIdeal.τ).loc Cert.KernelIdeal.main_arg17)) := (hagree c).2.2.2.2.2.2.2.2.2.2.2.2.2.2.2.2.2.1
  have a18 : (launchContents m' c (Cert.ReferenceIdeal.main_arg18 : DevRef Cert.ReferenceIdeal.τ Cert.ReferenceIdeal.sig)) = (m ((c : Thread Cert.KernelIdeal.nD Cert.KernelIdeal.τ).loc Cert.KernelIdeal.main_arg18)) := (hagree c).2.2.2.2.2.2.2.2.2.2.2.2.2.2.2.2.2.2.1
  have a19 : (launchContents m' c (Cert.ReferenceIdeal.main_arg19 : DevRef Cert.ReferenceIdeal.τ Cert.ReferenceIdeal.sig)) = (m ((c : Thread Cert.KernelIdeal.nD Cert.KernelIdeal.τ).loc Cert.KernelIdeal.main_arg19)) := (hagree c).2.2.2.2.2.2.2.2.2.2.2.2.2.2.2.2.2.2.2
  have r4 := Cert.PreReal.arg4_real m hpre c
  have e0 : kerH0 m c = refH0 (F := Ideal) (launchContents m' c) := by
    unfold kerH0 refH0
    rw [a4, a0]
    exact embed_eq _ _
  have hr0 : ∀ i, IsReal (refH0 (F := Ideal) (launchContents m' c) i) := by
    unfold refH0
    rw [a4, a0]
    exact embed_isReal _ _ r4
  have L1 := layerAt_eq m m' hpre hagree c 0 Cert.KernelIdeal.Gen.slices_S5_S1_0 Cert.KernelIdeal.Gen.slices_S5x300_S1x300_0_0 Cert.KernelIdeal.Gen.slices_S5x300x300_S1x300x300_0_0_0 Cert.ReferenceIdeal.Gen.slices_S5_S1_0 Cert.ReferenceIdeal.Gen.slices_S5x300_S1x300_0_0 Cert.ReferenceIdeal.Gen.slices_S5x300x300_S1x300x300_0_0_0 (refH0 (F := Ideal) (launchContents m' c)) hr0
  have e1 : kerH1 m c = refH1 (F := Ideal) (launchContents m' c) := by
    unfold kerH1 refH1
    rw [e0]
    exact L1.1
  have hr1 : ∀ i, IsReal (refH1 (F := Ideal) (launchContents m' c) i) := L1.2
  have L2 := layerAt_eq m m' hpre hagree c 1 Cert.KernelIdeal.Gen.slices_S5_S1_1 Cert.KernelIdeal.Gen.slices_S5x300_S1x300_1_0 Cert.KernelIdeal.Gen.slices_S5x300x300_S1x300x300_1_0_0 Cert.ReferenceIdeal.Gen.slices_S5_S1_1 Cert.ReferenceIdeal.Gen.slices_S5x300_S1x300_1_0 Cert.ReferenceIdeal.Gen.slices_S5x300x300_S1x300x300_1_0_0 (refH1 (F := Ideal) (launchContents m' c)) hr1
  have e2 : kerH2 m c = refH2 (F := Ideal) (launchContents m' c) := by
    unfold kerH2 refH2
    rw [e1]
    exact L2.1
  have hr2 : ∀ i, IsReal (refH2 (F := Ideal) (launchContents m' c) i) := L2.2
  have L3 := layerAt_eq m m' hpre hagree c 2 Cert.KernelIdeal.Gen.slices_S5_S1_2 Cert.KernelIdeal.Gen.slices_S5x300_S1x300_2_0 Cert.KernelIdeal.Gen.slices_S5x300x300_S1x300x300_2_0_0 Cert.ReferenceIdeal.Gen.slices_S5_S1_2 Cert.ReferenceIdeal.Gen.slices_S5x300_S1x300_2_0 Cert.ReferenceIdeal.Gen.slices_S5x300x300_S1x300x300_2_0_0 (refH2 (F := Ideal) (launchContents m' c)) hr2
  have e3 : kerH3 m c = refH3 (F := Ideal) (launchContents m' c) := by
    unfold kerH3 refH3
    rw [e2]
    exact L3.1
  have hr3 : ∀ i, IsReal (refH3 (F := Ideal) (launchContents m' c) i) := L3.2
  have L4 := layerAt_eq m m' hpre hagree c 3 Cert.KernelIdeal.Gen.slices_S5_S1_3 Cert.KernelIdeal.Gen.slices_S5x300_S1x300_3_0 Cert.KernelIdeal.Gen.slices_S5x300x300_S1x300x300_3_0_0 Cert.ReferenceIdeal.Gen.slices_S5_S1_3 Cert.ReferenceIdeal.Gen.slices_S5x300_S1x300_3_0 Cert.ReferenceIdeal.Gen.slices_S5x300x300_S1x300x300_3_0_0 (refH3 (F := Ideal) (launchContents m' c)) hr3
  have e4 : kerH4 m c = refH4 (F := Ideal) (launchContents m' c) := by
    unfold kerH4 refH4
    rw [e3]
    exact L4.1
  have hr4 : ∀ i, IsReal (refH4 (F := Ideal) (launchContents m' c) i) := L4.2
  have L5 := layerAt_eq m m' hpre hagree c 4 Cert.KernelIdeal.Gen.slices_S5_S1_4 Cert.KernelIdeal.Gen.slices_S5x300_S1x300_4_0 Cert.KernelIdeal.Gen.slices_S5x300x300_S1x300x300_4_0_0 Cert.ReferenceIdeal.Gen.slices_S5_S1_4 Cert.ReferenceIdeal.Gen.slices_S5x300_S1x300_4_0 Cert.ReferenceIdeal.Gen.slices_S5x300x300_S1x300x300_4_0_0 (refH4 (F := Ideal) (launchContents m' c)) hr4
  have e5 : kerH5 m c = refH5 (F := Ideal) (launchContents m' c) := by
    unfold kerH5 refH5
    rw [e4]
    exact L5.1
  have hr5 : ∀ i, IsReal (refH5 (F := Ideal) (launchContents m' c) i) := L5.2
  unfold kerResult refResult
  rw [e5, a2, a16, a17, a18, a19]
  exact tail_eq _ _ _ _ _ _

end Join

end Cert.Glue
end
-- ==== Proof.Bridge.lean ====
/-
  The two programs end with the same result array.

  The tiled program's result buffer holds one function of the launch memory's argument arrays (the embedding, five
  layers, the pooling and classifier), and the reference's result buffer holds the reference's function of its own
  argument arrays. The launch memories agree on the arguments, the precondition makes every float argument entrywise
  real, and on such arguments the two functions are one. So the two result buffers hold the same array.
-/
import proofs.«119086_j26585847562989_2_alg».proof.Proof.KernelValue
import proofs.«119086_j26585847562989_2_alg».proof.Proof.RefValue
import proofs.«119086_j26585847562989_2_alg».proof.Proof.ResultJoin

set_option maxRecDepth 16384

noncomputable section

namespace Cert.Bridge

open Idealize.ShloMosaic Idealize.ShloMosaic.TcCoe Idealize.SL.Sem Idealize.ShloMosaic.StableHlo

/-- The tiled program's result buffer after its run and the reference's result buffer after its operations hold the
    same array, when the launch memories agree on the arguments and the precondition holds. -/
theorem result_eq [Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (c : Dev Cert.KernelIdeal.nD) :
    Cert.KernelIdeal.Gen.W35 (F := Ideal) m ρ c (Proc.devRef .tc Cert.KernelIdeal.main_v419)
      = after Cert.ReferenceIdeal.RRun.ops (launchContents m' c) (Cert.ReferenceIdeal.main_v445 : DevRef Cert.ReferenceIdeal.τ Cert.ReferenceIdeal.sig) :=
  (Cert.KernelIdeal.KChain.kernel_value m ρ c).trans
    ((Cert.Glue.result_join m m' hpre hagree c).trans (Cert.ReferenceIdeal.RVal.ref_value (F := Ideal) (launchContents m' c)).symm)

end Cert.Bridge
end
-- ==== Proof.lean ====
/-
  One graph network written twice. The kernel program runs a five-layer message-passing network over 20000 nodes and
  320000 edges as sixteen tiled kernels among host gathers and scatter-additions: an edge encoder, and per layer a dense
  stage ((1 + eps) h + agg) W1 + b1 that also leaves the column sums and column sums of squares of each tile of 2000 rows,
  a stage that normalises those rows by the batch statistics, clamps at zero and applies W2, b2 (again with the tile sums),
  and a last stage that normalises and clamps once more. The reference is the same network in whole-array operations, the
  batch mean and variance taken by a sum over all 20000 rows and by the centred sum of squares.
  At the exact extended reals the two agree. Sums regroup freely, so the ten tile sums add up to the whole column sum and
  both means are one number; a tiled matrix product into a zero accumulator is the whole product row by row; every change
  of float format is the identity. The one law that needs more than regrouping is the variance: on REAL entries
  (Σ z²)/N − ((Σ z)/N)² = (Σ (z − (Σ z)/N)²)/N, which is non-negative, so the kernel's clamp of it at zero does nothing.
  Realness of every entry follows from the precondition (every float input finite): gathers copy entries, scatter-additions
  and matrix products are finite sums of products, and 1/sqrt(var + eps) is real because var ≥ 0 and eps > 0.
-/
import proofs.«119086_j26585847562989_2_alg».proof.Defs
import proofs.«119086_j26585847562989_2_alg».proof.Proof.Gen.Kernel.Frame
import proofs.«119086_j26585847562989_2_alg».proof.Proof.Gen.KernelIdeal.Frame
import proofs.«119086_j26585847562989_2_alg».proof.Proof.Gen.Pre_finite_inputs
import proofs.«119086_j26585847562989_2_alg».proof.Proof.KernelRun
import proofs.«119086_j26585847562989_2_alg».proof.Proof.RefRun
import proofs.«119086_j26585847562989_2_alg».proof.Proof.Bridge

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The exact-value kernel program runs and leaves its arguments as launched. -/
theorem frame_ki : Cert.frame_KernelIdeal := fun m ρ _ => Cert.KernelIdeal.Gen.frame m ρ

/-- The reference is one straight line of host operations, none of which writes an argument. -/
theorem frame_ri : Cert.frame_ReferenceIdeal := fun m ρ _ =>
  (θ_run Cert.ReferenceIdeal.defs _ _).mono (fun r h c => Cert.ReferenceIdeal.RRun.args_kept m c r (h c))
    (Cert.ReferenceIdeal.RRun.run_main (F := Ideal) m ρ)

/-- Nothing of the kernel was rewritten on the way to its exact-value reading. -/
theorem preserves : Cert.preserves_Kernel_KernelIdeal := trivial

/-- Both programs end, and the two result arrays are one array of extended reals. -/
theorem algebraic : Cert.algebraic_KernelIdeal_ReferenceIdeal := by
  intro m ρ m' ρ' hpre hagree
  refine ⟨fun c => Cert.KernelIdeal.Gen.W35 m ρ c (Proc.devRef .tc Cert.KernelIdeal.main_v419),
    Cert.KernelIdeal.KRun.run_result (F := Ideal) m ρ, ?_⟩
  refine (θ_run Cert.ReferenceIdeal.defs _ _).mono (fun r h c => ⟨?_, Cert.ReferenceIdeal.RRun.args_kept m' c r (h c)⟩)
    (Cert.ReferenceIdeal.RRun.run_main (F := Ideal) m' ρ')
  rw [h c Cert.ReferenceIdeal.main_v445]
  exact (Cert.Bridge.result_eq m ρ m' hpre hagree c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
